-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  IdealRules.truncf_extf.Statement Cert.KernelIdeal.S8192x128 .f32 .bf16
  ∧ IdealRules.truncf_extf.Statement Cert.KernelIdeal.S128x64 .f32 .bf16
  ∧ IdealRules.truncf_extf.Statement Cert.KernelIdeal.S8192x64 .f32 .bf16
  ∧ IdealRules.truncf_extf.Statement Cert.KernelIdeal.S64x128 .f32 .bf16
  ∧ IdealRules.truncf_extf.Statement Cert.KernelIdeal.S8192x128 .f32 .bf16
  ∧ IdealRules.truncf_extf.Statement Cert.KernelIdeal.S128x64 .f32 .bf16
  ∧ IdealRules.truncf_extf.Statement Cert.KernelIdeal.S8192x64 .f32 .bf16
  ∧ IdealRules.truncf_extf.Statement Cert.KernelIdeal.S64x128 .f32 .bf16
  ∧ IdealRules.truncf_extf.Statement Cert.KernelIdeal.S8192x128 .f32 .bf16
  ∧ IdealRules.truncf_extf.Statement Cert.KernelIdeal.S128x64 .f32 .bf16
  ∧ IdealRules.truncf_extf.Statement Cert.KernelIdeal.S8192x64 .f32 .bf16
  ∧ IdealRules.truncf_extf.Statement Cert.KernelIdeal.S64x128 .f32 .bf16
  ∧ IdealRules.truncf_extf.Statement Cert.KernelIdeal.S8192x128 .f32 .bf16
  ∧ IdealRules.truncf_extf.Statement Cert.KernelIdeal.S128x64 .f32 .bf16
  ∧ IdealRules.truncf_extf.Statement Cert.KernelIdeal.S8192x64 .f32 .bf16
  ∧ IdealRules.truncf_extf.Statement Cert.KernelIdeal.S64x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v251) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x128 : Shape := ⟨2, ![32768, 128]⟩
abbrev S32768x8192 : Shape := ⟨2, ![32768, 8192]⟩
abbrev S8192x128 : Shape := ⟨2, ![8192, 128]⟩
abbrev S4x128x64 : Shape := ⟨3, ![4, 128, 64]⟩
abbrev S4x64 : Shape := ⟨2, ![4, 64]⟩
abbrev S4x64x1 : Shape := ⟨3, ![4, 64, 1]⟩
abbrev S4x1 : Shape := ⟨2, ![4, 1]⟩
abbrev S4x64x128 : Shape := ⟨3, ![4, 64, 128]⟩
abbrev S4x128 : Shape := ⟨2, ![4, 128]⟩
abbrev S_ : Shape := ⟨0, ![]⟩

class Facts : Prop where
  bcast_S_S32768x128 : S_.BroadcastsInDim S32768x128 (![] : Fin 0 → Fin S32768x128.rank)
  reducesTo_S32768x128_S_d0_1 : S32768x128.ReducesTo [0, 1] S_
  h_S_ : 0 < S_.numel
  bcast_S_S32768x8192 : S_.BroadcastsInDim S32768x8192 (![] : Fin 0 → Fin S32768x8192.rank)
  reducesTo_S32768x8192_S_d0_1 : S32768x8192.ReducesTo [0, 1] S_
  bcast_S_S8192x128 : S_.BroadcastsInDim S8192x128 (![] : Fin 0 → Fin S8192x128.rank)
  reducesTo_S8192x128_S_d0_1 : S8192x128.ReducesTo [0, 1] S_
  bcast_S_S4x128x64 : S_.BroadcastsInDim S4x128x64 (![] : Fin 0 → Fin S4x128x64.rank)
  reducesTo_S4x128x64_S_d0_1_2 : S4x128x64.ReducesTo [0, 1, 2] S_
  bcast_S_S4x64 : S_.BroadcastsInDim S4x64 (![] : Fin 0 → Fin S4x64.rank)
  reducesTo_S4x64_S_d0_1 : S4x64.ReducesTo [0, 1] S_
  bcast_S_S4x64x1 : S_.BroadcastsInDim S4x64x1 (![] : Fin 0 → Fin S4x64x1.rank)
  reducesTo_S4x64x1_S_d0_1_2 : S4x64x1.ReducesTo [0, 1, 2] S_
  bcast_S_S4x1 : S_.BroadcastsInDim S4x1 (![] : Fin 0 → Fin S4x1.rank)
  reducesTo_S4x1_S_d0_1 : S4x1.ReducesTo [0, 1] S_
  bcast_S_S4x64x128 : S_.BroadcastsInDim S4x64x128 (![] : Fin 0 → Fin S4x64x128.rank)
  reducesTo_S4x64x128_S_d0_1_2 : S4x64x128.ReducesTo [0, 1, 2] S_
  bcast_S_S4x128 : S_.BroadcastsInDim S4x128 (![] : Fin 0 → Fin S4x128.rank)
  reducesTo_S4x128_S_d0_1 : S4x128.ReducesTo [0, 1] S_

variable [Facts]

def fn_part3 {F : FTy → Type} [FloatOps F] (main_v48 : IVec S_ 1) (main_v49 : FVec F S4x128 .f32) (main_v50 : FVec F S4x128 .f32) : IVec S_ 1 :=
  let main_v51 : IVec S4x128 1 := cmpf .olt main_v49 main_v50
  let main_c_19 : IVec S_ 1 := constantI S_ 1 1#1
  let main_v52 : IVec S_ 1 := (fun x v => Host.reduce IntOp.andi x v reducesTo_S4x128_S_d0_1 h_S_) main_v51 main_c_19
  let main_v53 : IVec S_ 1 := andi main_v48 main_v52
  main_v53

def fn_part2 {F : FTy → Type} [FloatOps F] (main_arg7 : FVec F S4x64x1 .f32) (main_arg8 : FVec F S4x1 .f32) (main_arg9 : FVec F S4x64x128 .f32) (main_arg10 : FVec F S4x128 .f32) (main_v33 : IVec S_ 1) : IVec S_ 1 :=
  let main_v34 : FVec F S4x64x1 .f32 := Host.absf main_arg7
  let main_cst_12 : FVec F S_ .f32 := constant S_ .f32 0x7F800000#32
  let main_v35 : FVec F S4x64x1 .f32 := broadcastInDim S4x64x1 ![] bcast_S_S4x64x1 main_cst_12
  let main_v36 : IVec S4x64x1 1 := cmpf .olt main_v34 main_v35
  let main_c_13 : IVec S_ 1 := constantI S_ 1 1#1
  let main_v37 : IVec S_ 1 := (fun x v => Host.reduce IntOp.andi x v reducesTo_S4x64x1_S_d0_1_2 h_S_) main_v36 main_c_13
  let main_v38 : IVec S_ 1 := andi main_v33 main_v37
  let main_v39 : FVec F S4x1 .f32 := Host.absf main_arg8
  let main_cst_14 : FVec F S_ .f32 := constant S_ .f32 0x7F800000#32
  let main_v40 : FVec F S4x1 .f32 := broadcastInDim S4x1 ![] bcast_S_S4x1 main_cst_14
  let main_v41 : IVec S4x1 1 := cmpf .olt main_v39 main_v40
  let main_c_15 : IVec S_ 1 := constantI S_ 1 1#1
  let main_v42 : IVec S_ 1 := (fun x v => Host.reduce IntOp.andi x v reducesTo_S4x1_S_d0_1 h_S_) main_v41 main_c_15
  let main_v43 : IVec S_ 1 := andi main_v38 main_v42
  let main_v44 : FVec F S4x64x128 .f32 := Host.absf main_arg9
  let main_cst_16 : FVec F S_ .f32 := constant S_ .f32 0x7F800000#32
  let main_v45 : FVec F S4x64x128 .f32 := broadcastInDim S4x64x128 ![] bcast_S_S4x64x128 main_cst_16
  let main_v46 : IVec S4x64x128 1 := cmpf .olt main_v44 main_v45
  let main_c_17 : IVec S_ 1 := constantI S_ 1 1#1
  let main_v47 : IVec S_ 1 := (fun x v => Host.reduce IntOp.andi x v reducesTo_S4x64x128_S_d0_1_2 h_S_) main_v46 main_c_17
  let main_v48 : IVec S_ 1 := andi main_v43 main_v47
  let main_v49 : FVec F S4x128 .f32 := Host.absf main_arg10
  let main_cst_18 : FVec F S_ .f32 := constant S_ .f32 0x7F800000#32
  let main_v50 : FVec F S4x128 .f32 := broadcastInDim S4x128 ![] bcast_S_S4x128 main_cst_18
  fn_part3 (F := F) main_v48 main_v49 main_v50

def fn_part1 {F : FTy → Type} [FloatOps F] (main_arg4 : FVec F S4x64 .f32) (main_arg5 : FVec F S4x128x64 .f32) (main_arg6 : FVec F S4x64 .f32) (main_arg7 : FVec F S4x64x1 .f32) (main_arg8 : FVec F S4x1 .f32) (main_arg9 : FVec F S4x64x128 .f32) (main_arg10 : FVec F S4x128 .f32) (main_v13 : IVec S_ 1) (main_v16 : IVec S4x128x64 1) : IVec S_ 1 :=
  let main_c_5 : IVec S_ 1 := constantI S_ 1 1#1
  let main_v17 : IVec S_ 1 := (fun x v => Host.reduce IntOp.andi x v reducesTo_S4x128x64_S_d0_1_2 h_S_) main_v16 main_c_5
  let main_v18 : IVec S_ 1 := andi main_v13 main_v17
  let main_v19 : FVec F S4x64 .f32 := Host.absf main_arg4
  let main_cst_6 : FVec F S_ .f32 := constant S_ .f32 0x7F800000#32
  let main_v20 : FVec F S4x64 .f32 := broadcastInDim S4x64 ![] bcast_S_S4x64 main_cst_6
  let main_v21 : IVec S4x64 1 := cmpf .olt main_v19 main_v20
  let main_c_7 : IVec S_ 1 := constantI S_ 1 1#1
  let main_v22 : IVec S_ 1 := (fun x v => Host.reduce IntOp.andi x v reducesTo_S4x64_S_d0_1 h_S_) main_v21 main_c_7
  let main_v23 : IVec S_ 1 := andi main_v18 main_v22
  let main_v24 : FVec F S4x128x64 .f32 := Host.absf main_arg5
  let main_cst_8 : FVec F S_ .f32 := constant S_ .f32 0x7F800000#32
  let main_v25 : FVec F S4x128x64 .f32 := broadcastInDim S4x128x64 ![] bcast_S_S4x128x64 main_cst_8
  let main_v26 : IVec S4x128x64 1 := cmpf .olt main_v24 main_v25
  let main_c_9 : IVec S_ 1 := constantI S_ 1 1#1
  let main_v27 : IVec S_ 1 := (fun x v => Host.reduce IntOp.andi x v reducesTo_S4x128x64_S_d0_1_2 h_S_) main_v26 main_c_9
  let main_v28 : IVec S_ 1 := andi main_v23 main_v27
  let main_v29 : FVec F S4x64 .f32 := Host.absf main_arg6
  let main_cst_10 : FVec F S_ .f32 := constant S_ .f32 0x7F800000#32
  let main_v30 : FVec F S4x64 .f32 := broadcastInDim S4x64 ![] bcast_S_S4x64 main_cst_10
  let main_v31 : IVec S4x64 1 := cmpf .olt main_v29 main_v30
  let main_c_11 : IVec S_ 1 := constantI S_ 1 1#1
  let main_v32 : IVec S_ 1 := (fun x v => Host.reduce IntOp.andi x v reducesTo_S4x64_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S32768x128 .f32) (main_arg1 : FVec F S32768x8192 .f32) (main_arg2 : FVec F S8192x128 .f32) (main_arg3 : FVec F S4x128x64 .f32) (main_arg4 : FVec F S4x64 .f32) (main_arg5 : FVec F S4x128x64 .f32) (main_arg6 : FVec F S4x64 .f32) (main_arg7 : FVec F S4x64x1 .f32) (main_arg8 : FVec F S4x1 .f32) (main_arg9 : FVec F S4x64x128 .f32) (main_arg10 : FVec F S4x128 .f32) : IVec S_ 1 :=
  let main_v0 : FVec F S32768x128 .f32 := Host.absf main_arg0
  let main_cst : FVec F S_ .f32 := constant S_ .f32 0x7F800000#32
  let main_v1 : FVec F S32768x128 .f32 := broadcastInDim S32768x128 ![] bcast_S_S32768x128 main_cst
  let main_v2 : IVec S32768x128 1 := cmpf .olt main_v0 main_v1
  let main_c : IVec S_ 1 := constantI S_ 1 1#1
  let main_v3 : IVec S_ 1 := (fun x v => Host.reduce IntOp.andi x v reducesTo_S32768x128_S_d0_1 h_S_) main_v2 main_c
  let main_v4 : FVec F S32768x8192 .f32 := Host.absf main_arg1
  let main_cst_0 : FVec F S_ .f32 := constant S_ .f32 0x7F800000#32
  let main_v5 : FVec F S32768x8192 .f32 := broadcastInDim S32768x8192 ![] bcast_S_S32768x8192 main_cst_0
  let main_v6 : IVec S32768x8192 1 := cmpf .olt main_v4 main_v5
  let main_c_1 : IVec S_ 1 := constantI S_ 1 1#1
  let main_v7 : IVec S_ 1 := (fun x v => Host.reduce IntOp.andi x v reducesTo_S32768x8192_S_d0_1 h_S_) main_v6 main_c_1
  let main_v8 : IVec S_ 1 := andi main_v3 main_v7
  let main_v9 : FVec F S8192x128 .f32 := Host.absf main_arg2
  let main_cst_2 : FVec F S_ .f32 := constant S_ .f32 0x7F800000#32
  let main_v10 : FVec F S8192x128 .f32 := broadcastInDim S8192x128 ![] bcast_S_S8192x128 main_cst_2
  let main_v11 : IVec S8192x128 1 := cmpf .olt main_v9 main_v10
  let main_c_3 : IVec S_ 1 := constantI S_ 1 1#1
  let main_v12 : IVec S_ 1 := (fun x v => Host.reduce IntOp.andi x v reducesTo_S8192x128_S_d0_1 h_S_) main_v11 main_c_3
  let main_v13 : IVec S_ 1 := andi main_v8 main_v12
  let main_v14 : FVec F S4x128x64 .f32 := Host.absf main_arg3
  let main_cst_4 : FVec F S_ .f32 := constant S_ .f32 0x7F800000#32
  let main_v15 : FVec F S4x128x64 .f32 := broadcastInDim S4x128x64 ![] bcast_S_S4x128x64 main_cst_4
  let main_v16 : IVec S4x128x64 1 := cmpf .olt main_v14 main_v15
  fn_part1 (F := F) main_arg4 main_arg5 main_arg6 main_arg7 main_arg8 main_arg9 main_arg10 main_v13 main_v16
-- ==== Kernel.lean ====
abbrev S32768x128 : Shape := ⟨2, ![32768, 128]⟩
abbrev S32768x8192 : Shape := ⟨2, ![32768, 8192]⟩
abbrev S8192x128 : Shape := ⟨2, ![8192, 128]⟩
abbrev S4x128x64 : Shape := ⟨3, ![4, 128, 64]⟩
abbrev S4x64 : Shape := ⟨2, ![4, 64]⟩
abbrev S4x64x1 : Shape := ⟨3, ![4, 64, 1]⟩
abbrev S4x1 : Shape := ⟨2, ![4, 1]⟩
abbrev S4x64x128 : Shape := ⟨3, ![4, 64, 128]⟩
abbrev S4x128 : Shape := ⟨2, ![4, 128]⟩
abbrev S128x4x64 : Shape := ⟨3, ![128, 4, 64]⟩
abbrev S128x256 : Shape := ⟨2, ![128, 256]⟩
abbrev S256 : Shape := ⟨1, ![256]⟩
abbrev S8192x256 : Shape := ⟨2, ![8192, 256]⟩
abbrev S1x256 : Shape := ⟨2, ![1, 256]⟩
abbrev S32768x256 : Shape := ⟨2, ![32768, 256]⟩
abbrev S256x8192 : Shape := ⟨2, ![256, 8192]⟩
abbrev S256x256 : Shape := ⟨2, ![256, 256]⟩
abbrev S256x1 : Shape := ⟨2, ![256, 1]⟩
abbrev S1x128x64 : Shape := ⟨3, ![1, 128, 64]⟩
abbrev S128x64 : Shape := ⟨2, ![128, 64]⟩
abbrev S1x64 : Shape := ⟨2, ![1, 64]⟩
abbrev S64 : Shape := ⟨1, ![64]⟩
abbrev S1x64x1 : Shape := ⟨3, ![1, 64, 1]⟩
abbrev S64x1 : Shape := ⟨2, ![64, 1]⟩
abbrev S1x1 : Shape := ⟨2, ![1, 1]⟩
abbrev S1 : Shape := ⟨1, ![1]⟩
abbrev S1x64x128 : Shape := ⟨3, ![1, 64, 128]⟩
abbrev S64x128 : Shape := ⟨2, ![64, 128]⟩
abbrev S1x128 : Shape := ⟨2, ![1, 128]⟩
abbrev S128 : Shape := ⟨1, ![128]⟩
abbrev S8192x64 : Shape := ⟨2, ![8192, 64]⟩
abbrev S8192 : Shape := ⟨1, ![8192]⟩
abbrev S8192x1 : Shape := ⟨2, ![8192, 1]⟩
abbrev S_ : Shape := ⟨0, ![]⟩

abbrev nBuf : Space → Nat
  | .hbm => 110
  | .vmem => 76
  | .smem => 0
  | _ => 0

abbrev bufTy : (tb : Table) → Fin (tcTables nBuf tb) → BufTy
  | .hbm, ⟨0, _⟩ => ⟨S32768x128, .f32⟩
  | .hbm, ⟨1, _⟩ => ⟨S32768x8192, .f32⟩
  | .hbm, ⟨2, _⟩ => ⟨S8192x128, .f32⟩
  | .hbm, ⟨3, _⟩ => ⟨S4x128x64, .f32⟩
  | .hbm, ⟨4, _⟩ => ⟨S4x64, .f32⟩
  | .hbm, ⟨5, _⟩ => ⟨S4x128x64, .f32⟩
  | .hbm, ⟨6, _⟩ => ⟨S4x64, .f32⟩
  | .hbm, ⟨7, _⟩ => ⟨S4x64x1, .f32⟩
  | .hbm, ⟨8, _⟩ => ⟨S4x1, .f32⟩
  | .hbm, ⟨9, _⟩ => ⟨S4x64x128, .f32⟩
  | .hbm, ⟨10, _⟩ => ⟨S4x128, .f32⟩
  | .hbm, ⟨11, _⟩ => ⟨S128x4x64, .f32⟩
  | .hbm, ⟨12, _⟩ => ⟨S128x256, .f32⟩
  | .hbm, ⟨13, _⟩ => ⟨S256, .f32⟩
  | .hbm, ⟨14, _⟩ => ⟨S8192x256, .f32⟩
  | .hbm, ⟨15, _⟩ => ⟨S1x256, .f32⟩
  | .hbm, ⟨16, _⟩ => ⟨S8192x256, .f32⟩
  | .hbm, ⟨17, _⟩ => ⟨S8192x256, .f32⟩
  | .hbm, ⟨18, _⟩ => ⟨S8192x256, .bf16⟩
  | .hbm, ⟨19, _⟩ => ⟨S8192x256, .f32⟩
  | .hbm, ⟨20, _⟩ => ⟨S8192x256, .f32⟩
  | .hbm, ⟨21, _⟩ => ⟨S8192x256, .bf16⟩
  | .hbm, ⟨22, _⟩ => ⟨S32768x256, .f32⟩
  | .hbm, ⟨23, _⟩ => ⟨S1x128x64, .f32⟩
  | .hbm, ⟨24, _⟩ => ⟨S128x64, .f32⟩
  | .hbm, ⟨25, _⟩ => ⟨S1x64, .f32⟩
  | .hbm, ⟨26, _⟩ => ⟨S64, .f32⟩
  | .hbm, ⟨27, _⟩ => ⟨S1x64, .f32⟩
  | .hbm, ⟨28, _⟩ => ⟨S1x64x1, .f32⟩
  | .hbm, ⟨29, _⟩ => ⟨S64x1, .f32⟩
  | .hbm, ⟨30, _⟩ => ⟨S1x64, .f32⟩
  | .hbm, ⟨31, _⟩ => ⟨S1x1, .f32⟩
  | .hbm, ⟨32, _⟩ => ⟨S1, .f32⟩
  | .hbm, ⟨33, _⟩ => ⟨S1x1, .f32⟩
  | .hbm, ⟨34, _⟩ => ⟨S1x64x128, .f32⟩
  | .hbm, ⟨35, _⟩ => ⟨S64x128, .f32⟩
  | .hbm, ⟨36, _⟩ => ⟨S1x128, .f32⟩
  | .hbm, ⟨37, _⟩ => ⟨S128, .f32⟩
  | .hbm, ⟨38, _⟩ => ⟨S1x128, .f32⟩
  | .hbm, ⟨39, _⟩ => ⟨S32768x128, .f32⟩
  | .hbm, ⟨40, _⟩ => ⟨S1x128, .f32⟩
  | .hbm, ⟨41, _⟩ => ⟨S1x128, .f32⟩
  | .hbm, ⟨42, _⟩ => ⟨S1x128x64, .f32⟩
  | .hbm, ⟨43, _⟩ => ⟨S128x64, .f32⟩
  | .hbm, ⟨44, _⟩ => ⟨S1x64, .f32⟩
  | .hbm, ⟨45, _⟩ => ⟨S64, .f32⟩
  | .hbm, ⟨46, _⟩ => ⟨S1x64, .f32⟩
  | .hbm, ⟨47, _⟩ => ⟨S1x64x1, .f32⟩
  | .hbm, ⟨48, _⟩ => ⟨S64x1, .f32⟩
  | .hbm, ⟨49, _⟩ => ⟨S1x64, .f32⟩
  | .hbm, ⟨50, _⟩ => ⟨S1x1, .f32⟩
  | .hbm, ⟨51, _⟩ => ⟨S1, .f32⟩
  | .hbm, ⟨52, _⟩ => ⟨S1x1, .f32⟩
  | .hbm, ⟨53, _⟩ => ⟨S1x64x128, .f32⟩
  | .hbm, ⟨54, _⟩ => ⟨S64x128, .f32⟩
  | .hbm, ⟨55, _⟩ => ⟨S1x128, .f32⟩
  | .hbm, ⟨56, _⟩ => ⟨S128, .f32⟩
  | .hbm, ⟨57, _⟩ => ⟨S1x128, .f32⟩
  | .hbm, ⟨58, _⟩ => ⟨S32768x128, .f32⟩
  | .hbm, ⟨59, _⟩ => ⟨S1x128, .f32⟩
  | .hbm, ⟨60, _⟩ => ⟨S1x128, .f32⟩
  | .hbm, ⟨61, _⟩ => ⟨S1x128x64, .f32⟩
  | .hbm, ⟨62, _⟩ => ⟨S128x64, .f32⟩
  | .hbm, ⟨63, _⟩ => ⟨S1x64, .f32⟩
  | .hbm, ⟨64, _⟩ => ⟨S64, .f32⟩
  | .hbm, ⟨65, _⟩ => ⟨S1x64, .f32⟩
  | .hbm, ⟨66, _⟩ => ⟨S1x64x1, .f32⟩
  | .hbm, ⟨67, _⟩ => ⟨S64x1, .f32⟩
  | .hbm, ⟨68, _⟩ => ⟨S1x64, .f32⟩
  | .hbm, ⟨69, _⟩ => ⟨S1x1, .f32⟩
  | .hbm, ⟨70, _⟩ => ⟨S1, .f32⟩
  | .hbm, ⟨71, _⟩ => ⟨S1x1, .f32⟩
  | .hbm, ⟨72, _⟩ => ⟨S1x64x128, .f32⟩
  | .hbm, ⟨73, _⟩ => ⟨S64x128, .f32⟩
  | .hbm, ⟨74, _⟩ => ⟨S1x128, .f32⟩
  | .hbm, ⟨75, _⟩ => ⟨S128, .f32⟩
  | .hbm, ⟨76, _⟩ => ⟨S1x128, .f32⟩
  | .hbm, ⟨77, _⟩ => ⟨S32768x128, .f32⟩
  | .hbm, ⟨78, _⟩ => ⟨S1x128, .f32⟩
  | .hbm, ⟨79, _⟩ => ⟨S1x128, .f32⟩
  | .hbm, ⟨80, _⟩ => ⟨S1x128x64, .f32⟩
  | .hbm, ⟨81, _⟩ => ⟨S128x64, .f32⟩
  | .hbm, ⟨82, _⟩ => ⟨S1x64, .f32⟩
  | .hbm, ⟨83, _⟩ => ⟨S64, .f32⟩
  | .hbm, ⟨84, _⟩ => ⟨S1x64, .f32⟩
  | .hbm, ⟨85, _⟩ => ⟨S1x64x1, .f32⟩
  | .hbm, ⟨86, _⟩ => ⟨S64x1, .f32⟩
  | .hbm, ⟨87, _⟩ => ⟨S1x64, .f32⟩
  | .hbm, ⟨88, _⟩ => ⟨S1x1, .f32⟩
  | .hbm, ⟨89, _⟩ => ⟨S1, .f32⟩
  | .hbm, ⟨90, _⟩ => ⟨S1x1, .f32⟩
  | .hbm, ⟨91, _⟩ => ⟨S1x64x128, .f32⟩
  | .hbm, ⟨92, _⟩ => ⟨S64x128, .f32⟩
  | .hbm, ⟨93, _⟩ => ⟨S1x128, .f32⟩
  | .hbm, ⟨94, _⟩ => ⟨S128, .f32⟩
  | .hbm, ⟨95, _⟩ => ⟨S1x128, .f32⟩
  | .hbm, ⟨96, _⟩ => ⟨S32768x128, .f32⟩
  | .hbm, ⟨97, _⟩ => ⟨S1x128, .f32⟩
  | .hbm, ⟨98, _⟩ => ⟨S1x128, .f32⟩
  | .hbm, ⟨99, _⟩ => ⟨S32768x128, .f32⟩
  | .hbm, ⟨100, _⟩ => ⟨S32768x128, .f32⟩
  | .hbm, ⟨101, _⟩ => ⟨S1x128, .f32⟩
  | .hbm, ⟨102, _⟩ => ⟨S_, .f32⟩
  | .hbm, ⟨103, _⟩ => ⟨S1x128, .f32⟩
  | .hbm, ⟨104, _⟩ => ⟨S1x128, .f32⟩
  | .hbm, ⟨105, _⟩ => ⟨S32768x128, .f32⟩
  | .hbm, ⟨106, _⟩ => ⟨S32768x128, .f32⟩
  | .hbm, ⟨107, _⟩ => ⟨S_, .f32⟩
  | .hbm, ⟨108, _⟩ => ⟨S32768x128, .f32⟩
  | .hbm, ⟨109, _⟩ => ⟨S32768x128, .f32⟩
  | .local _ .vmem, ⟨0, _⟩ => ⟨S256x8192, .f32⟩
  | .local _ .vmem, ⟨1, _⟩ => ⟨S256x8192, .f32⟩
  | .local _ .vmem, ⟨2, _⟩ => ⟨S8192x256, .bf16⟩
  | .local _ .vmem, ⟨3, _⟩ => ⟨S8192x256, .bf16⟩
  | .local _ .vmem, ⟨4, _⟩ => ⟨S256x256, .f32⟩
  | .local _ .vmem, ⟨5, _⟩ => ⟨S256x256, .f32⟩
  | .local _ .vmem, ⟨6, _⟩ => ⟨S8192x128, .f32⟩
  | .local _ .vmem, ⟨7, _⟩ => ⟨S8192x128, .f32⟩
  | .local _ .vmem, ⟨8, _⟩ => ⟨S8192x128, .f32⟩
  | .local _ .vmem, ⟨9, _⟩ => ⟨S8192x128, .f32⟩
  | .local _ .vmem, ⟨10, _⟩ => ⟨S128x64, .f32⟩
  | .local _ .vmem, ⟨11, _⟩ => ⟨S1x64, .f32⟩
  | .local _ .vmem, ⟨12, _⟩ => ⟨S1x64, .f32⟩
  | .local _ .vmem, ⟨13, _⟩ => ⟨S1x1, .f32⟩
  | .local _ .vmem, ⟨14, _⟩ => ⟨S64x128, .f32⟩
  | .local _ .vmem, ⟨15, _⟩ => ⟨S1x128, .f32⟩
  | .local _ .vmem, ⟨16, _⟩ => ⟨S8192x128, .f32⟩
  | .local _ .vmem, ⟨17, _⟩ => ⟨S8192x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S8192x128, .f32⟩
  | .local _ .vmem, ⟨23, _⟩ => ⟨S8192x128, .f32⟩
  | .local _ .vmem, ⟨24, _⟩ => ⟨S8192x128, .f32⟩
  | .local _ .vmem, ⟨25, _⟩ => ⟨S8192x128, .f32⟩
  | .local _ .vmem, ⟨26, _⟩ => ⟨S128x64, .f32⟩
  | .local _ .vmem, ⟨27, _⟩ => ⟨S1x64, .f32⟩
  | .local _ .vmem, ⟨28, _⟩ => ⟨S1x64, .f32⟩
  | .local _ .vmem, ⟨29, _⟩ => ⟨S1x1, .f32⟩
  | .local _ .vmem, ⟨30, _⟩ => ⟨S64x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S8192x128, .f32⟩
  | .local _ .vmem, ⟨35, _⟩ => ⟨S8192x128, .f32⟩
  | .local _ .vmem, ⟨36, _⟩ => ⟨S1x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S8192x128, .f32⟩
  | .local _ .vmem, ⟨41, _⟩ => ⟨S8192x128, .f32⟩
  | .local _ .vmem, ⟨42, _⟩ => ⟨S8192x128, .f32⟩
  | .local _ .vmem, ⟨43, _⟩ => ⟨S8192x128, .f32⟩
  | .local _ .vmem, ⟨44, _⟩ => ⟨S128x64, .f32⟩
  | .local _ .vmem, ⟨45, _⟩ => ⟨S1x64, .f32⟩
  | .local _ .vmem, ⟨46, _⟩ => ⟨S1x64, .f32⟩
  | .local _ .vmem, ⟨47, _⟩ => ⟨S1x1, .f32⟩
  | .local _ .vmem, ⟨48, _⟩ => ⟨S64x128, .f32⟩
  | .local _ .vmem, ⟨49, _⟩ => ⟨S1x128, .f32⟩
  | .local _ .vmem, ⟨50, _⟩ => ⟨S1x128, .f32⟩
  | .local _ .vmem, ⟨51, _⟩ => ⟨S1x128, .f32⟩
  | .local _ .vmem, ⟨52, _⟩ => ⟨S8192x128, .f32⟩
  | .local _ .vmem, ⟨53, _⟩ => ⟨S8192x128, .f32⟩
  | .local _ .vmem, ⟨54, _⟩ => ⟨S1x128, .f32⟩
  | .local _ .vmem, ⟨55, _⟩ => ⟨S1x128, .f32⟩
  | .local _ .vmem, ⟨56, _⟩ => ⟨S1x128, .f32⟩
  | .local _ .vmem, ⟨57, _⟩ => ⟨S1x128, .f32⟩
  | .local _ .vmem, ⟨58, _⟩ => ⟨S8192x128, .f32⟩
  | .local _ .vmem, ⟨59, _⟩ => ⟨S8192x128, .f32⟩
  | .local _ .vmem, ⟨60, _⟩ => ⟨S8192x128, .f32⟩
  | .local _ .vmem, ⟨61, _⟩ => ⟨S8192x128, .f32⟩
  | .local _ .vmem, ⟨62, _⟩ => ⟨S128x64, .f32⟩
  | .local _ .vmem, ⟨63, _⟩ => ⟨S1x64, .f32⟩
  | .local _ .vmem, ⟨64, _⟩ => ⟨S1x64, .f32⟩
  | .local _ .vmem, ⟨65, _⟩ => ⟨S1x1, .f32⟩
  | .local _ .vmem, ⟨66, _⟩ => ⟨S64x128, .f32⟩
  | .local _ .vmem, ⟨67, _⟩ => ⟨S1x128, .f32⟩
  | .local _ .vmem, ⟨68, _⟩ => ⟨S1x128, .f32⟩
  | .local _ .vmem, ⟨69, _⟩ => ⟨S1x128, .f32⟩
  | .local _ .vmem, ⟨70, _⟩ => ⟨S8192x128, .f32⟩
  | .local _ .vmem, ⟨71, _⟩ => ⟨S8192x128, .f32⟩
  | .local _ .vmem, ⟨72, _⟩ => ⟨S1x128, .f32⟩
  | .local _ .vmem, ⟨73, _⟩ => ⟨S1x128, .f32⟩
  | .local _ .vmem, ⟨74, _⟩ => ⟨S1x128, .f32⟩
  | .local _ .vmem, ⟨75, _⟩ => ⟨S1x128, .f32⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28_0 : Ref sig .tc := ⟨.hbm, 39, rfl⟩
abbrev main_v28_1 : Ref sig .tc := ⟨.hbm, 40, rfl⟩
abbrev main_v28_2 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45_0 : Ref sig .tc := ⟨.hbm, 58, rfl⟩
abbrev main_v45_1 : Ref sig .tc := ⟨.hbm, 59, rfl⟩
abbrev main_v45_2 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62_0 : Ref sig .tc := ⟨.hbm, 77, rfl⟩
abbrev main_v62_1 : Ref sig .tc := ⟨.hbm, 78, rfl⟩
abbrev main_v62_2 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79_0 : Ref sig .tc := ⟨.hbm, 96, rfl⟩
abbrev main_v79_1 : Ref sig .tc := ⟨.hbm, 97, rfl⟩
abbrev main_v79_2 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_cst : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_call0_cst : Ref sig .tc := ⟨.hbm, 107, rfl⟩
abbrev main_call0_v0 : Ref sig .tc := ⟨.hbm, 108, rfl⟩
abbrev main_v87 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg8_1 : Ref sig .tc := ⟨.vmem, 17, rfl⟩
abbrev cc1_stg9_0 : Ref sig .tc := ⟨.vmem, 18, rfl⟩
abbrev cc1_stg10_0 : Ref sig .tc := ⟨.vmem, 19, rfl⟩
abbrev cc1_scratch0 : Ref sig .tc := ⟨.vmem, 20, rfl⟩
abbrev cc1_scratch1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg8_0 : Ref sig .tc := ⟨.vmem, 32, rfl⟩
abbrev cc2_stg9_0 : Ref sig .tc := ⟨.vmem, 33, rfl⟩
abbrev cc2_stg10_0 : Ref sig .tc := ⟨.vmem, 34, rfl⟩
abbrev cc2_stg10_1 : Ref sig .tc := ⟨.vmem, 35, rfl⟩
abbrev cc2_stg11_0 : Ref sig .tc := ⟨.vmem, 36, rfl⟩
abbrev cc2_stg12_0 : Ref sig .tc := ⟨.vmem, 37, rfl⟩
abbrev cc2_scratch0 : Ref sig .tc := ⟨.vmem, 38, rfl⟩
abbrev cc2_scratch1 : Ref sig .tc := ⟨.vmem, 39, rfl⟩
abbrev cc3_stg0_0 : Ref sig .tc := ⟨.vmem, 40, rfl⟩
abbrev cc3_stg0_1 : Ref sig .tc := ⟨.vmem, 41, rfl⟩
abbrev cc3_stg1_0 : Ref sig .tc := ⟨.vmem, 42, rfl⟩
abbrev cc3_stg1_1 : Ref sig .tc := ⟨.vmem, 43, rfl⟩
abbrev cc3_stg2_0 : Ref sig .tc := ⟨.vmem, 44, rfl⟩
abbrev cc3_stg3_0 : Ref sig .tc := ⟨.vmem, 45, rfl⟩
abbrev cc3_stg4_0 : Ref sig .tc := ⟨.vmem, 46, rfl⟩
abbrev cc3_stg5_0 : Ref sig .tc := ⟨.vmem, 47, rfl⟩
abbrev cc3_stg6_0 : Ref sig .tc := ⟨.vmem, 48, rfl⟩
abbrev cc3_stg7_0 : Ref sig .tc := ⟨.vmem, 49, rfl⟩
abbrev cc3_stg8_0 : Ref sig .tc := ⟨.vmem, 50, rfl⟩
abbrev cc3_stg9_0 : Ref sig .tc := ⟨.vmem, 51, rfl⟩
abbrev cc3_stg10_0 : Ref sig .tc := ⟨.vmem, 52, rfl⟩
abbrev cc3_stg10_1 : Ref sig .tc := ⟨.vmem, 53, rfl⟩
abbrev cc3_stg11_0 : Ref sig .tc := ⟨.vmem, 54, rfl⟩
abbrev cc3_stg12_0 : Ref sig .tc := ⟨.vmem, 55, rfl⟩
abbrev cc3_scratch0 : Ref sig .tc := ⟨.vmem, 56, rfl⟩
abbrev cc3_scratch1 : Ref sig .tc := ⟨.vmem, 57, rfl⟩
abbrev cc4_stg0_0 : Ref sig .tc := ⟨.vmem, 58, rfl⟩
abbrev cc4_stg0_1 : Ref sig .tc := ⟨.vmem, 59, rfl⟩
abbrev cc4_stg1_0 : Ref sig .tc := ⟨.vmem, 60, rfl⟩
abbrev cc4_stg1_1 : Ref sig .tc := ⟨.vmem, 61, rfl⟩
abbrev cc4_stg2_0 : Ref sig .tc := ⟨.vmem, 62, rfl⟩
abbrev cc4_stg3_0 : Ref sig .tc := ⟨.vmem, 63, rfl⟩
abbrev cc4_stg4_0 : Ref sig .tc := ⟨.vmem, 64, rfl⟩
abbrev cc4_stg5_0 : Ref sig .tc := ⟨.vmem, 65, rfl⟩
abbrev cc4_stg6_0 : Ref sig .tc := ⟨.vmem, 66, rfl⟩
abbrev cc4_stg7_0 : Ref sig .tc := ⟨.vmem, 67, rfl⟩
abbrev cc4_stg8_0 : Ref sig .tc := ⟨.vmem, 68, rfl⟩
abbrev cc4_stg9_0 : Ref sig .tc := ⟨.vmem, 69, rfl⟩
abbrev cc4_stg10_0 : Ref sig .tc := ⟨.vmem, 70, rfl⟩
abbrev cc4_stg10_1 : Ref sig .tc := ⟨.vmem, 71, rfl⟩
abbrev cc4_stg11_0 : Ref sig .tc := ⟨.vmem, 72, rfl⟩
abbrev cc4_stg12_0 : Ref sig .tc := ⟨.vmem, 73, rfl⟩
abbrev cc4_scratch0 : Ref sig .tc := ⟨.vmem, 74, rfl⟩
abbrev cc4_scratch1 : Ref sig .tc := ⟨.vmem, 75, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem8_1 : DmaSem sig := 17
abbrev cc1_sem9_0 : DmaSem sig := 18
abbrev cc1_sem10_0 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem7_0 : DmaSem sig := 29
abbrev cc2_sem8_0 : DmaSem sig := 30
abbrev cc2_sem9_0 : DmaSem sig := 31
abbrev cc2_sem10_0 : DmaSem sig := 32
abbrev cc2_sem10_1 : DmaSem sig := 33
abbrev cc2_sem11_0 : DmaSem sig := 34
abbrev cc2_sem12_0 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc3_sem3_0 : DmaSem sig := 41
abbrev cc3_sem4_0 : DmaSem sig := 42
abbrev cc3_sem5_0 : DmaSem sig := 43
abbrev cc3_sem6_0 : DmaSem sig := 44
abbrev cc3_sem7_0 : DmaSem sig := 45
abbrev cc3_sem8_0 : DmaSem sig := 46
abbrev cc3_sem9_0 : DmaSem sig := 47
abbrev cc3_sem10_0 : DmaSem sig := 48
abbrev cc3_sem10_1 : DmaSem sig := 49
abbrev cc3_sem11_0 : DmaSem sig := 50
abbrev cc3_sem12_0 : DmaSem sig := 51
abbrev cc4_sem0_0 : DmaSem sig := 52
abbrev cc4_sem0_1 : DmaSem sig := 53
abbrev cc4_sem1_0 : DmaSem sig := 54
abbrev cc4_sem1_1 : DmaSem sig := 55
abbrev cc4_sem2_0 : DmaSem sig := 56
abbrev cc4_sem3_0 : DmaSem sig := 57
abbrev cc4_sem4_0 : DmaSem sig := 58
abbrev cc4_sem5_0 : DmaSem sig := 59
abbrev cc4_sem6_0 : DmaSem sig := 60
abbrev cc4_sem7_0 : DmaSem sig := 61
abbrev cc4_sem8_0 : DmaSem sig := 62
abbrev cc4_sem9_0 : DmaSem sig := 63
abbrev cc4_sem10_0 : DmaSem sig := 64
abbrev cc4_sem10_1 : DmaSem sig := 65
abbrev cc4_sem11_0 : DmaSem sig := 66
abbrev cc4_sem12_0 : DmaSem sig := 67

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8192x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

def k1_cond3 (i : grid1.Coords) : BitVec 1 :=
  let arg0 : BitVec 32 := BitVec.ofNat 32 (i 0).val
  let c3_i32 : BitVec 32 := 3#32
  let v69 : BitVec 1 := Scalar.cmpi .eq arg0 c3_i32
  let v70 : BitVec 32 := Scalar.extui v69
  let c0_i32_28 : BitVec 32 := 0#32
  let v71 : BitVec 1 := Scalar.cmpi .ne v70 c0_i32_28
  v71

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S8192x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S8192x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev grid2 : Pipeline.Grid := ⟨1, ![4], ![false]⟩

def k2_cond3 (i : grid2.Coords) : BitVec 1 :=
  let arg0 : BitVec 32 := BitVec.ofNat 32 (i 0).val
  let c3_i32 : BitVec 32 := 3#32
  let v83 : BitVec 1 := Scalar.cmpi .eq arg0 c3_i32
  let v84 : BitVec 32 := Scalar.extui v83
  let c0_i32_34 : BitVec 32 := 0#32
  let v85 : BitVec 1 := Scalar.cmpi .ne v84 c0_i32_34
  v85

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S8192x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8192x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S8192x128 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev stage2_11 : Fin 1 → Memref sig .tc .vmem S1x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x128 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev grid3 : Pipeline.Grid := ⟨1, ![4], ![false]⟩

def k3_cond3 (i : grid3.Coords) : BitVec 1 :=
  let arg0 : BitVec 32 := BitVec.ofNat 32 (i 0).val
  let c3_i32 : BitVec 32 := 3#32
  let v83 : BitVec 1 := Scalar.cmpi .eq arg0 c3_i32
  let v84 : BitVec 32 := Scalar.extui v83
  let c0_i32_34 : BitVec 32 := 0#32
  let v85 : BitVec 1 := Scalar.cmpi .ne v84 c0_i32_34
  v85

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c1_i32 : BitVec 32 := 1#32
  let c0_i32 : BitVec 32 := 0#32
  ![arg0.toNat, c1_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S8192x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8192x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S64x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 2 → Memref sig .tc .vmem S8192x128 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev stage3_11 : Fin 1 → Memref sig .tc .vmem S1x128 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S1x128 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev grid4 : Pipeline.Grid := ⟨1, ![4], ![false]⟩

def k4_cond3 (i : grid4.Coords) : BitVec 1 :=
  let arg0 : BitVec 32 := BitVec.ofNat 32 (i 0).val
  let c3_i32 : BitVec 32 := 3#32
  let v83 : BitVec 1 := Scalar.cmpi .eq arg0 c3_i32
  let v84 : BitVec 32 := Scalar.extui v83
  let c0_i32_34 : BitVec 32 := 0#32
  let v85 : BitVec 1 := Scalar.cmpi .ne v84 c0_i32_34
  v85

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c1_i32 : BitVec 32 := 1#32
  let c0_i32 : BitVec 32 := 0#32
  ![arg0.toNat, c1_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_11 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_12 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S8192x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8192x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S64x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S1x128 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 2 → Memref sig .tc .vmem S8192x128 .f32 := fun | 0 => Memref.whole cc4_stg10_0 | 1 => Memref.whole cc4_stg10_1 | ⟨_ + 2, h⟩ => absurd h (Nat.not_lt.2 (Nat.le_add_left _ _))
abbrev sem4_10 : Fin 2 → DmaSem sig := fun | 0 => cc4_sem10_0 | 1 => cc4_sem10_1 | ⟨_ + 2, h⟩ => absurd h (Nat.not_lt.2 (Nat.le_add_left _ _))
abbrev reads4_10 : Fin grid4.rank → Bool := ![true]

abbrev stage4_11 : Fin 1 → Memref sig .tc .vmem S1x128 .f32 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))
abbrev reads4_11 : Fin grid4.rank → Bool := ![false]

abbrev stage4_12 : Fin 1 → Memref sig .tc .vmem S1x128 .f32 := fun | 0 => Memref.whole cc4_stg12_0 | ⟨_ + 1, h⟩ => absurd h (Nat.not_lt.2 (Nat.le_add_left _ _))
abbrev sem4_12 : Fin 1 → DmaSem sig := fun | 0 => cc4_sem12_0 | ⟨_ + 1, h⟩ => absurd h (Nat.not_lt.2 (Nat.le_add_left _ _))
abbrev reads4_12 : Fin grid4.rank → Bool := ![false]

class Facts₀ : Prop where
  transposes_S4x128x64_S128x4x64_1_0_2 : S4x128x64.Transposes [1, 0, 2] S128x4x64
  shapeCasts_S128x4x64_S128x256 : S128x4x64.ShapeCasts S128x256
  shapeCasts_S4x64_S256 : S4x64.ShapeCasts S256
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bitsLt_bf16_f32 : FTy.bits .bf16 < FTy.bits .f32
  inb_S256x8192_S256x8192_0_0 : ∀ a, (![0, 0] : Fin 2 → Nat) a + S256x8192.size a ≤ S256x8192.size a
  h_S256x8192 : 0 < S256x8192.numel
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  reduces_S256x8192_S256 : S256x8192.Reduces [1] S256
  shapeCasts_S256_S256x1 : S256.ShapeCasts S256x1
  broadcasts_S256x1_S256x256 : S256x1.Broadcasts S256x256
  inb_S256x256_S256x256_0_0 : ∀ a, (![0, 0] : Fin 2 → Nat) a + S256x256.size a ≤ S256x256.size a
  h_S256x256 : 0 < S256x256.numel
  slices_S4x128x64_S1x128x64_0_0_0 : S4x128x64.Slices ![0, 0, 0] S1x128x64
  shapeCasts_S1x128x64_S128x64 : S1x128x64.ShapeCasts S128x64
  slices_S4x64_S1x64_0_0 : S4x64.Slices ![0, 0] S1x64
  shapeCasts_S1x64_S64 : S1x64.ShapeCasts S64
  shapeCasts_S64_S1x64 : S64.ShapeCasts S1x64
  slices_S4x64x1_S1x64x1_0_0_0 : S4x64x1.Slices ![0, 0, 0] S1x64x1
  shapeCasts_S1x64x1_S64x1 : S1x64x1.ShapeCasts S64x1
  shapeCasts_S64x1_S1x64 : S64x1.ShapeCasts S1x64
  slices_S4x1_S1x1_0_0 : S4x1.Slices ![0, 0] S1x1
  shapeCasts_S1x1_S1 : S1x1.ShapeCasts S1
  shapeCasts_S1_S1x1 : S1.ShapeCasts S1x1
  slices_S4x64x128_S1x64x128_0_0_0 : S4x64x128.Slices ![0, 0, 0] S1x64x128
  shapeCasts_S1x64x128_S64x128 : S1x64x128.ShapeCasts S64x128
  slices_S4x128_S1x128_0_0 : S4x128.Slices ![0, 0] S1x128
  shapeCasts_S1x128_S128 : S1x128.ShapeCasts S128
  shapeCasts_S128_S1x128 : S128.ShapeCasts S1x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  slices_S8192x128_o0_0_S8192x64 : S8192x128.Slices ![0, 0] S8192x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x64_S8192x64 : S1x64.Broadcasts S8192x64
  reduces_S8192x64_S8192 : S8192x64.Reduces [1] S8192
  shapeCasts_S8192_S8192x1 : S8192.ShapeCasts S8192x1
  broadcasts_S1x1_S8192x1 : S1x1.Broadcasts S8192x1
  broadcasts_S8192x1_S8192x64 : S8192x1.Broadcasts S8192x64
  broadcasts_S1x128_S8192x128 : S1x128.Broadcasts S8192x128
  reduces_S8192x128_S128 : S8192x128.Reduces [0] S128
  slices_S4x128x64_S1x128x64_1_0_0 : S4x128x64.Slices ![1, 0, 0] S1x128x64
  slices_S4x64_S1x64_1_0 : S4x64.Slices ![1, 0] S1x64
  slices_S4x64x1_S1x64x1_1_0_0 : S4x64x1.Slices ![1, 0, 0] S1x64x1
  slices_S4x1_S1x1_1_0 : S4x1.Slices ![1, 0] S1x1
  slices_S4x64x128_S1x64x128_1_0_0 : S4x64x128.Slices ![1, 0, 0] S1x64x128
  slices_S4x128_S1x128_1_0 : S4x128.Slices ![1, 0] S1x128
  slices_S8192x128_o0_64_S8192x64 : S8192x128.Slices ![0, 64] S8192x64
  slices_S4x128x64_S1x128x64_2_0_0 : S4x128x64.Slices ![2, 0, 0] S1x128x64
  slices_S4x64_S1x64_2_0 : S4x64.Slices ![2, 0] S1x64
  slices_S4x64x1_S1x64x1_2_0_0 : S4x64x1.Slices ![2, 0, 0] S1x64x1
  slices_S4x1_S1x1_2_0 : S4x1.Slices ![2, 0] S1x1
  slices_S4x64x128_S1x64x128_2_0_0 : S4x64x128.Slices ![2, 0, 0] S1x64x128
  slices_S4x128_S1x128_2_0 : S4x128.Slices ![2, 0] S1x128
  slices_S4x128x64_S1x128x64_3_0_0 : S4x128x64.Slices ![3, 0, 0] S1x128x64
  slices_S4x64_S1x64_3_0 : S4x64.Slices ![3, 0] S1x64
  slices_S4x64x1_S1x64x1_3_0_0 : S4x64x1.Slices ![3, 0, 0] S1x64x1
  slices_S4x1_S1x1_3_0 : S4x1.Slices ![3, 0] S1x1
  slices_S4x64x128_S1x64x128_3_0_0 : S4x64x128.Slices ![3, 0, 0] S1x64x128
  slices_S4x128_S1x128_3_0 : S4x128.Slices ![3, 0] S1x128
  bcast_S1x128_S32768x128_0_1 : S1x128.BroadcastsInDim S32768x128 (![0, 1] : Fin 2 → Fin S32768x128.rank)
  bcast_S_S1x128 : S_.BroadcastsInDim S1x128 (![] : Fin 0 → Fin S1x128.rank)
  bcast_S_S32768x128 : S_.BroadcastsInDim S32768x128 (![] : Fin 0 → Fin S32768x128.rank)
  dot_S8192x128_S128x256_S8192x256_1_0_0_1_n_n_wf : DotDims.WF S8192x128 S128x256 S8192x256 [1] [0] [0] [1] [] []
  dot_S256x8192_S8192x256_S256x256_1_0_0_1_n_n_wf : DotDims.WF S256x8192 S8192x256 S256x256 [1] [0] [0] [1] [] []
  dot_S8192x128_S128x64_S8192x64_1_0_0_1_n_n_wf : DotDims.WF S8192x128 S128x64 S8192x64 [1] [0] [0] [1] [] []
  dot_S8192x64_S64x128_S8192x128_1_0_0_1_n_n_wf : DotDims.WF S8192x64 S64x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S32768x8192.size a
  hwx0_0 : ∀ i : grid0.Coords, EltTy.bits .f32 = 32 ∨ (Rect.block (s := S32768x8192) S256x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .bf16 = 32 ∨ (Rect.block (s := S8192x256) S8192x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x256.size a ≤ S8192x256.size a
  hwx0_2 : ∀ i : grid0.Coords, EltTy.bits .bf16 = 32 ∨ (Rect.block (s := S8192x256) S8192x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S32768x256.size a
  hwx0_3 : ∀ i : grid0.Coords, EltTy.bits .f32 = 32 ∨ (Rect.block (s := S32768x256) S256x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x128.size a ≤ S32768x128.size a
  hwx1_0 : ∀ i : grid1.Coords, EltTy.bits .f32 = 32 ∨ (Rect.block (s := S32768x128) S8192x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x128.size a ≤ S32768x256.size a
  hwx1_1 : ∀ i : grid1.Coords, EltTy.bits .f32 = 32 ∨ (Rect.block (s := S32768x256) S8192x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x128.size a ≤ S64x128.size a
  hwx1_6 : ∀ i : grid1.Coords, EltTy.bits .f32 = 32 ∨ (Rect.block (s := S64x128) S64x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S8192x128.size a ≤ S32768x128.size a
  hwx1_8 : ∀ i : grid1.Coords, EltTy.bits .f32 = 32 ∨ (Rect.block (s := S32768x128) S8192x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x128.size a ≤ S1x128.size a
  hwx1_10 : ∀ i : grid1.Coords, EltTy.bits .f32 = 32 ∨ (Rect.block (s := S1x128) S1x128.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x128.size a ≤ S32768x128.size a
  hwx2_0 : ∀ i : grid2.Coords, EltTy.bits .f32 = 32 ∨ (Rect.block (s := S32768x128) S8192x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8192x128.size a ≤ S32768x256.size a
  hwx2_1 : ∀ i : grid2.Coords, EltTy.bits .f32 = 32 ∨ (Rect.block (s := S32768x256) S8192x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1.size a ≤ S1x1.size a
  hwx2_5 : ∀ i : grid2.Coords, EltTy.bits .f32 = 32 ∨ (Rect.block (s := S1x1) S1x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x128.size a ≤ S64x128.size a
  hwx2_6 : ∀ i : grid2.Coords, EltTy.bits .f32 = 32 ∨ (Rect.block (s := S64x128) S64x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x128.size a ≤ S1x128.size a
  hwx2_9 : ∀ i : grid2.Coords, EltTy.bits .f32 = 32 ∨ (Rect.block (s := S1x128) S1x128.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S8192x128.size a ≤ S32768x128.size a
  hwx2_10 : ∀ i : grid2.Coords, EltTy.bits .f32 = 32 ∨ (Rect.block (s := S32768x128) S8192x128.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x128.size a ≤ S1x128.size a
  hwx2_11 : ∀ i : grid2.Coords, EltTy.bits .f32 = 32 ∨ (Rect.block (s := S1x128) S1x128.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S1x128.size a ≤ S1x128.size a
  hwx2_12 : ∀ i : grid2.Coords, EltTy.bits .f32 = 32 ∨ (Rect.block (s := S1x128) S1x128.size (cc2_transform_12 i) (hinb2_12 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8192x128.size a ≤ S32768x128.size a
  hwx3_0 : ∀ i : grid3.Coords, EltTy.bits .f32 = 32 ∨ (Rect.block (s := S32768x128) S8192x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8192x128.size a ≤ S32768x256.size a
  hwx3_1 : ∀ i : grid3.Coords, EltTy.bits .f32 = 32 ∨ (Rect.block (s := S32768x256) S8192x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x64.size a ≤ S128x64.size a
  hwx3_2 : ∀ i : grid3.Coords, EltTy.bits .f32 = 32 ∨ (Rect.block (s := S128x64) S128x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x1.size a ≤ S1x1.size a
  hwx3_5 : ∀ i : grid3.Coords, EltTy.bits .f32 = 32 ∨ (Rect.block (s := S1x1) S1x1.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S64x128.size a ≤ S64x128.size a
  hwx3_6 : ∀ i : grid3.Coords, EltTy.bits .f32 = 32 ∨ (Rect.block (s := S64x128) S64x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x128.size a ≤ S1x128.size a
  hwx3_8 : ∀ i : grid3.Coords, EltTy.bits .f32 = 32 ∨ (Rect.block (s := S1x128) S1x128.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x128.size a ≤ S1x128.size a
  hwx3_9 : ∀ i : grid3.Coords, EltTy.bits .f32 = 32 ∨ (Rect.block (s := S1x128) S1x128.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S8192x128.size a ≤ S32768x128.size a
  hwx3_10 : ∀ i : grid3.Coords, EltTy.bits .f32 = 32 ∨ (Rect.block (s := S32768x128) S8192x128.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S1x128.size a ≤ S1x128.size a
  hwx3_11 : ∀ i : grid3.Coords, EltTy.bits .f32 = 32 ∨ (Rect.block (s := S1x128) S1x128.size (cc3_transform_11 i) (hinb3_11 i)).WholeWords (EltTy.packing .f32)
  hstage3_12 : ∀ j, (stage3_12 j).IsWhole
  nbuf3_12 : grid3.bufCount reads3_12 true = 1
  hreads3_12 : ∀ i i' : grid3.Coords, (∀ a, reads3_12 a = true → i a = i' a) → cc3_transform_12 i = cc3_transform_12 i'
  hinb3_12 : ∀ (i : grid3.Coords) a, (cc3_transform_12 i a + 1) * S1x128.size a ≤ S1x128.size a
  hwx3_12 : ∀ i : grid3.Coords, EltTy.bits .f32 = 32 ∨ (Rect.block (s := S1x128) S1x128.size (cc3_transform_12 i) (hinb3_12 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8192x128.size a ≤ S32768x128.size a
  hwx4_0 : ∀ i : grid4.Coords, EltTy.bits .f32 = 32 ∨ (Rect.block (s := S32768x128) S8192x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8192x128.size a ≤ S32768x256.size a
  hwx4_1 : ∀ i : grid4.Coords, EltTy.bits .f32 = 32 ∨ (Rect.block (s := S32768x256) S8192x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x64.size a ≤ S128x64.size a
  hwx4_2 : ∀ i : grid4.Coords, EltTy.bits .f32 = 32 ∨ (Rect.block (s := S128x64) S128x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x1.size a ≤ S1x1.size a
  hwx4_5 : ∀ i : grid4.Coords, EltTy.bits .f32 = 32 ∨ (Rect.block (s := S1x1) S1x1.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S64x128.size a ≤ S64x128.size a
  hwx4_6 : ∀ i : grid4.Coords, EltTy.bits .f32 = 32 ∨ (Rect.block (s := S64x128) S64x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x128.size a ≤ S1x128.size a
  hwx4_8 : ∀ i : grid4.Coords, EltTy.bits .f32 = 32 ∨ (Rect.block (s := S1x128) S1x128.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S1x128.size a ≤ S1x128.size a
  hwx4_9 : ∀ i : grid4.Coords, EltTy.bits .f32 = 32 ∨ (Rect.block (s := S1x128) S1x128.size (cc4_transform_9 i) (hinb4_9 i)).WholeWords (EltTy.packing .f32)
  hstage4_10 : ∀ j, (stage4_10 j).IsWhole
  nbuf4_10 : grid4.bufCount reads4_10 false = 2
  hreads4_10 : ∀ i i' : grid4.Coords, (∀ a, reads4_10 a = true → i a = i' a) → cc4_transform_10 i = cc4_transform_10 i'
  hinb4_10 : ∀ (i : grid4.Coords) a, (cc4_transform_10 i a + 1) * S8192x128.size a ≤ S32768x128.size a
  hwx4_10 : ∀ i : grid4.Coords, EltTy.bits .f32 = 32 ∨ (Rect.block (s := S32768x128) S8192x128.size (cc4_transform_10 i) (hinb4_10 i)).WholeWords (EltTy.packing .f32)
  hstage4_11 : ∀ j, (stage4_11 j).IsWhole
  nbuf4_11 : grid4.bufCount reads4_11 true = 1
  hreads4_11 : ∀ i i' : grid4.Coords, (∀ a, reads4_11 a = true → i a = i' a) → cc4_transform_11 i = cc4_transform_11 i'
  hinb4_11 : ∀ (i : grid4.Coords) a, (cc4_transform_11 i a + 1) * S1x128.size a ≤ S1x128.size a
  hwx4_11 : ∀ i : grid4.Coords, EltTy.bits .f32 = 32 ∨ (Rect.block (s := S1x128) S1x128.size (cc4_transform_11 i) (hinb4_11 i)).WholeWords (EltTy.packing .f32)
  hstage4_12 : ∀ j, (stage4_12 j).IsWhole
  nbuf4_12 : grid4.bufCount reads4_12 true = 1
  hreads4_12 : ∀ i i' : grid4.Coords, (∀ a, reads4_12 a = true → i a = i' a) → cc4_transform_12 i = cc4_transform_12 i'
  hinb4_12 : ∀ (i : grid4.Coords) a, (cc4_transform_12 i a + 1) * S1x128.size a ≤ S1x128.size a
  hwx4_12 : ∀ i : grid4.Coords, EltTy.bits .f32 = 32 ∨ (Rect.block (s := S1x128) S1x128.size (cc4_transform_12 i) (hinb4_12 i)).WholeWords (EltTy.packing .f32)

variable [Facts₀]

def dot_S8192x128_S128x256_S8192x256_1_0_0_1_n_n : DotDims S8192x128 S128x256 S8192x256 where
  lhsContracting := [1]
  rhsContracting := [0]
  lhsNonContracting := [0]
  rhsNonContracting := [1]
  lhsBatch := []
  rhsBatch := []
  wf := dot_S8192x128_S128x256_S8192x256_1_0_0_1_n_n_wf
def dot_S256x8192_S8192x256_S256x256_1_0_0_1_n_n : DotDims S256x8192 S8192x256 S256x256 where
  lhsContracting := [1]
  rhsContracting := [0]
  lhsNonContracting := [0]
  rhsNonContracting := [1]
  lhsBatch := []
  rhsBatch := []
  wf := dot_S256x8192_S8192x256_S256x256_1_0_0_1_n_n_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf

abbrev win0_0 : Pipeline.Window sig grid0 :=
  Pipeline.Window.ofSpec (Memref.whole main_arg1) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S8192x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S256x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S8192x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S8192x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v22) S1x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v24) S64x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v27) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v28_0) S8192x128.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v28_1) S1x128.size cc1_transform_9 reads1_9 true true 1 stage1_9 sem1_9
    hrank1 hreads1_9 hinb1_9 nbuf1_9 (Memref.isWhole_whole _) hwx1_9 hstage1_9

abbrev win1_10 : Pipeline.Window sig grid1 :=
  Pipeline.Window.ofSpec (Memref.whole main_v28_2) S1x128.size cc1_transform_10 reads1_10 true true 1 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev idle1 : Fin 11 → grid1.Coords → Bool := fun | 0 => fun _ => false | 1 => fun _ => false | 2 => fun _ => false | 3 => fun _ => false | 4 => fun _ => false | 5 => fun _ => false | 6 => fun _ => false | 7 => fun _ => false | 8 => fun _ => false | 9 => fun i => !(k1_cond3 i == 1#1) | 10 => fun i => !(k1_cond3 i == 1#1) | ⟨_ + 11, h⟩ => absurd h (Nat.not_lt.2 (Nat.le_add_left _ _))

abbrev win2_0 : Pipeline.Window sig grid2 :=
  Pipeline.Window.ofSpec (Memref.whole main_v28_0) S8192x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S8192x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v30) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v33) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v36) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v39) S1x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v41) S64x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v44) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v28_1) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v28_2) S1x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v45_0) S8192x128.size cc2_transform_10 reads2_10 true false 2 stage2_10 sem2_10
    hrank2 hreads2_10 hinb2_10 nbuf2_10 (Memref.isWhole_whole _) hwx2_10 hstage2_10

abbrev win2_11 : Pipeline.Window sig grid2 :=
  Pipeline.Window.ofSpec (Memref.whole main_v45_1) S1x128.size cc2_transform_11 reads2_11 true true 1 stage2_11 sem2_11
    hrank2 hreads2_11 hinb2_11 nbuf2_11 (Memref.isWhole_whole _) hwx2_11 hstage2_11

abbrev win2_12 : Pipeline.Window sig grid2 :=
  Pipeline.Window.ofSpec (Memref.whole main_v45_2) S1x128.size cc2_transform_12 reads2_12 true true 1 stage2_12 sem2_12
    hrank2 hreads2_12 hinb2_12 nbuf2_12 (Memref.isWhole_whole _) hwx2_12 hstage2_12

abbrev win2 : Fin 13 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | ⟨_ + 13, h⟩ => absurd h (Nat.not_lt.2 (Nat.le_add_left _ _))
abbrev spec2 : Fin 13 → Pipeline.WinSpec sig grid2.rank := fun w => (win2 w).toWinSpec

abbrev idle2 : Fin 13 → grid2.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun i => !(k2_cond3 i == 1#1) | 12 => fun i => !(k2_cond3 i == 1#1) | ⟨_ + 13, h⟩ => absurd h (Nat.not_lt.2 (Nat.le_add_left _ _))

abbrev win3_0 : Pipeline.Window sig grid3 :=
  Pipeline.Window.ofSpec (Memref.whole main_v45_0) S8192x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v11) S8192x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v47) S128x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v50) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v53) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v56) S1x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v58) S64x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v61) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v45_1) S1x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v45_2) S1x128.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v62_0) S8192x128.size cc3_transform_10 reads3_10 true false 2 stage3_10 sem3_10
    hrank3 hreads3_10 hinb3_10 nbuf3_10 (Memref.isWhole_whole _) hwx3_10 hstage3_10

abbrev win3_11 : Pipeline.Window sig grid3 :=
  Pipeline.Window.ofSpec (Memref.whole main_v62_1) S1x128.size cc3_transform_11 reads3_11 true true 1 stage3_11 sem3_11
    hrank3 hreads3_11 hinb3_11 nbuf3_11 (Memref.isWhole_whole _) hwx3_11 hstage3_11

abbrev win3_12 : Pipeline.Window sig grid3 :=
  Pipeline.Window.ofSpec (Memref.whole main_v62_2) S1x128.size cc3_transform_12 reads3_12 true true 1 stage3_12 sem3_12
    hrank3 hreads3_12 hinb3_12 nbuf3_12 (Memref.isWhole_whole _) hwx3_12 hstage3_12

abbrev win3 : Fin 13 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | ⟨_ + 13, h⟩ => absurd h (Nat.not_lt.2 (Nat.le_add_left _ _))
abbrev spec3 : Fin 13 → Pipeline.WinSpec sig grid3.rank := fun w => (win3 w).toWinSpec

abbrev idle3 : Fin 13 → grid3.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun i => !(k3_cond3 i == 1#1) | 12 => fun i => !(k3_cond3 i == 1#1) | ⟨_ + 13, h⟩ => absurd h (Nat.not_lt.2 (Nat.le_add_left _ _))

abbrev win4_0 : Pipeline.Window sig grid4 :=
  Pipeline.Window.ofSpec (Memref.whole main_v62_0) S8192x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v11) S8192x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v64) S128x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v67) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v70) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v73) S1x1.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v75) S64x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v78) S1x128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v62_1) S1x128.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v62_2) S1x128.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v79_0) S8192x128.size cc4_transform_10 reads4_10 true false 2 stage4_10 sem4_10
    hrank4 hreads4_10 hinb4_10 nbuf4_10 (Memref.isWhole_whole _) hwx4_10 hstage4_10

abbrev win4_11 : Pipeline.Window sig grid4 :=
  Pipeline.Window.ofSpec (Memref.whole main_v79_1) S1x128.size cc4_transform_11 reads4_11 true true 1 stage4_11 sem4_11
    hrank4 hreads4_11 hinb4_11 nbuf4_11 (Memref.isWhole_whole _) hwx4_11 hstage4_11

abbrev win4_12 : Pipeline.Window sig grid4 :=
  Pipeline.Window.ofSpec (Memref.whole main_v79_2) S1x128.size cc4_transform_12 reads4_12 true true 1 stage4_12 sem4_12
    hrank4 hreads4_12 hinb4_12 nbuf4_12 (Memref.isWhole_whole _) hwx4_12 hstage4_12

abbrev win4 : Fin 13 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | 12 => win4_12 | ⟨_ + 13, h⟩ => absurd h (Nat.not_lt.2 (Nat.le_add_left _ _))
abbrev spec4 : Fin 13 → Pipeline.WinSpec sig grid4.rank := fun w => (win4 w).toWinSpec

abbrev idle4 : Fin 13 → grid4.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun i => !(k4_cond3 i == 1#1) | 12 => fun i => !(k4_cond3 i == 1#1) | ⟨_ + 13, h⟩ => absurd h (Nat.not_lt.2 (Nat.le_add_left _ _))

class Facts : Prop extends Facts₀ where

variable [Facts]
-- ==== ReferenceIdeal.lean ====
abbrev S32768x128 : Shape := ⟨2, ![32768, 128]⟩
abbrev S32768x8192 : Shape := ⟨2, ![32768, 8192]⟩
abbrev S8192x128 : Shape := ⟨2, ![8192, 128]⟩
abbrev S4x128x64 : Shape := ⟨3, ![4, 128, 64]⟩
abbrev S4x64 : Shape := ⟨2, ![4, 64]⟩
abbrev S4x64x1 : Shape := ⟨3, ![4, 64, 1]⟩
abbrev S4x1 : Shape := ⟨2, ![4, 1]⟩
abbrev S4x64x128 : Shape := ⟨3, ![4, 64, 128]⟩
abbrev S4x128 : Shape := ⟨2, ![4, 128]⟩
abbrev S_ : Shape := ⟨0, ![]⟩
abbrev S32768 : Shape := ⟨1, ![32768]⟩
abbrev S32768x1 : Shape := ⟨2, ![32768, 1]⟩
abbrev S1x128x64 : Shape := ⟨3, ![1, 128, 64]⟩
abbrev S128x64 : Shape := ⟨2, ![128, 64]⟩
abbrev S32768x64 : Shape := ⟨2, ![32768, 64]⟩
abbrev S1x64 : Shape := ⟨2, ![1, 64]⟩
abbrev S64 : Shape := ⟨1, ![64]⟩
abbrev S8192x64 : Shape := ⟨2, ![8192, 64]⟩
abbrev S1x64x1 : Shape := ⟨3, ![1, 64, 1]⟩
abbrev S64x1 : Shape := ⟨2, ![64, 1]⟩
abbrev S1x1 : Shape := ⟨2, ![1, 1]⟩
abbrev S1 : Shape := ⟨1, ![1]⟩
abbrev S1x64x128 : Shape := ⟨3, ![1, 64, 128]⟩
abbrev S64x128 : Shape := ⟨2, ![64, 128]⟩
abbrev S1x128 : Shape := ⟨2, ![1, 128]⟩
abbrev S128 : Shape := ⟨1, ![128]⟩

abbrev nBuf : Space → Nat
  | .hbm => 301
  | .vmem => 0
  | .smem => 0
  | _ => 0

abbrev hbmTy0_0 (i : Nat) : BufTy := match i % 128 with
  | 0 => ⟨S32768x128, .f32⟩
  | 1 => ⟨S32768x8192, .f32⟩
  | 2 => ⟨S8192x128, .f32⟩
  | 3 => ⟨S4x128x64, .f32⟩
  | 4 => ⟨S4x64, .f32⟩
  | 5 => ⟨S4x128x64, .f32⟩
  | 6 => ⟨S4x64, .f32⟩
  | 7 => ⟨S4x64x1, .f32⟩
  | 8 => ⟨S4x1, .f32⟩
  | 9 => ⟨S4x64x128, .f32⟩
  | 10 => ⟨S4x128, .f32⟩
  | 11 => ⟨S_, .f32⟩
  | 12 => ⟨S32768, .f32⟩
  | 13 => ⟨S32768x1, .f32⟩
  | 14 => ⟨S_, .f32⟩
  | 15 => ⟨S32768x1, .f32⟩
  | 16 => ⟨S32768x1, .f32⟩
  | 17 => ⟨S1x128x64, .f32⟩
  | 18 => ⟨S128x64, .f32⟩
  | 19 => ⟨S32768x64, .f32⟩
  | 20 => ⟨S1x64, .f32⟩
  | 21 => ⟨S64, .f32⟩
  | 22 => ⟨S1x64, .f32⟩
  | 23 => ⟨S32768x64, .f32⟩
  | 24 => ⟨S32768x64, .f32⟩
  | 25 => ⟨S1x128x64, .f32⟩
  | 26 => ⟨S128x64, .f32⟩
  | 27 => ⟨S8192x64, .f32⟩
  | 28 => ⟨S1x64, .f32⟩
  | 29 => ⟨S64, .f32⟩
  | 30 => ⟨S1x64, .f32⟩
  | 31 => ⟨S8192x64, .f32⟩
  | 32 => ⟨S8192x64, .f32⟩
  | 33 => ⟨S32768x64, .f32⟩
  | 34 => ⟨S32768x64, .f32⟩
  | 35 => ⟨S32768x64, .f32⟩
  | 36 => ⟨S32768x64, .f32⟩
  | 37 => ⟨S1x64x1, .f32⟩
  | 38 => ⟨S64x1, .f32⟩
  | 39 => ⟨S32768x1, .f32⟩
  | 40 => ⟨S1x1, .f32⟩
  | 41 => ⟨S1, .f32⟩
  | 42 => ⟨S1x1, .f32⟩
  | 43 => ⟨S32768x1, .f32⟩
  | 44 => ⟨S32768x1, .f32⟩
  | 45 => ⟨S_, .f32⟩
  | 46 => ⟨S32768x1, .f32⟩
  | 47 => ⟨S32768x1, .i1⟩
  | 48 => ⟨S_, .f32⟩
  | 49 => ⟨S32768x1, .f32⟩
  | 50 => ⟨S32768x1, .f32⟩
  | 51 => ⟨S32768x1, .f32⟩
  | 52 => ⟨S32768x1, .f32⟩
  | 53 => ⟨S32768x1, .f32⟩
  | 54 => ⟨S_, .f32⟩
  | 55 => ⟨S32768x1, .f32⟩
  | 56 => ⟨S32768x1, .f32⟩
  | 57 => ⟨S_, .f32⟩
  | 58 => ⟨S32768x1, .f32⟩
  | 59 => ⟨S32768x1, .f32⟩
  | 60 => ⟨S32768x64, .f32⟩
  | 61 => ⟨S32768x64, .f32⟩
  | 62 => ⟨S32768x64, .f32⟩
  | 63 => ⟨S1x64x128, .f32⟩
  | 64 => ⟨S64x128, .f32⟩
  | 65 => ⟨S32768x128, .f32⟩
  | 66 => ⟨S1x128, .f32⟩
  | 67 => ⟨S128, .f32⟩
  | 68 => ⟨S1x128, .f32⟩
  | 69 => ⟨S32768x128, .f32⟩
  | 70 => ⟨S32768x128, .f32⟩
  | 71 => ⟨S_, .f32⟩
  | 72 => ⟨S128, .f32⟩
  | 73 => ⟨S_, .f32⟩
  | 74 => ⟨S128, .f32⟩
  | 75 => ⟨S1x128, .f32⟩
  | 76 => ⟨S32768x128, .f32⟩
  | 77 => ⟨S32768x128, .f32⟩
  | 78 => ⟨S128, .f32⟩
  | 79 => ⟨S_, .f32⟩
  | 80 => ⟨S128, .f32⟩
  | 81 => ⟨S128, .f32⟩
  | 82 => ⟨S1x128, .f32⟩
  | 83 => ⟨S32768x128, .f32⟩
  | 84 => ⟨S32768x128, .f32⟩
  | 85 => ⟨S_, .f32⟩
  | 86 => ⟨S32768x128, .f32⟩
  | 87 => ⟨S32768x128, .f32⟩
  | 88 => ⟨S1x128x64, .f32⟩
  | 89 => ⟨S128x64, .f32⟩
  | 90 => ⟨S32768x64, .f32⟩
  | 91 => ⟨S1x64, .f32⟩
  | 92 => ⟨S64, .f32⟩
  | 93 => ⟨S1x64, .f32⟩
  | 94 => ⟨S32768x64, .f32⟩
  | 95 => ⟨S32768x64, .f32⟩
  | 96 => ⟨S1x128x64, .f32⟩
  | 97 => ⟨S128x64, .f32⟩
  | 98 => ⟨S8192x64, .f32⟩
  | 99 => ⟨S1x64, .f32⟩
  | 100 => ⟨S64, .f32⟩
  | 101 => ⟨S1x64, .f32⟩
  | 102 => ⟨S8192x64, .f32⟩
  | 103 => ⟨S8192x64, .f32⟩
  | 104 => ⟨S32768x64, .f32⟩
  | 105 => ⟨S32768x64, .f32⟩
  | 106 => ⟨S32768x64, .f32⟩
  | 107 => ⟨S32768x64, .f32⟩
  | 108 => ⟨S1x64x1, .f32⟩
  | 109 => ⟨S64x1, .f32⟩
  | 110 => ⟨S32768x1, .f32⟩
  | 111 => ⟨S1x1, .f32⟩
  | 112 => ⟨S1, .f32⟩
  | 113 => ⟨S1x1, .f32⟩
  | 114 => ⟨S32768x1, .f32⟩
  | 115 => ⟨S32768x1, .f32⟩
  | 116 => ⟨S_, .f32⟩
  | 117 => ⟨S32768x1, .f32⟩
  | 118 => ⟨S32768x1, .i1⟩
  | 119 => ⟨S_, .f32⟩
  | 120 => ⟨S32768x1, .f32⟩
  | 121 => ⟨S32768x1, .f32⟩
  | 122 => ⟨S32768x1, .f32⟩
  | 123 => ⟨S32768x1, .f32⟩
  | 124 => ⟨S32768x1, .f32⟩
  | 125 => ⟨S_, .f32⟩
  | 126 => ⟨S32768x1, .f32⟩
  | 127 => ⟨S32768x1, .f32⟩
  | _ => ⟨S32768x128, .f32⟩

abbrev hbmTy0_1 (i : Nat) : BufTy := match i % 128 with
  | 0 => ⟨S_, .f32⟩
  | 1 => ⟨S32768x1, .f32⟩
  | 2 => ⟨S32768x1, .f32⟩
  | 3 => ⟨S32768x64, .f32⟩
  | 4 => ⟨S32768x64, .f32⟩
  | 5 => ⟨S32768x64, .f32⟩
  | 6 => ⟨S1x64x128, .f32⟩
  | 7 => ⟨S64x128, .f32⟩
  | 8 => ⟨S32768x128, .f32⟩
  | 9 => ⟨S1x128, .f32⟩
  | 10 => ⟨S128, .f32⟩
  | 11 => ⟨S1x128, .f32⟩
  | 12 => ⟨S32768x128, .f32⟩
  | 13 => ⟨S32768x128, .f32⟩
  | 14 => ⟨S_, .f32⟩
  | 15 => ⟨S128, .f32⟩
  | 16 => ⟨S_, .f32⟩
  | 17 => ⟨S128, .f32⟩
  | 18 => ⟨S1x128, .f32⟩
  | 19 => ⟨S32768x128, .f32⟩
  | 20 => ⟨S32768x128, .f32⟩
  | 21 => ⟨S128, .f32⟩
  | 22 => ⟨S_, .f32⟩
  | 23 => ⟨S128, .f32⟩
  | 24 => ⟨S128, .f32⟩
  | 25 => ⟨S1x128, .f32⟩
  | 26 => ⟨S32768x128, .f32⟩
  | 27 => ⟨S32768x128, .f32⟩
  | 28 => ⟨S_, .f32⟩
  | 29 => ⟨S32768x128, .f32⟩
  | 30 => ⟨S32768x128, .f32⟩
  | 31 => ⟨S1x128x64, .f32⟩
  | 32 => ⟨S128x64, .f32⟩
  | 33 => ⟨S32768x64, .f32⟩
  | 34 => ⟨S1x64, .f32⟩
  | 35 => ⟨S64, .f32⟩
  | 36 => ⟨S1x64, .f32⟩
  | 37 => ⟨S32768x64, .f32⟩
  | 38 => ⟨S32768x64, .f32⟩
  | 39 => ⟨S1x128x64, .f32⟩
  | 40 => ⟨S128x64, .f32⟩
  | 41 => ⟨S8192x64, .f32⟩
  | 42 => ⟨S1x64, .f32⟩
  | 43 => ⟨S64, .f32⟩
  | 44 => ⟨S1x64, .f32⟩
  | 45 => ⟨S8192x64, .f32⟩
  | 46 => ⟨S8192x64, .f32⟩
  | 47 => ⟨S32768x64, .f32⟩
  | 48 => ⟨S32768x64, .f32⟩
  | 49 => ⟨S32768x64, .f32⟩
  | 50 => ⟨S32768x64, .f32⟩
  | 51 => ⟨S1x64x1, .f32⟩
  | 52 => ⟨S64x1, .f32⟩
  | 53 => ⟨S32768x1, .f32⟩
  | 54 => ⟨S1x1, .f32⟩
  | 55 => ⟨S1, .f32⟩
  | 56 => ⟨S1x1, .f32⟩
  | 57 => ⟨S32768x1, .f32⟩
  | 58 => ⟨S32768x1, .f32⟩
  | 59 => ⟨S_, .f32⟩
  | 60 => ⟨S32768x1, .f32⟩
  | 61 => ⟨S32768x1, .i1⟩
  | 62 => ⟨S_, .f32⟩
  | 63 => ⟨S32768x1, .f32⟩
  | 64 => ⟨S32768x1, .f32⟩
  | 65 => ⟨S32768x1, .f32⟩
  | 66 => ⟨S32768x1, .f32⟩
  | 67 => ⟨S32768x1, .f32⟩
  | 68 => ⟨S_, .f32⟩
  | 69 => ⟨S32768x1, .f32⟩
  | 70 => ⟨S32768x1, .f32⟩
  | 71 => ⟨S_, .f32⟩
  | 72 => ⟨S32768x1, .f32⟩
  | 73 => ⟨S32768x1, .f32⟩
  | 74 => ⟨S32768x64, .f32⟩
  | 75 => ⟨S32768x64, .f32⟩
  | 76 => ⟨S32768x64, .f32⟩
  | 77 => ⟨S1x64x128, .f32⟩
  | 78 => ⟨S64x128, .f32⟩
  | 79 => ⟨S32768x128, .f32⟩
  | 80 => ⟨S1x128, .f32⟩
  | 81 => ⟨S128, .f32⟩
  | 82 => ⟨S1x128, .f32⟩
  | 83 => ⟨S32768x128, .f32⟩
  | 84 => ⟨S32768x128, .f32⟩
  | 85 => ⟨S_, .f32⟩
  | 86 => ⟨S128, .f32⟩
  | 87 => ⟨S_, .f32⟩
  | 88 => ⟨S128, .f32⟩
  | 89 => ⟨S1x128, .f32⟩
  | 90 => ⟨S32768x128, .f32⟩
  | 91 => ⟨S32768x128, .f32⟩
  | 92 => ⟨S128, .f32⟩
  | 93 => ⟨S_, .f32⟩
  | 94 => ⟨S128, .f32⟩
  | 95 => ⟨S128, .f32⟩
  | 96 => ⟨S1x128, .f32⟩
  | 97 => ⟨S32768x128, .f32⟩
  | 98 => ⟨S32768x128, .f32⟩
  | 99 => ⟨S_, .f32⟩
  | 100 => ⟨S32768x128, .f32⟩
  | 101 => ⟨S32768x128, .f32⟩
  | 102 => ⟨S1x128x64, .f32⟩
  | 103 => ⟨S128x64, .f32⟩
  | 104 => ⟨S32768x64, .f32⟩
  | 105 => ⟨S1x64, .f32⟩
  | 106 => ⟨S64, .f32⟩
  | 107 => ⟨S1x64, .f32⟩
  | 108 => ⟨S32768x64, .f32⟩
  | 109 => ⟨S32768x64, .f32⟩
  | 110 => ⟨S1x128x64, .f32⟩
  | 111 => ⟨S128x64, .f32⟩
  | 112 => ⟨S8192x64, .f32⟩
  | 113 => ⟨S1x64, .f32⟩
  | 114 => ⟨S64, .f32⟩
  | 115 => ⟨S1x64, .f32⟩
  | 116 => ⟨S8192x64, .f32⟩
  | 117 => ⟨S8192x64, .f32⟩
  | 118 => ⟨S32768x64, .f32⟩
  | 119 => ⟨S32768x64, .f32⟩
  | 120 => ⟨S32768x64, .f32⟩
  | 121 => ⟨S32768x64, .f32⟩
  | 122 => ⟨S1x64x1, .f32⟩
  | 123 => ⟨S64x1, .f32⟩
  | 124 => ⟨S32768x1, .f32⟩
  | 125 => ⟨S1x1, .f32⟩
  | 126 => ⟨S1, .f32⟩
  | 127 => ⟨S1x1, .f32⟩
  | _ => ⟨S32768x128, .f32⟩

abbrev hbmTy0_2 (i : Nat) : BufTy := match i % 128 with
  | 0 => ⟨S32768x1, .f32⟩
  | 1 => ⟨S32768x1, .f32⟩
  | 2 => ⟨S_, .f32⟩
  | 3 => ⟨S32768x1, .f32⟩
  | 4 => ⟨S32768x1, .i1⟩
  | 5 => ⟨S_, .f32⟩
  | 6 => ⟨S32768x1, .f32⟩
  | 7 => ⟨S32768x1, .f32⟩
  | 8 => ⟨S32768x1, .f32⟩
  | 9 => ⟨S32768x1, .f32⟩
  | 10 => ⟨S32768x1, .f32⟩
  | 11 => ⟨S_, .f32⟩
  | 12 => ⟨S32768x1, .f32⟩
  | 13 => ⟨S32768x1, .f32⟩
  | 14 => ⟨S_, .f32⟩
  | 15 => ⟨S32768x1, .f32⟩
  | 16 => ⟨S32768x1, .f32⟩
  | 17 => ⟨S32768x64, .f32⟩
  | 18 => ⟨S32768x64, .f32⟩
  | 19 => ⟨S32768x64, .f32⟩
  | 20 => ⟨S1x64x128, .f32⟩
  | 21 => ⟨S64x128, .f32⟩
  | 22 => ⟨S32768x128, .f32⟩
  | 23 => ⟨S1x128, .f32⟩
  | 24 => ⟨S128, .f32⟩
  | 25 => ⟨S1x128, .f32⟩
  | 26 => ⟨S32768x128, .f32⟩
  | 27 => ⟨S32768x128, .f32⟩
  | 28 => ⟨S_, .f32⟩
  | 29 => ⟨S128, .f32⟩
  | 30 => ⟨S_, .f32⟩
  | 31 => ⟨S128, .f32⟩
  | 32 => ⟨S1x128, .f32⟩
  | 33 => ⟨S32768x128, .f32⟩
  | 34 => ⟨S32768x128, .f32⟩
  | 35 => ⟨S128, .f32⟩
  | 36 => ⟨S_, .f32⟩
  | 37 => ⟨S128, .f32⟩
  | 38 => ⟨S128, .f32⟩
  | 39 => ⟨S1x128, .f32⟩
  | 40 => ⟨S32768x128, .f32⟩
  | 41 => ⟨S32768x128, .f32⟩
  | 42 => ⟨S_, .f32⟩
  | 43 => ⟨S32768x128, .f32⟩
  | 44 => ⟨S32768x128, .f32⟩
  | _ => ⟨S32768x128, .f32⟩

abbrev hbmTy (i : Nat) : BufTy := match i / 128 with
  | 0 => hbmTy0_0 i
  | 1 => hbmTy0_1 i
  | 2 => hbmTy0_2 i
  | _ => ⟨S32768x128, .f32⟩

abbrev bufTy : (tb : Table) → Fin (tcTables nBuf tb) → BufTy
  | .hbm, ⟨i, _⟩ => hbmTy i
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_1 : Ref sig .tc := ⟨.hbm, 45, rfl⟩
abbrev main_v32 : Ref sig .tc := ⟨.hbm, 46, rfl⟩
abbrev main_v33 : Ref sig .tc := ⟨.hbm, 47, rfl⟩
abbrev main_cst_2 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_3 : Ref sig .tc := ⟨.hbm, 54, rfl⟩
abbrev main_v39 : Ref sig .tc := ⟨.hbm, 55, rfl⟩
abbrev main_v40 : Ref sig .tc := ⟨.hbm, 56, rfl⟩
abbrev main_cst_4 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_5 : Ref sig .tc := ⟨.hbm, 71, rfl⟩
abbrev main_v54 : Ref sig .tc := ⟨.hbm, 72, rfl⟩
abbrev main_cst_6 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_7 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_call1_cst : Ref sig .tc := ⟨.hbm, 85, rfl⟩
abbrev main_call1_v0 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_cst_8 : Ref sig .tc := ⟨.hbm, 116, rfl⟩
abbrev main_v94 : Ref sig .tc := ⟨.hbm, 117, rfl⟩
abbrev main_v95 : Ref sig .tc := ⟨.hbm, 118, rfl⟩
abbrev main_cst_9 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_cst_10 : Ref sig .tc := ⟨.hbm, 125, rfl⟩
abbrev main_v101 : Ref sig .tc := ⟨.hbm, 126, rfl⟩
abbrev main_v102 : Ref sig .tc := ⟨.hbm, 127, rfl⟩
abbrev main_cst_11 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_cst_12 : Ref sig .tc := ⟨.hbm, 142, rfl⟩
abbrev main_v116 : Ref sig .tc := ⟨.hbm, 143, rfl⟩
abbrev main_cst_13 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_cst_14 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_call3_cst : Ref sig .tc := ⟨.hbm, 156, rfl⟩
abbrev main_call3_v0 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_cst_15 : Ref sig .tc := ⟨.hbm, 187, rfl⟩
abbrev main_v156 : Ref sig .tc := ⟨.hbm, 188, rfl⟩
abbrev main_v157 : Ref sig .tc := ⟨.hbm, 189, rfl⟩
abbrev main_cst_16 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_cst_17 : Ref sig .tc := ⟨.hbm, 196, rfl⟩
abbrev main_v163 : Ref sig .tc := ⟨.hbm, 197, rfl⟩
abbrev main_v164 : Ref sig .tc := ⟨.hbm, 198, rfl⟩
abbrev main_cst_18 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_v174 : Ref sig .tc := ⟨.hbm, 209, rfl⟩
abbrev main_v175 : Ref sig .tc := ⟨.hbm, 210, rfl⟩
abbrev main_v176 : Ref sig .tc := ⟨.hbm, 211, rfl⟩
abbrev main_v177 : Ref sig .tc := ⟨.hbm, 212, rfl⟩
abbrev main_cst_19 : Ref sig .tc := ⟨.hbm, 213, rfl⟩
abbrev main_v178 : Ref sig .tc := ⟨.hbm, 214, rfl⟩
abbrev main_cst_20 : Ref sig .tc := ⟨.hbm, 215, rfl⟩
abbrev main_v179 : Ref sig .tc := ⟨.hbm, 216, rfl⟩
abbrev main_v180 : Ref sig .tc := ⟨.hbm, 217, rfl⟩
abbrev main_v181 : Ref sig .tc := ⟨.hbm, 218, rfl⟩
abbrev main_v182 : Ref sig .tc := ⟨.hbm, 219, rfl⟩
abbrev main_v183 : Ref sig .tc := ⟨.hbm, 220, rfl⟩
abbrev main_cst_21 : Ref sig .tc := ⟨.hbm, 221, rfl⟩
abbrev main_v184 : Ref sig .tc := ⟨.hbm, 222, rfl⟩
abbrev main_v185 : Ref sig .tc := ⟨.hbm, 223, rfl⟩
abbrev main_v186 : Ref sig .tc := ⟨.hbm, 224, rfl⟩
abbrev main_v187 : Ref sig .tc := ⟨.hbm, 225, rfl⟩
abbrev main_v188 : Ref sig .tc := ⟨.hbm, 226, rfl⟩
abbrev main_call5_cst : Ref sig .tc := ⟨.hbm, 227, rfl⟩
abbrev main_call5_v0 : Ref sig .tc := ⟨.hbm, 228, rfl⟩
abbrev main_v189 : Ref sig .tc := ⟨.hbm, 229, rfl⟩
abbrev main_v190 : Ref sig .tc := ⟨.hbm, 230, rfl⟩
abbrev main_v191 : Ref sig .tc := ⟨.hbm, 231, rfl⟩
abbrev main_v192 : Ref sig .tc := ⟨.hbm, 232, rfl⟩
abbrev main_v193 : Ref sig .tc := ⟨.hbm, 233, rfl⟩
abbrev main_v194 : Ref sig .tc := ⟨.hbm, 234, rfl⟩
abbrev main_v195 : Ref sig .tc := ⟨.hbm, 235, rfl⟩
abbrev main_v196 : Ref sig .tc := ⟨.hbm, 236, rfl⟩
abbrev main_v197 : Ref sig .tc := ⟨.hbm, 237, rfl⟩
abbrev main_v198 : Ref sig .tc := ⟨.hbm, 238, rfl⟩
abbrev main_v199 : Ref sig .tc := ⟨.hbm, 239, rfl⟩
abbrev main_v200 : Ref sig .tc := ⟨.hbm, 240, rfl⟩
abbrev main_v201 : Ref sig .tc := ⟨.hbm, 241, rfl⟩
abbrev main_v202 : Ref sig .tc := ⟨.hbm, 242, rfl⟩
abbrev main_v203 : Ref sig .tc := ⟨.hbm, 243, rfl⟩
abbrev main_v204 : Ref sig .tc := ⟨.hbm, 244, rfl⟩
abbrev main_v205 : Ref sig .tc := ⟨.hbm, 245, rfl⟩
abbrev main_v206 : Ref sig .tc := ⟨.hbm, 246, rfl⟩
abbrev main_v207 : Ref sig .tc := ⟨.hbm, 247, rfl⟩
abbrev main_v208 : Ref sig .tc := ⟨.hbm, 248, rfl⟩
abbrev main_v209 : Ref sig .tc := ⟨.hbm, 249, rfl⟩
abbrev main_v210 : Ref sig .tc := ⟨.hbm, 250, rfl⟩
abbrev main_v211 : Ref sig .tc := ⟨.hbm, 251, rfl⟩
abbrev main_v212 : Ref sig .tc := ⟨.hbm, 252, rfl⟩
abbrev main_v213 : Ref sig .tc := ⟨.hbm, 253, rfl⟩
abbrev main_v214 : Ref sig .tc := ⟨.hbm, 254, rfl⟩
abbrev main_v215 : Ref sig .tc := ⟨.hbm, 255, rfl⟩
abbrev main_v216 : Ref sig .tc := ⟨.hbm, 256, rfl⟩
abbrev main_v217 : Ref sig .tc := ⟨.hbm, 257, rfl⟩
abbrev main_cst_22 : Ref sig .tc := ⟨.hbm, 258, rfl⟩
abbrev main_v218 : Ref sig .tc := ⟨.hbm, 259, rfl⟩
abbrev main_v219 : Ref sig .tc := ⟨.hbm, 260, rfl⟩
abbrev main_cst_23 : Ref sig .tc := ⟨.hbm, 261, rfl⟩
abbrev main_v220 : Ref sig .tc := ⟨.hbm, 262, rfl⟩
abbrev main_v221 : Ref sig .tc := ⟨.hbm, 263, rfl⟩
abbrev main_v222 : Ref sig .tc := ⟨.hbm, 264, rfl⟩
abbrev main_v223 : Ref sig .tc := ⟨.hbm, 265, rfl⟩
abbrev main_v224 : Ref sig .tc := ⟨.hbm, 266, rfl⟩
abbrev main_cst_24 : Ref sig .tc := ⟨.hbm, 267, rfl⟩
abbrev main_v225 : Ref sig .tc := ⟨.hbm, 268, rfl⟩
abbrev main_v226 : Ref sig .tc := ⟨.hbm, 269, rfl⟩
abbrev main_cst_25 : Ref sig .tc := ⟨.hbm, 270, rfl⟩
abbrev main_v227 : Ref sig .tc := ⟨.hbm, 271, rfl⟩
abbrev main_v228 : Ref sig .tc := ⟨.hbm, 272, rfl⟩
abbrev main_v229 : Ref sig .tc := ⟨.hbm, 273, rfl⟩
abbrev main_v230 : Ref sig .tc := ⟨.hbm, 274, rfl⟩
abbrev main_v231 : Ref sig .tc := ⟨.hbm, 275, rfl⟩
abbrev main_v232 : Ref sig .tc := ⟨.hbm, 276, rfl⟩
abbrev main_v233 : Ref sig .tc := ⟨.hbm, 277, rfl⟩
abbrev main_v234 : Ref sig .tc := ⟨.hbm, 278, rfl⟩
abbrev main_v235 : Ref sig .tc := ⟨.hbm, 279, rfl⟩
abbrev main_v236 : Ref sig .tc := ⟨.hbm, 280, rfl⟩
abbrev main_v237 : Ref sig .tc := ⟨.hbm, 281, rfl⟩
abbrev main_v238 : Ref sig .tc := ⟨.hbm, 282, rfl⟩
abbrev main_v239 : Ref sig .tc := ⟨.hbm, 283, rfl⟩
abbrev main_cst_26 : Ref sig .tc := ⟨.hbm, 284, rfl⟩
abbrev main_v240 : Ref sig .tc := ⟨.hbm, 285, rfl⟩
abbrev main_cst_27 : Ref sig .tc := ⟨.hbm, 286, rfl⟩
abbrev main_v241 : Ref sig .tc := ⟨.hbm, 287, rfl⟩
abbrev main_v242 : Ref sig .tc := ⟨.hbm, 288, rfl⟩
abbrev main_v243 : Ref sig .tc := ⟨.hbm, 289, rfl⟩
abbrev main_v244 : Ref sig .tc := ⟨.hbm, 290, rfl⟩
abbrev main_v245 : Ref sig .tc := ⟨.hbm, 291, rfl⟩
abbrev main_cst_28 : Ref sig .tc := ⟨.hbm, 292, rfl⟩
abbrev main_v246 : Ref sig .tc := ⟨.hbm, 293, rfl⟩
abbrev main_v247 : Ref sig .tc := ⟨.hbm, 294, rfl⟩
abbrev main_v248 : Ref sig .tc := ⟨.hbm, 295, rfl⟩
abbrev main_v249 : Ref sig .tc := ⟨.hbm, 296, rfl⟩
abbrev main_v250 : Ref sig .tc := ⟨.hbm, 297, rfl⟩
abbrev main_call7_cst : Ref sig .tc := ⟨.hbm, 298, rfl⟩
abbrev main_call7_v0 : Ref sig .tc := ⟨.hbm, 299, rfl⟩
abbrev main_v251 : Ref sig .tc := ⟨.hbm, 300, rfl⟩

abbrev nD : Nat := 1
abbrev τ : Topo := Topo.v7x

variable {F : FTy → Type} [FloatOps F]

class Facts₀ : Prop where
  reducesTo_S32768x8192_S32768_d1 : S32768x8192.ReducesTo [1] S32768
  h_S_ : 0 < S_.numel
  bcast_S32768_S32768x1_0 : S32768.BroadcastsInDim S32768x1 (![0] : Fin 1 → Fin S32768x1.rank)
  bcast_S_S32768x1 : S_.BroadcastsInDim S32768x1 (![] : Fin 0 → Fin S32768x1.rank)
  slices_S4x128x64_S1x128x64_0_0_0 : S4x128x64.Slices ![0, 0, 0] S1x128x64
  shapeCasts_S1x128x64_S128x64 : S1x128x64.ShapeCasts S128x64
  slices_S4x64_S1x64_0_0 : S4x64.Slices ![0, 0] S1x64
  shapeCasts_S1x64_S64 : S1x64.ShapeCasts S64
  bcast_S64_S1x64_1 : S64.BroadcastsInDim S1x64 (![1] : Fin 1 → Fin S1x64.rank)
  bcast_S1x64_S32768x64_0_1 : S1x64.BroadcastsInDim S32768x64 (![0, 1] : Fin 2 → Fin S32768x64.rank)
  bcast_S1x64_S8192x64_0_1 : S1x64.BroadcastsInDim S8192x64 (![0, 1] : Fin 2 → Fin S8192x64.rank)
  bcast_S32768x1_S32768x64_0_1 : S32768x1.BroadcastsInDim S32768x64 (![0, 1] : Fin 2 → Fin S32768x64.rank)
  slices_S4x64x1_S1x64x1_0_0_0 : S4x64x1.Slices ![0, 0, 0] S1x64x1
  shapeCasts_S1x64x1_S64x1 : S1x64x1.ShapeCasts S64x1
  slices_S4x1_S1x1_0_0 : S4x1.Slices ![0, 0] S1x1
  shapeCasts_S1x1_S1 : S1x1.ShapeCasts S1
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  slices_S4x64x128_S1x64x128_0_0_0 : S4x64x128.Slices ![0, 0, 0] S1x64x128
  shapeCasts_S1x64x128_S64x128 : S1x64x128.ShapeCasts S64x128
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S32768x128_0_1 : S1x128.BroadcastsInDim S32768x128 (![0, 1] : Fin 2 → Fin S32768x128.rank)
  reducesTo_S32768x128_S128_d0 : S32768x128.ReducesTo [0] S128
  bcast_S_S128 : S_.BroadcastsInDim S128 (![] : Fin 0 → Fin S128.rank)
  bcast_S_S32768x128 : S_.BroadcastsInDim S32768x128 (![] : Fin 0 → Fin S32768x128.rank)
  slices_S4x128x64_S1x128x64_1_0_0 : S4x128x64.Slices ![1, 0, 0] S1x128x64
  slices_S4x64_S1x64_1_0 : S4x64.Slices ![1, 0] S1x64
  slices_S4x64x1_S1x64x1_1_0_0 : S4x64x1.Slices ![1, 0, 0] S1x64x1
  slices_S4x1_S1x1_1_0 : S4x1.Slices ![1, 0] S1x1
  slices_S4x64x128_S1x64x128_1_0_0 : S4x64x128.Slices ![1, 0, 0] S1x64x128
  slices_S4x128_S1x128_1_0 : S4x128.Slices ![1, 0] S1x128
  slices_S4x128x64_S1x128x64_2_0_0 : S4x128x64.Slices ![2, 0, 0] S1x128x64
  slices_S4x64_S1x64_2_0 : S4x64.Slices ![2, 0] S1x64
  slices_S4x64x1_S1x64x1_2_0_0 : S4x64x1.Slices ![2, 0, 0] S1x64x1
  slices_S4x1_S1x1_2_0 : S4x1.Slices ![2, 0] S1x1
  slices_S4x64x128_S1x64x128_2_0_0 : S4x64x128.Slices ![2, 0, 0] S1x64x128
  slices_S4x128_S1x128_2_0 : S4x128.Slices ![2, 0] S1x128
  slices_S4x128x64_S1x128x64_3_0_0 : S4x128x64.Slices ![3, 0, 0] S1x128x64
  slices_S4x64_S1x64_3_0 : S4x64.Slices ![3, 0] S1x64
  slices_S4x64x1_S1x64x1_3_0_0 : S4x64x1.Slices ![3, 0, 0] S1x64x1
  slices_S4x1_S1x1_3_0 : S4x1.Slices ![3, 0] S1x1
  slices_S4x64x128_S1x64x128_3_0_0 : S4x64x128.Slices ![3, 0, 0] S1x64x128
  slices_S4x128_S1x128_3_0 : S4x128.Slices ![3, 0] S1x128
  dot_S32768x128_S128x64_S32768x64_1_0_0_1_n_n_wf : DotDims.WF S32768x128 S128x64 S32768x64 [1] [0] [0] [1] [] []
  dot_S8192x128_S128x64_S8192x64_1_0_0_1_n_n_wf : DotDims.WF S8192x128 S128x64 S8192x64 [1] [0] [0] [1] [] []
  dot_S32768x8192_S8192x64_S32768x64_1_0_0_1_n_n_wf : DotDims.WF S32768x8192 S8192x64 S32768x64 [1] [0] [0] [1] [] []
  dot_S32768x64_S64x1_S32768x1_1_0_0_1_n_n_wf : DotDims.WF S32768x64 S64x1 S32768x1 [1] [0] [0] [1] [] []
  dot_S32768x64_S64x128_S32768x128_1_0_0_1_n_n_wf : DotDims.WF S32768x64 S64x128 S32768x128 [1] [0] [0] [1] [] []

variable [Facts₀]

def dot_S32768x128_S128x64_S32768x64_1_0_0_1_n_n : DotDims S32768x128 S128x64 S32768x64 where
  lhsContracting := [1]
  rhsContracting := [0]
  lhsNonContracting := [0]
  rhsNonContracting := [1]
  lhsBatch := []
  rhsBatch := []
  wf := dot_S32768x128_S128x64_S32768x64_1_0_0_1_n_n_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S32768x8192_S8192x64_S32768x64_1_0_0_1_n_n : DotDims S32768x8192 S8192x64 S32768x64 where
  lhsContracting := [1]
  rhsContracting := [0]
  lhsNonContracting := [0]
  rhsNonContracting := [1]
  lhsBatch := []
  rhsBatch := []
  wf := dot_S32768x8192_S8192x64_S32768x64_1_0_0_1_n_n_wf
def dot_S32768x64_S64x1_S32768x1_1_0_0_1_n_n : DotDims S32768x64 S64x1 S32768x1 where
  lhsContracting := [1]
  rhsContracting := [0]
  lhsNonContracting := [0]
  rhsNonContracting := [1]
  lhsBatch := []
  rhsBatch := []
  wf := dot_S32768x64_S64x1_S32768x1_1_0_0_1_n_n_wf
def dot_S32768x64_S64x128_S32768x128_1_0_0_1_n_n : DotDims S32768x64 S64x128 S32768x128 where
  lhsContracting := [1]
  rhsContracting := [0]
  lhsNonContracting := [0]
  rhsNonContracting := [1]
  lhsBatch := []
  rhsBatch := []
  wf := dot_S32768x64_S64x128_S32768x128_1_0_0_1_n_n_wf

class Facts : Prop extends Facts₀ where

variable [Facts]
-- ==== Proof.Preserves.lean ====
/-
  The idealised kernel is the kernel's sanctioned idealisation: each of the sixteen rewrites replaced a widening of a
  narrowing, `extf (truncf x)`, by `x` — the identity on extended reals, and at the word level the rounding through
  the narrower format that the printed kernel keeps.
-/
import proofs.«100906_j73718818669321_2_alg».proof.Defs

namespace Cert.Proof

open Idealize.ShloMosaic

theorem preserves : Cert.preserves_Kernel_KernelIdeal :=
  ⟨IdealRules.truncf_extf.statement Cert.KernelIdeal.S8192x128 .f32 .bf16,
    IdealRules.truncf_extf.statement Cert.KernelIdeal.S128x64 .f32 .bf16,
    IdealRules.truncf_extf.statement Cert.KernelIdeal.S8192x64 .f32 .bf16,
    IdealRules.truncf_extf.statement Cert.KernelIdeal.S64x128 .f32 .bf16,
    IdealRules.truncf_extf.statement Cert.KernelIdeal.S8192x128 .f32 .bf16,
    IdealRules.truncf_extf.statement Cert.KernelIdeal.S128x64 .f32 .bf16,
    IdealRules.truncf_extf.statement Cert.KernelIdeal.S8192x64 .f32 .bf16,
    IdealRules.truncf_extf.statement Cert.KernelIdeal.S64x128 .f32 .bf16,
    IdealRules.truncf_extf.statement Cert.KernelIdeal.S8192x128 .f32 .bf16,
    IdealRules.truncf_extf.statement Cert.KernelIdeal.S128x64 .f32 .bf16,
    IdealRules.truncf_extf.statement Cert.KernelIdeal.S8192x64 .f32 .bf16,
    IdealRules.truncf_extf.statement Cert.KernelIdeal.S64x128 .f32 .bf16,
    IdealRules.truncf_extf.statement Cert.KernelIdeal.S8192x128 .f32 .bf16,
    IdealRules.truncf_extf.statement Cert.KernelIdeal.S128x64 .f32 .bf16,
    IdealRules.truncf_extf.statement Cert.KernelIdeal.S8192x64 .f32 .bf16,
    IdealRules.truncf_extf.statement Cert.KernelIdeal.S64x128 .f32 .bf16⟩

end Cert.Proof
-- ==== Proof.BitsAsmSeg.lean ====
/-
  A kernel region of @main as a segment between two valuations of the unscoped buffers.

  The region is entered with every unscoped buffer held at `Vin c`, beside the core's generator register and an
  empty ledger of dues, and is left with every unscoped buffer held at `Vout c`: the windows' arrays are split out
  of the unscoped buffers at the proof data's entry contents, the generator register and the scoped buffers pass
  through the region's invariant, and the arrays are joined back at what the last point left in them, `Vout`
  agreeing with `Vin` off the windows' arrays.
-/
import proofs.«100906_j73718818669321_2_alg».proof.Proof.Gen.Kernel.Regions
import Idealize.ShloMosaic.Lib.Pipeline.RegionsLoop
import Idealize.ShloMosaic.Lib.Pipeline.Frame

noncomputable section

namespace Cert.Kernel.Asm

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

/-- No core owes another anything: no level is assigned. -/
abbrev L : GSem nD τ sig → Finset Unit := fun _ => ∅
abbrev lv : GSem nD τ sig → Unit → ℕ := fun _ _ => 0

/-- What rides beside the buffers through every segment: the generator register at some state, and the core's
    dues, none. -/
abbrev Rest (c : Dev nD) : sProp 𝕄 :=
  iprop((∃ r, prngReg c r) ∗ ∃ W, owes (c : Thread nD τ) (0 : CellTallies nD τ sig Unit) W)

set_option backward.isDefEq.respectTransparency.types false in
/-- Region `p` as a segment from `Vin` to `Vout`, from its proof data's facts. -/
def mkSeg (pdats : (p : Fin 5) → (c : Dev nD) → Dat τ (Elt F) Unit ℕ (UR sig nD τ) ℕ (cfgs p) c) (p : Fin 5)
    (launch : Pipeline.LaunchFacts (nD := nD) (τ := τ) cfgs p)
    (Vin Vout : Dev nD → Valuation τ sig (Elt F))
    (hA : ∀ c w, (pdats p c).A w = Vin c (Pipeline.arrRef (cfgs p).spec w))
    (hq : ∀ c w, (pdats p c).q w = fullShare)
    (howed : ∀ c t, (pdats p c).owed t = 0)
    (hrec : ∀ c t, (pdats p c).recorded t = Set.univ)
    (hbody : ∀ c, BodyObligation (pdats p c) (defs₀ (F := F)) Variants.none () Set.univ)
    (hin : ∀ c, Pipeline.ΦA (cfgs p).spec c ⊢ (pdats p c).Φ 0)
    (hout : ∀ c, (pdats p c).Φ (Fin.last (cfgs p).N) ⊢ Pipeline.ΦA (cfgs p).spec c)
    (hF : ∀ c w, (pdats p c).arrAt w (cfgs p).N = Vout c (Pipeline.arrRef (cfgs p).spec w))
    (hrest : ∀ c b, b ∉ Finset.univ.image (Pipeline.arrRef (cfgs p).spec) → Vout c b = Vin c b) :
    RegionSeg (pcfgs (F := F)) adm pdats () defs₀ Variants.none L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Vin c) ∗ Rest c)
  post c := iprop(StableHlo.held (c : Thread nD τ) (Pipeline.ucRefs τ sig) (Vout c) ∗ Rest c)
  X c := iprop(∃ r, prngReg c r)
  Y c := iprop(∃ r, prngReg c r)
  Z c := Pipeline.unscopedRest (Ix := Unit) (Name := ℕ) (U := UR sig nD τ) (Lvl := ℕ) (cfgs p).spec c (fun b => Vin c b)
  hentry c := by
    rw [Pipeline.ownSems0_none]
    have hsplit := Pipeline.arrays_of_unscopedBufs (p := p) (pcfgs (F := F)) adm pdats launch.win launch.arr_whole c
      ((pdats p c).share_full (hq c)) (fun b => Vin c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [hrec c 0]; exact Set.mem_univ _)
      rw [howed c 0]; iexact HO
    isplitl [Hp]; · iexact Hp
    iexact Hrest
  hin c := by
    refine .trans ?_ (hin c)
    unfold Pipeline.ΦA
    iintro ⟨Hp, -, Hr⟩
    isplitl [Hr]; · iexact Hr
    iexact Hp
  hout c := by
    rw [Pipeline.ownSems0_none]
    refine (hout c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      launch.win launch.arr_whole c pdats ((pdats p c).share_full (hq c))
      (fun b => Vin c b) (fun b => Vout c b) ((pdats p c).arrAt · (cfgs p).N) (hF c) (hrest c)
    rw [Pipeline.unscopedBufs_held] at hjoin
    unfold Pipeline.Dat.owesAt Pipeline.owesWithin
    simp only [howed c]
    iintro ⟨Ha, HO, HY, Hrest⟩
    imodintro
    isplitl [Ha Hrest]
    · iapply hjoin; isplitl [Ha] <;> iassumption
    isplitl [HY]; · iexact HY
    icases HO with ⟨%W, -, HO⟩; iexists W; iexact HO

end Cert.Kernel.Asm

end
-- ==== Proof.BitsAsmRun.lean ====
/-
  The whole run of @main: the host stretches and the five kernel regions as segments, from the launch to the
  return, ending with every unscoped buffer of every core at the last valuation.
-/
import proofs.«100906_j73718818669321_2_alg».proof.Proof.BitsAsmSeg

noncomputable section

namespace Cert.Kernel.Asm

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (pdats : (p : Fin 5) → (c : Dev nD) → Dat τ (Elt F) Unit ℕ (UR sig nD τ) ℕ (cfgs p) c)

/-- What a region's proof data must satisfy to be a segment from `Vin` to `Vout`: its entry contents are read off
    `Vin`, it holds the arrays whole and owes nothing, its body runs at every point, its invariant starts from and
    returns the scoped rest and the generator register, and its arrays end at `Vout`, which agrees with `Vin` off
    them. -/
structure RegionFacts (p : Fin 5) (Vin Vout : Dev nD → Valuation τ sig (Elt F)) : Prop where
  hA : ∀ c w, (pdats p c).A w = Vin c (Pipeline.arrRef (cfgs p).spec w)
  hq : ∀ c w, (pdats p c).q w = fullShare
  howed : ∀ c t, (pdats p c).owed t = 0
  hrec : ∀ c t, (pdats p c).recorded t = Set.univ
  hbody : ∀ c, BodyObligation (pdats p c) (defs₀ (F := F)) Variants.none () Set.univ
  hin : ∀ c, Pipeline.ΦA (cfgs p).spec c ⊢ (pdats p c).Φ 0
  hout : ∀ c, (pdats p c).Φ (Fin.last (cfgs p).N) ⊢ Pipeline.ΦA (cfgs p).spec c
  hF : ∀ c w, (pdats p c).arrAt w (cfgs p).N = Vout c (Pipeline.arrRef (cfgs p).spec w)
  hrest : ∀ c b, b ∉ Finset.univ.image (Pipeline.arrRef (cfgs p).spec) → Vout c b = Vin c b

/-- The region's segment. -/
def seg (p : Fin 5) (launch : Pipeline.LaunchFacts (nD := nD) (τ := τ) cfgs p) (Vin Vout : Dev nD → Valuation τ sig (Elt F))
    (h : RegionFacts pdats p Vin Vout) : RegionSeg (pcfgs (F := F)) adm pdats () defs₀ Variants.none L lv p :=
  mkSeg pdats p launch Vin Vout h.hA h.hq h.howed h.hrec h.hbody h.hin h.hout h.hF h.hrest

variable (m : (ℓ : Loc nD τ sig) → Buf (Elt F) ℓ) (ρ : Dev nD → PrngReg)

/-- A host stretch as a segment from the contents `W`, the rest riding along: it ends with the unscoped buffers at
    `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    HostSeg (Name := ℕ) (U := UR sig nD τ) (pcfgs (F := F)) defs₀ Variants.none L lv :=
  HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

-- the contents of the unscoped buffers after each region: unknowns the regions' facts pin down
variable (W2 W4 W6 W8 W10 : Dev nD → Valuation τ sig (Elt F))

set_option backward.isDefEq.respectTransparency.types false in
/-- From any memory with zero counters every weakly fair execution of @main terminates, nothing faulting, and every
    final memory holds each unscoped buffer of each core at the last valuation: the last two host stretches applied to
    what region 4 left. -/
theorem run_all (h0 : RegionFacts pdats 0 (fun c => StableHlo.after hostOps0 (V0 m c)) W2)
    (h1 : RegionFacts pdats 1 (fun c => StableHlo.after hostOps1 (W2 c)) W4)
    (h2 : RegionFacts pdats 2 (fun c => StableHlo.after hostOps2 (W4 c)) W6)
    (h3 : RegionFacts pdats 3 (fun c => StableHlo.after hostOps3 (W6 c)) W8)
    (h4 : RegionFacts pdats 4 (fun c => StableHlo.after hostOps4 (W8 c)) W10) :
    θ_run defs (onTc (τ := τ) (main (F := F))) ⟨m, fun _ => 0, ρ⟩ (fun r => ∀ c : Dev nD,
      ∀ b ∈ Pipeline.ucRefs τ sig, r.2.mem (((c : Thread nD τ)).1, b)
        = StableHlo.after hostOps5_1 (StableHlo.after hostOps5 (W10 c)) b) := by
  have hlast : ∀ c : Dev nD, (iprop(StableHlo.held (c : Thread nD τ) (Pipeline.ucRefs τ sig) (StableHlo.after hostOps5_1 (StableHlo.after hostOps5 (W10 c))) ∗ Rest c) : sProp 𝕄)
      ⊢ iprop((StableHlo.held (c : Thread nD τ) (Pipeline.ucRefs τ sig) (StableHlo.after hostOps5_1 (StableHlo.after hostOps5 (W10 c))) ∗ ∃ r, prngReg c r)
          ∗ ∃ W, owes (c : Thread nD τ) (0 : CellTallies nD τ sig Unit) W) := fun c => by
    iintro ⟨Hh, Hp, HO⟩
    isplitl [Hh Hp]
    · isplitl [Hh]; · iexact Hh
      iexact Hp
    iexact HO
  refine Pipeline.θ_run_regions_kit_dev (pcfgs (F := F)) adm pdats () cellOf_inj emb₁ defs₀ Variants.none L lv m ρ main
    (fun _ => [.host (hseg hostOps0 hostOps0_sub hostOps0_fresh (V0 m)), .region (seg pdats 0 launch0 _ _ h0),
      .host (hseg hostOps1 hostOps1_sub hostOps1_fresh W2), .region (seg pdats 1 launch1 _ _ h1),
      .host (hseg hostOps2 hostOps2_sub hostOps2_fresh W4), .region (seg pdats 2 launch2 _ _ h2),
      .host (hseg hostOps3 hostOps3_sub hostOps3_fresh W6), .region (seg pdats 3 launch3 _ _ h3),
      .host (hseg hostOps4 hostOps4_sub hostOps4_fresh W8), .region (seg pdats 4 launch4 _ _ h4),
      .host (hseg hostOps5 hostOps5_sub hostOps5_fresh W10),
      .host (hseg hostOps5_1 hostOps5_1_sub hostOps5_1_fresh (fun c => StableHlo.after hostOps5 (W10 c)))])
    (fun c Q => by
      rewrite [main_chain c, Seg.run_eq_chain]
      exact .rfl)
    (fun c => by simp only [Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rest c))
    (Tₙ := fun c => iprop(StableHlo.held (c : Thread nD τ) (Pipeline.ucRefs τ sig) (StableHlo.after hostOps5_1 (StableHlo.after hostOps5 (W10 c))) ∗ ∃ r, prngReg c r))
    (hch := fun c => ⟨.rfl, .rfl, .rfl, .rfl, .rfl, .rfl, .rfl, .rfl, .rfl, .rfl, .rfl, .rfl, hlast c⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b)
        = StableHlo.after hostOps5_1 (StableHlo.after hostOps5 (W10 c)) b)
    (hfin := fun c s' => by
      iintro ⟨⟨Hh, -⟩, HSI⟩
      unfold StableHlo.held
      imodintro
      iapply (pointsTo_read_all (Pipeline.ucRefs τ sig) (fun b => (((c : Thread nD τ)).1, b)) (StableHlo.after hostOps5_1 (StableHlo.after hostOps5 (W10 c))) s')
      isplitl [Hh] <;> iassumption)
    (hQ := fun s h c => h c)

end Cert.Kernel.Asm

end
-- ==== Proof.BitsReg0Dat.lean ====
/-
  The aggregation region (the first of the five launches): at each of the 128 grid points the body loads a block of
  256 rows of the incidence array and the whole high and low parts of the stacked edge transform, and stores one
  256 × 256 block of the output. Nothing is carried from one point to the next and there is no branch, so the
  proof data is: every input window's staging buffer holds its block after the body, the output window's holds
  the payload of the three input blocks; the invariant is the untouched scoped rest.
-/
import proofs.«100906_j73718818669321_2_alg».proof.Proof.Gen.Kernel.Launch
import proofs.«100906_j73718818669321_2_alg».proof.Proof.Gen.Kernel.Skeleton
import proofs.«100906_j73718818669321_2_alg».proof.Proof.Gen.Kernel.Points
import Idealize.ShloMosaic.Lib.Pipeline.FrameBody
import Idealize.ShloMosaic.Lib.Tactic

set_option maxRecDepth 16384

noncomputable section

namespace Cert.Kernel.Reg0

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)
open Cert.Kernel.Gen

variable {F : FTy → Type} [FloatOps F]

-- the buffers' contents when the region is entered
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 256 × 8192 block, the whole 8192 × 256 block and the whole 256 × 256 block: what the body loads and stores. -/
abbrev rInc : Rect S256x8192 := Rect.unit (s := S256x8192) ![0, 0] S256x8192.size inb_S256x8192_S256x8192_0_0
abbrev rTe : Rect S8192x256 := Rect.unit (s := S8192x256) ![0, 0] S8192x256.size inb_S8192x256_S8192x256_0_0
abbrev rOut : Rect S256x256 := Rect.unit (s := S256x256) ![0, 0] S256x256.size inb_S256x256_S256x256_0_0

/-- The output window's staging buffer after the body, from the three input blocks: its one store. -/
def outBlk (x0 : Vec F S256x8192 .f32) (x1 x2 : Vec F S8192x256 .bf16) : Vec F S256x256 .f32 :=
  View.canon [⟨rOut, k0_pay1 (View.ld x0 rInc) (View.ld x1 rTe) (View.ld x2 rTe)⟩]

/-- The proof data of the aggregation pipeline on core `c`. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => outBlk (iblk V c 0 t) (iblk V c 1 t) (iblk V c 2 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) :
    (dat V c).after 3 t = outBlk (iblk V c 0 t) (iblk V c 1 t) (iblk V c 2 t) := by dsimp only [dat]

end Cert.Kernel.Reg0

end
-- ==== Proof.BitsReg1Runs.lean ====
/-
  Region 1 (the first head's kernel): what its three control cases share.

  The grid has four points of 8192 rows. Windows 0-7 are inputs (the rows of the head's input and of the aggregate,
  then six small operands fetched once); window 8 is the array before normalisation, stored whole at every point;
  windows 9 and 10 (the column minimum and maximum) are stored only at the last point. Two scratch rows carry the
  running minimum and maximum from point to point: set at point 0, folded with the point's own column minimum and
  maximum afterwards, copied to windows 9 and 10 at point 3.
-/
import proofs.«100906_j73718818669321_2_alg».proof.Proof.Gen.Kernel.Launch
import proofs.«100906_j73718818669321_2_alg».proof.Proof.Gen.Kernel.Skeleton
import proofs.«100906_j73718818669321_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Reg1

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or not (an input that
    is not fetched at a point has not moved its block index since the point before). -/
theorem before1_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk V c 6 t) (t : Fin cfg1.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk V c 7 t) (t : Fin cfg1.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The three conditions on the grid point -/

/-- `i == 0`: the running minimum and maximum are set. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- `i != 0`: they are folded with this point's. -/
abbrev cond1_1 (i : grid1.Coords) : Prop := (Scalar.cmpi .ne (Scalar.extui (Scalar.cmpi .ne (BitVec.ofNat 32 (i 0).val) 0#32)) 0#32) = 1#1
theorem hcond1_1 : ∀ t : Fin cfg1.N, cond1_1 (grid1.coords t) ↔ ¬ t.val % 4 = 0 :=
  (by decide +kernel : ∀ t : Fin grid1.N, cond1_1 (grid1.coords t) ↔ ¬ t.val % 4 = 0)
/-- `i == 3`: they are copied to the two small outputs. -/
abbrev cond1_2 (i : grid1.Coords) : Prop := k1_cond3 i = 1#1
theorem hcond1_2 : ∀ t : Fin cfg1.N, cond1_2 (grid1.coords t) ↔ t.val % 4 = 3 :=
  (by decide +kernel : ∀ t : Fin grid1.N, cond1_2 (grid1.coords t) ↔ t.val % 4 = 3)

/-! ## Where the windows are idle -/

theorem liveAt1 : ∀ (w : Fin 11), w.val ≤ 8 → ∀ t : Fin cfg1.N, cfg1.idle w (grid1.coords t) = false := by decide +kernel
theorem idleAt1_9 : ∀ t : Fin cfg1.N, ¬cond1_2 (grid1.coords t) → cfg1.idle 9 (grid1.coords t) = true := by decide +kernel
theorem idleAt1_10 : ∀ t : Fin cfg1.N, ¬cond1_2 (grid1.coords t) → cfg1.idle 10 (grid1.coords t) = true := by decide +kernel
theorem noFlush1_9 : ∀ t : Fin cfg1.N, ¬cond1_2 (grid1.coords t) → (cfg1.win 9).flush t = false := by decide +kernel
theorem noFlush1_10 : ∀ t : Fin cfg1.N, ¬cond1_2 (grid1.coords t) → (cfg1.win 10).flush t = false := by decide +kernel
theorem liveAt1_9 : ∀ t : Fin cfg1.N, cond1_2 (grid1.coords t) → cfg1.idle 9 (grid1.coords t) = false := by decide +kernel
theorem liveAt1_10 : ∀ t : Fin cfg1.N, cond1_2 (grid1.coords t) → cfg1.idle 10 (grid1.coords t) = false := by decide +kernel

/-! ## The memrefs the body is called with -/

/-- One staging buffer of each output window, through which its contents are stated. -/
abbrev VO1_8 : View sig .tc .vmem S8192x128 .f32 := (Memref.whole cc1_stg8_0 : Memref sig .tc .vmem S8192x128 .f32).view
abbrev VO1_9 : View sig .tc .vmem S1x128 .f32 := (Memref.whole cc1_stg9_0 : Memref sig .tc .vmem S1x128 .f32).view
abbrev VO1_10 : View sig .tc .vmem S1x128 .f32 := (Memref.whole cc1_stg10_0 : Memref sig .tc .vmem S1x128 .f32).view
abbrev ms1_0 (t : Fin cfg1.N) : Memref sig .tc .vmem S8192x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S64x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x128 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S8192x128 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x128 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S1x128 .f32 := win1_10.stage (cfg1.slots t 10)
abbrev hs1_10 (t : Fin cfg1.N) : (ms1_10 t).IsWhole := hstage1_10 ((cfg1.slots t 10).cast nbuf1_10)
/-- The two scratch rows, whole buffers of the kernel's own. -/
abbrev scM1_0 : Memref sig .tc .vmem S1x128 .f32 := Memref.whole cc1_scratch0
abbrev scM1_1 : Memref sig .tc .vmem S1x128 .f32 := Memref.whole cc1_scratch1
abbrev VS1_0 : View sig .tc .vmem S1x128 .f32 := scM1_0.view
abbrev VS1_1 : View sig .tc .vmem S1x128 .f32 := scM1_1.view

/-- The other scoped buffers of the core, none of which the body touches. -/
abbrev restBut (c : Dev nD) : sProp 𝕄 :=
  Pipeline.scopedRestBut (Ix := Unit) (Name := ℕ) (U := UR sig nD τ) (Lvl := ℕ) (Val := Elt F) spec1 c [cc1_scratch0, cc1_scratch1]

/-- The class invariant with the two scratch rows as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)) ∗ restBut c) ∗ (∃ r, prngReg c r)) := by
  unfold Pipeline.ΦA; rw [scopedRest1_split]; simp only [scM1_0, scM1_1, owns_whole]; try rfl

end Cert.Kernel.Reg1

end
-- ==== Proof.BitsReg1RunA.lean ====
/-
  Region 1, the kernel body run at the first point (the running minimum and maximum are set from this point's columns; the two small outputs are left as found).
-/
import proofs.«100906_j73718818669321_2_alg».proof.Proof.BitsReg1Runs

set_option maxRecDepth 16384

noncomputable section

namespace Cert.Kernel.Reg1

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body on whole memrefs, the inputs at their contents: it runs to the continuation with the inputs as they were
    and each buffer it stores into at the stores' pieces (last first), which the run finds. -/
noncomputable def kernelRun1_A (c : Dev nD) (i : grid1.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S8192x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : cond1_0 i) (hc1 : ¬cond1_1 i) (hc2 : ¬cond1_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) :
    Σ' (L8 : List (View.Piece (Elt F) S8192x128 .f32)) (LS0 : List (View.Piece (Elt F) S1x128 .f32)), { LS1 : List (View.Piece (Elt F) S1x128 .f32) //
      ∀ (xi9 : Vec F S1x128 .f32) (xi10 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xi9 ∗ owns (c : Thread nD τ) arg11 fullShare xi10 ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ owns (c : Thread nD τ) arg10 fullShare xi9 ∗ owns (c : Thread nD τ) arg11 fullShare xi10 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc1__head_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, fun xi9 xi10 E K => ?run⟩
  case run =>
    simp only [cc1__head_kernel_eq_skeleton]; unfold cc1__head_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hf9; obtain rfl := harg11.eq_unread hf10
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]
    · iexists _; isplitr; · ipureintro; exact harg10.read_unread _
      iexact H9
    isplitl [H10]
    · iexists _; isplitr; · ipureintro; exact harg11.read_unread _
      iexact H10
    isplitl [HS0]; · iexists _; iexact HS0
    iexists _; iexact HS1

end Cert.Kernel.Reg1

end
-- ==== Proof.BitsReg1RunB.lean ====
/-
  Region 1, the kernel body run at a middle point (the running minimum and maximum are folded with this point's columns; the two small outputs are left as found).
-/
import proofs.«100906_j73718818669321_2_alg».proof.Proof.BitsReg1Runs

set_option maxRecDepth 16384

noncomputable section

namespace Cert.Kernel.Reg1

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body on whole memrefs, the inputs at their contents: it runs to the continuation with the inputs as they were
    and each buffer it stores into at the stores' pieces (last first), which the run finds. -/
noncomputable def kernelRun1_B (c : Dev nD) (i : grid1.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S8192x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond1_0 i) (hc1 : cond1_1 i) (hc2 : ¬cond1_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (xs0 : Vec F S1x128 .f32) (xs1 : Vec F S1x128 .f32) :
    Σ' (L8 : List (View.Piece (Elt F) S8192x128 .f32)) (LS0 : List (View.Piece (Elt F) S1x128 .f32)), { LS1 : List (View.Piece (Elt F) S1x128 .f32) //
      ∀ (xi9 : Vec F S1x128 .f32) (xi10 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xi9 ∗ owns (c : Thread nD τ) arg11 fullShare xi10 ∗ owns (c : Thread nD τ) arg12 fullShare xs0 ∗ owns (c : Thread nD τ) arg13 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ owns (c : Thread nD τ) arg10 fullShare xi9 ∗ owns (c : Thread nD τ) arg11 fullShare xi10 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc1__head_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, fun xi9 xi10 E K => ?run⟩
  case run =>
    simp only [cc1__head_kernel_eq_skeleton]; unfold cc1__head_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hf9; obtain rfl := harg11.eq_unread hf10; obtain rfl := harg12.eq_unread hfs0; obtain rfl := harg13.eq_unread hfs1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]
    · iexists _; isplitr; · ipureintro; exact harg10.read_unread _
      iexact H9
    isplitl [H10]
    · iexists _; isplitr; · ipureintro; exact harg11.read_unread _
      iexact H10
    isplitl [HS0]; · iexists _; iexact HS0
    iexists _; iexact HS1

end Cert.Kernel.Reg1

end
-- ==== Proof.BitsReg1RunC.lean ====
/-
  Region 1, the kernel body run at the last point (the running minimum and maximum are folded with this point's columns, then copied to the two small outputs).
-/
import proofs.«100906_j73718818669321_2_alg».proof.Proof.BitsReg1Runs

set_option maxRecDepth 16384

noncomputable section

namespace Cert.Kernel.Reg1

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body on whole memrefs, the inputs at their contents: it runs to the continuation with the inputs as they were
    and each buffer it stores into at the stores' pieces (last first), which the run finds. -/
noncomputable def kernelRun1_C (c : Dev nD) (i : grid1.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S8192x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond1_0 i) (hc1 : cond1_1 i) (hc2 : cond1_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (xs0 : Vec F S1x128 .f32) (xs1 : Vec F S1x128 .f32) :
    Σ' (L8 : List (View.Piece (Elt F) S8192x128 .f32)) (L9 : List (View.Piece (Elt F) S1x128 .f32)) (L10 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0 ∗ owns (c : Thread nD τ) arg13 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc1__head_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun E K => ?run⟩
  case run =>
    simp only [cc1__head_kernel_eq_skeleton]; unfold cc1__head_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg12.eq_unread hfs0; obtain rfl := harg13.eq_unread hfs1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    isplitl [HS0]; · iexists _; iexact HS0
    iexists _; iexact HS1

end Cert.Kernel.Reg1

end
-- ==== Proof.BitsReg1Dat.lean ====
/-
  Region 1: what the output buffers and the two scratch rows hold after each grid point, and the proof data.

  After point `t` window 8's buffer holds what the body's one whole store left; the scratch rows hold the
  minimum and maximum set at point 0 and folded at each later point with what the point before left; windows 9
  and 10 hold the scratch rows' contents at the last point (and nothing that is read before).
-/
import proofs.«100906_j73718818669321_2_alg».proof.Proof.BitsReg1RunA
import proofs.«100906_j73718818669321_2_alg».proof.Proof.BitsReg1RunB
import proofs.«100906_j73718818669321_2_alg».proof.Proof.BitsReg1RunC

set_option maxRecDepth 16384

noncomputable section

namespace Cert.Kernel.Reg1

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The three runs at a grid point -/

/-- The body's run at the first point, on the point's memrefs and input blocks. -/
def runA (c : Dev nD) (t : Fin cfg1.N) (h0 : t.val % 4 = 0) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _)
    ((hcond1_0 t).mpr h0) (fun h => (hcond1_1 t).mp h h0)
    (fun h => by have h3 := (hcond1_2 t).mp h; omega)
    (iblk V c 0 t) (iblk V c 1 t) (iblk V c 2 t) (iblk V c 3 t) (iblk V c 4 t) (iblk V c 5 t) (iblk V c 6 t) (iblk V c 7 t)

/-- The body's run at a middle point, the scratch rows at `xs0`, `xs1`. -/
def runB (c : Dev nD) (t : Fin cfg1.N) (h0 : ¬t.val % 4 = 0) (h3 : ¬t.val % 4 = 3) (xs0 xs1 : Vec F S1x128 .f32) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _)
    (fun h => h0 ((hcond1_0 t).mp h)) ((hcond1_1 t).mpr h0) (fun h => h3 ((hcond1_2 t).mp h))
    (iblk V c 0 t) (iblk V c 1 t) (iblk V c 2 t) (iblk V c 3 t) (iblk V c 4 t) (iblk V c 5 t) (iblk V c 6 t) (iblk V c 7 t) xs0 xs1

/-- The body's run at the last point, the scratch rows at `xs0`, `xs1`. -/
def runC (c : Dev nD) (t : Fin cfg1.N) (h3 : t.val % 4 = 3) (xs0 xs1 : Vec F S1x128 .f32) :=
  kernelRun1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _)
    (fun h => by have h0 := (hcond1_0 t).mp h; omega) ((hcond1_1 t).mpr (by omega)) ((hcond1_2 t).mpr h3)
    (iblk V c 0 t) (iblk V c 1 t) (iblk V c 2 t) (iblk V c 3 t) (iblk V c 4 t) (iblk V c 5 t) (iblk V c 6 t) (iblk V c 7 t) xs0 xs1

/-! ## The stores cover the buffers they go to -/

theorem coverA_8 (c : Dev nD) (t : Fin cfg1.N) (h0 : t.val % 4 = 0) (y : S8192x128.Idx) : ∃ pc ∈ (runA V c t h0).1, y ∈ pc.1.set :=
  View.cover_of_tiledL (runA V c t h0).1 S8192x128.size (by sl_kernel_rfl) y
theorem coverA_s0 (c : Dev nD) (t : Fin cfg1.N) (h0 : t.val % 4 = 0) (y : S1x128.Idx) : ∃ pc ∈ (runA V c t h0).2.1, y ∈ pc.1.set :=
  View.cover_of_tiledL (runA V c t h0).2.1 S1x128.size (by sl_kernel_rfl) y
theorem coverA_s1 (c : Dev nD) (t : Fin cfg1.N) (h0 : t.val % 4 = 0) (y : S1x128.Idx) : ∃ pc ∈ (runA V c t h0).2.2.1, y ∈ pc.1.set :=
  View.cover_of_tiledL (runA V c t h0).2.2.1 S1x128.size (by sl_kernel_rfl) y

theorem coverB_8 (c : Dev nD) (t : Fin cfg1.N) (h0 : ¬t.val % 4 = 0) (h3 : ¬t.val % 4 = 3) (xs0 xs1 : Vec F S1x128 .f32) (y : S8192x128.Idx) :
    ∃ pc ∈ (runB V c t h0 h3 xs0 xs1).1, y ∈ pc.1.set :=
  View.cover_of_tiledL (runB V c t h0 h3 xs0 xs1).1 S8192x128.size (by sl_kernel_rfl) y
theorem coverB_s0 (c : Dev nD) (t : Fin cfg1.N) (h0 : ¬t.val % 4 = 0) (h3 : ¬t.val % 4 = 3) (xs0 xs1 : Vec F S1x128 .f32) (y : S1x128.Idx) :
    ∃ pc ∈ (runB V c t h0 h3 xs0 xs1).2.1, y ∈ pc.1.set :=
  View.cover_of_tiledL (runB V c t h0 h3 xs0 xs1).2.1 S1x128.size (by sl_kernel_rfl) y
theorem coverB_s1 (c : Dev nD) (t : Fin cfg1.N) (h0 : ¬t.val % 4 = 0) (h3 : ¬t.val % 4 = 3) (xs0 xs1 : Vec F S1x128 .f32) (y : S1x128.Idx) :
    ∃ pc ∈ (runB V c t h0 h3 xs0 xs1).2.2.1, y ∈ pc.1.set :=
  View.cover_of_tiledL (runB V c t h0 h3 xs0 xs1).2.2.1 S1x128.size (by sl_kernel_rfl) y

theorem coverC_8 (c : Dev nD) (t : Fin cfg1.N) (h3 : t.val % 4 = 3) (xs0 xs1 : Vec F S1x128 .f32) (y : S8192x128.Idx) :
    ∃ pc ∈ (runC V c t h3 xs0 xs1).1, y ∈ pc.1.set :=
  View.cover_of_tiledL (runC V c t h3 xs0 xs1).1 S8192x128.size (by sl_kernel_rfl) y
theorem coverC_9 (c : Dev nD) (t : Fin cfg1.N) (h3 : t.val % 4 = 3) (xs0 xs1 : Vec F S1x128 .f32) (y : S1x128.Idx) :
    ∃ pc ∈ (runC V c t h3 xs0 xs1).2.1, y ∈ pc.1.set :=
  View.cover_of_tiledL (runC V c t h3 xs0 xs1).2.1 S1x128.size (by sl_kernel_rfl) y
theorem coverC_10 (c : Dev nD) (t : Fin cfg1.N) (h3 : t.val % 4 = 3) (xs0 xs1 : Vec F S1x128 .f32) (y : S1x128.Idx) :
    ∃ pc ∈ (runC V c t h3 xs0 xs1).2.2.1, y ∈ pc.1.set :=
  View.cover_of_tiledL (runC V c t h3 xs0 xs1).2.2.1 S1x128.size (by sl_kernel_rfl) y
theorem coverC_s0 (c : Dev nD) (t : Fin cfg1.N) (h3 : t.val % 4 = 3) (xs0 xs1 : Vec F S1x128 .f32) (y : S1x128.Idx) :
    ∃ pc ∈ (runC V c t h3 xs0 xs1).2.2.2.1, y ∈ pc.1.set :=
  View.cover_of_tiledL (runC V c t h3 xs0 xs1).2.2.2.1 S1x128.size (by sl_kernel_rfl) y
theorem coverC_s1 (c : Dev nD) (t : Fin cfg1.N) (h3 : t.val % 4 = 3) (xs0 xs1 : Vec F S1x128 .f32) (y : S1x128.Idx) :
    ∃ pc ∈ (runC V c t h3 xs0 xs1).2.2.2.2.1, y ∈ pc.1.set :=
  View.cover_of_tiledL (runC V c t h3 xs0 xs1).2.2.2.2.1 S1x128.size (by sl_kernel_rfl) y

/-! ## What each case leaves: (window 8, window 9, window 10, scratch 0, scratch 1) -/

/-- Contents nothing reads: a small output's buffer at a point that does not store into it. -/
def unread9 : Vec F S1x128 .f32 := VO1_9.read (Elt F) (VO1_9.writes (Elt F) VO1_9.junk [])
def unread10 : Vec F S1x128 .f32 := VO1_10.read (Elt F) (VO1_10.writes (Elt F) VO1_10.junk [])

def leftA (c : Dev nD) (t : Fin cfg1.N) (h0 : t.val % 4 = 0) : Vec F S8192x128 .f32 × Vec F S1x128 .f32 × Vec F S1x128 .f32 × Vec F S1x128 .f32 × Vec F S1x128 .f32 :=
  (VO1_8.read (Elt F) (VO1_8.writes (Elt F) VO1_8.junk (runA V c t h0).1), unread9, unread10,
   VS1_0.read (Elt F) (VS1_0.writes (Elt F) VS1_0.junk (runA V c t h0).2.1),
   VS1_1.read (Elt F) (VS1_1.writes (Elt F) VS1_1.junk (runA V c t h0).2.2.1))

def leftB (c : Dev nD) (t : Fin cfg1.N) (h0 : ¬t.val % 4 = 0) (h3 : ¬t.val % 4 = 3) (xs0 xs1 : Vec F S1x128 .f32) : Vec F S8192x128 .f32 × Vec F S1x128 .f32 × Vec F S1x128 .f32 × Vec F S1x128 .f32 × Vec F S1x128 .f32 :=
  (VO1_8.read (Elt F) (VO1_8.writes (Elt F) VO1_8.junk (runB V c t h0 h3 xs0 xs1).1), unread9, unread10,
   VS1_0.read (Elt F) (VS1_0.writes (Elt F) VS1_0.junk (runB V c t h0 h3 xs0 xs1).2.1),
   VS1_1.read (Elt F) (VS1_1.writes (Elt F) VS1_1.junk (runB V c t h0 h3 xs0 xs1).2.2.1))

def leftC (c : Dev nD) (t : Fin cfg1.N) (h3 : t.val % 4 = 3) (xs0 xs1 : Vec F S1x128 .f32) : Vec F S8192x128 .f32 × Vec F S1x128 .f32 × Vec F S1x128 .f32 × Vec F S1x128 .f32 × Vec F S1x128 .f32 :=
  (VO1_8.read (Elt F) (VO1_8.writes (Elt F) VO1_8.junk (runC V c t h3 xs0 xs1).1),
   VO1_9.read (Elt F) (VO1_9.writes (Elt F) VO1_9.junk (runC V c t h3 xs0 xs1).2.1),
   VO1_10.read (Elt F) (VO1_10.writes (Elt F) VO1_10.junk (runC V c t h3 xs0 xs1).2.2.1),
   VS1_0.read (Elt F) (VS1_0.writes (Elt F) VS1_0.junk (runC V c t h3 xs0 xs1).2.2.2.1),
   VS1_1.read (Elt F) (VS1_1.writes (Elt F) VS1_1.junk (runC V c t h3 xs0 xs1).2.2.2.2.1))

/-- What the buffers hold after the body at position `n`: the case the position is in, a later point's scratch
    rows starting from what the point before left. -/
def outsAt1 (c : Dev nD) : (n : ℕ) → n < cfg1.N → Vec F S8192x128 .f32 × Vec F S1x128 .f32 × Vec F S1x128 .f32 × Vec F S1x128 .f32 × Vec F S1x128 .f32
  | 0, hn => leftA V c ⟨0, hn⟩ (Nat.zero_mod _)
  | n + 1, hn =>
    if h3 : (n + 1) % 4 = 3 then
      leftC V c ⟨n + 1, hn⟩ h3 (outsAt1 c n (Nat.lt_of_succ_lt hn)).2.2.2.1 (outsAt1 c n (Nat.lt_of_succ_lt hn)).2.2.2.2
    else
      leftB V c ⟨n + 1, hn⟩ (by have hN : n + 1 < 4 := lt_of_lt_of_eq hn (show cfg1.N = 4 from N_1); show ¬(n + 1) % 4 = 0; omega) h3
        (outsAt1 c n (Nat.lt_of_succ_lt hn)).2.2.2.1 (outsAt1 c n (Nat.lt_of_succ_lt hn)).2.2.2.2

theorem outsAt1_A (c : Dev nD) (t : Fin cfg1.N) (h0 : t.val % 4 = 0) :
    outsAt1 V c t.val t.isLt = leftA V c t h0 := by
  obtain ⟨n, hn⟩ := t
  cases n with
  | zero => exact rfl
  | succ n => exact (by exfalso; have hN : n + 1 < 4 := lt_of_lt_of_eq hn (show cfg1.N = 4 from N_1); (try dsimp only at h0); omega)

theorem outsAt1_B (c : Dev nD) (t : Fin cfg1.N) (h0 : ¬t.val % 4 = 0) (h3 : ¬t.val % 4 = 3) :
    outsAt1 V c t.val t.isLt = leftB V c t h0 h3 (outsAt1 V c (t.val - 1) (Nat.lt_of_le_of_lt (Nat.sub_le _ _) t.isLt)).2.2.2.1
      (outsAt1 V c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h3).trans rfl

theorem outsAt1_C (c : Dev nD) (t : Fin cfg1.N) (h3 : t.val % 4 = 3) :
    outsAt1 V c t.val t.isLt = leftC V c t h3 (outsAt1 V c (t.val - 1) (Nat.lt_of_le_of_lt (Nat.sub_le _ _) t.isLt)).2.2.2.1
      (outsAt1 V c (t.val - 1) (Nat.lt_of_le_of_lt (Nat.sub_le _ _) t.isLt)).2.2.2.2 := by
  obtain ⟨n, hn⟩ := t
  cases n with
  | zero => exact (by exfalso; (try dsimp only at h3); omega)
  | succ n => exact (dif_pos h3).trans rfl

/-! ## The invariant between points -/

/-- Before the first point the class invariant (the scratch rows at anything); afterwards the scratch rows at what
    the point before left, the other scoped buffers untouched, the generator register at some state. -/
def PhiS (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.2.2.1) ∗ owns (c : Thread nD τ) scM1_1 fullShare ((outsAt1 V c n hn).2.2.2.2)) ∗ restBut c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(iprop(owns (c : Thread nD τ) scM1_0 fullShare ((outsAt1 V c n hn).2.2.2.1) ∗ owns (c : Thread nD τ) scM1_1 fullShare ((outsAt1 V c n hn).2.2.2.2)) ∗ restBut c) ∗ (∃ r, prngReg c r)) := rfl

theorem PhiS_pos (c : Dev nD) (n : ℕ) (h : n ≤ cfg1.N) (hz : n ≠ 0) :
    PhiS V c n h = iprop(iprop(iprop(owns (c : Thread nD τ) scM1_0 fullShare ((outsAt1 V c (n - 1) (by omega)).2.2.2.1) ∗ owns (c : Thread nD τ) scM1_1 fullShare ((outsAt1 V c (n - 1) (by omega)).2.2.2.2)) ∗ restBut c) ∗ (∃ r, prngReg c r)) := by
  cases n with
  | zero => exact absurd rfl hz
  | succ n => rfl

/-! ## The proof data -/

/-- The proof data of region 1 on core `c`: the arrays as the region finds them; after the body at point `t` each
    input's buffer at its block and the outputs' at `outsAt1`; the invariant `PhiS`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => (outsAt1 V c t.val t.isLt).1
    | ⟨9, _⟩ => (outsAt1 V c t.val t.isLt).2.1
    | ⟨10, _⟩ => (outsAt1 V c t.val t.isLt).2.2.1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after1_0 (c : Dev nD) (t : Fin cfg1.N) : (dat V c).after 0 t = iblk V c 0 t := by dsimp only [dat]
theorem after1_1 (c : Dev nD) (t : Fin cfg1.N) : (dat V c).after 1 t = iblk V c 1 t := by dsimp only [dat]
theorem after1_2 (c : Dev nD) (t : Fin cfg1.N) : (dat V c).after 2 t = iblk V c 2 t := by dsimp only [dat]
theorem after1_3 (c : Dev nD) (t : Fin cfg1.N) : (dat V c).after 3 t = iblk V c 3 t := by dsimp only [dat]
theorem after1_4 (c : Dev nD) (t : Fin cfg1.N) : (dat V c).after 4 t = iblk V c 4 t := by dsimp only [dat]
theorem after1_5 (c : Dev nD) (t : Fin cfg1.N) : (dat V c).after 5 t = iblk V c 5 t := by dsimp only [dat]
theorem after1_6 (c : Dev nD) (t : Fin cfg1.N) : (dat V c).after 6 t = iblk V c 6 t := by dsimp only [dat]
theorem after1_7 (c : Dev nD) (t : Fin cfg1.N) : (dat V c).after 7 t = iblk V c 7 t := by dsimp only [dat]
theorem after1_8 (c : Dev nD) (t : Fin cfg1.N) : (dat V c).after 8 t = (outsAt1 V c t.val t.isLt).1 := by dsimp only [dat]
theorem after1_9 (c : Dev nD) (t : Fin cfg1.N) : (dat V c).after 9 t = (outsAt1 V c t.val t.isLt).2.1 := by dsimp only [dat]
theorem after1_10 (c : Dev nD) (t : Fin cfg1.N) : (dat V c).after 10 t = (outsAt1 V c t.val t.isLt).2.2.1 := by dsimp only [dat]

theorem before1_0 (c : Dev nD) (t : Fin cfg1.N) (d) : (dat V c).before 0 t d = iblk V c 0 t :=
  before1_0_of V (dat V c) (A_eq V c 0) (after1_0 V c) t d
theorem before1_1 (c : Dev nD) (t : Fin cfg1.N) (d) : (dat V c).before 1 t d = iblk V c 1 t :=
  before1_1_of V (dat V c) (A_eq V c 1) (after1_1 V c) t d
theorem before1_2 (c : Dev nD) (t : Fin cfg1.N) (d) : (dat V c).before 2 t d = iblk V c 2 t :=
  before1_2_of V (dat V c) (A_eq V c 2) (after1_2 V c) t d
theorem before1_3 (c : Dev nD) (t : Fin cfg1.N) (d) : (dat V c).before 3 t d = iblk V c 3 t :=
  before1_3_of V (dat V c) (A_eq V c 3) (after1_3 V c) t d
theorem before1_4 (c : Dev nD) (t : Fin cfg1.N) (d) : (dat V c).before 4 t d = iblk V c 4 t :=
  before1_4_of V (dat V c) (A_eq V c 4) (after1_4 V c) t d
theorem before1_5 (c : Dev nD) (t : Fin cfg1.N) (d) : (dat V c).before 5 t d = iblk V c 5 t :=
  before1_5_of V (dat V c) (A_eq V c 5) (after1_5 V c) t d
theorem before1_6 (c : Dev nD) (t : Fin cfg1.N) (d) : (dat V c).before 6 t d = iblk V c 6 t :=
  before1_6_of V (dat V c) (A_eq V c 6) (after1_6 V c) t d
theorem before1_7 (c : Dev nD) (t : Fin cfg1.N) (d) : (dat V c).before 7 t d = iblk V c 7 t :=
  before1_7_of V (dat V c) (A_eq V c 7) (after1_7 V c) t d

end Cert.Kernel.Reg1

end
-- ==== Proof.BitsReg2Dat.lean ====
/-
  The second attention head's kernel region: what its buffers hold, point by point.

  The grid has four points; point `t` works on rows `8192 t … 8192 t + 8191`. Window 0 is the previous head's
  array (normalised by the body on load with the previous column minimum and maximum, windows 8 and 9), window 1
  a 128-column block of the stacked aggregates, windows 2-7 the head's weights; window 10 receives the rows before
  normalisation, and two one-row buffers carry the running column minimum and maximum from point to point: set at
  the first point, combined with the block's own minimum and maximum afterwards, and copied to windows 11 and 12
  at the last point.
-/
import proofs.«100906_j73718818669321_2_alg».proof.Proof.Gen.Kernel.Launch
import proofs.«100906_j73718818669321_2_alg».proof.Proof.Gen.Kernel.Skeleton
import proofs.«100906_j73718818669321_2_alg».proof.Proof.Gen.Kernel.Points
import Idealize.ShloMosaic.Lib.Pipeline.FrameBody

set_option maxRecDepth 16384

noncomputable section

namespace Cert.Kernel.Reg2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel.Gen

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The rows before normalisation that point `t` computes from its blocks. -/
def preAt (c : Dev nD) (t : Fin cfg2.N) : Vec F S8192x128 .f32 :=
  k2_pay15 (k2_pay4 (iblk V c 1 t)) (k2_pay6 (iblk V c 3 t)) (k2_pay7 (iblk V c 4 t)) (k2_pay8 (iblk V c 5 t)) (k2_pay9 (iblk V c 6 t)) (k2_pay10 (iblk V c 7 t)) (k2_pay11 (iblk V c 0 t) (iblk V c 8 t) (iblk V c 9 t)) (k2_pay12 (iblk V c 0 t) (iblk V c 8 t) (iblk V c 9 t)) (k2_pay13 (iblk V c 2 t)) (k2_pay14 (iblk V c 2 t))

/-- The column minimum of point `t`'s rows alone, as the first point stores it. -/
def minInitAt (c : Dev nD) (t : Fin cfg2.N) : Vec F S1x128 .f32 :=
  k2_pay16 (k2_pay4 (iblk V c 1 t)) (k2_pay6 (iblk V c 3 t)) (k2_pay7 (iblk V c 4 t)) (k2_pay8 (iblk V c 5 t)) (k2_pay9 (iblk V c 6 t)) (k2_pay10 (iblk V c 7 t)) (k2_pay11 (iblk V c 0 t) (iblk V c 8 t) (iblk V c 9 t)) (k2_pay12 (iblk V c 0 t) (iblk V c 8 t) (iblk V c 9 t)) (k2_pay13 (iblk V c 2 t)) (k2_pay14 (iblk V c 2 t))

/-- The column maximum of point `t`'s rows alone, as the first point stores it. -/
def maxInitAt (c : Dev nD) (t : Fin cfg2.N) : Vec F S1x128 .f32 :=
  k2_pay17 (k2_pay4 (iblk V c 1 t)) (k2_pay6 (iblk V c 3 t)) (k2_pay7 (iblk V c 4 t)) (k2_pay8 (iblk V c 5 t)) (k2_pay9 (iblk V c 6 t)) (k2_pay10 (iblk V c 7 t)) (k2_pay11 (iblk V c 0 t) (iblk V c 8 t) (iblk V c 9 t)) (k2_pay12 (iblk V c 0 t) (iblk V c 8 t) (iblk V c 9 t)) (k2_pay13 (iblk V c 2 t)) (k2_pay14 (iblk V c 2 t))

/-- The running column minimum after point `n`: the first point's own, then each point's combined with the one before. -/
def sminAt (c : Dev nD) : (n : ℕ) → n < cfg2.N → Vec F S1x128 .f32
  | 0, hn => minInitAt V c ⟨0, hn⟩
  | n + 1, hn => k2_pay1 (preAt V c ⟨n + 1, hn⟩) (sminAt c n (Nat.lt_of_succ_lt hn))

/-- The running column maximum after point `n`. -/
def smaxAt (c : Dev nD) : (n : ℕ) → n < cfg2.N → Vec F S1x128 .f32
  | 0, hn => maxInitAt V c ⟨0, hn⟩
  | n + 1, hn => k2_pay2 (preAt V c ⟨n + 1, hn⟩) (smaxAt c n (Nat.lt_of_succ_lt hn))

/-- The two one-row buffers the kernel carries between points. -/
abbrev scM2_0 : Memref sig .tc .vmem S1x128 .f32 := Memref.whole cc2_scratch0
abbrev scM2_1 : Memref sig .tc .vmem S1x128 .f32 := Memref.whole cc2_scratch1

/-- The region's invariant before position `n`: before the first point whatever the launch hands over; afterwards
    the two carried buffers at the running minimum and maximum the point before left, every other scoped buffer
    unopened, the generator register at some state. -/
def PhiS (c : Dev nD) : (n : ℕ) → n ≤ cfg2.N → sProp 𝕄
  | 0, _ => Pipeline.ΦA spec2 c
  | n + 1, hn => iprop(iprop(iprop(owns (c : Thread nD τ) scM2_0 fullShare (sminAt V c n hn) ∗ owns (c : Thread nD τ) scM2_1 fullShare (smaxAt V c n hn))
      ∗ Pipeline.scopedRestBut (Ix := Unit) (Name := ℕ) (U := UR sig nD τ) (Lvl := ℕ) (Val := Elt F) spec2 c [cc2_scratch0, cc2_scratch1]) ∗ (∃ r, prngReg c r))

/-- The proof data of the region on core `c`: the arrays as the region finds them; after the body at point `t`
    each input's buffer at its block, window 10's at the point's rows, windows 11 and 12 at the running minimum
    and maximum (consulted at the last point only, where the body copies them out). -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => preAt V c t
    | ⟨11, _⟩ => sminAt V c t.val t.isLt
    | ⟨12, _⟩ => smaxAt V c t.val t.isLt
    | ⟨_ + 13, h⟩ => absurd h (Nat.not_lt.2 (Nat.le_add_left _ _))
  Φ t := PhiS V c t.val (Nat.le_of_lt_succ t.isLt)
  q _ := fullShare
  owed _ := 0

end Cert.Kernel.Reg2

end
-- ==== Proof.BitsReg3Runs.lean ====
/-
  The third head kernel's region (pipeline 3): what its three runs share.

  The body runs in one of three ways over the four grid points: at point 0 it starts the running column minimum and
  maximum (two scratch buffers carried between points) from its own block's; at points 1 and 2 it folds its block's
  into them; at point 3 it does the same and copies both to the last two output windows, which are idle before.
  Here: the windows' blocks read off the arrays as the region finds them, the branch conditions in closed form over
  the grid, where the last two outputs are idle, and the staging and scratch memrefs the body is called with.
-/
import proofs.«100906_j73718818669321_2_alg».proof.Proof.Gen.Kernel.Launch
import proofs.«100906_j73718818669321_2_alg».proof.Proof.Gen.Kernel.Skeleton
import proofs.«100906_j73718818669321_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of the blocks' extents recurses once per coordinate of the long axes
set_option maxRecDepth 16384

noncomputable section

namespace Cert.Kernel.Reg3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not, for any proof
    data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk V c 3 t) (t : Fin cfg3.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk V c 4 t) (t : Fin cfg3.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk V c 5 t) (t : Fin cfg3.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before3_6_of {c : Dev nD} (dat : Dat τ (Elt F) Unit ℕ (UR sig nD τ) ℕ cfg3 c) (hA : dat.A 6 = V c (Pipeline.arrRef spec3 6))
    (hafter : ∀ t, dat.after 6 t = iblk V c 6 t) (t : Fin cfg3.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before3_7_of {c : Dev nD} (dat : Dat τ (Elt F) Unit ℕ (UR sig nD τ) ℕ cfg3 c) (hA : dat.A 7 = V c (Pipeline.arrRef spec3 7))
    (hafter : ∀ t, dat.after 7 t = iblk V c 7 t) (t : Fin cfg3.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before3_8_of {c : Dev nD} (dat : Dat τ (Elt F) Unit ℕ (UR sig nD τ) ℕ cfg3 c) (hA : dat.A 8 = V c (Pipeline.arrRef spec3 8))
    (hafter : ∀ t, dat.after 8 t = iblk V c 8 t) (t : Fin cfg3.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before3_9_of {c : Dev nD} (dat : Dat τ (Elt F) Unit ℕ (UR sig nD τ) ℕ cfg3 c) (hA : dat.A 9 = V c (Pipeline.arrRef spec3 9))
    (hafter : ∀ t, dat.after 9 t = iblk V c 9 t) (t : Fin cfg3.N) (d) : dat.before 9 t d = iblk V c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- `i == 0`: the running minimum and maximum are started. -/
abbrev cond3_0 (i : grid3.Coords) : Prop := (Scalar.cmpi .ne (Scalar.extui (Scalar.cmpi .eq (BitVec.ofNat 32 (i 0).val) 0#32)) 0#32) = 1#1
theorem hcond3_0 : ∀ t : Fin cfg3.N, cond3_0 (grid3.coords t) ↔ t.val = 0 :=
  (by decide +kernel : ∀ t : Fin grid3.N, cond3_0 (grid3.coords t) ↔ t.val = 0)

/-- `i != 0`: they are folded with this block's. -/
abbrev cond3_1 (i : grid3.Coords) : Prop := (Scalar.cmpi .ne (Scalar.extui (Scalar.cmpi .ne (BitVec.ofNat 32 (i 0).val) 0#32)) 0#32) = 1#1
theorem hcond3_1 : ∀ t : Fin cfg3.N, cond3_1 (grid3.coords t) ↔ ¬ t.val = 0 :=
  (by decide +kernel : ∀ t : Fin grid3.N, cond3_1 (grid3.coords t) ↔ ¬ t.val = 0)

/-- `i == 3`: they are copied to the last two outputs. -/
abbrev cond3_2 (i : grid3.Coords) : Prop := k3_cond3 i = 1#1
theorem hcond3_2 : ∀ t : Fin cfg3.N, cond3_2 (grid3.coords t) ↔ t.val = 3 :=
  (by decide +kernel : ∀ t : Fin grid3.N, cond3_2 (grid3.coords t) ↔ t.val = 3)

/-! ## Where the last two outputs are idle -/

theorem idleAt3_11 : ∀ t : Fin cfg3.N, ¬cond3_2 (grid3.coords t) → cfg3.idle 11 (grid3.coords t) = true := by decide +kernel
theorem noFlush3_11 : ∀ t : Fin cfg3.N, ¬cond3_2 (grid3.coords t) → (cfg3.win 11).flush t = false := by decide +kernel
theorem liveAt3_11 : ∀ t : Fin cfg3.N, cond3_2 (grid3.coords t) → cfg3.idle 11 (grid3.coords t) = false := by decide +kernel
theorem idleAt3_12 : ∀ t : Fin cfg3.N, ¬cond3_2 (grid3.coords t) → cfg3.idle 12 (grid3.coords t) = true := by decide +kernel
theorem noFlush3_12 : ∀ t : Fin cfg3.N, ¬cond3_2 (grid3.coords t) → (cfg3.win 12).flush t = false := by decide +kernel
theorem liveAt3_12 : ∀ t : Fin cfg3.N, cond3_2 (grid3.coords t) → cfg3.idle 12 (grid3.coords t) = false := by decide +kernel

/-! ## The memrefs the body is called with -/

/-- One staging buffer of each output window, through which its contents are stated. -/
abbrev VO3_10 : View sig .tc .vmem S8192x128 .f32 := (Memref.whole cc3_stg10_0 : Memref sig .tc .vmem S8192x128 .f32).view
abbrev VO3_11 : View sig .tc .vmem S1x128 .f32 := (Memref.whole cc3_stg11_0 : Memref sig .tc .vmem S1x128 .f32).view
abbrev VO3_12 : View sig .tc .vmem S1x128 .f32 := (Memref.whole cc3_stg12_0 : Memref sig .tc .vmem S1x128 .f32).view
/-- Each window's current staging memref at point `t`, and its wholeness. -/
abbrev ms3_0 (t : Fin cfg3.N) : Memref sig .tc .vmem S8192x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S8192x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S128x64 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x64 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x64 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1x1 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S64x128 .f32 := win3_6.stage (cfg3.slots t 6)
abbrev hs3_6 (t : Fin cfg3.N) : (ms3_6 t).IsWhole := hstage3_6 ((cfg3.slots t 6).cast nbuf3_6)
abbrev ms3_7 (t : Fin cfg3.N) : Memref sig .tc .vmem S1x128 .f32 := win3_7.stage (cfg3.slots t 7)
abbrev hs3_7 (t : Fin cfg3.N) : (ms3_7 t).IsWhole := hstage3_7 ((cfg3.slots t 7).cast nbuf3_7)
abbrev ms3_8 (t : Fin cfg3.N) : Memref sig .tc .vmem S1x128 .f32 := win3_8.stage (cfg3.slots t 8)
abbrev hs3_8 (t : Fin cfg3.N) : (ms3_8 t).IsWhole := hstage3_8 ((cfg3.slots t 8).cast nbuf3_8)
abbrev ms3_9 (t : Fin cfg3.N) : Memref sig .tc .vmem S1x128 .f32 := win3_9.stage (cfg3.slots t 9)
abbrev hs3_9 (t : Fin cfg3.N) : (ms3_9 t).IsWhole := hstage3_9 ((cfg3.slots t 9).cast nbuf3_9)
abbrev ms3_10 (t : Fin cfg3.N) : Memref sig .tc .vmem S8192x128 .f32 := win3_10.stage (cfg3.slots t 10)
abbrev hs3_10 (t : Fin cfg3.N) : (ms3_10 t).IsWhole := hstage3_10 ((cfg3.slots t 10).cast nbuf3_10)
abbrev ms3_11 (t : Fin cfg3.N) : Memref sig .tc .vmem S1x128 .f32 := win3_11.stage (cfg3.slots t 11)
abbrev hs3_11 (t : Fin cfg3.N) : (ms3_11 t).IsWhole := hstage3_11 ((cfg3.slots t 11).cast nbuf3_11)
abbrev ms3_12 (t : Fin cfg3.N) : Memref sig .tc .vmem S1x128 .f32 := win3_12.stage (cfg3.slots t 12)
abbrev hs3_12 (t : Fin cfg3.N) : (ms3_12 t).IsWhole := hstage3_12 ((cfg3.slots t 12).cast nbuf3_12)
/-- The two scratch operands: the running column minimum and maximum. -/
abbrev scM3_0 : Memref sig .tc .vmem S1x128 .f32 := Memref.whole cc3_scratch0
abbrev scM3_1 : Memref sig .tc .vmem S1x128 .f32 := Memref.whole cc3_scratch1
abbrev VS3_0 : View sig .tc .vmem S1x128 .f32 := scM3_0.view
abbrev VS3_1 : View sig .tc .vmem S1x128 .f32 := scM3_1.view

/-- The region's invariant with the two scratch operands as memrefs owned at some contents, the other scoped
    buffers unopened. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d))
          ∗ Pipeline.scopedRestBut (Ix := Unit) (Name := ℕ) (U := UR sig nD τ) (Lvl := ℕ) (Val := Elt F) spec3 c [cc3_scratch0, cc3_scratch1]) ∗ (∃ r, prngReg c r)) := by
  unfold Pipeline.ΦA; rw [scopedRest3_split]; simp only [scM3_0, scM3_1, owns_whole]; try rfl

end Cert.Kernel.Reg3

end
-- ==== Proof.BitsReg3RunA.lean ====
/-
  The third head kernel's body run at point 0: the running minimum and maximum are started from this block's, the last two outputs are idle.
-/
import proofs.«100906_j73718818669321_2_alg».proof.Proof.BitsReg3Runs

-- membership in a rectangle of the blocks' extents recurses once per coordinate of the long axes
set_option maxRecDepth 16384

noncomputable section

namespace Cert.Kernel.Reg3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- The pieces the body's stores leave in each buffer it stores into (last first), with the proof that on whole
    memrefs — the inputs' at their contents, the first output's at anything, the idle outputs' at contents handed back untouched,
    the two scratch buffers at anything — the body runs to the continuation holding the inputs' as they
    were and each stored buffer with its pieces written. The pieces are the witness the run finds. -/
noncomputable def kernelRun3_A (c : Dev nD) (i : grid3.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : cond3_0 i) (hc1 : ¬cond3_1 i) (hc2 : ¬cond3_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) :
    Σ' (L10 : List (View.Piece (Elt F) S8192x128 .f32)) (LS0 : List (View.Piece (Elt F) S1x128 .f32)), { LS1 : List (View.Piece (Elt F) S1x128 .f32) //
      ∀ (xi11 xi12 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ owns (c : Thread nD τ) arg12 fullShare xi11 ∗ owns (c : Thread nD τ) arg13 fullShare xi12 ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ owns (c : Thread nD τ) arg12 fullShare xi11 ∗ owns (c : Thread nD τ) arg13 fullShare xi12 ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1)) -∗ K ⟨⟩))
          ⊢ wp frame (wpE (defs₀ (F := F)) Variants.none c none) E (cc3__head_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun xi11 xi12 E K => ?run⟩
  case run =>
    simp only [cc3__head_kernel_eq_skeleton]; unfold cc3__head_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg12.eq_unread hf11; obtain rfl := harg13.eq_unread hf12
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]
    · iexists _; isplitr; · ipureintro; exact harg12.read_unread _
      iexact H11
    isplitl [H12]
    · iexists _; isplitr; · ipureintro; exact harg13.read_unread _
      iexact H12
    isplitl [HS0]; · iexists _; iexact HS0
    iexists _; iexact HS1

end Cert.Kernel.Reg3

end
-- ==== Proof.BitsReg3RunB.lean ====
/-
  The third head kernel's body run at points 1 and 2: the running minimum and maximum are folded with this block's, the last two outputs are idle.
-/
import proofs.«100906_j73718818669321_2_alg».proof.Proof.BitsReg3RunA

-- membership in a rectangle of the blocks' extents recurses once per coordinate of the long axes
set_option maxRecDepth 16384

noncomputable section

namespace Cert.Kernel.Reg3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- The pieces the body's stores leave in each buffer it stores into (last first), with the proof that on whole
    memrefs — the inputs' at their contents, the first output's at anything, the idle outputs' at contents handed back untouched,
    the two scratch buffers at what the point before left — the body runs to the continuation holding the inputs' as they
    were and each stored buffer with its pieces written. The pieces are the witness the run finds. -/
noncomputable def kernelRun3_B (c : Dev nD) (i : grid3.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond3_0 i) (hc1 : cond3_1 i) (hc2 : ¬cond3_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) :
    Σ' (L10 : List (View.Piece (Elt F) S8192x128 .f32)) (LS0 : List (View.Piece (Elt F) S1x128 .f32)), { LS1 : List (View.Piece (Elt F) S1x128 .f32) //
      ∀ (xi11 xi12 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ owns (c : Thread nD τ) arg12 fullShare xi11 ∗ owns (c : Thread nD τ) arg13 fullShare xi12 ∗ owns (c : Thread nD τ) arg14 fullShare xs0 ∗ owns (c : Thread nD τ) arg15 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ owns (c : Thread nD τ) arg12 fullShare xi11 ∗ owns (c : Thread nD τ) arg13 fullShare xi12 ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1)) -∗ K ⟨⟩))
          ⊢ wp frame (wpE (defs₀ (F := F)) Variants.none c none) E (cc3__head_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun xi11 xi12 E K => ?run⟩
  case run =>
    simp only [cc3__head_kernel_eq_skeleton]; unfold cc3__head_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg12.eq_unread hf11; obtain rfl := harg13.eq_unread hf12; obtain rfl := harg14.eq_unread hfs0; obtain rfl := harg15.eq_unread hfs1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]
    · iexists _; isplitr; · ipureintro; exact harg12.read_unread _
      iexact H11
    isplitl [H12]
    · iexists _; isplitr; · ipureintro; exact harg13.read_unread _
      iexact H12
    isplitl [HS0]; · iexists _; iexact HS0
    iexists _; iexact HS1

end Cert.Kernel.Reg3

end
-- ==== Proof.BitsReg3RunC.lean ====
/-
  The third head kernel's body run at point 3: the running minimum and maximum are folded with this block's and copied to the last two outputs.
-/
import proofs.«100906_j73718818669321_2_alg».proof.Proof.BitsReg3RunB

-- membership in a rectangle of the blocks' extents recurses once per coordinate of the long axes
set_option maxRecDepth 16384

noncomputable section

namespace Cert.Kernel.Reg3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- The pieces the body's stores leave in each buffer it stores into (last first), with the proof that on whole
    memrefs — the inputs' at their contents, the first output's at anything, the last two outputs' at anything,
    the two scratch buffers at what the point before left — the body runs to the continuation holding the inputs' as they
    were and each stored buffer with its pieces written. The pieces are the witness the run finds. -/
noncomputable def kernelRun3_C (c : Dev nD) (i : grid3.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond3_0 i) (hc1 : cond3_1 i) (hc2 : cond3_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) :
    Σ' (L10 : List (View.Piece (Elt F) S8192x128 .f32)) (L11 : List (View.Piece (Elt F) S1x128 .f32)) (L12 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs0 ∗ owns (c : Thread nD τ) arg15 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1)) -∗ K ⟨⟩))
          ⊢ wp frame (wpE (defs₀ (F := F)) Variants.none c none) E (cc3__head_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, fun E K => ?run⟩
  case run =>
    simp only [cc3__head_kernel_eq_skeleton]; unfold cc3__head_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg14.eq_unread hfs0; obtain rfl := harg15.eq_unread hfs1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]; · iexists _; iexact H11
    isplitl [H12]; · iexists _; iexact H12
    isplitl [HS0]; · iexists _; iexact HS0
    iexists _; iexact HS1

end Cert.Kernel.Reg3

end
-- ==== Proof.BitsReg3Dat.lean ====
/-
  The third head kernel's region: what its buffers hold point by point, and the proof data.

  From the three runs' pieces: what each case leaves in the first output's staging buffer, in the last two outputs'
  (the last case only) and in the two scratch buffers; these chained over the four points (each point's scratch
  contents feed the next point's run); the region invariant with the scratch at those contents; and the proof data.
-/
import proofs.«100906_j73718818669321_2_alg».proof.Proof.BitsReg3RunC

-- membership in a rectangle of the blocks' extents recurses once per coordinate of the long axes
set_option maxRecDepth 16384

noncomputable section

namespace Cert.Kernel.Reg3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case A's pieces for the first output's staging buffer tile it, so they cover it. -/
theorem cover3_A_10 (c : Dev nD) (i : grid3.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : cond3_0 i) (hc1 : ¬cond3_1 i) (hc2 : ¬cond3_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (y : S8192x128.Idx) :
    ∃ pc ∈ (kernelRun3_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9).1, y ∈ pc.1.set :=
  View.cover_of_tiledL (kernelRun3_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9).1 S8192x128.size (by sl_kernel_rfl) y

/-- What case A leaves in the first output's staging buffer: its pieces read back over junk. -/
def out3_A_10 (c : Dev nD) (i : grid3.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : cond3_0 i) (hc1 : ¬cond3_1 i) (hc2 : ¬cond3_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) : Vec F S8192x128 .f32 :=
  VO3_10.read (Elt F) (VO3_10.writes (Elt F) VO3_10.junk (kernelRun3_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9).1)

/-- Case A's pieces for the running-minimum scratch tile it, so they cover it. -/
theorem scover3_A_0 (c : Dev nD) (i : grid3.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : cond3_0 i) (hc1 : ¬cond3_1 i) (hc2 : ¬cond3_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (y : S1x128.Idx) :
    ∃ pc ∈ (kernelRun3_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9).2.1, y ∈ pc.1.set :=
  View.cover_of_tiledL (kernelRun3_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9).2.1 S1x128.size (by sl_kernel_rfl) y

/-- What case A leaves in the running-minimum scratch: its pieces read back over junk. -/
def sout3_A_0 (c : Dev nD) (i : grid3.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : cond3_0 i) (hc1 : ¬cond3_1 i) (hc2 : ¬cond3_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) : Vec F S1x128 .f32 :=
  VS3_0.read (Elt F) (VS3_0.writes (Elt F) VS3_0.junk (kernelRun3_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9).2.1)

/-- Case A's pieces for the running-maximum scratch tile it, so they cover it. -/
theorem scover3_A_1 (c : Dev nD) (i : grid3.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : cond3_0 i) (hc1 : ¬cond3_1 i) (hc2 : ¬cond3_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (y : S1x128.Idx) :
    ∃ pc ∈ (kernelRun3_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9).2.2.1, y ∈ pc.1.set :=
  View.cover_of_tiledL (kernelRun3_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9).2.2.1 S1x128.size (by sl_kernel_rfl) y

/-- What case A leaves in the running-maximum scratch: its pieces read back over junk. -/
def sout3_A_1 (c : Dev nD) (i : grid3.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : cond3_0 i) (hc1 : ¬cond3_1 i) (hc2 : ¬cond3_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) : Vec F S1x128 .f32 :=
  VS3_1.read (Elt F) (VS3_1.writes (Elt F) VS3_1.junk (kernelRun3_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9).2.2.1)

/-- Case B's pieces for the first output's staging buffer tile it, so they cover it. -/
theorem cover3_B_10 (c : Dev nD) (i : grid3.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond3_0 i) (hc1 : cond3_1 i) (hc2 : ¬cond3_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) (y : S8192x128.Idx) :
    ∃ pc ∈ (kernelRun3_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).1, y ∈ pc.1.set :=
  View.cover_of_tiledL (kernelRun3_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).1 S8192x128.size (by sl_kernel_rfl) y

/-- What case B leaves in the first output's staging buffer: its pieces read back over junk. -/
def out3_B_10 (c : Dev nD) (i : grid3.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond3_0 i) (hc1 : cond3_1 i) (hc2 : ¬cond3_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) : Vec F S8192x128 .f32 :=
  VO3_10.read (Elt F) (VO3_10.writes (Elt F) VO3_10.junk (kernelRun3_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).1)

/-- Case B's pieces for the running-minimum scratch tile it, so they cover it. -/
theorem scover3_B_0 (c : Dev nD) (i : grid3.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond3_0 i) (hc1 : cond3_1 i) (hc2 : ¬cond3_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) (y : S1x128.Idx) :
    ∃ pc ∈ (kernelRun3_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).2.1, y ∈ pc.1.set :=
  View.cover_of_tiledL (kernelRun3_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).2.1 S1x128.size (by sl_kernel_rfl) y

/-- What case B leaves in the running-minimum scratch: its pieces read back over junk. -/
def sout3_B_0 (c : Dev nD) (i : grid3.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond3_0 i) (hc1 : cond3_1 i) (hc2 : ¬cond3_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) : Vec F S1x128 .f32 :=
  VS3_0.read (Elt F) (VS3_0.writes (Elt F) VS3_0.junk (kernelRun3_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).2.1)

/-- Case B's pieces for the running-maximum scratch tile it, so they cover it. -/
theorem scover3_B_1 (c : Dev nD) (i : grid3.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond3_0 i) (hc1 : cond3_1 i) (hc2 : ¬cond3_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) (y : S1x128.Idx) :
    ∃ pc ∈ (kernelRun3_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).2.2.1, y ∈ pc.1.set :=
  View.cover_of_tiledL (kernelRun3_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).2.2.1 S1x128.size (by sl_kernel_rfl) y

/-- What case B leaves in the running-maximum scratch: its pieces read back over junk. -/
def sout3_B_1 (c : Dev nD) (i : grid3.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond3_0 i) (hc1 : cond3_1 i) (hc2 : ¬cond3_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) : Vec F S1x128 .f32 :=
  VS3_1.read (Elt F) (VS3_1.writes (Elt F) VS3_1.junk (kernelRun3_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).2.2.1)

/-- Case C's pieces for the first output's staging buffer tile it, so they cover it. -/
theorem cover3_C_10 (c : Dev nD) (i : grid3.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond3_0 i) (hc1 : cond3_1 i) (hc2 : cond3_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) (y : S8192x128.Idx) :
    ∃ pc ∈ (kernelRun3_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).1, y ∈ pc.1.set :=
  View.cover_of_tiledL (kernelRun3_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).1 S8192x128.size (by sl_kernel_rfl) y

/-- What case C leaves in the first output's staging buffer: its pieces read back over junk. -/
def out3_C_10 (c : Dev nD) (i : grid3.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond3_0 i) (hc1 : cond3_1 i) (hc2 : cond3_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) : Vec F S8192x128 .f32 :=
  VO3_10.read (Elt F) (VO3_10.writes (Elt F) VO3_10.junk (kernelRun3_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).1)

/-- Case C's pieces for the second output's staging buffer tile it, so they cover it. -/
theorem cover3_C_11 (c : Dev nD) (i : grid3.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond3_0 i) (hc1 : cond3_1 i) (hc2 : cond3_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) (y : S1x128.Idx) :
    ∃ pc ∈ (kernelRun3_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).2.1, y ∈ pc.1.set :=
  View.cover_of_tiledL (kernelRun3_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).2.1 S1x128.size (by sl_kernel_rfl) y

/-- What case C leaves in the second output's staging buffer: its pieces read back over junk. -/
def out3_C_11 (c : Dev nD) (i : grid3.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond3_0 i) (hc1 : cond3_1 i) (hc2 : cond3_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) : Vec F S1x128 .f32 :=
  VO3_11.read (Elt F) (VO3_11.writes (Elt F) VO3_11.junk (kernelRun3_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).2.1)

/-- Case C's pieces for the third output's staging buffer tile it, so they cover it. -/
theorem cover3_C_12 (c : Dev nD) (i : grid3.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond3_0 i) (hc1 : cond3_1 i) (hc2 : cond3_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) (y : S1x128.Idx) :
    ∃ pc ∈ (kernelRun3_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).2.2.1, y ∈ pc.1.set :=
  View.cover_of_tiledL (kernelRun3_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).2.2.1 S1x128.size (by sl_kernel_rfl) y

/-- What case C leaves in the third output's staging buffer: its pieces read back over junk. -/
def out3_C_12 (c : Dev nD) (i : grid3.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond3_0 i) (hc1 : cond3_1 i) (hc2 : cond3_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) : Vec F S1x128 .f32 :=
  VO3_12.read (Elt F) (VO3_12.writes (Elt F) VO3_12.junk (kernelRun3_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).2.2.1)

/-- Case C's pieces for the running-minimum scratch tile it, so they cover it. -/
theorem scover3_C_0 (c : Dev nD) (i : grid3.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond3_0 i) (hc1 : cond3_1 i) (hc2 : cond3_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) (y : S1x128.Idx) :
    ∃ pc ∈ (kernelRun3_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).2.2.2.1, y ∈ pc.1.set :=
  View.cover_of_tiledL (kernelRun3_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).2.2.2.1 S1x128.size (by sl_kernel_rfl) y

/-- What case C leaves in the running-minimum scratch: its pieces read back over junk. -/
def sout3_C_0 (c : Dev nD) (i : grid3.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond3_0 i) (hc1 : cond3_1 i) (hc2 : cond3_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) : Vec F S1x128 .f32 :=
  VS3_0.read (Elt F) (VS3_0.writes (Elt F) VS3_0.junk (kernelRun3_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).2.2.2.1)

/-- Case C's pieces for the running-maximum scratch tile it, so they cover it. -/
theorem scover3_C_1 (c : Dev nD) (i : grid3.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond3_0 i) (hc1 : cond3_1 i) (hc2 : cond3_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) (y : S1x128.Idx) :
    ∃ pc ∈ (kernelRun3_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).2.2.2.2.1, y ∈ pc.1.set :=
  View.cover_of_tiledL (kernelRun3_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).2.2.2.2.1 S1x128.size (by sl_kernel_rfl) y

/-- What case C leaves in the running-maximum scratch: its pieces read back over junk. -/
def sout3_C_1 (c : Dev nD) (i : grid3.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond3_0 i) (hc1 : cond3_1 i) (hc2 : cond3_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) : Vec F S1x128 .f32 :=
  VS3_1.read (Elt F) (VS3_1.writes (Elt F) VS3_1.junk (kernelRun3_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).2.2.2.2.1)

variable (V : (c : Dev nD) → (b : Ref sig .tc) → Buf (Elt F) ((c : Thread nD τ).loc b))

/-- What an idle output's component reads: junk that nothing consults (at those points the window is neither written
    back nor read at the next point). -/
def idleJunk : Vec F S1x128 .f32 := VO3_11.read (Elt F) VO3_11.junk

/-! ## What the buffers hold after each point -/

/-- After the body at position `n`: the three outputs' staging buffers, then the two scratch buffers — the case the
    point is in, run at the point's memrefs and input blocks, the scratch at what position `n - 1` left. -/
def outsAt3 (c : Dev nD) : (n : ℕ) → n < cfg3.N → Vec F S8192x128 .f32 × Vec F S1x128 .f32 × Vec F S1x128 .f32 × Vec F S1x128 .f32 × Vec F S1x128 .f32
  | 0, hn => (out3_A_10 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) (ms3_8 ⟨0, hn⟩) (hs3_8 ⟨0, hn⟩) (ms3_9 ⟨0, hn⟩) (hs3_9 ⟨0, hn⟩) (ms3_10 ⟨0, hn⟩) (hs3_10 ⟨0, hn⟩) (ms3_11 ⟨0, hn⟩) (hs3_11 ⟨0, hn⟩) (ms3_12 ⟨0, hn⟩) (hs3_12 ⟨0, hn⟩) scM3_0 (Memref.isWhole_whole _) scM3_1 (Memref.isWhole_whole _) ((hcond3_0 ⟨0, hn⟩).mpr rfl) (fun h => (hcond3_1 ⟨0, hn⟩).mp h rfl) (fun h => Nat.zero_ne_add_one 2 ((hcond3_2 ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩) (iblk V c 8 ⟨0, hn⟩) (iblk V c 9 ⟨0, hn⟩), idleJunk, idleJunk, sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) (ms3_8 ⟨0, hn⟩) (hs3_8 ⟨0, hn⟩) (ms3_9 ⟨0, hn⟩) (hs3_9 ⟨0, hn⟩) (ms3_10 ⟨0, hn⟩) (hs3_10 ⟨0, hn⟩) (ms3_11 ⟨0, hn⟩) (hs3_11 ⟨0, hn⟩) (ms3_12 ⟨0, hn⟩) (hs3_12 ⟨0, hn⟩) scM3_0 (Memref.isWhole_whole _) scM3_1 (Memref.isWhole_whole _) ((hcond3_0 ⟨0, hn⟩).mpr rfl) (fun h => (hcond3_1 ⟨0, hn⟩).mp h rfl) (fun h => Nat.zero_ne_add_one 2 ((hcond3_2 ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩) (iblk V c 8 ⟨0, hn⟩) (iblk V c 9 ⟨0, hn⟩), sout3_A_1 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) (ms3_8 ⟨0, hn⟩) (hs3_8 ⟨0, hn⟩) (ms3_9 ⟨0, hn⟩) (hs3_9 ⟨0, hn⟩) (ms3_10 ⟨0, hn⟩) (hs3_10 ⟨0, hn⟩) (ms3_11 ⟨0, hn⟩) (hs3_11 ⟨0, hn⟩) (ms3_12 ⟨0, hn⟩) (hs3_12 ⟨0, hn⟩) scM3_0 (Memref.isWhole_whole _) scM3_1 (Memref.isWhole_whole _) ((hcond3_0 ⟨0, hn⟩).mpr rfl) (fun h => (hcond3_1 ⟨0, hn⟩).mp h rfl) (fun h => Nat.zero_ne_add_one 2 ((hcond3_2 ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩) (iblk V c 8 ⟨0, hn⟩) (iblk V c 9 ⟨0, hn⟩))
  | n + 1, hn =>
    if h3 : n + 1 = 3 then
      (out3_C_10 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) (ms3_10 ⟨n + 1, hn⟩) (hs3_10 ⟨n + 1, hn⟩) (ms3_11 ⟨n + 1, hn⟩) (hs3_11 ⟨n + 1, hn⟩) (ms3_12 ⟨n + 1, hn⟩) (hs3_12 ⟨n + 1, hn⟩) scM3_0 (Memref.isWhole_whole _) scM3_1 (Memref.isWhole_whole _) (fun h => Nat.succ_ne_zero n ((hcond3_0 ⟨n + 1, hn⟩).mp h)) ((hcond3_1 ⟨n + 1, hn⟩).mpr (Nat.succ_ne_zero n)) ((hcond3_2 ⟨n + 1, hn⟩).mpr h3) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (outsAt3 c n (Nat.lt_of_succ_lt hn)).2.2.2.1 (outsAt3 c n (Nat.lt_of_succ_lt hn)).2.2.2.2, out3_C_11 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) (ms3_10 ⟨n + 1, hn⟩) (hs3_10 ⟨n + 1, hn⟩) (ms3_11 ⟨n + 1, hn⟩) (hs3_11 ⟨n + 1, hn⟩) (ms3_12 ⟨n + 1, hn⟩) (hs3_12 ⟨n + 1, hn⟩) scM3_0 (Memref.isWhole_whole _) scM3_1 (Memref.isWhole_whole _) (fun h => Nat.succ_ne_zero n ((hcond3_0 ⟨n + 1, hn⟩).mp h)) ((hcond3_1 ⟨n + 1, hn⟩).mpr (Nat.succ_ne_zero n)) ((hcond3_2 ⟨n + 1, hn⟩).mpr h3) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (outsAt3 c n (Nat.lt_of_succ_lt hn)).2.2.2.1 (outsAt3 c n (Nat.lt_of_succ_lt hn)).2.2.2.2, out3_C_12 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) (ms3_10 ⟨n + 1, hn⟩) (hs3_10 ⟨n + 1, hn⟩) (ms3_11 ⟨n + 1, hn⟩) (hs3_11 ⟨n + 1, hn⟩) (ms3_12 ⟨n + 1, hn⟩) (hs3_12 ⟨n + 1, hn⟩) scM3_0 (Memref.isWhole_whole _) scM3_1 (Memref.isWhole_whole _) (fun h => Nat.succ_ne_zero n ((hcond3_0 ⟨n + 1, hn⟩).mp h)) ((hcond3_1 ⟨n + 1, hn⟩).mpr (Nat.succ_ne_zero n)) ((hcond3_2 ⟨n + 1, hn⟩).mpr h3) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (outsAt3 c n (Nat.lt_of_succ_lt hn)).2.2.2.1 (outsAt3 c n (Nat.lt_of_succ_lt hn)).2.2.2.2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) (ms3_10 ⟨n + 1, hn⟩) (hs3_10 ⟨n + 1, hn⟩) (ms3_11 ⟨n + 1, hn⟩) (hs3_11 ⟨n + 1, hn⟩) (ms3_12 ⟨n + 1, hn⟩) (hs3_12 ⟨n + 1, hn⟩) scM3_0 (Memref.isWhole_whole _) scM3_1 (Memref.isWhole_whole _) (fun h => Nat.succ_ne_zero n ((hcond3_0 ⟨n + 1, hn⟩).mp h)) ((hcond3_1 ⟨n + 1, hn⟩).mpr (Nat.succ_ne_zero n)) ((hcond3_2 ⟨n + 1, hn⟩).mpr h3) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (outsAt3 c n (Nat.lt_of_succ_lt hn)).2.2.2.1 (outsAt3 c n (Nat.lt_of_succ_lt hn)).2.2.2.2, sout3_C_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) (ms3_10 ⟨n + 1, hn⟩) (hs3_10 ⟨n + 1, hn⟩) (ms3_11 ⟨n + 1, hn⟩) (hs3_11 ⟨n + 1, hn⟩) (ms3_12 ⟨n + 1, hn⟩) (hs3_12 ⟨n + 1, hn⟩) scM3_0 (Memref.isWhole_whole _) scM3_1 (Memref.isWhole_whole _) (fun h => Nat.succ_ne_zero n ((hcond3_0 ⟨n + 1, hn⟩).mp h)) ((hcond3_1 ⟨n + 1, hn⟩).mpr (Nat.succ_ne_zero n)) ((hcond3_2 ⟨n + 1, hn⟩).mpr h3) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (outsAt3 c n (Nat.lt_of_succ_lt hn)).2.2.2.1 (outsAt3 c n (Nat.lt_of_succ_lt hn)).2.2.2.2)
    else
      (out3_B_10 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) (ms3_10 ⟨n + 1, hn⟩) (hs3_10 ⟨n + 1, hn⟩) (ms3_11 ⟨n + 1, hn⟩) (hs3_11 ⟨n + 1, hn⟩) (ms3_12 ⟨n + 1, hn⟩) (hs3_12 ⟨n + 1, hn⟩) scM3_0 (Memref.isWhole_whole _) scM3_1 (Memref.isWhole_whole _) (fun h => Nat.succ_ne_zero n ((hcond3_0 ⟨n + 1, hn⟩).mp h)) ((hcond3_1 ⟨n + 1, hn⟩).mpr (Nat.succ_ne_zero n)) (fun h => h3 ((hcond3_2 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (outsAt3 c n (Nat.lt_of_succ_lt hn)).2.2.2.1 (outsAt3 c n (Nat.lt_of_succ_lt hn)).2.2.2.2, idleJunk, idleJunk, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) (ms3_10 ⟨n + 1, hn⟩) (hs3_10 ⟨n + 1, hn⟩) (ms3_11 ⟨n + 1, hn⟩) (hs3_11 ⟨n + 1, hn⟩) (ms3_12 ⟨n + 1, hn⟩) (hs3_12 ⟨n + 1, hn⟩) scM3_0 (Memref.isWhole_whole _) scM3_1 (Memref.isWhole_whole _) (fun h => Nat.succ_ne_zero n ((hcond3_0 ⟨n + 1, hn⟩).mp h)) ((hcond3_1 ⟨n + 1, hn⟩).mpr (Nat.succ_ne_zero n)) (fun h => h3 ((hcond3_2 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (outsAt3 c n (Nat.lt_of_succ_lt hn)).2.2.2.1 (outsAt3 c n (Nat.lt_of_succ_lt hn)).2.2.2.2, sout3_B_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) (ms3_10 ⟨n + 1, hn⟩) (hs3_10 ⟨n + 1, hn⟩) (ms3_11 ⟨n + 1, hn⟩) (hs3_11 ⟨n + 1, hn⟩) (ms3_12 ⟨n + 1, hn⟩) (hs3_12 ⟨n + 1, hn⟩) scM3_0 (Memref.isWhole_whole _) scM3_1 (Memref.isWhole_whole _) (fun h => Nat.succ_ne_zero n ((hcond3_0 ⟨n + 1, hn⟩).mp h)) ((hcond3_1 ⟨n + 1, hn⟩).mpr (Nat.succ_ne_zero n)) (fun h => h3 ((hcond3_2 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (outsAt3 c n (Nat.lt_of_succ_lt hn)).2.2.2.1 (outsAt3 c n (Nat.lt_of_succ_lt hn)).2.2.2.2)

theorem outsAt3_A (c : Dev nD) (t : Fin cfg3.N) (h0 : t.val = 0) (h3 : ¬t.val = 3) :
    outsAt3 V c t.val t.isLt = (out3_A_10 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) (ms3_11 t) (hs3_11 t) (ms3_12 t) (hs3_12 t) scM3_0 (Memref.isWhole_whole _) scM3_1 (Memref.isWhole_whole _) ((hcond3_0 t).mpr h0) (fun h => (hcond3_1 t).mp h h0) (fun h => h3 ((hcond3_2 t).mp h)) (iblk V c 0 t) (iblk V c 1 t) (iblk V c 2 t) (iblk V c 3 t) (iblk V c 4 t) (iblk V c 5 t) (iblk V c 6 t) (iblk V c 7 t) (iblk V c 8 t) (iblk V c 9 t), idleJunk, idleJunk, sout3_A_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) (ms3_11 t) (hs3_11 t) (ms3_12 t) (hs3_12 t) scM3_0 (Memref.isWhole_whole _) scM3_1 (Memref.isWhole_whole _) ((hcond3_0 t).mpr h0) (fun h => (hcond3_1 t).mp h h0) (fun h => h3 ((hcond3_2 t).mp h)) (iblk V c 0 t) (iblk V c 1 t) (iblk V c 2 t) (iblk V c 3 t) (iblk V c 4 t) (iblk V c 5 t) (iblk V c 6 t) (iblk V c 7 t) (iblk V c 8 t) (iblk V c 9 t), sout3_A_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) (ms3_11 t) (hs3_11 t) (ms3_12 t) (hs3_12 t) scM3_0 (Memref.isWhole_whole _) scM3_1 (Memref.isWhole_whole _) ((hcond3_0 t).mpr h0) (fun h => (hcond3_1 t).mp h h0) (fun h => h3 ((hcond3_2 t).mp h)) (iblk V c 0 t) (iblk V c 1 t) (iblk V c 2 t) (iblk V c 3 t) (iblk V c 4 t) (iblk V c 5 t) (iblk V c 6 t) (iblk V c 7 t) (iblk V c 8 t) (iblk V c 9 t)) := by
  obtain ⟨n, hn⟩ := t
  cases n with
  | zero => exact rfl
  | succ n => exact absurd h0 (Nat.succ_ne_zero n)

theorem outsAt3_B (c : Dev nD) (t : Fin cfg3.N) (h0 : ¬t.val = 0) (h3 : ¬t.val = 3) :
    outsAt3 V c t.val t.isLt = (out3_B_10 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) (ms3_11 t) (hs3_11 t) (ms3_12 t) (hs3_12 t) scM3_0 (Memref.isWhole_whole _) scM3_1 (Memref.isWhole_whole _) (fun h => h0 ((hcond3_0 t).mp h)) ((hcond3_1 t).mpr h0) (fun h => h3 ((hcond3_2 t).mp h)) (iblk V c 0 t) (iblk V c 1 t) (iblk V c 2 t) (iblk V c 3 t) (iblk V c 4 t) (iblk V c 5 t) (iblk V c 6 t) (iblk V c 7 t) (iblk V c 8 t) (iblk V c 9 t) (outsAt3 V c (t.val - 1) (Nat.lt_of_le_of_lt (Nat.sub_le _ _) t.isLt)).2.2.2.1 (outsAt3 V c (t.val - 1) (Nat.lt_of_le_of_lt (Nat.sub_le _ _) t.isLt)).2.2.2.2, idleJunk, idleJunk, sout3_B_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) (ms3_11 t) (hs3_11 t) (ms3_12 t) (hs3_12 t) scM3_0 (Memref.isWhole_whole _) scM3_1 (Memref.isWhole_whole _) (fun h => h0 ((hcond3_0 t).mp h)) ((hcond3_1 t).mpr h0) (fun h => h3 ((hcond3_2 t).mp h)) (iblk V c 0 t) (iblk V c 1 t) (iblk V c 2 t) (iblk V c 3 t) (iblk V c 4 t) (iblk V c 5 t) (iblk V c 6 t) (iblk V c 7 t) (iblk V c 8 t) (iblk V c 9 t) (outsAt3 V c (t.val - 1) (Nat.lt_of_le_of_lt (Nat.sub_le _ _) t.isLt)).2.2.2.1 (outsAt3 V c (t.val - 1) (Nat.lt_of_le_of_lt (Nat.sub_le _ _) t.isLt)).2.2.2.2, sout3_B_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) (ms3_11 t) (hs3_11 t) (ms3_12 t) (hs3_12 t) scM3_0 (Memref.isWhole_whole _) scM3_1 (Memref.isWhole_whole _) (fun h => h0 ((hcond3_0 t).mp h)) ((hcond3_1 t).mpr h0) (fun h => h3 ((hcond3_2 t).mp h)) (iblk V c 0 t) (iblk V c 1 t) (iblk V c 2 t) (iblk V c 3 t) (iblk V c 4 t) (iblk V c 5 t) (iblk V c 6 t) (iblk V c 7 t) (iblk V c 8 t) (iblk V c 9 t) (outsAt3 V c (t.val - 1) (Nat.lt_of_le_of_lt (Nat.sub_le _ _) t.isLt)).2.2.2.1 (outsAt3 V c (t.val - 1) (Nat.lt_of_le_of_lt (Nat.sub_le _ _) t.isLt)).2.2.2.2) := by
  obtain ⟨n, hn⟩ := t
  cases n with
  | zero => exact absurd rfl h0
  | succ n => exact (dif_neg h3).trans rfl

theorem outsAt3_C (c : Dev nD) (t : Fin cfg3.N) (h0 : ¬t.val = 0) (h3 : t.val = 3) :
    outsAt3 V c t.val t.isLt = (out3_C_10 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) (ms3_11 t) (hs3_11 t) (ms3_12 t) (hs3_12 t) scM3_0 (Memref.isWhole_whole _) scM3_1 (Memref.isWhole_whole _) (fun h => h0 ((hcond3_0 t).mp h)) ((hcond3_1 t).mpr h0) ((hcond3_2 t).mpr h3) (iblk V c 0 t) (iblk V c 1 t) (iblk V c 2 t) (iblk V c 3 t) (iblk V c 4 t) (iblk V c 5 t) (iblk V c 6 t) (iblk V c 7 t) (iblk V c 8 t) (iblk V c 9 t) (outsAt3 V c (t.val - 1) (Nat.lt_of_le_of_lt (Nat.sub_le _ _) t.isLt)).2.2.2.1 (outsAt3 V c (t.val - 1) (Nat.lt_of_le_of_lt (Nat.sub_le _ _) t.isLt)).2.2.2.2, out3_C_11 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) (ms3_11 t) (hs3_11 t) (ms3_12 t) (hs3_12 t) scM3_0 (Memref.isWhole_whole _) scM3_1 (Memref.isWhole_whole _) (fun h => h0 ((hcond3_0 t).mp h)) ((hcond3_1 t).mpr h0) ((hcond3_2 t).mpr h3) (iblk V c 0 t) (iblk V c 1 t) (iblk V c 2 t) (iblk V c 3 t) (iblk V c 4 t) (iblk V c 5 t) (iblk V c 6 t) (iblk V c 7 t) (iblk V c 8 t) (iblk V c 9 t) (outsAt3 V c (t.val - 1) (Nat.lt_of_le_of_lt (Nat.sub_le _ _) t.isLt)).2.2.2.1 (outsAt3 V c (t.val - 1) (Nat.lt_of_le_of_lt (Nat.sub_le _ _) t.isLt)).2.2.2.2, out3_C_12 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) (ms3_11 t) (hs3_11 t) (ms3_12 t) (hs3_12 t) scM3_0 (Memref.isWhole_whole _) scM3_1 (Memref.isWhole_whole _) (fun h => h0 ((hcond3_0 t).mp h)) ((hcond3_1 t).mpr h0) ((hcond3_2 t).mpr h3) (iblk V c 0 t) (iblk V c 1 t) (iblk V c 2 t) (iblk V c 3 t) (iblk V c 4 t) (iblk V c 5 t) (iblk V c 6 t) (iblk V c 7 t) (iblk V c 8 t) (iblk V c 9 t) (outsAt3 V c (t.val - 1) (Nat.lt_of_le_of_lt (Nat.sub_le _ _) t.isLt)).2.2.2.1 (outsAt3 V c (t.val - 1) (Nat.lt_of_le_of_lt (Nat.sub_le _ _) t.isLt)).2.2.2.2, sout3_C_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) (ms3_11 t) (hs3_11 t) (ms3_12 t) (hs3_12 t) scM3_0 (Memref.isWhole_whole _) scM3_1 (Memref.isWhole_whole _) (fun h => h0 ((hcond3_0 t).mp h)) ((hcond3_1 t).mpr h0) ((hcond3_2 t).mpr h3) (iblk V c 0 t) (iblk V c 1 t) (iblk V c 2 t) (iblk V c 3 t) (iblk V c 4 t) (iblk V c 5 t) (iblk V c 6 t) (iblk V c 7 t) (iblk V c 8 t) (iblk V c 9 t) (outsAt3 V c (t.val - 1) (Nat.lt_of_le_of_lt (Nat.sub_le _ _) t.isLt)).2.2.2.1 (outsAt3 V c (t.val - 1) (Nat.lt_of_le_of_lt (Nat.sub_le _ _) t.isLt)).2.2.2.2, sout3_C_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) (ms3_11 t) (hs3_11 t) (ms3_12 t) (hs3_12 t) scM3_0 (Memref.isWhole_whole _) scM3_1 (Memref.isWhole_whole _) (fun h => h0 ((hcond3_0 t).mp h)) ((hcond3_1 t).mpr h0) ((hcond3_2 t).mpr h3) (iblk V c 0 t) (iblk V c 1 t) (iblk V c 2 t) (iblk V c 3 t) (iblk V c 4 t) (iblk V c 5 t) (iblk V c 6 t) (iblk V c 7 t) (iblk V c 8 t) (iblk V c 9 t) (outsAt3 V c (t.val - 1) (Nat.lt_of_le_of_lt (Nat.sub_le _ _) t.isLt)).2.2.2.1 (outsAt3 V c (t.val - 1) (Nat.lt_of_le_of_lt (Nat.sub_le _ _) t.isLt)).2.2.2.2) := by
  obtain ⟨n, hn⟩ := t
  cases n with
  | zero => exact absurd rfl h0
  | succ n => exact (dif_pos h3).trans rfl

/-! ## The region invariant -/

/-- Before position `n`: at the first point the class's invariant (every scratch at anything); afterwards the two
    scratch buffers at what the point before left, the other scoped buffers unopened, the generator register at some
    state. -/
def PhiS (c : Dev nD) : (n : ℕ) → n ≤ cfg3.N → sProp 𝕄
  | 0, _ => Pipeline.ΦA spec3 c
  | n + 1, hn => iprop(iprop(iprop(owns (c : Thread nD τ) scM3_0 fullShare (outsAt3 V c n hn).2.2.2.1 ∗ owns (c : Thread nD τ) scM3_1 fullShare (outsAt3 V c n hn).2.2.2.2) ∗ Pipeline.scopedRestBut (Ix := Unit) (Name := ℕ) (U := UR sig nD τ) (Lvl := ℕ) (Val := Elt F) spec3 c [cc3_scratch0, cc3_scratch1]) ∗ (∃ r, prngReg c r))

theorem PhiS_zero (c : Dev nD) (n : ℕ) (h : n ≤ cfg3.N) (hz : n = 0) : PhiS V c n h = Pipeline.ΦA spec3 c := by
  subst hz; rfl

theorem PhiS_succ (c : Dev nD) (n : ℕ) (hn : n < cfg3.N) :
    PhiS V c (n + 1) hn = iprop(iprop(iprop(owns (c : Thread nD τ) scM3_0 fullShare (outsAt3 V c n hn).2.2.2.1 ∗ owns (c : Thread nD τ) scM3_1 fullShare (outsAt3 V c n hn).2.2.2.2) ∗ Pipeline.scopedRestBut (Ix := Unit) (Name := ℕ) (U := UR sig nD τ) (Lvl := ℕ) (Val := Elt F) spec3 c [cc3_scratch0, cc3_scratch1]) ∗ (∃ r, prngReg c r)) := rfl

theorem PhiS_pos (c : Dev nD) (n : ℕ) (h : n ≤ cfg3.N) (hz : n ≠ 0) :
    PhiS V c n h = iprop(iprop(iprop(owns (c : Thread nD τ) scM3_0 fullShare (outsAt3 V c (n - 1) (by omega)).2.2.2.1 ∗ owns (c : Thread nD τ) scM3_1 fullShare (outsAt3 V c (n - 1) (by omega)).2.2.2.2) ∗ Pipeline.scopedRestBut (Ix := Unit) (Name := ℕ) (U := UR sig nD τ) (Lvl := ℕ) (Val := Elt F) spec3 c [cc3_scratch0, cc3_scratch1]) ∗ (∃ r, prngReg c r)) := by
  cases n with
  | zero => exact absurd rfl hz
  | succ n => rfl

/-! ## The proof data -/

/-- The proof data of the region on core `c`: the arrays as the region finds them; after the body at point `t` each
    input's buffer at its block and the outputs' at `outsAt3`; the invariant `PhiS`; nothing owed; full shares. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => (outsAt3 V c t.val t.isLt).1
    | ⟨11, _⟩ => (outsAt3 V c t.val t.isLt).2.1
    | ⟨12, _⟩ => (outsAt3 V c t.val t.isLt).2.2.1
  Φ t := PhiS V c t.val (Nat.le_of_lt_succ t.isLt)
  q _ := fullShare
  owed _ := 0

theorem A_eq (c : Dev nD) (w : Fin cfg3.W) : (dat V c).A w = V c (Pipeline.arrRef spec3 w) := by
  dsimp only [dat]

theorem PhiS_castSucc (c : Dev nD) (t : Fin cfg3.N) :
    (dat V c).Φ t.castSucc = PhiS V c t.val (Nat.le_of_lt t.isLt) := by
  dsimp only [dat]; simp only [Fin.coe_castSucc]

theorem after3_0 (c : Dev nD) (t : Fin cfg3.N) : (dat V c).after 0 t = iblk V c 0 t := by dsimp only [dat]
theorem after3_1 (c : Dev nD) (t : Fin cfg3.N) : (dat V c).after 1 t = iblk V c 1 t := by dsimp only [dat]
theorem after3_2 (c : Dev nD) (t : Fin cfg3.N) : (dat V c).after 2 t = iblk V c 2 t := by dsimp only [dat]
theorem after3_3 (c : Dev nD) (t : Fin cfg3.N) : (dat V c).after 3 t = iblk V c 3 t := by dsimp only [dat]
theorem after3_4 (c : Dev nD) (t : Fin cfg3.N) : (dat V c).after 4 t = iblk V c 4 t := by dsimp only [dat]
theorem after3_5 (c : Dev nD) (t : Fin cfg3.N) : (dat V c).after 5 t = iblk V c 5 t := by dsimp only [dat]
theorem after3_6 (c : Dev nD) (t : Fin cfg3.N) : (dat V c).after 6 t = iblk V c 6 t := by dsimp only [dat]
theorem after3_7 (c : Dev nD) (t : Fin cfg3.N) : (dat V c).after 7 t = iblk V c 7 t := by dsimp only [dat]
theorem after3_8 (c : Dev nD) (t : Fin cfg3.N) : (dat V c).after 8 t = iblk V c 8 t := by dsimp only [dat]
theorem after3_9 (c : Dev nD) (t : Fin cfg3.N) : (dat V c).after 9 t = iblk V c 9 t := by dsimp only [dat]
theorem after3_10 (c : Dev nD) (t : Fin cfg3.N) : (dat V c).after 10 t = (outsAt3 V c t.val t.isLt).1 := by dsimp only [dat]
theorem after3_11 (c : Dev nD) (t : Fin cfg3.N) : (dat V c).after 11 t = (outsAt3 V c t.val t.isLt).2.1 := by dsimp only [dat]
theorem after3_12 (c : Dev nD) (t : Fin cfg3.N) : (dat V c).after 12 t = (outsAt3 V c t.val t.isLt).2.2.1 := by dsimp only [dat]

theorem before3_0 (c : Dev nD) (t : Fin cfg3.N) (d) : (dat V c).before 0 t d = iblk V c 0 t :=
  before3_0_of V (dat V c) (A_eq V c 0) (after3_0 V c) t d
theorem before3_1 (c : Dev nD) (t : Fin cfg3.N) (d) : (dat V c).before 1 t d = iblk V c 1 t :=
  before3_1_of V (dat V c) (A_eq V c 1) (after3_1 V c) t d
theorem before3_2 (c : Dev nD) (t : Fin cfg3.N) (d) : (dat V c).before 2 t d = iblk V c 2 t :=
  before3_2_of V (dat V c) (A_eq V c 2) (after3_2 V c) t d
theorem before3_3 (c : Dev nD) (t : Fin cfg3.N) (d) : (dat V c).before 3 t d = iblk V c 3 t :=
  before3_3_of V (dat V c) (A_eq V c 3) (after3_3 V c) t d
theorem before3_4 (c : Dev nD) (t : Fin cfg3.N) (d) : (dat V c).before 4 t d = iblk V c 4 t :=
  before3_4_of V (dat V c) (A_eq V c 4) (after3_4 V c) t d
theorem before3_5 (c : Dev nD) (t : Fin cfg3.N) (d) : (dat V c).before 5 t d = iblk V c 5 t :=
  before3_5_of V (dat V c) (A_eq V c 5) (after3_5 V c) t d
theorem before3_6 (c : Dev nD) (t : Fin cfg3.N) (d) : (dat V c).before 6 t d = iblk V c 6 t :=
  before3_6_of V (dat V c) (A_eq V c 6) (after3_6 V c) t d
theorem before3_7 (c : Dev nD) (t : Fin cfg3.N) (d) : (dat V c).before 7 t d = iblk V c 7 t :=
  before3_7_of V (dat V c) (A_eq V c 7) (after3_7 V c) t d
theorem before3_8 (c : Dev nD) (t : Fin cfg3.N) (d) : (dat V c).before 8 t d = iblk V c 8 t :=
  before3_8_of V (dat V c) (A_eq V c 8) (after3_8 V c) t d
theorem before3_9 (c : Dev nD) (t : Fin cfg3.N) (d) : (dat V c).before 9 t d = iblk V c 9 t :=
  before3_9_of V (dat V c) (A_eq V c 9) (after3_9 V c) t d

end Cert.Kernel.Reg3

end
-- ==== Proof.BitsReg4Runs.lean ====
/-
  The fourth head kernel's region (pipeline 4): what its three runs share.

  The body runs in one of three ways over the four grid points: at point 0 it starts the running column minimum and
  maximum (two scratch buffers carried between points) from its own block's; at points 1 and 2 it folds its block's
  into them; at point 3 it does the same and copies both to the last two output windows, which are idle before.
  Here: the windows' blocks read off the arrays as the region finds them, the branch conditions in closed form over
  the grid, where the last two outputs are idle, and the staging and scratch memrefs the body is called with.
-/
import proofs.«100906_j73718818669321_2_alg».proof.Proof.Gen.Kernel.Launch
import proofs.«100906_j73718818669321_2_alg».proof.Proof.Gen.Kernel.Skeleton
import proofs.«100906_j73718818669321_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of the blocks' extents recurses once per coordinate of the long axes
set_option maxRecDepth 16384

noncomputable section

namespace Cert.Kernel.Reg4

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not, for any proof
    data whose array is `V`'s and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk V c 0 t) (t : Fin cfg4.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk V c 1 t) (t : Fin cfg4.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk V c 2 t) (t : Fin cfg4.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk V c 3 t) (t : Fin cfg4.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk V c 4 t) (t : Fin cfg4.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before4_5_of {c : Dev nD} (dat : Dat τ (Elt F) Unit ℕ (UR sig nD τ) ℕ cfg4 c) (hA : dat.A 5 = V c (Pipeline.arrRef spec4 5))
    (hafter : ∀ t, dat.after 5 t = iblk V c 5 t) (t : Fin cfg4.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before4_6_of {c : Dev nD} (dat : Dat τ (Elt F) Unit ℕ (UR sig nD τ) ℕ cfg4 c) (hA : dat.A 6 = V c (Pipeline.arrRef spec4 6))
    (hafter : ∀ t, dat.after 6 t = iblk V c 6 t) (t : Fin cfg4.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before4_7_of {c : Dev nD} (dat : Dat τ (Elt F) Unit ℕ (UR sig nD τ) ℕ cfg4 c) (hA : dat.A 7 = V c (Pipeline.arrRef spec4 7))
    (hafter : ∀ t, dat.after 7 t = iblk V c 7 t) (t : Fin cfg4.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before4_8_of {c : Dev nD} (dat : Dat τ (Elt F) Unit ℕ (UR sig nD τ) ℕ cfg4 c) (hA : dat.A 8 = V c (Pipeline.arrRef spec4 8))
    (hafter : ∀ t, dat.after 8 t = iblk V c 8 t) (t : Fin cfg4.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before4_9_of {c : Dev nD} (dat : Dat τ (Elt F) Unit ℕ (UR sig nD τ) ℕ cfg4 c) (hA : dat.A 9 = V c (Pipeline.arrRef spec4 9))
    (hafter : ∀ t, dat.after 9 t = iblk V c 9 t) (t : Fin cfg4.N) (d) : dat.before 9 t d = iblk V c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- `i == 0`: the running minimum and maximum are started. -/
abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val = 0 :=
  (by decide +kernel : ∀ t : Fin grid4.N, cond4_0 (grid4.coords t) ↔ t.val = 0)

/-- `i != 0`: they are folded with this block's. -/
abbrev cond4_1 (i : grid4.Coords) : Prop := (Scalar.cmpi .ne (Scalar.extui (Scalar.cmpi .ne (BitVec.ofNat 32 (i 0).val) 0#32)) 0#32) = 1#1
theorem hcond4_1 : ∀ t : Fin cfg4.N, cond4_1 (grid4.coords t) ↔ ¬ t.val = 0 :=
  (by decide +kernel : ∀ t : Fin grid4.N, cond4_1 (grid4.coords t) ↔ ¬ t.val = 0)

/-- `i == 3`: they are copied to the last two outputs. -/
abbrev cond4_2 (i : grid4.Coords) : Prop := k4_cond3 i = 1#1
theorem hcond4_2 : ∀ t : Fin cfg4.N, cond4_2 (grid4.coords t) ↔ t.val = 3 :=
  (by decide +kernel : ∀ t : Fin grid4.N, cond4_2 (grid4.coords t) ↔ t.val = 3)

/-! ## Where the last two outputs are idle -/

theorem idleAt4_11 : ∀ t : Fin cfg4.N, ¬cond4_2 (grid4.coords t) → cfg4.idle 11 (grid4.coords t) = true := by decide +kernel
theorem noFlush4_11 : ∀ t : Fin cfg4.N, ¬cond4_2 (grid4.coords t) → (cfg4.win 11).flush t = false := by decide +kernel
theorem liveAt4_11 : ∀ t : Fin cfg4.N, cond4_2 (grid4.coords t) → cfg4.idle 11 (grid4.coords t) = false := by decide +kernel
theorem idleAt4_12 : ∀ t : Fin cfg4.N, ¬cond4_2 (grid4.coords t) → cfg4.idle 12 (grid4.coords t) = true := by decide +kernel
theorem noFlush4_12 : ∀ t : Fin cfg4.N, ¬cond4_2 (grid4.coords t) → (cfg4.win 12).flush t = false := by decide +kernel
theorem liveAt4_12 : ∀ t : Fin cfg4.N, cond4_2 (grid4.coords t) → cfg4.idle 12 (grid4.coords t) = false := by decide +kernel

/-! ## The memrefs the body is called with -/

/-- One staging buffer of each output window, through which its contents are stated. -/
abbrev VO4_10 : View sig .tc .vmem S8192x128 .f32 := (Memref.whole cc4_stg10_0 : Memref sig .tc .vmem S8192x128 .f32).view
abbrev VO4_11 : View sig .tc .vmem S1x128 .f32 := (Memref.whole cc4_stg11_0 : Memref sig .tc .vmem S1x128 .f32).view
abbrev VO4_12 : View sig .tc .vmem S1x128 .f32 := (Memref.whole cc4_stg12_0 : Memref sig .tc .vmem S1x128 .f32).view
/-- Each window's current staging memref at point `t`, and its wholeness. -/
abbrev ms4_0 (t : Fin cfg4.N) : Memref sig .tc .vmem S8192x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S8192x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S128x64 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x64 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x64 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x1 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S64x128 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S1x128 .f32 := win4_7.stage (cfg4.slots t 7)
abbrev hs4_7 (t : Fin cfg4.N) : (ms4_7 t).IsWhole := hstage4_7 ((cfg4.slots t 7).cast nbuf4_7)
abbrev ms4_8 (t : Fin cfg4.N) : Memref sig .tc .vmem S1x128 .f32 := win4_8.stage (cfg4.slots t 8)
abbrev hs4_8 (t : Fin cfg4.N) : (ms4_8 t).IsWhole := hstage4_8 ((cfg4.slots t 8).cast nbuf4_8)
abbrev ms4_9 (t : Fin cfg4.N) : Memref sig .tc .vmem S1x128 .f32 := win4_9.stage (cfg4.slots t 9)
abbrev hs4_9 (t : Fin cfg4.N) : (ms4_9 t).IsWhole := hstage4_9 ((cfg4.slots t 9).cast nbuf4_9)
abbrev ms4_10 (t : Fin cfg4.N) : Memref sig .tc .vmem S8192x128 .f32 := win4_10.stage (cfg4.slots t 10)
abbrev hs4_10 (t : Fin cfg4.N) : (ms4_10 t).IsWhole := hstage4_10 ((cfg4.slots t 10).cast nbuf4_10)
abbrev ms4_11 (t : Fin cfg4.N) : Memref sig .tc .vmem S1x128 .f32 := win4_11.stage (cfg4.slots t 11)
abbrev hs4_11 (t : Fin cfg4.N) : (ms4_11 t).IsWhole := hstage4_11 ((cfg4.slots t 11).cast nbuf4_11)
abbrev ms4_12 (t : Fin cfg4.N) : Memref sig .tc .vmem S1x128 .f32 := win4_12.stage (cfg4.slots t 12)
abbrev hs4_12 (t : Fin cfg4.N) : (ms4_12 t).IsWhole := hstage4_12 ((cfg4.slots t 12).cast nbuf4_12)
/-- The two scratch operands: the running column minimum and maximum. -/
abbrev scM4_0 : Memref sig .tc .vmem S1x128 .f32 := Memref.whole cc4_scratch0
abbrev scM4_1 : Memref sig .tc .vmem S1x128 .f32 := Memref.whole cc4_scratch1
abbrev VS4_0 : View sig .tc .vmem S1x128 .f32 := scM4_0.view
abbrev VS4_1 : View sig .tc .vmem S1x128 .f32 := scM4_1.view

/-- The region's invariant with the two scratch operands as memrefs owned at some contents, the other scoped
    buffers unopened. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

end Cert.Kernel.Reg4

end
-- ==== Proof.BitsReg4RunA.lean ====
/-
  The fourth head kernel's body run at point 0: the running minimum and maximum are started from this block's, the last two outputs are idle.
-/
import proofs.«100906_j73718818669321_2_alg».proof.Proof.BitsReg4Runs

-- membership in a rectangle of the blocks' extents recurses once per coordinate of the long axes
set_option maxRecDepth 16384

noncomputable section

namespace Cert.Kernel.Reg4

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- The pieces the body's stores leave in each buffer it stores into (last first), with the proof that on whole
    memrefs — the inputs' at their contents, the first output's at anything, the idle outputs' at contents handed back untouched,
    the two scratch buffers at anything — the body runs to the continuation holding the inputs' as they
    were and each stored buffer with its pieces written. The pieces are the witness the run finds. -/
noncomputable def kernelRun4_A (c : Dev nD) (i : grid4.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : cond4_0 i) (hc1 : ¬cond4_1 i) (hc2 : ¬cond4_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) :
    Σ' (L10 : List (View.Piece (Elt F) S8192x128 .f32)) (LS0 : List (View.Piece (Elt F) S1x128 .f32)), { LS1 : List (View.Piece (Elt F) S1x128 .f32) //
      ∀ (xi11 xi12 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ owns (c : Thread nD τ) arg12 fullShare xi11 ∗ owns (c : Thread nD τ) arg13 fullShare xi12 ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ owns (c : Thread nD τ) arg12 fullShare xi11 ∗ owns (c : Thread nD τ) arg13 fullShare xi12 ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1)) -∗ K ⟨⟩))
          ⊢ wp frame (wpE (defs₀ (F := F)) Variants.none c none) E (cc4__head_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun xi11 xi12 E K => ?run⟩
  case run =>
    simp only [cc4__head_kernel_eq_skeleton]; unfold cc4__head_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg12.eq_unread hf11; obtain rfl := harg13.eq_unread hf12
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]
    · iexists _; isplitr; · ipureintro; exact harg12.read_unread _
      iexact H11
    isplitl [H12]
    · iexists _; isplitr; · ipureintro; exact harg13.read_unread _
      iexact H12
    isplitl [HS0]; · iexists _; iexact HS0
    iexists _; iexact HS1

end Cert.Kernel.Reg4

end
-- ==== Proof.BitsReg4RunB.lean ====
/-
  The fourth head kernel's body run at points 1 and 2: the running minimum and maximum are folded with this block's, the last two outputs are idle.
-/
import proofs.«100906_j73718818669321_2_alg».proof.Proof.BitsReg4RunA

-- membership in a rectangle of the blocks' extents recurses once per coordinate of the long axes
set_option maxRecDepth 16384

noncomputable section

namespace Cert.Kernel.Reg4

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- The pieces the body's stores leave in each buffer it stores into (last first), with the proof that on whole
    memrefs — the inputs' at their contents, the first output's at anything, the idle outputs' at contents handed back untouched,
    the two scratch buffers at what the point before left — the body runs to the continuation holding the inputs' as they
    were and each stored buffer with its pieces written. The pieces are the witness the run finds. -/
noncomputable def kernelRun4_B (c : Dev nD) (i : grid4.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond4_0 i) (hc1 : cond4_1 i) (hc2 : ¬cond4_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) :
    Σ' (L10 : List (View.Piece (Elt F) S8192x128 .f32)) (LS0 : List (View.Piece (Elt F) S1x128 .f32)), { LS1 : List (View.Piece (Elt F) S1x128 .f32) //
      ∀ (xi11 xi12 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ owns (c : Thread nD τ) arg12 fullShare xi11 ∗ owns (c : Thread nD τ) arg13 fullShare xi12 ∗ owns (c : Thread nD τ) arg14 fullShare xs0 ∗ owns (c : Thread nD τ) arg15 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ owns (c : Thread nD τ) arg12 fullShare xi11 ∗ owns (c : Thread nD τ) arg13 fullShare xi12 ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1)) -∗ K ⟨⟩))
          ⊢ wp frame (wpE (defs₀ (F := F)) Variants.none c none) E (cc4__head_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun xi11 xi12 E K => ?run⟩
  case run =>
    simp only [cc4__head_kernel_eq_skeleton]; unfold cc4__head_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg12.eq_unread hf11; obtain rfl := harg13.eq_unread hf12; obtain rfl := harg14.eq_unread hfs0; obtain rfl := harg15.eq_unread hfs1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]
    · iexists _; isplitr; · ipureintro; exact harg12.read_unread _
      iexact H11
    isplitl [H12]
    · iexists _; isplitr; · ipureintro; exact harg13.read_unread _
      iexact H12
    isplitl [HS0]; · iexists _; iexact HS0
    iexists _; iexact HS1

end Cert.Kernel.Reg4

end
-- ==== Proof.BitsReg4RunC.lean ====
/-
  The fourth head kernel's body run at point 3: the running minimum and maximum are folded with this block's and copied to the last two outputs.
-/
import proofs.«100906_j73718818669321_2_alg».proof.Proof.BitsReg4RunB

-- membership in a rectangle of the blocks' extents recurses once per coordinate of the long axes
set_option maxRecDepth 16384

noncomputable section

namespace Cert.Kernel.Reg4

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- The pieces the body's stores leave in each buffer it stores into (last first), with the proof that on whole
    memrefs — the inputs' at their contents, the first output's at anything, the last two outputs' at anything,
    the two scratch buffers at what the point before left — the body runs to the continuation holding the inputs' as they
    were and each stored buffer with its pieces written. The pieces are the witness the run finds. -/
noncomputable def kernelRun4_C (c : Dev nD) (i : grid4.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond4_0 i) (hc1 : cond4_1 i) (hc2 : cond4_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) :
    Σ' (L10 : List (View.Piece (Elt F) S8192x128 .f32)) (L11 : List (View.Piece (Elt F) S1x128 .f32)) (L12 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs0 ∗ owns (c : Thread nD τ) arg15 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1)) -∗ K ⟨⟩))
          ⊢ wp frame (wpE (defs₀ (F := F)) Variants.none c none) E (cc4__head_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, fun E K => ?run⟩
  case run =>
    simp only [cc4__head_kernel_eq_skeleton]; unfold cc4__head_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg14.eq_unread hfs0; obtain rfl := harg15.eq_unread hfs1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]; · iexists _; iexact H11
    isplitl [H12]; · iexists _; iexact H12
    isplitl [HS0]; · iexists _; iexact HS0
    iexists _; iexact HS1

end Cert.Kernel.Reg4

end
-- ==== Proof.BitsReg4Dat.lean ====
/-
  The fourth head kernel's region: what its buffers hold point by point, and the proof data.

  From the three runs' pieces: what each case leaves in the first output's staging buffer, in the last two outputs'
  (the last case only) and in the two scratch buffers; these chained over the four points (each point's scratch
  contents feed the next point's run); the region invariant with the scratch at those contents; and the proof data.
-/
import proofs.«100906_j73718818669321_2_alg».proof.Proof.BitsReg4RunC

-- membership in a rectangle of the blocks' extents recurses once per coordinate of the long axes
set_option maxRecDepth 16384

noncomputable section

namespace Cert.Kernel.Reg4

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case A's pieces for the first output's staging buffer tile it, so they cover it. -/
theorem cover4_A_10 (c : Dev nD) (i : grid4.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : cond4_0 i) (hc1 : ¬cond4_1 i) (hc2 : ¬cond4_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (y : S8192x128.Idx) :
    ∃ pc ∈ (kernelRun4_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9).1, y ∈ pc.1.set :=
  View.cover_of_tiledL (kernelRun4_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9).1 S8192x128.size (by sl_kernel_rfl) y

/-- What case A leaves in the first output's staging buffer: its pieces read back over junk. -/
def out4_A_10 (c : Dev nD) (i : grid4.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : cond4_0 i) (hc1 : ¬cond4_1 i) (hc2 : ¬cond4_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) : Vec F S8192x128 .f32 :=
  VO4_10.read (Elt F) (VO4_10.writes (Elt F) VO4_10.junk (kernelRun4_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9).1)

/-- Case A's pieces for the running-minimum scratch tile it, so they cover it. -/
theorem scover4_A_0 (c : Dev nD) (i : grid4.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : cond4_0 i) (hc1 : ¬cond4_1 i) (hc2 : ¬cond4_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (y : S1x128.Idx) :
    ∃ pc ∈ (kernelRun4_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9).2.1, y ∈ pc.1.set :=
  View.cover_of_tiledL (kernelRun4_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9).2.1 S1x128.size (by sl_kernel_rfl) y

/-- What case A leaves in the running-minimum scratch: its pieces read back over junk. -/
def sout4_A_0 (c : Dev nD) (i : grid4.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : cond4_0 i) (hc1 : ¬cond4_1 i) (hc2 : ¬cond4_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) : Vec F S1x128 .f32 :=
  VS4_0.read (Elt F) (VS4_0.writes (Elt F) VS4_0.junk (kernelRun4_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9).2.1)

/-- Case A's pieces for the running-maximum scratch tile it, so they cover it. -/
theorem scover4_A_1 (c : Dev nD) (i : grid4.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : cond4_0 i) (hc1 : ¬cond4_1 i) (hc2 : ¬cond4_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (y : S1x128.Idx) :
    ∃ pc ∈ (kernelRun4_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9).2.2.1, y ∈ pc.1.set :=
  View.cover_of_tiledL (kernelRun4_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9).2.2.1 S1x128.size (by sl_kernel_rfl) y

/-- What case A leaves in the running-maximum scratch: its pieces read back over junk. -/
def sout4_A_1 (c : Dev nD) (i : grid4.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : cond4_0 i) (hc1 : ¬cond4_1 i) (hc2 : ¬cond4_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) : Vec F S1x128 .f32 :=
  VS4_1.read (Elt F) (VS4_1.writes (Elt F) VS4_1.junk (kernelRun4_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9).2.2.1)

/-- Case B's pieces for the first output's staging buffer tile it, so they cover it. -/
theorem cover4_B_10 (c : Dev nD) (i : grid4.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond4_0 i) (hc1 : cond4_1 i) (hc2 : ¬cond4_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) (y : S8192x128.Idx) :
    ∃ pc ∈ (kernelRun4_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).1, y ∈ pc.1.set :=
  View.cover_of_tiledL (kernelRun4_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).1 S8192x128.size (by sl_kernel_rfl) y

/-- What case B leaves in the first output's staging buffer: its pieces read back over junk. -/
def out4_B_10 (c : Dev nD) (i : grid4.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond4_0 i) (hc1 : cond4_1 i) (hc2 : ¬cond4_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) : Vec F S8192x128 .f32 :=
  VO4_10.read (Elt F) (VO4_10.writes (Elt F) VO4_10.junk (kernelRun4_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).1)

/-- Case B's pieces for the running-minimum scratch tile it, so they cover it. -/
theorem scover4_B_0 (c : Dev nD) (i : grid4.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond4_0 i) (hc1 : cond4_1 i) (hc2 : ¬cond4_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) (y : S1x128.Idx) :
    ∃ pc ∈ (kernelRun4_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).2.1, y ∈ pc.1.set :=
  View.cover_of_tiledL (kernelRun4_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).2.1 S1x128.size (by sl_kernel_rfl) y

/-- What case B leaves in the running-minimum scratch: its pieces read back over junk. -/
def sout4_B_0 (c : Dev nD) (i : grid4.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond4_0 i) (hc1 : cond4_1 i) (hc2 : ¬cond4_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) : Vec F S1x128 .f32 :=
  VS4_0.read (Elt F) (VS4_0.writes (Elt F) VS4_0.junk (kernelRun4_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).2.1)

/-- Case B's pieces for the running-maximum scratch tile it, so they cover it. -/
theorem scover4_B_1 (c : Dev nD) (i : grid4.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond4_0 i) (hc1 : cond4_1 i) (hc2 : ¬cond4_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) (y : S1x128.Idx) :
    ∃ pc ∈ (kernelRun4_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).2.2.1, y ∈ pc.1.set :=
  View.cover_of_tiledL (kernelRun4_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).2.2.1 S1x128.size (by sl_kernel_rfl) y

/-- What case B leaves in the running-maximum scratch: its pieces read back over junk. -/
def sout4_B_1 (c : Dev nD) (i : grid4.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond4_0 i) (hc1 : cond4_1 i) (hc2 : ¬cond4_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) : Vec F S1x128 .f32 :=
  VS4_1.read (Elt F) (VS4_1.writes (Elt F) VS4_1.junk (kernelRun4_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).2.2.1)

/-- Case C's pieces for the first output's staging buffer tile it, so they cover it. -/
theorem cover4_C_10 (c : Dev nD) (i : grid4.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond4_0 i) (hc1 : cond4_1 i) (hc2 : cond4_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) (y : S8192x128.Idx) :
    ∃ pc ∈ (kernelRun4_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).1, y ∈ pc.1.set :=
  View.cover_of_tiledL (kernelRun4_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).1 S8192x128.size (by sl_kernel_rfl) y

/-- What case C leaves in the first output's staging buffer: its pieces read back over junk. -/
def out4_C_10 (c : Dev nD) (i : grid4.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond4_0 i) (hc1 : cond4_1 i) (hc2 : cond4_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) : Vec F S8192x128 .f32 :=
  VO4_10.read (Elt F) (VO4_10.writes (Elt F) VO4_10.junk (kernelRun4_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).1)

/-- Case C's pieces for the second output's staging buffer tile it, so they cover it. -/
theorem cover4_C_11 (c : Dev nD) (i : grid4.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond4_0 i) (hc1 : cond4_1 i) (hc2 : cond4_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) (y : S1x128.Idx) :
    ∃ pc ∈ (kernelRun4_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).2.1, y ∈ pc.1.set :=
  View.cover_of_tiledL (kernelRun4_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).2.1 S1x128.size (by sl_kernel_rfl) y

/-- What case C leaves in the second output's staging buffer: its pieces read back over junk. -/
def out4_C_11 (c : Dev nD) (i : grid4.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond4_0 i) (hc1 : cond4_1 i) (hc2 : cond4_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) : Vec F S1x128 .f32 :=
  VO4_11.read (Elt F) (VO4_11.writes (Elt F) VO4_11.junk (kernelRun4_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).2.1)

/-- Case C's pieces for the third output's staging buffer tile it, so they cover it. -/
theorem cover4_C_12 (c : Dev nD) (i : grid4.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond4_0 i) (hc1 : cond4_1 i) (hc2 : cond4_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) (y : S1x128.Idx) :
    ∃ pc ∈ (kernelRun4_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).2.2.1, y ∈ pc.1.set :=
  View.cover_of_tiledL (kernelRun4_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).2.2.1 S1x128.size (by sl_kernel_rfl) y

/-- What case C leaves in the third output's staging buffer: its pieces read back over junk. -/
def out4_C_12 (c : Dev nD) (i : grid4.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond4_0 i) (hc1 : cond4_1 i) (hc2 : cond4_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) : Vec F S1x128 .f32 :=
  VO4_12.read (Elt F) (VO4_12.writes (Elt F) VO4_12.junk (kernelRun4_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).2.2.1)

/-- Case C's pieces for the running-minimum scratch tile it, so they cover it. -/
theorem scover4_C_0 (c : Dev nD) (i : grid4.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond4_0 i) (hc1 : cond4_1 i) (hc2 : cond4_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) (y : S1x128.Idx) :
    ∃ pc ∈ (kernelRun4_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).2.2.2.1, y ∈ pc.1.set :=
  View.cover_of_tiledL (kernelRun4_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).2.2.2.1 S1x128.size (by sl_kernel_rfl) y

/-- What case C leaves in the running-minimum scratch: its pieces read back over junk. -/
def sout4_C_0 (c : Dev nD) (i : grid4.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond4_0 i) (hc1 : cond4_1 i) (hc2 : cond4_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) : Vec F S1x128 .f32 :=
  VS4_0.read (Elt F) (VS4_0.writes (Elt F) VS4_0.junk (kernelRun4_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).2.2.2.1)

/-- Case C's pieces for the running-maximum scratch tile it, so they cover it. -/
theorem scover4_C_1 (c : Dev nD) (i : grid4.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond4_0 i) (hc1 : cond4_1 i) (hc2 : cond4_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) (y : S1x128.Idx) :
    ∃ pc ∈ (kernelRun4_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).2.2.2.2.1, y ∈ pc.1.set :=
  View.cover_of_tiledL (kernelRun4_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).2.2.2.2.1 S1x128.size (by sl_kernel_rfl) y

/-- What case C leaves in the running-maximum scratch: its pieces read back over junk. -/
def sout4_C_1 (c : Dev nD) (i : grid4.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond4_0 i) (hc1 : cond4_1 i) (hc2 : cond4_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) : Vec F S1x128 .f32 :=
  VS4_1.read (Elt F) (VS4_1.writes (Elt F) VS4_1.junk (kernelRun4_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).2.2.2.2.1)

variable (V : (c : Dev nD) → (b : Ref sig .tc) → Buf (Elt F) ((c : Thread nD τ).loc b))

/-- What an idle output's component reads: junk that nothing consults (at those points the window is neither written
    back nor read at the next point). -/
def idleJunk : Vec F S1x128 .f32 := VO4_11.read (Elt F) VO4_11.junk

/-! ## What the buffers hold after each point -/

/-- After the body at position `n`: the three outputs' staging buffers, then the two scratch buffers — the case the
    point is in, run at the point's memrefs and input blocks, the scratch at what position `n - 1` left. -/
def outsAt4 (c : Dev nD) : (n : ℕ) → n < cfg4.N → Vec F S8192x128 .f32 × Vec F S1x128 .f32 × Vec F S1x128 .f32 × Vec F S1x128 .f32 × Vec F S1x128 .f32
  | 0, hn => (out4_A_10 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) (ms4_9 ⟨0, hn⟩) (hs4_9 ⟨0, hn⟩) (ms4_10 ⟨0, hn⟩) (hs4_10 ⟨0, hn⟩) (ms4_11 ⟨0, hn⟩) (hs4_11 ⟨0, hn⟩) (ms4_12 ⟨0, hn⟩) (hs4_12 ⟨0, hn⟩) scM4_0 (Memref.isWhole_whole _) scM4_1 (Memref.isWhole_whole _) ((hcond4_0 ⟨0, hn⟩).mpr rfl) (fun h => (hcond4_1 ⟨0, hn⟩).mp h rfl) (fun h => Nat.zero_ne_add_one 2 ((hcond4_2 ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩) (iblk V c 8 ⟨0, hn⟩) (iblk V c 9 ⟨0, hn⟩), idleJunk, idleJunk, sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) (ms4_9 ⟨0, hn⟩) (hs4_9 ⟨0, hn⟩) (ms4_10 ⟨0, hn⟩) (hs4_10 ⟨0, hn⟩) (ms4_11 ⟨0, hn⟩) (hs4_11 ⟨0, hn⟩) (ms4_12 ⟨0, hn⟩) (hs4_12 ⟨0, hn⟩) scM4_0 (Memref.isWhole_whole _) scM4_1 (Memref.isWhole_whole _) ((hcond4_0 ⟨0, hn⟩).mpr rfl) (fun h => (hcond4_1 ⟨0, hn⟩).mp h rfl) (fun h => Nat.zero_ne_add_one 2 ((hcond4_2 ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩) (iblk V c 8 ⟨0, hn⟩) (iblk V c 9 ⟨0, hn⟩), sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) (ms4_9 ⟨0, hn⟩) (hs4_9 ⟨0, hn⟩) (ms4_10 ⟨0, hn⟩) (hs4_10 ⟨0, hn⟩) (ms4_11 ⟨0, hn⟩) (hs4_11 ⟨0, hn⟩) (ms4_12 ⟨0, hn⟩) (hs4_12 ⟨0, hn⟩) scM4_0 (Memref.isWhole_whole _) scM4_1 (Memref.isWhole_whole _) ((hcond4_0 ⟨0, hn⟩).mpr rfl) (fun h => (hcond4_1 ⟨0, hn⟩).mp h rfl) (fun h => Nat.zero_ne_add_one 2 ((hcond4_2 ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩) (iblk V c 8 ⟨0, hn⟩) (iblk V c 9 ⟨0, hn⟩))
  | n + 1, hn =>
    if h3 : n + 1 = 3 then
      (out4_C_10 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) (ms4_10 ⟨n + 1, hn⟩) (hs4_10 ⟨n + 1, hn⟩) (ms4_11 ⟨n + 1, hn⟩) (hs4_11 ⟨n + 1, hn⟩) (ms4_12 ⟨n + 1, hn⟩) (hs4_12 ⟨n + 1, hn⟩) scM4_0 (Memref.isWhole_whole _) scM4_1 (Memref.isWhole_whole _) (fun h => Nat.succ_ne_zero n ((hcond4_0 ⟨n + 1, hn⟩).mp h)) ((hcond4_1 ⟨n + 1, hn⟩).mpr (Nat.succ_ne_zero n)) ((hcond4_2 ⟨n + 1, hn⟩).mpr h3) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (outsAt4 c n (Nat.lt_of_succ_lt hn)).2.2.2.1 (outsAt4 c n (Nat.lt_of_succ_lt hn)).2.2.2.2, out4_C_11 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) (ms4_10 ⟨n + 1, hn⟩) (hs4_10 ⟨n + 1, hn⟩) (ms4_11 ⟨n + 1, hn⟩) (hs4_11 ⟨n + 1, hn⟩) (ms4_12 ⟨n + 1, hn⟩) (hs4_12 ⟨n + 1, hn⟩) scM4_0 (Memref.isWhole_whole _) scM4_1 (Memref.isWhole_whole _) (fun h => Nat.succ_ne_zero n ((hcond4_0 ⟨n + 1, hn⟩).mp h)) ((hcond4_1 ⟨n + 1, hn⟩).mpr (Nat.succ_ne_zero n)) ((hcond4_2 ⟨n + 1, hn⟩).mpr h3) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (outsAt4 c n (Nat.lt_of_succ_lt hn)).2.2.2.1 (outsAt4 c n (Nat.lt_of_succ_lt hn)).2.2.2.2, out4_C_12 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) (ms4_10 ⟨n + 1, hn⟩) (hs4_10 ⟨n + 1, hn⟩) (ms4_11 ⟨n + 1, hn⟩) (hs4_11 ⟨n + 1, hn⟩) (ms4_12 ⟨n + 1, hn⟩) (hs4_12 ⟨n + 1, hn⟩) scM4_0 (Memref.isWhole_whole _) scM4_1 (Memref.isWhole_whole _) (fun h => Nat.succ_ne_zero n ((hcond4_0 ⟨n + 1, hn⟩).mp h)) ((hcond4_1 ⟨n + 1, hn⟩).mpr (Nat.succ_ne_zero n)) ((hcond4_2 ⟨n + 1, hn⟩).mpr h3) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (outsAt4 c n (Nat.lt_of_succ_lt hn)).2.2.2.1 (outsAt4 c n (Nat.lt_of_succ_lt hn)).2.2.2.2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) (ms4_10 ⟨n + 1, hn⟩) (hs4_10 ⟨n + 1, hn⟩) (ms4_11 ⟨n + 1, hn⟩) (hs4_11 ⟨n + 1, hn⟩) (ms4_12 ⟨n + 1, hn⟩) (hs4_12 ⟨n + 1, hn⟩) scM4_0 (Memref.isWhole_whole _) scM4_1 (Memref.isWhole_whole _) (fun h => Nat.succ_ne_zero n ((hcond4_0 ⟨n + 1, hn⟩).mp h)) ((hcond4_1 ⟨n + 1, hn⟩).mpr (Nat.succ_ne_zero n)) ((hcond4_2 ⟨n + 1, hn⟩).mpr h3) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (outsAt4 c n (Nat.lt_of_succ_lt hn)).2.2.2.1 (outsAt4 c n (Nat.lt_of_succ_lt hn)).2.2.2.2, sout4_C_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) (ms4_10 ⟨n + 1, hn⟩) (hs4_10 ⟨n + 1, hn⟩) (ms4_11 ⟨n + 1, hn⟩) (hs4_11 ⟨n + 1, hn⟩) (ms4_12 ⟨n + 1, hn⟩) (hs4_12 ⟨n + 1, hn⟩) scM4_0 (Memref.isWhole_whole _) scM4_1 (Memref.isWhole_whole _) (fun h => Nat.succ_ne_zero n ((hcond4_0 ⟨n + 1, hn⟩).mp h)) ((hcond4_1 ⟨n + 1, hn⟩).mpr (Nat.succ_ne_zero n)) ((hcond4_2 ⟨n + 1, hn⟩).mpr h3) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (outsAt4 c n (Nat.lt_of_succ_lt hn)).2.2.2.1 (outsAt4 c n (Nat.lt_of_succ_lt hn)).2.2.2.2)
    else
      (out4_B_10 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) (ms4_10 ⟨n + 1, hn⟩) (hs4_10 ⟨n + 1, hn⟩) (ms4_11 ⟨n + 1, hn⟩) (hs4_11 ⟨n + 1, hn⟩) (ms4_12 ⟨n + 1, hn⟩) (hs4_12 ⟨n + 1, hn⟩) scM4_0 (Memref.isWhole_whole _) scM4_1 (Memref.isWhole_whole _) (fun h => Nat.succ_ne_zero n ((hcond4_0 ⟨n + 1, hn⟩).mp h)) ((hcond4_1 ⟨n + 1, hn⟩).mpr (Nat.succ_ne_zero n)) (fun h => h3 ((hcond4_2 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (outsAt4 c n (Nat.lt_of_succ_lt hn)).2.2.2.1 (outsAt4 c n (Nat.lt_of_succ_lt hn)).2.2.2.2, idleJunk, idleJunk, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) (ms4_10 ⟨n + 1, hn⟩) (hs4_10 ⟨n + 1, hn⟩) (ms4_11 ⟨n + 1, hn⟩) (hs4_11 ⟨n + 1, hn⟩) (ms4_12 ⟨n + 1, hn⟩) (hs4_12 ⟨n + 1, hn⟩) scM4_0 (Memref.isWhole_whole _) scM4_1 (Memref.isWhole_whole _) (fun h => Nat.succ_ne_zero n ((hcond4_0 ⟨n + 1, hn⟩).mp h)) ((hcond4_1 ⟨n + 1, hn⟩).mpr (Nat.succ_ne_zero n)) (fun h => h3 ((hcond4_2 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (outsAt4 c n (Nat.lt_of_succ_lt hn)).2.2.2.1 (outsAt4 c n (Nat.lt_of_succ_lt hn)).2.2.2.2, sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) (ms4_10 ⟨n + 1, hn⟩) (hs4_10 ⟨n + 1, hn⟩) (ms4_11 ⟨n + 1, hn⟩) (hs4_11 ⟨n + 1, hn⟩) (ms4_12 ⟨n + 1, hn⟩) (hs4_12 ⟨n + 1, hn⟩) scM4_0 (Memref.isWhole_whole _) scM4_1 (Memref.isWhole_whole _) (fun h => Nat.succ_ne_zero n ((hcond4_0 ⟨n + 1, hn⟩).mp h)) ((hcond4_1 ⟨n + 1, hn⟩).mpr (Nat.succ_ne_zero n)) (fun h => h3 ((hcond4_2 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (outsAt4 c n (Nat.lt_of_succ_lt hn)).2.2.2.1 (outsAt4 c n (Nat.lt_of_succ_lt hn)).2.2.2.2)

theorem outsAt4_A (c : Dev nD) (t : Fin cfg4.N) (h0 : t.val = 0) (h3 : ¬t.val = 3) :
    outsAt4 V c t.val t.isLt = (out4_A_10 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) (ms4_12 t) (hs4_12 t) scM4_0 (Memref.isWhole_whole _) scM4_1 (Memref.isWhole_whole _) ((hcond4_0 t).mpr h0) (fun h => (hcond4_1 t).mp h h0) (fun h => h3 ((hcond4_2 t).mp h)) (iblk V c 0 t) (iblk V c 1 t) (iblk V c 2 t) (iblk V c 3 t) (iblk V c 4 t) (iblk V c 5 t) (iblk V c 6 t) (iblk V c 7 t) (iblk V c 8 t) (iblk V c 9 t), idleJunk, idleJunk, sout4_A_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) (ms4_12 t) (hs4_12 t) scM4_0 (Memref.isWhole_whole _) scM4_1 (Memref.isWhole_whole _) ((hcond4_0 t).mpr h0) (fun h => (hcond4_1 t).mp h h0) (fun h => h3 ((hcond4_2 t).mp h)) (iblk V c 0 t) (iblk V c 1 t) (iblk V c 2 t) (iblk V c 3 t) (iblk V c 4 t) (iblk V c 5 t) (iblk V c 6 t) (iblk V c 7 t) (iblk V c 8 t) (iblk V c 9 t), sout4_A_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) (ms4_12 t) (hs4_12 t) scM4_0 (Memref.isWhole_whole _) scM4_1 (Memref.isWhole_whole _) ((hcond4_0 t).mpr h0) (fun h => (hcond4_1 t).mp h h0) (fun h => h3 ((hcond4_2 t).mp h)) (iblk V c 0 t) (iblk V c 1 t) (iblk V c 2 t) (iblk V c 3 t) (iblk V c 4 t) (iblk V c 5 t) (iblk V c 6 t) (iblk V c 7 t) (iblk V c 8 t) (iblk V c 9 t)) := by
  obtain ⟨n, hn⟩ := t
  cases n with
  | zero => exact rfl
  | succ n => exact absurd h0 (Nat.succ_ne_zero n)

theorem outsAt4_B (c : Dev nD) (t : Fin cfg4.N) (h0 : ¬t.val = 0) (h3 : ¬t.val = 3) :
    outsAt4 V c t.val t.isLt = (out4_B_10 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) (ms4_12 t) (hs4_12 t) scM4_0 (Memref.isWhole_whole _) scM4_1 (Memref.isWhole_whole _) (fun h => h0 ((hcond4_0 t).mp h)) ((hcond4_1 t).mpr h0) (fun h => h3 ((hcond4_2 t).mp h)) (iblk V c 0 t) (iblk V c 1 t) (iblk V c 2 t) (iblk V c 3 t) (iblk V c 4 t) (iblk V c 5 t) (iblk V c 6 t) (iblk V c 7 t) (iblk V c 8 t) (iblk V c 9 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, idleJunk, idleJunk, sout4_B_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) (ms4_12 t) (hs4_12 t) scM4_0 (Memref.isWhole_whole _) scM4_1 (Memref.isWhole_whole _) (fun h => h0 ((hcond4_0 t).mp h)) ((hcond4_1 t).mpr h0) (fun h => h3 ((hcond4_2 t).mp h)) (iblk V c 0 t) (iblk V c 1 t) (iblk V c 2 t) (iblk V c 3 t) (iblk V c 4 t) (iblk V c 5 t) (iblk V c 6 t) (iblk V c 7 t) (iblk V c 8 t) (iblk V c 9 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_B_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) (ms4_12 t) (hs4_12 t) scM4_0 (Memref.isWhole_whole _) scM4_1 (Memref.isWhole_whole _) (fun h => h0 ((hcond4_0 t).mp h)) ((hcond4_1 t).mpr h0) (fun h => h3 ((hcond4_2 t).mp h)) (iblk V c 0 t) (iblk V c 1 t) (iblk V c 2 t) (iblk V c 3 t) (iblk V c 4 t) (iblk V c 5 t) (iblk V c 6 t) (iblk V c 7 t) (iblk V c 8 t) (iblk V c 9 t) (outsAt4 V c (t.val - 1) (Nat.lt_of_le_of_lt (Nat.sub_le _ _) t.isLt)).2.2.2.1 (outsAt4 V c (t.val - 1) (Nat.lt_of_le_of_lt (Nat.sub_le _ _) t.isLt)).2.2.2.2) := by
  obtain ⟨n, hn⟩ := t
  cases n with
  | zero => exact absurd rfl h0
  | succ n => exact (dif_neg h3).trans rfl

theorem outsAt4_C (c : Dev nD) (t : Fin cfg4.N) (h0 : ¬t.val = 0) (h3 : t.val = 3) :
    outsAt4 V c t.val t.isLt = (out4_C_10 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) (ms4_12 t) (hs4_12 t) scM4_0 (Memref.isWhole_whole _) scM4_1 (Memref.isWhole_whole _) (fun h => h0 ((hcond4_0 t).mp h)) ((hcond4_1 t).mpr h0) ((hcond4_2 t).mpr h3) (iblk V c 0 t) (iblk V c 1 t) (iblk V c 2 t) (iblk V c 3 t) (iblk V c 4 t) (iblk V c 5 t) (iblk V c 6 t) (iblk V c 7 t) (iblk V c 8 t) (iblk V c 9 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, out4_C_11 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) (ms4_12 t) (hs4_12 t) scM4_0 (Memref.isWhole_whole _) scM4_1 (Memref.isWhole_whole _) (fun h => h0 ((hcond4_0 t).mp h)) ((hcond4_1 t).mpr h0) ((hcond4_2 t).mpr h3) (iblk V c 0 t) (iblk V c 1 t) (iblk V c 2 t) (iblk V c 3 t) (iblk V c 4 t) (iblk V c 5 t) (iblk V c 6 t) (iblk V c 7 t) (iblk V c 8 t) (iblk V c 9 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, out4_C_12 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) (ms4_12 t) (hs4_12 t) scM4_0 (Memref.isWhole_whole _) scM4_1 (Memref.isWhole_whole _) (fun h => h0 ((hcond4_0 t).mp h)) ((hcond4_1 t).mpr h0) ((hcond4_2 t).mpr h3) (iblk V c 0 t) (iblk V c 1 t) (iblk V c 2 t) (iblk V c 3 t) (iblk V c 4 t) (iblk V c 5 t) (iblk V c 6 t) (iblk V c 7 t) (iblk V c 8 t) (iblk V c 9 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_C_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) (ms4_12 t) (hs4_12 t) scM4_0 (Memref.isWhole_whole _) scM4_1 (Memref.isWhole_whole _) (fun h => h0 ((hcond4_0 t).mp h)) ((hcond4_1 t).mpr h0) ((hcond4_2 t).mpr h3) (iblk V c 0 t) (iblk V c 1 t) (iblk V c 2 t) (iblk V c 3 t) (iblk V c 4 t) (iblk V c 5 t) (iblk V c 6 t) (iblk V c 7 t) (iblk V c 8 t) (iblk V c 9 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_C_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) (ms4_12 t) (hs4_12 t) scM4_0 (Memref.isWhole_whole _) scM4_1 (Memref.isWhole_whole _) (fun h => h0 ((hcond4_0 t).mp h)) ((hcond4_1 t).mpr h0) ((hcond4_2 t).mpr h3) (iblk V c 0 t) (iblk V c 1 t) (iblk V c 2 t) (iblk V c 3 t) (iblk V c 4 t) (iblk V c 5 t) (iblk V c 6 t) (iblk V c 7 t) (iblk V c 8 t) (iblk V c 9 t) (outsAt4 V c (t.val - 1) (Nat.lt_of_le_of_lt (Nat.sub_le _ _) t.isLt)).2.2.2.1 (outsAt4 V c (t.val - 1) (Nat.lt_of_le_of_lt (Nat.sub_le _ _) t.isLt)).2.2.2.2) := by
  obtain ⟨n, hn⟩ := t
  cases n with
  | zero => exact absurd rfl h0
  | succ n => exact (dif_pos h3).trans rfl

/-! ## The region invariant -/

/-- Before position `n`: at the first point the class's invariant (every scratch at anything); afterwards the two
    scratch buffers at what the point before left, the other scoped buffers unopened, the generator register at some
    state. -/
def PhiS (c : Dev nD) : (n : ℕ) → n ≤ cfg4.N → sProp 𝕄
  | 0, _ => Pipeline.ΦA spec4 c
  | n + 1, hn => iprop(iprop(iprop(owns (c : Thread nD τ) scM4_0 fullShare (outsAt4 V c n hn).2.2.2.1 ∗ owns (c : Thread nD τ) scM4_1 fullShare (outsAt4 V c n hn).2.2.2.2) ∗ Pipeline.scopedRestBut (Ix := Unit) (Name := ℕ) (U := UR sig nD τ) (Lvl := ℕ) (Val := Elt F) spec4 c [cc4_scratch0, cc4_scratch1]) ∗ (∃ r, prngReg c r))

theorem PhiS_zero (c : Dev nD) (n : ℕ) (h : n ≤ cfg4.N) (hz : n = 0) : PhiS V c n h = Pipeline.ΦA spec4 c := by
  subst hz; rfl

theorem PhiS_succ (c : Dev nD) (n : ℕ) (hn : n < cfg4.N) :
    PhiS V c (n + 1) hn = iprop(iprop(iprop(owns (c : Thread nD τ) scM4_0 fullShare (outsAt4 V c n hn).2.2.2.1 ∗ owns (c : Thread nD τ) scM4_1 fullShare (outsAt4 V c n hn).2.2.2.2) ∗ Pipeline.scopedRestBut (Ix := Unit) (Name := ℕ) (U := UR sig nD τ) (Lvl := ℕ) (Val := Elt F) spec4 c [cc4_scratch0, cc4_scratch1]) ∗ (∃ r, prngReg c r)) := rfl

theorem PhiS_pos (c : Dev nD) (n : ℕ) (h : n ≤ cfg4.N) (hz : n ≠ 0) :
    PhiS V c n h = iprop(iprop(iprop(owns (c : Thread nD τ) scM4_0 fullShare (outsAt4 V c (n - 1) (by omega)).2.2.2.1 ∗ owns (c : Thread nD τ) scM4_1 fullShare (outsAt4 V c (n - 1) (by omega)).2.2.2.2) ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

/-! ## The proof data -/

/-- The proof data of the region on core `c`: the arrays as the region finds them; after the body at point `t` each
    input's buffer at its block and the outputs' at `outsAt4`; the invariant `PhiS`; nothing owed; full shares. -/
def dat (c : Dev nD) : Dat τ (Elt F) Unit ℕ (UR sig nD τ) ℕ cfg4 c where
  A w := V c (Pipeline.arrRef spec4 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => (outsAt4 V c t.val t.isLt).1
    | ⟨11, _⟩ => (outsAt4 V c t.val t.isLt).2.1
    | ⟨12, _⟩ => (outsAt4 V c t.val t.isLt).2.2.1
  Φ t := PhiS V c t.val (Nat.le_of_lt_succ t.isLt)
  q _ := fullShare
  owed _ := 0

theorem A_eq (c : Dev nD) (w : Fin cfg4.W) : (dat V c).A w = V c (Pipeline.arrRef spec4 w) := by
  dsimp only [dat]

theorem PhiS_castSucc (c : Dev nD) (t : Fin cfg4.N) :
    (dat V c).Φ t.castSucc = PhiS V c t.val (Nat.le_of_lt t.isLt) := by
  dsimp only [dat]; simp only [Fin.coe_castSucc]

theorem after4_0 (c : Dev nD) (t : Fin cfg4.N) : (dat V c).after 0 t = iblk V c 0 t := by dsimp only [dat]
theorem after4_1 (c : Dev nD) (t : Fin cfg4.N) : (dat V c).after 1 t = iblk V c 1 t := by dsimp only [dat]
theorem after4_2 (c : Dev nD) (t : Fin cfg4.N) : (dat V c).after 2 t = iblk V c 2 t := by dsimp only [dat]
theorem after4_3 (c : Dev nD) (t : Fin cfg4.N) : (dat V c).after 3 t = iblk V c 3 t := by dsimp only [dat]
theorem after4_4 (c : Dev nD) (t : Fin cfg4.N) : (dat V c).after 4 t = iblk V c 4 t := by dsimp only [dat]
theorem after4_5 (c : Dev nD) (t : Fin cfg4.N) : (dat V c).after 5 t = iblk V c 5 t := by dsimp only [dat]
theorem after4_6 (c : Dev nD) (t : Fin cfg4.N) : (dat V c).after 6 t = iblk V c 6 t := by dsimp only [dat]
theorem after4_7 (c : Dev nD) (t : Fin cfg4.N) : (dat V c).after 7 t = iblk V c 7 t := by dsimp only [dat]
theorem after4_8 (c : Dev nD) (t : Fin cfg4.N) : (dat V c).after 8 t = iblk V c 8 t := by dsimp only [dat]
theorem after4_9 (c : Dev nD) (t : Fin cfg4.N) : (dat V c).after 9 t = iblk V c 9 t := by dsimp only [dat]
theorem after4_10 (c : Dev nD) (t : Fin cfg4.N) : (dat V c).after 10 t = (outsAt4 V c t.val t.isLt).1 := by dsimp only [dat]
theorem after4_11 (c : Dev nD) (t : Fin cfg4.N) : (dat V c).after 11 t = (outsAt4 V c t.val t.isLt).2.1 := by dsimp only [dat]
theorem after4_12 (c : Dev nD) (t : Fin cfg4.N) : (dat V c).after 12 t = (outsAt4 V c t.val t.isLt).2.2.1 := by dsimp only [dat]

theorem before4_0 (c : Dev nD) (t : Fin cfg4.N) (d) : (dat V c).before 0 t d = iblk V c 0 t :=
  before4_0_of V (dat V c) (A_eq V c 0) (after4_0 V c) t d
theorem before4_1 (c : Dev nD) (t : Fin cfg4.N) (d) : (dat V c).before 1 t d = iblk V c 1 t :=
  before4_1_of V (dat V c) (A_eq V c 1) (after4_1 V c) t d
theorem before4_2 (c : Dev nD) (t : Fin cfg4.N) (d) : (dat V c).before 2 t d = iblk V c 2 t :=
  before4_2_of V (dat V c) (A_eq V c 2) (after4_2 V c) t d
theorem before4_3 (c : Dev nD) (t : Fin cfg4.N) (d) : (dat V c).before 3 t d = iblk V c 3 t :=
  before4_3_of V (dat V c) (A_eq V c 3) (after4_3 V c) t d
theorem before4_4 (c : Dev nD) (t : Fin cfg4.N) (d) : (dat V c).before 4 t d = iblk V c 4 t :=
  before4_4_of V (dat V c) (A_eq V c 4) (after4_4 V c) t d
theorem before4_5 (c : Dev nD) (t : Fin cfg4.N) (d) : (dat V c).before 5 t d = iblk V c 5 t :=
  before4_5_of V (dat V c) (A_eq V c 5) (after4_5 V c) t d
theorem before4_6 (c : Dev nD) (t : Fin cfg4.N) (d) : (dat V c).before 6 t d = iblk V c 6 t :=
  before4_6_of V (dat V c) (A_eq V c 6) (after4_6 V c) t d
theorem before4_7 (c : Dev nD) (t : Fin cfg4.N) (d) : (dat V c).before 7 t d = iblk V c 7 t :=
  before4_7_of V (dat V c) (A_eq V c 7) (after4_7 V c) t d
theorem before4_8 (c : Dev nD) (t : Fin cfg4.N) (d) : (dat V c).before 8 t d = iblk V c 8 t :=
  before4_8_of V (dat V c) (A_eq V c 8) (after4_8 V c) t d
theorem before4_9 (c : Dev nD) (t : Fin cfg4.N) (d) : (dat V c).before 9 t d = iblk V c 9 t :=
  before4_9_of V (dat V c) (A_eq V c 9) (after4_9 V c) t d

end Cert.Kernel.Reg4

end
-- ==== Proof.BitsAsmVals.lean ====
/-
  The contents of the unscoped buffers between @main's items, from the launch memory onward: a host stretch applies
  its operations, a region leaves each of its windows' arrays at what its pipeline's last point left there and
  every other buffer untouched. No
  item changes an argument array: a host stretch writes none, a region stages some as input windows, whose arrays
  it never writes back.
-/
import proofs.«100906_j73718818669321_2_alg».proof.Proof.Gen.Kernel.Regions
import proofs.«100906_j73718818669321_2_alg».proof.Proof.BitsReg0Dat
import proofs.«100906_j73718818669321_2_alg».proof.Proof.BitsReg1Dat
import proofs.«100906_j73718818669321_2_alg».proof.Proof.BitsReg2Dat
import proofs.«100906_j73718818669321_2_alg».proof.Proof.BitsReg3Dat
import proofs.«100906_j73718818669321_2_alg».proof.Proof.BitsReg4Dat
import Idealize.ShloMosaic.Lib.Pipeline.FrameSuffix

noncomputable section

namespace Cert.Kernel.Asm

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]
variable (m : (ℓ : Loc nD τ sig) → Buf (Elt F) ℓ)

/-- A valuation read at the TensorCore's references. -/
abbrev atRefs (W : Dev nD → Valuation τ sig (Elt F)) : (c : Dev nD) → (b : Ref sig .tc) → Buf (Elt F) ((c : Thread nD τ).loc b) :=
  fun c b => W c b

/-- After the first host stretch. -/
abbrev W1 (c : Dev nD) : Valuation τ sig (Elt F) := StableHlo.after hostOps0 (V0 m c)

/-- After region 0: its windows' arrays at what the last point left, every other buffer as entered. -/
def W2 (c : Dev nD) : Valuation τ sig (Elt F) :=
  Pipeline.withArrays spec0 c (W1 m c) fun w => (Reg0.dat (atRefs (W1 m)) c).arrAt w cfg0.N
theorem W2_arr (c : Dev nD) (w : Fin cfg0.W) :
    W2 m c (Proc.devRef .tc (Pipeline.arrRef spec0 w)) = (Reg0.dat (atRefs (W1 m)) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- After the host stretch that follows region 0. -/
abbrev W3 (c : Dev nD) : Valuation τ sig (Elt F) := StableHlo.after hostOps1 (W2 m c)

/-- After region 1: its windows' arrays at what the last point left, every other buffer as entered. -/
def W4 (c : Dev nD) : Valuation τ sig (Elt F) :=
  Pipeline.withArrays spec1 c (W3 m c) fun w => (Reg1.dat (atRefs (W3 m)) c).arrAt w cfg1.N
theorem W4_arr (c : Dev nD) (w : Fin cfg1.W) :
    W4 m c (Proc.devRef .tc (Pipeline.arrRef spec1 w)) = (Reg1.dat (atRefs (W3 m)) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- After the host stretch that follows region 1. -/
abbrev W5 (c : Dev nD) : Valuation τ sig (Elt F) := StableHlo.after hostOps2 (W4 m c)

/-- After region 2: its windows' arrays at what the last point left, every other buffer as entered. -/
def W6 (c : Dev nD) : Valuation τ sig (Elt F) :=
  Pipeline.withArrays spec2 c (W5 m c) fun w => (Reg2.dat (atRefs (W5 m)) c).arrAt w cfg2.N
theorem W6_arr (c : Dev nD) (w : Fin cfg2.W) :
    W6 m c (Proc.devRef .tc (Pipeline.arrRef spec2 w)) = (Reg2.dat (atRefs (W5 m)) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- After the host stretch that follows region 2. -/
abbrev W7 (c : Dev nD) : Valuation τ sig (Elt F) := StableHlo.after hostOps3 (W6 m c)

/-- After region 3: its windows' arrays at what the last point left, every other buffer as entered. -/
def W8 (c : Dev nD) : Valuation τ sig (Elt F) :=
  Pipeline.withArrays spec3 c (W7 m c) fun w => (Reg3.dat (atRefs (W7 m)) c).arrAt w cfg3.N
theorem W8_arr (c : Dev nD) (w : Fin cfg3.W) :
    W8 m c (Proc.devRef .tc (Pipeline.arrRef spec3 w)) = (Reg3.dat (atRefs (W7 m)) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
/-- After the host stretch that follows region 3. -/
abbrev W9 (c : Dev nD) : Valuation τ sig (Elt F) := StableHlo.after hostOps4 (W8 m c)

/-- After region 4: its windows' arrays at what the last point left, every other buffer as entered. -/
def W10 (c : Dev nD) : Valuation τ sig (Elt F) :=
  Pipeline.withArrays spec4 c (W9 m c) fun w => (Reg4.dat (atRefs (W9 m)) c).arrAt w cfg4.N
theorem W10_arr (c : Dev nD) (w : Fin cfg4.W) :
    W10 m c (Proc.devRef .tc (Pipeline.arrRef spec4 w)) = (Reg4.dat (atRefs (W9 m)) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb

/-- The last valuation: the two closing host stretches applied to what region 4 left. -/
abbrev W12 (c : Dev nD) : Valuation τ sig (Elt F) := StableHlo.after hostOps5_1 (StableHlo.after hostOps5 (W10 m c))

/-- Every pipeline's proof data, each at its region's entry contents. -/
def pdats : (p : Fin 5) → (c : Dev nD) → Dat τ (Elt F) Unit ℕ (UR sig nD τ) ℕ (cfgs p) c
  | ⟨0, _⟩ => fun c => Reg0.dat (atRefs (W1 m)) c
  | ⟨1, _⟩ => fun c => Reg1.dat (atRefs (W3 m)) c
  | ⟨2, _⟩ => fun c => Reg2.dat (atRefs (W5 m)) c
  | ⟨3, _⟩ => fun c => Reg3.dat (atRefs (W7 m)) c
  | ⟨4, _⟩ => fun c => Reg4.dat (atRefs (W9 m)) c

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## No item changes an argument array -/

theorem W12_main_arg0 (c : Dev nD) : W12 m c (Proc.devRef .tc main_arg0) = m ((c : Thread nD τ).loc main_arg0) :=
  ((StableHlo.after_of_writes_sub hostOps5_1 (StableHlo.after hostOps5 (W10 m c)) hostOps5_1_writes (by decide : main_arg0 ∉ hostOps5_1_W)).trans ((StableHlo.after_of_writes_sub hostOps5 (W10 m c) hostOps5_writes (by decide : main_arg0 ∉ hostOps5_W)).trans ((W10_of_ne m c main_arg0 (by decide)).trans ((StableHlo.after_of_writes_sub hostOps4 (W8 m c) hostOps4_writes (by decide : main_arg0 ∉ hostOps4_W)).trans ((W8_of_ne m c main_arg0 (by decide)).trans ((StableHlo.after_of_writes_sub hostOps3 (W6 m c) hostOps3_writes (by decide : main_arg0 ∉ hostOps3_W)).trans ((W6_of_ne m c main_arg0 (by decide)).trans ((StableHlo.after_of_writes_sub hostOps2 (W4 m c) hostOps2_writes (by decide : main_arg0 ∉ hostOps2_W)).trans (((W4_arr m c 0).trans (((Reg1.dat (atRefs (W3 m)) c).arrAt_in 0 rfl _).trans rfl)).trans ((StableHlo.after_of_writes_sub hostOps1 (W2 m c) hostOps1_writes (by decide : main_arg0 ∉ hostOps1_W)).trans ((W2_of_ne m c main_arg0 (by decide)).trans (StableHlo.after_of_writes_sub hostOps0 (V0 m c) hostOps0_writes (by decide : main_arg0 ∉ hostOps0_W)))))))))))))

theorem W12_main_arg1 (c : Dev nD) : W12 m c (Proc.devRef .tc main_arg1) = m ((c : Thread nD τ).loc main_arg1) :=
  ((StableHlo.after_of_writes_sub hostOps5_1 (StableHlo.after hostOps5 (W10 m c)) hostOps5_1_writes (by decide : main_arg1 ∉ hostOps5_1_W)).trans ((StableHlo.after_of_writes_sub hostOps5 (W10 m c) hostOps5_writes (by decide : main_arg1 ∉ hostOps5_W)).trans ((W10_of_ne m c main_arg1 (by decide)).trans ((StableHlo.after_of_writes_sub hostOps4 (W8 m c) hostOps4_writes (by decide : main_arg1 ∉ hostOps4_W)).trans ((W8_of_ne m c main_arg1 (by decide)).trans ((StableHlo.after_of_writes_sub hostOps3 (W6 m c) hostOps3_writes (by decide : main_arg1 ∉ hostOps3_W)).trans ((W6_of_ne m c main_arg1 (by decide)).trans ((StableHlo.after_of_writes_sub hostOps2 (W4 m c) hostOps2_writes (by decide : main_arg1 ∉ hostOps2_W)).trans ((W4_of_ne m c main_arg1 (by decide)).trans ((StableHlo.after_of_writes_sub hostOps1 (W2 m c) hostOps1_writes (by decide : main_arg1 ∉ hostOps1_W)).trans (((W2_arr m c 0).trans (((Reg0.dat (atRefs (W1 m)) c).arrAt_in 0 rfl _).trans rfl)).trans (StableHlo.after_of_writes_sub hostOps0 (V0 m c) hostOps0_writes (by decide : main_arg1 ∉ hostOps0_W)))))))))))))

theorem W12_main_arg2 (c : Dev nD) : W12 m c (Proc.devRef .tc main_arg2) = m ((c : Thread nD τ).loc main_arg2) :=
  ((StableHlo.after_of_writes_sub hostOps5_1 (StableHlo.after hostOps5 (W10 m c)) hostOps5_1_writes (by decide : main_arg2 ∉ hostOps5_1_W)).trans ((StableHlo.after_of_writes_sub hostOps5 (W10 m c) hostOps5_writes (by decide : main_arg2 ∉ hostOps5_W)).trans ((W10_of_ne m c main_arg2 (by decide)).trans ((StableHlo.after_of_writes_sub hostOps4 (W8 m c) hostOps4_writes (by decide : main_arg2 ∉ hostOps4_W)).trans ((W8_of_ne m c main_arg2 (by decide)).trans ((StableHlo.after_of_writes_sub hostOps3 (W6 m c) hostOps3_writes (by decide : main_arg2 ∉ hostOps3_W)).trans ((W6_of_ne m c main_arg2 (by decide)).trans ((StableHlo.after_of_writes_sub hostOps2 (W4 m c) hostOps2_writes (by decide : main_arg2 ∉ hostOps2_W)).trans ((W4_of_ne m c main_arg2 (by decide)).trans ((StableHlo.after_of_writes_sub hostOps1 (W2 m c) hostOps1_writes (by decide : main_arg2 ∉ hostOps1_W)).trans ((W2_of_ne m c main_arg2 (by decide)).trans (StableHlo.after_of_writes_sub hostOps0 (V0 m c) hostOps0_writes (by decide : main_arg2 ∉ hostOps0_W)))))))))))))

theorem W12_main_arg3 (c : Dev nD) : W12 m c (Proc.devRef .tc main_arg3) = m ((c : Thread nD τ).loc main_arg3) :=
  ((StableHlo.after_of_writes_sub hostOps5_1 (StableHlo.after hostOps5 (W10 m c)) hostOps5_1_writes (by decide : main_arg3 ∉ hostOps5_1_W)).trans ((StableHlo.after_of_writes_sub hostOps5 (W10 m c) hostOps5_writes (by decide : main_arg3 ∉ hostOps5_W)).trans ((W10_of_ne m c main_arg3 (by decide)).trans ((StableHlo.after_of_writes_sub hostOps4 (W8 m c) hostOps4_writes (by decide : main_arg3 ∉ hostOps4_W)).trans ((W8_of_ne m c main_arg3 (by decide)).trans ((StableHlo.after_of_writes_sub hostOps3 (W6 m c) hostOps3_writes (by decide : main_arg3 ∉ hostOps3_W)).trans ((W6_of_ne m c main_arg3 (by decide)).trans ((StableHlo.after_of_writes_sub hostOps2 (W4 m c) hostOps2_writes (by decide : main_arg3 ∉ hostOps2_W)).trans ((W4_of_ne m c main_arg3 (by decide)).trans ((StableHlo.after_of_writes_sub hostOps1 (W2 m c) hostOps1_writes (by decide : main_arg3 ∉ hostOps1_W)).trans ((W2_of_ne m c main_arg3 (by decide)).trans (StableHlo.after_of_writes_sub hostOps0 (V0 m c) hostOps0_writes (by decide : main_arg3 ∉ hostOps0_W)))))))))))))

theorem W12_main_arg4 (c : Dev nD) : W12 m c (Proc.devRef .tc main_arg4) = m ((c : Thread nD τ).loc main_arg4) :=
  ((StableHlo.after_of_writes_sub hostOps5_1 (StableHlo.after hostOps5 (W10 m c)) hostOps5_1_writes (by decide : main_arg4 ∉ hostOps5_1_W)).trans ((StableHlo.after_of_writes_sub hostOps5 (W10 m c) hostOps5_writes (by decide : main_arg4 ∉ hostOps5_W)).trans ((W10_of_ne m c main_arg4 (by decide)).trans ((StableHlo.after_of_writes_sub hostOps4 (W8 m c) hostOps4_writes (by decide : main_arg4 ∉ hostOps4_W)).trans ((W8_of_ne m c main_arg4 (by decide)).trans ((StableHlo.after_of_writes_sub hostOps3 (W6 m c) hostOps3_writes (by decide : main_arg4 ∉ hostOps3_W)).trans ((W6_of_ne m c main_arg4 (by decide)).trans ((StableHlo.after_of_writes_sub hostOps2 (W4 m c) hostOps2_writes (by decide : main_arg4 ∉ hostOps2_W)).trans ((W4_of_ne m c main_arg4 (by decide)).trans ((StableHlo.after_of_writes_sub hostOps1 (W2 m c) hostOps1_writes (by decide : main_arg4 ∉ hostOps1_W)).trans ((W2_of_ne m c main_arg4 (by decide)).trans (StableHlo.after_of_writes_sub hostOps0 (V0 m c) hostOps0_writes (by decide : main_arg4 ∉ hostOps0_W)))))))))))))

theorem W12_main_arg5 (c : Dev nD) : W12 m c (Proc.devRef .tc main_arg5) = m ((c : Thread nD τ).loc main_arg5) :=
  ((StableHlo.after_of_writes_sub hostOps5_1 (StableHlo.after hostOps5 (W10 m c)) hostOps5_1_writes (by decide : main_arg5 ∉ hostOps5_1_W)).trans ((StableHlo.after_of_writes_sub hostOps5 (W10 m c) hostOps5_writes (by decide : main_arg5 ∉ hostOps5_W)).trans ((W10_of_ne m c main_arg5 (by decide)).trans ((StableHlo.after_of_writes_sub hostOps4 (W8 m c) hostOps4_writes (by decide : main_arg5 ∉ hostOps4_W)).trans ((W8_of_ne m c main_arg5 (by decide)).trans ((StableHlo.after_of_writes_sub hostOps3 (W6 m c) hostOps3_writes (by decide : main_arg5 ∉ hostOps3_W)).trans ((W6_of_ne m c main_arg5 (by decide)).trans ((StableHlo.after_of_writes_sub hostOps2 (W4 m c) hostOps2_writes (by decide : main_arg5 ∉ hostOps2_W)).trans ((W4_of_ne m c main_arg5 (by decide)).trans ((StableHlo.after_of_writes_sub hostOps1 (W2 m c) hostOps1_writes (by decide : main_arg5 ∉ hostOps1_W)).trans ((W2_of_ne m c main_arg5 (by decide)).trans (StableHlo.after_of_writes_sub hostOps0 (V0 m c) hostOps0_writes (by decide : main_arg5 ∉ hostOps0_W)))))))))))))

theorem W12_main_arg6 (c : Dev nD) : W12 m c (Proc.devRef .tc main_arg6) = m ((c : Thread nD τ).loc main_arg6) :=
  ((StableHlo.after_of_writes_sub hostOps5_1 (StableHlo.after hostOps5 (W10 m c)) hostOps5_1_writes (by decide : main_arg6 ∉ hostOps5_1_W)).trans ((StableHlo.after_of_writes_sub hostOps5 (W10 m c) hostOps5_writes (by decide : main_arg6 ∉ hostOps5_W)).trans ((W10_of_ne m c main_arg6 (by decide)).trans ((StableHlo.after_of_writes_sub hostOps4 (W8 m c) hostOps4_writes (by decide : main_arg6 ∉ hostOps4_W)).trans ((W8_of_ne m c main_arg6 (by decide)).trans ((StableHlo.after_of_writes_sub hostOps3 (W6 m c) hostOps3_writes (by decide : main_arg6 ∉ hostOps3_W)).trans ((W6_of_ne m c main_arg6 (by decide)).trans ((StableHlo.after_of_writes_sub hostOps2 (W4 m c) hostOps2_writes (by decide : main_arg6 ∉ hostOps2_W)).trans ((W4_of_ne m c main_arg6 (by decide)).trans ((StableHlo.after_of_writes_sub hostOps1 (W2 m c) hostOps1_writes (by decide : main_arg6 ∉ hostOps1_W)).trans ((W2_of_ne m c main_arg6 (by decide)).trans (StableHlo.after_of_writes_sub hostOps0 (V0 m c) hostOps0_writes (by decide : main_arg6 ∉ hostOps0_W)))))))))))))

theorem W12_main_arg7 (c : Dev nD) : W12 m c (Proc.devRef .tc main_arg7) = m ((c : Thread nD τ).loc main_arg7) :=
  ((StableHlo.after_of_writes_sub hostOps5_1 (StableHlo.after hostOps5 (W10 m c)) hostOps5_1_writes (by decide : main_arg7 ∉ hostOps5_1_W)).trans ((StableHlo.after_of_writes_sub hostOps5 (W10 m c) hostOps5_writes (by decide : main_arg7 ∉ hostOps5_W)).trans ((W10_of_ne m c main_arg7 (by decide)).trans ((StableHlo.after_of_writes_sub hostOps4 (W8 m c) hostOps4_writes (by decide : main_arg7 ∉ hostOps4_W)).trans ((W8_of_ne m c main_arg7 (by decide)).trans ((StableHlo.after_of_writes_sub hostOps3 (W6 m c) hostOps3_writes (by decide : main_arg7 ∉ hostOps3_W)).trans ((W6_of_ne m c main_arg7 (by decide)).trans ((StableHlo.after_of_writes_sub hostOps2 (W4 m c) hostOps2_writes (by decide : main_arg7 ∉ hostOps2_W)).trans ((W4_of_ne m c main_arg7 (by decide)).trans ((StableHlo.after_of_writes_sub hostOps1 (W2 m c) hostOps1_writes (by decide : main_arg7 ∉ hostOps1_W)).trans ((W2_of_ne m c main_arg7 (by decide)).trans (StableHlo.after_of_writes_sub hostOps0 (V0 m c) hostOps0_writes (by decide : main_arg7 ∉ hostOps0_W)))))))))))))

theorem W12_main_arg8 (c : Dev nD) : W12 m c (Proc.devRef .tc main_arg8) = m ((c : Thread nD τ).loc main_arg8) :=
  ((StableHlo.after_of_writes_sub hostOps5_1 (StableHlo.after hostOps5 (W10 m c)) hostOps5_1_writes (by decide : main_arg8 ∉ hostOps5_1_W)).trans ((StableHlo.after_of_writes_sub hostOps5 (W10 m c) hostOps5_writes (by decide : main_arg8 ∉ hostOps5_W)).trans ((W10_of_ne m c main_arg8 (by decide)).trans ((StableHlo.after_of_writes_sub hostOps4 (W8 m c) hostOps4_writes (by decide : main_arg8 ∉ hostOps4_W)).trans ((W8_of_ne m c main_arg8 (by decide)).trans ((StableHlo.after_of_writes_sub hostOps3 (W6 m c) hostOps3_writes (by decide : main_arg8 ∉ hostOps3_W)).trans ((W6_of_ne m c main_arg8 (by decide)).trans ((StableHlo.after_of_writes_sub hostOps2 (W4 m c) hostOps2_writes (by decide : main_arg8 ∉ hostOps2_W)).trans ((W4_of_ne m c main_arg8 (by decide)).trans ((StableHlo.after_of_writes_sub hostOps1 (W2 m c) hostOps1_writes (by decide : main_arg8 ∉ hostOps1_W)).trans ((W2_of_ne m c main_arg8 (by decide)).trans (StableHlo.after_of_writes_sub hostOps0 (V0 m c) hostOps0_writes (by decide : main_arg8 ∉ hostOps0_W)))))))))))))

theorem W12_main_arg9 (c : Dev nD) : W12 m c (Proc.devRef .tc main_arg9) = m ((c : Thread nD τ).loc main_arg9) :=
  ((StableHlo.after_of_writes_sub hostOps5_1 (StableHlo.after hostOps5 (W10 m c)) hostOps5_1_writes (by decide : main_arg9 ∉ hostOps5_1_W)).trans ((StableHlo.after_of_writes_sub hostOps5 (W10 m c) hostOps5_writes (by decide : main_arg9 ∉ hostOps5_W)).trans ((W10_of_ne m c main_arg9 (by decide)).trans ((StableHlo.after_of_writes_sub hostOps4 (W8 m c) hostOps4_writes (by decide : main_arg9 ∉ hostOps4_W)).trans ((W8_of_ne m c main_arg9 (by decide)).trans ((StableHlo.after_of_writes_sub hostOps3 (W6 m c) hostOps3_writes (by decide : main_arg9 ∉ hostOps3_W)).trans ((W6_of_ne m c main_arg9 (by decide)).trans ((StableHlo.after_of_writes_sub hostOps2 (W4 m c) hostOps2_writes (by decide : main_arg9 ∉ hostOps2_W)).trans ((W4_of_ne m c main_arg9 (by decide)).trans ((StableHlo.after_of_writes_sub hostOps1 (W2 m c) hostOps1_writes (by decide : main_arg9 ∉ hostOps1_W)).trans ((W2_of_ne m c main_arg9 (by decide)).trans (StableHlo.after_of_writes_sub hostOps0 (V0 m c) hostOps0_writes (by decide : main_arg9 ∉ hostOps0_W)))))))))))))

theorem W12_main_arg10 (c : Dev nD) : W12 m c (Proc.devRef .tc main_arg10) = m ((c : Thread nD τ).loc main_arg10) :=
  ((StableHlo.after_of_writes_sub hostOps5_1 (StableHlo.after hostOps5 (W10 m c)) hostOps5_1_writes (by decide : main_arg10 ∉ hostOps5_1_W)).trans ((StableHlo.after_of_writes_sub hostOps5 (W10 m c) hostOps5_writes (by decide : main_arg10 ∉ hostOps5_W)).trans ((W10_of_ne m c main_arg10 (by decide)).trans ((StableHlo.after_of_writes_sub hostOps4 (W8 m c) hostOps4_writes (by decide : main_arg10 ∉ hostOps4_W)).trans ((W8_of_ne m c main_arg10 (by decide)).trans ((StableHlo.after_of_writes_sub hostOps3 (W6 m c) hostOps3_writes (by decide : main_arg10 ∉ hostOps3_W)).trans ((W6_of_ne m c main_arg10 (by decide)).trans ((StableHlo.after_of_writes_sub hostOps2 (W4 m c) hostOps2_writes (by decide : main_arg10 ∉ hostOps2_W)).trans ((W4_of_ne m c main_arg10 (by decide)).trans ((StableHlo.after_of_writes_sub hostOps1 (W2 m c) hostOps1_writes (by decide : main_arg10 ∉ hostOps1_W)).trans ((W2_of_ne m c main_arg10 (by decide)).trans (StableHlo.after_of_writes_sub hostOps0 (V0 m c) hostOps0_writes (by decide : main_arg10 ∉ hostOps0_W)))))))))))))

end Cert.Kernel.Asm

end
-- ==== Proof.BitsReg0Body.lean ====
/-
  The aggregation region: the body's triple and the obligation the launch asks for.

  The body reads its three input blocks whole, reads (and ignores) the output block, and overwrites the output block
  whole with the payload. So from the inputs' buffers at their blocks and the output's at anything it runs to the
  inputs' buffers unchanged and the output's at the payload of the three blocks; the invariant (the scoped rest) and
  what the core owes are not touched. An input window's buffer holds its block at every point, fetched there or not:
  the two parts of the edge transform are fetched once and their block index never moves.
-/
import proofs.«100906_j73718818669321_2_alg».proof.Proof.BitsReg0Dat
import Idealize.ShloMosaic.Lib.Pipeline.Value

set_option maxRecDepth 16384

noncomputable section

namespace Cert.Kernel.Reg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz : (![0, 0] : Fin 2 → Nat) = fun _ => 0 := funext fun a => by fin_cases a <;> rfl

/-- The one store is of the whole block, so it covers the block. -/
theorem cover_out (p0 : Vec F S256x256 .f32) (y : S256x256.Idx) :
    ∃ pc ∈ ([⟨rOut, p0⟩] : List (View.Piece (Elt F) S256x256 .f32)), y ∈ pc.1.set :=
  ⟨_, List.mem_singleton.2 rfl, View.mem_set_unit_zero hz inb_S256x256_S256x256_0_0 y⟩

/-! ## An input window's buffer holds its block at every point -/

theorem before_0 (c : Dev nD) (t : Fin cfg0.N) (d) : (dat V c).before 0 t d = iblk V c 0 t :=
  ((dat V c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)

theorem before_1 (c : Dev nD) (t : Fin cfg0.N) (d) : (dat V c).before 1 t d = iblk V c 1 t :=
  ((dat V c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)

theorem before_2 (c : Dev nD) (t : Fin cfg0.N) (d) : (dat V c).before 2 t d = iblk V c 2 t :=
  ((dat V c).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)

/-! ## The body's triple -/

set_option maxHeartbeats 1000000 in
theorem sound_kernel (c : Dev nD) (E : Set ℕ) (i : grid0.Coords)
    (arg1 : Memref sig .tc .vmem S256x8192 .f32) (harg1 : arg1.IsWhole)
    (arg2 : Memref sig .tc .vmem S8192x256 .bf16) (harg2 : arg2.IsWhole)
    (arg3 : Memref sig .tc .vmem S8192x256 .bf16) (harg3 : arg3.IsWhole)
    (arg4 : Memref sig .tc .vmem S256x256 .f32) (harg4 : arg4.IsWhole)
    (x0 : Vec F S256x8192 .f32) (x1 x2 : Vec F S8192x256 .bf16) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (outBlk x0 x1 x2)) -∗ K ⟨⟩))
      ⊢ wp frame (wpE (defs₀ (F := F)) Variants.none c none) E (cc0__agg_kernel i arg1 harg1 arg2 harg2 arg3 harg3 arg4 harg4) K := by
  simp only [cc0__agg_kernel_eq_skeleton]; unfold cc0__agg_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

/-! ## The body obligation, at a generic point -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W0, bigSep_W0]
  exact sound_body V c t

/-- The invariant before the first point and after the last is the untouched scoped rest. -/
theorem hin (c : Dev nD) : Pipeline.ΦA spec0 c ⊢ (dat V c).Φ 0 := .rfl
theorem hout (c : Dev nD) : (dat V c).Φ (Fin.last cfg0.N) ⊢ Pipeline.ΦA spec0 c := .rfl

end Cert.Kernel.Reg0

end
-- ==== Proof.BitsReg1Body.lean ====
/-
  Region 1: the body obligation. At every grid point the body, called on the point's staging buffers (the inputs
  at their blocks) and the scratch rows as the point before left them, leaves window 8's buffer, the scratch rows
  and - at the last point - windows 9 and 10 at what the proof data names, and everything else as it found it.
-/
import proofs.«100906_j73718818669321_2_alg».proof.Proof.BitsReg1Dat

set_option maxRecDepth 16384

noncomputable section

namespace Cert.Kernel.Reg1

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (ms1_0 t) fullShare ((dat V c).before 0 t d))
    ∗ (∃ d, owns (c : Thread nD τ) (ms1_1 t) fullShare ((dat V c).before 1 t d))
    ∗ (∃ d, owns (c : Thread nD τ) (ms1_2 t) fullShare ((dat V c).before 2 t d))
    ∗ (∃ d, owns (c : Thread nD τ) (ms1_3 t) fullShare ((dat V c).before 3 t d))
    ∗ (∃ d, owns (c : Thread nD τ) (ms1_4 t) fullShare ((dat V c).before 4 t d))
    ∗ (∃ d, owns (c : Thread nD τ) (ms1_5 t) fullShare ((dat V c).before 5 t d))
    ∗ (∃ d, owns (c : Thread nD τ) (ms1_6 t) fullShare ((dat V c).before 6 t d))
    ∗ (∃ d, owns (c : Thread nD τ) (ms1_7 t) fullShare ((dat V c).before 7 t d))
    ∗ (∃ d, owns (c : Thread nD τ) (ms1_8 t) fullShare ((dat V c).before 8 t d))
    ∗ (∃ d, owns (c : Thread nD τ) (ms1_9 t) fullShare ((dat V c).before 9 t d))
    ∗ (∃ d, owns (c : Thread nD τ) (ms1_10 t) fullShare ((dat V c).before 10 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t
    ∗ (dat V c).leavesExact 10 t)

set_option maxHeartbeats 4800000 in
/-- The first point. -/
theorem sound_body_A (c : Dev nD) (t : Fin cfg1.N) (h0 : t.val % 4 = 0) :
    bodyPre V c t ⊢ wp frame (wpE (defs₀ (F := F)) Variants.none c none) Set.univ (bodyAt1 t) (fun _ => bodyPost V c t) := by
  unfold bodyPre bodyPost bodyAt1
  simp only [before1_0, before1_1, before1_2, before1_3, before1_4, before1_5, before1_6, before1_7]
  rw [show (dat V c).owesAt () t.succ = (dat V c).owesAt () t.castSucc from rfl]
  rw [show (dat V c).Φ t.succ = PhiS V c (t.val + 1) t.isLt from rfl, PhiS_succ]
  have hN : t.val < 4 := lt_of_lt_of_eq t.isLt (show cfg1.N = 4 from N_1)
  have hz : t.val = 0 := by omega
  have hc2 : ¬cond1_2 (grid1.coords t) := fun h => by have h3 := (hcond1_2 t).mp h; omega
  rw [show (dat V c).leavesExact 0 t = owns (c : Thread nD τ) (ms1_0 t) fullShare ((dat V c).after 0 t) from by
    unfold Dat.leavesExact; rw [liveAt1 0 (by decide) t], after1_0]
  rw [show (dat V c).leavesExact 1 t = owns (c : Thread nD τ) (ms1_1 t) fullShare ((dat V c).after 1 t) from by
    unfold Dat.leavesExact; rw [liveAt1 1 (by decide) t], after1_1]
  rw [show (dat V c).leavesExact 2 t = owns (c : Thread nD τ) (ms1_2 t) fullShare ((dat V c).after 2 t) from by
    unfold Dat.leavesExact; rw [liveAt1 2 (by decide) t], after1_2]
  rw [show (dat V c).leavesExact 3 t = owns (c : Thread nD τ) (ms1_3 t) fullShare ((dat V c).after 3 t) from by
    unfold Dat.leavesExact; rw [liveAt1 3 (by decide) t], after1_3]
  rw [show (dat V c).leavesExact 4 t = owns (c : Thread nD τ) (ms1_4 t) fullShare ((dat V c).after 4 t) from by
    unfold Dat.leavesExact; rw [liveAt1 4 (by decide) t], after1_4]
  rw [show (dat V c).leavesExact 5 t = owns (c : Thread nD τ) (ms1_5 t) fullShare ((dat V c).after 5 t) from by
    unfold Dat.leavesExact; rw [liveAt1 5 (by decide) t], after1_5]
  rw [show (dat V c).leavesExact 6 t = owns (c : Thread nD τ) (ms1_6 t) fullShare ((dat V c).after 6 t) from by
    unfold Dat.leavesExact; rw [liveAt1 6 (by decide) t], after1_6]
  rw [show (dat V c).leavesExact 7 t = owns (c : Thread nD τ) (ms1_7 t) fullShare ((dat V c).after 7 t) from by
    unfold Dat.leavesExact; rw [liveAt1 7 (by decide) t], after1_7]
  rw [show (dat V c).leavesExact 8 t = owns (c : Thread nD τ) (ms1_8 t) fullShare ((dat V c).after 8 t) from by
    unfold Dat.leavesExact; rw [liveAt1 8 (by decide) t], after1_8]
  rw [Dat.leavesExact_idle (dat V c) 9 t (idleAt1_9 t hc2) (noFlush1_9 t hc2)]
  rw [Dat.leavesExact_idle (dat V c) 10 t (idleAt1_10 t hc2) (noFlush1_10 t hc2)]
  rw [outsAt1_A V c t h0]
  unfold leftA; (try dsimp only)
  rw [PhiS_castSucc V c t, PhiS_zero V c _ _ hz, PhiA1_eq]
  iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((runA V c t h0).2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [H10]; · iexact H10
  isplitl [HS0]; · iexact HS0
  isplitl [HS1]; · iexact HS1
  iintro ⟨H0, H1, H2, H3, H4, H5, H6, H7, ⟨%e8, H8⟩, H9, H10, ⟨%es0, HS0⟩, ⟨%es1, HS1⟩⟩
  isplitl [HS0 HS1 Hrest Hg]
  · isplitl [HS0 HS1 Hrest]
    · isplitl [HS0 HS1]
      · isplitl [HS0]
        · unfold owns; iexists _; isplitr
          swap; · iexact HS0
          ipureintro; exact View.read_writes_of_cover _ _ _ _ _ (coverA_s0 V c t h0)
        · unfold owns; iexists _; isplitr
          swap; · iexact HS1
          ipureintro; exact View.read_writes_of_cover _ _ _ _ _ (coverA_s1 V c t h0)
      · iexact Hrest
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (coverA_8 V c t h0)
  isplitl [H9]; · iexists _; iexact H9
  iexists _; iexact H10

set_option maxHeartbeats 4800000 in
/-- A middle point. -/
theorem sound_body_B (c : Dev nD) (t : Fin cfg1.N) (h0 : ¬t.val % 4 = 0) (h3 : ¬t.val % 4 = 3) :
    bodyPre V c t ⊢ wp frame (wpE (defs₀ (F := F)) Variants.none c none) Set.univ (bodyAt1 t) (fun _ => bodyPost V c t) := by
  unfold bodyPre bodyPost bodyAt1
  simp only [before1_0, before1_1, before1_2, before1_3, before1_4, before1_5, before1_6, before1_7]
  rw [show (dat V c).owesAt () t.succ = (dat V c).owesAt () t.castSucc from rfl]
  rw [show (dat V c).Φ t.succ = PhiS V c (t.val + 1) t.isLt from rfl, PhiS_succ]
  have hN : t.val < 4 := lt_of_lt_of_eq t.isLt (show cfg1.N = 4 from N_1)
  have hz : t.val ≠ 0 := by omega
  have hc2 : ¬cond1_2 (grid1.coords t) := fun h => h3 ((hcond1_2 t).mp h)
  rw [show (dat V c).leavesExact 0 t = owns (c : Thread nD τ) (ms1_0 t) fullShare ((dat V c).after 0 t) from by
    unfold Dat.leavesExact; rw [liveAt1 0 (by decide) t], after1_0]
  rw [show (dat V c).leavesExact 1 t = owns (c : Thread nD τ) (ms1_1 t) fullShare ((dat V c).after 1 t) from by
    unfold Dat.leavesExact; rw [liveAt1 1 (by decide) t], after1_1]
  rw [show (dat V c).leavesExact 2 t = owns (c : Thread nD τ) (ms1_2 t) fullShare ((dat V c).after 2 t) from by
    unfold Dat.leavesExact; rw [liveAt1 2 (by decide) t], after1_2]
  rw [show (dat V c).leavesExact 3 t = owns (c : Thread nD τ) (ms1_3 t) fullShare ((dat V c).after 3 t) from by
    unfold Dat.leavesExact; rw [liveAt1 3 (by decide) t], after1_3]
  rw [show (dat V c).leavesExact 4 t = owns (c : Thread nD τ) (ms1_4 t) fullShare ((dat V c).after 4 t) from by
    unfold Dat.leavesExact; rw [liveAt1 4 (by decide) t], after1_4]
  rw [show (dat V c).leavesExact 5 t = owns (c : Thread nD τ) (ms1_5 t) fullShare ((dat V c).after 5 t) from by
    unfold Dat.leavesExact; rw [liveAt1 5 (by decide) t], after1_5]
  rw [show (dat V c).leavesExact 6 t = owns (c : Thread nD τ) (ms1_6 t) fullShare ((dat V c).after 6 t) from by
    unfold Dat.leavesExact; rw [liveAt1 6 (by decide) t], after1_6]
  rw [show (dat V c).leavesExact 7 t = owns (c : Thread nD τ) (ms1_7 t) fullShare ((dat V c).after 7 t) from by
    unfold Dat.leavesExact; rw [liveAt1 7 (by decide) t], after1_7]
  rw [show (dat V c).leavesExact 8 t = owns (c : Thread nD τ) (ms1_8 t) fullShare ((dat V c).after 8 t) from by
    unfold Dat.leavesExact; rw [liveAt1 8 (by decide) t], after1_8]
  rw [Dat.leavesExact_idle (dat V c) 9 t (idleAt1_9 t hc2) (noFlush1_9 t hc2)]
  rw [Dat.leavesExact_idle (dat V c) 10 t (idleAt1_10 t hc2) (noFlush1_10 t hc2)]
  rw [outsAt1_B V c t h0 h3]
  unfold leftB; (try dsimp only)
  rw [PhiS_castSucc V c t, PhiS_pos V c _ _ hz]
  iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((runB V c t h0 h3 _ _).2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [H10]; · iexact H10
  isplitl [HS0]; · iexact HS0
  isplitl [HS1]; · iexact HS1
  iintro ⟨H0, H1, H2, H3, H4, H5, H6, H7, ⟨%e8, H8⟩, H9, H10, ⟨%es0, HS0⟩, ⟨%es1, HS1⟩⟩
  isplitl [HS0 HS1 Hrest Hg]
  · isplitl [HS0 HS1 Hrest]
    · isplitl [HS0 HS1]
      · isplitl [HS0]
        · unfold owns; iexists _; isplitr
          swap; · iexact HS0
          ipureintro; exact View.read_writes_of_cover _ _ _ _ _ (coverB_s0 V c t h0 h3 _ _)
        · unfold owns; iexists _; isplitr
          swap; · iexact HS1
          ipureintro; exact View.read_writes_of_cover _ _ _ _ _ (coverB_s1 V c t h0 h3 _ _)
      · iexact Hrest
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (coverB_8 V c t h0 h3 _ _)
  isplitl [H9]; · iexists _; iexact H9
  iexists _; iexact H10

set_option maxHeartbeats 4800000 in
/-- The last point. -/
theorem sound_body_C (c : Dev nD) (t : Fin cfg1.N) (h3 : t.val % 4 = 3) :
    bodyPre V c t ⊢ wp frame (wpE (defs₀ (F := F)) Variants.none c none) Set.univ (bodyAt1 t) (fun _ => bodyPost V c t) := by
  unfold bodyPre bodyPost bodyAt1
  simp only [before1_0, before1_1, before1_2, before1_3, before1_4, before1_5, before1_6, before1_7]
  rw [show (dat V c).owesAt () t.succ = (dat V c).owesAt () t.castSucc from rfl]
  rw [show (dat V c).Φ t.succ = PhiS V c (t.val + 1) t.isLt from rfl, PhiS_succ]
  have hN : t.val < 4 := lt_of_lt_of_eq t.isLt (show cfg1.N = 4 from N_1)
  have hz : t.val ≠ 0 := by omega
  have hc2 : cond1_2 (grid1.coords t) := (hcond1_2 t).mpr h3
  rw [show (dat V c).leavesExact 0 t = owns (c : Thread nD τ) (ms1_0 t) fullShare ((dat V c).after 0 t) from by
    unfold Dat.leavesExact; rw [liveAt1 0 (by decide) t], after1_0]
  rw [show (dat V c).leavesExact 1 t = owns (c : Thread nD τ) (ms1_1 t) fullShare ((dat V c).after 1 t) from by
    unfold Dat.leavesExact; rw [liveAt1 1 (by decide) t], after1_1]
  rw [show (dat V c).leavesExact 2 t = owns (c : Thread nD τ) (ms1_2 t) fullShare ((dat V c).after 2 t) from by
    unfold Dat.leavesExact; rw [liveAt1 2 (by decide) t], after1_2]
  rw [show (dat V c).leavesExact 3 t = owns (c : Thread nD τ) (ms1_3 t) fullShare ((dat V c).after 3 t) from by
    unfold Dat.leavesExact; rw [liveAt1 3 (by decide) t], after1_3]
  rw [show (dat V c).leavesExact 4 t = owns (c : Thread nD τ) (ms1_4 t) fullShare ((dat V c).after 4 t) from by
    unfold Dat.leavesExact; rw [liveAt1 4 (by decide) t], after1_4]
  rw [show (dat V c).leavesExact 5 t = owns (c : Thread nD τ) (ms1_5 t) fullShare ((dat V c).after 5 t) from by
    unfold Dat.leavesExact; rw [liveAt1 5 (by decide) t], after1_5]
  rw [show (dat V c).leavesExact 6 t = owns (c : Thread nD τ) (ms1_6 t) fullShare ((dat V c).after 6 t) from by
    unfold Dat.leavesExact; rw [liveAt1 6 (by decide) t], after1_6]
  rw [show (dat V c).leavesExact 7 t = owns (c : Thread nD τ) (ms1_7 t) fullShare ((dat V c).after 7 t) from by
    unfold Dat.leavesExact; rw [liveAt1 7 (by decide) t], after1_7]
  rw [show (dat V c).leavesExact 8 t = owns (c : Thread nD τ) (ms1_8 t) fullShare ((dat V c).after 8 t) from by
    unfold Dat.leavesExact; rw [liveAt1 8 (by decide) t], after1_8]
  rw [show (dat V c).leavesExact 9 t = owns (c : Thread nD τ) (ms1_9 t) fullShare ((dat V c).after 9 t) from by
    unfold Dat.leavesExact; rw [liveAt1_9 t hc2], after1_9]
  rw [show (dat V c).leavesExact 10 t = owns (c : Thread nD τ) (ms1_10 t) fullShare ((dat V c).after 10 t) from by
    unfold Dat.leavesExact; rw [liveAt1_10 t hc2], after1_10]
  rw [outsAt1_C V c t h3]
  unfold leftC; (try dsimp only)
  rw [PhiS_castSucc V c t, PhiS_pos V c _ _ hz]
  iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((runC V c t h3 _ _).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [HS0]; · iexact HS0
  isplitl [HS1]; · iexact HS1
  iintro ⟨H0, H1, H2, H3, H4, H5, H6, H7, ⟨%e8, H8⟩, ⟨%e9, H9⟩, ⟨%e10, H10⟩, ⟨%es0, HS0⟩, ⟨%es1, HS1⟩⟩
  isplitl [HS0 HS1 Hrest Hg]
  · isplitl [HS0 HS1 Hrest]
    · isplitl [HS0 HS1]
      · isplitl [HS0]
        · unfold owns; iexists _; isplitr
          swap; · iexact HS0
          ipureintro; exact View.read_writes_of_cover _ _ _ _ _ (coverC_s0 V c t h3 _ _)
        · unfold owns; iexists _; isplitr
          swap; · iexact HS1
          ipureintro; exact View.read_writes_of_cover _ _ _ _ _ (coverC_s1 V c t h3 _ _)
      · iexact Hrest
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (coverC_8 V c t h3 _ _)
  isplitl [H9]
  · unfold owns; iexists _; isplitr
    swap; · iexact H9
    ipureintro; exact View.read_writes_of_cover _ _ _ _ _ (coverC_9 V c t h3 _ _)
  unfold owns; iexists _; isplitr
  swap; · iexact H10
  ipureintro; exact View.read_writes_of_cover _ _ _ _ _ (coverC_10 V c t h3 _ _)

/-- The body at any point. -/
theorem sound_body (c : Dev nD) (t : Fin cfg1.N) :
    bodyPre V c t ⊢ wp frame (wpE (defs₀ (F := F)) Variants.none c none) Set.univ (bodyAt1 t) (fun _ => bodyPost V c t) := by
  by_cases h0 : t.val % 4 = 0
  · exact sound_body_A V c t h0
  · by_cases h3 : t.val % 4 = 3
    · exact sound_body_C V c t h3
    · exact sound_body_B V c t h0 h3

/-- The body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point the invariant gives the class invariant back: the scratch rows' named contents are forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA1_eq]
  iintro ⟨⟨⟨HS0, HS1⟩, Hrest⟩, Hg⟩
  isplitl [HS0 HS1 Hrest]
  · isplitl [HS0 HS1]
    · isplitl [HS0]
      · iexists _; iexact HS0
      · iexists _; iexact HS1
    · iexact Hrest
  iexact Hg

/-- The same after the last point. -/
theorem hout (c : Dev nD) : (dat V c).Φ (Fin.last cfg1.N) ⊢ Pipeline.ΦA spec1 c :=
  Phi_out V c _ (by rw [Fin.val_last]; have : cfg1.N = 4 := N_1; omega)

end Cert.Kernel.Reg1

end
-- ==== Proof.BitsReg2Runs.lean ====
/-
  The second head's kernel body: its three control cases and what they compute.

  The body branches on the grid coordinate alone: at the first point it initialises the carried minimum and
  maximum, at every later point it combines them with the block's own, and at the last point it copies them out.
-/
import proofs.«100906_j73718818669321_2_alg».proof.Proof.Gen.Kernel.Launch
import proofs.«100906_j73718818669321_2_alg».proof.Proof.Gen.Kernel.Skeleton
import proofs.«100906_j73718818669321_2_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.Reg2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel.Gen

variable {F : FTy → Type} [FloatOps F]

/-- The rows before normalisation, from the ten input blocks (in window order: the previous head's rows, the
    aggregate block, the six weight arrays, the previous column minimum and maximum). -/
def preOf (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) : Vec F S8192x128 .f32 :=
  k2_pay15 (k2_pay4 x1) (k2_pay6 x3) (k2_pay7 x4) (k2_pay8 x5) (k2_pay9 x6) (k2_pay10 x7) (k2_pay11 x0 x8 x9) (k2_pay12 x0 x8 x9) (k2_pay13 x2) (k2_pay14 x2)
/-- Their column minimum, as the first point stores it. -/
def minInitOf (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) : Vec F S1x128 .f32 :=
  k2_pay16 (k2_pay4 x1) (k2_pay6 x3) (k2_pay7 x4) (k2_pay8 x5) (k2_pay9 x6) (k2_pay10 x7) (k2_pay11 x0 x8 x9) (k2_pay12 x0 x8 x9) (k2_pay13 x2) (k2_pay14 x2)
/-- Their column maximum, as the first point stores it. -/
def maxInitOf (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) : Vec F S1x128 .f32 :=
  k2_pay17 (k2_pay4 x1) (k2_pay6 x3) (k2_pay7 x4) (k2_pay8 x5) (k2_pay9 x6) (k2_pay10 x7) (k2_pay11 x0 x8 x9) (k2_pay12 x0 x8 x9) (k2_pay13 x2) (k2_pay14 x2)

/-- The first branch is taken exactly when the grid coordinate is zero. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)
/-- The second exactly when it is not. -/
abbrev cond2_1 (i : grid2.Coords) : Prop := (Scalar.cmpi .ne (Scalar.extui (Scalar.cmpi .ne (BitVec.ofNat 32 (i 0).val) 0#32)) 0#32) = 1#1
theorem hcond2_1 : ∀ t : Fin cfg2.N, cond2_1 (grid2.coords t) ↔ ¬ t.val % 4 = 0 :=
  (by decide +kernel : ∀ t : Fin grid2.N, cond2_1 (grid2.coords t) ↔ ¬ t.val % 4 = 0)
/-- The third exactly at the last point. -/
abbrev cond2_2 (i : grid2.Coords) : Prop := k2_cond3 i = 1#1
theorem hcond2_2 : ∀ t : Fin cfg2.N, cond2_2 (grid2.coords t) ↔ t.val % 4 = 3 :=
  (by decide +kernel : ∀ t : Fin grid2.N, cond2_2 (grid2.coords t) ↔ t.val % 4 = 3)

/-- A whole-shape rectangle at zero offsets holds every index. -/
theorem cover_one {S : Shape} {e : EltTy} {Val : EltTy → Type} {off : Fin S.rank → Nat} (h : off = fun _ => 0)
    (inb : ∀ a, off a + S.size a ≤ S.size a) (w : S.Idx → Val e) (L : List (View.Piece Val S e)) :
    ∀ y, ∃ p ∈ ((⟨Rect.unit off S.size inb, w⟩ : View.Piece Val S e) :: L), y ∈ p.1.set :=
  fun y => ⟨_, List.mem_cons_self, View.mem_set_unit_zero h inb y⟩

theorem hz2 : (![0, 0] : Fin 2 → ℕ) = fun _ => 0 := by funext a; fin_cases a <;> rfl

end Cert.Kernel.Reg2

end
-- ==== Proof.BitsReg2RunA.lean ====
/-
  The second head's kernel body at the first grid point.
-/
import proofs.«100906_j73718818669321_2_alg».proof.Proof.BitsReg2Runs

set_option maxRecDepth 16384

noncomputable section

namespace Cert.Kernel.Reg2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel.Gen

variable {F : FTy → Type} [FloatOps F]

local notation "𝕄" => MT nD τ sig Unit (Elt F) ℕ (UR sig nD τ) ℕ

set_option maxHeartbeats 4000000 in
/-- The body at the first point: it stores the rows into window 10's buffer and their column minimum and maximum
    into the two carried buffers, and leaves windows 11 and 12 as they were. -/
theorem kernelRun2_A (c : Dev nD) (i : grid2.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : cond2_0 i) (hc1 : ¬cond2_1 i) (hc2 : ¬cond2_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xi11 xi12 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ owns (c : Thread nD τ) arg12 fullShare xi11 ∗ owns (c : Thread nD τ) arg13 fullShare xi12 ∗ (∃ d, owns (c : Thread nD τ) arg14 fullShare d) ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (preOf x0 x1 x2 x3 x4 x5 x6 x7 x8 x9) ∗ owns (c : Thread nD τ) arg12 fullShare xi11 ∗ owns (c : Thread nD τ) arg13 fullShare xi12 ∗ owns (c : Thread nD τ) arg14 fullShare (minInitOf x0 x1 x2 x3 x4 x5 x6 x7 x8 x9) ∗ owns (c : Thread nD τ) arg15 fullShare (maxInitOf x0 x1 x2 x3 x4 x5 x6 x7 x8 x9)) -∗ K ⟨⟩))
      ⊢ wp frame (wpE (defs₀ (F := F)) Variants.none c none) E (cc2__head_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc2__head_kernel_eq_skeleton]; unfold cc2__head_kernel_skel
  simp only [k2_part1_eq_skeleton, k2_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
  obtain rfl := harg12.eq_unread hf11; obtain rfl := harg13.eq_unread hf12
  sl_exec (disch := first | exact hc0 | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr
    swap; · iexact H10
    ipureintro
    sl_unfold_run_names; rw [View.read_writes_eq_canon _ _ _ (cover_one hz2 _ _ _), View.canon_unit_zero hz2]
    unfold preOf; sl_unfold_run_names
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S8192x128) hz2, View.ld_unit_zero (S := S128x64) hz2, View.ld_unit_zero (S := S1x64) hz2, View.ld_unit_zero (S := S1x1) hz2, View.ld_unit_zero (S := S64x128) hz2, View.ld_unit_zero (S := S1x128) hz2, View.readCov_unit_zero (S := S1x128) _ hz2]
  isplitl [H11]
  · iexists _; isplitr; · ipureintro; exact harg12.read_unread _
    iexact H11
  isplitl [H12]
  · iexists _; isplitr; · ipureintro; exact harg13.read_unread _
    iexact H12
  isplitl [HS0]
  · iexists _; isplitr
    swap; · iexact HS0
    ipureintro
    sl_unfold_run_names; rw [View.read_writes_eq_canon _ _ _ (cover_one hz2 _ _ _), View.canon_unit_zero hz2]
    unfold minInitOf; sl_unfold_run_names
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S8192x128) hz2, View.ld_unit_zero (S := S128x64) hz2, View.ld_unit_zero (S := S1x64) hz2, View.ld_unit_zero (S := S1x1) hz2, View.ld_unit_zero (S := S64x128) hz2, View.ld_unit_zero (S := S1x128) hz2, View.readCov_unit_zero (S := S1x128) _ hz2]
  iexists _; isplitr
  swap; · iexact HS1
  ipureintro
  sl_unfold_run_names; rw [View.read_writes_eq_canon _ _ _ (cover_one hz2 _ _ _), View.canon_unit_zero hz2]
  unfold maxInitOf; sl_unfold_run_names
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S8192x128) hz2, View.ld_unit_zero (S := S128x64) hz2, View.ld_unit_zero (S := S1x64) hz2, View.ld_unit_zero (S := S1x1) hz2, View.ld_unit_zero (S := S64x128) hz2, View.ld_unit_zero (S := S1x128) hz2, View.readCov_unit_zero (S := S1x128) _ hz2]

end Cert.Kernel.Reg2

end
-- ==== Proof.BitsReg2RunB.lean ====
/-
  The second head's kernel body at a middle grid point.
-/
import proofs.«100906_j73718818669321_2_alg».proof.Proof.BitsReg2RunA

set_option maxRecDepth 16384

noncomputable section

namespace Cert.Kernel.Reg2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel.Gen

variable {F : FTy → Type} [FloatOps F]

local notation "𝕄" => MT nD τ sig Unit (Elt F) ℕ (UR sig nD τ) ℕ

set_option maxHeartbeats 4000000 in
/-- The body at a middle point: it stores the rows into window 10's buffer, combines the carried minimum and
    maximum with the rows' own, and leaves windows 11 and 12 as they were. -/
theorem kernelRun2_B (c : Dev nD) (i : grid2.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond2_0 i) (hc1 : cond2_1 i) (hc2 : ¬cond2_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xi11 xi12 xs0 xs1 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ owns (c : Thread nD τ) arg12 fullShare xi11 ∗ owns (c : Thread nD τ) arg13 fullShare xi12 ∗ owns (c : Thread nD τ) arg14 fullShare xs0 ∗ owns (c : Thread nD τ) arg15 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (preOf x0 x1 x2 x3 x4 x5 x6 x7 x8 x9) ∗ owns (c : Thread nD τ) arg12 fullShare xi11 ∗ owns (c : Thread nD τ) arg13 fullShare xi12 ∗ owns (c : Thread nD τ) arg14 fullShare (k2_pay1 (preOf x0 x1 x2 x3 x4 x5 x6 x7 x8 x9) xs0) ∗ owns (c : Thread nD τ) arg15 fullShare (k2_pay2 (preOf x0 x1 x2 x3 x4 x5 x6 x7 x8 x9) xs1)) -∗ K ⟨⟩))
      ⊢ wp frame (wpE (defs₀ (F := F)) Variants.none c none) E (cc2__head_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc2__head_kernel_eq_skeleton]; unfold cc2__head_kernel_skel
  simp only [k2_part1_eq_skeleton, k2_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
  obtain rfl := harg12.eq_unread hf11; obtain rfl := harg13.eq_unread hf12
  obtain rfl := harg14.eq_unread hfs0; obtain rfl := harg15.eq_unread hfs1
  sl_exec (disch := first | exact hc0 | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr
    swap; · iexact H10
    ipureintro
    sl_unfold_run_names; rw [View.read_writes_eq_canon _ _ _ (cover_one hz2 _ _ _), View.canon_unit_zero hz2]
    unfold preOf; sl_unfold_run_names
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S8192x128) hz2, View.ld_unit_zero (S := S128x64) hz2, View.ld_unit_zero (S := S1x64) hz2, View.ld_unit_zero (S := S1x1) hz2, View.ld_unit_zero (S := S64x128) hz2, View.ld_unit_zero (S := S1x128) hz2, View.readCov_unit_zero (S := S1x128) _ hz2]
  isplitl [H11]
  · iexists _; isplitr; · ipureintro; exact harg12.read_unread _
    iexact H11
  isplitl [H12]
  · iexists _; isplitr; · ipureintro; exact harg13.read_unread _
    iexact H12
  isplitl [HS0]
  · iexists _; isplitr
    swap; · iexact HS0
    ipureintro
    sl_unfold_run_names; rw [View.read_writes_eq_canon _ _ _ (cover_one hz2 _ _ _), View.canon_unit_zero hz2]
    unfold preOf; sl_unfold_run_names
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S8192x128) hz2, View.ld_unit_zero (S := S128x64) hz2, View.ld_unit_zero (S := S1x64) hz2, View.ld_unit_zero (S := S1x1) hz2, View.ld_unit_zero (S := S64x128) hz2, View.ld_unit_zero (S := S1x128) hz2, View.readCov_unit_zero (S := S1x128) _ hz2]
  iexists _; isplitr
  swap; · iexact HS1
  ipureintro
  sl_unfold_run_names; rw [View.read_writes_eq_canon _ _ _ (cover_one hz2 _ _ _), View.canon_unit_zero hz2]
  unfold preOf; sl_unfold_run_names
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S8192x128) hz2, View.ld_unit_zero (S := S128x64) hz2, View.ld_unit_zero (S := S1x64) hz2, View.ld_unit_zero (S := S1x1) hz2, View.ld_unit_zero (S := S64x128) hz2, View.ld_unit_zero (S := S1x128) hz2, View.readCov_unit_zero (S := S1x128) _ hz2]

end Cert.Kernel.Reg2

end
-- ==== Proof.BitsReg2RunC.lean ====
/-
  The second head's kernel body at the last grid point.
-/
import proofs.«100906_j73718818669321_2_alg».proof.Proof.BitsReg2RunB

set_option maxRecDepth 16384

noncomputable section

namespace Cert.Kernel.Reg2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel.Gen

variable {F : FTy → Type} [FloatOps F]

local notation "𝕄" => MT nD τ sig Unit (Elt F) ℕ (UR sig nD τ) ℕ

set_option maxHeartbeats 4000000 in
/-- The body at the last point: as at a middle point, and then it copies the carried minimum and maximum into
    the buffers of windows 11 and 12. -/
theorem kernelRun2_C (c : Dev nD) (i : grid2.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond2_0 i) (hc1 : cond2_1 i) (hc2 : cond2_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs0 ∗ owns (c : Thread nD τ) arg15 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (preOf x0 x1 x2 x3 x4 x5 x6 x7 x8 x9) ∗ owns (c : Thread nD τ) arg12 fullShare (k2_pay1 (preOf x0 x1 x2 x3 x4 x5 x6 x7 x8 x9) xs0) ∗ owns (c : Thread nD τ) arg13 fullShare (k2_pay2 (preOf x0 x1 x2 x3 x4 x5 x6 x7 x8 x9) xs1) ∗ owns (c : Thread nD τ) arg14 fullShare (k2_pay1 (preOf x0 x1 x2 x3 x4 x5 x6 x7 x8 x9) xs0) ∗ owns (c : Thread nD τ) arg15 fullShare (k2_pay2 (preOf x0 x1 x2 x3 x4 x5 x6 x7 x8 x9) xs1)) -∗ K ⟨⟩))
      ⊢ wp frame (wpE (defs₀ (F := F)) Variants.none c none) E (cc2__head_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc2__head_kernel_eq_skeleton]; unfold cc2__head_kernel_skel
  simp only [k2_part1_eq_skeleton, k2_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
  obtain rfl := harg14.eq_unread hfs0; obtain rfl := harg15.eq_unread hfs1
  sl_exec (disch := first | exact hc0 | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr
    swap; · iexact H10
    ipureintro
    sl_unfold_run_names; rw [View.read_writes_eq_canon _ _ _ (cover_one hz2 _ _ _), View.canon_unit_zero hz2]
    unfold preOf; sl_unfold_run_names
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S8192x128) hz2, View.ld_unit_zero (S := S128x64) hz2, View.ld_unit_zero (S := S1x64) hz2, View.ld_unit_zero (S := S1x1) hz2, View.ld_unit_zero (S := S64x128) hz2, View.ld_unit_zero (S := S1x128) hz2, View.readCov_unit_zero (S := S1x128) _ hz2]
  isplitl [H11]
  · iexists _; isplitr
    swap; · iexact H11
    ipureintro
    sl_unfold_run_names; rw [View.read_writes_eq_canon _ _ _ (cover_one hz2 _ _ _), View.canon_unit_zero hz2]
    unfold preOf; sl_unfold_run_names
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S8192x128) hz2, View.ld_unit_zero (S := S128x64) hz2, View.ld_unit_zero (S := S1x64) hz2, View.ld_unit_zero (S := S1x1) hz2, View.ld_unit_zero (S := S64x128) hz2, View.ld_unit_zero (S := S1x128) hz2, View.readCov_unit_zero (S := S1x128) _ hz2]
  isplitl [H12]
  · iexists _; isplitr
    swap; · iexact H12
    ipureintro
    sl_unfold_run_names; rw [View.read_writes_eq_canon _ _ _ (cover_one hz2 _ _ _), View.canon_unit_zero hz2]
    unfold preOf; sl_unfold_run_names
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S8192x128) hz2, View.ld_unit_zero (S := S128x64) hz2, View.ld_unit_zero (S := S1x64) hz2, View.ld_unit_zero (S := S1x1) hz2, View.ld_unit_zero (S := S64x128) hz2, View.ld_unit_zero (S := S1x128) hz2, View.readCov_unit_zero (S := S1x128) _ hz2]
  isplitl [HS0]
  · iexists _; isplitr
    swap; · iexact HS0
    ipureintro
    sl_unfold_run_names; rw [View.read_writes_eq_canon _ _ _ (cover_one hz2 _ _ _), View.canon_unit_zero hz2]
    unfold preOf; sl_unfold_run_names
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S8192x128) hz2, View.ld_unit_zero (S := S128x64) hz2, View.ld_unit_zero (S := S1x64) hz2, View.ld_unit_zero (S := S1x1) hz2, View.ld_unit_zero (S := S64x128) hz2, View.ld_unit_zero (S := S1x128) hz2, View.readCov_unit_zero (S := S1x128) _ hz2]
  iexists _; isplitr
  swap; · iexact HS1
  ipureintro
  sl_unfold_run_names; rw [View.read_writes_eq_canon _ _ _ (cover_one hz2 _ _ _), View.canon_unit_zero hz2]
  unfold preOf; sl_unfold_run_names
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S8192x128) hz2, View.ld_unit_zero (S := S128x64) hz2, View.ld_unit_zero (S := S1x64) hz2, View.ld_unit_zero (S := S1x1) hz2, View.ld_unit_zero (S := S64x128) hz2, View.ld_unit_zero (S := S1x128) hz2, View.readCov_unit_zero (S := S1x128) _ hz2]

end Cert.Kernel.Reg2

end
-- ==== Proof.BitsReg2Body.lean ====
/-
  The second head's kernel region: the body's obligation at every grid point, and the invariant's two ends.

  At a point the pipeline hands the body each input window's block, the buffers of the three outputs, and the two
  carried one-row buffers at the running minimum and maximum the point before left (at anything at the first point);
  the body's three control cases give back window 10's buffer at the point's rows, the carried buffers at the
  updated running minimum and maximum, and windows 11 and 12 untouched except at the last point, where they
  receive the final minimum and maximum.
-/
import proofs.«100906_j73718818669321_2_alg».proof.Proof.BitsReg2Dat
import proofs.«100906_j73718818669321_2_alg».proof.Proof.BitsReg2RunC

set_option maxRecDepth 16384

noncomputable section

namespace Cert.Kernel.Reg2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The proof data's arrays are the region-entry contents. -/
theorem A_eq (c : Dev nD) (w : Fin cfg2.W) : (dat V c).A w = V c (Pipeline.arrRef spec2 w) := by
  dsimp only [dat]

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(iprop(iprop(owns (c : Thread nD τ) scM2_0 fullShare (sminAt V c n hn) ∗ owns (c : Thread nD τ) scM2_1 fullShare (smaxAt V c n hn))
      ∗ Pipeline.scopedRestBut (Ix := Unit) (Name := ℕ) (U := UR sig nD τ) (Lvl := ℕ) (Val := Elt F) spec2 c [cc2_scratch0, cc2_scratch1]) ∗ (∃ r, prngReg c r)) := rfl

theorem PhiS_pos (c : Dev nD) (n : ℕ) (h : n ≤ cfg2.N) (hz : n ≠ 0) :
    PhiS V c n h = iprop(iprop(iprop(owns (c : Thread nD τ) scM2_0 fullShare (sminAt V c (n - 1) (by omega)) ∗ owns (c : Thread nD τ) scM2_1 fullShare (smaxAt V c (n - 1) (by omega)))
      ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

theorem PhiS_castSucc (c : Dev nD) (t : Fin cfg2.N) :
    (dat V c).Φ t.castSucc = PhiS V c t.val (Nat.le_of_lt t.isLt) := by
  dsimp only [dat]; simp only [Fin.coe_castSucc]

/-- The running minimum at the first point is that point's own, -/
theorem sminAt_zero (c : Dev nD) (t : Fin cfg2.N) (h : t.val = 0) : sminAt V c t.val t.isLt = minInitAt V c t := by
  obtain ⟨n, hn⟩ := t; subst h; rfl
theorem smaxAt_zero (c : Dev nD) (t : Fin cfg2.N) (h : t.val = 0) : smaxAt V c t.val t.isLt = maxInitAt V c t := by
  obtain ⟨n, hn⟩ := t; subst h; rfl
/-- and at a later point the point's rows' combined with the one before. -/
theorem sminAt_pos (c : Dev nD) (t : Fin cfg2.N) (h : t.val ≠ 0) :
    sminAt V c t.val t.isLt = k2_pay1 (preAt V c t) (sminAt V c (t.val - 1) (Nat.lt_of_le_of_lt (Nat.sub_le _ _) t.isLt)) := by
  obtain ⟨n, hn⟩ := t
  cases n with
  | zero => exact absurd rfl h
  | succ n => rfl
theorem smaxAt_pos (c : Dev nD) (t : Fin cfg2.N) (h : t.val ≠ 0) :
    smaxAt V c t.val t.isLt = k2_pay2 (preAt V c t) (smaxAt V c (t.val - 1) (Nat.lt_of_le_of_lt (Nat.sub_le _ _) t.isLt)) := by
  obtain ⟨n, hn⟩ := t
  cases n with
  | zero => exact absurd rfl h
  | succ n => rfl

/-- The payload-level names of the Dat module are the body's. -/
theorem preAt_eq (c : Dev nD) (t : Fin cfg2.N) : preAt V c t = preOf (iblk V c 0 t) (iblk V c 1 t) (iblk V c 2 t) (iblk V c 3 t) (iblk V c 4 t) (iblk V c 5 t) (iblk V c 6 t) (iblk V c 7 t) (iblk V c 8 t) (iblk V c 9 t) := rfl
theorem minInitAt_eq (c : Dev nD) (t : Fin cfg2.N) : minInitAt V c t = minInitOf (iblk V c 0 t) (iblk V c 1 t) (iblk V c 2 t) (iblk V c 3 t) (iblk V c 4 t) (iblk V c 5 t) (iblk V c 6 t) (iblk V c 7 t) (iblk V c 8 t) (iblk V c 9 t) := rfl
theorem maxInitAt_eq (c : Dev nD) (t : Fin cfg2.N) : maxInitAt V c t = maxInitOf (iblk V c 0 t) (iblk V c 1 t) (iblk V c 2 t) (iblk V c 3 t) (iblk V c 4 t) (iblk V c 5 t) (iblk V c 6 t) (iblk V c 7 t) (iblk V c 8 t) (iblk V c 9 t) := rfl

/-- What the body leaves, window by window. -/
theorem after2_0 (c : Dev nD) (t : Fin cfg2.N) : (dat V c).after 0 t = iblk V c 0 t := by dsimp only [dat]
theorem after2_1 (c : Dev nD) (t : Fin cfg2.N) : (dat V c).after 1 t = iblk V c 1 t := by dsimp only [dat]
theorem after2_2 (c : Dev nD) (t : Fin cfg2.N) : (dat V c).after 2 t = iblk V c 2 t := by dsimp only [dat]
theorem after2_3 (c : Dev nD) (t : Fin cfg2.N) : (dat V c).after 3 t = iblk V c 3 t := by dsimp only [dat]
theorem after2_4 (c : Dev nD) (t : Fin cfg2.N) : (dat V c).after 4 t = iblk V c 4 t := by dsimp only [dat]
theorem after2_5 (c : Dev nD) (t : Fin cfg2.N) : (dat V c).after 5 t = iblk V c 5 t := by dsimp only [dat]
theorem after2_6 (c : Dev nD) (t : Fin cfg2.N) : (dat V c).after 6 t = iblk V c 6 t := by dsimp only [dat]
theorem after2_7 (c : Dev nD) (t : Fin cfg2.N) : (dat V c).after 7 t = iblk V c 7 t := by dsimp only [dat]
theorem after2_8 (c : Dev nD) (t : Fin cfg2.N) : (dat V c).after 8 t = iblk V c 8 t := by dsimp only [dat]
theorem after2_9 (c : Dev nD) (t : Fin cfg2.N) : (dat V c).after 9 t = iblk V c 9 t := by dsimp only [dat]
theorem after2_10 (c : Dev nD) (t : Fin cfg2.N) : (dat V c).after 10 t = preAt V c t := by dsimp only [dat]
theorem after2_11 (c : Dev nD) (t : Fin cfg2.N) : (dat V c).after 11 t = sminAt V c t.val t.isLt := by dsimp only [dat]
theorem after2_12 (c : Dev nD) (t : Fin cfg2.N) : (dat V c).after 12 t = smaxAt V c t.val t.isLt := by dsimp only [dat]

/-- Each input's current staging buffer holds its block at every point, fetched there or not. -/
theorem before2_0 (c : Dev nD) (t : Fin cfg2.N) (d) : (dat V c).before 0 t d = iblk V c 0 t :=
  ((dat V c).before_in_eq_fetched 0 rfl (fun _ => rfl) (fun _ _ _ => rfl) (fun t => by rw [after2_0]; unfold Dat.blockOf iblk; rw [A_eq]; try rfl) t d).trans
    (by unfold Dat.fetched Dat.blockOf iblk; rw [A_eq]; try rfl)
theorem before2_1 (c : Dev nD) (t : Fin cfg2.N) (d) : (dat V c).before 1 t d = iblk V c 1 t :=
  ((dat V c).before_in_eq_fetched 1 rfl (fun _ => rfl) (fun _ _ _ => rfl) (fun t => by rw [after2_1]; unfold Dat.blockOf iblk; rw [A_eq]; try rfl) t d).trans
    (by unfold Dat.fetched Dat.blockOf iblk; rw [A_eq]; try rfl)
theorem before2_2 (c : Dev nD) (t : Fin cfg2.N) (d) : (dat V c).before 2 t d = iblk V c 2 t :=
  ((dat V c).before_in_eq_fetched 2 rfl (fun _ => rfl) (fun _ _ _ => rfl) (fun t => by rw [after2_2]; unfold Dat.blockOf iblk; rw [A_eq]; try rfl) t d).trans
    (by unfold Dat.fetched Dat.blockOf iblk; rw [A_eq]; try rfl)
theorem before2_3 (c : Dev nD) (t : Fin cfg2.N) (d) : (dat V c).before 3 t d = iblk V c 3 t :=
  ((dat V c).before_in_eq_fetched 3 rfl (fun _ => rfl) (fun _ _ _ => rfl) (fun t => by rw [after2_3]; unfold Dat.blockOf iblk; rw [A_eq]; try rfl) t d).trans
    (by unfold Dat.fetched Dat.blockOf iblk; rw [A_eq]; try rfl)
theorem before2_4 (c : Dev nD) (t : Fin cfg2.N) (d) : (dat V c).before 4 t d = iblk V c 4 t :=
  ((dat V c).before_in_eq_fetched 4 rfl (fun _ => rfl) (fun _ _ _ => rfl) (fun t => by rw [after2_4]; unfold Dat.blockOf iblk; rw [A_eq]; try rfl) t d).trans
    (by unfold Dat.fetched Dat.blockOf iblk; rw [A_eq]; try rfl)
theorem before2_5 (c : Dev nD) (t : Fin cfg2.N) (d) : (dat V c).before 5 t d = iblk V c 5 t :=
  ((dat V c).before_in_eq_fetched 5 rfl (fun _ => rfl) (fun _ _ _ => rfl) (fun t => by rw [after2_5]; unfold Dat.blockOf iblk; rw [A_eq]; try rfl) t d).trans
    (by unfold Dat.fetched Dat.blockOf iblk; rw [A_eq]; try rfl)
theorem before2_6 (c : Dev nD) (t : Fin cfg2.N) (d) : (dat V c).before 6 t d = iblk V c 6 t :=
  ((dat V c).before_in_eq_fetched 6 rfl (fun _ => rfl) (fun _ _ _ => rfl) (fun t => by rw [after2_6]; unfold Dat.blockOf iblk; rw [A_eq]; try rfl) t d).trans
    (by unfold Dat.fetched Dat.blockOf iblk; rw [A_eq]; try rfl)
theorem before2_7 (c : Dev nD) (t : Fin cfg2.N) (d) : (dat V c).before 7 t d = iblk V c 7 t :=
  ((dat V c).before_in_eq_fetched 7 rfl (fun _ => rfl) (fun _ _ _ => rfl) (fun t => by rw [after2_7]; unfold Dat.blockOf iblk; rw [A_eq]; try rfl) t d).trans
    (by unfold Dat.fetched Dat.blockOf iblk; rw [A_eq]; try rfl)
theorem before2_8 (c : Dev nD) (t : Fin cfg2.N) (d) : (dat V c).before 8 t d = iblk V c 8 t :=
  ((dat V c).before_in_eq_fetched 8 rfl (fun _ => rfl) (fun _ _ _ => rfl) (fun t => by rw [after2_8]; unfold Dat.blockOf iblk; rw [A_eq]; try rfl) t d).trans
    (by unfold Dat.fetched Dat.blockOf iblk; rw [A_eq]; try rfl)
theorem before2_9 (c : Dev nD) (t : Fin cfg2.N) (d) : (dat V c).before 9 t d = iblk V c 9 t :=
  ((dat V c).before_in_eq_fetched 9 rfl (fun _ => rfl) (fun _ _ _ => rfl) (fun t => by rw [after2_9]; unfold Dat.blockOf iblk; rw [A_eq]; try rfl) t d).trans
    (by unfold Dat.fetched Dat.blockOf iblk; rw [A_eq]; try rfl)

/-- Where the windows are idle: the inputs and window 10 never; windows 11 and 12 everywhere but at the last point. -/
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem liveAt2_4 : ∀ t : Fin cfg2.N, cfg2.idle 4 (grid2.coords t) = false := fun _ => rfl
theorem liveAt2_5 : ∀ t : Fin cfg2.N, cfg2.idle 5 (grid2.coords t) = false := fun _ => rfl
theorem liveAt2_6 : ∀ t : Fin cfg2.N, cfg2.idle 6 (grid2.coords t) = false := fun _ => rfl
theorem liveAt2_7 : ∀ t : Fin cfg2.N, cfg2.idle 7 (grid2.coords t) = false := fun _ => rfl
theorem liveAt2_8 : ∀ t : Fin cfg2.N, cfg2.idle 8 (grid2.coords t) = false := fun _ => rfl
theorem liveAt2_9 : ∀ t : Fin cfg2.N, cfg2.idle 9 (grid2.coords t) = false := fun _ => rfl
theorem liveAt2_10 : ∀ t : Fin cfg2.N, cfg2.idle 10 (grid2.coords t) = false := fun _ => rfl
theorem idleAt2_11 : ∀ t : Fin cfg2.N, ¬ t.val % 4 = 3 → cfg2.idle 11 (grid2.coords t) = true :=
  (by decide +kernel : ∀ t : Fin grid2.N, ¬ t.val % 4 = 3 → cfg2.idle 11 (grid2.coords t) = true)
theorem noFlush2_11 : ∀ t : Fin cfg2.N, ¬ t.val % 4 = 3 → (cfg2.win 11).flush t = false :=
  (by decide +kernel : ∀ t : Fin grid2.N, ¬ t.val % 4 = 3 → win2_11.flush t = false)
theorem liveAt2_11 : ∀ t : Fin cfg2.N, t.val % 4 = 3 → cfg2.idle 11 (grid2.coords t) = false :=
  (by decide +kernel : ∀ t : Fin grid2.N, t.val % 4 = 3 → cfg2.idle 11 (grid2.coords t) = false)
theorem idleAt2_12 : ∀ t : Fin cfg2.N, ¬ t.val % 4 = 3 → cfg2.idle 12 (grid2.coords t) = true :=
  (by decide +kernel : ∀ t : Fin grid2.N, ¬ t.val % 4 = 3 → cfg2.idle 12 (grid2.coords t) = true)
theorem noFlush2_12 : ∀ t : Fin cfg2.N, ¬ t.val % 4 = 3 → (cfg2.win 12).flush t = false :=
  (by decide +kernel : ∀ t : Fin grid2.N, ¬ t.val % 4 = 3 → win2_12.flush t = false)
theorem liveAt2_12 : ∀ t : Fin cfg2.N, t.val % 4 = 3 → cfg2.idle 12 (grid2.coords t) = false :=
  (by decide +kernel : ∀ t : Fin grid2.N, t.val % 4 = 3 → cfg2.idle 12 (grid2.coords t) = false)

/-- Each window's current staging memref at point `t`, as the pipeline passes it, and its wholeness. -/
abbrev ms2_0 (t : Fin cfg2.N) : Memref sig .tc .vmem S8192x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S8192x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S128x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x64 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x64 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x1 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S64x128 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x128 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S1x128 .f32 := win2_8.stage (cfg2.slots t 8)
abbrev hs2_8 (t : Fin cfg2.N) : (ms2_8 t).IsWhole := hstage2_8 ((cfg2.slots t 8).cast nbuf2_8)
abbrev ms2_9 (t : Fin cfg2.N) : Memref sig .tc .vmem S1x128 .f32 := win2_9.stage (cfg2.slots t 9)
abbrev hs2_9 (t : Fin cfg2.N) : (ms2_9 t).IsWhole := hstage2_9 ((cfg2.slots t 9).cast nbuf2_9)
abbrev ms2_10 (t : Fin cfg2.N) : Memref sig .tc .vmem S8192x128 .f32 := win2_10.stage (cfg2.slots t 10)
abbrev hs2_10 (t : Fin cfg2.N) : (ms2_10 t).IsWhole := hstage2_10 ((cfg2.slots t 10).cast nbuf2_10)
abbrev ms2_11 (t : Fin cfg2.N) : Memref sig .tc .vmem S1x128 .f32 := win2_11.stage (cfg2.slots t 11)
abbrev hs2_11 (t : Fin cfg2.N) : (ms2_11 t).IsWhole := hstage2_11 ((cfg2.slots t 11).cast nbuf2_11)
abbrev ms2_12 (t : Fin cfg2.N) : Memref sig .tc .vmem S1x128 .f32 := win2_12.stage (cfg2.slots t 12)
abbrev hs2_12 (t : Fin cfg2.N) : (ms2_12 t).IsWhole := hstage2_12 ((cfg2.slots t 12).cast nbuf2_12)

/-- The launch's invariant with the two carried buffers as memrefs owned at some contents, the other scoped buffers unopened. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (ms2_0 t) fullShare ((dat V c).before 0 t d))
    ∗ (∃ d, owns (c : Thread nD τ) (ms2_1 t) fullShare ((dat V c).before 1 t d))
    ∗ (∃ d, owns (c : Thread nD τ) (ms2_2 t) fullShare ((dat V c).before 2 t d))
    ∗ (∃ d, owns (c : Thread nD τ) (ms2_3 t) fullShare ((dat V c).before 3 t d))
    ∗ (∃ d, owns (c : Thread nD τ) (ms2_4 t) fullShare ((dat V c).before 4 t d))
    ∗ (∃ d, owns (c : Thread nD τ) (ms2_5 t) fullShare ((dat V c).before 5 t d))
    ∗ (∃ d, owns (c : Thread nD τ) (ms2_6 t) fullShare ((dat V c).before 6 t d))
    ∗ (∃ d, owns (c : Thread nD τ) (ms2_7 t) fullShare ((dat V c).before 7 t d))
    ∗ (∃ d, owns (c : Thread nD τ) (ms2_8 t) fullShare ((dat V c).before 8 t d))
    ∗ (∃ d, owns (c : Thread nD τ) (ms2_9 t) fullShare ((dat V c).before 9 t d))
    ∗ (∃ d, owns (c : Thread nD τ) (ms2_10 t) fullShare ((dat V c).before 10 t d))
    ∗ (∃ d, owns (c : Thread nD τ) (ms2_11 t) fullShare ((dat V c).before 11 t d))
    ∗ (∃ d, owns (c : Thread nD τ) (ms2_12 t) fullShare ((dat V c).before 12 t d)))

/-- and what it returns. -/
def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t
    ∗ (dat V c).leavesExact 10 t
    ∗ (dat V c).leavesExact 11 t
    ∗ (dat V c).leavesExact 12 t)

set_option maxHeartbeats 4800000 in
/-- The body at any point: the inputs' buffers hold their blocks; the point's position says which control case it
    is in; the invariant hands over the carried buffers (at anything at the first point, at the running minimum and
    maximum afterwards) and takes them back at this point's. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before2_0, before2_1, before2_2, before2_3, before2_4, before2_5, before2_6, before2_7, before2_8, before2_9]
  rw [show (dat V c).owesAt () t.succ = (dat V c).owesAt () t.castSucc from rfl]
  rw [show (dat V c).Φ t.succ = PhiS V c (t.val + 1) t.isLt from rfl, PhiS_succ]
  have hN : t.val < 4 := lt_of_lt_of_eq t.isLt (show cfg2.N = 4 from N_2)
  rw [show (dat V c).leavesExact 0 t = owns (c : Thread nD τ) (ms2_0 t) fullShare ((dat V c).after 0 t) from by
    unfold Dat.leavesExact; rw [liveAt2_0 t], after2_0]
  rw [show (dat V c).leavesExact 1 t = owns (c : Thread nD τ) (ms2_1 t) fullShare ((dat V c).after 1 t) from by
    unfold Dat.leavesExact; rw [liveAt2_1 t], after2_1]
  rw [show (dat V c).leavesExact 2 t = owns (c : Thread nD τ) (ms2_2 t) fullShare ((dat V c).after 2 t) from by
    unfold Dat.leavesExact; rw [liveAt2_2 t], after2_2]
  rw [show (dat V c).leavesExact 3 t = owns (c : Thread nD τ) (ms2_3 t) fullShare ((dat V c).after 3 t) from by
    unfold Dat.leavesExact; rw [liveAt2_3 t], after2_3]
  rw [show (dat V c).leavesExact 4 t = owns (c : Thread nD τ) (ms2_4 t) fullShare ((dat V c).after 4 t) from by
    unfold Dat.leavesExact; rw [liveAt2_4 t], after2_4]
  rw [show (dat V c).leavesExact 5 t = owns (c : Thread nD τ) (ms2_5 t) fullShare ((dat V c).after 5 t) from by
    unfold Dat.leavesExact; rw [liveAt2_5 t], after2_5]
  rw [show (dat V c).leavesExact 6 t = owns (c : Thread nD τ) (ms2_6 t) fullShare ((dat V c).after 6 t) from by
    unfold Dat.leavesExact; rw [liveAt2_6 t], after2_6]
  rw [show (dat V c).leavesExact 7 t = owns (c : Thread nD τ) (ms2_7 t) fullShare ((dat V c).after 7 t) from by
    unfold Dat.leavesExact; rw [liveAt2_7 t], after2_7]
  rw [show (dat V c).leavesExact 8 t = owns (c : Thread nD τ) (ms2_8 t) fullShare ((dat V c).after 8 t) from by
    unfold Dat.leavesExact; rw [liveAt2_8 t], after2_8]
  rw [show (dat V c).leavesExact 9 t = owns (c : Thread nD τ) (ms2_9 t) fullShare ((dat V c).after 9 t) from by
    unfold Dat.leavesExact; rw [liveAt2_9 t], after2_9]
  rw [show (dat V c).leavesExact 10 t = owns (c : Thread nD τ) (ms2_10 t) fullShare ((dat V c).after 10 t) from by
    unfold Dat.leavesExact; rw [liveAt2_10 t], after2_10]
  by_cases h0 : t.val % 4 = 0
  · have hz : t.val = 0 := by omega
    have h3 : ¬ t.val % 4 = 3 := by omega
    rw [Dat.leavesExact_idle (dat V c) 11 t (idleAt2_11 t h3) (noFlush2_11 t h3), Dat.leavesExact_idle (dat V c) 12 t (idleAt2_12 t h3) (noFlush2_12 t h3)]
    rw [sminAt_zero V c t hz, smaxAt_zero V c t hz, minInitAt_eq, maxInitAt_eq, preAt_eq]
    rw [PhiS_castSucc V c t, PhiS_zero V c _ _ hz, PhiA2_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (kernelRun2_A c (grid2.coords t) _ _ _ _ _ _ _ _ _ _ _ _ _ _ _ _ _ _ _ _ _ _ _ _ _ _ _ _ _ _ ((hcond2_0 t).mpr h0) (fun h => (hcond2_1 t).mp h h0) (fun h => h3 ((hcond2_2 t).mp h)) (iblk V c 0 t) (iblk V c 1 t) (iblk V c 2 t) (iblk V c 3 t) (iblk V c 4 t) (iblk V c 5 t) (iblk V c 6 t) (iblk V c 7 t) (iblk V c 8 t) (iblk V c 9 t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexact H11
    isplitl [H12]; · iexact H12
    isplitl [HS0]; · iexact HS0
    isplitl [HS1]; · iexact HS1
    iintro ⟨H0, H1, H2, H3, H4, H5, H6, H7, H8, H9, H10, H11, H12, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    iexists _; iexact H12
  · have hz : t.val ≠ 0 := by omega
    by_cases h3 : t.val % 4 = 3
    · rw [show (dat V c).leavesExact 11 t = owns (c : Thread nD τ) (ms2_11 t) fullShare ((dat V c).after 11 t) from by
        unfold Dat.leavesExact; rw [liveAt2_11 t h3], after2_11]
      rw [show (dat V c).leavesExact 12 t = owns (c : Thread nD τ) (ms2_12 t) fullShare ((dat V c).after 12 t) from by
        unfold Dat.leavesExact; rw [liveAt2_12 t h3], after2_12]
      rw [sminAt_pos V c t hz, smaxAt_pos V c t hz, preAt_eq]
      rw [PhiS_castSucc V c t, PhiS_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (kernelRun2_C c (grid2.coords t) _ _ _ _ _ _ _ _ _ _ _ _ _ _ _ _ _ _ _ _ _ _ _ _ _ _ _ _ _ _ (fun h => h0 ((hcond2_0 t).mp h)) ((hcond2_1 t).mpr h0) ((hcond2_2 t).mpr h3) (iblk V c 0 t) (iblk V c 1 t) (iblk V c 2 t) (iblk V c 3 t) (iblk V c 4 t) (iblk V c 5 t) (iblk V c 6 t) (iblk V c 7 t) (iblk V c 8 t) (iblk V c 9 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [H12]; · iexists _; iexact H12
      isplitl [HS0]; · iexact HS0
      isplitl [HS1]; · iexact HS1
      iintro ⟨H0, H1, H2, H3, H4, H5, H6, H7, H8, H9, H10, H11, H12, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    · rw [Dat.leavesExact_idle (dat V c) 11 t (idleAt2_11 t h3) (noFlush2_11 t h3), Dat.leavesExact_idle (dat V c) 12 t (idleAt2_12 t h3) (noFlush2_12 t h3)]
      rw [sminAt_pos V c t hz, smaxAt_pos V c t hz, preAt_eq]
      rw [PhiS_castSucc V c t, PhiS_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (kernelRun2_B c (grid2.coords t) _ _ _ _ _ _ _ _ _ _ _ _ _ _ _ _ _ _ _ _ _ _ _ _ _ _ _ _ _ _ (fun h => h0 ((hcond2_0 t).mp h)) ((hcond2_1 t).mpr h0) (fun h => h3 ((hcond2_2 t).mp h)) (iblk V c 0 t) (iblk V c 1 t) (iblk V c 2 t) (iblk V c 3 t) (iblk V c 4 t) (iblk V c 5 t) (iblk V c 6 t) (iblk V c 7 t) (iblk V c 8 t) (iblk V c 9 t) _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexact H11
      isplitl [H12]; · iexact H12
      isplitl [HS0]; · iexact HS0
      isplitl [HS1]; · iexact HS1
      iintro ⟨H0, H1, H2, H3, H4, H5, H6, H7, H8, H9, H10, H11, H12, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      iexists _; iexact H12

/-- The library's body obligation, at every point. -/
theorem body_obligation (c : Dev nD) : BodyObligation (dat V c) (defs₀ (F := F)) Variants.none () Set.univ := fun t => by
  rw [bigSep_W2, bigSep_W2]
  exact sound_body V c t

/-- What the launch hands the region is the invariant before the first point. -/
theorem hin (c : Dev nD) : Pipeline.ΦA spec2 c ⊢ (dat V c).Φ 0 := by
  rw [show (dat V c).Φ 0 = PhiS V c 0 (Nat.zero_le _) from rfl, PhiS_zero V c 0 _ rfl]
  try exact Idealize.SL.BI.Entails.refl _

/-- After any point the invariant gives the launch's back: the carried buffers' contents are forgotten. -/
theorem Phi_out (c : Dev nD) (t : Fin (cfg2.N + 1)) (ht : t.val ≠ 0) : (dat V c).Φ t ⊢ Pipeline.ΦA spec2 c := by
  rw [show (dat V c).Φ t = PhiS V c t.val (Nat.le_of_lt_succ t.isLt) from rfl, PhiS_pos V c _ _ ht, PhiA2_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem hout (c : Dev nD) : (dat V c).Φ (Fin.last cfg2.N) ⊢ Pipeline.ΦA spec2 c :=
  Phi_out V c _ (by rw [Fin.val_last]; have : cfg2.N = 4 := N_2; omega)

end Cert.Kernel.Reg2

end
-- ==== Proof.BitsReg3Body.lean ====
/-
  The head kernel's region: the body obligation.

  At every grid point the body, called on the point's staging buffers (the inputs at their blocks) and the two
  carried rows as the point before left them, leaves the first output's buffer, the two carried rows and - at the
  last point - the last two outputs' buffers at what the proof data names, and everything else as it found it. The
  three control cases are the first point (the carried rows are started), the middle points (they are combined with
  the block's own column minimum and maximum) and the last point (combined, then copied out).
-/
import proofs.«100906_j73718818669321_2_alg».proof.Proof.BitsReg3Dat

set_option maxRecDepth 16384

noncomputable section

namespace Cert.Kernel.Reg3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The inputs and the first output are never idle. -/
theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := fun _ => rfl
theorem liveAt3_3 : ∀ t : Fin cfg3.N, cfg3.idle 3 (grid3.coords t) = false := fun _ => rfl
theorem liveAt3_4 : ∀ t : Fin cfg3.N, cfg3.idle 4 (grid3.coords t) = false := fun _ => rfl
theorem liveAt3_5 : ∀ t : Fin cfg3.N, cfg3.idle 5 (grid3.coords t) = false := fun _ => rfl
theorem liveAt3_6 : ∀ t : Fin cfg3.N, cfg3.idle 6 (grid3.coords t) = false := fun _ => rfl
theorem liveAt3_7 : ∀ t : Fin cfg3.N, cfg3.idle 7 (grid3.coords t) = false := fun _ => rfl
theorem liveAt3_8 : ∀ t : Fin cfg3.N, cfg3.idle 8 (grid3.coords t) = false := fun _ => rfl
theorem liveAt3_9 : ∀ t : Fin cfg3.N, cfg3.idle 9 (grid3.coords t) = false := fun _ => rfl
theorem liveAt3_10 : ∀ t : Fin cfg3.N, cfg3.idle 10 (grid3.coords t) = false := fun _ => rfl

/-- What the body is called with at point `t`, the windows one by one, -/
def bodyPre (c : Dev nD) (t : Fin cfg3.N) : sProp 𝕄 :=
  iprop((dat V c).Φ t.castSucc ∗ (dat V c).owesAt () t.castSucc
    ∗ (∃ d, owns (c : Thread nD τ) (ms3_0 t) fullShare ((dat V c).before 0 t d))
    ∗ (∃ d, owns (c : Thread nD τ) (ms3_1 t) fullShare ((dat V c).before 1 t d))
    ∗ (∃ d, owns (c : Thread nD τ) (ms3_2 t) fullShare ((dat V c).before 2 t d))
    ∗ (∃ d, owns (c : Thread nD τ) (ms3_3 t) fullShare ((dat V c).before 3 t d))
    ∗ (∃ d, owns (c : Thread nD τ) (ms3_4 t) fullShare ((dat V c).before 4 t d))
    ∗ (∃ d, owns (c : Thread nD τ) (ms3_5 t) fullShare ((dat V c).before 5 t d))
    ∗ (∃ d, owns (c : Thread nD τ) (ms3_6 t) fullShare ((dat V c).before 6 t d))
    ∗ (∃ d, owns (c : Thread nD τ) (ms3_7 t) fullShare ((dat V c).before 7 t d))
    ∗ (∃ d, owns (c : Thread nD τ) (ms3_8 t) fullShare ((dat V c).before 8 t d))
    ∗ (∃ d, owns (c : Thread nD τ) (ms3_9 t) fullShare ((dat V c).before 9 t d))
    ∗ (∃ d, owns (c : Thread nD τ) (ms3_10 t) fullShare ((dat V c).before 10 t d))
    ∗ (∃ d, owns (c : Thread nD τ) (ms3_11 t) fullShare ((dat V c).before 11 t d))
    ∗ (∃ d, owns (c : Thread nD τ) (ms3_12 t) fullShare ((dat V c).before 12 t d)))

/-- and what it returns. -/
def bodyPost (c : Dev nD) (t : Fin cfg3.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t
    ∗ (dat V c).leavesExact 10 t
    ∗ (dat V c).leavesExact 11 t
    ∗ (dat V c).leavesExact 12 t)

set_option maxHeartbeats 4800000 in
/-- The first point. -/
theorem sound_body_A (c : Dev nD) (t : Fin cfg3.N) (h0 : t.val = 0) :
    bodyPre V c t ⊢ wp frame (wpE (defs₀ (F := F)) Variants.none c none) Set.univ (bodyAt3 t) (fun _ => bodyPost V c t) := by
  unfold bodyPre bodyPost bodyAt3
  simp only [before3_0, before3_1, before3_2, before3_3, before3_4, before3_5, before3_6, before3_7, before3_8, before3_9]
  rw [show (dat V c).owesAt () t.succ = (dat V c).owesAt () t.castSucc from rfl]
  rw [show (dat V c).Φ t.succ = PhiS V c (t.val + 1) t.isLt from rfl, PhiS_succ]
  have hN : t.val < 4 := lt_of_lt_of_eq t.isLt (show cfg3.N = 4 from N_3)
  have h3 : ¬t.val = 3 := by omega
  have hc0 : cond3_0 (grid3.coords t) := (hcond3_0 t).mpr h0
  have hc1 : ¬cond3_1 (grid3.coords t) := fun h => (hcond3_1 t).mp h h0
  have hc2 : ¬cond3_2 (grid3.coords t) := fun h => h3 ((hcond3_2 t).mp h)
  rw [show (dat V c).leavesExact 0 t = owns (c : Thread nD τ) (ms3_0 t) fullShare ((dat V c).after 0 t) from by
    unfold Dat.leavesExact; rw [liveAt3_0 t], after3_0]
  rw [show (dat V c).leavesExact 1 t = owns (c : Thread nD τ) (ms3_1 t) fullShare ((dat V c).after 1 t) from by
    unfold Dat.leavesExact; rw [liveAt3_1 t], after3_1]
  rw [show (dat V c).leavesExact 2 t = owns (c : Thread nD τ) (ms3_2 t) fullShare ((dat V c).after 2 t) from by
    unfold Dat.leavesExact; rw [liveAt3_2 t], after3_2]
  rw [show (dat V c).leavesExact 3 t = owns (c : Thread nD τ) (ms3_3 t) fullShare ((dat V c).after 3 t) from by
    unfold Dat.leavesExact; rw [liveAt3_3 t], after3_3]
  rw [show (dat V c).leavesExact 4 t = owns (c : Thread nD τ) (ms3_4 t) fullShare ((dat V c).after 4 t) from by
    unfold Dat.leavesExact; rw [liveAt3_4 t], after3_4]
  rw [show (dat V c).leavesExact 5 t = owns (c : Thread nD τ) (ms3_5 t) fullShare ((dat V c).after 5 t) from by
    unfold Dat.leavesExact; rw [liveAt3_5 t], after3_5]
  rw [show (dat V c).leavesExact 6 t = owns (c : Thread nD τ) (ms3_6 t) fullShare ((dat V c).after 6 t) from by
    unfold Dat.leavesExact; rw [liveAt3_6 t], after3_6]
  rw [show (dat V c).leavesExact 7 t = owns (c : Thread nD τ) (ms3_7 t) fullShare ((dat V c).after 7 t) from by
    unfold Dat.leavesExact; rw [liveAt3_7 t], after3_7]
  rw [show (dat V c).leavesExact 8 t = owns (c : Thread nD τ) (ms3_8 t) fullShare ((dat V c).after 8 t) from by
    unfold Dat.leavesExact; rw [liveAt3_8 t], after3_8]
  rw [show (dat V c).leavesExact 9 t = owns (c : Thread nD τ) (ms3_9 t) fullShare ((dat V c).after 9 t) from by
    unfold Dat.leavesExact; rw [liveAt3_9 t], after3_9]
  rw [show (dat V c).leavesExact 10 t = owns (c : Thread nD τ) (ms3_10 t) fullShare ((dat V c).after 10 t) from by
    unfold Dat.leavesExact; rw [liveAt3_10 t], after3_10]
  rw [Dat.leavesExact_idle (dat V c) 11 t (idleAt3_11 t hc2) (noFlush3_11 t hc2)]
  rw [Dat.leavesExact_idle (dat V c) 12 t (idleAt3_12 t hc2) (noFlush3_12 t hc2)]
  rw [outsAt3_A V c t h0 h3]
  unfold out3_A_10 sout3_A_0 sout3_A_1; (try dsimp only)
  rw [PhiS_castSucc V c t, PhiS_zero V c _ _ h0, PhiA3_eq]
  iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((kernelRun3_A c (grid3.coords t) _ _ _ _ _ _ _ _ _ _ _ _ _ _ _ _ _ _ _ _ _ _ _ _ _ _ _ _ _ _ hc0 hc1 hc2 (iblk V c 0 t) (iblk V c 1 t) (iblk V c 2 t) (iblk V c 3 t) (iblk V c 4 t) (iblk V c 5 t) (iblk V c 6 t) (iblk V c 7 t) (iblk V c 8 t) (iblk V c 9 t)).2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexact H11
  isplitl [H12]; · iexact H12
  isplitl [HS0]; · iexact HS0
  isplitl [HS1]; · iexact HS1
  iintro ⟨H0, H1, H2, H3, H4, H5, H6, H7, H8, H9, ⟨%e10, H10⟩, H11, H12, ⟨%es0, HS0⟩, ⟨%es1, HS1⟩⟩
  isplitl [HS0 HS1 Hrest Hg]
  · isplitl [HS0 HS1 Hrest]
    · isplitl [HS0 HS1]
      · isplitl [HS0]
        · unfold owns; iexists _; isplitr
          swap; · iexact HS0
          ipureintro; exact View.read_writes_of_cover _ _ _ _ _ (scover3_A_0 c _ _ _ _ _ _ _ _ _ _ _ _ _ _ _ _ _ _ _ _ _ _ _ _ _ _ _ _ _ _ _ _ _ _ _ _ _ _ _ _ _ _ _ _)
        · unfold owns; iexists _; isplitr
          swap; · iexact HS1
          ipureintro; exact View.read_writes_of_cover _ _ _ _ _ (scover3_A_1 c _ _ _ _ _ _ _ _ _ _ _ _ _ _ _ _ _ _ _ _ _ _ _ _ _ _ _ _ _ _ _ _ _ _ _ _ _ _ _ _ _ _ _ _)
      · iexact Hrest
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact View.read_writes_of_cover _ _ _ _ _ (cover3_A_10 c _ _ _ _ _ _ _ _ _ _ _ _ _ _ _ _ _ _ _ _ _ _ _ _ _ _ _ _ _ _ _ _ _ _ _ _ _ _ _ _ _ _ _ _)
  isplitl [H11]; · iexists _; iexact H11
  iexists _; iexact H12

set_option maxHeartbeats 4800000 in
/-- A middle point. -/
theorem sound_body_B (c : Dev nD) (t : Fin cfg3.N) (h0 : ¬t.val = 0) (h3 : ¬t.val = 3) :
    bodyPre V c t ⊢ wp frame (wpE (defs₀ (F := F)) Variants.none c none) Set.univ (bodyAt3 t) (fun _ => bodyPost V c t) := by
  unfold bodyPre bodyPost bodyAt3
  simp only [before3_0, before3_1, before3_2, before3_3, before3_4, before3_5, before3_6, before3_7, before3_8, before3_9]
  rw [show (dat V c).owesAt () t.succ = (dat V c).owesAt () t.castSucc from rfl]
  rw [show (dat V c).Φ t.succ = PhiS V c (t.val + 1) t.isLt from rfl, PhiS_succ]
  have hN : t.val < 4 := lt_of_lt_of_eq t.isLt (show cfg3.N = 4 from N_3)
  have hc0 : ¬cond3_0 (grid3.coords t) := fun h => h0 ((hcond3_0 t).mp h)
  have hc1 : cond3_1 (grid3.coords t) := (hcond3_1 t).mpr h0
  have hc2 : ¬cond3_2 (grid3.coords t) := fun h => h3 ((hcond3_2 t).mp h)
  rw [show (dat V c).leavesExact 0 t = owns (c : Thread nD τ) (ms3_0 t) fullShare ((dat V c).after 0 t) from by
    unfold Dat.leavesExact; rw [liveAt3_0 t], after3_0]
  rw [show (dat V c).leavesExact 1 t = owns (c : Thread nD τ) (ms3_1 t) fullShare ((dat V c).after 1 t) from by
    unfold Dat.leavesExact; rw [liveAt3_1 t], after3_1]
  rw [show (dat V c).leavesExact 2 t = owns (c : Thread nD τ) (ms3_2 t) fullShare ((dat V c).after 2 t) from by
    unfold Dat.leavesExact; rw [liveAt3_2 t], after3_2]
  rw [show (dat V c).leavesExact 3 t = owns (c : Thread nD τ) (ms3_3 t) fullShare ((dat V c).after 3 t) from by
    unfold Dat.leavesExact; rw [liveAt3_3 t], after3_3]
  rw [show (dat V c).leavesExact 4 t = owns (c : Thread nD τ) (ms3_4 t) fullShare ((dat V c).after 4 t) from by
    unfold Dat.leavesExact; rw [liveAt3_4 t], after3_4]
  rw [show (dat V c).leavesExact 5 t = owns (c : Thread nD τ) (ms3_5 t) fullShare ((dat V c).after 5 t) from by
    unfold Dat.leavesExact; rw [liveAt3_5 t], after3_5]
  rw [show (dat V c).leavesExact 6 t = owns (c : Thread nD τ) (ms3_6 t) fullShare ((dat V c).after 6 t) from by
    unfold Dat.leavesExact; rw [liveAt3_6 t], after3_6]
  rw [show (dat V c).leavesExact 7 t = owns (c : Thread nD τ) (ms3_7 t) fullShare ((dat V c).after 7 t) from by
    unfold Dat.leavesExact; rw [liveAt3_7 t], after3_7]
  rw [show (dat V c).leavesExact 8 t = owns (c : Thread nD τ) (ms3_8 t) fullShare ((dat V c).after 8 t) from by
    unfold Dat.leavesExact; rw [liveAt3_8 t], after3_8]
  rw [show (dat V c).leavesExact 9 t = owns (c : Thread nD τ) (ms3_9 t) fullShare ((dat V c).after 9 t) from by
    unfold Dat.leavesExact; rw [liveAt3_9 t], after3_9]
  rw [show (dat V c).leavesExact 10 t = owns (c : Thread nD τ) (ms3_10 t) fullShare ((dat V c).after 10 t) from by
    unfold Dat.leavesExact; rw [liveAt3_10 t], after3_10]
  rw [Dat.leavesExact_idle (dat V c) 11 t (idleAt3_11 t hc2) (noFlush3_11 t hc2)]
  rw [Dat.leavesExact_idle (dat V c) 12 t (idleAt3_12 t hc2) (noFlush3_12 t hc2)]
  rw [outsAt3_B V c t h0 h3]
  unfold out3_B_10 sout3_B_0 sout3_B_1; (try dsimp only)
  rw [PhiS_castSucc V c t, PhiS_pos V c _ _ h0]
  iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((kernelRun3_B c (grid3.coords t) _ _ _ _ _ _ _ _ _ _ _ _ _ _ _ _ _ _ _ _ _ _ _ _ _ _ _ _ _ _ hc0 hc1 hc2 (iblk V c 0 t) (iblk V c 1 t) (iblk V c 2 t) (iblk V c 3 t) (iblk V c 4 t) (iblk V c 5 t) (iblk V c 6 t) (iblk V c 7 t) (iblk V c 8 t) (iblk V c 9 t) _ _).2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexact H11
  isplitl [H12]; · iexact H12
  isplitl [HS0]; · iexact HS0
  isplitl [HS1]; · iexact HS1
  iintro ⟨H0, H1, H2, H3, H4, H5, H6, H7, H8, H9, ⟨%e10, H10⟩, H11, H12, ⟨%es0, HS0⟩, ⟨%es1, HS1⟩⟩
  isplitl [HS0 HS1 Hrest Hg]
  · isplitl [HS0 HS1 Hrest]
    · isplitl [HS0 HS1]
      · isplitl [HS0]
        · unfold owns; iexists _; isplitr
          swap; · iexact HS0
          ipureintro; exact View.read_writes_of_cover _ _ _ _ _ (scover3_B_0 c _ _ _ _ _ _ _ _ _ _ _ _ _ _ _ _ _ _ _ _ _ _ _ _ _ _ _ _ _ _ _ _ _ _ _ _ _ _ _ _ _ _ _ _ _ _)
        · unfold owns; iexists _; isplitr
          swap; · iexact HS1
          ipureintro; exact View.read_writes_of_cover _ _ _ _ _ (scover3_B_1 c _ _ _ _ _ _ _ _ _ _ _ _ _ _ _ _ _ _ _ _ _ _ _ _ _ _ _ _ _ _ _ _ _ _ _ _ _ _ _ _ _ _ _ _ _ _)
      · iexact Hrest
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact View.read_writes_of_cover _ _ _ _ _ (cover3_B_10 c _ _ _ _ _ _ _ _ _ _ _ _ _ _ _ _ _ _ _ _ _ _ _ _ _ _ _ _ _ _ _ _ _ _ _ _ _ _ _ _ _ _ _ _ _ _)
  isplitl [H11]; · iexists _; iexact H11
  iexists _; iexact H12

set_option maxHeartbeats 4800000 in
/-- The last point. -/
theorem sound_body_C (c : Dev nD) (t : Fin cfg3.N) (h0 : ¬t.val = 0) (h3 : t.val = 3) :
    bodyPre V c t ⊢ wp frame (wpE (defs₀ (F := F)) Variants.none c none) Set.univ (bodyAt3 t) (fun _ => bodyPost V c t) := by
  unfold bodyPre bodyPost bodyAt3
  simp only [before3_0, before3_1, before3_2, before3_3, before3_4, before3_5, before3_6, before3_7, before3_8, before3_9]
  rw [show (dat V c).owesAt () t.succ = (dat V c).owesAt () t.castSucc from rfl]
  rw [show (dat V c).Φ t.succ = PhiS V c (t.val + 1) t.isLt from rfl, PhiS_succ]
  have hN : t.val < 4 := lt_of_lt_of_eq t.isLt (show cfg3.N = 4 from N_3)
  have hc0 : ¬cond3_0 (grid3.coords t) := fun h => h0 ((hcond3_0 t).mp h)
  have hc1 : cond3_1 (grid3.coords t) := (hcond3_1 t).mpr h0
  have hc2 : cond3_2 (grid3.coords t) := (hcond3_2 t).mpr h3
  rw [show (dat V c).leavesExact 0 t = owns (c : Thread nD τ) (ms3_0 t) fullShare ((dat V c).after 0 t) from by
    unfold Dat.leavesExact; rw [liveAt3_0 t], after3_0]
  rw [show (dat V c).leavesExact 1 t = owns (c : Thread nD τ) (ms3_1 t) fullShare ((dat V c).after 1 t) from by
    unfold Dat.leavesExact; rw [liveAt3_1 t], after3_1]
  rw [show (dat V c).leavesExact 2 t = owns (c : Thread nD τ) (ms3_2 t) fullShare ((dat V c).after 2 t) from by
    unfold Dat.leavesExact; rw [liveAt3_2 t], after3_2]
  rw [show (dat V c).leavesExact 3 t = owns (c : Thread nD τ) (ms3_3 t) fullShare ((dat V c).after 3 t) from by
    unfold Dat.leavesExact; rw [liveAt3_3 t], after3_3]
  rw [show (dat V c).leavesExact 4 t = owns (c : Thread nD τ) (ms3_4 t) fullShare ((dat V c).after 4 t) from by
    unfold Dat.leavesExact; rw [liveAt3_4 t], after3_4]
  rw [show (dat V c).leavesExact 5 t = owns (c : Thread nD τ) (ms3_5 t) fullShare ((dat V c).after 5 t) from by
    unfold Dat.leavesExact; rw [liveAt3_5 t], after3_5]
  rw [show (dat V c).leavesExact 6 t = owns (c : Thread nD τ) (ms3_6 t) fullShare ((dat V c).after 6 t) from by
    unfold Dat.leavesExact; rw [liveAt3_6 t], after3_6]
  rw [show (dat V c).leavesExact 7 t = owns (c : Thread nD τ) (ms3_7 t) fullShare ((dat V c).after 7 t) from by
    unfold Dat.leavesExact; rw [liveAt3_7 t], after3_7]
  rw [show (dat V c).leavesExact 8 t = owns (c : Thread nD τ) (ms3_8 t) fullShare ((dat V c).after 8 t) from by
    unfold Dat.leavesExact; rw [liveAt3_8 t], after3_8]
  rw [show (dat V c).leavesExact 9 t = owns (c : Thread nD τ) (ms3_9 t) fullShare ((dat V c).after 9 t) from by
    unfold Dat.leavesExact; rw [liveAt3_9 t], after3_9]
  rw [show (dat V c).leavesExact 10 t = owns (c : Thread nD τ) (ms3_10 t) fullShare ((dat V c).after 10 t) from by
    unfold Dat.leavesExact; rw [liveAt3_10 t], after3_10]
  rw [show (dat V c).leavesExact 11 t = owns (c : Thread nD τ) (ms3_11 t) fullShare ((dat V c).after 11 t) from by
    unfold Dat.leavesExact; rw [liveAt3_11 t hc2], after3_11]
  rw [show (dat V c).leavesExact 12 t = owns (c : Thread nD τ) (ms3_12 t) fullShare ((dat V c).after 12 t) from by
    unfold Dat.leavesExact; rw [liveAt3_12 t hc2], after3_12]
  rw [outsAt3_C V c t h0 h3]
  unfold out3_C_10 out3_C_11 out3_C_12 sout3_C_0 sout3_C_1; (try dsimp only)
  rw [PhiS_castSucc V c t, PhiS_pos V c _ _ h0]
  iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((kernelRun3_C c (grid3.coords t) _ _ _ _ _ _ _ _ _ _ _ _ _ _ _ _ _ _ _ _ _ _ _ _ _ _ _ _ _ _ hc0 hc1 hc2 (iblk V c 0 t) (iblk V c 1 t) (iblk V c 2 t) (iblk V c 3 t) (iblk V c 4 t) (iblk V c 5 t) (iblk V c 6 t) (iblk V c 7 t) (iblk V c 8 t) (iblk V c 9 t) _ _).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [HS0]; · iexact HS0
  isplitl [HS1]; · iexact HS1
  iintro ⟨H0, H1, H2, H3, H4, H5, H6, H7, H8, H9, ⟨%e10, H10⟩, ⟨%e11, H11⟩, ⟨%e12, H12⟩, ⟨%es0, HS0⟩, ⟨%es1, HS1⟩⟩
  isplitl [HS0 HS1 Hrest Hg]
  · isplitl [HS0 HS1 Hrest]
    · isplitl [HS0 HS1]
      · isplitl [HS0]
        · unfold owns; iexists _; isplitr
          swap; · iexact HS0
          ipureintro; exact View.read_writes_of_cover _ _ _ _ _ (scover3_C_0 c _ _ _ _ _ _ _ _ _ _ _ _ _ _ _ _ _ _ _ _ _ _ _ _ _ _ _ _ _ _ _ _ _ _ _ _ _ _ _ _ _ _ _ _ _ _)
        · unfold owns; iexists _; isplitr
          swap; · iexact HS1
          ipureintro; exact View.read_writes_of_cover _ _ _ _ _ (scover3_C_1 c _ _ _ _ _ _ _ _ _ _ _ _ _ _ _ _ _ _ _ _ _ _ _ _ _ _ _ _ _ _ _ _ _ _ _ _ _ _ _ _ _ _ _ _ _ _)
      · iexact Hrest
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact View.read_writes_of_cover _ _ _ _ _ (cover3_C_10 c _ _ _ _ _ _ _ _ _ _ _ _ _ _ _ _ _ _ _ _ _ _ _ _ _ _ _ _ _ _ _ _ _ _ _ _ _ _ _ _ _ _ _ _ _ _)
  isplitl [H11]
  · unfold owns; iexists _; isplitr
    swap; · iexact H11
    ipureintro; exact View.read_writes_of_cover _ _ _ _ _ (cover3_C_11 c _ _ _ _ _ _ _ _ _ _ _ _ _ _ _ _ _ _ _ _ _ _ _ _ _ _ _ _ _ _ _ _ _ _ _ _ _ _ _ _ _ _ _ _ _ _)
  unfold owns; iexists _; isplitr
  swap; · iexact H12
  ipureintro; exact View.read_writes_of_cover _ _ _ _ _ (cover3_C_12 c _ _ _ _ _ _ _ _ _ _ _ _ _ _ _ _ _ _ _ _ _ _ _ _ _ _ _ _ _ _ _ _ _ _ _ _ _ _ _ _ _ _ _ _ _ _)

/-- The body at any point. -/
theorem sound_body (c : Dev nD) (t : Fin cfg3.N) :
    bodyPre V c t ⊢ wp frame (wpE (defs₀ (F := F)) Variants.none c none) Set.univ (bodyAt3 t) (fun _ => bodyPost V c t) := by
  by_cases h0 : t.val = 0
  · exact sound_body_A V c t h0
  · by_cases h3 : t.val = 3
    · exact sound_body_C V c t h0 h3
    · exact sound_body_B V c t h0 h3

/-- The body obligation, at every point. -/
theorem body_obligation (c : Dev nD) : BodyObligation (dat (F := F) V c) (defs₀ (F := F)) Variants.none () Set.univ := fun t => by
  rw [bigSep_W3, bigSep_W3]
  exact sound_body V c t

/-- What the launch hands the region is the invariant before the first point. -/
theorem hin (c : Dev nD) : Pipeline.ΦA spec3 c ⊢ (dat V c).Φ 0 := by
  rw [show (dat V c).Φ 0 = PhiS V c 0 (Nat.zero_le _) from rfl, PhiS_zero V c 0 _ rfl]
  try exact Idealize.SL.BI.Entails.refl _

/-- After any point the invariant gives the class invariant back: the carried rows' named contents are forgotten. -/
theorem Phi_out (c : Dev nD) (t : Fin (cfg3.N + 1)) (ht : t.val ≠ 0) : (dat V c).Φ t ⊢ Pipeline.ΦA spec3 c := by
  rw [show (dat V c).Φ t = PhiS V c t.val (Nat.le_of_lt_succ t.isLt) from rfl, PhiS_pos V c _ _ ht, PhiA3_eq]
  iintro ⟨⟨⟨HS0, HS1⟩, Hrest⟩, Hg⟩
  isplitl [HS0 HS1 Hrest]
  · isplitl [HS0 HS1]
    · isplitl [HS0]
      · iexists _; iexact HS0
      · iexists _; iexact HS1
    · iexact Hrest
  iexact Hg

/-- The same after the last point. -/
theorem hout (c : Dev nD) : (dat V c).Φ (Fin.last cfg3.N) ⊢ Pipeline.ΦA spec3 c :=
  Phi_out V c _ (by rw [Fin.val_last]; have : cfg3.N = 4 := N_3; omega)

end Cert.Kernel.Reg3

end
-- ==== Proof.BitsReg4Body.lean ====
/-
  The head kernel's region: the body obligation.

  At every grid point the body, called on the point's staging buffers (the inputs at their blocks) and the two
  carried rows as the point before left them, leaves the first output's buffer, the two carried rows and - at the
  last point - the last two outputs' buffers at what the proof data names, and everything else as it found it. The
  three control cases are the first point (the carried rows are started), the middle points (they are combined with
  the block's own column minimum and maximum) and the last point (combined, then copied out).
-/
import proofs.«100906_j73718818669321_2_alg».proof.Proof.BitsReg4Dat

set_option maxRecDepth 16384

noncomputable section

namespace Cert.Kernel.Reg4

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The inputs and the first output are never idle. -/
theorem liveAt4_0 : ∀ t : Fin cfg4.N, cfg4.idle 0 (grid4.coords t) = false := fun _ => rfl
theorem liveAt4_1 : ∀ t : Fin cfg4.N, cfg4.idle 1 (grid4.coords t) = false := fun _ => rfl
theorem liveAt4_2 : ∀ t : Fin cfg4.N, cfg4.idle 2 (grid4.coords t) = false := fun _ => rfl
theorem liveAt4_3 : ∀ t : Fin cfg4.N, cfg4.idle 3 (grid4.coords t) = false := fun _ => rfl
theorem liveAt4_4 : ∀ t : Fin cfg4.N, cfg4.idle 4 (grid4.coords t) = false := fun _ => rfl
theorem liveAt4_5 : ∀ t : Fin cfg4.N, cfg4.idle 5 (grid4.coords t) = false := fun _ => rfl
theorem liveAt4_6 : ∀ t : Fin cfg4.N, cfg4.idle 6 (grid4.coords t) = false := fun _ => rfl
theorem liveAt4_7 : ∀ t : Fin cfg4.N, cfg4.idle 7 (grid4.coords t) = false := fun _ => rfl
theorem liveAt4_8 : ∀ t : Fin cfg4.N, cfg4.idle 8 (grid4.coords t) = false := fun _ => rfl
theorem liveAt4_9 : ∀ t : Fin cfg4.N, cfg4.idle 9 (grid4.coords t) = false := fun _ => rfl
theorem liveAt4_10 : ∀ t : Fin cfg4.N, cfg4.idle 10 (grid4.coords t) = false := fun _ => rfl

/-- What the body is called with at point `t`, the windows one by one, -/
def bodyPre (c : Dev nD) (t : Fin cfg4.N) : sProp 𝕄 :=
  iprop((dat V c).Φ t.castSucc ∗ (dat V c).owesAt () t.castSucc
    ∗ (∃ d, owns (c : Thread nD τ) (ms4_0 t) fullShare ((dat V c).before 0 t d))
    ∗ (∃ d, owns (c : Thread nD τ) (ms4_1 t) fullShare ((dat V c).before 1 t d))
    ∗ (∃ d, owns (c : Thread nD τ) (ms4_2 t) fullShare ((dat V c).before 2 t d))
    ∗ (∃ d, owns (c : Thread nD τ) (ms4_3 t) fullShare ((dat V c).before 3 t d))
    ∗ (∃ d, owns (c : Thread nD τ) (ms4_4 t) fullShare ((dat V c).before 4 t d))
    ∗ (∃ d, owns (c : Thread nD τ) (ms4_5 t) fullShare ((dat V c).before 5 t d))
    ∗ (∃ d, owns (c : Thread nD τ) (ms4_6 t) fullShare ((dat V c).before 6 t d))
    ∗ (∃ d, owns (c : Thread nD τ) (ms4_7 t) fullShare ((dat V c).before 7 t d))
    ∗ (∃ d, owns (c : Thread nD τ) (ms4_8 t) fullShare ((dat V c).before 8 t d))
    ∗ (∃ d, owns (c : Thread nD τ) (ms4_9 t) fullShare ((dat V c).before 9 t d))
    ∗ (∃ d, owns (c : Thread nD τ) (ms4_10 t) fullShare ((dat V c).before 10 t d))
    ∗ (∃ d, owns (c : Thread nD τ) (ms4_11 t) fullShare ((dat V c).before 11 t d))
    ∗ (∃ d, owns (c : Thread nD τ) (ms4_12 t) fullShare ((dat V c).before 12 t d)))

/-- and what it returns. -/
def bodyPost (c : Dev nD) (t : Fin cfg4.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t
    ∗ (dat V c).leavesExact 10 t
    ∗ (dat V c).leavesExact 11 t
    ∗ (dat V c).leavesExact 12 t)

set_option maxHeartbeats 4800000 in
/-- The first point. -/
theorem sound_body_A (c : Dev nD) (t : Fin cfg4.N) (h0 : t.val = 0) :
    bodyPre V c t ⊢ wp frame (wpE (defs₀ (F := F)) Variants.none c none) Set.univ (bodyAt4 t) (fun _ => bodyPost V c t) := by
  unfold bodyPre bodyPost bodyAt4
  simp only [before4_0, before4_1, before4_2, before4_3, before4_4, before4_5, before4_6, before4_7, before4_8, before4_9]
  rw [show (dat V c).owesAt () t.succ = (dat V c).owesAt () t.castSucc from rfl]
  rw [show (dat V c).Φ t.succ = PhiS V c (t.val + 1) t.isLt from rfl, PhiS_succ]
  have hN : t.val < 4 := lt_of_lt_of_eq t.isLt (show cfg4.N = 4 from N_4)
  have h3 : ¬t.val = 3 := by omega
  have hc0 : cond4_0 (grid4.coords t) := (hcond4_0 t).mpr h0
  have hc1 : ¬cond4_1 (grid4.coords t) := fun h => (hcond4_1 t).mp h h0
  have hc2 : ¬cond4_2 (grid4.coords t) := fun h => h3 ((hcond4_2 t).mp h)
  rw [show (dat V c).leavesExact 0 t = owns (c : Thread nD τ) (ms4_0 t) fullShare ((dat V c).after 0 t) from by
    unfold Dat.leavesExact; rw [liveAt4_0 t], after4_0]
  rw [show (dat V c).leavesExact 1 t = owns (c : Thread nD τ) (ms4_1 t) fullShare ((dat V c).after 1 t) from by
    unfold Dat.leavesExact; rw [liveAt4_1 t], after4_1]
  rw [show (dat V c).leavesExact 2 t = owns (c : Thread nD τ) (ms4_2 t) fullShare ((dat V c).after 2 t) from by
    unfold Dat.leavesExact; rw [liveAt4_2 t], after4_2]
  rw [show (dat V c).leavesExact 3 t = owns (c : Thread nD τ) (ms4_3 t) fullShare ((dat V c).after 3 t) from by
    unfold Dat.leavesExact; rw [liveAt4_3 t], after4_3]
  rw [show (dat V c).leavesExact 4 t = owns (c : Thread nD τ) (ms4_4 t) fullShare ((dat V c).after 4 t) from by
    unfold Dat.leavesExact; rw [liveAt4_4 t], after4_4]
  rw [show (dat V c).leavesExact 5 t = owns (c : Thread nD τ) (ms4_5 t) fullShare ((dat V c).after 5 t) from by
    unfold Dat.leavesExact; rw [liveAt4_5 t], after4_5]
  rw [show (dat V c).leavesExact 6 t = owns (c : Thread nD τ) (ms4_6 t) fullShare ((dat V c).after 6 t) from by
    unfold Dat.leavesExact; rw [liveAt4_6 t], after4_6]
  rw [show (dat V c).leavesExact 7 t = owns (c : Thread nD τ) (ms4_7 t) fullShare ((dat V c).after 7 t) from by
    unfold Dat.leavesExact; rw [liveAt4_7 t], after4_7]
  rw [show (dat V c).leavesExact 8 t = owns (c : Thread nD τ) (ms4_8 t) fullShare ((dat V c).after 8 t) from by
    unfold Dat.leavesExact; rw [liveAt4_8 t], after4_8]
  rw [show (dat V c).leavesExact 9 t = owns (c : Thread nD τ) (ms4_9 t) fullShare ((dat V c).after 9 t) from by
    unfold Dat.leavesExact; rw [liveAt4_9 t], after4_9]
  rw [show (dat V c).leavesExact 10 t = owns (c : Thread nD τ) (ms4_10 t) fullShare ((dat V c).after 10 t) from by
    unfold Dat.leavesExact; rw [liveAt4_10 t], after4_10]
  rw [Dat.leavesExact_idle (dat V c) 11 t (idleAt4_11 t hc2) (noFlush4_11 t hc2)]
  rw [Dat.leavesExact_idle (dat V c) 12 t (idleAt4_12 t hc2) (noFlush4_12 t hc2)]
  rw [outsAt4_A V c t h0 h3]
  unfold out4_A_10 sout4_A_0 sout4_A_1; (try dsimp only)
  rw [PhiS_castSucc V c t, PhiS_zero V c _ _ h0, PhiA4_eq]
  iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((kernelRun4_A c (grid4.coords t) _ _ _ _ _ _ _ _ _ _ _ _ _ _ _ _ _ _ _ _ _ _ _ _ _ _ _ _ _ _ hc0 hc1 hc2 (iblk V c 0 t) (iblk V c 1 t) (iblk V c 2 t) (iblk V c 3 t) (iblk V c 4 t) (iblk V c 5 t) (iblk V c 6 t) (iblk V c 7 t) (iblk V c 8 t) (iblk V c 9 t)).2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexact H11
  isplitl [H12]; · iexact H12
  isplitl [HS0]; · iexact HS0
  isplitl [HS1]; · iexact HS1
  iintro ⟨H0, H1, H2, H3, H4, H5, H6, H7, H8, H9, ⟨%e10, H10⟩, H11, H12, ⟨%es0, HS0⟩, ⟨%es1, HS1⟩⟩
  isplitl [HS0 HS1 Hrest Hg]
  · isplitl [HS0 HS1 Hrest]
    · isplitl [HS0 HS1]
      · isplitl [HS0]
        · unfold owns; iexists _; isplitr
          swap; · iexact HS0
          ipureintro; exact View.read_writes_of_cover _ _ _ _ _ (scover4_A_0 c _ _ _ _ _ _ _ _ _ _ _ _ _ _ _ _ _ _ _ _ _ _ _ _ _ _ _ _ _ _ _ _ _ _ _ _ _ _ _ _ _ _ _ _)
        · unfold owns; iexists _; isplitr
          swap; · iexact HS1
          ipureintro; exact View.read_writes_of_cover _ _ _ _ _ (scover4_A_1 c _ _ _ _ _ _ _ _ _ _ _ _ _ _ _ _ _ _ _ _ _ _ _ _ _ _ _ _ _ _ _ _ _ _ _ _ _ _ _ _ _ _ _ _)
      · iexact Hrest
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact View.read_writes_of_cover _ _ _ _ _ (cover4_A_10 c _ _ _ _ _ _ _ _ _ _ _ _ _ _ _ _ _ _ _ _ _ _ _ _ _ _ _ _ _ _ _ _ _ _ _ _ _ _ _ _ _ _ _ _)
  isplitl [H11]; · iexists _; iexact H11
  iexists _; iexact H12

set_option maxHeartbeats 4800000 in
/-- A middle point. -/
theorem sound_body_B (c : Dev nD) (t : Fin cfg4.N) (h0 : ¬t.val = 0) (h3 : ¬t.val = 3) :
    bodyPre V c t ⊢ wp frame (wpE (defs₀ (F := F)) Variants.none c none) Set.univ (bodyAt4 t) (fun _ => bodyPost V c t) := by
  unfold bodyPre bodyPost bodyAt4
  simp only [before4_0, before4_1, before4_2, before4_3, before4_4, before4_5, before4_6, before4_7, before4_8, before4_9]
  rw [show (dat V c).owesAt () t.succ = (dat V c).owesAt () t.castSucc from rfl]
  rw [show (dat V c).Φ t.succ = PhiS V c (t.val + 1) t.isLt from rfl, PhiS_succ]
  have hN : t.val < 4 := lt_of_lt_of_eq t.isLt (show cfg4.N = 4 from N_4)
  have hc0 : ¬cond4_0 (grid4.coords t) := fun h => h0 ((hcond4_0 t).mp h)
  have hc1 : cond4_1 (grid4.coords t) := (hcond4_1 t).mpr h0
  have hc2 : ¬cond4_2 (grid4.coords t) := fun h => h3 ((hcond4_2 t).mp h)
  rw [show (dat V c).leavesExact 0 t = owns (c : Thread nD τ) (ms4_0 t) fullShare ((dat V c).after 0 t) from by
    unfold Dat.leavesExact; rw [liveAt4_0 t], after4_0]
  rw [show (dat V c).leavesExact 1 t = owns (c : Thread nD τ) (ms4_1 t) fullShare ((dat V c).after 1 t) from by
    unfold Dat.leavesExact; rw [liveAt4_1 t], after4_1]
  rw [show (dat V c).leavesExact 2 t = owns (c : Thread nD τ) (ms4_2 t) fullShare ((dat V c).after 2 t) from by
    unfold Dat.leavesExact; rw [liveAt4_2 t], after4_2]
  rw [show (dat V c).leavesExact 3 t = owns (c : Thread nD τ) (ms4_3 t) fullShare ((dat V c).after 3 t) from by
    unfold Dat.leavesExact; rw [liveAt4_3 t], after4_3]
  rw [show (dat V c).leavesExact 4 t = owns (c : Thread nD τ) (ms4_4 t) fullShare ((dat V c).after 4 t) from by
    unfold Dat.leavesExact; rw [liveAt4_4 t], after4_4]
  rw [show (dat V c).leavesExact 5 t = owns (c : Thread nD τ) (ms4_5 t) fullShare ((dat V c).after 5 t) from by
    unfold Dat.leavesExact; rw [liveAt4_5 t], after4_5]
  rw [show (dat V c).leavesExact 6 t = owns (c : Thread nD τ) (ms4_6 t) fullShare ((dat V c).after 6 t) from by
    unfold Dat.leavesExact; rw [liveAt4_6 t], after4_6]
  rw [show (dat V c).leavesExact 7 t = owns (c : Thread nD τ) (ms4_7 t) fullShare ((dat V c).after 7 t) from by
    unfold Dat.leavesExact; rw [liveAt4_7 t], after4_7]
  rw [show (dat V c).leavesExact 8 t = owns (c : Thread nD τ) (ms4_8 t) fullShare ((dat V c).after 8 t) from by
    unfold Dat.leavesExact; rw [liveAt4_8 t], after4_8]
  rw [show (dat V c).leavesExact 9 t = owns (c : Thread nD τ) (ms4_9 t) fullShare ((dat V c).after 9 t) from by
    unfold Dat.leavesExact; rw [liveAt4_9 t], after4_9]
  rw [show (dat V c).leavesExact 10 t = owns (c : Thread nD τ) (ms4_10 t) fullShare ((dat V c).after 10 t) from by
    unfold Dat.leavesExact; rw [liveAt4_10 t], after4_10]
  rw [Dat.leavesExact_idle (dat V c) 11 t (idleAt4_11 t hc2) (noFlush4_11 t hc2)]
  rw [Dat.leavesExact_idle (dat V c) 12 t (idleAt4_12 t hc2) (noFlush4_12 t hc2)]
  rw [outsAt4_B V c t h0 h3]
  unfold out4_B_10 sout4_B_0 sout4_B_1; (try dsimp only)
  rw [PhiS_castSucc V c t, PhiS_pos V c _ _ h0]
  iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((kernelRun4_B c (grid4.coords t) _ _ _ _ _ _ _ _ _ _ _ _ _ _ _ _ _ _ _ _ _ _ _ _ _ _ _ _ _ _ hc0 hc1 hc2 (iblk V c 0 t) (iblk V c 1 t) (iblk V c 2 t) (iblk V c 3 t) (iblk V c 4 t) (iblk V c 5 t) (iblk V c 6 t) (iblk V c 7 t) (iblk V c 8 t) (iblk V c 9 t) _ _).2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexact H11
  isplitl [H12]; · iexact H12
  isplitl [HS0]; · iexact HS0
  isplitl [HS1]; · iexact HS1
  iintro ⟨H0, H1, H2, H3, H4, H5, H6, H7, H8, H9, ⟨%e10, H10⟩, H11, H12, ⟨%es0, HS0⟩, ⟨%es1, HS1⟩⟩
  isplitl [HS0 HS1 Hrest Hg]
  · isplitl [HS0 HS1 Hrest]
    · isplitl [HS0 HS1]
      · isplitl [HS0]
        · unfold owns; iexists _; isplitr
          swap; · iexact HS0
          ipureintro; exact View.read_writes_of_cover _ _ _ _ _ (scover4_B_0 c _ _ _ _ _ _ _ _ _ _ _ _ _ _ _ _ _ _ _ _ _ _ _ _ _ _ _ _ _ _ _ _ _ _ _ _ _ _ _ _ _ _ _ _ _ _)
        · unfold owns; iexists _; isplitr
          swap; · iexact HS1
          ipureintro; exact View.read_writes_of_cover _ _ _ _ _ (scover4_B_1 c _ _ _ _ _ _ _ _ _ _ _ _ _ _ _ _ _ _ _ _ _ _ _ _ _ _ _ _ _ _ _ _ _ _ _ _ _ _ _ _ _ _ _ _ _ _)
      · iexact Hrest
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact View.read_writes_of_cover _ _ _ _ _ (cover4_B_10 c _ _ _ _ _ _ _ _ _ _ _ _ _ _ _ _ _ _ _ _ _ _ _ _ _ _ _ _ _ _ _ _ _ _ _ _ _ _ _ _ _ _ _ _ _ _)
  isplitl [H11]; · iexists _; iexact H11
  iexists _; iexact H12

set_option maxHeartbeats 4800000 in
/-- The last point. -/
theorem sound_body_C (c : Dev nD) (t : Fin cfg4.N) (h0 : ¬t.val = 0) (h3 : t.val = 3) :
    bodyPre V c t ⊢ wp frame (wpE (defs₀ (F := F)) Variants.none c none) Set.univ (bodyAt4 t) (fun _ => bodyPost V c t) := by
  unfold bodyPre bodyPost bodyAt4
  simp only [before4_0, before4_1, before4_2, before4_3, before4_4, before4_5, before4_6, before4_7, before4_8, before4_9]
  rw [show (dat V c).owesAt () t.succ = (dat V c).owesAt () t.castSucc from rfl]
  rw [show (dat V c).Φ t.succ = PhiS V c (t.val + 1) t.isLt from rfl, PhiS_succ]
  have hN : t.val < 4 := lt_of_lt_of_eq t.isLt (show cfg4.N = 4 from N_4)
  have hc0 : ¬cond4_0 (grid4.coords t) := fun h => h0 ((hcond4_0 t).mp h)
  have hc1 : cond4_1 (grid4.coords t) := (hcond4_1 t).mpr h0
  have hc2 : cond4_2 (grid4.coords t) := (hcond4_2 t).mpr h3
  rw [show (dat V c).leavesExact 0 t = owns (c : Thread nD τ) (ms4_0 t) fullShare ((dat V c).after 0 t) from by
    unfold Dat.leavesExact; rw [liveAt4_0 t], after4_0]
  rw [show (dat V c).leavesExact 1 t = owns (c : Thread nD τ) (ms4_1 t) fullShare ((dat V c).after 1 t) from by
    unfold Dat.leavesExact; rw [liveAt4_1 t], after4_1]
  rw [show (dat V c).leavesExact 2 t = owns (c : Thread nD τ) (ms4_2 t) fullShare ((dat V c).after 2 t) from by
    unfold Dat.leavesExact; rw [liveAt4_2 t], after4_2]
  rw [show (dat V c).leavesExact 3 t = owns (c : Thread nD τ) (ms4_3 t) fullShare ((dat V c).after 3 t) from by
    unfold Dat.leavesExact; rw [liveAt4_3 t], after4_3]
  rw [show (dat V c).leavesExact 4 t = owns (c : Thread nD τ) (ms4_4 t) fullShare ((dat V c).after 4 t) from by
    unfold Dat.leavesExact; rw [liveAt4_4 t], after4_4]
  rw [show (dat V c).leavesExact 5 t = owns (c : Thread nD τ) (ms4_5 t) fullShare ((dat V c).after 5 t) from by
    unfold Dat.leavesExact; rw [liveAt4_5 t], after4_5]
  rw [show (dat V c).leavesExact 6 t = owns (c : Thread nD τ) (ms4_6 t) fullShare ((dat V c).after 6 t) from by
    unfold Dat.leavesExact; rw [liveAt4_6 t], after4_6]
  rw [show (dat V c).leavesExact 7 t = owns (c : Thread nD τ) (ms4_7 t) fullShare ((dat V c).after 7 t) from by
    unfold Dat.leavesExact; rw [liveAt4_7 t], after4_7]
  rw [show (dat V c).leavesExact 8 t = owns (c : Thread nD τ) (ms4_8 t) fullShare ((dat V c).after 8 t) from by
    unfold Dat.leavesExact; rw [liveAt4_8 t], after4_8]
  rw [show (dat V c).leavesExact 9 t = owns (c : Thread nD τ) (ms4_9 t) fullShare ((dat V c).after 9 t) from by
    unfold Dat.leavesExact; rw [liveAt4_9 t], after4_9]
  rw [show (dat V c).leavesExact 10 t = owns (c : Thread nD τ) (ms4_10 t) fullShare ((dat V c).after 10 t) from by
    unfold Dat.leavesExact; rw [liveAt4_10 t], after4_10]
  rw [show (dat V c).leavesExact 11 t = owns (c : Thread nD τ) (ms4_11 t) fullShare ((dat V c).after 11 t) from by
    unfold Dat.leavesExact; rw [liveAt4_11 t hc2], after4_11]
  rw [show (dat V c).leavesExact 12 t = owns (c : Thread nD τ) (ms4_12 t) fullShare ((dat V c).after 12 t) from by
    unfold Dat.leavesExact; rw [liveAt4_12 t hc2], after4_12]
  rw [outsAt4_C V c t h0 h3]
  unfold out4_C_10 out4_C_11 out4_C_12 sout4_C_0 sout4_C_1; (try dsimp only)
  rw [PhiS_castSucc V c t, PhiS_pos V c _ _ h0]
  iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((kernelRun4_C c (grid4.coords t) _ _ _ _ _ _ _ _ _ _ _ _ _ _ _ _ _ _ _ _ _ _ _ _ _ _ _ _ _ _ hc0 hc1 hc2 (iblk V c 0 t) (iblk V c 1 t) (iblk V c 2 t) (iblk V c 3 t) (iblk V c 4 t) (iblk V c 5 t) (iblk V c 6 t) (iblk V c 7 t) (iblk V c 8 t) (iblk V c 9 t) _ _).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [HS0]; · iexact HS0
  isplitl [HS1]; · iexact HS1
  iintro ⟨H0, H1, H2, H3, H4, H5, H6, H7, H8, H9, ⟨%e10, H10⟩, ⟨%e11, H11⟩, ⟨%e12, H12⟩, ⟨%es0, HS0⟩, ⟨%es1, HS1⟩⟩
  isplitl [HS0 HS1 Hrest Hg]
  · isplitl [HS0 HS1 Hrest]
    · isplitl [HS0 HS1]
      · isplitl [HS0]
        · unfold owns; iexists _; isplitr
          swap; · iexact HS0
          ipureintro; exact View.read_writes_of_cover _ _ _ _ _ (scover4_C_0 c _ _ _ _ _ _ _ _ _ _ _ _ _ _ _ _ _ _ _ _ _ _ _ _ _ _ _ _ _ _ _ _ _ _ _ _ _ _ _ _ _ _ _ _ _ _)
        · unfold owns; iexists _; isplitr
          swap; · iexact HS1
          ipureintro; exact View.read_writes_of_cover _ _ _ _ _ (scover4_C_1 c _ _ _ _ _ _ _ _ _ _ _ _ _ _ _ _ _ _ _ _ _ _ _ _ _ _ _ _ _ _ _ _ _ _ _ _ _ _ _ _ _ _ _ _ _ _)
      · iexact Hrest
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact View.read_writes_of_cover _ _ _ _ _ (cover4_C_10 c _ _ _ _ _ _ _ _ _ _ _ _ _ _ _ _ _ _ _ _ _ _ _ _ _ _ _ _ _ _ _ _ _ _ _ _ _ _ _ _ _ _ _ _ _ _)
  isplitl [H11]
  · unfold owns; iexists _; isplitr
    swap; · iexact H11
    ipureintro; exact View.read_writes_of_cover _ _ _ _ _ (cover4_C_11 c _ _ _ _ _ _ _ _ _ _ _ _ _ _ _ _ _ _ _ _ _ _ _ _ _ _ _ _ _ _ _ _ _ _ _ _ _ _ _ _ _ _ _ _ _ _)
  unfold owns; iexists _; isplitr
  swap; · iexact H12
  ipureintro; exact View.read_writes_of_cover _ _ _ _ _ (cover4_C_12 c _ _ _ _ _ _ _ _ _ _ _ _ _ _ _ _ _ _ _ _ _ _ _ _ _ _ _ _ _ _ _ _ _ _ _ _ _ _ _ _ _ _ _ _ _ _)

/-- The body at any point. -/
theorem sound_body (c : Dev nD) (t : Fin cfg4.N) :
    bodyPre V c t ⊢ wp frame (wpE (defs₀ (F := F)) Variants.none c none) Set.univ (bodyAt4 t) (fun _ => bodyPost V c t) := by
  by_cases h0 : t.val = 0
  · exact sound_body_A V c t h0
  · by_cases h3 : t.val = 3
    · exact sound_body_C V c t h0 h3
    · exact sound_body_B V c t h0 h3

/-- The body obligation, at every point. -/
theorem body_obligation (c : Dev nD) : BodyObligation (dat (F := F) V c) (defs₀ (F := F)) Variants.none () Set.univ := fun t => by
  rw [bigSep_W4, bigSep_W4]
  exact sound_body V c t

/-- What the launch hands the region is the invariant before the first point. -/
theorem hin (c : Dev nD) : Pipeline.ΦA spec4 c ⊢ (dat V c).Φ 0 := by
  rw [show (dat V c).Φ 0 = PhiS V c 0 (Nat.zero_le _) from rfl, PhiS_zero V c 0 _ rfl]
  try exact Idealize.SL.BI.Entails.refl _

/-- After any point the invariant gives the class invariant back: the carried rows' named contents are forgotten. -/
theorem Phi_out (c : Dev nD) (t : Fin (cfg4.N + 1)) (ht : t.val ≠ 0) : (dat V c).Φ t ⊢ Pipeline.ΦA spec4 c := by
  rw [show (dat V c).Φ t = PhiS V c t.val (Nat.le_of_lt_succ t.isLt) from rfl, PhiS_pos V c _ _ ht, PhiA4_eq]
  iintro ⟨⟨⟨HS0, HS1⟩, Hrest⟩, Hg⟩
  isplitl [HS0 HS1 Hrest]
  · isplitl [HS0 HS1]
    · isplitl [HS0]
      · iexists _; iexact HS0
      · iexists _; iexact HS1
    · iexact Hrest
  iexact Hg

/-- The same after the last point. -/
theorem hout (c : Dev nD) : (dat V c).Φ (Fin.last cfg4.N) ⊢ Pipeline.ΦA spec4 c :=
  Phi_out V c _ (by rw [Fin.val_last]; have : cfg4.N = 4 := N_4; omega)

end Cert.Kernel.Reg4

end
-- ==== Proof.BitsAsmChain.lean ====
/-
  The five regions' proof data satisfy what a segment needs, so the whole program runs; and every argument array
  ends as launched.
-/
import proofs.«100906_j73718818669321_2_alg».proof.Proof.BitsAsmRun
import proofs.«100906_j73718818669321_2_alg».proof.Proof.BitsAsmVals
import proofs.«100906_j73718818669321_2_alg».proof.Proof.BitsReg0Body
import proofs.«100906_j73718818669321_2_alg».proof.Proof.BitsReg1Body
import proofs.«100906_j73718818669321_2_alg».proof.Proof.BitsReg2Body
import proofs.«100906_j73718818669321_2_alg».proof.Proof.BitsReg3Body
import proofs.«100906_j73718818669321_2_alg».proof.Proof.BitsReg4Body

noncomputable section

namespace Cert.Kernel.Asm

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]
variable (m : (ℓ : Loc nD τ sig) → Buf (Elt F) ℓ)

theorem facts0 : RegionFacts (pdats m) 0 (fun c => StableHlo.after hostOps0 (V0 m c)) (W2 m) where
  hA c w := rfl
  hq _ _ := rfl
  howed _ _ := rfl
  hrec _ _ := rfl
  hbody c := Reg0.body_obligation _ c
  hin c := Reg0.hin _ c
  hout c := Reg0.hout _ c
  hF c w := (W2_arr m c w).symm
  hrest c b hb := W2_of_ne m c b fun w e => hb (Finset.mem_image.mpr ⟨w, Finset.mem_univ _, e⟩)

theorem facts1 : RegionFacts (pdats m) 1 (fun c => StableHlo.after hostOps1 (W2 m c)) (W4 m) where
  hA c w := rfl
  hq _ _ := rfl
  howed _ _ := rfl
  hrec _ _ := rfl
  hbody c := Reg1.body_obligation _ c
  hin c := Reg1.hin _ c
  hout c := Reg1.hout _ c
  hF c w := (W4_arr m c w).symm
  hrest c b hb := W4_of_ne m c b fun w e => hb (Finset.mem_image.mpr ⟨w, Finset.mem_univ _, e⟩)

theorem facts2 : RegionFacts (pdats m) 2 (fun c => StableHlo.after hostOps2 (W4 m c)) (W6 m) where
  hA c w := rfl
  hq _ _ := rfl
  howed _ _ := rfl
  hrec _ _ := rfl
  hbody c := Reg2.body_obligation _ c
  hin c := Reg2.hin _ c
  hout c := Reg2.hout _ c
  hF c w := (W6_arr m c w).symm
  hrest c b hb := W6_of_ne m c b fun w e => hb (Finset.mem_image.mpr ⟨w, Finset.mem_univ _, e⟩)

theorem facts3 : RegionFacts (pdats m) 3 (fun c => StableHlo.after hostOps3 (W6 m c)) (W8 m) where
  hA c w := rfl
  hq _ _ := rfl
  howed _ _ := rfl
  hrec _ _ := rfl
  hbody c := Reg3.body_obligation _ c
  hin c := Reg3.hin _ c
  hout c := Reg3.hout _ c
  hF c w := (W8_arr m c w).symm
  hrest c b hb := W8_of_ne m c b fun w e => hb (Finset.mem_image.mpr ⟨w, Finset.mem_univ _, e⟩)

theorem facts4 : RegionFacts (pdats m) 4 (fun c => StableHlo.after hostOps4 (W8 m c)) (W10 m) where
  hA c w := rfl
  hq _ _ := rfl
  howed _ _ := rfl
  hrec _ _ := rfl
  hbody c := Reg4.body_obligation _ c
  hin c := Reg4.hin _ c
  hout c := Reg4.hout _ c
  hF c w := (W10_arr m c w).symm
  hrest c b hb := W10_of_ne m c b fun w e => hb (Finset.mem_image.mpr ⟨w, Finset.mem_univ _, e⟩)

/-- The run: every weakly fair execution terminates, nothing faulting, and ends with every unscoped buffer at the
    last valuation. -/
theorem run (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W12 m c b) :=
  run_all (pdats m) m ρ (W2 m) (W4 m) (W6 m) (W8 m) (W10 m) (facts0 m) (facts1 m) (facts2 m) (facts3 m) (facts4 m)

/-- The frame: the program runs to its end and every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (W12_main_arg0 m c),
    (h c _ (mem_uc main_arg1 (by decide))).trans (W12_main_arg1 m c),
    (h c _ (mem_uc main_arg2 (by decide))).trans (W12_main_arg2 m c),
    (h c _ (mem_uc main_arg3 (by decide))).trans (W12_main_arg3 m c),
    (h c _ (mem_uc main_arg4 (by decide))).trans (W12_main_arg4 m c),
    (h c _ (mem_uc main_arg5 (by decide))).trans (W12_main_arg5 m c),
    (h c _ (mem_uc main_arg6 (by decide))).trans (W12_main_arg6 m c),
    (h c _ (mem_uc main_arg7 (by decide))).trans (W12_main_arg7 m c),
    (h c _ (mem_uc main_arg8 (by decide))).trans (W12_main_arg8 m c),
    (h c _ (mem_uc main_arg9 (by decide))).trans (W12_main_arg9 m c),
    (h c _ (mem_uc main_arg10 (by decide))).trans (W12_main_arg10 m c)⟩) (run m ρ)

end Cert.Kernel.Asm

end
-- ==== Proof.AsmSeg.lean ====
/-
  A kernel region of @main as a segment between two valuations of the unscoped buffers.

  The region is entered with every unscoped buffer held at `Vin c`, beside the core's generator register and an
  empty ledger of dues, and is left with every unscoped buffer held at `Vout c`: the windows' arrays are split out
  of the unscoped buffers at the proof data's entry contents, the generator register and the scoped buffers pass
  through the region's invariant, and the arrays are joined back at what the last point left in them, `Vout`
  agreeing with `Vin` off the windows' arrays.
-/
import proofs.«100906_j73718818669321_2_alg».proof.Proof.Gen.KernelIdeal.Regions
import Idealize.ShloMosaic.Lib.Pipeline.RegionsLoop
import Idealize.ShloMosaic.Lib.Pipeline.Frame

noncomputable section

namespace Cert.KernelIdeal.Asm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

/-- No core owes another anything: no level is assigned. -/
abbrev L : GSem nD τ sig → Finset Unit := fun _ => ∅
abbrev lv : GSem nD τ sig → Unit → ℕ := fun _ _ => 0

/-- What rides beside the buffers through every segment: the generator register at some state, and the core's
    dues, none. -/
abbrev Rest (c : Dev nD) : sProp 𝕄 :=
  iprop((∃ r, prngReg c r) ∗ ∃ W, owes (c : Thread nD τ) (0 : CellTallies nD τ sig Unit) W)

set_option backward.isDefEq.respectTransparency.types false in
/-- Region `p` as a segment from `Vin` to `Vout`, from its proof data's facts. -/
def mkSeg (pdats : (p : Fin 5) → (c : Dev nD) → Dat τ (Elt F) Unit ℕ (UR sig nD τ) ℕ (cfgs p) c) (p : Fin 5)
    (launch : Pipeline.LaunchFacts (nD := nD) (τ := τ) cfgs p)
    (Vin Vout : Dev nD → Valuation τ sig (Elt F))
    (hA : ∀ c w, (pdats p c).A w = Vin c (Pipeline.arrRef (cfgs p).spec w))
    (hq : ∀ c w, (pdats p c).q w = fullShare)
    (howed : ∀ c t, (pdats p c).owed t = 0)
    (hrec : ∀ c t, (pdats p c).recorded t = Set.univ)
    (hbody : ∀ c, BodyObligation (pdats p c) (defs₀ (F := F)) Variants.none () Set.univ)
    (hin : ∀ c, Pipeline.ΦA (cfgs p).spec c ⊢ (pdats p c).Φ 0)
    (hout : ∀ c, (pdats p c).Φ (Fin.last (cfgs p).N) ⊢ Pipeline.ΦA (cfgs p).spec c)
    (hF : ∀ c w, (pdats p c).arrAt w (cfgs p).N = Vout c (Pipeline.arrRef (cfgs p).spec w))
    (hrest : ∀ c b, b ∉ Finset.univ.image (Pipeline.arrRef (cfgs p).spec) → Vout c b = Vin c b) :
    RegionSeg (pcfgs (F := F)) adm pdats () defs₀ Variants.none L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Vin c) ∗ Rest c)
  post c := iprop(StableHlo.held (c : Thread nD τ) (Pipeline.ucRefs τ sig) (Vout c) ∗ Rest c)
  X c := iprop(∃ r, prngReg c r)
  Y c := iprop(∃ r, prngReg c r)
  Z c := Pipeline.unscopedRest (Ix := Unit) (Name := ℕ) (U := UR sig nD τ) (Lvl := ℕ) (cfgs p).spec c (fun b => Vin c b)
  hentry c := by
    rw [Pipeline.ownSems0_none]
    have hsplit := Pipeline.arrays_of_unscopedBufs (p := p) (pcfgs (F := F)) adm pdats launch.win launch.arr_whole c
      ((pdats p c).share_full (hq c)) (fun b => Vin c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [hrec c 0]; exact Set.mem_univ _)
      rw [howed c 0]; iexact HO
    isplitl [Hp]; · iexact Hp
    iexact Hrest
  hin c := by
    refine .trans ?_ (hin c)
    unfold Pipeline.ΦA
    iintro ⟨Hp, -, Hr⟩
    isplitl [Hr]; · iexact Hr
    iexact Hp
  hout c := by
    rw [Pipeline.ownSems0_none]
    refine (hout c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      launch.win launch.arr_whole c pdats ((pdats p c).share_full (hq c))
      (fun b => Vin c b) (fun b => Vout c b) ((pdats p c).arrAt · (cfgs p).N) (hF c) (hrest c)
    rw [Pipeline.unscopedBufs_held] at hjoin
    unfold Pipeline.Dat.owesAt Pipeline.owesWithin
    simp only [howed c]
    iintro ⟨Ha, HO, HY, Hrest⟩
    imodintro
    isplitl [Ha Hrest]
    · iapply hjoin; isplitl [Ha] <;> iassumption
    isplitl [HY]; · iexact HY
    icases HO with ⟨%W, -, HO⟩; iexists W; iexact HO

end Cert.KernelIdeal.Asm

end
-- ==== Proof.AsmRun.lean ====
/-
  The whole run of @main: the host stretches and the five kernel regions as segments, from the launch to the
  return, ending with every unscoped buffer of every core at the last valuation.
-/
import proofs.«100906_j73718818669321_2_alg».proof.Proof.AsmSeg

noncomputable section

namespace Cert.KernelIdeal.Asm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (pdats : (p : Fin 5) → (c : Dev nD) → Dat τ (Elt F) Unit ℕ (UR sig nD τ) ℕ (cfgs p) c)

/-- What a region's proof data must satisfy to be a segment from `Vin` to `Vout`: its entry contents are read off
    `Vin`, it holds the arrays whole and owes nothing, its body runs at every point, its invariant starts from and
    returns the scoped rest and the generator register, and its arrays end at `Vout`, which agrees with `Vin` off
    them. -/
structure RegionFacts (p : Fin 5) (Vin Vout : Dev nD → Valuation τ sig (Elt F)) : Prop where
  hA : ∀ c w, (pdats p c).A w = Vin c (Pipeline.arrRef (cfgs p).spec w)
  hq : ∀ c w, (pdats p c).q w = fullShare
  howed : ∀ c t, (pdats p c).owed t = 0
  hrec : ∀ c t, (pdats p c).recorded t = Set.univ
  hbody : ∀ c, BodyObligation (pdats p c) (defs₀ (F := F)) Variants.none () Set.univ
  hin : ∀ c, Pipeline.ΦA (cfgs p).spec c ⊢ (pdats p c).Φ 0
  hout : ∀ c, (pdats p c).Φ (Fin.last (cfgs p).N) ⊢ Pipeline.ΦA (cfgs p).spec c
  hF : ∀ c w, (pdats p c).arrAt w (cfgs p).N = Vout c (Pipeline.arrRef (cfgs p).spec w)
  hrest : ∀ c b, b ∉ Finset.univ.image (Pipeline.arrRef (cfgs p).spec) → Vout c b = Vin c b

/-- The region's segment. -/
def seg (p : Fin 5) (launch : Pipeline.LaunchFacts (nD := nD) (τ := τ) cfgs p) (Vin Vout : Dev nD → Valuation τ sig (Elt F))
    (h : RegionFacts pdats p Vin Vout) : RegionSeg (pcfgs (F := F)) adm pdats () defs₀ Variants.none L lv p :=
  mkSeg pdats p launch Vin Vout h.hA h.hq h.howed h.hrec h.hbody h.hin h.hout h.hF h.hrest

variable (m : (ℓ : Loc nD τ sig) → Buf (Elt F) ℓ) (ρ : Dev nD → PrngReg)

/-- A host stretch as a segment from the contents `W`, the rest riding along: it ends with the unscoped buffers at
    `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    HostSeg (Name := ℕ) (U := UR sig nD τ) (pcfgs (F := F)) defs₀ Variants.none L lv :=
  HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

-- the contents of the unscoped buffers after each region: unknowns the regions' facts pin down
variable (W2 W4 W6 W8 W10 : Dev nD → Valuation τ sig (Elt F))

set_option backward.isDefEq.respectTransparency.types false in
/-- From any memory with zero counters every weakly fair execution of @main terminates, nothing faulting, and every
    final memory holds each unscoped buffer of each core at the last valuation: the last two host stretches applied to
    what region 4 left. -/
theorem run_all (h0 : RegionFacts pdats 0 (fun c => StableHlo.after hostOps0 (V0 m c)) W2)
    (h1 : RegionFacts pdats 1 (fun c => StableHlo.after hostOps1 (W2 c)) W4)
    (h2 : RegionFacts pdats 2 (fun c => StableHlo.after hostOps2 (W4 c)) W6)
    (h3 : RegionFacts pdats 3 (fun c => StableHlo.after hostOps3 (W6 c)) W8)
    (h4 : RegionFacts pdats 4 (fun c => StableHlo.after hostOps4 (W8 c)) W10) :
    θ_run defs (onTc (τ := τ) (main (F := F))) ⟨m, fun _ => 0, ρ⟩ (fun r => ∀ c : Dev nD,
      ∀ b ∈ Pipeline.ucRefs τ sig, r.2.mem (((c : Thread nD τ)).1, b)
        = StableHlo.after hostOps5_1 (StableHlo.after hostOps5 (W10 c)) b) := by
  have hlast : ∀ c : Dev nD, (iprop(StableHlo.held (c : Thread nD τ) (Pipeline.ucRefs τ sig) (StableHlo.after hostOps5_1 (StableHlo.after hostOps5 (W10 c))) ∗ Rest c) : sProp 𝕄)
      ⊢ iprop((StableHlo.held (c : Thread nD τ) (Pipeline.ucRefs τ sig) (StableHlo.after hostOps5_1 (StableHlo.after hostOps5 (W10 c))) ∗ ∃ r, prngReg c r)
          ∗ ∃ W, owes (c : Thread nD τ) (0 : CellTallies nD τ sig Unit) W) := fun c => by
    iintro ⟨Hh, Hp, HO⟩
    isplitl [Hh Hp]
    · isplitl [Hh]; · iexact Hh
      iexact Hp
    iexact HO
  refine Pipeline.θ_run_regions_kit_dev (pcfgs (F := F)) adm pdats () cellOf_inj emb₁ defs₀ Variants.none L lv m ρ main
    (fun _ => [.host (hseg hostOps0 hostOps0_sub hostOps0_fresh (V0 m)), .region (seg pdats 0 launch0 _ _ h0),
      .host (hseg hostOps1 hostOps1_sub hostOps1_fresh W2), .region (seg pdats 1 launch1 _ _ h1),
      .host (hseg hostOps2 hostOps2_sub hostOps2_fresh W4), .region (seg pdats 2 launch2 _ _ h2),
      .host (hseg hostOps3 hostOps3_sub hostOps3_fresh W6), .region (seg pdats 3 launch3 _ _ h3),
      .host (hseg hostOps4 hostOps4_sub hostOps4_fresh W8), .region (seg pdats 4 launch4 _ _ h4),
      .host (hseg hostOps5 hostOps5_sub hostOps5_fresh W10),
      .host (hseg hostOps5_1 hostOps5_1_sub hostOps5_1_fresh (fun c => StableHlo.after hostOps5 (W10 c)))])
    (fun c Q => by
      rewrite [main_chain c, Seg.run_eq_chain]
      exact .rfl)
    (fun c => by simp only [Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rest c))
    (Tₙ := fun c => iprop(StableHlo.held (c : Thread nD τ) (Pipeline.ucRefs τ sig) (StableHlo.after hostOps5_1 (StableHlo.after hostOps5 (W10 c))) ∗ ∃ r, prngReg c r))
    (hch := fun c => ⟨.rfl, .rfl, .rfl, .rfl, .rfl, .rfl, .rfl, .rfl, .rfl, .rfl, .rfl, .rfl, hlast c⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b)
        = StableHlo.after hostOps5_1 (StableHlo.after hostOps5 (W10 c)) b)
    (hfin := fun c s' => by
      iintro ⟨⟨Hh, -⟩, HSI⟩
      unfold StableHlo.held
      imodintro
      iapply (pointsTo_read_all (Pipeline.ucRefs τ sig) (fun b => (((c : Thread nD τ)).1, b)) (StableHlo.after hostOps5_1 (StableHlo.after hostOps5 (W10 c))) s')
      isplitl [Hh] <;> iassumption)
    (hQ := fun s h c => h c)

end Cert.KernelIdeal.Asm

end
-- ==== Proof.Reg0Dat.lean ====
/-
  The aggregation region (the first of the five launches): at each of the 128 grid points the body loads a block of
  256 rows of the incidence array and the whole high and low parts of the stacked edge transform, and stores one
  256 × 256 block of the output. Nothing is carried from one point to the next and there is no branch, so the
  proof data is: every input window's staging buffer holds its block after the body, the output window's holds
  the payload of the three input blocks; the invariant is the untouched scoped rest.
-/
import proofs.«100906_j73718818669321_2_alg».proof.Proof.Gen.KernelIdeal.Launch
import proofs.«100906_j73718818669321_2_alg».proof.Proof.Gen.KernelIdeal.Skeleton
import proofs.«100906_j73718818669321_2_alg».proof.Proof.Gen.KernelIdeal.Points
import Idealize.ShloMosaic.Lib.Pipeline.FrameBody
import Idealize.ShloMosaic.Lib.Tactic

set_option maxRecDepth 16384

noncomputable section

namespace Cert.KernelIdeal.Reg0

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)
open Cert.KernelIdeal.Gen

variable {F : FTy → Type} [FloatOps F]

-- the buffers' contents when the region is entered
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 256 × 8192 block, the whole 8192 × 256 block and the whole 256 × 256 block: what the body loads and stores. -/
abbrev rInc : Rect S256x8192 := Rect.unit (s := S256x8192) ![0, 0] S256x8192.size inb_S256x8192_S256x8192_0_0
abbrev rTe : Rect S8192x256 := Rect.unit (s := S8192x256) ![0, 0] S8192x256.size inb_S8192x256_S8192x256_0_0
abbrev rOut : Rect S256x256 := Rect.unit (s := S256x256) ![0, 0] S256x256.size inb_S256x256_S256x256_0_0

/-- The output window's staging buffer after the body, from the three input blocks: its one store. -/
def outBlk (x0 : Vec F S256x8192 .f32) (x1 x2 : Vec F S8192x256 .bf16) : Vec F S256x256 .f32 :=
  View.canon [⟨rOut, k0_pay1 (View.ld x0 rInc) (View.ld x1 rTe) (View.ld x2 rTe)⟩]

/-- The proof data of the aggregation pipeline on core `c`. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => outBlk (iblk V c 0 t) (iblk V c 1 t) (iblk V c 2 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) :
    (dat V c).after 3 t = outBlk (iblk V c 0 t) (iblk V c 1 t) (iblk V c 2 t) := by dsimp only [dat]

end Cert.KernelIdeal.Reg0

end
-- ==== Proof.Reg1Runs.lean ====
/-
  Region 1 (the first head's kernel): what its three control cases share.

  The grid has four points of 8192 rows. Windows 0-7 are inputs (the rows of the head's input and of the aggregate,
  then six small operands fetched once); window 8 is the array before normalisation, stored whole at every point;
  windows 9 and 10 (the column minimum and maximum) are stored only at the last point. Two scratch rows carry the
  running minimum and maximum from point to point: set at point 0, folded with the point's own column minimum and
  maximum afterwards, copied to windows 9 and 10 at point 3.
-/
import proofs.«100906_j73718818669321_2_alg».proof.Proof.Gen.KernelIdeal.Launch
import proofs.«100906_j73718818669321_2_alg».proof.Proof.Gen.KernelIdeal.Skeleton
import proofs.«100906_j73718818669321_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Reg1

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or not (an input that
    is not fetched at a point has not moved its block index since the point before). -/
theorem before1_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk V c 6 t) (t : Fin cfg1.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk V c 7 t) (t : Fin cfg1.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The three conditions on the grid point -/

/-- `i == 0`: the running minimum and maximum are set. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- `i != 0`: they are folded with this point's. -/
abbrev cond1_1 (i : grid1.Coords) : Prop := (Scalar.cmpi .ne (Scalar.extui (Scalar.cmpi .ne (BitVec.ofNat 32 (i 0).val) 0#32)) 0#32) = 1#1
theorem hcond1_1 : ∀ t : Fin cfg1.N, cond1_1 (grid1.coords t) ↔ ¬ t.val % 4 = 0 :=
  (by decide +kernel : ∀ t : Fin grid1.N, cond1_1 (grid1.coords t) ↔ ¬ t.val % 4 = 0)
/-- `i == 3`: they are copied to the two small outputs. -/
abbrev cond1_2 (i : grid1.Coords) : Prop := k1_cond3 i = 1#1
theorem hcond1_2 : ∀ t : Fin cfg1.N, cond1_2 (grid1.coords t) ↔ t.val % 4 = 3 :=
  (by decide +kernel : ∀ t : Fin grid1.N, cond1_2 (grid1.coords t) ↔ t.val % 4 = 3)

/-! ## Where the windows are idle -/

theorem liveAt1 : ∀ (w : Fin 11), w.val ≤ 8 → ∀ t : Fin cfg1.N, cfg1.idle w (grid1.coords t) = false := by decide +kernel
theorem idleAt1_9 : ∀ t : Fin cfg1.N, ¬cond1_2 (grid1.coords t) → cfg1.idle 9 (grid1.coords t) = true := by decide +kernel
theorem idleAt1_10 : ∀ t : Fin cfg1.N, ¬cond1_2 (grid1.coords t) → cfg1.idle 10 (grid1.coords t) = true := by decide +kernel
theorem noFlush1_9 : ∀ t : Fin cfg1.N, ¬cond1_2 (grid1.coords t) → (cfg1.win 9).flush t = false := by decide +kernel
theorem noFlush1_10 : ∀ t : Fin cfg1.N, ¬cond1_2 (grid1.coords t) → (cfg1.win 10).flush t = false := by decide +kernel
theorem liveAt1_9 : ∀ t : Fin cfg1.N, cond1_2 (grid1.coords t) → cfg1.idle 9 (grid1.coords t) = false := by decide +kernel
theorem liveAt1_10 : ∀ t : Fin cfg1.N, cond1_2 (grid1.coords t) → cfg1.idle 10 (grid1.coords t) = false := by decide +kernel

/-! ## The memrefs the body is called with -/

/-- One staging buffer of each output window, through which its contents are stated. -/
abbrev VO1_8 : View sig .tc .vmem S8192x128 .f32 := (Memref.whole cc1_stg8_0 : Memref sig .tc .vmem S8192x128 .f32).view
abbrev VO1_9 : View sig .tc .vmem S1x128 .f32 := (Memref.whole cc1_stg9_0 : Memref sig .tc .vmem S1x128 .f32).view
abbrev VO1_10 : View sig .tc .vmem S1x128 .f32 := (Memref.whole cc1_stg10_0 : Memref sig .tc .vmem S1x128 .f32).view
abbrev ms1_0 (t : Fin cfg1.N) : Memref sig .tc .vmem S8192x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S64x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x128 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S8192x128 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x128 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S1x128 .f32 := win1_10.stage (cfg1.slots t 10)
abbrev hs1_10 (t : Fin cfg1.N) : (ms1_10 t).IsWhole := hstage1_10 ((cfg1.slots t 10).cast nbuf1_10)
/-- The two scratch rows, whole buffers of the kernel's own. -/
abbrev scM1_0 : Memref sig .tc .vmem S1x128 .f32 := Memref.whole cc1_scratch0
abbrev scM1_1 : Memref sig .tc .vmem S1x128 .f32 := Memref.whole cc1_scratch1
abbrev VS1_0 : View sig .tc .vmem S1x128 .f32 := scM1_0.view
abbrev VS1_1 : View sig .tc .vmem S1x128 .f32 := scM1_1.view

/-- The other scoped buffers of the core, none of which the body touches. -/
abbrev restBut (c : Dev nD) : sProp 𝕄 :=
  Pipeline.scopedRestBut (Ix := Unit) (Name := ℕ) (U := UR sig nD τ) (Lvl := ℕ) (Val := Elt F) spec1 c [cc1_scratch0, cc1_scratch1]

/-- The class invariant with the two scratch rows as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)) ∗ restBut c) ∗ (∃ r, prngReg c r)) := by
  unfold Pipeline.ΦA; rw [scopedRest1_split]; simp only [scM1_0, scM1_1, owns_whole]; try rfl

end Cert.KernelIdeal.Reg1

end
-- ==== Proof.Reg1RunA.lean ====
/-
  Region 1, the kernel body run at the first point (the running minimum and maximum are set from this point's columns; the two small outputs are left as found).
-/
import proofs.«100906_j73718818669321_2_alg».proof.Proof.Reg1Runs

set_option maxRecDepth 16384

noncomputable section

namespace Cert.KernelIdeal.Reg1

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body on whole memrefs, the inputs at their contents: it runs to the continuation with the inputs as they were
    and each buffer it stores into at the stores' pieces (last first), which the run finds. -/
noncomputable def kernelRun1_A (c : Dev nD) (i : grid1.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S8192x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : cond1_0 i) (hc1 : ¬cond1_1 i) (hc2 : ¬cond1_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) :
    Σ' (L8 : List (View.Piece (Elt F) S8192x128 .f32)) (LS0 : List (View.Piece (Elt F) S1x128 .f32)), { LS1 : List (View.Piece (Elt F) S1x128 .f32) //
      ∀ (xi9 : Vec F S1x128 .f32) (xi10 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xi9 ∗ owns (c : Thread nD τ) arg11 fullShare xi10 ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ owns (c : Thread nD τ) arg10 fullShare xi9 ∗ owns (c : Thread nD τ) arg11 fullShare xi10 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc1__head_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, fun xi9 xi10 E K => ?run⟩
  case run =>
    simp only [cc1__head_kernel_eq_skeleton]; unfold cc1__head_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hf9; obtain rfl := harg11.eq_unread hf10
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]
    · iexists _; isplitr; · ipureintro; exact harg10.read_unread _
      iexact H9
    isplitl [H10]
    · iexists _; isplitr; · ipureintro; exact harg11.read_unread _
      iexact H10
    isplitl [HS0]; · iexists _; iexact HS0
    iexists _; iexact HS1

end Cert.KernelIdeal.Reg1

end
-- ==== Proof.Reg1RunB.lean ====
/-
  Region 1, the kernel body run at a middle point (the running minimum and maximum are folded with this point's columns; the two small outputs are left as found).
-/
import proofs.«100906_j73718818669321_2_alg».proof.Proof.Reg1Runs

set_option maxRecDepth 16384

noncomputable section

namespace Cert.KernelIdeal.Reg1

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body on whole memrefs, the inputs at their contents: it runs to the continuation with the inputs as they were
    and each buffer it stores into at the stores' pieces (last first), which the run finds. -/
noncomputable def kernelRun1_B (c : Dev nD) (i : grid1.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S8192x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond1_0 i) (hc1 : cond1_1 i) (hc2 : ¬cond1_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (xs0 : Vec F S1x128 .f32) (xs1 : Vec F S1x128 .f32) :
    Σ' (L8 : List (View.Piece (Elt F) S8192x128 .f32)) (LS0 : List (View.Piece (Elt F) S1x128 .f32)), { LS1 : List (View.Piece (Elt F) S1x128 .f32) //
      ∀ (xi9 : Vec F S1x128 .f32) (xi10 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xi9 ∗ owns (c : Thread nD τ) arg11 fullShare xi10 ∗ owns (c : Thread nD τ) arg12 fullShare xs0 ∗ owns (c : Thread nD τ) arg13 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ owns (c : Thread nD τ) arg10 fullShare xi9 ∗ owns (c : Thread nD τ) arg11 fullShare xi10 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc1__head_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, fun xi9 xi10 E K => ?run⟩
  case run =>
    simp only [cc1__head_kernel_eq_skeleton]; unfold cc1__head_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hf9; obtain rfl := harg11.eq_unread hf10; obtain rfl := harg12.eq_unread hfs0; obtain rfl := harg13.eq_unread hfs1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]
    · iexists _; isplitr; · ipureintro; exact harg10.read_unread _
      iexact H9
    isplitl [H10]
    · iexists _; isplitr; · ipureintro; exact harg11.read_unread _
      iexact H10
    isplitl [HS0]; · iexists _; iexact HS0
    iexists _; iexact HS1

end Cert.KernelIdeal.Reg1

end
-- ==== Proof.Reg1RunC.lean ====
/-
  Region 1, the kernel body run at the last point (the running minimum and maximum are folded with this point's columns, then copied to the two small outputs).
-/
import proofs.«100906_j73718818669321_2_alg».proof.Proof.Reg1Runs

set_option maxRecDepth 16384

noncomputable section

namespace Cert.KernelIdeal.Reg1

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body on whole memrefs, the inputs at their contents: it runs to the continuation with the inputs as they were
    and each buffer it stores into at the stores' pieces (last first), which the run finds. -/
noncomputable def kernelRun1_C (c : Dev nD) (i : grid1.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S8192x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond1_0 i) (hc1 : cond1_1 i) (hc2 : cond1_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (xs0 : Vec F S1x128 .f32) (xs1 : Vec F S1x128 .f32) :
    Σ' (L8 : List (View.Piece (Elt F) S8192x128 .f32)) (L9 : List (View.Piece (Elt F) S1x128 .f32)) (L10 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0 ∗ owns (c : Thread nD τ) arg13 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc1__head_kernel i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun E K => ?run⟩
  case run =>
    simp only [cc1__head_kernel_eq_skeleton]; unfold cc1__head_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg12.eq_unread hfs0; obtain rfl := harg13.eq_unread hfs1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    isplitl [HS0]; · iexists _; iexact HS0
    iexists _; iexact HS1

end Cert.KernelIdeal.Reg1

end
-- ==== Proof.Reg1Dat.lean ====
/-
  Region 1: what the output buffers and the two scratch rows hold after each grid point, and the proof data.

  After point `t` window 8's buffer holds what the body's one whole store left; the scratch rows hold the
  minimum and maximum set at point 0 and folded at each later point with what the point before left; windows 9
  and 10 hold the scratch rows' contents at the last point (and nothing that is read before).
-/
import proofs.«100906_j73718818669321_2_alg».proof.Proof.Reg1RunA
import proofs.«100906_j73718818669321_2_alg».proof.Proof.Reg1RunB
import proofs.«100906_j73718818669321_2_alg».proof.Proof.Reg1RunC

set_option maxRecDepth 16384

noncomputable section

namespace Cert.KernelIdeal.Reg1

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The three runs at a grid point -/

/-- The body's run at the first point, on the point's memrefs and input blocks. -/
def runA (c : Dev nD) (t : Fin cfg1.N) (h0 : t.val % 4 = 0) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _)
    ((hcond1_0 t).mpr h0) (fun h => (hcond1_1 t).mp h h0)
    (fun h => by have h3 := (hcond1_2 t).mp h; omega)
    (iblk V c 0 t) (iblk V c 1 t) (iblk V c 2 t) (iblk V c 3 t) (iblk V c 4 t) (iblk V c 5 t) (iblk V c 6 t) (iblk V c 7 t)

/-- The body's run at a middle point, the scratch rows at `xs0`, `xs1`. -/
def runB (c : Dev nD) (t : Fin cfg1.N) (h0 : ¬t.val % 4 = 0) (h3 : ¬t.val % 4 = 3) (xs0 xs1 : Vec F S1x128 .f32) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _)
    (fun h => h0 ((hcond1_0 t).mp h)) ((hcond1_1 t).mpr h0) (fun h => h3 ((hcond1_2 t).mp h))
    (iblk V c 0 t) (iblk V c 1 t) (iblk V c 2 t) (iblk V c 3 t) (iblk V c 4 t) (iblk V c 5 t) (iblk V c 6 t) (iblk V c 7 t) xs0 xs1

/-- The body's run at the last point, the scratch rows at `xs0`, `xs1`. -/
def runC (c : Dev nD) (t : Fin cfg1.N) (h3 : t.val % 4 = 3) (xs0 xs1 : Vec F S1x128 .f32) :=
  kernelRun1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) scM1_1 (Memref.isWhole_whole _)
    (fun h => by have h0 := (hcond1_0 t).mp h; omega) ((hcond1_1 t).mpr (by omega)) ((hcond1_2 t).mpr h3)
    (iblk V c 0 t) (iblk V c 1 t) (iblk V c 2 t) (iblk V c 3 t) (iblk V c 4 t) (iblk V c 5 t) (iblk V c 6 t) (iblk V c 7 t) xs0 xs1

/-! ## The stores cover the buffers they go to -/

theorem coverA_8 (c : Dev nD) (t : Fin cfg1.N) (h0 : t.val % 4 = 0) (y : S8192x128.Idx) : ∃ pc ∈ (runA V c t h0).1, y ∈ pc.1.set :=
  View.cover_of_tiledL (runA V c t h0).1 S8192x128.size (by sl_kernel_rfl) y
theorem coverA_s0 (c : Dev nD) (t : Fin cfg1.N) (h0 : t.val % 4 = 0) (y : S1x128.Idx) : ∃ pc ∈ (runA V c t h0).2.1, y ∈ pc.1.set :=
  View.cover_of_tiledL (runA V c t h0).2.1 S1x128.size (by sl_kernel_rfl) y
theorem coverA_s1 (c : Dev nD) (t : Fin cfg1.N) (h0 : t.val % 4 = 0) (y : S1x128.Idx) : ∃ pc ∈ (runA V c t h0).2.2.1, y ∈ pc.1.set :=
  View.cover_of_tiledL (runA V c t h0).2.2.1 S1x128.size (by sl_kernel_rfl) y

theorem coverB_8 (c : Dev nD) (t : Fin cfg1.N) (h0 : ¬t.val % 4 = 0) (h3 : ¬t.val % 4 = 3) (xs0 xs1 : Vec F S1x128 .f32) (y : S8192x128.Idx) :
    ∃ pc ∈ (runB V c t h0 h3 xs0 xs1).1, y ∈ pc.1.set :=
  View.cover_of_tiledL (runB V c t h0 h3 xs0 xs1).1 S8192x128.size (by sl_kernel_rfl) y
theorem coverB_s0 (c : Dev nD) (t : Fin cfg1.N) (h0 : ¬t.val % 4 = 0) (h3 : ¬t.val % 4 = 3) (xs0 xs1 : Vec F S1x128 .f32) (y : S1x128.Idx) :
    ∃ pc ∈ (runB V c t h0 h3 xs0 xs1).2.1, y ∈ pc.1.set :=
  View.cover_of_tiledL (runB V c t h0 h3 xs0 xs1).2.1 S1x128.size (by sl_kernel_rfl) y
theorem coverB_s1 (c : Dev nD) (t : Fin cfg1.N) (h0 : ¬t.val % 4 = 0) (h3 : ¬t.val % 4 = 3) (xs0 xs1 : Vec F S1x128 .f32) (y : S1x128.Idx) :
    ∃ pc ∈ (runB V c t h0 h3 xs0 xs1).2.2.1, y ∈ pc.1.set :=
  View.cover_of_tiledL (runB V c t h0 h3 xs0 xs1).2.2.1 S1x128.size (by sl_kernel_rfl) y

theorem coverC_8 (c : Dev nD) (t : Fin cfg1.N) (h3 : t.val % 4 = 3) (xs0 xs1 : Vec F S1x128 .f32) (y : S8192x128.Idx) :
    ∃ pc ∈ (runC V c t h3 xs0 xs1).1, y ∈ pc.1.set :=
  View.cover_of_tiledL (runC V c t h3 xs0 xs1).1 S8192x128.size (by sl_kernel_rfl) y
theorem coverC_9 (c : Dev nD) (t : Fin cfg1.N) (h3 : t.val % 4 = 3) (xs0 xs1 : Vec F S1x128 .f32) (y : S1x128.Idx) :
    ∃ pc ∈ (runC V c t h3 xs0 xs1).2.1, y ∈ pc.1.set :=
  View.cover_of_tiledL (runC V c t h3 xs0 xs1).2.1 S1x128.size (by sl_kernel_rfl) y
theorem coverC_10 (c : Dev nD) (t : Fin cfg1.N) (h3 : t.val % 4 = 3) (xs0 xs1 : Vec F S1x128 .f32) (y : S1x128.Idx) :
    ∃ pc ∈ (runC V c t h3 xs0 xs1).2.2.1, y ∈ pc.1.set :=
  View.cover_of_tiledL (runC V c t h3 xs0 xs1).2.2.1 S1x128.size (by sl_kernel_rfl) y
theorem coverC_s0 (c : Dev nD) (t : Fin cfg1.N) (h3 : t.val % 4 = 3) (xs0 xs1 : Vec F S1x128 .f32) (y : S1x128.Idx) :
    ∃ pc ∈ (runC V c t h3 xs0 xs1).2.2.2.1, y ∈ pc.1.set :=
  View.cover_of_tiledL (runC V c t h3 xs0 xs1).2.2.2.1 S1x128.size (by sl_kernel_rfl) y
theorem coverC_s1 (c : Dev nD) (t : Fin cfg1.N) (h3 : t.val % 4 = 3) (xs0 xs1 : Vec F S1x128 .f32) (y : S1x128.Idx) :
    ∃ pc ∈ (runC V c t h3 xs0 xs1).2.2.2.2.1, y ∈ pc.1.set :=
  View.cover_of_tiledL (runC V c t h3 xs0 xs1).2.2.2.2.1 S1x128.size (by sl_kernel_rfl) y

/-! ## What each case leaves: (window 8, window 9, window 10, scratch 0, scratch 1) -/

/-- Contents nothing reads: a small output's buffer at a point that does not store into it. -/
def unread9 : Vec F S1x128 .f32 := VO1_9.read (Elt F) (VO1_9.writes (Elt F) VO1_9.junk [])
def unread10 : Vec F S1x128 .f32 := VO1_10.read (Elt F) (VO1_10.writes (Elt F) VO1_10.junk [])

def leftA (c : Dev nD) (t : Fin cfg1.N) (h0 : t.val % 4 = 0) : Vec F S8192x128 .f32 × Vec F S1x128 .f32 × Vec F S1x128 .f32 × Vec F S1x128 .f32 × Vec F S1x128 .f32 :=
  (VO1_8.read (Elt F) (VO1_8.writes (Elt F) VO1_8.junk (runA V c t h0).1), unread9, unread10,
   VS1_0.read (Elt F) (VS1_0.writes (Elt F) VS1_0.junk (runA V c t h0).2.1),
   VS1_1.read (Elt F) (VS1_1.writes (Elt F) VS1_1.junk (runA V c t h0).2.2.1))

def leftB (c : Dev nD) (t : Fin cfg1.N) (h0 : ¬t.val % 4 = 0) (h3 : ¬t.val % 4 = 3) (xs0 xs1 : Vec F S1x128 .f32) : Vec F S8192x128 .f32 × Vec F S1x128 .f32 × Vec F S1x128 .f32 × Vec F S1x128 .f32 × Vec F S1x128 .f32 :=
  (VO1_8.read (Elt F) (VO1_8.writes (Elt F) VO1_8.junk (runB V c t h0 h3 xs0 xs1).1), unread9, unread10,
   VS1_0.read (Elt F) (VS1_0.writes (Elt F) VS1_0.junk (runB V c t h0 h3 xs0 xs1).2.1),
   VS1_1.read (Elt F) (VS1_1.writes (Elt F) VS1_1.junk (runB V c t h0 h3 xs0 xs1).2.2.1))

def leftC (c : Dev nD) (t : Fin cfg1.N) (h3 : t.val % 4 = 3) (xs0 xs1 : Vec F S1x128 .f32) : Vec F S8192x128 .f32 × Vec F S1x128 .f32 × Vec F S1x128 .f32 × Vec F S1x128 .f32 × Vec F S1x128 .f32 :=
  (VO1_8.read (Elt F) (VO1_8.writes (Elt F) VO1_8.junk (runC V c t h3 xs0 xs1).1),
   VO1_9.read (Elt F) (VO1_9.writes (Elt F) VO1_9.junk (runC V c t h3 xs0 xs1).2.1),
   VO1_10.read (Elt F) (VO1_10.writes (Elt F) VO1_10.junk (runC V c t h3 xs0 xs1).2.2.1),
   VS1_0.read (Elt F) (VS1_0.writes (Elt F) VS1_0.junk (runC V c t h3 xs0 xs1).2.2.2.1),
   VS1_1.read (Elt F) (VS1_1.writes (Elt F) VS1_1.junk (runC V c t h3 xs0 xs1).2.2.2.2.1))

/-- What the buffers hold after the body at position `n`: the case the position is in, a later point's scratch
    rows starting from what the point before left. -/
def outsAt1 (c : Dev nD) : (n : ℕ) → n < cfg1.N → Vec F S8192x128 .f32 × Vec F S1x128 .f32 × Vec F S1x128 .f32 × Vec F S1x128 .f32 × Vec F S1x128 .f32
  | 0, hn => leftA V c ⟨0, hn⟩ (Nat.zero_mod _)
  | n + 1, hn =>
    if h3 : (n + 1) % 4 = 3 then
      leftC V c ⟨n + 1, hn⟩ h3 (outsAt1 c n (Nat.lt_of_succ_lt hn)).2.2.2.1 (outsAt1 c n (Nat.lt_of_succ_lt hn)).2.2.2.2
    else
      leftB V c ⟨n + 1, hn⟩ (by have hN : n + 1 < 4 := lt_of_lt_of_eq hn (show cfg1.N = 4 from N_1); show ¬(n + 1) % 4 = 0; omega) h3
        (outsAt1 c n (Nat.lt_of_succ_lt hn)).2.2.2.1 (outsAt1 c n (Nat.lt_of_succ_lt hn)).2.2.2.2

theorem outsAt1_A (c : Dev nD) (t : Fin cfg1.N) (h0 : t.val % 4 = 0) :
    outsAt1 V c t.val t.isLt = leftA V c t h0 := by
  obtain ⟨n, hn⟩ := t
  cases n with
  | zero => exact rfl
  | succ n => exact (by exfalso; have hN : n + 1 < 4 := lt_of_lt_of_eq hn (show cfg1.N = 4 from N_1); (try dsimp only at h0); omega)

theorem outsAt1_B (c : Dev nD) (t : Fin cfg1.N) (h0 : ¬t.val % 4 = 0) (h3 : ¬t.val % 4 = 3) :
    outsAt1 V c t.val t.isLt = leftB V c t h0 h3 (outsAt1 V c (t.val - 1) (Nat.lt_of_le_of_lt (Nat.sub_le _ _) t.isLt)).2.2.2.1
      (outsAt1 V c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h3).trans rfl

theorem outsAt1_C (c : Dev nD) (t : Fin cfg1.N) (h3 : t.val % 4 = 3) :
    outsAt1 V c t.val t.isLt = leftC V c t h3 (outsAt1 V c (t.val - 1) (Nat.lt_of_le_of_lt (Nat.sub_le _ _) t.isLt)).2.2.2.1
      (outsAt1 V c (t.val - 1) (Nat.lt_of_le_of_lt (Nat.sub_le _ _) t.isLt)).2.2.2.2 := by
  obtain ⟨n, hn⟩ := t
  cases n with
  | zero => exact (by exfalso; (try dsimp only at h3); omega)
  | succ n => exact (dif_pos h3).trans rfl

/-! ## The invariant between points -/

/-- Before the first point the class invariant (the scratch rows at anything); afterwards the scratch rows at what
    the point before left, the other scoped buffers untouched, the generator register at some state. -/
def PhiS (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.2.2.1) ∗ owns (c : Thread nD τ) scM1_1 fullShare ((outsAt1 V c n hn).2.2.2.2)) ∗ restBut c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(iprop(owns (c : Thread nD τ) scM1_0 fullShare ((outsAt1 V c n hn).2.2.2.1) ∗ owns (c : Thread nD τ) scM1_1 fullShare ((outsAt1 V c n hn).2.2.2.2)) ∗ restBut c) ∗ (∃ r, prngReg c r)) := rfl

theorem PhiS_pos (c : Dev nD) (n : ℕ) (h : n ≤ cfg1.N) (hz : n ≠ 0) :
    PhiS V c n h = iprop(iprop(iprop(owns (c : Thread nD τ) scM1_0 fullShare ((outsAt1 V c (n - 1) (by omega)).2.2.2.1) ∗ owns (c : Thread nD τ) scM1_1 fullShare ((outsAt1 V c (n - 1) (by omega)).2.2.2.2)) ∗ restBut c) ∗ (∃ r, prngReg c r)) := by
  cases n with
  | zero => exact absurd rfl hz
  | succ n => rfl

/-! ## The proof data -/

/-- The proof data of region 1 on core `c`: the arrays as the region finds them; after the body at point `t` each
    input's buffer at its block and the outputs' at `outsAt1`; the invariant `PhiS`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => (outsAt1 V c t.val t.isLt).1
    | ⟨9, _⟩ => (outsAt1 V c t.val t.isLt).2.1
    | ⟨10, _⟩ => (outsAt1 V c t.val t.isLt).2.2.1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after1_0 (c : Dev nD) (t : Fin cfg1.N) : (dat V c).after 0 t = iblk V c 0 t := by dsimp only [dat]
theorem after1_1 (c : Dev nD) (t : Fin cfg1.N) : (dat V c).after 1 t = iblk V c 1 t := by dsimp only [dat]
theorem after1_2 (c : Dev nD) (t : Fin cfg1.N) : (dat V c).after 2 t = iblk V c 2 t := by dsimp only [dat]
theorem after1_3 (c : Dev nD) (t : Fin cfg1.N) : (dat V c).after 3 t = iblk V c 3 t := by dsimp only [dat]
theorem after1_4 (c : Dev nD) (t : Fin cfg1.N) : (dat V c).after 4 t = iblk V c 4 t := by dsimp only [dat]
theorem after1_5 (c : Dev nD) (t : Fin cfg1.N) : (dat V c).after 5 t = iblk V c 5 t := by dsimp only [dat]
theorem after1_6 (c : Dev nD) (t : Fin cfg1.N) : (dat V c).after 6 t = iblk V c 6 t := by dsimp only [dat]
theorem after1_7 (c : Dev nD) (t : Fin cfg1.N) : (dat V c).after 7 t = iblk V c 7 t := by dsimp only [dat]
theorem after1_8 (c : Dev nD) (t : Fin cfg1.N) : (dat V c).after 8 t = (outsAt1 V c t.val t.isLt).1 := by dsimp only [dat]
theorem after1_9 (c : Dev nD) (t : Fin cfg1.N) : (dat V c).after 9 t = (outsAt1 V c t.val t.isLt).2.1 := by dsimp only [dat]
theorem after1_10 (c : Dev nD) (t : Fin cfg1.N) : (dat V c).after 10 t = (outsAt1 V c t.val t.isLt).2.2.1 := by dsimp only [dat]

theorem before1_0 (c : Dev nD) (t : Fin cfg1.N) (d) : (dat V c).before 0 t d = iblk V c 0 t :=
  before1_0_of V (dat V c) (A_eq V c 0) (after1_0 V c) t d
theorem before1_1 (c : Dev nD) (t : Fin cfg1.N) (d) : (dat V c).before 1 t d = iblk V c 1 t :=
  before1_1_of V (dat V c) (A_eq V c 1) (after1_1 V c) t d
theorem before1_2 (c : Dev nD) (t : Fin cfg1.N) (d) : (dat V c).before 2 t d = iblk V c 2 t :=
  before1_2_of V (dat V c) (A_eq V c 2) (after1_2 V c) t d
theorem before1_3 (c : Dev nD) (t : Fin cfg1.N) (d) : (dat V c).before 3 t d = iblk V c 3 t :=
  before1_3_of V (dat V c) (A_eq V c 3) (after1_3 V c) t d
theorem before1_4 (c : Dev nD) (t : Fin cfg1.N) (d) : (dat V c).before 4 t d = iblk V c 4 t :=
  before1_4_of V (dat V c) (A_eq V c 4) (after1_4 V c) t d
theorem before1_5 (c : Dev nD) (t : Fin cfg1.N) (d) : (dat V c).before 5 t d = iblk V c 5 t :=
  before1_5_of V (dat V c) (A_eq V c 5) (after1_5 V c) t d
theorem before1_6 (c : Dev nD) (t : Fin cfg1.N) (d) : (dat V c).before 6 t d = iblk V c 6 t :=
  before1_6_of V (dat V c) (A_eq V c 6) (after1_6 V c) t d
theorem before1_7 (c : Dev nD) (t : Fin cfg1.N) (d) : (dat V c).before 7 t d = iblk V c 7 t :=
  before1_7_of V (dat V c) (A_eq V c 7) (after1_7 V c) t d

end Cert.KernelIdeal.Reg1

end
-- ==== Proof.Reg2Dat.lean ====
/-
  The second attention head's kernel region: what its buffers hold, point by point.

  The grid has four points; point `t` works on rows `8192 t … 8192 t + 8191`. Window 0 is the previous head's
  array (normalised by the body on load with the previous column minimum and maximum, windows 8 and 9), window 1
  a 128-column block of the stacked aggregates, windows 2-7 the head's weights; window 10 receives the rows before
  normalisation, and two one-row buffers carry the running column minimum and maximum from point to point: set at
  the first point, combined with the block's own minimum and maximum afterwards, and copied to windows 11 and 12
  at the last point.
-/
import proofs.«100906_j73718818669321_2_alg».proof.Proof.Gen.KernelIdeal.Launch
import proofs.«100906_j73718818669321_2_alg».proof.Proof.Gen.KernelIdeal.Skeleton
import proofs.«100906_j73718818669321_2_alg».proof.Proof.Gen.KernelIdeal.Points
import Idealize.ShloMosaic.Lib.Pipeline.FrameBody

set_option maxRecDepth 16384

noncomputable section

namespace Cert.KernelIdeal.Reg2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The rows before normalisation that point `t` computes from its blocks. -/
def preAt (c : Dev nD) (t : Fin cfg2.N) : Vec F S8192x128 .f32 :=
  k2_pay15 (k2_pay4 (iblk V c 1 t)) (k2_pay6 (iblk V c 3 t)) (k2_pay7 (iblk V c 4 t)) (k2_pay8 (iblk V c 5 t)) (k2_pay9 (iblk V c 6 t)) (k2_pay10 (iblk V c 7 t)) (k2_pay11 (iblk V c 0 t) (iblk V c 8 t) (iblk V c 9 t)) (k2_pay12 (iblk V c 0 t) (iblk V c 8 t) (iblk V c 9 t)) (k2_pay13 (iblk V c 2 t)) (k2_pay14 (iblk V c 2 t))

/-- The column minimum of point `t`'s rows alone, as the first point stores it. -/
def minInitAt (c : Dev nD) (t : Fin cfg2.N) : Vec F S1x128 .f32 :=
  k2_pay16 (k2_pay4 (iblk V c 1 t)) (k2_pay6 (iblk V c 3 t)) (k2_pay7 (iblk V c 4 t)) (k2_pay8 (iblk V c 5 t)) (k2_pay9 (iblk V c 6 t)) (k2_pay10 (iblk V c 7 t)) (k2_pay11 (iblk V c 0 t) (iblk V c 8 t) (iblk V c 9 t)) (k2_pay12 (iblk V c 0 t) (iblk V c 8 t) (iblk V c 9 t)) (k2_pay13 (iblk V c 2 t)) (k2_pay14 (iblk V c 2 t))

/-- The column maximum of point `t`'s rows alone, as the first point stores it. -/
def maxInitAt (c : Dev nD) (t : Fin cfg2.N) : Vec F S1x128 .f32 :=
  k2_pay17 (k2_pay4 (iblk V c 1 t)) (k2_pay6 (iblk V c 3 t)) (k2_pay7 (iblk V c 4 t)) (k2_pay8 (iblk V c 5 t)) (k2_pay9 (iblk V c 6 t)) (k2_pay10 (iblk V c 7 t)) (k2_pay11 (iblk V c 0 t) (iblk V c 8 t) (iblk V c 9 t)) (k2_pay12 (iblk V c 0 t) (iblk V c 8 t) (iblk V c 9 t)) (k2_pay13 (iblk V c 2 t)) (k2_pay14 (iblk V c 2 t))

/-- The running column minimum after point `n`: the first point's own, then each point's combined with the one before. -/
def sminAt (c : Dev nD) : (n : ℕ) → n < cfg2.N → Vec F S1x128 .f32
  | 0, hn => minInitAt V c ⟨0, hn⟩
  | n + 1, hn => k2_pay1 (preAt V c ⟨n + 1, hn⟩) (sminAt c n (Nat.lt_of_succ_lt hn))

/-- The running column maximum after point `n`. -/
def smaxAt (c : Dev nD) : (n : ℕ) → n < cfg2.N → Vec F S1x128 .f32
  | 0, hn => maxInitAt V c ⟨0, hn⟩
  | n + 1, hn => k2_pay2 (preAt V c ⟨n + 1, hn⟩) (smaxAt c n (Nat.lt_of_succ_lt hn))

/-- The two one-row buffers the kernel carries between points. -/
abbrev scM2_0 : Memref sig .tc .vmem S1x128 .f32 := Memref.whole cc2_scratch0
abbrev scM2_1 : Memref sig .tc .vmem S1x128 .f32 := Memref.whole cc2_scratch1

/-- The region's invariant before position `n`: before the first point whatever the launch hands over; afterwards
    the two carried buffers at the running minimum and maximum the point before left, every other scoped buffer
    unopened, the generator register at some state. -/
def PhiS (c : Dev nD) : (n : ℕ) → n ≤ cfg2.N → sProp 𝕄
  | 0, _ => Pipeline.ΦA spec2 c
  | n + 1, hn => iprop(iprop(iprop(owns (c : Thread nD τ) scM2_0 fullShare (sminAt V c n hn) ∗ owns (c : Thread nD τ) scM2_1 fullShare (smaxAt V c n hn))
      ∗ Pipeline.scopedRestBut (Ix := Unit) (Name := ℕ) (U := UR sig nD τ) (Lvl := ℕ) (Val := Elt F) spec2 c [cc2_scratch0, cc2_scratch1]) ∗ (∃ r, prngReg c r))

/-- The proof data of the region on core `c`: the arrays as the region finds them; after the body at point `t`
    each input's buffer at its block, window 10's at the point's rows, windows 11 and 12 at the running minimum
    and maximum (consulted at the last point only, where the body copies them out). -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => preAt V c t
    | ⟨11, _⟩ => sminAt V c t.val t.isLt
    | ⟨12, _⟩ => smaxAt V c t.val t.isLt
    | ⟨_ + 13, h⟩ => absurd h (Nat.not_lt.2 (Nat.le_add_left _ _))
  Φ t := PhiS V c t.val (Nat.le_of_lt_succ t.isLt)
  q _ := fullShare
  owed _ := 0

end Cert.KernelIdeal.Reg2

end
-- ==== Proof.Reg3Runs.lean ====
/-
  The third head kernel's region (pipeline 3): what its three runs share.

  The body runs in one of three ways over the four grid points: at point 0 it starts the running column minimum and
  maximum (two scratch buffers carried between points) from its own block's; at points 1 and 2 it folds its block's
  into them; at point 3 it does the same and copies both to the last two output windows, which are idle before.
  Here: the windows' blocks read off the arrays as the region finds them, the branch conditions in closed form over
  the grid, where the last two outputs are idle, and the staging and scratch memrefs the body is called with.
-/
import proofs.«100906_j73718818669321_2_alg».proof.Proof.Gen.KernelIdeal.Launch
import proofs.«100906_j73718818669321_2_alg».proof.Proof.Gen.KernelIdeal.Skeleton
import proofs.«100906_j73718818669321_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of the blocks' extents recurses once per coordinate of the long axes
set_option maxRecDepth 16384

noncomputable section

namespace Cert.KernelIdeal.Reg3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not, for any proof
    data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk V c 3 t) (t : Fin cfg3.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk V c 4 t) (t : Fin cfg3.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk V c 5 t) (t : Fin cfg3.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before3_6_of {c : Dev nD} (dat : Dat τ (Elt F) Unit ℕ (UR sig nD τ) ℕ cfg3 c) (hA : dat.A 6 = V c (Pipeline.arrRef spec3 6))
    (hafter : ∀ t, dat.after 6 t = iblk V c 6 t) (t : Fin cfg3.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before3_7_of {c : Dev nD} (dat : Dat τ (Elt F) Unit ℕ (UR sig nD τ) ℕ cfg3 c) (hA : dat.A 7 = V c (Pipeline.arrRef spec3 7))
    (hafter : ∀ t, dat.after 7 t = iblk V c 7 t) (t : Fin cfg3.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before3_8_of {c : Dev nD} (dat : Dat τ (Elt F) Unit ℕ (UR sig nD τ) ℕ cfg3 c) (hA : dat.A 8 = V c (Pipeline.arrRef spec3 8))
    (hafter : ∀ t, dat.after 8 t = iblk V c 8 t) (t : Fin cfg3.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before3_9_of {c : Dev nD} (dat : Dat τ (Elt F) Unit ℕ (UR sig nD τ) ℕ cfg3 c) (hA : dat.A 9 = V c (Pipeline.arrRef spec3 9))
    (hafter : ∀ t, dat.after 9 t = iblk V c 9 t) (t : Fin cfg3.N) (d) : dat.before 9 t d = iblk V c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- `i == 0`: the running minimum and maximum are started. -/
abbrev cond3_0 (i : grid3.Coords) : Prop := (Scalar.cmpi .ne (Scalar.extui (Scalar.cmpi .eq (BitVec.ofNat 32 (i 0).val) 0#32)) 0#32) = 1#1
theorem hcond3_0 : ∀ t : Fin cfg3.N, cond3_0 (grid3.coords t) ↔ t.val = 0 :=
  (by decide +kernel : ∀ t : Fin grid3.N, cond3_0 (grid3.coords t) ↔ t.val = 0)

/-- `i != 0`: they are folded with this block's. -/
abbrev cond3_1 (i : grid3.Coords) : Prop := (Scalar.cmpi .ne (Scalar.extui (Scalar.cmpi .ne (BitVec.ofNat 32 (i 0).val) 0#32)) 0#32) = 1#1
theorem hcond3_1 : ∀ t : Fin cfg3.N, cond3_1 (grid3.coords t) ↔ ¬ t.val = 0 :=
  (by decide +kernel : ∀ t : Fin grid3.N, cond3_1 (grid3.coords t) ↔ ¬ t.val = 0)

/-- `i == 3`: they are copied to the last two outputs. -/
abbrev cond3_2 (i : grid3.Coords) : Prop := k3_cond3 i = 1#1
theorem hcond3_2 : ∀ t : Fin cfg3.N, cond3_2 (grid3.coords t) ↔ t.val = 3 :=
  (by decide +kernel : ∀ t : Fin grid3.N, cond3_2 (grid3.coords t) ↔ t.val = 3)

/-! ## Where the last two outputs are idle -/

theorem idleAt3_11 : ∀ t : Fin cfg3.N, ¬cond3_2 (grid3.coords t) → cfg3.idle 11 (grid3.coords t) = true := by decide +kernel
theorem noFlush3_11 : ∀ t : Fin cfg3.N, ¬cond3_2 (grid3.coords t) → (cfg3.win 11).flush t = false := by decide +kernel
theorem liveAt3_11 : ∀ t : Fin cfg3.N, cond3_2 (grid3.coords t) → cfg3.idle 11 (grid3.coords t) = false := by decide +kernel
theorem idleAt3_12 : ∀ t : Fin cfg3.N, ¬cond3_2 (grid3.coords t) → cfg3.idle 12 (grid3.coords t) = true := by decide +kernel
theorem noFlush3_12 : ∀ t : Fin cfg3.N, ¬cond3_2 (grid3.coords t) → (cfg3.win 12).flush t = false := by decide +kernel
theorem liveAt3_12 : ∀ t : Fin cfg3.N, cond3_2 (grid3.coords t) → cfg3.idle 12 (grid3.coords t) = false := by decide +kernel

/-! ## The memrefs the body is called with -/

/-- One staging buffer of each output window, through which its contents are stated. -/
abbrev VO3_10 : View sig .tc .vmem S8192x128 .f32 := (Memref.whole cc3_stg10_0 : Memref sig .tc .vmem S8192x128 .f32).view
abbrev VO3_11 : View sig .tc .vmem S1x128 .f32 := (Memref.whole cc3_stg11_0 : Memref sig .tc .vmem S1x128 .f32).view
abbrev VO3_12 : View sig .tc .vmem S1x128 .f32 := (Memref.whole cc3_stg12_0 : Memref sig .tc .vmem S1x128 .f32).view
/-- Each window's current staging memref at point `t`, and its wholeness. -/
abbrev ms3_0 (t : Fin cfg3.N) : Memref sig .tc .vmem S8192x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S8192x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S128x64 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x64 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x64 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1x1 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S64x128 .f32 := win3_6.stage (cfg3.slots t 6)
abbrev hs3_6 (t : Fin cfg3.N) : (ms3_6 t).IsWhole := hstage3_6 ((cfg3.slots t 6).cast nbuf3_6)
abbrev ms3_7 (t : Fin cfg3.N) : Memref sig .tc .vmem S1x128 .f32 := win3_7.stage (cfg3.slots t 7)
abbrev hs3_7 (t : Fin cfg3.N) : (ms3_7 t).IsWhole := hstage3_7 ((cfg3.slots t 7).cast nbuf3_7)
abbrev ms3_8 (t : Fin cfg3.N) : Memref sig .tc .vmem S1x128 .f32 := win3_8.stage (cfg3.slots t 8)
abbrev hs3_8 (t : Fin cfg3.N) : (ms3_8 t).IsWhole := hstage3_8 ((cfg3.slots t 8).cast nbuf3_8)
abbrev ms3_9 (t : Fin cfg3.N) : Memref sig .tc .vmem S1x128 .f32 := win3_9.stage (cfg3.slots t 9)
abbrev hs3_9 (t : Fin cfg3.N) : (ms3_9 t).IsWhole := hstage3_9 ((cfg3.slots t 9).cast nbuf3_9)
abbrev ms3_10 (t : Fin cfg3.N) : Memref sig .tc .vmem S8192x128 .f32 := win3_10.stage (cfg3.slots t 10)
abbrev hs3_10 (t : Fin cfg3.N) : (ms3_10 t).IsWhole := hstage3_10 ((cfg3.slots t 10).cast nbuf3_10)
abbrev ms3_11 (t : Fin cfg3.N) : Memref sig .tc .vmem S1x128 .f32 := win3_11.stage (cfg3.slots t 11)
abbrev hs3_11 (t : Fin cfg3.N) : (ms3_11 t).IsWhole := hstage3_11 ((cfg3.slots t 11).cast nbuf3_11)
abbrev ms3_12 (t : Fin cfg3.N) : Memref sig .tc .vmem S1x128 .f32 := win3_12.stage (cfg3.slots t 12)
abbrev hs3_12 (t : Fin cfg3.N) : (ms3_12 t).IsWhole := hstage3_12 ((cfg3.slots t 12).cast nbuf3_12)
/-- The two scratch operands: the running column minimum and maximum. -/
abbrev scM3_0 : Memref sig .tc .vmem S1x128 .f32 := Memref.whole cc3_scratch0
abbrev scM3_1 : Memref sig .tc .vmem S1x128 .f32 := Memref.whole cc3_scratch1
abbrev VS3_0 : View sig .tc .vmem S1x128 .f32 := scM3_0.view
abbrev VS3_1 : View sig .tc .vmem S1x128 .f32 := scM3_1.view

/-- The region's invariant with the two scratch operands as memrefs owned at some contents, the other scoped
    buffers unopened. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d))
          ∗ Pipeline.scopedRestBut (Ix := Unit) (Name := ℕ) (U := UR sig nD τ) (Lvl := ℕ) (Val := Elt F) spec3 c [cc3_scratch0, cc3_scratch1]) ∗ (∃ r, prngReg c r)) := by
  unfold Pipeline.ΦA; rw [scopedRest3_split]; simp only [scM3_0, scM3_1, owns_whole]; try rfl

end Cert.KernelIdeal.Reg3

end
-- ==== Proof.Reg3RunA.lean ====
/-
  The third head kernel's body run at point 0: the running minimum and maximum are started from this block's, the last two outputs are idle.
-/
import proofs.«100906_j73718818669321_2_alg».proof.Proof.Reg3Runs

-- membership in a rectangle of the blocks' extents recurses once per coordinate of the long axes
set_option maxRecDepth 16384

noncomputable section

namespace Cert.KernelIdeal.Reg3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- The pieces the body's stores leave in each buffer it stores into (last first), with the proof that on whole
    memrefs — the inputs' at their contents, the first output's at anything, the idle outputs' at contents handed back untouched,
    the two scratch buffers at anything — the body runs to the continuation holding the inputs' as they
    were and each stored buffer with its pieces written. The pieces are the witness the run finds. -/
noncomputable def kernelRun3_A (c : Dev nD) (i : grid3.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : cond3_0 i) (hc1 : ¬cond3_1 i) (hc2 : ¬cond3_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) :
    Σ' (L10 : List (View.Piece (Elt F) S8192x128 .f32)) (LS0 : List (View.Piece (Elt F) S1x128 .f32)), { LS1 : List (View.Piece (Elt F) S1x128 .f32) //
      ∀ (xi11 xi12 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ owns (c : Thread nD τ) arg12 fullShare xi11 ∗ owns (c : Thread nD τ) arg13 fullShare xi12 ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ owns (c : Thread nD τ) arg12 fullShare xi11 ∗ owns (c : Thread nD τ) arg13 fullShare xi12 ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1)) -∗ K ⟨⟩))
          ⊢ wp frame (wpE (defs₀ (F := F)) Variants.none c none) E (cc3__head_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun xi11 xi12 E K => ?run⟩
  case run =>
    simp only [cc3__head_kernel_eq_skeleton]; unfold cc3__head_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg12.eq_unread hf11; obtain rfl := harg13.eq_unread hf12
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]
    · iexists _; isplitr; · ipureintro; exact harg12.read_unread _
      iexact H11
    isplitl [H12]
    · iexists _; isplitr; · ipureintro; exact harg13.read_unread _
      iexact H12
    isplitl [HS0]; · iexists _; iexact HS0
    iexists _; iexact HS1

end Cert.KernelIdeal.Reg3

end
-- ==== Proof.Reg3RunB.lean ====
/-
  The third head kernel's body run at points 1 and 2: the running minimum and maximum are folded with this block's, the last two outputs are idle.
-/
import proofs.«100906_j73718818669321_2_alg».proof.Proof.Reg3RunA

-- membership in a rectangle of the blocks' extents recurses once per coordinate of the long axes
set_option maxRecDepth 16384

noncomputable section

namespace Cert.KernelIdeal.Reg3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- The pieces the body's stores leave in each buffer it stores into (last first), with the proof that on whole
    memrefs — the inputs' at their contents, the first output's at anything, the idle outputs' at contents handed back untouched,
    the two scratch buffers at what the point before left — the body runs to the continuation holding the inputs' as they
    were and each stored buffer with its pieces written. The pieces are the witness the run finds. -/
noncomputable def kernelRun3_B (c : Dev nD) (i : grid3.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond3_0 i) (hc1 : cond3_1 i) (hc2 : ¬cond3_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) :
    Σ' (L10 : List (View.Piece (Elt F) S8192x128 .f32)) (LS0 : List (View.Piece (Elt F) S1x128 .f32)), { LS1 : List (View.Piece (Elt F) S1x128 .f32) //
      ∀ (xi11 xi12 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ owns (c : Thread nD τ) arg12 fullShare xi11 ∗ owns (c : Thread nD τ) arg13 fullShare xi12 ∗ owns (c : Thread nD τ) arg14 fullShare xs0 ∗ owns (c : Thread nD τ) arg15 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ owns (c : Thread nD τ) arg12 fullShare xi11 ∗ owns (c : Thread nD τ) arg13 fullShare xi12 ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1)) -∗ K ⟨⟩))
          ⊢ wp frame (wpE (defs₀ (F := F)) Variants.none c none) E (cc3__head_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun xi11 xi12 E K => ?run⟩
  case run =>
    simp only [cc3__head_kernel_eq_skeleton]; unfold cc3__head_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg12.eq_unread hf11; obtain rfl := harg13.eq_unread hf12; obtain rfl := harg14.eq_unread hfs0; obtain rfl := harg15.eq_unread hfs1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]
    · iexists _; isplitr; · ipureintro; exact harg12.read_unread _
      iexact H11
    isplitl [H12]
    · iexists _; isplitr; · ipureintro; exact harg13.read_unread _
      iexact H12
    isplitl [HS0]; · iexists _; iexact HS0
    iexists _; iexact HS1

end Cert.KernelIdeal.Reg3

end
-- ==== Proof.Reg3RunC.lean ====
/-
  The third head kernel's body run at point 3: the running minimum and maximum are folded with this block's and copied to the last two outputs.
-/
import proofs.«100906_j73718818669321_2_alg».proof.Proof.Reg3RunB

-- membership in a rectangle of the blocks' extents recurses once per coordinate of the long axes
set_option maxRecDepth 16384

noncomputable section

namespace Cert.KernelIdeal.Reg3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- The pieces the body's stores leave in each buffer it stores into (last first), with the proof that on whole
    memrefs — the inputs' at their contents, the first output's at anything, the last two outputs' at anything,
    the two scratch buffers at what the point before left — the body runs to the continuation holding the inputs' as they
    were and each stored buffer with its pieces written. The pieces are the witness the run finds. -/
noncomputable def kernelRun3_C (c : Dev nD) (i : grid3.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond3_0 i) (hc1 : cond3_1 i) (hc2 : cond3_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) :
    Σ' (L10 : List (View.Piece (Elt F) S8192x128 .f32)) (L11 : List (View.Piece (Elt F) S1x128 .f32)) (L12 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs0 ∗ owns (c : Thread nD τ) arg15 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1)) -∗ K ⟨⟩))
          ⊢ wp frame (wpE (defs₀ (F := F)) Variants.none c none) E (cc3__head_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, fun E K => ?run⟩
  case run =>
    simp only [cc3__head_kernel_eq_skeleton]; unfold cc3__head_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg14.eq_unread hfs0; obtain rfl := harg15.eq_unread hfs1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]; · iexists _; iexact H11
    isplitl [H12]; · iexists _; iexact H12
    isplitl [HS0]; · iexists _; iexact HS0
    iexists _; iexact HS1

end Cert.KernelIdeal.Reg3

end
-- ==== Proof.Reg3Dat.lean ====
/-
  The third head kernel's region: what its buffers hold point by point, and the proof data.

  From the three runs' pieces: what each case leaves in the first output's staging buffer, in the last two outputs'
  (the last case only) and in the two scratch buffers; these chained over the four points (each point's scratch
  contents feed the next point's run); the region invariant with the scratch at those contents; and the proof data.
-/
import proofs.«100906_j73718818669321_2_alg».proof.Proof.Reg3RunC

-- membership in a rectangle of the blocks' extents recurses once per coordinate of the long axes
set_option maxRecDepth 16384

noncomputable section

namespace Cert.KernelIdeal.Reg3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case A's pieces for the first output's staging buffer tile it, so they cover it. -/
theorem cover3_A_10 (c : Dev nD) (i : grid3.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : cond3_0 i) (hc1 : ¬cond3_1 i) (hc2 : ¬cond3_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (y : S8192x128.Idx) :
    ∃ pc ∈ (kernelRun3_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9).1, y ∈ pc.1.set :=
  View.cover_of_tiledL (kernelRun3_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9).1 S8192x128.size (by sl_kernel_rfl) y

/-- What case A leaves in the first output's staging buffer: its pieces read back over junk. -/
def out3_A_10 (c : Dev nD) (i : grid3.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : cond3_0 i) (hc1 : ¬cond3_1 i) (hc2 : ¬cond3_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) : Vec F S8192x128 .f32 :=
  VO3_10.read (Elt F) (VO3_10.writes (Elt F) VO3_10.junk (kernelRun3_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9).1)

/-- Case A's pieces for the running-minimum scratch tile it, so they cover it. -/
theorem scover3_A_0 (c : Dev nD) (i : grid3.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : cond3_0 i) (hc1 : ¬cond3_1 i) (hc2 : ¬cond3_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (y : S1x128.Idx) :
    ∃ pc ∈ (kernelRun3_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9).2.1, y ∈ pc.1.set :=
  View.cover_of_tiledL (kernelRun3_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9).2.1 S1x128.size (by sl_kernel_rfl) y

/-- What case A leaves in the running-minimum scratch: its pieces read back over junk. -/
def sout3_A_0 (c : Dev nD) (i : grid3.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : cond3_0 i) (hc1 : ¬cond3_1 i) (hc2 : ¬cond3_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) : Vec F S1x128 .f32 :=
  VS3_0.read (Elt F) (VS3_0.writes (Elt F) VS3_0.junk (kernelRun3_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9).2.1)

/-- Case A's pieces for the running-maximum scratch tile it, so they cover it. -/
theorem scover3_A_1 (c : Dev nD) (i : grid3.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : cond3_0 i) (hc1 : ¬cond3_1 i) (hc2 : ¬cond3_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (y : S1x128.Idx) :
    ∃ pc ∈ (kernelRun3_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9).2.2.1, y ∈ pc.1.set :=
  View.cover_of_tiledL (kernelRun3_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9).2.2.1 S1x128.size (by sl_kernel_rfl) y

/-- What case A leaves in the running-maximum scratch: its pieces read back over junk. -/
def sout3_A_1 (c : Dev nD) (i : grid3.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : cond3_0 i) (hc1 : ¬cond3_1 i) (hc2 : ¬cond3_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) : Vec F S1x128 .f32 :=
  VS3_1.read (Elt F) (VS3_1.writes (Elt F) VS3_1.junk (kernelRun3_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9).2.2.1)

/-- Case B's pieces for the first output's staging buffer tile it, so they cover it. -/
theorem cover3_B_10 (c : Dev nD) (i : grid3.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond3_0 i) (hc1 : cond3_1 i) (hc2 : ¬cond3_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) (y : S8192x128.Idx) :
    ∃ pc ∈ (kernelRun3_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).1, y ∈ pc.1.set :=
  View.cover_of_tiledL (kernelRun3_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).1 S8192x128.size (by sl_kernel_rfl) y

/-- What case B leaves in the first output's staging buffer: its pieces read back over junk. -/
def out3_B_10 (c : Dev nD) (i : grid3.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond3_0 i) (hc1 : cond3_1 i) (hc2 : ¬cond3_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) : Vec F S8192x128 .f32 :=
  VO3_10.read (Elt F) (VO3_10.writes (Elt F) VO3_10.junk (kernelRun3_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).1)

/-- Case B's pieces for the running-minimum scratch tile it, so they cover it. -/
theorem scover3_B_0 (c : Dev nD) (i : grid3.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond3_0 i) (hc1 : cond3_1 i) (hc2 : ¬cond3_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) (y : S1x128.Idx) :
    ∃ pc ∈ (kernelRun3_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).2.1, y ∈ pc.1.set :=
  View.cover_of_tiledL (kernelRun3_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).2.1 S1x128.size (by sl_kernel_rfl) y

/-- What case B leaves in the running-minimum scratch: its pieces read back over junk. -/
def sout3_B_0 (c : Dev nD) (i : grid3.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond3_0 i) (hc1 : cond3_1 i) (hc2 : ¬cond3_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) : Vec F S1x128 .f32 :=
  VS3_0.read (Elt F) (VS3_0.writes (Elt F) VS3_0.junk (kernelRun3_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).2.1)

/-- Case B's pieces for the running-maximum scratch tile it, so they cover it. -/
theorem scover3_B_1 (c : Dev nD) (i : grid3.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond3_0 i) (hc1 : cond3_1 i) (hc2 : ¬cond3_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) (y : S1x128.Idx) :
    ∃ pc ∈ (kernelRun3_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).2.2.1, y ∈ pc.1.set :=
  View.cover_of_tiledL (kernelRun3_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).2.2.1 S1x128.size (by sl_kernel_rfl) y

/-- What case B leaves in the running-maximum scratch: its pieces read back over junk. -/
def sout3_B_1 (c : Dev nD) (i : grid3.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond3_0 i) (hc1 : cond3_1 i) (hc2 : ¬cond3_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) : Vec F S1x128 .f32 :=
  VS3_1.read (Elt F) (VS3_1.writes (Elt F) VS3_1.junk (kernelRun3_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).2.2.1)

/-- Case C's pieces for the first output's staging buffer tile it, so they cover it. -/
theorem cover3_C_10 (c : Dev nD) (i : grid3.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond3_0 i) (hc1 : cond3_1 i) (hc2 : cond3_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) (y : S8192x128.Idx) :
    ∃ pc ∈ (kernelRun3_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).1, y ∈ pc.1.set :=
  View.cover_of_tiledL (kernelRun3_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).1 S8192x128.size (by sl_kernel_rfl) y

/-- What case C leaves in the first output's staging buffer: its pieces read back over junk. -/
def out3_C_10 (c : Dev nD) (i : grid3.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond3_0 i) (hc1 : cond3_1 i) (hc2 : cond3_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) : Vec F S8192x128 .f32 :=
  VO3_10.read (Elt F) (VO3_10.writes (Elt F) VO3_10.junk (kernelRun3_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).1)

/-- Case C's pieces for the second output's staging buffer tile it, so they cover it. -/
theorem cover3_C_11 (c : Dev nD) (i : grid3.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond3_0 i) (hc1 : cond3_1 i) (hc2 : cond3_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) (y : S1x128.Idx) :
    ∃ pc ∈ (kernelRun3_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).2.1, y ∈ pc.1.set :=
  View.cover_of_tiledL (kernelRun3_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).2.1 S1x128.size (by sl_kernel_rfl) y

/-- What case C leaves in the second output's staging buffer: its pieces read back over junk. -/
def out3_C_11 (c : Dev nD) (i : grid3.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond3_0 i) (hc1 : cond3_1 i) (hc2 : cond3_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) : Vec F S1x128 .f32 :=
  VO3_11.read (Elt F) (VO3_11.writes (Elt F) VO3_11.junk (kernelRun3_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).2.1)

/-- Case C's pieces for the third output's staging buffer tile it, so they cover it. -/
theorem cover3_C_12 (c : Dev nD) (i : grid3.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond3_0 i) (hc1 : cond3_1 i) (hc2 : cond3_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) (y : S1x128.Idx) :
    ∃ pc ∈ (kernelRun3_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).2.2.1, y ∈ pc.1.set :=
  View.cover_of_tiledL (kernelRun3_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).2.2.1 S1x128.size (by sl_kernel_rfl) y

/-- What case C leaves in the third output's staging buffer: its pieces read back over junk. -/
def out3_C_12 (c : Dev nD) (i : grid3.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond3_0 i) (hc1 : cond3_1 i) (hc2 : cond3_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) : Vec F S1x128 .f32 :=
  VO3_12.read (Elt F) (VO3_12.writes (Elt F) VO3_12.junk (kernelRun3_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).2.2.1)

/-- Case C's pieces for the running-minimum scratch tile it, so they cover it. -/
theorem scover3_C_0 (c : Dev nD) (i : grid3.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond3_0 i) (hc1 : cond3_1 i) (hc2 : cond3_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) (y : S1x128.Idx) :
    ∃ pc ∈ (kernelRun3_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).2.2.2.1, y ∈ pc.1.set :=
  View.cover_of_tiledL (kernelRun3_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).2.2.2.1 S1x128.size (by sl_kernel_rfl) y

/-- What case C leaves in the running-minimum scratch: its pieces read back over junk. -/
def sout3_C_0 (c : Dev nD) (i : grid3.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond3_0 i) (hc1 : cond3_1 i) (hc2 : cond3_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) : Vec F S1x128 .f32 :=
  VS3_0.read (Elt F) (VS3_0.writes (Elt F) VS3_0.junk (kernelRun3_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).2.2.2.1)

/-- Case C's pieces for the running-maximum scratch tile it, so they cover it. -/
theorem scover3_C_1 (c : Dev nD) (i : grid3.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond3_0 i) (hc1 : cond3_1 i) (hc2 : cond3_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) (y : S1x128.Idx) :
    ∃ pc ∈ (kernelRun3_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).2.2.2.2.1, y ∈ pc.1.set :=
  View.cover_of_tiledL (kernelRun3_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).2.2.2.2.1 S1x128.size (by sl_kernel_rfl) y

/-- What case C leaves in the running-maximum scratch: its pieces read back over junk. -/
def sout3_C_1 (c : Dev nD) (i : grid3.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond3_0 i) (hc1 : cond3_1 i) (hc2 : cond3_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) : Vec F S1x128 .f32 :=
  VS3_1.read (Elt F) (VS3_1.writes (Elt F) VS3_1.junk (kernelRun3_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).2.2.2.2.1)

variable (V : (c : Dev nD) → (b : Ref sig .tc) → Buf (Elt F) ((c : Thread nD τ).loc b))

/-- What an idle output's component reads: junk that nothing consults (at those points the window is neither written
    back nor read at the next point). -/
def idleJunk : Vec F S1x128 .f32 := VO3_11.read (Elt F) VO3_11.junk

/-! ## What the buffers hold after each point -/

/-- After the body at position `n`: the three outputs' staging buffers, then the two scratch buffers — the case the
    point is in, run at the point's memrefs and input blocks, the scratch at what position `n - 1` left. -/
def outsAt3 (c : Dev nD) : (n : ℕ) → n < cfg3.N → Vec F S8192x128 .f32 × Vec F S1x128 .f32 × Vec F S1x128 .f32 × Vec F S1x128 .f32 × Vec F S1x128 .f32
  | 0, hn => (out3_A_10 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) (ms3_8 ⟨0, hn⟩) (hs3_8 ⟨0, hn⟩) (ms3_9 ⟨0, hn⟩) (hs3_9 ⟨0, hn⟩) (ms3_10 ⟨0, hn⟩) (hs3_10 ⟨0, hn⟩) (ms3_11 ⟨0, hn⟩) (hs3_11 ⟨0, hn⟩) (ms3_12 ⟨0, hn⟩) (hs3_12 ⟨0, hn⟩) scM3_0 (Memref.isWhole_whole _) scM3_1 (Memref.isWhole_whole _) ((hcond3_0 ⟨0, hn⟩).mpr rfl) (fun h => (hcond3_1 ⟨0, hn⟩).mp h rfl) (fun h => Nat.zero_ne_add_one 2 ((hcond3_2 ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩) (iblk V c 8 ⟨0, hn⟩) (iblk V c 9 ⟨0, hn⟩), idleJunk, idleJunk, sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) (ms3_8 ⟨0, hn⟩) (hs3_8 ⟨0, hn⟩) (ms3_9 ⟨0, hn⟩) (hs3_9 ⟨0, hn⟩) (ms3_10 ⟨0, hn⟩) (hs3_10 ⟨0, hn⟩) (ms3_11 ⟨0, hn⟩) (hs3_11 ⟨0, hn⟩) (ms3_12 ⟨0, hn⟩) (hs3_12 ⟨0, hn⟩) scM3_0 (Memref.isWhole_whole _) scM3_1 (Memref.isWhole_whole _) ((hcond3_0 ⟨0, hn⟩).mpr rfl) (fun h => (hcond3_1 ⟨0, hn⟩).mp h rfl) (fun h => Nat.zero_ne_add_one 2 ((hcond3_2 ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩) (iblk V c 8 ⟨0, hn⟩) (iblk V c 9 ⟨0, hn⟩), sout3_A_1 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) (ms3_8 ⟨0, hn⟩) (hs3_8 ⟨0, hn⟩) (ms3_9 ⟨0, hn⟩) (hs3_9 ⟨0, hn⟩) (ms3_10 ⟨0, hn⟩) (hs3_10 ⟨0, hn⟩) (ms3_11 ⟨0, hn⟩) (hs3_11 ⟨0, hn⟩) (ms3_12 ⟨0, hn⟩) (hs3_12 ⟨0, hn⟩) scM3_0 (Memref.isWhole_whole _) scM3_1 (Memref.isWhole_whole _) ((hcond3_0 ⟨0, hn⟩).mpr rfl) (fun h => (hcond3_1 ⟨0, hn⟩).mp h rfl) (fun h => Nat.zero_ne_add_one 2 ((hcond3_2 ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩) (iblk V c 8 ⟨0, hn⟩) (iblk V c 9 ⟨0, hn⟩))
  | n + 1, hn =>
    if h3 : n + 1 = 3 then
      (out3_C_10 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) (ms3_10 ⟨n + 1, hn⟩) (hs3_10 ⟨n + 1, hn⟩) (ms3_11 ⟨n + 1, hn⟩) (hs3_11 ⟨n + 1, hn⟩) (ms3_12 ⟨n + 1, hn⟩) (hs3_12 ⟨n + 1, hn⟩) scM3_0 (Memref.isWhole_whole _) scM3_1 (Memref.isWhole_whole _) (fun h => Nat.succ_ne_zero n ((hcond3_0 ⟨n + 1, hn⟩).mp h)) ((hcond3_1 ⟨n + 1, hn⟩).mpr (Nat.succ_ne_zero n)) ((hcond3_2 ⟨n + 1, hn⟩).mpr h3) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (outsAt3 c n (Nat.lt_of_succ_lt hn)).2.2.2.1 (outsAt3 c n (Nat.lt_of_succ_lt hn)).2.2.2.2, out3_C_11 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) (ms3_10 ⟨n + 1, hn⟩) (hs3_10 ⟨n + 1, hn⟩) (ms3_11 ⟨n + 1, hn⟩) (hs3_11 ⟨n + 1, hn⟩) (ms3_12 ⟨n + 1, hn⟩) (hs3_12 ⟨n + 1, hn⟩) scM3_0 (Memref.isWhole_whole _) scM3_1 (Memref.isWhole_whole _) (fun h => Nat.succ_ne_zero n ((hcond3_0 ⟨n + 1, hn⟩).mp h)) ((hcond3_1 ⟨n + 1, hn⟩).mpr (Nat.succ_ne_zero n)) ((hcond3_2 ⟨n + 1, hn⟩).mpr h3) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (outsAt3 c n (Nat.lt_of_succ_lt hn)).2.2.2.1 (outsAt3 c n (Nat.lt_of_succ_lt hn)).2.2.2.2, out3_C_12 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) (ms3_10 ⟨n + 1, hn⟩) (hs3_10 ⟨n + 1, hn⟩) (ms3_11 ⟨n + 1, hn⟩) (hs3_11 ⟨n + 1, hn⟩) (ms3_12 ⟨n + 1, hn⟩) (hs3_12 ⟨n + 1, hn⟩) scM3_0 (Memref.isWhole_whole _) scM3_1 (Memref.isWhole_whole _) (fun h => Nat.succ_ne_zero n ((hcond3_0 ⟨n + 1, hn⟩).mp h)) ((hcond3_1 ⟨n + 1, hn⟩).mpr (Nat.succ_ne_zero n)) ((hcond3_2 ⟨n + 1, hn⟩).mpr h3) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (outsAt3 c n (Nat.lt_of_succ_lt hn)).2.2.2.1 (outsAt3 c n (Nat.lt_of_succ_lt hn)).2.2.2.2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) (ms3_10 ⟨n + 1, hn⟩) (hs3_10 ⟨n + 1, hn⟩) (ms3_11 ⟨n + 1, hn⟩) (hs3_11 ⟨n + 1, hn⟩) (ms3_12 ⟨n + 1, hn⟩) (hs3_12 ⟨n + 1, hn⟩) scM3_0 (Memref.isWhole_whole _) scM3_1 (Memref.isWhole_whole _) (fun h => Nat.succ_ne_zero n ((hcond3_0 ⟨n + 1, hn⟩).mp h)) ((hcond3_1 ⟨n + 1, hn⟩).mpr (Nat.succ_ne_zero n)) ((hcond3_2 ⟨n + 1, hn⟩).mpr h3) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (outsAt3 c n (Nat.lt_of_succ_lt hn)).2.2.2.1 (outsAt3 c n (Nat.lt_of_succ_lt hn)).2.2.2.2, sout3_C_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) (ms3_10 ⟨n + 1, hn⟩) (hs3_10 ⟨n + 1, hn⟩) (ms3_11 ⟨n + 1, hn⟩) (hs3_11 ⟨n + 1, hn⟩) (ms3_12 ⟨n + 1, hn⟩) (hs3_12 ⟨n + 1, hn⟩) scM3_0 (Memref.isWhole_whole _) scM3_1 (Memref.isWhole_whole _) (fun h => Nat.succ_ne_zero n ((hcond3_0 ⟨n + 1, hn⟩).mp h)) ((hcond3_1 ⟨n + 1, hn⟩).mpr (Nat.succ_ne_zero n)) ((hcond3_2 ⟨n + 1, hn⟩).mpr h3) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (outsAt3 c n (Nat.lt_of_succ_lt hn)).2.2.2.1 (outsAt3 c n (Nat.lt_of_succ_lt hn)).2.2.2.2)
    else
      (out3_B_10 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) (ms3_10 ⟨n + 1, hn⟩) (hs3_10 ⟨n + 1, hn⟩) (ms3_11 ⟨n + 1, hn⟩) (hs3_11 ⟨n + 1, hn⟩) (ms3_12 ⟨n + 1, hn⟩) (hs3_12 ⟨n + 1, hn⟩) scM3_0 (Memref.isWhole_whole _) scM3_1 (Memref.isWhole_whole _) (fun h => Nat.succ_ne_zero n ((hcond3_0 ⟨n + 1, hn⟩).mp h)) ((hcond3_1 ⟨n + 1, hn⟩).mpr (Nat.succ_ne_zero n)) (fun h => h3 ((hcond3_2 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (outsAt3 c n (Nat.lt_of_succ_lt hn)).2.2.2.1 (outsAt3 c n (Nat.lt_of_succ_lt hn)).2.2.2.2, idleJunk, idleJunk, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) (ms3_10 ⟨n + 1, hn⟩) (hs3_10 ⟨n + 1, hn⟩) (ms3_11 ⟨n + 1, hn⟩) (hs3_11 ⟨n + 1, hn⟩) (ms3_12 ⟨n + 1, hn⟩) (hs3_12 ⟨n + 1, hn⟩) scM3_0 (Memref.isWhole_whole _) scM3_1 (Memref.isWhole_whole _) (fun h => Nat.succ_ne_zero n ((hcond3_0 ⟨n + 1, hn⟩).mp h)) ((hcond3_1 ⟨n + 1, hn⟩).mpr (Nat.succ_ne_zero n)) (fun h => h3 ((hcond3_2 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (outsAt3 c n (Nat.lt_of_succ_lt hn)).2.2.2.1 (outsAt3 c n (Nat.lt_of_succ_lt hn)).2.2.2.2, sout3_B_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) (ms3_10 ⟨n + 1, hn⟩) (hs3_10 ⟨n + 1, hn⟩) (ms3_11 ⟨n + 1, hn⟩) (hs3_11 ⟨n + 1, hn⟩) (ms3_12 ⟨n + 1, hn⟩) (hs3_12 ⟨n + 1, hn⟩) scM3_0 (Memref.isWhole_whole _) scM3_1 (Memref.isWhole_whole _) (fun h => Nat.succ_ne_zero n ((hcond3_0 ⟨n + 1, hn⟩).mp h)) ((hcond3_1 ⟨n + 1, hn⟩).mpr (Nat.succ_ne_zero n)) (fun h => h3 ((hcond3_2 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (outsAt3 c n (Nat.lt_of_succ_lt hn)).2.2.2.1 (outsAt3 c n (Nat.lt_of_succ_lt hn)).2.2.2.2)

theorem outsAt3_A (c : Dev nD) (t : Fin cfg3.N) (h0 : t.val = 0) (h3 : ¬t.val = 3) :
    outsAt3 V c t.val t.isLt = (out3_A_10 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) (ms3_11 t) (hs3_11 t) (ms3_12 t) (hs3_12 t) scM3_0 (Memref.isWhole_whole _) scM3_1 (Memref.isWhole_whole _) ((hcond3_0 t).mpr h0) (fun h => (hcond3_1 t).mp h h0) (fun h => h3 ((hcond3_2 t).mp h)) (iblk V c 0 t) (iblk V c 1 t) (iblk V c 2 t) (iblk V c 3 t) (iblk V c 4 t) (iblk V c 5 t) (iblk V c 6 t) (iblk V c 7 t) (iblk V c 8 t) (iblk V c 9 t), idleJunk, idleJunk, sout3_A_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) (ms3_11 t) (hs3_11 t) (ms3_12 t) (hs3_12 t) scM3_0 (Memref.isWhole_whole _) scM3_1 (Memref.isWhole_whole _) ((hcond3_0 t).mpr h0) (fun h => (hcond3_1 t).mp h h0) (fun h => h3 ((hcond3_2 t).mp h)) (iblk V c 0 t) (iblk V c 1 t) (iblk V c 2 t) (iblk V c 3 t) (iblk V c 4 t) (iblk V c 5 t) (iblk V c 6 t) (iblk V c 7 t) (iblk V c 8 t) (iblk V c 9 t), sout3_A_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) (ms3_11 t) (hs3_11 t) (ms3_12 t) (hs3_12 t) scM3_0 (Memref.isWhole_whole _) scM3_1 (Memref.isWhole_whole _) ((hcond3_0 t).mpr h0) (fun h => (hcond3_1 t).mp h h0) (fun h => h3 ((hcond3_2 t).mp h)) (iblk V c 0 t) (iblk V c 1 t) (iblk V c 2 t) (iblk V c 3 t) (iblk V c 4 t) (iblk V c 5 t) (iblk V c 6 t) (iblk V c 7 t) (iblk V c 8 t) (iblk V c 9 t)) := by
  obtain ⟨n, hn⟩ := t
  cases n with
  | zero => exact rfl
  | succ n => exact absurd h0 (Nat.succ_ne_zero n)

theorem outsAt3_B (c : Dev nD) (t : Fin cfg3.N) (h0 : ¬t.val = 0) (h3 : ¬t.val = 3) :
    outsAt3 V c t.val t.isLt = (out3_B_10 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) (ms3_11 t) (hs3_11 t) (ms3_12 t) (hs3_12 t) scM3_0 (Memref.isWhole_whole _) scM3_1 (Memref.isWhole_whole _) (fun h => h0 ((hcond3_0 t).mp h)) ((hcond3_1 t).mpr h0) (fun h => h3 ((hcond3_2 t).mp h)) (iblk V c 0 t) (iblk V c 1 t) (iblk V c 2 t) (iblk V c 3 t) (iblk V c 4 t) (iblk V c 5 t) (iblk V c 6 t) (iblk V c 7 t) (iblk V c 8 t) (iblk V c 9 t) (outsAt3 V c (t.val - 1) (Nat.lt_of_le_of_lt (Nat.sub_le _ _) t.isLt)).2.2.2.1 (outsAt3 V c (t.val - 1) (Nat.lt_of_le_of_lt (Nat.sub_le _ _) t.isLt)).2.2.2.2, idleJunk, idleJunk, sout3_B_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) (ms3_11 t) (hs3_11 t) (ms3_12 t) (hs3_12 t) scM3_0 (Memref.isWhole_whole _) scM3_1 (Memref.isWhole_whole _) (fun h => h0 ((hcond3_0 t).mp h)) ((hcond3_1 t).mpr h0) (fun h => h3 ((hcond3_2 t).mp h)) (iblk V c 0 t) (iblk V c 1 t) (iblk V c 2 t) (iblk V c 3 t) (iblk V c 4 t) (iblk V c 5 t) (iblk V c 6 t) (iblk V c 7 t) (iblk V c 8 t) (iblk V c 9 t) (outsAt3 V c (t.val - 1) (Nat.lt_of_le_of_lt (Nat.sub_le _ _) t.isLt)).2.2.2.1 (outsAt3 V c (t.val - 1) (Nat.lt_of_le_of_lt (Nat.sub_le _ _) t.isLt)).2.2.2.2, sout3_B_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) (ms3_11 t) (hs3_11 t) (ms3_12 t) (hs3_12 t) scM3_0 (Memref.isWhole_whole _) scM3_1 (Memref.isWhole_whole _) (fun h => h0 ((hcond3_0 t).mp h)) ((hcond3_1 t).mpr h0) (fun h => h3 ((hcond3_2 t).mp h)) (iblk V c 0 t) (iblk V c 1 t) (iblk V c 2 t) (iblk V c 3 t) (iblk V c 4 t) (iblk V c 5 t) (iblk V c 6 t) (iblk V c 7 t) (iblk V c 8 t) (iblk V c 9 t) (outsAt3 V c (t.val - 1) (Nat.lt_of_le_of_lt (Nat.sub_le _ _) t.isLt)).2.2.2.1 (outsAt3 V c (t.val - 1) (Nat.lt_of_le_of_lt (Nat.sub_le _ _) t.isLt)).2.2.2.2) := by
  obtain ⟨n, hn⟩ := t
  cases n with
  | zero => exact absurd rfl h0
  | succ n => exact (dif_neg h3).trans rfl

theorem outsAt3_C (c : Dev nD) (t : Fin cfg3.N) (h0 : ¬t.val = 0) (h3 : t.val = 3) :
    outsAt3 V c t.val t.isLt = (out3_C_10 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) (ms3_11 t) (hs3_11 t) (ms3_12 t) (hs3_12 t) scM3_0 (Memref.isWhole_whole _) scM3_1 (Memref.isWhole_whole _) (fun h => h0 ((hcond3_0 t).mp h)) ((hcond3_1 t).mpr h0) ((hcond3_2 t).mpr h3) (iblk V c 0 t) (iblk V c 1 t) (iblk V c 2 t) (iblk V c 3 t) (iblk V c 4 t) (iblk V c 5 t) (iblk V c 6 t) (iblk V c 7 t) (iblk V c 8 t) (iblk V c 9 t) (outsAt3 V c (t.val - 1) (Nat.lt_of_le_of_lt (Nat.sub_le _ _) t.isLt)).2.2.2.1 (outsAt3 V c (t.val - 1) (Nat.lt_of_le_of_lt (Nat.sub_le _ _) t.isLt)).2.2.2.2, out3_C_11 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) (ms3_11 t) (hs3_11 t) (ms3_12 t) (hs3_12 t) scM3_0 (Memref.isWhole_whole _) scM3_1 (Memref.isWhole_whole _) (fun h => h0 ((hcond3_0 t).mp h)) ((hcond3_1 t).mpr h0) ((hcond3_2 t).mpr h3) (iblk V c 0 t) (iblk V c 1 t) (iblk V c 2 t) (iblk V c 3 t) (iblk V c 4 t) (iblk V c 5 t) (iblk V c 6 t) (iblk V c 7 t) (iblk V c 8 t) (iblk V c 9 t) (outsAt3 V c (t.val - 1) (Nat.lt_of_le_of_lt (Nat.sub_le _ _) t.isLt)).2.2.2.1 (outsAt3 V c (t.val - 1) (Nat.lt_of_le_of_lt (Nat.sub_le _ _) t.isLt)).2.2.2.2, out3_C_12 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) (ms3_11 t) (hs3_11 t) (ms3_12 t) (hs3_12 t) scM3_0 (Memref.isWhole_whole _) scM3_1 (Memref.isWhole_whole _) (fun h => h0 ((hcond3_0 t).mp h)) ((hcond3_1 t).mpr h0) ((hcond3_2 t).mpr h3) (iblk V c 0 t) (iblk V c 1 t) (iblk V c 2 t) (iblk V c 3 t) (iblk V c 4 t) (iblk V c 5 t) (iblk V c 6 t) (iblk V c 7 t) (iblk V c 8 t) (iblk V c 9 t) (outsAt3 V c (t.val - 1) (Nat.lt_of_le_of_lt (Nat.sub_le _ _) t.isLt)).2.2.2.1 (outsAt3 V c (t.val - 1) (Nat.lt_of_le_of_lt (Nat.sub_le _ _) t.isLt)).2.2.2.2, sout3_C_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) (ms3_11 t) (hs3_11 t) (ms3_12 t) (hs3_12 t) scM3_0 (Memref.isWhole_whole _) scM3_1 (Memref.isWhole_whole _) (fun h => h0 ((hcond3_0 t).mp h)) ((hcond3_1 t).mpr h0) ((hcond3_2 t).mpr h3) (iblk V c 0 t) (iblk V c 1 t) (iblk V c 2 t) (iblk V c 3 t) (iblk V c 4 t) (iblk V c 5 t) (iblk V c 6 t) (iblk V c 7 t) (iblk V c 8 t) (iblk V c 9 t) (outsAt3 V c (t.val - 1) (Nat.lt_of_le_of_lt (Nat.sub_le _ _) t.isLt)).2.2.2.1 (outsAt3 V c (t.val - 1) (Nat.lt_of_le_of_lt (Nat.sub_le _ _) t.isLt)).2.2.2.2, sout3_C_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) (ms3_11 t) (hs3_11 t) (ms3_12 t) (hs3_12 t) scM3_0 (Memref.isWhole_whole _) scM3_1 (Memref.isWhole_whole _) (fun h => h0 ((hcond3_0 t).mp h)) ((hcond3_1 t).mpr h0) ((hcond3_2 t).mpr h3) (iblk V c 0 t) (iblk V c 1 t) (iblk V c 2 t) (iblk V c 3 t) (iblk V c 4 t) (iblk V c 5 t) (iblk V c 6 t) (iblk V c 7 t) (iblk V c 8 t) (iblk V c 9 t) (outsAt3 V c (t.val - 1) (Nat.lt_of_le_of_lt (Nat.sub_le _ _) t.isLt)).2.2.2.1 (outsAt3 V c (t.val - 1) (Nat.lt_of_le_of_lt (Nat.sub_le _ _) t.isLt)).2.2.2.2) := by
  obtain ⟨n, hn⟩ := t
  cases n with
  | zero => exact absurd rfl h0
  | succ n => exact (dif_pos h3).trans rfl

/-! ## The region invariant -/

/-- Before position `n`: at the first point the class's invariant (every scratch at anything); afterwards the two
    scratch buffers at what the point before left, the other scoped buffers unopened, the generator register at some
    state. -/
def PhiS (c : Dev nD) : (n : ℕ) → n ≤ cfg3.N → sProp 𝕄
  | 0, _ => Pipeline.ΦA spec3 c
  | n + 1, hn => iprop(iprop(iprop(owns (c : Thread nD τ) scM3_0 fullShare (outsAt3 V c n hn).2.2.2.1 ∗ owns (c : Thread nD τ) scM3_1 fullShare (outsAt3 V c n hn).2.2.2.2) ∗ Pipeline.scopedRestBut (Ix := Unit) (Name := ℕ) (U := UR sig nD τ) (Lvl := ℕ) (Val := Elt F) spec3 c [cc3_scratch0, cc3_scratch1]) ∗ (∃ r, prngReg c r))

theorem PhiS_zero (c : Dev nD) (n : ℕ) (h : n ≤ cfg3.N) (hz : n = 0) : PhiS V c n h = Pipeline.ΦA spec3 c := by
  subst hz; rfl

theorem PhiS_succ (c : Dev nD) (n : ℕ) (hn : n < cfg3.N) :
    PhiS V c (n + 1) hn = iprop(iprop(iprop(owns (c : Thread nD τ) scM3_0 fullShare (outsAt3 V c n hn).2.2.2.1 ∗ owns (c : Thread nD τ) scM3_1 fullShare (outsAt3 V c n hn).2.2.2.2) ∗ Pipeline.scopedRestBut (Ix := Unit) (Name := ℕ) (U := UR sig nD τ) (Lvl := ℕ) (Val := Elt F) spec3 c [cc3_scratch0, cc3_scratch1]) ∗ (∃ r, prngReg c r)) := rfl

theorem PhiS_pos (c : Dev nD) (n : ℕ) (h : n ≤ cfg3.N) (hz : n ≠ 0) :
    PhiS V c n h = iprop(iprop(iprop(owns (c : Thread nD τ) scM3_0 fullShare (outsAt3 V c (n - 1) (by omega)).2.2.2.1 ∗ owns (c : Thread nD τ) scM3_1 fullShare (outsAt3 V c (n - 1) (by omega)).2.2.2.2) ∗ Pipeline.scopedRestBut (Ix := Unit) (Name := ℕ) (U := UR sig nD τ) (Lvl := ℕ) (Val := Elt F) spec3 c [cc3_scratch0, cc3_scratch1]) ∗ (∃ r, prngReg c r)) := by
  cases n with
  | zero => exact absurd rfl hz
  | succ n => rfl

/-! ## The proof data -/

/-- The proof data of the region on core `c`: the arrays as the region finds them; after the body at point `t` each
    input's buffer at its block and the outputs' at `outsAt3`; the invariant `PhiS`; nothing owed; full shares. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => (outsAt3 V c t.val t.isLt).1
    | ⟨11, _⟩ => (outsAt3 V c t.val t.isLt).2.1
    | ⟨12, _⟩ => (outsAt3 V c t.val t.isLt).2.2.1
  Φ t := PhiS V c t.val (Nat.le_of_lt_succ t.isLt)
  q _ := fullShare
  owed _ := 0

theorem A_eq (c : Dev nD) (w : Fin cfg3.W) : (dat V c).A w = V c (Pipeline.arrRef spec3 w) := by
  dsimp only [dat]

theorem PhiS_castSucc (c : Dev nD) (t : Fin cfg3.N) :
    (dat V c).Φ t.castSucc = PhiS V c t.val (Nat.le_of_lt t.isLt) := by
  dsimp only [dat]; simp only [Fin.coe_castSucc]

theorem after3_0 (c : Dev nD) (t : Fin cfg3.N) : (dat V c).after 0 t = iblk V c 0 t := by dsimp only [dat]
theorem after3_1 (c : Dev nD) (t : Fin cfg3.N) : (dat V c).after 1 t = iblk V c 1 t := by dsimp only [dat]
theorem after3_2 (c : Dev nD) (t : Fin cfg3.N) : (dat V c).after 2 t = iblk V c 2 t := by dsimp only [dat]
theorem after3_3 (c : Dev nD) (t : Fin cfg3.N) : (dat V c).after 3 t = iblk V c 3 t := by dsimp only [dat]
theorem after3_4 (c : Dev nD) (t : Fin cfg3.N) : (dat V c).after 4 t = iblk V c 4 t := by dsimp only [dat]
theorem after3_5 (c : Dev nD) (t : Fin cfg3.N) : (dat V c).after 5 t = iblk V c 5 t := by dsimp only [dat]
theorem after3_6 (c : Dev nD) (t : Fin cfg3.N) : (dat V c).after 6 t = iblk V c 6 t := by dsimp only [dat]
theorem after3_7 (c : Dev nD) (t : Fin cfg3.N) : (dat V c).after 7 t = iblk V c 7 t := by dsimp only [dat]
theorem after3_8 (c : Dev nD) (t : Fin cfg3.N) : (dat V c).after 8 t = iblk V c 8 t := by dsimp only [dat]
theorem after3_9 (c : Dev nD) (t : Fin cfg3.N) : (dat V c).after 9 t = iblk V c 9 t := by dsimp only [dat]
theorem after3_10 (c : Dev nD) (t : Fin cfg3.N) : (dat V c).after 10 t = (outsAt3 V c t.val t.isLt).1 := by dsimp only [dat]
theorem after3_11 (c : Dev nD) (t : Fin cfg3.N) : (dat V c).after 11 t = (outsAt3 V c t.val t.isLt).2.1 := by dsimp only [dat]
theorem after3_12 (c : Dev nD) (t : Fin cfg3.N) : (dat V c).after 12 t = (outsAt3 V c t.val t.isLt).2.2.1 := by dsimp only [dat]

theorem before3_0 (c : Dev nD) (t : Fin cfg3.N) (d) : (dat V c).before 0 t d = iblk V c 0 t :=
  before3_0_of V (dat V c) (A_eq V c 0) (after3_0 V c) t d
theorem before3_1 (c : Dev nD) (t : Fin cfg3.N) (d) : (dat V c).before 1 t d = iblk V c 1 t :=
  before3_1_of V (dat V c) (A_eq V c 1) (after3_1 V c) t d
theorem before3_2 (c : Dev nD) (t : Fin cfg3.N) (d) : (dat V c).before 2 t d = iblk V c 2 t :=
  before3_2_of V (dat V c) (A_eq V c 2) (after3_2 V c) t d
theorem before3_3 (c : Dev nD) (t : Fin cfg3.N) (d) : (dat V c).before 3 t d = iblk V c 3 t :=
  before3_3_of V (dat V c) (A_eq V c 3) (after3_3 V c) t d
theorem before3_4 (c : Dev nD) (t : Fin cfg3.N) (d) : (dat V c).before 4 t d = iblk V c 4 t :=
  before3_4_of V (dat V c) (A_eq V c 4) (after3_4 V c) t d
theorem before3_5 (c : Dev nD) (t : Fin cfg3.N) (d) : (dat V c).before 5 t d = iblk V c 5 t :=
  before3_5_of V (dat V c) (A_eq V c 5) (after3_5 V c) t d
theorem before3_6 (c : Dev nD) (t : Fin cfg3.N) (d) : (dat V c).before 6 t d = iblk V c 6 t :=
  before3_6_of V (dat V c) (A_eq V c 6) (after3_6 V c) t d
theorem before3_7 (c : Dev nD) (t : Fin cfg3.N) (d) : (dat V c).before 7 t d = iblk V c 7 t :=
  before3_7_of V (dat V c) (A_eq V c 7) (after3_7 V c) t d
theorem before3_8 (c : Dev nD) (t : Fin cfg3.N) (d) : (dat V c).before 8 t d = iblk V c 8 t :=
  before3_8_of V (dat V c) (A_eq V c 8) (after3_8 V c) t d
theorem before3_9 (c : Dev nD) (t : Fin cfg3.N) (d) : (dat V c).before 9 t d = iblk V c 9 t :=
  before3_9_of V (dat V c) (A_eq V c 9) (after3_9 V c) t d

end Cert.KernelIdeal.Reg3

end
-- ==== Proof.Reg4Runs.lean ====
/-
  The fourth head kernel's region (pipeline 4): what its three runs share.

  The body runs in one of three ways over the four grid points: at point 0 it starts the running column minimum and
  maximum (two scratch buffers carried between points) from its own block's; at points 1 and 2 it folds its block's
  into them; at point 3 it does the same and copies both to the last two output windows, which are idle before.
  Here: the windows' blocks read off the arrays as the region finds them, the branch conditions in closed form over
  the grid, where the last two outputs are idle, and the staging and scratch memrefs the body is called with.
-/
import proofs.«100906_j73718818669321_2_alg».proof.Proof.Gen.KernelIdeal.Launch
import proofs.«100906_j73718818669321_2_alg».proof.Proof.Gen.KernelIdeal.Skeleton
import proofs.«100906_j73718818669321_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of the blocks' extents recurses once per coordinate of the long axes
set_option maxRecDepth 16384

noncomputable section

namespace Cert.KernelIdeal.Reg4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not, for any proof
    data whose array is `V`'s and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk V c 0 t) (t : Fin cfg4.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk V c 1 t) (t : Fin cfg4.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk V c 2 t) (t : Fin cfg4.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk V c 3 t) (t : Fin cfg4.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk V c 4 t) (t : Fin cfg4.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before4_5_of {c : Dev nD} (dat : Dat τ (Elt F) Unit ℕ (UR sig nD τ) ℕ cfg4 c) (hA : dat.A 5 = V c (Pipeline.arrRef spec4 5))
    (hafter : ∀ t, dat.after 5 t = iblk V c 5 t) (t : Fin cfg4.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before4_6_of {c : Dev nD} (dat : Dat τ (Elt F) Unit ℕ (UR sig nD τ) ℕ cfg4 c) (hA : dat.A 6 = V c (Pipeline.arrRef spec4 6))
    (hafter : ∀ t, dat.after 6 t = iblk V c 6 t) (t : Fin cfg4.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before4_7_of {c : Dev nD} (dat : Dat τ (Elt F) Unit ℕ (UR sig nD τ) ℕ cfg4 c) (hA : dat.A 7 = V c (Pipeline.arrRef spec4 7))
    (hafter : ∀ t, dat.after 7 t = iblk V c 7 t) (t : Fin cfg4.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before4_8_of {c : Dev nD} (dat : Dat τ (Elt F) Unit ℕ (UR sig nD τ) ℕ cfg4 c) (hA : dat.A 8 = V c (Pipeline.arrRef spec4 8))
    (hafter : ∀ t, dat.after 8 t = iblk V c 8 t) (t : Fin cfg4.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before4_9_of {c : Dev nD} (dat : Dat τ (Elt F) Unit ℕ (UR sig nD τ) ℕ cfg4 c) (hA : dat.A 9 = V c (Pipeline.arrRef spec4 9))
    (hafter : ∀ t, dat.after 9 t = iblk V c 9 t) (t : Fin cfg4.N) (d) : dat.before 9 t d = iblk V c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- `i == 0`: the running minimum and maximum are started. -/
abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val = 0 :=
  (by decide +kernel : ∀ t : Fin grid4.N, cond4_0 (grid4.coords t) ↔ t.val = 0)

/-- `i != 0`: they are folded with this block's. -/
abbrev cond4_1 (i : grid4.Coords) : Prop := (Scalar.cmpi .ne (Scalar.extui (Scalar.cmpi .ne (BitVec.ofNat 32 (i 0).val) 0#32)) 0#32) = 1#1
theorem hcond4_1 : ∀ t : Fin cfg4.N, cond4_1 (grid4.coords t) ↔ ¬ t.val = 0 :=
  (by decide +kernel : ∀ t : Fin grid4.N, cond4_1 (grid4.coords t) ↔ ¬ t.val = 0)

/-- `i == 3`: they are copied to the last two outputs. -/
abbrev cond4_2 (i : grid4.Coords) : Prop := k4_cond3 i = 1#1
theorem hcond4_2 : ∀ t : Fin cfg4.N, cond4_2 (grid4.coords t) ↔ t.val = 3 :=
  (by decide +kernel : ∀ t : Fin grid4.N, cond4_2 (grid4.coords t) ↔ t.val = 3)

/-! ## Where the last two outputs are idle -/

theorem idleAt4_11 : ∀ t : Fin cfg4.N, ¬cond4_2 (grid4.coords t) → cfg4.idle 11 (grid4.coords t) = true := by decide +kernel
theorem noFlush4_11 : ∀ t : Fin cfg4.N, ¬cond4_2 (grid4.coords t) → (cfg4.win 11).flush t = false := by decide +kernel
theorem liveAt4_11 : ∀ t : Fin cfg4.N, cond4_2 (grid4.coords t) → cfg4.idle 11 (grid4.coords t) = false := by decide +kernel
theorem idleAt4_12 : ∀ t : Fin cfg4.N, ¬cond4_2 (grid4.coords t) → cfg4.idle 12 (grid4.coords t) = true := by decide +kernel
theorem noFlush4_12 : ∀ t : Fin cfg4.N, ¬cond4_2 (grid4.coords t) → (cfg4.win 12).flush t = false := by decide +kernel
theorem liveAt4_12 : ∀ t : Fin cfg4.N, cond4_2 (grid4.coords t) → cfg4.idle 12 (grid4.coords t) = false := by decide +kernel

/-! ## The memrefs the body is called with -/

/-- One staging buffer of each output window, through which its contents are stated. -/
abbrev VO4_10 : View sig .tc .vmem S8192x128 .f32 := (Memref.whole cc4_stg10_0 : Memref sig .tc .vmem S8192x128 .f32).view
abbrev VO4_11 : View sig .tc .vmem S1x128 .f32 := (Memref.whole cc4_stg11_0 : Memref sig .tc .vmem S1x128 .f32).view
abbrev VO4_12 : View sig .tc .vmem S1x128 .f32 := (Memref.whole cc4_stg12_0 : Memref sig .tc .vmem S1x128 .f32).view
/-- Each window's current staging memref at point `t`, and its wholeness. -/
abbrev ms4_0 (t : Fin cfg4.N) : Memref sig .tc .vmem S8192x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S8192x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S128x64 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x64 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x64 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x1 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S64x128 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S1x128 .f32 := win4_7.stage (cfg4.slots t 7)
abbrev hs4_7 (t : Fin cfg4.N) : (ms4_7 t).IsWhole := hstage4_7 ((cfg4.slots t 7).cast nbuf4_7)
abbrev ms4_8 (t : Fin cfg4.N) : Memref sig .tc .vmem S1x128 .f32 := win4_8.stage (cfg4.slots t 8)
abbrev hs4_8 (t : Fin cfg4.N) : (ms4_8 t).IsWhole := hstage4_8 ((cfg4.slots t 8).cast nbuf4_8)
abbrev ms4_9 (t : Fin cfg4.N) : Memref sig .tc .vmem S1x128 .f32 := win4_9.stage (cfg4.slots t 9)
abbrev hs4_9 (t : Fin cfg4.N) : (ms4_9 t).IsWhole := hstage4_9 ((cfg4.slots t 9).cast nbuf4_9)
abbrev ms4_10 (t : Fin cfg4.N) : Memref sig .tc .vmem S8192x128 .f32 := win4_10.stage (cfg4.slots t 10)
abbrev hs4_10 (t : Fin cfg4.N) : (ms4_10 t).IsWhole := hstage4_10 ((cfg4.slots t 10).cast nbuf4_10)
abbrev ms4_11 (t : Fin cfg4.N) : Memref sig .tc .vmem S1x128 .f32 := win4_11.stage (cfg4.slots t 11)
abbrev hs4_11 (t : Fin cfg4.N) : (ms4_11 t).IsWhole := hstage4_11 ((cfg4.slots t 11).cast nbuf4_11)
abbrev ms4_12 (t : Fin cfg4.N) : Memref sig .tc .vmem S1x128 .f32 := win4_12.stage (cfg4.slots t 12)
abbrev hs4_12 (t : Fin cfg4.N) : (ms4_12 t).IsWhole := hstage4_12 ((cfg4.slots t 12).cast nbuf4_12)
/-- The two scratch operands: the running column minimum and maximum. -/
abbrev scM4_0 : Memref sig .tc .vmem S1x128 .f32 := Memref.whole cc4_scratch0
abbrev scM4_1 : Memref sig .tc .vmem S1x128 .f32 := Memref.whole cc4_scratch1
abbrev VS4_0 : View sig .tc .vmem S1x128 .f32 := scM4_0.view
abbrev VS4_1 : View sig .tc .vmem S1x128 .f32 := scM4_1.view

/-- The region's invariant with the two scratch operands as memrefs owned at some contents, the other scoped
    buffers unopened. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

end Cert.KernelIdeal.Reg4

end
-- ==== Proof.Reg4RunA.lean ====
/-
  The fourth head kernel's body run at point 0: the running minimum and maximum are started from this block's, the last two outputs are idle.
-/
import proofs.«100906_j73718818669321_2_alg».proof.Proof.Reg4Runs

-- membership in a rectangle of the blocks' extents recurses once per coordinate of the long axes
set_option maxRecDepth 16384

noncomputable section

namespace Cert.KernelIdeal.Reg4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- The pieces the body's stores leave in each buffer it stores into (last first), with the proof that on whole
    memrefs — the inputs' at their contents, the first output's at anything, the idle outputs' at contents handed back untouched,
    the two scratch buffers at anything — the body runs to the continuation holding the inputs' as they
    were and each stored buffer with its pieces written. The pieces are the witness the run finds. -/
noncomputable def kernelRun4_A (c : Dev nD) (i : grid4.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : cond4_0 i) (hc1 : ¬cond4_1 i) (hc2 : ¬cond4_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) :
    Σ' (L10 : List (View.Piece (Elt F) S8192x128 .f32)) (LS0 : List (View.Piece (Elt F) S1x128 .f32)), { LS1 : List (View.Piece (Elt F) S1x128 .f32) //
      ∀ (xi11 xi12 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ owns (c : Thread nD τ) arg12 fullShare xi11 ∗ owns (c : Thread nD τ) arg13 fullShare xi12 ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ owns (c : Thread nD τ) arg12 fullShare xi11 ∗ owns (c : Thread nD τ) arg13 fullShare xi12 ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1)) -∗ K ⟨⟩))
          ⊢ wp frame (wpE (defs₀ (F := F)) Variants.none c none) E (cc4__head_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun xi11 xi12 E K => ?run⟩
  case run =>
    simp only [cc4__head_kernel_eq_skeleton]; unfold cc4__head_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg12.eq_unread hf11; obtain rfl := harg13.eq_unread hf12
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]
    · iexists _; isplitr; · ipureintro; exact harg12.read_unread _
      iexact H11
    isplitl [H12]
    · iexists _; isplitr; · ipureintro; exact harg13.read_unread _
      iexact H12
    isplitl [HS0]; · iexists _; iexact HS0
    iexists _; iexact HS1

end Cert.KernelIdeal.Reg4

end
-- ==== Proof.Reg4RunB.lean ====
/-
  The fourth head kernel's body run at points 1 and 2: the running minimum and maximum are folded with this block's, the last two outputs are idle.
-/
import proofs.«100906_j73718818669321_2_alg».proof.Proof.Reg4RunA

-- membership in a rectangle of the blocks' extents recurses once per coordinate of the long axes
set_option maxRecDepth 16384

noncomputable section

namespace Cert.KernelIdeal.Reg4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- The pieces the body's stores leave in each buffer it stores into (last first), with the proof that on whole
    memrefs — the inputs' at their contents, the first output's at anything, the idle outputs' at contents handed back untouched,
    the two scratch buffers at what the point before left — the body runs to the continuation holding the inputs' as they
    were and each stored buffer with its pieces written. The pieces are the witness the run finds. -/
noncomputable def kernelRun4_B (c : Dev nD) (i : grid4.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond4_0 i) (hc1 : cond4_1 i) (hc2 : ¬cond4_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) :
    Σ' (L10 : List (View.Piece (Elt F) S8192x128 .f32)) (LS0 : List (View.Piece (Elt F) S1x128 .f32)), { LS1 : List (View.Piece (Elt F) S1x128 .f32) //
      ∀ (xi11 xi12 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ owns (c : Thread nD τ) arg12 fullShare xi11 ∗ owns (c : Thread nD τ) arg13 fullShare xi12 ∗ owns (c : Thread nD τ) arg14 fullShare xs0 ∗ owns (c : Thread nD τ) arg15 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ owns (c : Thread nD τ) arg12 fullShare xi11 ∗ owns (c : Thread nD τ) arg13 fullShare xi12 ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1)) -∗ K ⟨⟩))
          ⊢ wp frame (wpE (defs₀ (F := F)) Variants.none c none) E (cc4__head_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun xi11 xi12 E K => ?run⟩
  case run =>
    simp only [cc4__head_kernel_eq_skeleton]; unfold cc4__head_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg12.eq_unread hf11; obtain rfl := harg13.eq_unread hf12; obtain rfl := harg14.eq_unread hfs0; obtain rfl := harg15.eq_unread hfs1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]
    · iexists _; isplitr; · ipureintro; exact harg12.read_unread _
      iexact H11
    isplitl [H12]
    · iexists _; isplitr; · ipureintro; exact harg13.read_unread _
      iexact H12
    isplitl [HS0]; · iexists _; iexact HS0
    iexists _; iexact HS1

end Cert.KernelIdeal.Reg4

end
-- ==== Proof.Reg4RunC.lean ====
/-
  The fourth head kernel's body run at point 3: the running minimum and maximum are folded with this block's and copied to the last two outputs.
-/
import proofs.«100906_j73718818669321_2_alg».proof.Proof.Reg4RunB

-- membership in a rectangle of the blocks' extents recurses once per coordinate of the long axes
set_option maxRecDepth 16384

noncomputable section

namespace Cert.KernelIdeal.Reg4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- The pieces the body's stores leave in each buffer it stores into (last first), with the proof that on whole
    memrefs — the inputs' at their contents, the first output's at anything, the last two outputs' at anything,
    the two scratch buffers at what the point before left — the body runs to the continuation holding the inputs' as they
    were and each stored buffer with its pieces written. The pieces are the witness the run finds. -/
noncomputable def kernelRun4_C (c : Dev nD) (i : grid4.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond4_0 i) (hc1 : cond4_1 i) (hc2 : cond4_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) :
    Σ' (L10 : List (View.Piece (Elt F) S8192x128 .f32)) (L11 : List (View.Piece (Elt F) S1x128 .f32)) (L12 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs0 ∗ owns (c : Thread nD τ) arg15 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1)) -∗ K ⟨⟩))
          ⊢ wp frame (wpE (defs₀ (F := F)) Variants.none c none) E (cc4__head_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, fun E K => ?run⟩
  case run =>
    simp only [cc4__head_kernel_eq_skeleton]; unfold cc4__head_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg14.eq_unread hfs0; obtain rfl := harg15.eq_unread hfs1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]; · iexists _; iexact H11
    isplitl [H12]; · iexists _; iexact H12
    isplitl [HS0]; · iexists _; iexact HS0
    iexists _; iexact HS1

end Cert.KernelIdeal.Reg4

end
-- ==== Proof.Reg4Dat.lean ====
/-
  The fourth head kernel's region: what its buffers hold point by point, and the proof data.

  From the three runs' pieces: what each case leaves in the first output's staging buffer, in the last two outputs'
  (the last case only) and in the two scratch buffers; these chained over the four points (each point's scratch
  contents feed the next point's run); the region invariant with the scratch at those contents; and the proof data.
-/
import proofs.«100906_j73718818669321_2_alg».proof.Proof.Reg4RunC

-- membership in a rectangle of the blocks' extents recurses once per coordinate of the long axes
set_option maxRecDepth 16384

noncomputable section

namespace Cert.KernelIdeal.Reg4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case A's pieces for the first output's staging buffer tile it, so they cover it. -/
theorem cover4_A_10 (c : Dev nD) (i : grid4.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : cond4_0 i) (hc1 : ¬cond4_1 i) (hc2 : ¬cond4_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (y : S8192x128.Idx) :
    ∃ pc ∈ (kernelRun4_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9).1, y ∈ pc.1.set :=
  View.cover_of_tiledL (kernelRun4_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9).1 S8192x128.size (by sl_kernel_rfl) y

/-- What case A leaves in the first output's staging buffer: its pieces read back over junk. -/
def out4_A_10 (c : Dev nD) (i : grid4.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : cond4_0 i) (hc1 : ¬cond4_1 i) (hc2 : ¬cond4_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) : Vec F S8192x128 .f32 :=
  VO4_10.read (Elt F) (VO4_10.writes (Elt F) VO4_10.junk (kernelRun4_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9).1)

/-- Case A's pieces for the running-minimum scratch tile it, so they cover it. -/
theorem scover4_A_0 (c : Dev nD) (i : grid4.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : cond4_0 i) (hc1 : ¬cond4_1 i) (hc2 : ¬cond4_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (y : S1x128.Idx) :
    ∃ pc ∈ (kernelRun4_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9).2.1, y ∈ pc.1.set :=
  View.cover_of_tiledL (kernelRun4_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9).2.1 S1x128.size (by sl_kernel_rfl) y

/-- What case A leaves in the running-minimum scratch: its pieces read back over junk. -/
def sout4_A_0 (c : Dev nD) (i : grid4.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : cond4_0 i) (hc1 : ¬cond4_1 i) (hc2 : ¬cond4_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) : Vec F S1x128 .f32 :=
  VS4_0.read (Elt F) (VS4_0.writes (Elt F) VS4_0.junk (kernelRun4_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9).2.1)

/-- Case A's pieces for the running-maximum scratch tile it, so they cover it. -/
theorem scover4_A_1 (c : Dev nD) (i : grid4.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : cond4_0 i) (hc1 : ¬cond4_1 i) (hc2 : ¬cond4_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (y : S1x128.Idx) :
    ∃ pc ∈ (kernelRun4_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9).2.2.1, y ∈ pc.1.set :=
  View.cover_of_tiledL (kernelRun4_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9).2.2.1 S1x128.size (by sl_kernel_rfl) y

/-- What case A leaves in the running-maximum scratch: its pieces read back over junk. -/
def sout4_A_1 (c : Dev nD) (i : grid4.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : cond4_0 i) (hc1 : ¬cond4_1 i) (hc2 : ¬cond4_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) : Vec F S1x128 .f32 :=
  VS4_1.read (Elt F) (VS4_1.writes (Elt F) VS4_1.junk (kernelRun4_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9).2.2.1)

/-- Case B's pieces for the first output's staging buffer tile it, so they cover it. -/
theorem cover4_B_10 (c : Dev nD) (i : grid4.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond4_0 i) (hc1 : cond4_1 i) (hc2 : ¬cond4_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) (y : S8192x128.Idx) :
    ∃ pc ∈ (kernelRun4_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).1, y ∈ pc.1.set :=
  View.cover_of_tiledL (kernelRun4_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).1 S8192x128.size (by sl_kernel_rfl) y

/-- What case B leaves in the first output's staging buffer: its pieces read back over junk. -/
def out4_B_10 (c : Dev nD) (i : grid4.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond4_0 i) (hc1 : cond4_1 i) (hc2 : ¬cond4_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) : Vec F S8192x128 .f32 :=
  VO4_10.read (Elt F) (VO4_10.writes (Elt F) VO4_10.junk (kernelRun4_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).1)

/-- Case B's pieces for the running-minimum scratch tile it, so they cover it. -/
theorem scover4_B_0 (c : Dev nD) (i : grid4.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond4_0 i) (hc1 : cond4_1 i) (hc2 : ¬cond4_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) (y : S1x128.Idx) :
    ∃ pc ∈ (kernelRun4_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).2.1, y ∈ pc.1.set :=
  View.cover_of_tiledL (kernelRun4_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).2.1 S1x128.size (by sl_kernel_rfl) y

/-- What case B leaves in the running-minimum scratch: its pieces read back over junk. -/
def sout4_B_0 (c : Dev nD) (i : grid4.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond4_0 i) (hc1 : cond4_1 i) (hc2 : ¬cond4_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) : Vec F S1x128 .f32 :=
  VS4_0.read (Elt F) (VS4_0.writes (Elt F) VS4_0.junk (kernelRun4_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).2.1)

/-- Case B's pieces for the running-maximum scratch tile it, so they cover it. -/
theorem scover4_B_1 (c : Dev nD) (i : grid4.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond4_0 i) (hc1 : cond4_1 i) (hc2 : ¬cond4_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) (y : S1x128.Idx) :
    ∃ pc ∈ (kernelRun4_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).2.2.1, y ∈ pc.1.set :=
  View.cover_of_tiledL (kernelRun4_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).2.2.1 S1x128.size (by sl_kernel_rfl) y

/-- What case B leaves in the running-maximum scratch: its pieces read back over junk. -/
def sout4_B_1 (c : Dev nD) (i : grid4.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond4_0 i) (hc1 : cond4_1 i) (hc2 : ¬cond4_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) : Vec F S1x128 .f32 :=
  VS4_1.read (Elt F) (VS4_1.writes (Elt F) VS4_1.junk (kernelRun4_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).2.2.1)

/-- Case C's pieces for the first output's staging buffer tile it, so they cover it. -/
theorem cover4_C_10 (c : Dev nD) (i : grid4.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond4_0 i) (hc1 : cond4_1 i) (hc2 : cond4_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) (y : S8192x128.Idx) :
    ∃ pc ∈ (kernelRun4_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).1, y ∈ pc.1.set :=
  View.cover_of_tiledL (kernelRun4_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).1 S8192x128.size (by sl_kernel_rfl) y

/-- What case C leaves in the first output's staging buffer: its pieces read back over junk. -/
def out4_C_10 (c : Dev nD) (i : grid4.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond4_0 i) (hc1 : cond4_1 i) (hc2 : cond4_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) : Vec F S8192x128 .f32 :=
  VO4_10.read (Elt F) (VO4_10.writes (Elt F) VO4_10.junk (kernelRun4_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).1)

/-- Case C's pieces for the second output's staging buffer tile it, so they cover it. -/
theorem cover4_C_11 (c : Dev nD) (i : grid4.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond4_0 i) (hc1 : cond4_1 i) (hc2 : cond4_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) (y : S1x128.Idx) :
    ∃ pc ∈ (kernelRun4_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).2.1, y ∈ pc.1.set :=
  View.cover_of_tiledL (kernelRun4_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).2.1 S1x128.size (by sl_kernel_rfl) y

/-- What case C leaves in the second output's staging buffer: its pieces read back over junk. -/
def out4_C_11 (c : Dev nD) (i : grid4.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond4_0 i) (hc1 : cond4_1 i) (hc2 : cond4_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) : Vec F S1x128 .f32 :=
  VO4_11.read (Elt F) (VO4_11.writes (Elt F) VO4_11.junk (kernelRun4_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).2.1)

/-- Case C's pieces for the third output's staging buffer tile it, so they cover it. -/
theorem cover4_C_12 (c : Dev nD) (i : grid4.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond4_0 i) (hc1 : cond4_1 i) (hc2 : cond4_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) (y : S1x128.Idx) :
    ∃ pc ∈ (kernelRun4_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).2.2.1, y ∈ pc.1.set :=
  View.cover_of_tiledL (kernelRun4_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).2.2.1 S1x128.size (by sl_kernel_rfl) y

/-- What case C leaves in the third output's staging buffer: its pieces read back over junk. -/
def out4_C_12 (c : Dev nD) (i : grid4.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond4_0 i) (hc1 : cond4_1 i) (hc2 : cond4_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) : Vec F S1x128 .f32 :=
  VO4_12.read (Elt F) (VO4_12.writes (Elt F) VO4_12.junk (kernelRun4_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).2.2.1)

/-- Case C's pieces for the running-minimum scratch tile it, so they cover it. -/
theorem scover4_C_0 (c : Dev nD) (i : grid4.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond4_0 i) (hc1 : cond4_1 i) (hc2 : cond4_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) (y : S1x128.Idx) :
    ∃ pc ∈ (kernelRun4_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).2.2.2.1, y ∈ pc.1.set :=
  View.cover_of_tiledL (kernelRun4_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).2.2.2.1 S1x128.size (by sl_kernel_rfl) y

/-- What case C leaves in the running-minimum scratch: its pieces read back over junk. -/
def sout4_C_0 (c : Dev nD) (i : grid4.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond4_0 i) (hc1 : cond4_1 i) (hc2 : cond4_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) : Vec F S1x128 .f32 :=
  VS4_0.read (Elt F) (VS4_0.writes (Elt F) VS4_0.junk (kernelRun4_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).2.2.2.1)

/-- Case C's pieces for the running-maximum scratch tile it, so they cover it. -/
theorem scover4_C_1 (c : Dev nD) (i : grid4.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond4_0 i) (hc1 : cond4_1 i) (hc2 : cond4_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) (y : S1x128.Idx) :
    ∃ pc ∈ (kernelRun4_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).2.2.2.2.1, y ∈ pc.1.set :=
  View.cover_of_tiledL (kernelRun4_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).2.2.2.2.1 S1x128.size (by sl_kernel_rfl) y

/-- What case C leaves in the running-maximum scratch: its pieces read back over junk. -/
def sout4_C_1 (c : Dev nD) (i : grid4.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond4_0 i) (hc1 : cond4_1 i) (hc2 : cond4_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) : Vec F S1x128 .f32 :=
  VS4_1.read (Elt F) (VS4_1.writes (Elt F) VS4_1.junk (kernelRun4_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).2.2.2.2.1)

variable (V : (c : Dev nD) → (b : Ref sig .tc) → Buf (Elt F) ((c : Thread nD τ).loc b))

/-- What an idle output's component reads: junk that nothing consults (at those points the window is neither written
    back nor read at the next point). -/
def idleJunk : Vec F S1x128 .f32 := VO4_11.read (Elt F) VO4_11.junk

/-! ## What the buffers hold after each point -/

/-- After the body at position `n`: the three outputs' staging buffers, then the two scratch buffers — the case the
    point is in, run at the point's memrefs and input blocks, the scratch at what position `n - 1` left. -/
def outsAt4 (c : Dev nD) : (n : ℕ) → n < cfg4.N → Vec F S8192x128 .f32 × Vec F S1x128 .f32 × Vec F S1x128 .f32 × Vec F S1x128 .f32 × Vec F S1x128 .f32
  | 0, hn => (out4_A_10 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) (ms4_9 ⟨0, hn⟩) (hs4_9 ⟨0, hn⟩) (ms4_10 ⟨0, hn⟩) (hs4_10 ⟨0, hn⟩) (ms4_11 ⟨0, hn⟩) (hs4_11 ⟨0, hn⟩) (ms4_12 ⟨0, hn⟩) (hs4_12 ⟨0, hn⟩) scM4_0 (Memref.isWhole_whole _) scM4_1 (Memref.isWhole_whole _) ((hcond4_0 ⟨0, hn⟩).mpr rfl) (fun h => (hcond4_1 ⟨0, hn⟩).mp h rfl) (fun h => Nat.zero_ne_add_one 2 ((hcond4_2 ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩) (iblk V c 8 ⟨0, hn⟩) (iblk V c 9 ⟨0, hn⟩), idleJunk, idleJunk, sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) (ms4_9 ⟨0, hn⟩) (hs4_9 ⟨0, hn⟩) (ms4_10 ⟨0, hn⟩) (hs4_10 ⟨0, hn⟩) (ms4_11 ⟨0, hn⟩) (hs4_11 ⟨0, hn⟩) (ms4_12 ⟨0, hn⟩) (hs4_12 ⟨0, hn⟩) scM4_0 (Memref.isWhole_whole _) scM4_1 (Memref.isWhole_whole _) ((hcond4_0 ⟨0, hn⟩).mpr rfl) (fun h => (hcond4_1 ⟨0, hn⟩).mp h rfl) (fun h => Nat.zero_ne_add_one 2 ((hcond4_2 ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩) (iblk V c 8 ⟨0, hn⟩) (iblk V c 9 ⟨0, hn⟩), sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) (ms4_9 ⟨0, hn⟩) (hs4_9 ⟨0, hn⟩) (ms4_10 ⟨0, hn⟩) (hs4_10 ⟨0, hn⟩) (ms4_11 ⟨0, hn⟩) (hs4_11 ⟨0, hn⟩) (ms4_12 ⟨0, hn⟩) (hs4_12 ⟨0, hn⟩) scM4_0 (Memref.isWhole_whole _) scM4_1 (Memref.isWhole_whole _) ((hcond4_0 ⟨0, hn⟩).mpr rfl) (fun h => (hcond4_1 ⟨0, hn⟩).mp h rfl) (fun h => Nat.zero_ne_add_one 2 ((hcond4_2 ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩) (iblk V c 8 ⟨0, hn⟩) (iblk V c 9 ⟨0, hn⟩))
  | n + 1, hn =>
    if h3 : n + 1 = 3 then
      (out4_C_10 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) (ms4_10 ⟨n + 1, hn⟩) (hs4_10 ⟨n + 1, hn⟩) (ms4_11 ⟨n + 1, hn⟩) (hs4_11 ⟨n + 1, hn⟩) (ms4_12 ⟨n + 1, hn⟩) (hs4_12 ⟨n + 1, hn⟩) scM4_0 (Memref.isWhole_whole _) scM4_1 (Memref.isWhole_whole _) (fun h => Nat.succ_ne_zero n ((hcond4_0 ⟨n + 1, hn⟩).mp h)) ((hcond4_1 ⟨n + 1, hn⟩).mpr (Nat.succ_ne_zero n)) ((hcond4_2 ⟨n + 1, hn⟩).mpr h3) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (outsAt4 c n (Nat.lt_of_succ_lt hn)).2.2.2.1 (outsAt4 c n (Nat.lt_of_succ_lt hn)).2.2.2.2, out4_C_11 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) (ms4_10 ⟨n + 1, hn⟩) (hs4_10 ⟨n + 1, hn⟩) (ms4_11 ⟨n + 1, hn⟩) (hs4_11 ⟨n + 1, hn⟩) (ms4_12 ⟨n + 1, hn⟩) (hs4_12 ⟨n + 1, hn⟩) scM4_0 (Memref.isWhole_whole _) scM4_1 (Memref.isWhole_whole _) (fun h => Nat.succ_ne_zero n ((hcond4_0 ⟨n + 1, hn⟩).mp h)) ((hcond4_1 ⟨n + 1, hn⟩).mpr (Nat.succ_ne_zero n)) ((hcond4_2 ⟨n + 1, hn⟩).mpr h3) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (outsAt4 c n (Nat.lt_of_succ_lt hn)).2.2.2.1 (outsAt4 c n (Nat.lt_of_succ_lt hn)).2.2.2.2, out4_C_12 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) (ms4_10 ⟨n + 1, hn⟩) (hs4_10 ⟨n + 1, hn⟩) (ms4_11 ⟨n + 1, hn⟩) (hs4_11 ⟨n + 1, hn⟩) (ms4_12 ⟨n + 1, hn⟩) (hs4_12 ⟨n + 1, hn⟩) scM4_0 (Memref.isWhole_whole _) scM4_1 (Memref.isWhole_whole _) (fun h => Nat.succ_ne_zero n ((hcond4_0 ⟨n + 1, hn⟩).mp h)) ((hcond4_1 ⟨n + 1, hn⟩).mpr (Nat.succ_ne_zero n)) ((hcond4_2 ⟨n + 1, hn⟩).mpr h3) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (outsAt4 c n (Nat.lt_of_succ_lt hn)).2.2.2.1 (outsAt4 c n (Nat.lt_of_succ_lt hn)).2.2.2.2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) (ms4_10 ⟨n + 1, hn⟩) (hs4_10 ⟨n + 1, hn⟩) (ms4_11 ⟨n + 1, hn⟩) (hs4_11 ⟨n + 1, hn⟩) (ms4_12 ⟨n + 1, hn⟩) (hs4_12 ⟨n + 1, hn⟩) scM4_0 (Memref.isWhole_whole _) scM4_1 (Memref.isWhole_whole _) (fun h => Nat.succ_ne_zero n ((hcond4_0 ⟨n + 1, hn⟩).mp h)) ((hcond4_1 ⟨n + 1, hn⟩).mpr (Nat.succ_ne_zero n)) ((hcond4_2 ⟨n + 1, hn⟩).mpr h3) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (outsAt4 c n (Nat.lt_of_succ_lt hn)).2.2.2.1 (outsAt4 c n (Nat.lt_of_succ_lt hn)).2.2.2.2, sout4_C_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) (ms4_10 ⟨n + 1, hn⟩) (hs4_10 ⟨n + 1, hn⟩) (ms4_11 ⟨n + 1, hn⟩) (hs4_11 ⟨n + 1, hn⟩) (ms4_12 ⟨n + 1, hn⟩) (hs4_12 ⟨n + 1, hn⟩) scM4_0 (Memref.isWhole_whole _) scM4_1 (Memref.isWhole_whole _) (fun h => Nat.succ_ne_zero n ((hcond4_0 ⟨n + 1, hn⟩).mp h)) ((hcond4_1 ⟨n + 1, hn⟩).mpr (Nat.succ_ne_zero n)) ((hcond4_2 ⟨n + 1, hn⟩).mpr h3) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (outsAt4 c n (Nat.lt_of_succ_lt hn)).2.2.2.1 (outsAt4 c n (Nat.lt_of_succ_lt hn)).2.2.2.2)
    else
      (out4_B_10 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) (ms4_10 ⟨n + 1, hn⟩) (hs4_10 ⟨n + 1, hn⟩) (ms4_11 ⟨n + 1, hn⟩) (hs4_11 ⟨n + 1, hn⟩) (ms4_12 ⟨n + 1, hn⟩) (hs4_12 ⟨n + 1, hn⟩) scM4_0 (Memref.isWhole_whole _) scM4_1 (Memref.isWhole_whole _) (fun h => Nat.succ_ne_zero n ((hcond4_0 ⟨n + 1, hn⟩).mp h)) ((hcond4_1 ⟨n + 1, hn⟩).mpr (Nat.succ_ne_zero n)) (fun h => h3 ((hcond4_2 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (outsAt4 c n (Nat.lt_of_succ_lt hn)).2.2.2.1 (outsAt4 c n (Nat.lt_of_succ_lt hn)).2.2.2.2, idleJunk, idleJunk, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) (ms4_10 ⟨n + 1, hn⟩) (hs4_10 ⟨n + 1, hn⟩) (ms4_11 ⟨n + 1, hn⟩) (hs4_11 ⟨n + 1, hn⟩) (ms4_12 ⟨n + 1, hn⟩) (hs4_12 ⟨n + 1, hn⟩) scM4_0 (Memref.isWhole_whole _) scM4_1 (Memref.isWhole_whole _) (fun h => Nat.succ_ne_zero n ((hcond4_0 ⟨n + 1, hn⟩).mp h)) ((hcond4_1 ⟨n + 1, hn⟩).mpr (Nat.succ_ne_zero n)) (fun h => h3 ((hcond4_2 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (outsAt4 c n (Nat.lt_of_succ_lt hn)).2.2.2.1 (outsAt4 c n (Nat.lt_of_succ_lt hn)).2.2.2.2, sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) (ms4_10 ⟨n + 1, hn⟩) (hs4_10 ⟨n + 1, hn⟩) (ms4_11 ⟨n + 1, hn⟩) (hs4_11 ⟨n + 1, hn⟩) (ms4_12 ⟨n + 1, hn⟩) (hs4_12 ⟨n + 1, hn⟩) scM4_0 (Memref.isWhole_whole _) scM4_1 (Memref.isWhole_whole _) (fun h => Nat.succ_ne_zero n ((hcond4_0 ⟨n + 1, hn⟩).mp h)) ((hcond4_1 ⟨n + 1, hn⟩).mpr (Nat.succ_ne_zero n)) (fun h => h3 ((hcond4_2 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (outsAt4 c n (Nat.lt_of_succ_lt hn)).2.2.2.1 (outsAt4 c n (Nat.lt_of_succ_lt hn)).2.2.2.2)

theorem outsAt4_A (c : Dev nD) (t : Fin cfg4.N) (h0 : t.val = 0) (h3 : ¬t.val = 3) :
    outsAt4 V c t.val t.isLt = (out4_A_10 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) (ms4_12 t) (hs4_12 t) scM4_0 (Memref.isWhole_whole _) scM4_1 (Memref.isWhole_whole _) ((hcond4_0 t).mpr h0) (fun h => (hcond4_1 t).mp h h0) (fun h => h3 ((hcond4_2 t).mp h)) (iblk V c 0 t) (iblk V c 1 t) (iblk V c 2 t) (iblk V c 3 t) (iblk V c 4 t) (iblk V c 5 t) (iblk V c 6 t) (iblk V c 7 t) (iblk V c 8 t) (iblk V c 9 t), idleJunk, idleJunk, sout4_A_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) (ms4_12 t) (hs4_12 t) scM4_0 (Memref.isWhole_whole _) scM4_1 (Memref.isWhole_whole _) ((hcond4_0 t).mpr h0) (fun h => (hcond4_1 t).mp h h0) (fun h => h3 ((hcond4_2 t).mp h)) (iblk V c 0 t) (iblk V c 1 t) (iblk V c 2 t) (iblk V c 3 t) (iblk V c 4 t) (iblk V c 5 t) (iblk V c 6 t) (iblk V c 7 t) (iblk V c 8 t) (iblk V c 9 t), sout4_A_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) (ms4_12 t) (hs4_12 t) scM4_0 (Memref.isWhole_whole _) scM4_1 (Memref.isWhole_whole _) ((hcond4_0 t).mpr h0) (fun h => (hcond4_1 t).mp h h0) (fun h => h3 ((hcond4_2 t).mp h)) (iblk V c 0 t) (iblk V c 1 t) (iblk V c 2 t) (iblk V c 3 t) (iblk V c 4 t) (iblk V c 5 t) (iblk V c 6 t) (iblk V c 7 t) (iblk V c 8 t) (iblk V c 9 t)) := by
  obtain ⟨n, hn⟩ := t
  cases n with
  | zero => exact rfl
  | succ n => exact absurd h0 (Nat.succ_ne_zero n)

theorem outsAt4_B (c : Dev nD) (t : Fin cfg4.N) (h0 : ¬t.val = 0) (h3 : ¬t.val = 3) :
    outsAt4 V c t.val t.isLt = (out4_B_10 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) (ms4_12 t) (hs4_12 t) scM4_0 (Memref.isWhole_whole _) scM4_1 (Memref.isWhole_whole _) (fun h => h0 ((hcond4_0 t).mp h)) ((hcond4_1 t).mpr h0) (fun h => h3 ((hcond4_2 t).mp h)) (iblk V c 0 t) (iblk V c 1 t) (iblk V c 2 t) (iblk V c 3 t) (iblk V c 4 t) (iblk V c 5 t) (iblk V c 6 t) (iblk V c 7 t) (iblk V c 8 t) (iblk V c 9 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, idleJunk, idleJunk, sout4_B_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) (ms4_12 t) (hs4_12 t) scM4_0 (Memref.isWhole_whole _) scM4_1 (Memref.isWhole_whole _) (fun h => h0 ((hcond4_0 t).mp h)) ((hcond4_1 t).mpr h0) (fun h => h3 ((hcond4_2 t).mp h)) (iblk V c 0 t) (iblk V c 1 t) (iblk V c 2 t) (iblk V c 3 t) (iblk V c 4 t) (iblk V c 5 t) (iblk V c 6 t) (iblk V c 7 t) (iblk V c 8 t) (iblk V c 9 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_B_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) (ms4_12 t) (hs4_12 t) scM4_0 (Memref.isWhole_whole _) scM4_1 (Memref.isWhole_whole _) (fun h => h0 ((hcond4_0 t).mp h)) ((hcond4_1 t).mpr h0) (fun h => h3 ((hcond4_2 t).mp h)) (iblk V c 0 t) (iblk V c 1 t) (iblk V c 2 t) (iblk V c 3 t) (iblk V c 4 t) (iblk V c 5 t) (iblk V c 6 t) (iblk V c 7 t) (iblk V c 8 t) (iblk V c 9 t) (outsAt4 V c (t.val - 1) (Nat.lt_of_le_of_lt (Nat.sub_le _ _) t.isLt)).2.2.2.1 (outsAt4 V c (t.val - 1) (Nat.lt_of_le_of_lt (Nat.sub_le _ _) t.isLt)).2.2.2.2) := by
  obtain ⟨n, hn⟩ := t
  cases n with
  | zero => exact absurd rfl h0
  | succ n => exact (dif_neg h3).trans rfl

theorem outsAt4_C (c : Dev nD) (t : Fin cfg4.N) (h0 : ¬t.val = 0) (h3 : t.val = 3) :
    outsAt4 V c t.val t.isLt = (out4_C_10 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) (ms4_12 t) (hs4_12 t) scM4_0 (Memref.isWhole_whole _) scM4_1 (Memref.isWhole_whole _) (fun h => h0 ((hcond4_0 t).mp h)) ((hcond4_1 t).mpr h0) ((hcond4_2 t).mpr h3) (iblk V c 0 t) (iblk V c 1 t) (iblk V c 2 t) (iblk V c 3 t) (iblk V c 4 t) (iblk V c 5 t) (iblk V c 6 t) (iblk V c 7 t) (iblk V c 8 t) (iblk V c 9 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, out4_C_11 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) (ms4_12 t) (hs4_12 t) scM4_0 (Memref.isWhole_whole _) scM4_1 (Memref.isWhole_whole _) (fun h => h0 ((hcond4_0 t).mp h)) ((hcond4_1 t).mpr h0) ((hcond4_2 t).mpr h3) (iblk V c 0 t) (iblk V c 1 t) (iblk V c 2 t) (iblk V c 3 t) (iblk V c 4 t) (iblk V c 5 t) (iblk V c 6 t) (iblk V c 7 t) (iblk V c 8 t) (iblk V c 9 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, out4_C_12 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) (ms4_12 t) (hs4_12 t) scM4_0 (Memref.isWhole_whole _) scM4_1 (Memref.isWhole_whole _) (fun h => h0 ((hcond4_0 t).mp h)) ((hcond4_1 t).mpr h0) ((hcond4_2 t).mpr h3) (iblk V c 0 t) (iblk V c 1 t) (iblk V c 2 t) (iblk V c 3 t) (iblk V c 4 t) (iblk V c 5 t) (iblk V c 6 t) (iblk V c 7 t) (iblk V c 8 t) (iblk V c 9 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_C_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) (ms4_12 t) (hs4_12 t) scM4_0 (Memref.isWhole_whole _) scM4_1 (Memref.isWhole_whole _) (fun h => h0 ((hcond4_0 t).mp h)) ((hcond4_1 t).mpr h0) ((hcond4_2 t).mpr h3) (iblk V c 0 t) (iblk V c 1 t) (iblk V c 2 t) (iblk V c 3 t) (iblk V c 4 t) (iblk V c 5 t) (iblk V c 6 t) (iblk V c 7 t) (iblk V c 8 t) (iblk V c 9 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_C_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) (ms4_12 t) (hs4_12 t) scM4_0 (Memref.isWhole_whole _) scM4_1 (Memref.isWhole_whole _) (fun h => h0 ((hcond4_0 t).mp h)) ((hcond4_1 t).mpr h0) ((hcond4_2 t).mpr h3) (iblk V c 0 t) (iblk V c 1 t) (iblk V c 2 t) (iblk V c 3 t) (iblk V c 4 t) (iblk V c 5 t) (iblk V c 6 t) (iblk V c 7 t) (iblk V c 8 t) (iblk V c 9 t) (outsAt4 V c (t.val - 1) (Nat.lt_of_le_of_lt (Nat.sub_le _ _) t.isLt)).2.2.2.1 (outsAt4 V c (t.val - 1) (Nat.lt_of_le_of_lt (Nat.sub_le _ _) t.isLt)).2.2.2.2) := by
  obtain ⟨n, hn⟩ := t
  cases n with
  | zero => exact absurd rfl h0
  | succ n => exact (dif_pos h3).trans rfl

/-! ## The region invariant -/

/-- Before position `n`: at the first point the class's invariant (every scratch at anything); afterwards the two
    scratch buffers at what the point before left, the other scoped buffers unopened, the generator register at some
    state. -/
def PhiS (c : Dev nD) : (n : ℕ) → n ≤ cfg4.N → sProp 𝕄
  | 0, _ => Pipeline.ΦA spec4 c
  | n + 1, hn => iprop(iprop(iprop(owns (c : Thread nD τ) scM4_0 fullShare (outsAt4 V c n hn).2.2.2.1 ∗ owns (c : Thread nD τ) scM4_1 fullShare (outsAt4 V c n hn).2.2.2.2) ∗ Pipeline.scopedRestBut (Ix := Unit) (Name := ℕ) (U := UR sig nD τ) (Lvl := ℕ) (Val := Elt F) spec4 c [cc4_scratch0, cc4_scratch1]) ∗ (∃ r, prngReg c r))

theorem PhiS_zero (c : Dev nD) (n : ℕ) (h : n ≤ cfg4.N) (hz : n = 0) : PhiS V c n h = Pipeline.ΦA spec4 c := by
  subst hz; rfl

theorem PhiS_succ (c : Dev nD) (n : ℕ) (hn : n < cfg4.N) :
    PhiS V c (n + 1) hn = iprop(iprop(iprop(owns (c : Thread nD τ) scM4_0 fullShare (outsAt4 V c n hn).2.2.2.1 ∗ owns (c : Thread nD τ) scM4_1 fullShare (outsAt4 V c n hn).2.2.2.2) ∗ Pipeline.scopedRestBut (Ix := Unit) (Name := ℕ) (U := UR sig nD τ) (Lvl := ℕ) (Val := Elt F) spec4 c [cc4_scratch0, cc4_scratch1]) ∗ (∃ r, prngReg c r)) := rfl

theorem PhiS_pos (c : Dev nD) (n : ℕ) (h : n ≤ cfg4.N) (hz : n ≠ 0) :
    PhiS V c n h = iprop(iprop(iprop(owns (c : Thread nD τ) scM4_0 fullShare (outsAt4 V c (n - 1) (by omega)).2.2.2.1 ∗ owns (c : Thread nD τ) scM4_1 fullShare (outsAt4 V c (n - 1) (by omega)).2.2.2.2) ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

/-! ## The proof data -/

/-- The proof data of the region on core `c`: the arrays as the region finds them; after the body at point `t` each
    input's buffer at its block and the outputs' at `outsAt4`; the invariant `PhiS`; nothing owed; full shares. -/
def dat (c : Dev nD) : Dat τ (Elt F) Unit ℕ (UR sig nD τ) ℕ cfg4 c where
  A w := V c (Pipeline.arrRef spec4 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => (outsAt4 V c t.val t.isLt).1
    | ⟨11, _⟩ => (outsAt4 V c t.val t.isLt).2.1
    | ⟨12, _⟩ => (outsAt4 V c t.val t.isLt).2.2.1
  Φ t := PhiS V c t.val (Nat.le_of_lt_succ t.isLt)
  q _ := fullShare
  owed _ := 0

theorem A_eq (c : Dev nD) (w : Fin cfg4.W) : (dat V c).A w = V c (Pipeline.arrRef spec4 w) := by
  dsimp only [dat]

theorem PhiS_castSucc (c : Dev nD) (t : Fin cfg4.N) :
    (dat V c).Φ t.castSucc = PhiS V c t.val (Nat.le_of_lt t.isLt) := by
  dsimp only [dat]; simp only [Fin.coe_castSucc]

theorem after4_0 (c : Dev nD) (t : Fin cfg4.N) : (dat V c).after 0 t = iblk V c 0 t := by dsimp only [dat]
theorem after4_1 (c : Dev nD) (t : Fin cfg4.N) : (dat V c).after 1 t = iblk V c 1 t := by dsimp only [dat]
theorem after4_2 (c : Dev nD) (t : Fin cfg4.N) : (dat V c).after 2 t = iblk V c 2 t := by dsimp only [dat]
theorem after4_3 (c : Dev nD) (t : Fin cfg4.N) : (dat V c).after 3 t = iblk V c 3 t := by dsimp only [dat]
theorem after4_4 (c : Dev nD) (t : Fin cfg4.N) : (dat V c).after 4 t = iblk V c 4 t := by dsimp only [dat]
theorem after4_5 (c : Dev nD) (t : Fin cfg4.N) : (dat V c).after 5 t = iblk V c 5 t := by dsimp only [dat]
theorem after4_6 (c : Dev nD) (t : Fin cfg4.N) : (dat V c).after 6 t = iblk V c 6 t := by dsimp only [dat]
theorem after4_7 (c : Dev nD) (t : Fin cfg4.N) : (dat V c).after 7 t = iblk V c 7 t := by dsimp only [dat]
theorem after4_8 (c : Dev nD) (t : Fin cfg4.N) : (dat V c).after 8 t = iblk V c 8 t := by dsimp only [dat]
theorem after4_9 (c : Dev nD) (t : Fin cfg4.N) : (dat V c).after 9 t = iblk V c 9 t := by dsimp only [dat]
theorem after4_10 (c : Dev nD) (t : Fin cfg4.N) : (dat V c).after 10 t = (outsAt4 V c t.val t.isLt).1 := by dsimp only [dat]
theorem after4_11 (c : Dev nD) (t : Fin cfg4.N) : (dat V c).after 11 t = (outsAt4 V c t.val t.isLt).2.1 := by dsimp only [dat]
theorem after4_12 (c : Dev nD) (t : Fin cfg4.N) : (dat V c).after 12 t = (outsAt4 V c t.val t.isLt).2.2.1 := by dsimp only [dat]

theorem before4_0 (c : Dev nD) (t : Fin cfg4.N) (d) : (dat V c).before 0 t d = iblk V c 0 t :=
  before4_0_of V (dat V c) (A_eq V c 0) (after4_0 V c) t d
theorem before4_1 (c : Dev nD) (t : Fin cfg4.N) (d) : (dat V c).before 1 t d = iblk V c 1 t :=
  before4_1_of V (dat V c) (A_eq V c 1) (after4_1 V c) t d
theorem before4_2 (c : Dev nD) (t : Fin cfg4.N) (d) : (dat V c).before 2 t d = iblk V c 2 t :=
  before4_2_of V (dat V c) (A_eq V c 2) (after4_2 V c) t d
theorem before4_3 (c : Dev nD) (t : Fin cfg4.N) (d) : (dat V c).before 3 t d = iblk V c 3 t :=
  before4_3_of V (dat V c) (A_eq V c 3) (after4_3 V c) t d
theorem before4_4 (c : Dev nD) (t : Fin cfg4.N) (d) : (dat V c).before 4 t d = iblk V c 4 t :=
  before4_4_of V (dat V c) (A_eq V c 4) (after4_4 V c) t d
theorem before4_5 (c : Dev nD) (t : Fin cfg4.N) (d) : (dat V c).before 5 t d = iblk V c 5 t :=
  before4_5_of V (dat V c) (A_eq V c 5) (after4_5 V c) t d
theorem before4_6 (c : Dev nD) (t : Fin cfg4.N) (d) : (dat V c).before 6 t d = iblk V c 6 t :=
  before4_6_of V (dat V c) (A_eq V c 6) (after4_6 V c) t d
theorem before4_7 (c : Dev nD) (t : Fin cfg4.N) (d) : (dat V c).before 7 t d = iblk V c 7 t :=
  before4_7_of V (dat V c) (A_eq V c 7) (after4_7 V c) t d
theorem before4_8 (c : Dev nD) (t : Fin cfg4.N) (d) : (dat V c).before 8 t d = iblk V c 8 t :=
  before4_8_of V (dat V c) (A_eq V c 8) (after4_8 V c) t d
theorem before4_9 (c : Dev nD) (t : Fin cfg4.N) (d) : (dat V c).before 9 t d = iblk V c 9 t :=
  before4_9_of V (dat V c) (A_eq V c 9) (after4_9 V c) t d

end Cert.KernelIdeal.Reg4

end
-- ==== Proof.AsmVals.lean ====
/-
  The contents of the unscoped buffers between @main's items, from the launch memory onward: a host stretch applies
  its operations, a region leaves each of its windows' arrays at what its pipeline's last point left there and
  every other buffer untouched. No
  item changes an argument array: a host stretch writes none, a region stages some as input windows, whose arrays
  it never writes back.
-/
import proofs.«100906_j73718818669321_2_alg».proof.Proof.Gen.KernelIdeal.Regions
import proofs.«100906_j73718818669321_2_alg».proof.Proof.Reg0Dat
import proofs.«100906_j73718818669321_2_alg».proof.Proof.Reg1Dat
import proofs.«100906_j73718818669321_2_alg».proof.Proof.Reg2Dat
import proofs.«100906_j73718818669321_2_alg».proof.Proof.Reg3Dat
import proofs.«100906_j73718818669321_2_alg».proof.Proof.Reg4Dat
import Idealize.ShloMosaic.Lib.Pipeline.FrameSuffix

noncomputable section

namespace Cert.KernelIdeal.Asm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]
variable (m : (ℓ : Loc nD τ sig) → Buf (Elt F) ℓ)

/-- A valuation read at the TensorCore's references. -/
abbrev atRefs (W : Dev nD → Valuation τ sig (Elt F)) : (c : Dev nD) → (b : Ref sig .tc) → Buf (Elt F) ((c : Thread nD τ).loc b) :=
  fun c b => W c b

/-- After the first host stretch. -/
abbrev W1 (c : Dev nD) : Valuation τ sig (Elt F) := StableHlo.after hostOps0 (V0 m c)

/-- After region 0: its windows' arrays at what the last point left, every other buffer as entered. -/
def W2 (c : Dev nD) : Valuation τ sig (Elt F) :=
  Pipeline.withArrays spec0 c (W1 m c) fun w => (Reg0.dat (atRefs (W1 m)) c).arrAt w cfg0.N
theorem W2_arr (c : Dev nD) (w : Fin cfg0.W) :
    W2 m c (Proc.devRef .tc (Pipeline.arrRef spec0 w)) = (Reg0.dat (atRefs (W1 m)) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- After the host stretch that follows region 0. -/
abbrev W3 (c : Dev nD) : Valuation τ sig (Elt F) := StableHlo.after hostOps1 (W2 m c)

/-- After region 1: its windows' arrays at what the last point left, every other buffer as entered. -/
def W4 (c : Dev nD) : Valuation τ sig (Elt F) :=
  Pipeline.withArrays spec1 c (W3 m c) fun w => (Reg1.dat (atRefs (W3 m)) c).arrAt w cfg1.N
theorem W4_arr (c : Dev nD) (w : Fin cfg1.W) :
    W4 m c (Proc.devRef .tc (Pipeline.arrRef spec1 w)) = (Reg1.dat (atRefs (W3 m)) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- After the host stretch that follows region 1. -/
abbrev W5 (c : Dev nD) : Valuation τ sig (Elt F) := StableHlo.after hostOps2 (W4 m c)

/-- After region 2: its windows' arrays at what the last point left, every other buffer as entered. -/
def W6 (c : Dev nD) : Valuation τ sig (Elt F) :=
  Pipeline.withArrays spec2 c (W5 m c) fun w => (Reg2.dat (atRefs (W5 m)) c).arrAt w cfg2.N
theorem W6_arr (c : Dev nD) (w : Fin cfg2.W) :
    W6 m c (Proc.devRef .tc (Pipeline.arrRef spec2 w)) = (Reg2.dat (atRefs (W5 m)) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- After the host stretch that follows region 2. -/
abbrev W7 (c : Dev nD) : Valuation τ sig (Elt F) := StableHlo.after hostOps3 (W6 m c)

/-- After region 3: its windows' arrays at what the last point left, every other buffer as entered. -/
def W8 (c : Dev nD) : Valuation τ sig (Elt F) :=
  Pipeline.withArrays spec3 c (W7 m c) fun w => (Reg3.dat (atRefs (W7 m)) c).arrAt w cfg3.N
theorem W8_arr (c : Dev nD) (w : Fin cfg3.W) :
    W8 m c (Proc.devRef .tc (Pipeline.arrRef spec3 w)) = (Reg3.dat (atRefs (W7 m)) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
/-- After the host stretch that follows region 3. -/
abbrev W9 (c : Dev nD) : Valuation τ sig (Elt F) := StableHlo.after hostOps4 (W8 m c)

/-- After region 4: its windows' arrays at what the last point left, every other buffer as entered. -/
def W10 (c : Dev nD) : Valuation τ sig (Elt F) :=
  Pipeline.withArrays spec4 c (W9 m c) fun w => (Reg4.dat (atRefs (W9 m)) c).arrAt w cfg4.N
theorem W10_arr (c : Dev nD) (w : Fin cfg4.W) :
    W10 m c (Proc.devRef .tc (Pipeline.arrRef spec4 w)) = (Reg4.dat (atRefs (W9 m)) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb

/-- The last valuation: the two closing host stretches applied to what region 4 left. -/
abbrev W12 (c : Dev nD) : Valuation τ sig (Elt F) := StableHlo.after hostOps5_1 (StableHlo.after hostOps5 (W10 m c))

/-- Every pipeline's proof data, each at its region's entry contents. -/
def pdats : (p : Fin 5) → (c : Dev nD) → Dat τ (Elt F) Unit ℕ (UR sig nD τ) ℕ (cfgs p) c
  | ⟨0, _⟩ => fun c => Reg0.dat (atRefs (W1 m)) c
  | ⟨1, _⟩ => fun c => Reg1.dat (atRefs (W3 m)) c
  | ⟨2, _⟩ => fun c => Reg2.dat (atRefs (W5 m)) c
  | ⟨3, _⟩ => fun c => Reg3.dat (atRefs (W7 m)) c
  | ⟨4, _⟩ => fun c => Reg4.dat (atRefs (W9 m)) c

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## No item changes an argument array -/

theorem W12_main_arg0 (c : Dev nD) : W12 m c (Proc.devRef .tc main_arg0) = m ((c : Thread nD τ).loc main_arg0) :=
  ((StableHlo.after_of_writes_sub hostOps5_1 (StableHlo.after hostOps5 (W10 m c)) hostOps5_1_writes (by decide : main_arg0 ∉ hostOps5_1_W)).trans ((StableHlo.after_of_writes_sub hostOps5 (W10 m c) hostOps5_writes (by decide : main_arg0 ∉ hostOps5_W)).trans ((W10_of_ne m c main_arg0 (by decide)).trans ((StableHlo.after_of_writes_sub hostOps4 (W8 m c) hostOps4_writes (by decide : main_arg0 ∉ hostOps4_W)).trans ((W8_of_ne m c main_arg0 (by decide)).trans ((StableHlo.after_of_writes_sub hostOps3 (W6 m c) hostOps3_writes (by decide : main_arg0 ∉ hostOps3_W)).trans ((W6_of_ne m c main_arg0 (by decide)).trans ((StableHlo.after_of_writes_sub hostOps2 (W4 m c) hostOps2_writes (by decide : main_arg0 ∉ hostOps2_W)).trans (((W4_arr m c 0).trans (((Reg1.dat (atRefs (W3 m)) c).arrAt_in 0 rfl _).trans rfl)).trans ((StableHlo.after_of_writes_sub hostOps1 (W2 m c) hostOps1_writes (by decide : main_arg0 ∉ hostOps1_W)).trans ((W2_of_ne m c main_arg0 (by decide)).trans (StableHlo.after_of_writes_sub hostOps0 (V0 m c) hostOps0_writes (by decide : main_arg0 ∉ hostOps0_W)))))))))))))

theorem W12_main_arg1 (c : Dev nD) : W12 m c (Proc.devRef .tc main_arg1) = m ((c : Thread nD τ).loc main_arg1) :=
  ((StableHlo.after_of_writes_sub hostOps5_1 (StableHlo.after hostOps5 (W10 m c)) hostOps5_1_writes (by decide : main_arg1 ∉ hostOps5_1_W)).trans ((StableHlo.after_of_writes_sub hostOps5 (W10 m c) hostOps5_writes (by decide : main_arg1 ∉ hostOps5_W)).trans ((W10_of_ne m c main_arg1 (by decide)).trans ((StableHlo.after_of_writes_sub hostOps4 (W8 m c) hostOps4_writes (by decide : main_arg1 ∉ hostOps4_W)).trans ((W8_of_ne m c main_arg1 (by decide)).trans ((StableHlo.after_of_writes_sub hostOps3 (W6 m c) hostOps3_writes (by decide : main_arg1 ∉ hostOps3_W)).trans ((W6_of_ne m c main_arg1 (by decide)).trans ((StableHlo.after_of_writes_sub hostOps2 (W4 m c) hostOps2_writes (by decide : main_arg1 ∉ hostOps2_W)).trans ((W4_of_ne m c main_arg1 (by decide)).trans ((StableHlo.after_of_writes_sub hostOps1 (W2 m c) hostOps1_writes (by decide : main_arg1 ∉ hostOps1_W)).trans (((W2_arr m c 0).trans (((Reg0.dat (atRefs (W1 m)) c).arrAt_in 0 rfl _).trans rfl)).trans (StableHlo.after_of_writes_sub hostOps0 (V0 m c) hostOps0_writes (by decide : main_arg1 ∉ hostOps0_W)))))))))))))

theorem W12_main_arg2 (c : Dev nD) : W12 m c (Proc.devRef .tc main_arg2) = m ((c : Thread nD τ).loc main_arg2) :=
  ((StableHlo.after_of_writes_sub hostOps5_1 (StableHlo.after hostOps5 (W10 m c)) hostOps5_1_writes (by decide : main_arg2 ∉ hostOps5_1_W)).trans ((StableHlo.after_of_writes_sub hostOps5 (W10 m c) hostOps5_writes (by decide : main_arg2 ∉ hostOps5_W)).trans ((W10_of_ne m c main_arg2 (by decide)).trans ((StableHlo.after_of_writes_sub hostOps4 (W8 m c) hostOps4_writes (by decide : main_arg2 ∉ hostOps4_W)).trans ((W8_of_ne m c main_arg2 (by decide)).trans ((StableHlo.after_of_writes_sub hostOps3 (W6 m c) hostOps3_writes (by decide : main_arg2 ∉ hostOps3_W)).trans ((W6_of_ne m c main_arg2 (by decide)).trans ((StableHlo.after_of_writes_sub hostOps2 (W4 m c) hostOps2_writes (by decide : main_arg2 ∉ hostOps2_W)).trans ((W4_of_ne m c main_arg2 (by decide)).trans ((StableHlo.after_of_writes_sub hostOps1 (W2 m c) hostOps1_writes (by decide : main_arg2 ∉ hostOps1_W)).trans ((W2_of_ne m c main_arg2 (by decide)).trans (StableHlo.after_of_writes_sub hostOps0 (V0 m c) hostOps0_writes (by decide : main_arg2 ∉ hostOps0_W)))))))))))))

theorem W12_main_arg3 (c : Dev nD) : W12 m c (Proc.devRef .tc main_arg3) = m ((c : Thread nD τ).loc main_arg3) :=
  ((StableHlo.after_of_writes_sub hostOps5_1 (StableHlo.after hostOps5 (W10 m c)) hostOps5_1_writes (by decide : main_arg3 ∉ hostOps5_1_W)).trans ((StableHlo.after_of_writes_sub hostOps5 (W10 m c) hostOps5_writes (by decide : main_arg3 ∉ hostOps5_W)).trans ((W10_of_ne m c main_arg3 (by decide)).trans ((StableHlo.after_of_writes_sub hostOps4 (W8 m c) hostOps4_writes (by decide : main_arg3 ∉ hostOps4_W)).trans ((W8_of_ne m c main_arg3 (by decide)).trans ((StableHlo.after_of_writes_sub hostOps3 (W6 m c) hostOps3_writes (by decide : main_arg3 ∉ hostOps3_W)).trans ((W6_of_ne m c main_arg3 (by decide)).trans ((StableHlo.after_of_writes_sub hostOps2 (W4 m c) hostOps2_writes (by decide : main_arg3 ∉ hostOps2_W)).trans ((W4_of_ne m c main_arg3 (by decide)).trans ((StableHlo.after_of_writes_sub hostOps1 (W2 m c) hostOps1_writes (by decide : main_arg3 ∉ hostOps1_W)).trans ((W2_of_ne m c main_arg3 (by decide)).trans (StableHlo.after_of_writes_sub hostOps0 (V0 m c) hostOps0_writes (by decide : main_arg3 ∉ hostOps0_W)))))))))))))

theorem W12_main_arg4 (c : Dev nD) : W12 m c (Proc.devRef .tc main_arg4) = m ((c : Thread nD τ).loc main_arg4) :=
  ((StableHlo.after_of_writes_sub hostOps5_1 (StableHlo.after hostOps5 (W10 m c)) hostOps5_1_writes (by decide : main_arg4 ∉ hostOps5_1_W)).trans ((StableHlo.after_of_writes_sub hostOps5 (W10 m c) hostOps5_writes (by decide : main_arg4 ∉ hostOps5_W)).trans ((W10_of_ne m c main_arg4 (by decide)).trans ((StableHlo.after_of_writes_sub hostOps4 (W8 m c) hostOps4_writes (by decide : main_arg4 ∉ hostOps4_W)).trans ((W8_of_ne m c main_arg4 (by decide)).trans ((StableHlo.after_of_writes_sub hostOps3 (W6 m c) hostOps3_writes (by decide : main_arg4 ∉ hostOps3_W)).trans ((W6_of_ne m c main_arg4 (by decide)).trans ((StableHlo.after_of_writes_sub hostOps2 (W4 m c) hostOps2_writes (by decide : main_arg4 ∉ hostOps2_W)).trans ((W4_of_ne m c main_arg4 (by decide)).trans ((StableHlo.after_of_writes_sub hostOps1 (W2 m c) hostOps1_writes (by decide : main_arg4 ∉ hostOps1_W)).trans ((W2_of_ne m c main_arg4 (by decide)).trans (StableHlo.after_of_writes_sub hostOps0 (V0 m c) hostOps0_writes (by decide : main_arg4 ∉ hostOps0_W)))))))))))))

theorem W12_main_arg5 (c : Dev nD) : W12 m c (Proc.devRef .tc main_arg5) = m ((c : Thread nD τ).loc main_arg5) :=
  ((StableHlo.after_of_writes_sub hostOps5_1 (StableHlo.after hostOps5 (W10 m c)) hostOps5_1_writes (by decide : main_arg5 ∉ hostOps5_1_W)).trans ((StableHlo.after_of_writes_sub hostOps5 (W10 m c) hostOps5_writes (by decide : main_arg5 ∉ hostOps5_W)).trans ((W10_of_ne m c main_arg5 (by decide)).trans ((StableHlo.after_of_writes_sub hostOps4 (W8 m c) hostOps4_writes (by decide : main_arg5 ∉ hostOps4_W)).trans ((W8_of_ne m c main_arg5 (by decide)).trans ((StableHlo.after_of_writes_sub hostOps3 (W6 m c) hostOps3_writes (by decide : main_arg5 ∉ hostOps3_W)).trans ((W6_of_ne m c main_arg5 (by decide)).trans ((StableHlo.after_of_writes_sub hostOps2 (W4 m c) hostOps2_writes (by decide : main_arg5 ∉ hostOps2_W)).trans ((W4_of_ne m c main_arg5 (by decide)).trans ((StableHlo.after_of_writes_sub hostOps1 (W2 m c) hostOps1_writes (by decide : main_arg5 ∉ hostOps1_W)).trans ((W2_of_ne m c main_arg5 (by decide)).trans (StableHlo.after_of_writes_sub hostOps0 (V0 m c) hostOps0_writes (by decide : main_arg5 ∉ hostOps0_W)))))))))))))

theorem W12_main_arg6 (c : Dev nD) : W12 m c (Proc.devRef .tc main_arg6) = m ((c : Thread nD τ).loc main_arg6) :=
  ((StableHlo.after_of_writes_sub hostOps5_1 (StableHlo.after hostOps5 (W10 m c)) hostOps5_1_writes (by decide : main_arg6 ∉ hostOps5_1_W)).trans ((StableHlo.after_of_writes_sub hostOps5 (W10 m c) hostOps5_writes (by decide : main_arg6 ∉ hostOps5_W)).trans ((W10_of_ne m c main_arg6 (by decide)).trans ((StableHlo.after_of_writes_sub hostOps4 (W8 m c) hostOps4_writes (by decide : main_arg6 ∉ hostOps4_W)).trans ((W8_of_ne m c main_arg6 (by decide)).trans ((StableHlo.after_of_writes_sub hostOps3 (W6 m c) hostOps3_writes (by decide : main_arg6 ∉ hostOps3_W)).trans ((W6_of_ne m c main_arg6 (by decide)).trans ((StableHlo.after_of_writes_sub hostOps2 (W4 m c) hostOps2_writes (by decide : main_arg6 ∉ hostOps2_W)).trans ((W4_of_ne m c main_arg6 (by decide)).trans ((StableHlo.after_of_writes_sub hostOps1 (W2 m c) hostOps1_writes (by decide : main_arg6 ∉ hostOps1_W)).trans ((W2_of_ne m c main_arg6 (by decide)).trans (StableHlo.after_of_writes_sub hostOps0 (V0 m c) hostOps0_writes (by decide : main_arg6 ∉ hostOps0_W)))))))))))))

theorem W12_main_arg7 (c : Dev nD) : W12 m c (Proc.devRef .tc main_arg7) = m ((c : Thread nD τ).loc main_arg7) :=
  ((StableHlo.after_of_writes_sub hostOps5_1 (StableHlo.after hostOps5 (W10 m c)) hostOps5_1_writes (by decide : main_arg7 ∉ hostOps5_1_W)).trans ((StableHlo.after_of_writes_sub hostOps5 (W10 m c) hostOps5_writes (by decide : main_arg7 ∉ hostOps5_W)).trans ((W10_of_ne m c main_arg7 (by decide)).trans ((StableHlo.after_of_writes_sub hostOps4 (W8 m c) hostOps4_writes (by decide : main_arg7 ∉ hostOps4_W)).trans ((W8_of_ne m c main_arg7 (by decide)).trans ((StableHlo.after_of_writes_sub hostOps3 (W6 m c) hostOps3_writes (by decide : main_arg7 ∉ hostOps3_W)).trans ((W6_of_ne m c main_arg7 (by decide)).trans ((StableHlo.after_of_writes_sub hostOps2 (W4 m c) hostOps2_writes (by decide : main_arg7 ∉ hostOps2_W)).trans ((W4_of_ne m c main_arg7 (by decide)).trans ((StableHlo.after_of_writes_sub hostOps1 (W2 m c) hostOps1_writes (by decide : main_arg7 ∉ hostOps1_W)).trans ((W2_of_ne m c main_arg7 (by decide)).trans (StableHlo.after_of_writes_sub hostOps0 (V0 m c) hostOps0_writes (by decide : main_arg7 ∉ hostOps0_W)))))))))))))

theorem W12_main_arg8 (c : Dev nD) : W12 m c (Proc.devRef .tc main_arg8) = m ((c : Thread nD τ).loc main_arg8) :=
  ((StableHlo.after_of_writes_sub hostOps5_1 (StableHlo.after hostOps5 (W10 m c)) hostOps5_1_writes (by decide : main_arg8 ∉ hostOps5_1_W)).trans ((StableHlo.after_of_writes_sub hostOps5 (W10 m c) hostOps5_writes (by decide : main_arg8 ∉ hostOps5_W)).trans ((W10_of_ne m c main_arg8 (by decide)).trans ((StableHlo.after_of_writes_sub hostOps4 (W8 m c) hostOps4_writes (by decide : main_arg8 ∉ hostOps4_W)).trans ((W8_of_ne m c main_arg8 (by decide)).trans ((StableHlo.after_of_writes_sub hostOps3 (W6 m c) hostOps3_writes (by decide : main_arg8 ∉ hostOps3_W)).trans ((W6_of_ne m c main_arg8 (by decide)).trans ((StableHlo.after_of_writes_sub hostOps2 (W4 m c) hostOps2_writes (by decide : main_arg8 ∉ hostOps2_W)).trans ((W4_of_ne m c main_arg8 (by decide)).trans ((StableHlo.after_of_writes_sub hostOps1 (W2 m c) hostOps1_writes (by decide : main_arg8 ∉ hostOps1_W)).trans ((W2_of_ne m c main_arg8 (by decide)).trans (StableHlo.after_of_writes_sub hostOps0 (V0 m c) hostOps0_writes (by decide : main_arg8 ∉ hostOps0_W)))))))))))))

theorem W12_main_arg9 (c : Dev nD) : W12 m c (Proc.devRef .tc main_arg9) = m ((c : Thread nD τ).loc main_arg9) :=
  ((StableHlo.after_of_writes_sub hostOps5_1 (StableHlo.after hostOps5 (W10 m c)) hostOps5_1_writes (by decide : main_arg9 ∉ hostOps5_1_W)).trans ((StableHlo.after_of_writes_sub hostOps5 (W10 m c) hostOps5_writes (by decide : main_arg9 ∉ hostOps5_W)).trans ((W10_of_ne m c main_arg9 (by decide)).trans ((StableHlo.after_of_writes_sub hostOps4 (W8 m c) hostOps4_writes (by decide : main_arg9 ∉ hostOps4_W)).trans ((W8_of_ne m c main_arg9 (by decide)).trans ((StableHlo.after_of_writes_sub hostOps3 (W6 m c) hostOps3_writes (by decide : main_arg9 ∉ hostOps3_W)).trans ((W6_of_ne m c main_arg9 (by decide)).trans ((StableHlo.after_of_writes_sub hostOps2 (W4 m c) hostOps2_writes (by decide : main_arg9 ∉ hostOps2_W)).trans ((W4_of_ne m c main_arg9 (by decide)).trans ((StableHlo.after_of_writes_sub hostOps1 (W2 m c) hostOps1_writes (by decide : main_arg9 ∉ hostOps1_W)).trans ((W2_of_ne m c main_arg9 (by decide)).trans (StableHlo.after_of_writes_sub hostOps0 (V0 m c) hostOps0_writes (by decide : main_arg9 ∉ hostOps0_W)))))))))))))

theorem W12_main_arg10 (c : Dev nD) : W12 m c (Proc.devRef .tc main_arg10) = m ((c : Thread nD τ).loc main_arg10) :=
  ((StableHlo.after_of_writes_sub hostOps5_1 (StableHlo.after hostOps5 (W10 m c)) hostOps5_1_writes (by decide : main_arg10 ∉ hostOps5_1_W)).trans ((StableHlo.after_of_writes_sub hostOps5 (W10 m c) hostOps5_writes (by decide : main_arg10 ∉ hostOps5_W)).trans ((W10_of_ne m c main_arg10 (by decide)).trans ((StableHlo.after_of_writes_sub hostOps4 (W8 m c) hostOps4_writes (by decide : main_arg10 ∉ hostOps4_W)).trans ((W8_of_ne m c main_arg10 (by decide)).trans ((StableHlo.after_of_writes_sub hostOps3 (W6 m c) hostOps3_writes (by decide : main_arg10 ∉ hostOps3_W)).trans ((W6_of_ne m c main_arg10 (by decide)).trans ((StableHlo.after_of_writes_sub hostOps2 (W4 m c) hostOps2_writes (by decide : main_arg10 ∉ hostOps2_W)).trans ((W4_of_ne m c main_arg10 (by decide)).trans ((StableHlo.after_of_writes_sub hostOps1 (W2 m c) hostOps1_writes (by decide : main_arg10 ∉ hostOps1_W)).trans ((W2_of_ne m c main_arg10 (by decide)).trans (StableHlo.after_of_writes_sub hostOps0 (V0 m c) hostOps0_writes (by decide : main_arg10 ∉ hostOps0_W)))))))))))))

/-! ## What later items keep of earlier results -/
theorem W2_main_arg0 (c : Dev nD) : W2 m c (Proc.devRef .tc main_arg0) = V0 m c (Proc.devRef .tc main_arg0) :=
  ((W2_of_ne m c main_arg0 (by decide)).trans (StableHlo.after_of_writes_sub hostOps0 (V0 m c) hostOps0_writes (by decide : main_arg0 ∉ hostOps0_W)))
theorem W2_main_arg1 (c : Dev nD) : W2 m c (Proc.devRef .tc main_arg1) = V0 m c (Proc.devRef .tc main_arg1) :=
  (((W2_arr m c 0).trans (((Reg0.dat (atRefs (W1 m)) c).arrAt_in 0 rfl _).trans rfl)).trans (StableHlo.after_of_writes_sub hostOps0 (V0 m c) hostOps0_writes (by decide : main_arg1 ∉ hostOps0_W)))
theorem W2_main_arg2 (c : Dev nD) : W2 m c (Proc.devRef .tc main_arg2) = V0 m c (Proc.devRef .tc main_arg2) :=
  ((W2_of_ne m c main_arg2 (by decide)).trans (StableHlo.after_of_writes_sub hostOps0 (V0 m c) hostOps0_writes (by decide : main_arg2 ∉ hostOps0_W)))
theorem W2_main_arg3 (c : Dev nD) : W2 m c (Proc.devRef .tc main_arg3) = V0 m c (Proc.devRef .tc main_arg3) :=
  ((W2_of_ne m c main_arg3 (by decide)).trans (StableHlo.after_of_writes_sub hostOps0 (V0 m c) hostOps0_writes (by decide : main_arg3 ∉ hostOps0_W)))
theorem W2_main_arg4 (c : Dev nD) : W2 m c (Proc.devRef .tc main_arg4) = V0 m c (Proc.devRef .tc main_arg4) :=
  ((W2_of_ne m c main_arg4 (by decide)).trans (StableHlo.after_of_writes_sub hostOps0 (V0 m c) hostOps0_writes (by decide : main_arg4 ∉ hostOps0_W)))
theorem W2_main_arg5 (c : Dev nD) : W2 m c (Proc.devRef .tc main_arg5) = V0 m c (Proc.devRef .tc main_arg5) :=
  ((W2_of_ne m c main_arg5 (by decide)).trans (StableHlo.after_of_writes_sub hostOps0 (V0 m c) hostOps0_writes (by decide : main_arg5 ∉ hostOps0_W)))
theorem W2_main_arg6 (c : Dev nD) : W2 m c (Proc.devRef .tc main_arg6) = V0 m c (Proc.devRef .tc main_arg6) :=
  ((W2_of_ne m c main_arg6 (by decide)).trans (StableHlo.after_of_writes_sub hostOps0 (V0 m c) hostOps0_writes (by decide : main_arg6 ∉ hostOps0_W)))
theorem W2_main_arg7 (c : Dev nD) : W2 m c (Proc.devRef .tc main_arg7) = V0 m c (Proc.devRef .tc main_arg7) :=
  ((W2_of_ne m c main_arg7 (by decide)).trans (StableHlo.after_of_writes_sub hostOps0 (V0 m c) hostOps0_writes (by decide : main_arg7 ∉ hostOps0_W)))
theorem W2_main_arg8 (c : Dev nD) : W2 m c (Proc.devRef .tc main_arg8) = V0 m c (Proc.devRef .tc main_arg8) :=
  ((W2_of_ne m c main_arg8 (by decide)).trans (StableHlo.after_of_writes_sub hostOps0 (V0 m c) hostOps0_writes (by decide : main_arg8 ∉ hostOps0_W)))
theorem W2_main_arg9 (c : Dev nD) : W2 m c (Proc.devRef .tc main_arg9) = V0 m c (Proc.devRef .tc main_arg9) :=
  ((W2_of_ne m c main_arg9 (by decide)).trans (StableHlo.after_of_writes_sub hostOps0 (V0 m c) hostOps0_writes (by decide : main_arg9 ∉ hostOps0_W)))
theorem W2_main_arg10 (c : Dev nD) : W2 m c (Proc.devRef .tc main_arg10) = V0 m c (Proc.devRef .tc main_arg10) :=
  ((W2_of_ne m c main_arg10 (by decide)).trans (StableHlo.after_of_writes_sub hostOps0 (V0 m c) hostOps0_writes (by decide : main_arg10 ∉ hostOps0_W)))
theorem W4_main_arg0 (c : Dev nD) : W4 m c (Proc.devRef .tc main_arg0) = V0 m c (Proc.devRef .tc main_arg0) :=
  (((W4_arr m c 0).trans (((Reg1.dat (atRefs (W3 m)) c).arrAt_in 0 rfl _).trans rfl)).trans ((StableHlo.after_of_writes_sub hostOps1 (W2 m c) hostOps1_writes (by decide : main_arg0 ∉ hostOps1_W)).trans ((W2_of_ne m c main_arg0 (by decide)).trans (StableHlo.after_of_writes_sub hostOps0 (V0 m c) hostOps0_writes (by decide : main_arg0 ∉ hostOps0_W)))))
theorem W4_main_arg1 (c : Dev nD) : W4 m c (Proc.devRef .tc main_arg1) = V0 m c (Proc.devRef .tc main_arg1) :=
  ((W4_of_ne m c main_arg1 (by decide)).trans ((StableHlo.after_of_writes_sub hostOps1 (W2 m c) hostOps1_writes (by decide : main_arg1 ∉ hostOps1_W)).trans (((W2_arr m c 0).trans (((Reg0.dat (atRefs (W1 m)) c).arrAt_in 0 rfl _).trans rfl)).trans (StableHlo.after_of_writes_sub hostOps0 (V0 m c) hostOps0_writes (by decide : main_arg1 ∉ hostOps0_W)))))
theorem W4_main_arg2 (c : Dev nD) : W4 m c (Proc.devRef .tc main_arg2) = V0 m c (Proc.devRef .tc main_arg2) :=
  ((W4_of_ne m c main_arg2 (by decide)).trans ((StableHlo.after_of_writes_sub hostOps1 (W2 m c) hostOps1_writes (by decide : main_arg2 ∉ hostOps1_W)).trans ((W2_of_ne m c main_arg2 (by decide)).trans (StableHlo.after_of_writes_sub hostOps0 (V0 m c) hostOps0_writes (by decide : main_arg2 ∉ hostOps0_W)))))
theorem W4_main_arg3 (c : Dev nD) : W4 m c (Proc.devRef .tc main_arg3) = V0 m c (Proc.devRef .tc main_arg3) :=
  ((W4_of_ne m c main_arg3 (by decide)).trans ((StableHlo.after_of_writes_sub hostOps1 (W2 m c) hostOps1_writes (by decide : main_arg3 ∉ hostOps1_W)).trans ((W2_of_ne m c main_arg3 (by decide)).trans (StableHlo.after_of_writes_sub hostOps0 (V0 m c) hostOps0_writes (by decide : main_arg3 ∉ hostOps0_W)))))
theorem W4_main_arg4 (c : Dev nD) : W4 m c (Proc.devRef .tc main_arg4) = V0 m c (Proc.devRef .tc main_arg4) :=
  ((W4_of_ne m c main_arg4 (by decide)).trans ((StableHlo.after_of_writes_sub hostOps1 (W2 m c) hostOps1_writes (by decide : main_arg4 ∉ hostOps1_W)).trans ((W2_of_ne m c main_arg4 (by decide)).trans (StableHlo.after_of_writes_sub hostOps0 (V0 m c) hostOps0_writes (by decide : main_arg4 ∉ hostOps0_W)))))
theorem W4_main_arg5 (c : Dev nD) : W4 m c (Proc.devRef .tc main_arg5) = V0 m c (Proc.devRef .tc main_arg5) :=
  ((W4_of_ne m c main_arg5 (by decide)).trans ((StableHlo.after_of_writes_sub hostOps1 (W2 m c) hostOps1_writes (by decide : main_arg5 ∉ hostOps1_W)).trans ((W2_of_ne m c main_arg5 (by decide)).trans (StableHlo.after_of_writes_sub hostOps0 (V0 m c) hostOps0_writes (by decide : main_arg5 ∉ hostOps0_W)))))
theorem W4_main_arg6 (c : Dev nD) : W4 m c (Proc.devRef .tc main_arg6) = V0 m c (Proc.devRef .tc main_arg6) :=
  ((W4_of_ne m c main_arg6 (by decide)).trans ((StableHlo.after_of_writes_sub hostOps1 (W2 m c) hostOps1_writes (by decide : main_arg6 ∉ hostOps1_W)).trans ((W2_of_ne m c main_arg6 (by decide)).trans (StableHlo.after_of_writes_sub hostOps0 (V0 m c) hostOps0_writes (by decide : main_arg6 ∉ hostOps0_W)))))
theorem W4_main_arg7 (c : Dev nD) : W4 m c (Proc.devRef .tc main_arg7) = V0 m c (Proc.devRef .tc main_arg7) :=
  ((W4_of_ne m c main_arg7 (by decide)).trans ((StableHlo.after_of_writes_sub hostOps1 (W2 m c) hostOps1_writes (by decide : main_arg7 ∉ hostOps1_W)).trans ((W2_of_ne m c main_arg7 (by decide)).trans (StableHlo.after_of_writes_sub hostOps0 (V0 m c) hostOps0_writes (by decide : main_arg7 ∉ hostOps0_W)))))
theorem W4_main_arg8 (c : Dev nD) : W4 m c (Proc.devRef .tc main_arg8) = V0 m c (Proc.devRef .tc main_arg8) :=
  ((W4_of_ne m c main_arg8 (by decide)).trans ((StableHlo.after_of_writes_sub hostOps1 (W2 m c) hostOps1_writes (by decide : main_arg8 ∉ hostOps1_W)).trans ((W2_of_ne m c main_arg8 (by decide)).trans (StableHlo.after_of_writes_sub hostOps0 (V0 m c) hostOps0_writes (by decide : main_arg8 ∉ hostOps0_W)))))
theorem W4_main_arg9 (c : Dev nD) : W4 m c (Proc.devRef .tc main_arg9) = V0 m c (Proc.devRef .tc main_arg9) :=
  ((W4_of_ne m c main_arg9 (by decide)).trans ((StableHlo.after_of_writes_sub hostOps1 (W2 m c) hostOps1_writes (by decide : main_arg9 ∉ hostOps1_W)).trans ((W2_of_ne m c main_arg9 (by decide)).trans (StableHlo.after_of_writes_sub hostOps0 (V0 m c) hostOps0_writes (by decide : main_arg9 ∉ hostOps0_W)))))
theorem W4_main_arg10 (c : Dev nD) : W4 m c (Proc.devRef .tc main_arg10) = V0 m c (Proc.devRef .tc main_arg10) :=
  ((W4_of_ne m c main_arg10 (by decide)).trans ((StableHlo.after_of_writes_sub hostOps1 (W2 m c) hostOps1_writes (by decide : main_arg10 ∉ hostOps1_W)).trans ((W2_of_ne m c main_arg10 (by decide)).trans (StableHlo.after_of_writes_sub hostOps0 (V0 m c) hostOps0_writes (by decide : main_arg10 ∉ hostOps0_W)))))
theorem W6_main_arg0 (c : Dev nD) : W6 m c (Proc.devRef .tc main_arg0) = V0 m c (Proc.devRef .tc main_arg0) :=
  ((W6_of_ne m c main_arg0 (by decide)).trans ((StableHlo.after_of_writes_sub hostOps2 (W4 m c) hostOps2_writes (by decide : main_arg0 ∉ hostOps2_W)).trans (((W4_arr m c 0).trans (((Reg1.dat (atRefs (W3 m)) c).arrAt_in 0 rfl _).trans rfl)).trans ((StableHlo.after_of_writes_sub hostOps1 (W2 m c) hostOps1_writes (by decide : main_arg0 ∉ hostOps1_W)).trans ((W2_of_ne m c main_arg0 (by decide)).trans (StableHlo.after_of_writes_sub hostOps0 (V0 m c) hostOps0_writes (by decide : main_arg0 ∉ hostOps0_W)))))))
theorem W6_main_arg1 (c : Dev nD) : W6 m c (Proc.devRef .tc main_arg1) = V0 m c (Proc.devRef .tc main_arg1) :=
  ((W6_of_ne m c main_arg1 (by decide)).trans ((StableHlo.after_of_writes_sub hostOps2 (W4 m c) hostOps2_writes (by decide : main_arg1 ∉ hostOps2_W)).trans ((W4_of_ne m c main_arg1 (by decide)).trans ((StableHlo.after_of_writes_sub hostOps1 (W2 m c) hostOps1_writes (by decide : main_arg1 ∉ hostOps1_W)).trans (((W2_arr m c 0).trans (((Reg0.dat (atRefs (W1 m)) c).arrAt_in 0 rfl _).trans rfl)).trans (StableHlo.after_of_writes_sub hostOps0 (V0 m c) hostOps0_writes (by decide : main_arg1 ∉ hostOps0_W)))))))
theorem W6_main_arg2 (c : Dev nD) : W6 m c (Proc.devRef .tc main_arg2) = V0 m c (Proc.devRef .tc main_arg2) :=
  ((W6_of_ne m c main_arg2 (by decide)).trans ((StableHlo.after_of_writes_sub hostOps2 (W4 m c) hostOps2_writes (by decide : main_arg2 ∉ hostOps2_W)).trans ((W4_of_ne m c main_arg2 (by decide)).trans ((StableHlo.after_of_writes_sub hostOps1 (W2 m c) hostOps1_writes (by decide : main_arg2 ∉ hostOps1_W)).trans ((W2_of_ne m c main_arg2 (by decide)).trans (StableHlo.after_of_writes_sub hostOps0 (V0 m c) hostOps0_writes (by decide : main_arg2 ∉ hostOps0_W)))))))
theorem W6_main_arg3 (c : Dev nD) : W6 m c (Proc.devRef .tc main_arg3) = V0 m c (Proc.devRef .tc main_arg3) :=
  ((W6_of_ne m c main_arg3 (by decide)).trans ((StableHlo.after_of_writes_sub hostOps2 (W4 m c) hostOps2_writes (by decide : main_arg3 ∉ hostOps2_W)).trans ((W4_of_ne m c main_arg3 (by decide)).trans ((StableHlo.after_of_writes_sub hostOps1 (W2 m c) hostOps1_writes (by decide : main_arg3 ∉ hostOps1_W)).trans ((W2_of_ne m c main_arg3 (by decide)).trans (StableHlo.after_of_writes_sub hostOps0 (V0 m c) hostOps0_writes (by decide : main_arg3 ∉ hostOps0_W)))))))
theorem W6_main_arg4 (c : Dev nD) : W6 m c (Proc.devRef .tc main_arg4) = V0 m c (Proc.devRef .tc main_arg4) :=
  ((W6_of_ne m c main_arg4 (by decide)).trans ((StableHlo.after_of_writes_sub hostOps2 (W4 m c) hostOps2_writes (by decide : main_arg4 ∉ hostOps2_W)).trans ((W4_of_ne m c main_arg4 (by decide)).trans ((StableHlo.after_of_writes_sub hostOps1 (W2 m c) hostOps1_writes (by decide : main_arg4 ∉ hostOps1_W)).trans ((W2_of_ne m c main_arg4 (by decide)).trans (StableHlo.after_of_writes_sub hostOps0 (V0 m c) hostOps0_writes (by decide : main_arg4 ∉ hostOps0_W)))))))
theorem W6_main_arg5 (c : Dev nD) : W6 m c (Proc.devRef .tc main_arg5) = V0 m c (Proc.devRef .tc main_arg5) :=
  ((W6_of_ne m c main_arg5 (by decide)).trans ((StableHlo.after_of_writes_sub hostOps2 (W4 m c) hostOps2_writes (by decide : main_arg5 ∉ hostOps2_W)).trans ((W4_of_ne m c main_arg5 (by decide)).trans ((StableHlo.after_of_writes_sub hostOps1 (W2 m c) hostOps1_writes (by decide : main_arg5 ∉ hostOps1_W)).trans ((W2_of_ne m c main_arg5 (by decide)).trans (StableHlo.after_of_writes_sub hostOps0 (V0 m c) hostOps0_writes (by decide : main_arg5 ∉ hostOps0_W)))))))
theorem W6_main_arg6 (c : Dev nD) : W6 m c (Proc.devRef .tc main_arg6) = V0 m c (Proc.devRef .tc main_arg6) :=
  ((W6_of_ne m c main_arg6 (by decide)).trans ((StableHlo.after_of_writes_sub hostOps2 (W4 m c) hostOps2_writes (by decide : main_arg6 ∉ hostOps2_W)).trans ((W4_of_ne m c main_arg6 (by decide)).trans ((StableHlo.after_of_writes_sub hostOps1 (W2 m c) hostOps1_writes (by decide : main_arg6 ∉ hostOps1_W)).trans ((W2_of_ne m c main_arg6 (by decide)).trans (StableHlo.after_of_writes_sub hostOps0 (V0 m c) hostOps0_writes (by decide : main_arg6 ∉ hostOps0_W)))))))
theorem W6_main_arg7 (c : Dev nD) : W6 m c (Proc.devRef .tc main_arg7) = V0 m c (Proc.devRef .tc main_arg7) :=
  ((W6_of_ne m c main_arg7 (by decide)).trans ((StableHlo.after_of_writes_sub hostOps2 (W4 m c) hostOps2_writes (by decide : main_arg7 ∉ hostOps2_W)).trans ((W4_of_ne m c main_arg7 (by decide)).trans ((StableHlo.after_of_writes_sub hostOps1 (W2 m c) hostOps1_writes (by decide : main_arg7 ∉ hostOps1_W)).trans ((W2_of_ne m c main_arg7 (by decide)).trans (StableHlo.after_of_writes_sub hostOps0 (V0 m c) hostOps0_writes (by decide : main_arg7 ∉ hostOps0_W)))))))
theorem W6_main_arg8 (c : Dev nD) : W6 m c (Proc.devRef .tc main_arg8) = V0 m c (Proc.devRef .tc main_arg8) :=
  ((W6_of_ne m c main_arg8 (by decide)).trans ((StableHlo.after_of_writes_sub hostOps2 (W4 m c) hostOps2_writes (by decide : main_arg8 ∉ hostOps2_W)).trans ((W4_of_ne m c main_arg8 (by decide)).trans ((StableHlo.after_of_writes_sub hostOps1 (W2 m c) hostOps1_writes (by decide : main_arg8 ∉ hostOps1_W)).trans ((W2_of_ne m c main_arg8 (by decide)).trans (StableHlo.after_of_writes_sub hostOps0 (V0 m c) hostOps0_writes (by decide : main_arg8 ∉ hostOps0_W)))))))
theorem W6_main_arg9 (c : Dev nD) : W6 m c (Proc.devRef .tc main_arg9) = V0 m c (Proc.devRef .tc main_arg9) :=
  ((W6_of_ne m c main_arg9 (by decide)).trans ((StableHlo.after_of_writes_sub hostOps2 (W4 m c) hostOps2_writes (by decide : main_arg9 ∉ hostOps2_W)).trans ((W4_of_ne m c main_arg9 (by decide)).trans ((StableHlo.after_of_writes_sub hostOps1 (W2 m c) hostOps1_writes (by decide : main_arg9 ∉ hostOps1_W)).trans ((W2_of_ne m c main_arg9 (by decide)).trans (StableHlo.after_of_writes_sub hostOps0 (V0 m c) hostOps0_writes (by decide : main_arg9 ∉ hostOps0_W)))))))
theorem W6_main_arg10 (c : Dev nD) : W6 m c (Proc.devRef .tc main_arg10) = V0 m c (Proc.devRef .tc main_arg10) :=
  ((W6_of_ne m c main_arg10 (by decide)).trans ((StableHlo.after_of_writes_sub hostOps2 (W4 m c) hostOps2_writes (by decide : main_arg10 ∉ hostOps2_W)).trans ((W4_of_ne m c main_arg10 (by decide)).trans ((StableHlo.after_of_writes_sub hostOps1 (W2 m c) hostOps1_writes (by decide : main_arg10 ∉ hostOps1_W)).trans ((W2_of_ne m c main_arg10 (by decide)).trans (StableHlo.after_of_writes_sub hostOps0 (V0 m c) hostOps0_writes (by decide : main_arg10 ∉ hostOps0_W)))))))
theorem W8_main_arg0 (c : Dev nD) : W8 m c (Proc.devRef .tc main_arg0) = V0 m c (Proc.devRef .tc main_arg0) :=
  ((W8_of_ne m c main_arg0 (by decide)).trans ((StableHlo.after_of_writes_sub hostOps3 (W6 m c) hostOps3_writes (by decide : main_arg0 ∉ hostOps3_W)).trans ((W6_of_ne m c main_arg0 (by decide)).trans ((StableHlo.after_of_writes_sub hostOps2 (W4 m c) hostOps2_writes (by decide : main_arg0 ∉ hostOps2_W)).trans (((W4_arr m c 0).trans (((Reg1.dat (atRefs (W3 m)) c).arrAt_in 0 rfl _).trans rfl)).trans ((StableHlo.after_of_writes_sub hostOps1 (W2 m c) hostOps1_writes (by decide : main_arg0 ∉ hostOps1_W)).trans ((W2_of_ne m c main_arg0 (by decide)).trans (StableHlo.after_of_writes_sub hostOps0 (V0 m c) hostOps0_writes (by decide : main_arg0 ∉ hostOps0_W)))))))))
theorem W8_main_arg1 (c : Dev nD) : W8 m c (Proc.devRef .tc main_arg1) = V0 m c (Proc.devRef .tc main_arg1) :=
  ((W8_of_ne m c main_arg1 (by decide)).trans ((StableHlo.after_of_writes_sub hostOps3 (W6 m c) hostOps3_writes (by decide : main_arg1 ∉ hostOps3_W)).trans ((W6_of_ne m c main_arg1 (by decide)).trans ((StableHlo.after_of_writes_sub hostOps2 (W4 m c) hostOps2_writes (by decide : main_arg1 ∉ hostOps2_W)).trans ((W4_of_ne m c main_arg1 (by decide)).trans ((StableHlo.after_of_writes_sub hostOps1 (W2 m c) hostOps1_writes (by decide : main_arg1 ∉ hostOps1_W)).trans (((W2_arr m c 0).trans (((Reg0.dat (atRefs (W1 m)) c).arrAt_in 0 rfl _).trans rfl)).trans (StableHlo.after_of_writes_sub hostOps0 (V0 m c) hostOps0_writes (by decide : main_arg1 ∉ hostOps0_W)))))))))
theorem W8_main_arg2 (c : Dev nD) : W8 m c (Proc.devRef .tc main_arg2) = V0 m c (Proc.devRef .tc main_arg2) :=
  ((W8_of_ne m c main_arg2 (by decide)).trans ((StableHlo.after_of_writes_sub hostOps3 (W6 m c) hostOps3_writes (by decide : main_arg2 ∉ hostOps3_W)).trans ((W6_of_ne m c main_arg2 (by decide)).trans ((StableHlo.after_of_writes_sub hostOps2 (W4 m c) hostOps2_writes (by decide : main_arg2 ∉ hostOps2_W)).trans ((W4_of_ne m c main_arg2 (by decide)).trans ((StableHlo.after_of_writes_sub hostOps1 (W2 m c) hostOps1_writes (by decide : main_arg2 ∉ hostOps1_W)).trans ((W2_of_ne m c main_arg2 (by decide)).trans (StableHlo.after_of_writes_sub hostOps0 (V0 m c) hostOps0_writes (by decide : main_arg2 ∉ hostOps0_W)))))))))
theorem W8_main_arg3 (c : Dev nD) : W8 m c (Proc.devRef .tc main_arg3) = V0 m c (Proc.devRef .tc main_arg3) :=
  ((W8_of_ne m c main_arg3 (by decide)).trans ((StableHlo.after_of_writes_sub hostOps3 (W6 m c) hostOps3_writes (by decide : main_arg3 ∉ hostOps3_W)).trans ((W6_of_ne m c main_arg3 (by decide)).trans ((StableHlo.after_of_writes_sub hostOps2 (W4 m c) hostOps2_writes (by decide : main_arg3 ∉ hostOps2_W)).trans ((W4_of_ne m c main_arg3 (by decide)).trans ((StableHlo.after_of_writes_sub hostOps1 (W2 m c) hostOps1_writes (by decide : main_arg3 ∉ hostOps1_W)).trans ((W2_of_ne m c main_arg3 (by decide)).trans (StableHlo.after_of_writes_sub hostOps0 (V0 m c) hostOps0_writes (by decide : main_arg3 ∉ hostOps0_W)))))))))
theorem W8_main_arg4 (c : Dev nD) : W8 m c (Proc.devRef .tc main_arg4) = V0 m c (Proc.devRef .tc main_arg4) :=
  ((W8_of_ne m c main_arg4 (by decide)).trans ((StableHlo.after_of_writes_sub hostOps3 (W6 m c) hostOps3_writes (by decide : main_arg4 ∉ hostOps3_W)).trans ((W6_of_ne m c main_arg4 (by decide)).trans ((StableHlo.after_of_writes_sub hostOps2 (W4 m c) hostOps2_writes (by decide : main_arg4 ∉ hostOps2_W)).trans ((W4_of_ne m c main_arg4 (by decide)).trans ((StableHlo.after_of_writes_sub hostOps1 (W2 m c) hostOps1_writes (by decide : main_arg4 ∉ hostOps1_W)).trans ((W2_of_ne m c main_arg4 (by decide)).trans (StableHlo.after_of_writes_sub hostOps0 (V0 m c) hostOps0_writes (by decide : main_arg4 ∉ hostOps0_W)))))))))
theorem W8_main_arg5 (c : Dev nD) : W8 m c (Proc.devRef .tc main_arg5) = V0 m c (Proc.devRef .tc main_arg5) :=
  ((W8_of_ne m c main_arg5 (by decide)).trans ((StableHlo.after_of_writes_sub hostOps3 (W6 m c) hostOps3_writes (by decide : main_arg5 ∉ hostOps3_W)).trans ((W6_of_ne m c main_arg5 (by decide)).trans ((StableHlo.after_of_writes_sub hostOps2 (W4 m c) hostOps2_writes (by decide : main_arg5 ∉ hostOps2_W)).trans ((W4_of_ne m c main_arg5 (by decide)).trans ((StableHlo.after_of_writes_sub hostOps1 (W2 m c) hostOps1_writes (by decide : main_arg5 ∉ hostOps1_W)).trans ((W2_of_ne m c main_arg5 (by decide)).trans (StableHlo.after_of_writes_sub hostOps0 (V0 m c) hostOps0_writes (by decide : main_arg5 ∉ hostOps0_W)))))))))
theorem W8_main_arg6 (c : Dev nD) : W8 m c (Proc.devRef .tc main_arg6) = V0 m c (Proc.devRef .tc main_arg6) :=
  ((W8_of_ne m c main_arg6 (by decide)).trans ((StableHlo.after_of_writes_sub hostOps3 (W6 m c) hostOps3_writes (by decide : main_arg6 ∉ hostOps3_W)).trans ((W6_of_ne m c main_arg6 (by decide)).trans ((StableHlo.after_of_writes_sub hostOps2 (W4 m c) hostOps2_writes (by decide : main_arg6 ∉ hostOps2_W)).trans ((W4_of_ne m c main_arg6 (by decide)).trans ((StableHlo.after_of_writes_sub hostOps1 (W2 m c) hostOps1_writes (by decide : main_arg6 ∉ hostOps1_W)).trans ((W2_of_ne m c main_arg6 (by decide)).trans (StableHlo.after_of_writes_sub hostOps0 (V0 m c) hostOps0_writes (by decide : main_arg6 ∉ hostOps0_W)))))))))
theorem W8_main_arg7 (c : Dev nD) : W8 m c (Proc.devRef .tc main_arg7) = V0 m c (Proc.devRef .tc main_arg7) :=
  ((W8_of_ne m c main_arg7 (by decide)).trans ((StableHlo.after_of_writes_sub hostOps3 (W6 m c) hostOps3_writes (by decide : main_arg7 ∉ hostOps3_W)).trans ((W6_of_ne m c main_arg7 (by decide)).trans ((StableHlo.after_of_writes_sub hostOps2 (W4 m c) hostOps2_writes (by decide : main_arg7 ∉ hostOps2_W)).trans ((W4_of_ne m c main_arg7 (by decide)).trans ((StableHlo.after_of_writes_sub hostOps1 (W2 m c) hostOps1_writes (by decide : main_arg7 ∉ hostOps1_W)).trans ((W2_of_ne m c main_arg7 (by decide)).trans (StableHlo.after_of_writes_sub hostOps0 (V0 m c) hostOps0_writes (by decide : main_arg7 ∉ hostOps0_W)))))))))
theorem W8_main_arg8 (c : Dev nD) : W8 m c (Proc.devRef .tc main_arg8) = V0 m c (Proc.devRef .tc main_arg8) :=
  ((W8_of_ne m c main_arg8 (by decide)).trans ((StableHlo.after_of_writes_sub hostOps3 (W6 m c) hostOps3_writes (by decide : main_arg8 ∉ hostOps3_W)).trans ((W6_of_ne m c main_arg8 (by decide)).trans ((StableHlo.after_of_writes_sub hostOps2 (W4 m c) hostOps2_writes (by decide : main_arg8 ∉ hostOps2_W)).trans ((W4_of_ne m c main_arg8 (by decide)).trans ((StableHlo.after_of_writes_sub hostOps1 (W2 m c) hostOps1_writes (by decide : main_arg8 ∉ hostOps1_W)).trans ((W2_of_ne m c main_arg8 (by decide)).trans (StableHlo.after_of_writes_sub hostOps0 (V0 m c) hostOps0_writes (by decide : main_arg8 ∉ hostOps0_W)))))))))
theorem W8_main_arg9 (c : Dev nD) : W8 m c (Proc.devRef .tc main_arg9) = V0 m c (Proc.devRef .tc main_arg9) :=
  ((W8_of_ne m c main_arg9 (by decide)).trans ((StableHlo.after_of_writes_sub hostOps3 (W6 m c) hostOps3_writes (by decide : main_arg9 ∉ hostOps3_W)).trans ((W6_of_ne m c main_arg9 (by decide)).trans ((StableHlo.after_of_writes_sub hostOps2 (W4 m c) hostOps2_writes (by decide : main_arg9 ∉ hostOps2_W)).trans ((W4_of_ne m c main_arg9 (by decide)).trans ((StableHlo.after_of_writes_sub hostOps1 (W2 m c) hostOps1_writes (by decide : main_arg9 ∉ hostOps1_W)).trans ((W2_of_ne m c main_arg9 (by decide)).trans (StableHlo.after_of_writes_sub hostOps0 (V0 m c) hostOps0_writes (by decide : main_arg9 ∉ hostOps0_W)))))))))
theorem W8_main_arg10 (c : Dev nD) : W8 m c (Proc.devRef .tc main_arg10) = V0 m c (Proc.devRef .tc main_arg10) :=
  ((W8_of_ne m c main_arg10 (by decide)).trans ((StableHlo.after_of_writes_sub hostOps3 (W6 m c) hostOps3_writes (by decide : main_arg10 ∉ hostOps3_W)).trans ((W6_of_ne m c main_arg10 (by decide)).trans ((StableHlo.after_of_writes_sub hostOps2 (W4 m c) hostOps2_writes (by decide : main_arg10 ∉ hostOps2_W)).trans ((W4_of_ne m c main_arg10 (by decide)).trans ((StableHlo.after_of_writes_sub hostOps1 (W2 m c) hostOps1_writes (by decide : main_arg10 ∉ hostOps1_W)).trans ((W2_of_ne m c main_arg10 (by decide)).trans (StableHlo.after_of_writes_sub hostOps0 (V0 m c) hostOps0_writes (by decide : main_arg10 ∉ hostOps0_W)))))))))
theorem W1_main_arg1 (c : Dev nD) : W1 m c (Proc.devRef .tc main_arg1) = V0 m c (Proc.devRef .tc main_arg1) :=
  (StableHlo.after_of_writes_sub hostOps0 (V0 m c) hostOps0_writes (by decide : main_arg1 ∉ hostOps0_W))
theorem W3_main_arg0 (c : Dev nD) : W3 m c (Proc.devRef .tc main_arg0) = V0 m c (Proc.devRef .tc main_arg0) :=
  ((StableHlo.after_of_writes_sub hostOps1 (W2 m c) hostOps1_writes (by decide : main_arg0 ∉ hostOps1_W)).trans ((W2_of_ne m c main_arg0 (by decide)).trans (StableHlo.after_of_writes_sub hostOps0 (V0 m c) hostOps0_writes (by decide : main_arg0 ∉ hostOps0_W))))
theorem W3_main_v11 (c : Dev nD) : W3 m c (Proc.devRef .tc main_v11) = W2 m c (Proc.devRef .tc main_v11) :=
  (StableHlo.after_of_writes_sub hostOps1 (W2 m c) hostOps1_writes (by decide : main_v11 ∉ hostOps1_W))
theorem W5_main_v11 (c : Dev nD) : W5 m c (Proc.devRef .tc main_v11) = W2 m c (Proc.devRef .tc main_v11) :=
  ((StableHlo.after_of_writes_sub hostOps2 (W4 m c) hostOps2_writes (by decide : main_v11 ∉ hostOps2_W)).trans (((W4_arr m c 1).trans (((Reg1.dat (atRefs (W3 m)) c).arrAt_in 1 rfl _).trans rfl)).trans (StableHlo.after_of_writes_sub hostOps1 (W2 m c) hostOps1_writes (by decide : main_v11 ∉ hostOps1_W))))
theorem W7_main_v11 (c : Dev nD) : W7 m c (Proc.devRef .tc main_v11) = W2 m c (Proc.devRef .tc main_v11) :=
  ((StableHlo.after_of_writes_sub hostOps3 (W6 m c) hostOps3_writes (by decide : main_v11 ∉ hostOps3_W)).trans (((W6_arr m c 1).trans (((Reg2.dat (atRefs (W5 m)) c).arrAt_in 1 rfl _).trans rfl)).trans ((StableHlo.after_of_writes_sub hostOps2 (W4 m c) hostOps2_writes (by decide : main_v11 ∉ hostOps2_W)).trans (((W4_arr m c 1).trans (((Reg1.dat (atRefs (W3 m)) c).arrAt_in 1 rfl _).trans rfl)).trans (StableHlo.after_of_writes_sub hostOps1 (W2 m c) hostOps1_writes (by decide : main_v11 ∉ hostOps1_W))))))
theorem W9_main_v11 (c : Dev nD) : W9 m c (Proc.devRef .tc main_v11) = W2 m c (Proc.devRef .tc main_v11) :=
  ((StableHlo.after_of_writes_sub hostOps4 (W8 m c) hostOps4_writes (by decide : main_v11 ∉ hostOps4_W)).trans (((W8_arr m c 1).trans (((Reg3.dat (atRefs (W7 m)) c).arrAt_in 1 rfl _).trans rfl)).trans ((StableHlo.after_of_writes_sub hostOps3 (W6 m c) hostOps3_writes (by decide : main_v11 ∉ hostOps3_W)).trans (((W6_arr m c 1).trans (((Reg2.dat (atRefs (W5 m)) c).arrAt_in 1 rfl _).trans rfl)).trans ((StableHlo.after_of_writes_sub hostOps2 (W4 m c) hostOps2_writes (by decide : main_v11 ∉ hostOps2_W)).trans (((W4_arr m c 1).trans (((Reg1.dat (atRefs (W3 m)) c).arrAt_in 1 rfl _).trans rfl)).trans (StableHlo.after_of_writes_sub hostOps1 (W2 m c) hostOps1_writes (by decide : main_v11 ∉ hostOps1_W))))))))
theorem W5_main_v28_0 (c : Dev nD) : W5 m c (Proc.devRef .tc main_v28_0) = W4 m c (Proc.devRef .tc main_v28_0) :=
  (StableHlo.after_of_writes_sub hostOps2 (W4 m c) hostOps2_writes (by decide : main_v28_0 ∉ hostOps2_W))
theorem W5_main_v28_1 (c : Dev nD) : W5 m c (Proc.devRef .tc main_v28_1) = W4 m c (Proc.devRef .tc main_v28_1) :=
  (StableHlo.after_of_writes_sub hostOps2 (W4 m c) hostOps2_writes (by decide : main_v28_1 ∉ hostOps2_W))
theorem W5_main_v28_2 (c : Dev nD) : W5 m c (Proc.devRef .tc main_v28_2) = W4 m c (Proc.devRef .tc main_v28_2) :=
  (StableHlo.after_of_writes_sub hostOps2 (W4 m c) hostOps2_writes (by decide : main_v28_2 ∉ hostOps2_W))
theorem W7_main_v45_0 (c : Dev nD) : W7 m c (Proc.devRef .tc main_v45_0) = W6 m c (Proc.devRef .tc main_v45_0) :=
  (StableHlo.after_of_writes_sub hostOps3 (W6 m c) hostOps3_writes (by decide : main_v45_0 ∉ hostOps3_W))
theorem W7_main_v45_1 (c : Dev nD) : W7 m c (Proc.devRef .tc main_v45_1) = W6 m c (Proc.devRef .tc main_v45_1) :=
  (StableHlo.after_of_writes_sub hostOps3 (W6 m c) hostOps3_writes (by decide : main_v45_1 ∉ hostOps3_W))
theorem W7_main_v45_2 (c : Dev nD) : W7 m c (Proc.devRef .tc main_v45_2) = W6 m c (Proc.devRef .tc main_v45_2) :=
  (StableHlo.after_of_writes_sub hostOps3 (W6 m c) hostOps3_writes (by decide : main_v45_2 ∉ hostOps3_W))
theorem W9_main_v62_0 (c : Dev nD) : W9 m c (Proc.devRef .tc main_v62_0) = W8 m c (Proc.devRef .tc main_v62_0) :=
  (StableHlo.after_of_writes_sub hostOps4 (W8 m c) hostOps4_writes (by decide : main_v62_0 ∉ hostOps4_W))
theorem W9_main_v62_1 (c : Dev nD) : W9 m c (Proc.devRef .tc main_v62_1) = W8 m c (Proc.devRef .tc main_v62_1) :=
  (StableHlo.after_of_writes_sub hostOps4 (W8 m c) hostOps4_writes (by decide : main_v62_1 ∉ hostOps4_W))
theorem W9_main_v62_2 (c : Dev nD) : W9 m c (Proc.devRef .tc main_v62_2) = W8 m c (Proc.devRef .tc main_v62_2) :=
  (StableHlo.after_of_writes_sub hostOps4 (W8 m c) hostOps4_writes (by decide : main_v62_2 ∉ hostOps4_W))

end Cert.KernelIdeal.Asm

end
-- ==== Proof.Reg0Body.lean ====
/-
  The aggregation region: the body's triple and the obligation the launch asks for.

  The body reads its three input blocks whole, reads (and ignores) the output block, and overwrites the output block
  whole with the payload. So from the inputs' buffers at their blocks and the output's at anything it runs to the
  inputs' buffers unchanged and the output's at the payload of the three blocks; the invariant (the scoped rest) and
  what the core owes are not touched. An input window's buffer holds its block at every point, fetched there or not:
  the two parts of the edge transform are fetched once and their block index never moves.
-/
import proofs.«100906_j73718818669321_2_alg».proof.Proof.Reg0Dat
import Idealize.ShloMosaic.Lib.Pipeline.Value

set_option maxRecDepth 16384

noncomputable section

namespace Cert.KernelIdeal.Reg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz : (![0, 0] : Fin 2 → Nat) = fun _ => 0 := funext fun a => by fin_cases a <;> rfl

/-- The one store is of the whole block, so it covers the block. -/
theorem cover_out (p0 : Vec F S256x256 .f32) (y : S256x256.Idx) :
    ∃ pc ∈ ([⟨rOut, p0⟩] : List (View.Piece (Elt F) S256x256 .f32)), y ∈ pc.1.set :=
  ⟨_, List.mem_singleton.2 rfl, View.mem_set_unit_zero hz inb_S256x256_S256x256_0_0 y⟩

/-! ## An input window's buffer holds its block at every point -/

theorem before_0 (c : Dev nD) (t : Fin cfg0.N) (d) : (dat V c).before 0 t d = iblk V c 0 t :=
  ((dat V c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)

theorem before_1 (c : Dev nD) (t : Fin cfg0.N) (d) : (dat V c).before 1 t d = iblk V c 1 t :=
  ((dat V c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)

theorem before_2 (c : Dev nD) (t : Fin cfg0.N) (d) : (dat V c).before 2 t d = iblk V c 2 t :=
  ((dat V c).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)

/-! ## The body's triple -/

set_option maxHeartbeats 1000000 in
theorem sound_kernel (c : Dev nD) (E : Set ℕ) (i : grid0.Coords)
    (arg1 : Memref sig .tc .vmem S256x8192 .f32) (harg1 : arg1.IsWhole)
    (arg2 : Memref sig .tc .vmem S8192x256 .bf16) (harg2 : arg2.IsWhole)
    (arg3 : Memref sig .tc .vmem S8192x256 .bf16) (harg3 : arg3.IsWhole)
    (arg4 : Memref sig .tc .vmem S256x256 .f32) (harg4 : arg4.IsWhole)
    (x0 : Vec F S256x8192 .f32) (x1 x2 : Vec F S8192x256 .bf16) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (outBlk x0 x1 x2)) -∗ K ⟨⟩))
      ⊢ wp frame (wpE (defs₀ (F := F)) Variants.none c none) E (cc0__agg_kernel i arg1 harg1 arg2 harg2 arg3 harg3 arg4 harg4) K := by
  simp only [cc0__agg_kernel_eq_skeleton]; unfold cc0__agg_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

/-! ## The body obligation, at a generic point -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W0, bigSep_W0]
  exact sound_body V c t

/-- The invariant before the first point and after the last is the untouched scoped rest. -/
theorem hin (c : Dev nD) : Pipeline.ΦA spec0 c ⊢ (dat V c).Φ 0 := .rfl
theorem hout (c : Dev nD) : (dat V c).Φ (Fin.last cfg0.N) ⊢ Pipeline.ΦA spec0 c := .rfl

end Cert.KernelIdeal.Reg0

end
-- ==== Proof.Reg1Body.lean ====
/-
  Region 1: the body obligation. At every grid point the body, called on the point's staging buffers (the inputs
  at their blocks) and the scratch rows as the point before left them, leaves window 8's buffer, the scratch rows
  and - at the last point - windows 9 and 10 at what the proof data names, and everything else as it found it.
-/
import proofs.«100906_j73718818669321_2_alg».proof.Proof.Reg1Dat

set_option maxRecDepth 16384

noncomputable section

namespace Cert.KernelIdeal.Reg1

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (ms1_0 t) fullShare ((dat V c).before 0 t d))
    ∗ (∃ d, owns (c : Thread nD τ) (ms1_1 t) fullShare ((dat V c).before 1 t d))
    ∗ (∃ d, owns (c : Thread nD τ) (ms1_2 t) fullShare ((dat V c).before 2 t d))
    ∗ (∃ d, owns (c : Thread nD τ) (ms1_3 t) fullShare ((dat V c).before 3 t d))
    ∗ (∃ d, owns (c : Thread nD τ) (ms1_4 t) fullShare ((dat V c).before 4 t d))
    ∗ (∃ d, owns (c : Thread nD τ) (ms1_5 t) fullShare ((dat V c).before 5 t d))
    ∗ (∃ d, owns (c : Thread nD τ) (ms1_6 t) fullShare ((dat V c).before 6 t d))
    ∗ (∃ d, owns (c : Thread nD τ) (ms1_7 t) fullShare ((dat V c).before 7 t d))
    ∗ (∃ d, owns (c : Thread nD τ) (ms1_8 t) fullShare ((dat V c).before 8 t d))
    ∗ (∃ d, owns (c : Thread nD τ) (ms1_9 t) fullShare ((dat V c).before 9 t d))
    ∗ (∃ d, owns (c : Thread nD τ) (ms1_10 t) fullShare ((dat V c).before 10 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t
    ∗ (dat V c).leavesExact 10 t)

set_option maxHeartbeats 4800000 in
/-- The first point. -/
theorem sound_body_A (c : Dev nD) (t : Fin cfg1.N) (h0 : t.val % 4 = 0) :
    bodyPre V c t ⊢ wp frame (wpE (defs₀ (F := F)) Variants.none c none) Set.univ (bodyAt1 t) (fun _ => bodyPost V c t) := by
  unfold bodyPre bodyPost bodyAt1
  simp only [before1_0, before1_1, before1_2, before1_3, before1_4, before1_5, before1_6, before1_7]
  rw [show (dat V c).owesAt () t.succ = (dat V c).owesAt () t.castSucc from rfl]
  rw [show (dat V c).Φ t.succ = PhiS V c (t.val + 1) t.isLt from rfl, PhiS_succ]
  have hN : t.val < 4 := lt_of_lt_of_eq t.isLt (show cfg1.N = 4 from N_1)
  have hz : t.val = 0 := by omega
  have hc2 : ¬cond1_2 (grid1.coords t) := fun h => by have h3 := (hcond1_2 t).mp h; omega
  rw [show (dat V c).leavesExact 0 t = owns (c : Thread nD τ) (ms1_0 t) fullShare ((dat V c).after 0 t) from by
    unfold Dat.leavesExact; rw [liveAt1 0 (by decide) t], after1_0]
  rw [show (dat V c).leavesExact 1 t = owns (c : Thread nD τ) (ms1_1 t) fullShare ((dat V c).after 1 t) from by
    unfold Dat.leavesExact; rw [liveAt1 1 (by decide) t], after1_1]
  rw [show (dat V c).leavesExact 2 t = owns (c : Thread nD τ) (ms1_2 t) fullShare ((dat V c).after 2 t) from by
    unfold Dat.leavesExact; rw [liveAt1 2 (by decide) t], after1_2]
  rw [show (dat V c).leavesExact 3 t = owns (c : Thread nD τ) (ms1_3 t) fullShare ((dat V c).after 3 t) from by
    unfold Dat.leavesExact; rw [liveAt1 3 (by decide) t], after1_3]
  rw [show (dat V c).leavesExact 4 t = owns (c : Thread nD τ) (ms1_4 t) fullShare ((dat V c).after 4 t) from by
    unfold Dat.leavesExact; rw [liveAt1 4 (by decide) t], after1_4]
  rw [show (dat V c).leavesExact 5 t = owns (c : Thread nD τ) (ms1_5 t) fullShare ((dat V c).after 5 t) from by
    unfold Dat.leavesExact; rw [liveAt1 5 (by decide) t], after1_5]
  rw [show (dat V c).leavesExact 6 t = owns (c : Thread nD τ) (ms1_6 t) fullShare ((dat V c).after 6 t) from by
    unfold Dat.leavesExact; rw [liveAt1 6 (by decide) t], after1_6]
  rw [show (dat V c).leavesExact 7 t = owns (c : Thread nD τ) (ms1_7 t) fullShare ((dat V c).after 7 t) from by
    unfold Dat.leavesExact; rw [liveAt1 7 (by decide) t], after1_7]
  rw [show (dat V c).leavesExact 8 t = owns (c : Thread nD τ) (ms1_8 t) fullShare ((dat V c).after 8 t) from by
    unfold Dat.leavesExact; rw [liveAt1 8 (by decide) t], after1_8]
  rw [Dat.leavesExact_idle (dat V c) 9 t (idleAt1_9 t hc2) (noFlush1_9 t hc2)]
  rw [Dat.leavesExact_idle (dat V c) 10 t (idleAt1_10 t hc2) (noFlush1_10 t hc2)]
  rw [outsAt1_A V c t h0]
  unfold leftA; (try dsimp only)
  rw [PhiS_castSucc V c t, PhiS_zero V c _ _ hz, PhiA1_eq]
  iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((runA V c t h0).2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [H10]; · iexact H10
  isplitl [HS0]; · iexact HS0
  isplitl [HS1]; · iexact HS1
  iintro ⟨H0, H1, H2, H3, H4, H5, H6, H7, ⟨%e8, H8⟩, H9, H10, ⟨%es0, HS0⟩, ⟨%es1, HS1⟩⟩
  isplitl [HS0 HS1 Hrest Hg]
  · isplitl [HS0 HS1 Hrest]
    · isplitl [HS0 HS1]
      · isplitl [HS0]
        · unfold owns; iexists _; isplitr
          swap; · iexact HS0
          ipureintro; exact View.read_writes_of_cover _ _ _ _ _ (coverA_s0 V c t h0)
        · unfold owns; iexists _; isplitr
          swap; · iexact HS1
          ipureintro; exact View.read_writes_of_cover _ _ _ _ _ (coverA_s1 V c t h0)
      · iexact Hrest
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (coverA_8 V c t h0)
  isplitl [H9]; · iexists _; iexact H9
  iexists _; iexact H10

set_option maxHeartbeats 4800000 in
/-- A middle point. -/
theorem sound_body_B (c : Dev nD) (t : Fin cfg1.N) (h0 : ¬t.val % 4 = 0) (h3 : ¬t.val % 4 = 3) :
    bodyPre V c t ⊢ wp frame (wpE (defs₀ (F := F)) Variants.none c none) Set.univ (bodyAt1 t) (fun _ => bodyPost V c t) := by
  unfold bodyPre bodyPost bodyAt1
  simp only [before1_0, before1_1, before1_2, before1_3, before1_4, before1_5, before1_6, before1_7]
  rw [show (dat V c).owesAt () t.succ = (dat V c).owesAt () t.castSucc from rfl]
  rw [show (dat V c).Φ t.succ = PhiS V c (t.val + 1) t.isLt from rfl, PhiS_succ]
  have hN : t.val < 4 := lt_of_lt_of_eq t.isLt (show cfg1.N = 4 from N_1)
  have hz : t.val ≠ 0 := by omega
  have hc2 : ¬cond1_2 (grid1.coords t) := fun h => h3 ((hcond1_2 t).mp h)
  rw [show (dat V c).leavesExact 0 t = owns (c : Thread nD τ) (ms1_0 t) fullShare ((dat V c).after 0 t) from by
    unfold Dat.leavesExact; rw [liveAt1 0 (by decide) t], after1_0]
  rw [show (dat V c).leavesExact 1 t = owns (c : Thread nD τ) (ms1_1 t) fullShare ((dat V c).after 1 t) from by
    unfold Dat.leavesExact; rw [liveAt1 1 (by decide) t], after1_1]
  rw [show (dat V c).leavesExact 2 t = owns (c : Thread nD τ) (ms1_2 t) fullShare ((dat V c).after 2 t) from by
    unfold Dat.leavesExact; rw [liveAt1 2 (by decide) t], after1_2]
  rw [show (dat V c).leavesExact 3 t = owns (c : Thread nD τ) (ms1_3 t) fullShare ((dat V c).after 3 t) from by
    unfold Dat.leavesExact; rw [liveAt1 3 (by decide) t], after1_3]
  rw [show (dat V c).leavesExact 4 t = owns (c : Thread nD τ) (ms1_4 t) fullShare ((dat V c).after 4 t) from by
    unfold Dat.leavesExact; rw [liveAt1 4 (by decide) t], after1_4]
  rw [show (dat V c).leavesExact 5 t = owns (c : Thread nD τ) (ms1_5 t) fullShare ((dat V c).after 5 t) from by
    unfold Dat.leavesExact; rw [liveAt1 5 (by decide) t], after1_5]
  rw [show (dat V c).leavesExact 6 t = owns (c : Thread nD τ) (ms1_6 t) fullShare ((dat V c).after 6 t) from by
    unfold Dat.leavesExact; rw [liveAt1 6 (by decide) t], after1_6]
  rw [show (dat V c).leavesExact 7 t = owns (c : Thread nD τ) (ms1_7 t) fullShare ((dat V c).after 7 t) from by
    unfold Dat.leavesExact; rw [liveAt1 7 (by decide) t], after1_7]
  rw [show (dat V c).leavesExact 8 t = owns (c : Thread nD τ) (ms1_8 t) fullShare ((dat V c).after 8 t) from by
    unfold Dat.leavesExact; rw [liveAt1 8 (by decide) t], after1_8]
  rw [Dat.leavesExact_idle (dat V c) 9 t (idleAt1_9 t hc2) (noFlush1_9 t hc2)]
  rw [Dat.leavesExact_idle (dat V c) 10 t (idleAt1_10 t hc2) (noFlush1_10 t hc2)]
  rw [outsAt1_B V c t h0 h3]
  unfold leftB; (try dsimp only)
  rw [PhiS_castSucc V c t, PhiS_pos V c _ _ hz]
  iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((runB V c t h0 h3 _ _).2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [H10]; · iexact H10
  isplitl [HS0]; · iexact HS0
  isplitl [HS1]; · iexact HS1
  iintro ⟨H0, H1, H2, H3, H4, H5, H6, H7, ⟨%e8, H8⟩, H9, H10, ⟨%es0, HS0⟩, ⟨%es1, HS1⟩⟩
  isplitl [HS0 HS1 Hrest Hg]
  · isplitl [HS0 HS1 Hrest]
    · isplitl [HS0 HS1]
      · isplitl [HS0]
        · unfold owns; iexists _; isplitr
          swap; · iexact HS0
          ipureintro; exact View.read_writes_of_cover _ _ _ _ _ (coverB_s0 V c t h0 h3 _ _)
        · unfold owns; iexists _; isplitr
          swap; · iexact HS1
          ipureintro; exact View.read_writes_of_cover _ _ _ _ _ (coverB_s1 V c t h0 h3 _ _)
      · iexact Hrest
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (coverB_8 V c t h0 h3 _ _)
  isplitl [H9]; · iexists _; iexact H9
  iexists _; iexact H10

set_option maxHeartbeats 4800000 in
/-- The last point. -/
theorem sound_body_C (c : Dev nD) (t : Fin cfg1.N) (h3 : t.val % 4 = 3) :
    bodyPre V c t ⊢ wp frame (wpE (defs₀ (F := F)) Variants.none c none) Set.univ (bodyAt1 t) (fun _ => bodyPost V c t) := by
  unfold bodyPre bodyPost bodyAt1
  simp only [before1_0, before1_1, before1_2, before1_3, before1_4, before1_5, before1_6, before1_7]
  rw [show (dat V c).owesAt () t.succ = (dat V c).owesAt () t.castSucc from rfl]
  rw [show (dat V c).Φ t.succ = PhiS V c (t.val + 1) t.isLt from rfl, PhiS_succ]
  have hN : t.val < 4 := lt_of_lt_of_eq t.isLt (show cfg1.N = 4 from N_1)
  have hz : t.val ≠ 0 := by omega
  have hc2 : cond1_2 (grid1.coords t) := (hcond1_2 t).mpr h3
  rw [show (dat V c).leavesExact 0 t = owns (c : Thread nD τ) (ms1_0 t) fullShare ((dat V c).after 0 t) from by
    unfold Dat.leavesExact; rw [liveAt1 0 (by decide) t], after1_0]
  rw [show (dat V c).leavesExact 1 t = owns (c : Thread nD τ) (ms1_1 t) fullShare ((dat V c).after 1 t) from by
    unfold Dat.leavesExact; rw [liveAt1 1 (by decide) t], after1_1]
  rw [show (dat V c).leavesExact 2 t = owns (c : Thread nD τ) (ms1_2 t) fullShare ((dat V c).after 2 t) from by
    unfold Dat.leavesExact; rw [liveAt1 2 (by decide) t], after1_2]
  rw [show (dat V c).leavesExact 3 t = owns (c : Thread nD τ) (ms1_3 t) fullShare ((dat V c).after 3 t) from by
    unfold Dat.leavesExact; rw [liveAt1 3 (by decide) t], after1_3]
  rw [show (dat V c).leavesExact 4 t = owns (c : Thread nD τ) (ms1_4 t) fullShare ((dat V c).after 4 t) from by
    unfold Dat.leavesExact; rw [liveAt1 4 (by decide) t], after1_4]
  rw [show (dat V c).leavesExact 5 t = owns (c : Thread nD τ) (ms1_5 t) fullShare ((dat V c).after 5 t) from by
    unfold Dat.leavesExact; rw [liveAt1 5 (by decide) t], after1_5]
  rw [show (dat V c).leavesExact 6 t = owns (c : Thread nD τ) (ms1_6 t) fullShare ((dat V c).after 6 t) from by
    unfold Dat.leavesExact; rw [liveAt1 6 (by decide) t], after1_6]
  rw [show (dat V c).leavesExact 7 t = owns (c : Thread nD τ) (ms1_7 t) fullShare ((dat V c).after 7 t) from by
    unfold Dat.leavesExact; rw [liveAt1 7 (by decide) t], after1_7]
  rw [show (dat V c).leavesExact 8 t = owns (c : Thread nD τ) (ms1_8 t) fullShare ((dat V c).after 8 t) from by
    unfold Dat.leavesExact; rw [liveAt1 8 (by decide) t], after1_8]
  rw [show (dat V c).leavesExact 9 t = owns (c : Thread nD τ) (ms1_9 t) fullShare ((dat V c).after 9 t) from by
    unfold Dat.leavesExact; rw [liveAt1_9 t hc2], after1_9]
  rw [show (dat V c).leavesExact 10 t = owns (c : Thread nD τ) (ms1_10 t) fullShare ((dat V c).after 10 t) from by
    unfold Dat.leavesExact; rw [liveAt1_10 t hc2], after1_10]
  rw [outsAt1_C V c t h3]
  unfold leftC; (try dsimp only)
  rw [PhiS_castSucc V c t, PhiS_pos V c _ _ hz]
  iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((runC V c t h3 _ _).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [HS0]; · iexact HS0
  isplitl [HS1]; · iexact HS1
  iintro ⟨H0, H1, H2, H3, H4, H5, H6, H7, ⟨%e8, H8⟩, ⟨%e9, H9⟩, ⟨%e10, H10⟩, ⟨%es0, HS0⟩, ⟨%es1, HS1⟩⟩
  isplitl [HS0 HS1 Hrest Hg]
  · isplitl [HS0 HS1 Hrest]
    · isplitl [HS0 HS1]
      · isplitl [HS0]
        · unfold owns; iexists _; isplitr
          swap; · iexact HS0
          ipureintro; exact View.read_writes_of_cover _ _ _ _ _ (coverC_s0 V c t h3 _ _)
        · unfold owns; iexists _; isplitr
          swap; · iexact HS1
          ipureintro; exact View.read_writes_of_cover _ _ _ _ _ (coverC_s1 V c t h3 _ _)
      · iexact Hrest
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (coverC_8 V c t h3 _ _)
  isplitl [H9]
  · unfold owns; iexists _; isplitr
    swap; · iexact H9
    ipureintro; exact View.read_writes_of_cover _ _ _ _ _ (coverC_9 V c t h3 _ _)
  unfold owns; iexists _; isplitr
  swap; · iexact H10
  ipureintro; exact View.read_writes_of_cover _ _ _ _ _ (coverC_10 V c t h3 _ _)

/-- The body at any point. -/
theorem sound_body (c : Dev nD) (t : Fin cfg1.N) :
    bodyPre V c t ⊢ wp frame (wpE (defs₀ (F := F)) Variants.none c none) Set.univ (bodyAt1 t) (fun _ => bodyPost V c t) := by
  by_cases h0 : t.val % 4 = 0
  · exact sound_body_A V c t h0
  · by_cases h3 : t.val % 4 = 3
    · exact sound_body_C V c t h3
    · exact sound_body_B V c t h0 h3

/-- The body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point the invariant gives the class invariant back: the scratch rows' named contents are forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA1_eq]
  iintro ⟨⟨⟨HS0, HS1⟩, Hrest⟩, Hg⟩
  isplitl [HS0 HS1 Hrest]
  · isplitl [HS0 HS1]
    · isplitl [HS0]
      · iexists _; iexact HS0
      · iexists _; iexact HS1
    · iexact Hrest
  iexact Hg

/-- The same after the last point. -/
theorem hout (c : Dev nD) : (dat V c).Φ (Fin.last cfg1.N) ⊢ Pipeline.ΦA spec1 c :=
  Phi_out V c _ (by rw [Fin.val_last]; have : cfg1.N = 4 := N_1; omega)

end Cert.KernelIdeal.Reg1

end
-- ==== Proof.Reg2Runs.lean ====
/-
  The second head's kernel body: its three control cases and what they compute.

  The body branches on the grid coordinate alone: at the first point it initialises the carried minimum and
  maximum, at every later point it combines them with the block's own, and at the last point it copies them out.
-/
import proofs.«100906_j73718818669321_2_alg».proof.Proof.Gen.KernelIdeal.Launch
import proofs.«100906_j73718818669321_2_alg».proof.Proof.Gen.KernelIdeal.Skeleton
import proofs.«100906_j73718818669321_2_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Reg2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen

variable {F : FTy → Type} [FloatOps F]

/-- The rows before normalisation, from the ten input blocks (in window order: the previous head's rows, the
    aggregate block, the six weight arrays, the previous column minimum and maximum). -/
def preOf (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) : Vec F S8192x128 .f32 :=
  k2_pay15 (k2_pay4 x1) (k2_pay6 x3) (k2_pay7 x4) (k2_pay8 x5) (k2_pay9 x6) (k2_pay10 x7) (k2_pay11 x0 x8 x9) (k2_pay12 x0 x8 x9) (k2_pay13 x2) (k2_pay14 x2)
/-- Their column minimum, as the first point stores it. -/
def minInitOf (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) : Vec F S1x128 .f32 :=
  k2_pay16 (k2_pay4 x1) (k2_pay6 x3) (k2_pay7 x4) (k2_pay8 x5) (k2_pay9 x6) (k2_pay10 x7) (k2_pay11 x0 x8 x9) (k2_pay12 x0 x8 x9) (k2_pay13 x2) (k2_pay14 x2)
/-- Their column maximum, as the first point stores it. -/
def maxInitOf (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) : Vec F S1x128 .f32 :=
  k2_pay17 (k2_pay4 x1) (k2_pay6 x3) (k2_pay7 x4) (k2_pay8 x5) (k2_pay9 x6) (k2_pay10 x7) (k2_pay11 x0 x8 x9) (k2_pay12 x0 x8 x9) (k2_pay13 x2) (k2_pay14 x2)

/-- The first branch is taken exactly when the grid coordinate is zero. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)
/-- The second exactly when it is not. -/
abbrev cond2_1 (i : grid2.Coords) : Prop := (Scalar.cmpi .ne (Scalar.extui (Scalar.cmpi .ne (BitVec.ofNat 32 (i 0).val) 0#32)) 0#32) = 1#1
theorem hcond2_1 : ∀ t : Fin cfg2.N, cond2_1 (grid2.coords t) ↔ ¬ t.val % 4 = 0 :=
  (by decide +kernel : ∀ t : Fin grid2.N, cond2_1 (grid2.coords t) ↔ ¬ t.val % 4 = 0)
/-- The third exactly at the last point. -/
abbrev cond2_2 (i : grid2.Coords) : Prop := k2_cond3 i = 1#1
theorem hcond2_2 : ∀ t : Fin cfg2.N, cond2_2 (grid2.coords t) ↔ t.val % 4 = 3 :=
  (by decide +kernel : ∀ t : Fin grid2.N, cond2_2 (grid2.coords t) ↔ t.val % 4 = 3)

/-- A whole-shape rectangle at zero offsets holds every index. -/
theorem cover_one {S : Shape} {e : EltTy} {Val : EltTy → Type} {off : Fin S.rank → Nat} (h : off = fun _ => 0)
    (inb : ∀ a, off a + S.size a ≤ S.size a) (w : S.Idx → Val e) (L : List (View.Piece Val S e)) :
    ∀ y, ∃ p ∈ ((⟨Rect.unit off S.size inb, w⟩ : View.Piece Val S e) :: L), y ∈ p.1.set :=
  fun y => ⟨_, List.mem_cons_self, View.mem_set_unit_zero h inb y⟩

theorem hz2 : (![0, 0] : Fin 2 → ℕ) = fun _ => 0 := by funext a; fin_cases a <;> rfl

end Cert.KernelIdeal.Reg2

end
-- ==== Proof.Reg2RunA.lean ====
/-
  The second head's kernel body at the first grid point.
-/
import proofs.«100906_j73718818669321_2_alg».proof.Proof.Reg2Runs

set_option maxRecDepth 16384

noncomputable section

namespace Cert.KernelIdeal.Reg2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen

variable {F : FTy → Type} [FloatOps F]

local notation "𝕄" => MT nD τ sig Unit (Elt F) ℕ (UR sig nD τ) ℕ

set_option maxHeartbeats 4000000 in
/-- The body at the first point: it stores the rows into window 10's buffer and their column minimum and maximum
    into the two carried buffers, and leaves windows 11 and 12 as they were. -/
theorem kernelRun2_A (c : Dev nD) (i : grid2.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : cond2_0 i) (hc1 : ¬cond2_1 i) (hc2 : ¬cond2_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xi11 xi12 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ owns (c : Thread nD τ) arg12 fullShare xi11 ∗ owns (c : Thread nD τ) arg13 fullShare xi12 ∗ (∃ d, owns (c : Thread nD τ) arg14 fullShare d) ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (preOf x0 x1 x2 x3 x4 x5 x6 x7 x8 x9) ∗ owns (c : Thread nD τ) arg12 fullShare xi11 ∗ owns (c : Thread nD τ) arg13 fullShare xi12 ∗ owns (c : Thread nD τ) arg14 fullShare (minInitOf x0 x1 x2 x3 x4 x5 x6 x7 x8 x9) ∗ owns (c : Thread nD τ) arg15 fullShare (maxInitOf x0 x1 x2 x3 x4 x5 x6 x7 x8 x9)) -∗ K ⟨⟩))
      ⊢ wp frame (wpE (defs₀ (F := F)) Variants.none c none) E (cc2__head_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc2__head_kernel_eq_skeleton]; unfold cc2__head_kernel_skel
  simp only [k2_part1_eq_skeleton, k2_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
  obtain rfl := harg12.eq_unread hf11; obtain rfl := harg13.eq_unread hf12
  sl_exec (disch := first | exact hc0 | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr
    swap; · iexact H10
    ipureintro
    sl_unfold_run_names; rw [View.read_writes_eq_canon _ _ _ (cover_one hz2 _ _ _), View.canon_unit_zero hz2]
    unfold preOf; sl_unfold_run_names
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S8192x128) hz2, View.ld_unit_zero (S := S128x64) hz2, View.ld_unit_zero (S := S1x64) hz2, View.ld_unit_zero (S := S1x1) hz2, View.ld_unit_zero (S := S64x128) hz2, View.ld_unit_zero (S := S1x128) hz2, View.readCov_unit_zero (S := S1x128) _ hz2]
  isplitl [H11]
  · iexists _; isplitr; · ipureintro; exact harg12.read_unread _
    iexact H11
  isplitl [H12]
  · iexists _; isplitr; · ipureintro; exact harg13.read_unread _
    iexact H12
  isplitl [HS0]
  · iexists _; isplitr
    swap; · iexact HS0
    ipureintro
    sl_unfold_run_names; rw [View.read_writes_eq_canon _ _ _ (cover_one hz2 _ _ _), View.canon_unit_zero hz2]
    unfold minInitOf; sl_unfold_run_names
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S8192x128) hz2, View.ld_unit_zero (S := S128x64) hz2, View.ld_unit_zero (S := S1x64) hz2, View.ld_unit_zero (S := S1x1) hz2, View.ld_unit_zero (S := S64x128) hz2, View.ld_unit_zero (S := S1x128) hz2, View.readCov_unit_zero (S := S1x128) _ hz2]
  iexists _; isplitr
  swap; · iexact HS1
  ipureintro
  sl_unfold_run_names; rw [View.read_writes_eq_canon _ _ _ (cover_one hz2 _ _ _), View.canon_unit_zero hz2]
  unfold maxInitOf; sl_unfold_run_names
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S8192x128) hz2, View.ld_unit_zero (S := S128x64) hz2, View.ld_unit_zero (S := S1x64) hz2, View.ld_unit_zero (S := S1x1) hz2, View.ld_unit_zero (S := S64x128) hz2, View.ld_unit_zero (S := S1x128) hz2, View.readCov_unit_zero (S := S1x128) _ hz2]

end Cert.KernelIdeal.Reg2

end
-- ==== Proof.Reg2RunB.lean ====
/-
  The second head's kernel body at a middle grid point.
-/
import proofs.«100906_j73718818669321_2_alg».proof.Proof.Reg2RunA

set_option maxRecDepth 16384

noncomputable section

namespace Cert.KernelIdeal.Reg2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen

variable {F : FTy → Type} [FloatOps F]

local notation "𝕄" => MT nD τ sig Unit (Elt F) ℕ (UR sig nD τ) ℕ

set_option maxHeartbeats 4000000 in
/-- The body at a middle point: it stores the rows into window 10's buffer, combines the carried minimum and
    maximum with the rows' own, and leaves windows 11 and 12 as they were. -/
theorem kernelRun2_B (c : Dev nD) (i : grid2.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond2_0 i) (hc1 : cond2_1 i) (hc2 : ¬cond2_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xi11 xi12 xs0 xs1 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ owns (c : Thread nD τ) arg12 fullShare xi11 ∗ owns (c : Thread nD τ) arg13 fullShare xi12 ∗ owns (c : Thread nD τ) arg14 fullShare xs0 ∗ owns (c : Thread nD τ) arg15 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (preOf x0 x1 x2 x3 x4 x5 x6 x7 x8 x9) ∗ owns (c : Thread nD τ) arg12 fullShare xi11 ∗ owns (c : Thread nD τ) arg13 fullShare xi12 ∗ owns (c : Thread nD τ) arg14 fullShare (k2_pay1 (preOf x0 x1 x2 x3 x4 x5 x6 x7 x8 x9) xs0) ∗ owns (c : Thread nD τ) arg15 fullShare (k2_pay2 (preOf x0 x1 x2 x3 x4 x5 x6 x7 x8 x9) xs1)) -∗ K ⟨⟩))
      ⊢ wp frame (wpE (defs₀ (F := F)) Variants.none c none) E (cc2__head_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc2__head_kernel_eq_skeleton]; unfold cc2__head_kernel_skel
  simp only [k2_part1_eq_skeleton, k2_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
  obtain rfl := harg12.eq_unread hf11; obtain rfl := harg13.eq_unread hf12
  obtain rfl := harg14.eq_unread hfs0; obtain rfl := harg15.eq_unread hfs1
  sl_exec (disch := first | exact hc0 | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr
    swap; · iexact H10
    ipureintro
    sl_unfold_run_names; rw [View.read_writes_eq_canon _ _ _ (cover_one hz2 _ _ _), View.canon_unit_zero hz2]
    unfold preOf; sl_unfold_run_names
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S8192x128) hz2, View.ld_unit_zero (S := S128x64) hz2, View.ld_unit_zero (S := S1x64) hz2, View.ld_unit_zero (S := S1x1) hz2, View.ld_unit_zero (S := S64x128) hz2, View.ld_unit_zero (S := S1x128) hz2, View.readCov_unit_zero (S := S1x128) _ hz2]
  isplitl [H11]
  · iexists _; isplitr; · ipureintro; exact harg12.read_unread _
    iexact H11
  isplitl [H12]
  · iexists _; isplitr; · ipureintro; exact harg13.read_unread _
    iexact H12
  isplitl [HS0]
  · iexists _; isplitr
    swap; · iexact HS0
    ipureintro
    sl_unfold_run_names; rw [View.read_writes_eq_canon _ _ _ (cover_one hz2 _ _ _), View.canon_unit_zero hz2]
    unfold preOf; sl_unfold_run_names
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S8192x128) hz2, View.ld_unit_zero (S := S128x64) hz2, View.ld_unit_zero (S := S1x64) hz2, View.ld_unit_zero (S := S1x1) hz2, View.ld_unit_zero (S := S64x128) hz2, View.ld_unit_zero (S := S1x128) hz2, View.readCov_unit_zero (S := S1x128) _ hz2]
  iexists _; isplitr
  swap; · iexact HS1
  ipureintro
  sl_unfold_run_names; rw [View.read_writes_eq_canon _ _ _ (cover_one hz2 _ _ _), View.canon_unit_zero hz2]
  unfold preOf; sl_unfold_run_names
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S8192x128) hz2, View.ld_unit_zero (S := S128x64) hz2, View.ld_unit_zero (S := S1x64) hz2, View.ld_unit_zero (S := S1x1) hz2, View.ld_unit_zero (S := S64x128) hz2, View.ld_unit_zero (S := S1x128) hz2, View.readCov_unit_zero (S := S1x128) _ hz2]

end Cert.KernelIdeal.Reg2

end
-- ==== Proof.Reg2RunC.lean ====
/-
  The second head's kernel body at the last grid point.
-/
import proofs.«100906_j73718818669321_2_alg».proof.Proof.Reg2RunB

set_option maxRecDepth 16384

noncomputable section

namespace Cert.KernelIdeal.Reg2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen

variable {F : FTy → Type} [FloatOps F]

local notation "𝕄" => MT nD τ sig Unit (Elt F) ℕ (UR sig nD τ) ℕ

set_option maxHeartbeats 4000000 in
/-- The body at the last point: as at a middle point, and then it copies the carried minimum and maximum into
    the buffers of windows 11 and 12. -/
theorem kernelRun2_C (c : Dev nD) (i : grid2.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond2_0 i) (hc1 : cond2_1 i) (hc2 : cond2_2 i)
    (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs0 ∗ owns (c : Thread nD τ) arg15 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (preOf x0 x1 x2 x3 x4 x5 x6 x7 x8 x9) ∗ owns (c : Thread nD τ) arg12 fullShare (k2_pay1 (preOf x0 x1 x2 x3 x4 x5 x6 x7 x8 x9) xs0) ∗ owns (c : Thread nD τ) arg13 fullShare (k2_pay2 (preOf x0 x1 x2 x3 x4 x5 x6 x7 x8 x9) xs1) ∗ owns (c : Thread nD τ) arg14 fullShare (k2_pay1 (preOf x0 x1 x2 x3 x4 x5 x6 x7 x8 x9) xs0) ∗ owns (c : Thread nD τ) arg15 fullShare (k2_pay2 (preOf x0 x1 x2 x3 x4 x5 x6 x7 x8 x9) xs1)) -∗ K ⟨⟩))
      ⊢ wp frame (wpE (defs₀ (F := F)) Variants.none c none) E (cc2__head_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc2__head_kernel_eq_skeleton]; unfold cc2__head_kernel_skel
  simp only [k2_part1_eq_skeleton, k2_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
  obtain rfl := harg14.eq_unread hfs0; obtain rfl := harg15.eq_unread hfs1
  sl_exec (disch := first | exact hc0 | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr
    swap; · iexact H10
    ipureintro
    sl_unfold_run_names; rw [View.read_writes_eq_canon _ _ _ (cover_one hz2 _ _ _), View.canon_unit_zero hz2]
    unfold preOf; sl_unfold_run_names
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S8192x128) hz2, View.ld_unit_zero (S := S128x64) hz2, View.ld_unit_zero (S := S1x64) hz2, View.ld_unit_zero (S := S1x1) hz2, View.ld_unit_zero (S := S64x128) hz2, View.ld_unit_zero (S := S1x128) hz2, View.readCov_unit_zero (S := S1x128) _ hz2]
  isplitl [H11]
  · iexists _; isplitr
    swap; · iexact H11
    ipureintro
    sl_unfold_run_names; rw [View.read_writes_eq_canon _ _ _ (cover_one hz2 _ _ _), View.canon_unit_zero hz2]
    unfold preOf; sl_unfold_run_names
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S8192x128) hz2, View.ld_unit_zero (S := S128x64) hz2, View.ld_unit_zero (S := S1x64) hz2, View.ld_unit_zero (S := S1x1) hz2, View.ld_unit_zero (S := S64x128) hz2, View.ld_unit_zero (S := S1x128) hz2, View.readCov_unit_zero (S := S1x128) _ hz2]
  isplitl [H12]
  · iexists _; isplitr
    swap; · iexact H12
    ipureintro
    sl_unfold_run_names; rw [View.read_writes_eq_canon _ _ _ (cover_one hz2 _ _ _), View.canon_unit_zero hz2]
    unfold preOf; sl_unfold_run_names
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S8192x128) hz2, View.ld_unit_zero (S := S128x64) hz2, View.ld_unit_zero (S := S1x64) hz2, View.ld_unit_zero (S := S1x1) hz2, View.ld_unit_zero (S := S64x128) hz2, View.ld_unit_zero (S := S1x128) hz2, View.readCov_unit_zero (S := S1x128) _ hz2]
  isplitl [HS0]
  · iexists _; isplitr
    swap; · iexact HS0
    ipureintro
    sl_unfold_run_names; rw [View.read_writes_eq_canon _ _ _ (cover_one hz2 _ _ _), View.canon_unit_zero hz2]
    unfold preOf; sl_unfold_run_names
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S8192x128) hz2, View.ld_unit_zero (S := S128x64) hz2, View.ld_unit_zero (S := S1x64) hz2, View.ld_unit_zero (S := S1x1) hz2, View.ld_unit_zero (S := S64x128) hz2, View.ld_unit_zero (S := S1x128) hz2, View.readCov_unit_zero (S := S1x128) _ hz2]
  iexists _; isplitr
  swap; · iexact HS1
  ipureintro
  sl_unfold_run_names; rw [View.read_writes_eq_canon _ _ _ (cover_one hz2 _ _ _), View.canon_unit_zero hz2]
  unfold preOf; sl_unfold_run_names
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S8192x128) hz2, View.ld_unit_zero (S := S128x64) hz2, View.ld_unit_zero (S := S1x64) hz2, View.ld_unit_zero (S := S1x1) hz2, View.ld_unit_zero (S := S64x128) hz2, View.ld_unit_zero (S := S1x128) hz2, View.readCov_unit_zero (S := S1x128) _ hz2]

end Cert.KernelIdeal.Reg2

end
-- ==== Proof.Reg2Body.lean ====
/-
  The second head's kernel region: the body's obligation at every grid point, and the invariant's two ends.

  At a point the pipeline hands the body each input window's block, the buffers of the three outputs, and the two
  carried one-row buffers at the running minimum and maximum the point before left (at anything at the first point);
  the body's three control cases give back window 10's buffer at the point's rows, the carried buffers at the
  updated running minimum and maximum, and windows 11 and 12 untouched except at the last point, where they
  receive the final minimum and maximum.
-/
import proofs.«100906_j73718818669321_2_alg».proof.Proof.Reg2Dat
import proofs.«100906_j73718818669321_2_alg».proof.Proof.Reg2RunC

set_option maxRecDepth 16384

noncomputable section

namespace Cert.KernelIdeal.Reg2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The proof data's arrays are the region-entry contents. -/
theorem A_eq (c : Dev nD) (w : Fin cfg2.W) : (dat V c).A w = V c (Pipeline.arrRef spec2 w) := by
  dsimp only [dat]

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(iprop(iprop(owns (c : Thread nD τ) scM2_0 fullShare (sminAt V c n hn) ∗ owns (c : Thread nD τ) scM2_1 fullShare (smaxAt V c n hn))
      ∗ Pipeline.scopedRestBut (Ix := Unit) (Name := ℕ) (U := UR sig nD τ) (Lvl := ℕ) (Val := Elt F) spec2 c [cc2_scratch0, cc2_scratch1]) ∗ (∃ r, prngReg c r)) := rfl

theorem PhiS_pos (c : Dev nD) (n : ℕ) (h : n ≤ cfg2.N) (hz : n ≠ 0) :
    PhiS V c n h = iprop(iprop(iprop(owns (c : Thread nD τ) scM2_0 fullShare (sminAt V c (n - 1) (by omega)) ∗ owns (c : Thread nD τ) scM2_1 fullShare (smaxAt V c (n - 1) (by omega)))
      ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

theorem PhiS_castSucc (c : Dev nD) (t : Fin cfg2.N) :
    (dat V c).Φ t.castSucc = PhiS V c t.val (Nat.le_of_lt t.isLt) := by
  dsimp only [dat]; simp only [Fin.coe_castSucc]

/-- The running minimum at the first point is that point's own, -/
theorem sminAt_zero (c : Dev nD) (t : Fin cfg2.N) (h : t.val = 0) : sminAt V c t.val t.isLt = minInitAt V c t := by
  obtain ⟨n, hn⟩ := t; subst h; rfl
theorem smaxAt_zero (c : Dev nD) (t : Fin cfg2.N) (h : t.val = 0) : smaxAt V c t.val t.isLt = maxInitAt V c t := by
  obtain ⟨n, hn⟩ := t; subst h; rfl
/-- and at a later point the point's rows' combined with the one before. -/
theorem sminAt_pos (c : Dev nD) (t : Fin cfg2.N) (h : t.val ≠ 0) :
    sminAt V c t.val t.isLt = k2_pay1 (preAt V c t) (sminAt V c (t.val - 1) (Nat.lt_of_le_of_lt (Nat.sub_le _ _) t.isLt)) := by
  obtain ⟨n, hn⟩ := t
  cases n with
  | zero => exact absurd rfl h
  | succ n => rfl
theorem smaxAt_pos (c : Dev nD) (t : Fin cfg2.N) (h : t.val ≠ 0) :
    smaxAt V c t.val t.isLt = k2_pay2 (preAt V c t) (smaxAt V c (t.val - 1) (Nat.lt_of_le_of_lt (Nat.sub_le _ _) t.isLt)) := by
  obtain ⟨n, hn⟩ := t
  cases n with
  | zero => exact absurd rfl h
  | succ n => rfl

/-- The payload-level names of the Dat module are the body's. -/
theorem preAt_eq (c : Dev nD) (t : Fin cfg2.N) : preAt V c t = preOf (iblk V c 0 t) (iblk V c 1 t) (iblk V c 2 t) (iblk V c 3 t) (iblk V c 4 t) (iblk V c 5 t) (iblk V c 6 t) (iblk V c 7 t) (iblk V c 8 t) (iblk V c 9 t) := rfl
theorem minInitAt_eq (c : Dev nD) (t : Fin cfg2.N) : minInitAt V c t = minInitOf (iblk V c 0 t) (iblk V c 1 t) (iblk V c 2 t) (iblk V c 3 t) (iblk V c 4 t) (iblk V c 5 t) (iblk V c 6 t) (iblk V c 7 t) (iblk V c 8 t) (iblk V c 9 t) := rfl
theorem maxInitAt_eq (c : Dev nD) (t : Fin cfg2.N) : maxInitAt V c t = maxInitOf (iblk V c 0 t) (iblk V c 1 t) (iblk V c 2 t) (iblk V c 3 t) (iblk V c 4 t) (iblk V c 5 t) (iblk V c 6 t) (iblk V c 7 t) (iblk V c 8 t) (iblk V c 9 t) := rfl

/-- What the body leaves, window by window. -/
theorem after2_0 (c : Dev nD) (t : Fin cfg2.N) : (dat V c).after 0 t = iblk V c 0 t := by dsimp only [dat]
theorem after2_1 (c : Dev nD) (t : Fin cfg2.N) : (dat V c).after 1 t = iblk V c 1 t := by dsimp only [dat]
theorem after2_2 (c : Dev nD) (t : Fin cfg2.N) : (dat V c).after 2 t = iblk V c 2 t := by dsimp only [dat]
theorem after2_3 (c : Dev nD) (t : Fin cfg2.N) : (dat V c).after 3 t = iblk V c 3 t := by dsimp only [dat]
theorem after2_4 (c : Dev nD) (t : Fin cfg2.N) : (dat V c).after 4 t = iblk V c 4 t := by dsimp only [dat]
theorem after2_5 (c : Dev nD) (t : Fin cfg2.N) : (dat V c).after 5 t = iblk V c 5 t := by dsimp only [dat]
theorem after2_6 (c : Dev nD) (t : Fin cfg2.N) : (dat V c).after 6 t = iblk V c 6 t := by dsimp only [dat]
theorem after2_7 (c : Dev nD) (t : Fin cfg2.N) : (dat V c).after 7 t = iblk V c 7 t := by dsimp only [dat]
theorem after2_8 (c : Dev nD) (t : Fin cfg2.N) : (dat V c).after 8 t = iblk V c 8 t := by dsimp only [dat]
theorem after2_9 (c : Dev nD) (t : Fin cfg2.N) : (dat V c).after 9 t = iblk V c 9 t := by dsimp only [dat]
theorem after2_10 (c : Dev nD) (t : Fin cfg2.N) : (dat V c).after 10 t = preAt V c t := by dsimp only [dat]
theorem after2_11 (c : Dev nD) (t : Fin cfg2.N) : (dat V c).after 11 t = sminAt V c t.val t.isLt := by dsimp only [dat]
theorem after2_12 (c : Dev nD) (t : Fin cfg2.N) : (dat V c).after 12 t = smaxAt V c t.val t.isLt := by dsimp only [dat]

/-- Each input's current staging buffer holds its block at every point, fetched there or not. -/
theorem before2_0 (c : Dev nD) (t : Fin cfg2.N) (d) : (dat V c).before 0 t d = iblk V c 0 t :=
  ((dat V c).before_in_eq_fetched 0 rfl (fun _ => rfl) (fun _ _ _ => rfl) (fun t => by rw [after2_0]; unfold Dat.blockOf iblk; rw [A_eq]; try rfl) t d).trans
    (by unfold Dat.fetched Dat.blockOf iblk; rw [A_eq]; try rfl)
theorem before2_1 (c : Dev nD) (t : Fin cfg2.N) (d) : (dat V c).before 1 t d = iblk V c 1 t :=
  ((dat V c).before_in_eq_fetched 1 rfl (fun _ => rfl) (fun _ _ _ => rfl) (fun t => by rw [after2_1]; unfold Dat.blockOf iblk; rw [A_eq]; try rfl) t d).trans
    (by unfold Dat.fetched Dat.blockOf iblk; rw [A_eq]; try rfl)
theorem before2_2 (c : Dev nD) (t : Fin cfg2.N) (d) : (dat V c).before 2 t d = iblk V c 2 t :=
  ((dat V c).before_in_eq_fetched 2 rfl (fun _ => rfl) (fun _ _ _ => rfl) (fun t => by rw [after2_2]; unfold Dat.blockOf iblk; rw [A_eq]; try rfl) t d).trans
    (by unfold Dat.fetched Dat.blockOf iblk; rw [A_eq]; try rfl)
theorem before2_3 (c : Dev nD) (t : Fin cfg2.N) (d) : (dat V c).before 3 t d = iblk V c 3 t :=
  ((dat V c).before_in_eq_fetched 3 rfl (fun _ => rfl) (fun _ _ _ => rfl) (fun t => by rw [after2_3]; unfold Dat.blockOf iblk; rw [A_eq]; try rfl) t d).trans
    (by unfold Dat.fetched Dat.blockOf iblk; rw [A_eq]; try rfl)
theorem before2_4 (c : Dev nD) (t : Fin cfg2.N) (d) : (dat V c).before 4 t d = iblk V c 4 t :=
  ((dat V c).before_in_eq_fetched 4 rfl (fun _ => rfl) (fun _ _ _ => rfl) (fun t => by rw [after2_4]; unfold Dat.blockOf iblk; rw [A_eq]; try rfl) t d).trans
    (by unfold Dat.fetched Dat.blockOf iblk; rw [A_eq]; try rfl)
theorem before2_5 (c : Dev nD) (t : Fin cfg2.N) (d) : (dat V c).before 5 t d = iblk V c 5 t :=
  ((dat V c).before_in_eq_fetched 5 rfl (fun _ => rfl) (fun _ _ _ => rfl) (fun t => by rw [after2_5]; unfold Dat.blockOf iblk; rw [A_eq]; try rfl) t d).trans
    (by unfold Dat.fetched Dat.blockOf iblk; rw [A_eq]; try rfl)
theorem before2_6 (c : Dev nD) (t : Fin cfg2.N) (d) : (dat V c).before 6 t d = iblk V c 6 t :=
  ((dat V c).before_in_eq_fetched 6 rfl (fun _ => rfl) (fun _ _ _ => rfl) (fun t => by rw [after2_6]; unfold Dat.blockOf iblk; rw [A_eq]; try rfl) t d).trans
    (by unfold Dat.fetched Dat.blockOf iblk; rw [A_eq]; try rfl)
theorem before2_7 (c : Dev nD) (t : Fin cfg2.N) (d) : (dat V c).before 7 t d = iblk V c 7 t :=
  ((dat V c).before_in_eq_fetched 7 rfl (fun _ => rfl) (fun _ _ _ => rfl) (fun t => by rw [after2_7]; unfold Dat.blockOf iblk; rw [A_eq]; try rfl) t d).trans
    (by unfold Dat.fetched Dat.blockOf iblk; rw [A_eq]; try rfl)
theorem before2_8 (c : Dev nD) (t : Fin cfg2.N) (d) : (dat V c).before 8 t d = iblk V c 8 t :=
  ((dat V c).before_in_eq_fetched 8 rfl (fun _ => rfl) (fun _ _ _ => rfl) (fun t => by rw [after2_8]; unfold Dat.blockOf iblk; rw [A_eq]; try rfl) t d).trans
    (by unfold Dat.fetched Dat.blockOf iblk; rw [A_eq]; try rfl)
theorem before2_9 (c : Dev nD) (t : Fin cfg2.N) (d) : (dat V c).before 9 t d = iblk V c 9 t :=
  ((dat V c).before_in_eq_fetched 9 rfl (fun _ => rfl) (fun _ _ _ => rfl) (fun t => by rw [after2_9]; unfold Dat.blockOf iblk; rw [A_eq]; try rfl) t d).trans
    (by unfold Dat.fetched Dat.blockOf iblk; rw [A_eq]; try rfl)

/-- Where the windows are idle: the inputs and window 10 never; windows 11 and 12 everywhere but at the last point. -/
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem liveAt2_4 : ∀ t : Fin cfg2.N, cfg2.idle 4 (grid2.coords t) = false := fun _ => rfl
theorem liveAt2_5 : ∀ t : Fin cfg2.N, cfg2.idle 5 (grid2.coords t) = false := fun _ => rfl
theorem liveAt2_6 : ∀ t : Fin cfg2.N, cfg2.idle 6 (grid2.coords t) = false := fun _ => rfl
theorem liveAt2_7 : ∀ t : Fin cfg2.N, cfg2.idle 7 (grid2.coords t) = false := fun _ => rfl
theorem liveAt2_8 : ∀ t : Fin cfg2.N, cfg2.idle 8 (grid2.coords t) = false := fun _ => rfl
theorem liveAt2_9 : ∀ t : Fin cfg2.N, cfg2.idle 9 (grid2.coords t) = false := fun _ => rfl
theorem liveAt2_10 : ∀ t : Fin cfg2.N, cfg2.idle 10 (grid2.coords t) = false := fun _ => rfl
theorem idleAt2_11 : ∀ t : Fin cfg2.N, ¬ t.val % 4 = 3 → cfg2.idle 11 (grid2.coords t) = true :=
  (by decide +kernel : ∀ t : Fin grid2.N, ¬ t.val % 4 = 3 → cfg2.idle 11 (grid2.coords t) = true)
theorem noFlush2_11 : ∀ t : Fin cfg2.N, ¬ t.val % 4 = 3 → (cfg2.win 11).flush t = false :=
  (by decide +kernel : ∀ t : Fin grid2.N, ¬ t.val % 4 = 3 → win2_11.flush t = false)
theorem liveAt2_11 : ∀ t : Fin cfg2.N, t.val % 4 = 3 → cfg2.idle 11 (grid2.coords t) = false :=
  (by decide +kernel : ∀ t : Fin grid2.N, t.val % 4 = 3 → cfg2.idle 11 (grid2.coords t) = false)
theorem idleAt2_12 : ∀ t : Fin cfg2.N, ¬ t.val % 4 = 3 → cfg2.idle 12 (grid2.coords t) = true :=
  (by decide +kernel : ∀ t : Fin grid2.N, ¬ t.val % 4 = 3 → cfg2.idle 12 (grid2.coords t) = true)
theorem noFlush2_12 : ∀ t : Fin cfg2.N, ¬ t.val % 4 = 3 → (cfg2.win 12).flush t = false :=
  (by decide +kernel : ∀ t : Fin grid2.N, ¬ t.val % 4 = 3 → win2_12.flush t = false)
theorem liveAt2_12 : ∀ t : Fin cfg2.N, t.val % 4 = 3 → cfg2.idle 12 (grid2.coords t) = false :=
  (by decide +kernel : ∀ t : Fin grid2.N, t.val % 4 = 3 → cfg2.idle 12 (grid2.coords t) = false)

/-- Each window's current staging memref at point `t`, as the pipeline passes it, and its wholeness. -/
abbrev ms2_0 (t : Fin cfg2.N) : Memref sig .tc .vmem S8192x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S8192x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S128x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x64 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x64 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x1 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S64x128 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x128 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S1x128 .f32 := win2_8.stage (cfg2.slots t 8)
abbrev hs2_8 (t : Fin cfg2.N) : (ms2_8 t).IsWhole := hstage2_8 ((cfg2.slots t 8).cast nbuf2_8)
abbrev ms2_9 (t : Fin cfg2.N) : Memref sig .tc .vmem S1x128 .f32 := win2_9.stage (cfg2.slots t 9)
abbrev hs2_9 (t : Fin cfg2.N) : (ms2_9 t).IsWhole := hstage2_9 ((cfg2.slots t 9).cast nbuf2_9)
abbrev ms2_10 (t : Fin cfg2.N) : Memref sig .tc .vmem S8192x128 .f32 := win2_10.stage (cfg2.slots t 10)
abbrev hs2_10 (t : Fin cfg2.N) : (ms2_10 t).IsWhole := hstage2_10 ((cfg2.slots t 10).cast nbuf2_10)
abbrev ms2_11 (t : Fin cfg2.N) : Memref sig .tc .vmem S1x128 .f32 := win2_11.stage (cfg2.slots t 11)
abbrev hs2_11 (t : Fin cfg2.N) : (ms2_11 t).IsWhole := hstage2_11 ((cfg2.slots t 11).cast nbuf2_11)
abbrev ms2_12 (t : Fin cfg2.N) : Memref sig .tc .vmem S1x128 .f32 := win2_12.stage (cfg2.slots t 12)
abbrev hs2_12 (t : Fin cfg2.N) : (ms2_12 t).IsWhole := hstage2_12 ((cfg2.slots t 12).cast nbuf2_12)

/-- The launch's invariant with the two carried buffers as memrefs owned at some contents, the other scoped buffers unopened. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (ms2_0 t) fullShare ((dat V c).before 0 t d))
    ∗ (∃ d, owns (c : Thread nD τ) (ms2_1 t) fullShare ((dat V c).before 1 t d))
    ∗ (∃ d, owns (c : Thread nD τ) (ms2_2 t) fullShare ((dat V c).before 2 t d))
    ∗ (∃ d, owns (c : Thread nD τ) (ms2_3 t) fullShare ((dat V c).before 3 t d))
    ∗ (∃ d, owns (c : Thread nD τ) (ms2_4 t) fullShare ((dat V c).before 4 t d))
    ∗ (∃ d, owns (c : Thread nD τ) (ms2_5 t) fullShare ((dat V c).before 5 t d))
    ∗ (∃ d, owns (c : Thread nD τ) (ms2_6 t) fullShare ((dat V c).before 6 t d))
    ∗ (∃ d, owns (c : Thread nD τ) (ms2_7 t) fullShare ((dat V c).before 7 t d))
    ∗ (∃ d, owns (c : Thread nD τ) (ms2_8 t) fullShare ((dat V c).before 8 t d))
    ∗ (∃ d, owns (c : Thread nD τ) (ms2_9 t) fullShare ((dat V c).before 9 t d))
    ∗ (∃ d, owns (c : Thread nD τ) (ms2_10 t) fullShare ((dat V c).before 10 t d))
    ∗ (∃ d, owns (c : Thread nD τ) (ms2_11 t) fullShare ((dat V c).before 11 t d))
    ∗ (∃ d, owns (c : Thread nD τ) (ms2_12 t) fullShare ((dat V c).before 12 t d)))

/-- and what it returns. -/
def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t
    ∗ (dat V c).leavesExact 10 t
    ∗ (dat V c).leavesExact 11 t
    ∗ (dat V c).leavesExact 12 t)

set_option maxHeartbeats 4800000 in
/-- The body at any point: the inputs' buffers hold their blocks; the point's position says which control case it
    is in; the invariant hands over the carried buffers (at anything at the first point, at the running minimum and
    maximum afterwards) and takes them back at this point's. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before2_0, before2_1, before2_2, before2_3, before2_4, before2_5, before2_6, before2_7, before2_8, before2_9]
  rw [show (dat V c).owesAt () t.succ = (dat V c).owesAt () t.castSucc from rfl]
  rw [show (dat V c).Φ t.succ = PhiS V c (t.val + 1) t.isLt from rfl, PhiS_succ]
  have hN : t.val < 4 := lt_of_lt_of_eq t.isLt (show cfg2.N = 4 from N_2)
  rw [show (dat V c).leavesExact 0 t = owns (c : Thread nD τ) (ms2_0 t) fullShare ((dat V c).after 0 t) from by
    unfold Dat.leavesExact; rw [liveAt2_0 t], after2_0]
  rw [show (dat V c).leavesExact 1 t = owns (c : Thread nD τ) (ms2_1 t) fullShare ((dat V c).after 1 t) from by
    unfold Dat.leavesExact; rw [liveAt2_1 t], after2_1]
  rw [show (dat V c).leavesExact 2 t = owns (c : Thread nD τ) (ms2_2 t) fullShare ((dat V c).after 2 t) from by
    unfold Dat.leavesExact; rw [liveAt2_2 t], after2_2]
  rw [show (dat V c).leavesExact 3 t = owns (c : Thread nD τ) (ms2_3 t) fullShare ((dat V c).after 3 t) from by
    unfold Dat.leavesExact; rw [liveAt2_3 t], after2_3]
  rw [show (dat V c).leavesExact 4 t = owns (c : Thread nD τ) (ms2_4 t) fullShare ((dat V c).after 4 t) from by
    unfold Dat.leavesExact; rw [liveAt2_4 t], after2_4]
  rw [show (dat V c).leavesExact 5 t = owns (c : Thread nD τ) (ms2_5 t) fullShare ((dat V c).after 5 t) from by
    unfold Dat.leavesExact; rw [liveAt2_5 t], after2_5]
  rw [show (dat V c).leavesExact 6 t = owns (c : Thread nD τ) (ms2_6 t) fullShare ((dat V c).after 6 t) from by
    unfold Dat.leavesExact; rw [liveAt2_6 t], after2_6]
  rw [show (dat V c).leavesExact 7 t = owns (c : Thread nD τ) (ms2_7 t) fullShare ((dat V c).after 7 t) from by
    unfold Dat.leavesExact; rw [liveAt2_7 t], after2_7]
  rw [show (dat V c).leavesExact 8 t = owns (c : Thread nD τ) (ms2_8 t) fullShare ((dat V c).after 8 t) from by
    unfold Dat.leavesExact; rw [liveAt2_8 t], after2_8]
  rw [show (dat V c).leavesExact 9 t = owns (c : Thread nD τ) (ms2_9 t) fullShare ((dat V c).after 9 t) from by
    unfold Dat.leavesExact; rw [liveAt2_9 t], after2_9]
  rw [show (dat V c).leavesExact 10 t = owns (c : Thread nD τ) (ms2_10 t) fullShare ((dat V c).after 10 t) from by
    unfold Dat.leavesExact; rw [liveAt2_10 t], after2_10]
  by_cases h0 : t.val % 4 = 0
  · have hz : t.val = 0 := by omega
    have h3 : ¬ t.val % 4 = 3 := by omega
    rw [Dat.leavesExact_idle (dat V c) 11 t (idleAt2_11 t h3) (noFlush2_11 t h3), Dat.leavesExact_idle (dat V c) 12 t (idleAt2_12 t h3) (noFlush2_12 t h3)]
    rw [sminAt_zero V c t hz, smaxAt_zero V c t hz, minInitAt_eq, maxInitAt_eq, preAt_eq]
    rw [PhiS_castSucc V c t, PhiS_zero V c _ _ hz, PhiA2_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (kernelRun2_A c (grid2.coords t) _ _ _ _ _ _ _ _ _ _ _ _ _ _ _ _ _ _ _ _ _ _ _ _ _ _ _ _ _ _ ((hcond2_0 t).mpr h0) (fun h => (hcond2_1 t).mp h h0) (fun h => h3 ((hcond2_2 t).mp h)) (iblk V c 0 t) (iblk V c 1 t) (iblk V c 2 t) (iblk V c 3 t) (iblk V c 4 t) (iblk V c 5 t) (iblk V c 6 t) (iblk V c 7 t) (iblk V c 8 t) (iblk V c 9 t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexact H11
    isplitl [H12]; · iexact H12
    isplitl [HS0]; · iexact HS0
    isplitl [HS1]; · iexact HS1
    iintro ⟨H0, H1, H2, H3, H4, H5, H6, H7, H8, H9, H10, H11, H12, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    iexists _; iexact H12
  · have hz : t.val ≠ 0 := by omega
    by_cases h3 : t.val % 4 = 3
    · rw [show (dat V c).leavesExact 11 t = owns (c : Thread nD τ) (ms2_11 t) fullShare ((dat V c).after 11 t) from by
        unfold Dat.leavesExact; rw [liveAt2_11 t h3], after2_11]
      rw [show (dat V c).leavesExact 12 t = owns (c : Thread nD τ) (ms2_12 t) fullShare ((dat V c).after 12 t) from by
        unfold Dat.leavesExact; rw [liveAt2_12 t h3], after2_12]
      rw [sminAt_pos V c t hz, smaxAt_pos V c t hz, preAt_eq]
      rw [PhiS_castSucc V c t, PhiS_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (kernelRun2_C c (grid2.coords t) _ _ _ _ _ _ _ _ _ _ _ _ _ _ _ _ _ _ _ _ _ _ _ _ _ _ _ _ _ _ (fun h => h0 ((hcond2_0 t).mp h)) ((hcond2_1 t).mpr h0) ((hcond2_2 t).mpr h3) (iblk V c 0 t) (iblk V c 1 t) (iblk V c 2 t) (iblk V c 3 t) (iblk V c 4 t) (iblk V c 5 t) (iblk V c 6 t) (iblk V c 7 t) (iblk V c 8 t) (iblk V c 9 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [H12]; · iexists _; iexact H12
      isplitl [HS0]; · iexact HS0
      isplitl [HS1]; · iexact HS1
      iintro ⟨H0, H1, H2, H3, H4, H5, H6, H7, H8, H9, H10, H11, H12, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    · rw [Dat.leavesExact_idle (dat V c) 11 t (idleAt2_11 t h3) (noFlush2_11 t h3), Dat.leavesExact_idle (dat V c) 12 t (idleAt2_12 t h3) (noFlush2_12 t h3)]
      rw [sminAt_pos V c t hz, smaxAt_pos V c t hz, preAt_eq]
      rw [PhiS_castSucc V c t, PhiS_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (kernelRun2_B c (grid2.coords t) _ _ _ _ _ _ _ _ _ _ _ _ _ _ _ _ _ _ _ _ _ _ _ _ _ _ _ _ _ _ (fun h => h0 ((hcond2_0 t).mp h)) ((hcond2_1 t).mpr h0) (fun h => h3 ((hcond2_2 t).mp h)) (iblk V c 0 t) (iblk V c 1 t) (iblk V c 2 t) (iblk V c 3 t) (iblk V c 4 t) (iblk V c 5 t) (iblk V c 6 t) (iblk V c 7 t) (iblk V c 8 t) (iblk V c 9 t) _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexact H11
      isplitl [H12]; · iexact H12
      isplitl [HS0]; · iexact HS0
      isplitl [HS1]; · iexact HS1
      iintro ⟨H0, H1, H2, H3, H4, H5, H6, H7, H8, H9, H10, H11, H12, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      iexists _; iexact H12

/-- The library's body obligation, at every point. -/
theorem body_obligation (c : Dev nD) : BodyObligation (dat V c) (defs₀ (F := F)) Variants.none () Set.univ := fun t => by
  rw [bigSep_W2, bigSep_W2]
  exact sound_body V c t

/-- What the launch hands the region is the invariant before the first point. -/
theorem hin (c : Dev nD) : Pipeline.ΦA spec2 c ⊢ (dat V c).Φ 0 := by
  rw [show (dat V c).Φ 0 = PhiS V c 0 (Nat.zero_le _) from rfl, PhiS_zero V c 0 _ rfl]
  try exact Idealize.SL.BI.Entails.refl _

/-- After any point the invariant gives the launch's back: the carried buffers' contents are forgotten. -/
theorem Phi_out (c : Dev nD) (t : Fin (cfg2.N + 1)) (ht : t.val ≠ 0) : (dat V c).Φ t ⊢ Pipeline.ΦA spec2 c := by
  rw [show (dat V c).Φ t = PhiS V c t.val (Nat.le_of_lt_succ t.isLt) from rfl, PhiS_pos V c _ _ ht, PhiA2_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem hout (c : Dev nD) : (dat V c).Φ (Fin.last cfg2.N) ⊢ Pipeline.ΦA spec2 c :=
  Phi_out V c _ (by rw [Fin.val_last]; have : cfg2.N = 4 := N_2; omega)

end Cert.KernelIdeal.Reg2

end
-- ==== Proof.Reg3Body.lean ====
/-
  The head kernel's region: the body obligation.

  At every grid point the body, called on the point's staging buffers (the inputs at their blocks) and the two
  carried rows as the point before left them, leaves the first output's buffer, the two carried rows and - at the
  last point - the last two outputs' buffers at what the proof data names, and everything else as it found it. The
  three control cases are the first point (the carried rows are started), the middle points (they are combined with
  the block's own column minimum and maximum) and the last point (combined, then copied out).
-/
import proofs.«100906_j73718818669321_2_alg».proof.Proof.Reg3Dat

set_option maxRecDepth 16384

noncomputable section

namespace Cert.KernelIdeal.Reg3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The inputs and the first output are never idle. -/
theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := fun _ => rfl
theorem liveAt3_3 : ∀ t : Fin cfg3.N, cfg3.idle 3 (grid3.coords t) = false := fun _ => rfl
theorem liveAt3_4 : ∀ t : Fin cfg3.N, cfg3.idle 4 (grid3.coords t) = false := fun _ => rfl
theorem liveAt3_5 : ∀ t : Fin cfg3.N, cfg3.idle 5 (grid3.coords t) = false := fun _ => rfl
theorem liveAt3_6 : ∀ t : Fin cfg3.N, cfg3.idle 6 (grid3.coords t) = false := fun _ => rfl
theorem liveAt3_7 : ∀ t : Fin cfg3.N, cfg3.idle 7 (grid3.coords t) = false := fun _ => rfl
theorem liveAt3_8 : ∀ t : Fin cfg3.N, cfg3.idle 8 (grid3.coords t) = false := fun _ => rfl
theorem liveAt3_9 : ∀ t : Fin cfg3.N, cfg3.idle 9 (grid3.coords t) = false := fun _ => rfl
theorem liveAt3_10 : ∀ t : Fin cfg3.N, cfg3.idle 10 (grid3.coords t) = false := fun _ => rfl

/-- What the body is called with at point `t`, the windows one by one, -/
def bodyPre (c : Dev nD) (t : Fin cfg3.N) : sProp 𝕄 :=
  iprop((dat V c).Φ t.castSucc ∗ (dat V c).owesAt () t.castSucc
    ∗ (∃ d, owns (c : Thread nD τ) (ms3_0 t) fullShare ((dat V c).before 0 t d))
    ∗ (∃ d, owns (c : Thread nD τ) (ms3_1 t) fullShare ((dat V c).before 1 t d))
    ∗ (∃ d, owns (c : Thread nD τ) (ms3_2 t) fullShare ((dat V c).before 2 t d))
    ∗ (∃ d, owns (c : Thread nD τ) (ms3_3 t) fullShare ((dat V c).before 3 t d))
    ∗ (∃ d, owns (c : Thread nD τ) (ms3_4 t) fullShare ((dat V c).before 4 t d))
    ∗ (∃ d, owns (c : Thread nD τ) (ms3_5 t) fullShare ((dat V c).before 5 t d))
    ∗ (∃ d, owns (c : Thread nD τ) (ms3_6 t) fullShare ((dat V c).before 6 t d))
    ∗ (∃ d, owns (c : Thread nD τ) (ms3_7 t) fullShare ((dat V c).before 7 t d))
    ∗ (∃ d, owns (c : Thread nD τ) (ms3_8 t) fullShare ((dat V c).before 8 t d))
    ∗ (∃ d, owns (c : Thread nD τ) (ms3_9 t) fullShare ((dat V c).before 9 t d))
    ∗ (∃ d, owns (c : Thread nD τ) (ms3_10 t) fullShare ((dat V c).before 10 t d))
    ∗ (∃ d, owns (c : Thread nD τ) (ms3_11 t) fullShare ((dat V c).before 11 t d))
    ∗ (∃ d, owns (c : Thread nD τ) (ms3_12 t) fullShare ((dat V c).before 12 t d)))

/-- and what it returns. -/
def bodyPost (c : Dev nD) (t : Fin cfg3.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t
    ∗ (dat V c).leavesExact 10 t
    ∗ (dat V c).leavesExact 11 t
    ∗ (dat V c).leavesExact 12 t)

set_option maxHeartbeats 4800000 in
/-- The first point. -/
theorem sound_body_A (c : Dev nD) (t : Fin cfg3.N) (h0 : t.val = 0) :
    bodyPre V c t ⊢ wp frame (wpE (defs₀ (F := F)) Variants.none c none) Set.univ (bodyAt3 t) (fun _ => bodyPost V c t) := by
  unfold bodyPre bodyPost bodyAt3
  simp only [before3_0, before3_1, before3_2, before3_3, before3_4, before3_5, before3_6, before3_7, before3_8, before3_9]
  rw [show (dat V c).owesAt () t.succ = (dat V c).owesAt () t.castSucc from rfl]
  rw [show (dat V c).Φ t.succ = PhiS V c (t.val + 1) t.isLt from rfl, PhiS_succ]
  have hN : t.val < 4 := lt_of_lt_of_eq t.isLt (show cfg3.N = 4 from N_3)
  have h3 : ¬t.val = 3 := by omega
  have hc0 : cond3_0 (grid3.coords t) := (hcond3_0 t).mpr h0
  have hc1 : ¬cond3_1 (grid3.coords t) := fun h => (hcond3_1 t).mp h h0
  have hc2 : ¬cond3_2 (grid3.coords t) := fun h => h3 ((hcond3_2 t).mp h)
  rw [show (dat V c).leavesExact 0 t = owns (c : Thread nD τ) (ms3_0 t) fullShare ((dat V c).after 0 t) from by
    unfold Dat.leavesExact; rw [liveAt3_0 t], after3_0]
  rw [show (dat V c).leavesExact 1 t = owns (c : Thread nD τ) (ms3_1 t) fullShare ((dat V c).after 1 t) from by
    unfold Dat.leavesExact; rw [liveAt3_1 t], after3_1]
  rw [show (dat V c).leavesExact 2 t = owns (c : Thread nD τ) (ms3_2 t) fullShare ((dat V c).after 2 t) from by
    unfold Dat.leavesExact; rw [liveAt3_2 t], after3_2]
  rw [show (dat V c).leavesExact 3 t = owns (c : Thread nD τ) (ms3_3 t) fullShare ((dat V c).after 3 t) from by
    unfold Dat.leavesExact; rw [liveAt3_3 t], after3_3]
  rw [show (dat V c).leavesExact 4 t = owns (c : Thread nD τ) (ms3_4 t) fullShare ((dat V c).after 4 t) from by
    unfold Dat.leavesExact; rw [liveAt3_4 t], after3_4]
  rw [show (dat V c).leavesExact 5 t = owns (c : Thread nD τ) (ms3_5 t) fullShare ((dat V c).after 5 t) from by
    unfold Dat.leavesExact; rw [liveAt3_5 t], after3_5]
  rw [show (dat V c).leavesExact 6 t = owns (c : Thread nD τ) (ms3_6 t) fullShare ((dat V c).after 6 t) from by
    unfold Dat.leavesExact; rw [liveAt3_6 t], after3_6]
  rw [show (dat V c).leavesExact 7 t = owns (c : Thread nD τ) (ms3_7 t) fullShare ((dat V c).after 7 t) from by
    unfold Dat.leavesExact; rw [liveAt3_7 t], after3_7]
  rw [show (dat V c).leavesExact 8 t = owns (c : Thread nD τ) (ms3_8 t) fullShare ((dat V c).after 8 t) from by
    unfold Dat.leavesExact; rw [liveAt3_8 t], after3_8]
  rw [show (dat V c).leavesExact 9 t = owns (c : Thread nD τ) (ms3_9 t) fullShare ((dat V c).after 9 t) from by
    unfold Dat.leavesExact; rw [liveAt3_9 t], after3_9]
  rw [show (dat V c).leavesExact 10 t = owns (c : Thread nD τ) (ms3_10 t) fullShare ((dat V c).after 10 t) from by
    unfold Dat.leavesExact; rw [liveAt3_10 t], after3_10]
  rw [Dat.leavesExact_idle (dat V c) 11 t (idleAt3_11 t hc2) (noFlush3_11 t hc2)]
  rw [Dat.leavesExact_idle (dat V c) 12 t (idleAt3_12 t hc2) (noFlush3_12 t hc2)]
  rw [outsAt3_A V c t h0 h3]
  unfold out3_A_10 sout3_A_0 sout3_A_1; (try dsimp only)
  rw [PhiS_castSucc V c t, PhiS_zero V c _ _ h0, PhiA3_eq]
  iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((kernelRun3_A c (grid3.coords t) _ _ _ _ _ _ _ _ _ _ _ _ _ _ _ _ _ _ _ _ _ _ _ _ _ _ _ _ _ _ hc0 hc1 hc2 (iblk V c 0 t) (iblk V c 1 t) (iblk V c 2 t) (iblk V c 3 t) (iblk V c 4 t) (iblk V c 5 t) (iblk V c 6 t) (iblk V c 7 t) (iblk V c 8 t) (iblk V c 9 t)).2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexact H11
  isplitl [H12]; · iexact H12
  isplitl [HS0]; · iexact HS0
  isplitl [HS1]; · iexact HS1
  iintro ⟨H0, H1, H2, H3, H4, H5, H6, H7, H8, H9, ⟨%e10, H10⟩, H11, H12, ⟨%es0, HS0⟩, ⟨%es1, HS1⟩⟩
  isplitl [HS0 HS1 Hrest Hg]
  · isplitl [HS0 HS1 Hrest]
    · isplitl [HS0 HS1]
      · isplitl [HS0]
        · unfold owns; iexists _; isplitr
          swap; · iexact HS0
          ipureintro; exact View.read_writes_of_cover _ _ _ _ _ (scover3_A_0 c _ _ _ _ _ _ _ _ _ _ _ _ _ _ _ _ _ _ _ _ _ _ _ _ _ _ _ _ _ _ _ _ _ _ _ _ _ _ _ _ _ _ _ _)
        · unfold owns; iexists _; isplitr
          swap; · iexact HS1
          ipureintro; exact View.read_writes_of_cover _ _ _ _ _ (scover3_A_1 c _ _ _ _ _ _ _ _ _ _ _ _ _ _ _ _ _ _ _ _ _ _ _ _ _ _ _ _ _ _ _ _ _ _ _ _ _ _ _ _ _ _ _ _)
      · iexact Hrest
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact View.read_writes_of_cover _ _ _ _ _ (cover3_A_10 c _ _ _ _ _ _ _ _ _ _ _ _ _ _ _ _ _ _ _ _ _ _ _ _ _ _ _ _ _ _ _ _ _ _ _ _ _ _ _ _ _ _ _ _)
  isplitl [H11]; · iexists _; iexact H11
  iexists _; iexact H12

set_option maxHeartbeats 4800000 in
/-- A middle point. -/
theorem sound_body_B (c : Dev nD) (t : Fin cfg3.N) (h0 : ¬t.val = 0) (h3 : ¬t.val = 3) :
    bodyPre V c t ⊢ wp frame (wpE (defs₀ (F := F)) Variants.none c none) Set.univ (bodyAt3 t) (fun _ => bodyPost V c t) := by
  unfold bodyPre bodyPost bodyAt3
  simp only [before3_0, before3_1, before3_2, before3_3, before3_4, before3_5, before3_6, before3_7, before3_8, before3_9]
  rw [show (dat V c).owesAt () t.succ = (dat V c).owesAt () t.castSucc from rfl]
  rw [show (dat V c).Φ t.succ = PhiS V c (t.val + 1) t.isLt from rfl, PhiS_succ]
  have hN : t.val < 4 := lt_of_lt_of_eq t.isLt (show cfg3.N = 4 from N_3)
  have hc0 : ¬cond3_0 (grid3.coords t) := fun h => h0 ((hcond3_0 t).mp h)
  have hc1 : cond3_1 (grid3.coords t) := (hcond3_1 t).mpr h0
  have hc2 : ¬cond3_2 (grid3.coords t) := fun h => h3 ((hcond3_2 t).mp h)
  rw [show (dat V c).leavesExact 0 t = owns (c : Thread nD τ) (ms3_0 t) fullShare ((dat V c).after 0 t) from by
    unfold Dat.leavesExact; rw [liveAt3_0 t], after3_0]
  rw [show (dat V c).leavesExact 1 t = owns (c : Thread nD τ) (ms3_1 t) fullShare ((dat V c).after 1 t) from by
    unfold Dat.leavesExact; rw [liveAt3_1 t], after3_1]
  rw [show (dat V c).leavesExact 2 t = owns (c : Thread nD τ) (ms3_2 t) fullShare ((dat V c).after 2 t) from by
    unfold Dat.leavesExact; rw [liveAt3_2 t], after3_2]
  rw [show (dat V c).leavesExact 3 t = owns (c : Thread nD τ) (ms3_3 t) fullShare ((dat V c).after 3 t) from by
    unfold Dat.leavesExact; rw [liveAt3_3 t], after3_3]
  rw [show (dat V c).leavesExact 4 t = owns (c : Thread nD τ) (ms3_4 t) fullShare ((dat V c).after 4 t) from by
    unfold Dat.leavesExact; rw [liveAt3_4 t], after3_4]
  rw [show (dat V c).leavesExact 5 t = owns (c : Thread nD τ) (ms3_5 t) fullShare ((dat V c).after 5 t) from by
    unfold Dat.leavesExact; rw [liveAt3_5 t], after3_5]
  rw [show (dat V c).leavesExact 6 t = owns (c : Thread nD τ) (ms3_6 t) fullShare ((dat V c).after 6 t) from by
    unfold Dat.leavesExact; rw [liveAt3_6 t], after3_6]
  rw [show (dat V c).leavesExact 7 t = owns (c : Thread nD τ) (ms3_7 t) fullShare ((dat V c).after 7 t) from by
    unfold Dat.leavesExact; rw [liveAt3_7 t], after3_7]
  rw [show (dat V c).leavesExact 8 t = owns (c : Thread nD τ) (ms3_8 t) fullShare ((dat V c).after 8 t) from by
    unfold Dat.leavesExact; rw [liveAt3_8 t], after3_8]
  rw [show (dat V c).leavesExact 9 t = owns (c : Thread nD τ) (ms3_9 t) fullShare ((dat V c).after 9 t) from by
    unfold Dat.leavesExact; rw [liveAt3_9 t], after3_9]
  rw [show (dat V c).leavesExact 10 t = owns (c : Thread nD τ) (ms3_10 t) fullShare ((dat V c).after 10 t) from by
    unfold Dat.leavesExact; rw [liveAt3_10 t], after3_10]
  rw [Dat.leavesExact_idle (dat V c) 11 t (idleAt3_11 t hc2) (noFlush3_11 t hc2)]
  rw [Dat.leavesExact_idle (dat V c) 12 t (idleAt3_12 t hc2) (noFlush3_12 t hc2)]
  rw [outsAt3_B V c t h0 h3]
  unfold out3_B_10 sout3_B_0 sout3_B_1; (try dsimp only)
  rw [PhiS_castSucc V c t, PhiS_pos V c _ _ h0]
  iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((kernelRun3_B c (grid3.coords t) _ _ _ _ _ _ _ _ _ _ _ _ _ _ _ _ _ _ _ _ _ _ _ _ _ _ _ _ _ _ hc0 hc1 hc2 (iblk V c 0 t) (iblk V c 1 t) (iblk V c 2 t) (iblk V c 3 t) (iblk V c 4 t) (iblk V c 5 t) (iblk V c 6 t) (iblk V c 7 t) (iblk V c 8 t) (iblk V c 9 t) _ _).2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexact H11
  isplitl [H12]; · iexact H12
  isplitl [HS0]; · iexact HS0
  isplitl [HS1]; · iexact HS1
  iintro ⟨H0, H1, H2, H3, H4, H5, H6, H7, H8, H9, ⟨%e10, H10⟩, H11, H12, ⟨%es0, HS0⟩, ⟨%es1, HS1⟩⟩
  isplitl [HS0 HS1 Hrest Hg]
  · isplitl [HS0 HS1 Hrest]
    · isplitl [HS0 HS1]
      · isplitl [HS0]
        · unfold owns; iexists _; isplitr
          swap; · iexact HS0
          ipureintro; exact View.read_writes_of_cover _ _ _ _ _ (scover3_B_0 c _ _ _ _ _ _ _ _ _ _ _ _ _ _ _ _ _ _ _ _ _ _ _ _ _ _ _ _ _ _ _ _ _ _ _ _ _ _ _ _ _ _ _ _ _ _)
        · unfold owns; iexists _; isplitr
          swap; · iexact HS1
          ipureintro; exact View.read_writes_of_cover _ _ _ _ _ (scover3_B_1 c _ _ _ _ _ _ _ _ _ _ _ _ _ _ _ _ _ _ _ _ _ _ _ _ _ _ _ _ _ _ _ _ _ _ _ _ _ _ _ _ _ _ _ _ _ _)
      · iexact Hrest
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact View.read_writes_of_cover _ _ _ _ _ (cover3_B_10 c _ _ _ _ _ _ _ _ _ _ _ _ _ _ _ _ _ _ _ _ _ _ _ _ _ _ _ _ _ _ _ _ _ _ _ _ _ _ _ _ _ _ _ _ _ _)
  isplitl [H11]; · iexists _; iexact H11
  iexists _; iexact H12

set_option maxHeartbeats 4800000 in
/-- The last point. -/
theorem sound_body_C (c : Dev nD) (t : Fin cfg3.N) (h0 : ¬t.val = 0) (h3 : t.val = 3) :
    bodyPre V c t ⊢ wp frame (wpE (defs₀ (F := F)) Variants.none c none) Set.univ (bodyAt3 t) (fun _ => bodyPost V c t) := by
  unfold bodyPre bodyPost bodyAt3
  simp only [before3_0, before3_1, before3_2, before3_3, before3_4, before3_5, before3_6, before3_7, before3_8, before3_9]
  rw [show (dat V c).owesAt () t.succ = (dat V c).owesAt () t.castSucc from rfl]
  rw [show (dat V c).Φ t.succ = PhiS V c (t.val + 1) t.isLt from rfl, PhiS_succ]
  have hN : t.val < 4 := lt_of_lt_of_eq t.isLt (show cfg3.N = 4 from N_3)
  have hc0 : ¬cond3_0 (grid3.coords t) := fun h => h0 ((hcond3_0 t).mp h)
  have hc1 : cond3_1 (grid3.coords t) := (hcond3_1 t).mpr h0
  have hc2 : cond3_2 (grid3.coords t) := (hcond3_2 t).mpr h3
  rw [show (dat V c).leavesExact 0 t = owns (c : Thread nD τ) (ms3_0 t) fullShare ((dat V c).after 0 t) from by
    unfold Dat.leavesExact; rw [liveAt3_0 t], after3_0]
  rw [show (dat V c).leavesExact 1 t = owns (c : Thread nD τ) (ms3_1 t) fullShare ((dat V c).after 1 t) from by
    unfold Dat.leavesExact; rw [liveAt3_1 t], after3_1]
  rw [show (dat V c).leavesExact 2 t = owns (c : Thread nD τ) (ms3_2 t) fullShare ((dat V c).after 2 t) from by
    unfold Dat.leavesExact; rw [liveAt3_2 t], after3_2]
  rw [show (dat V c).leavesExact 3 t = owns (c : Thread nD τ) (ms3_3 t) fullShare ((dat V c).after 3 t) from by
    unfold Dat.leavesExact; rw [liveAt3_3 t], after3_3]
  rw [show (dat V c).leavesExact 4 t = owns (c : Thread nD τ) (ms3_4 t) fullShare ((dat V c).after 4 t) from by
    unfold Dat.leavesExact; rw [liveAt3_4 t], after3_4]
  rw [show (dat V c).leavesExact 5 t = owns (c : Thread nD τ) (ms3_5 t) fullShare ((dat V c).after 5 t) from by
    unfold Dat.leavesExact; rw [liveAt3_5 t], after3_5]
  rw [show (dat V c).leavesExact 6 t = owns (c : Thread nD τ) (ms3_6 t) fullShare ((dat V c).after 6 t) from by
    unfold Dat.leavesExact; rw [liveAt3_6 t], after3_6]
  rw [show (dat V c).leavesExact 7 t = owns (c : Thread nD τ) (ms3_7 t) fullShare ((dat V c).after 7 t) from by
    unfold Dat.leavesExact; rw [liveAt3_7 t], after3_7]
  rw [show (dat V c).leavesExact 8 t = owns (c : Thread nD τ) (ms3_8 t) fullShare ((dat V c).after 8 t) from by
    unfold Dat.leavesExact; rw [liveAt3_8 t], after3_8]
  rw [show (dat V c).leavesExact 9 t = owns (c : Thread nD τ) (ms3_9 t) fullShare ((dat V c).after 9 t) from by
    unfold Dat.leavesExact; rw [liveAt3_9 t], after3_9]
  rw [show (dat V c).leavesExact 10 t = owns (c : Thread nD τ) (ms3_10 t) fullShare ((dat V c).after 10 t) from by
    unfold Dat.leavesExact; rw [liveAt3_10 t], after3_10]
  rw [show (dat V c).leavesExact 11 t = owns (c : Thread nD τ) (ms3_11 t) fullShare ((dat V c).after 11 t) from by
    unfold Dat.leavesExact; rw [liveAt3_11 t hc2], after3_11]
  rw [show (dat V c).leavesExact 12 t = owns (c : Thread nD τ) (ms3_12 t) fullShare ((dat V c).after 12 t) from by
    unfold Dat.leavesExact; rw [liveAt3_12 t hc2], after3_12]
  rw [outsAt3_C V c t h0 h3]
  unfold out3_C_10 out3_C_11 out3_C_12 sout3_C_0 sout3_C_1; (try dsimp only)
  rw [PhiS_castSucc V c t, PhiS_pos V c _ _ h0]
  iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((kernelRun3_C c (grid3.coords t) _ _ _ _ _ _ _ _ _ _ _ _ _ _ _ _ _ _ _ _ _ _ _ _ _ _ _ _ _ _ hc0 hc1 hc2 (iblk V c 0 t) (iblk V c 1 t) (iblk V c 2 t) (iblk V c 3 t) (iblk V c 4 t) (iblk V c 5 t) (iblk V c 6 t) (iblk V c 7 t) (iblk V c 8 t) (iblk V c 9 t) _ _).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [HS0]; · iexact HS0
  isplitl [HS1]; · iexact HS1
  iintro ⟨H0, H1, H2, H3, H4, H5, H6, H7, H8, H9, ⟨%e10, H10⟩, ⟨%e11, H11⟩, ⟨%e12, H12⟩, ⟨%es0, HS0⟩, ⟨%es1, HS1⟩⟩
  isplitl [HS0 HS1 Hrest Hg]
  · isplitl [HS0 HS1 Hrest]
    · isplitl [HS0 HS1]
      · isplitl [HS0]
        · unfold owns; iexists _; isplitr
          swap; · iexact HS0
          ipureintro; exact View.read_writes_of_cover _ _ _ _ _ (scover3_C_0 c _ _ _ _ _ _ _ _ _ _ _ _ _ _ _ _ _ _ _ _ _ _ _ _ _ _ _ _ _ _ _ _ _ _ _ _ _ _ _ _ _ _ _ _ _ _)
        · unfold owns; iexists _; isplitr
          swap; · iexact HS1
          ipureintro; exact View.read_writes_of_cover _ _ _ _ _ (scover3_C_1 c _ _ _ _ _ _ _ _ _ _ _ _ _ _ _ _ _ _ _ _ _ _ _ _ _ _ _ _ _ _ _ _ _ _ _ _ _ _ _ _ _ _ _ _ _ _)
      · iexact Hrest
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact View.read_writes_of_cover _ _ _ _ _ (cover3_C_10 c _ _ _ _ _ _ _ _ _ _ _ _ _ _ _ _ _ _ _ _ _ _ _ _ _ _ _ _ _ _ _ _ _ _ _ _ _ _ _ _ _ _ _ _ _ _)
  isplitl [H11]
  · unfold owns; iexists _; isplitr
    swap; · iexact H11
    ipureintro; exact View.read_writes_of_cover _ _ _ _ _ (cover3_C_11 c _ _ _ _ _ _ _ _ _ _ _ _ _ _ _ _ _ _ _ _ _ _ _ _ _ _ _ _ _ _ _ _ _ _ _ _ _ _ _ _ _ _ _ _ _ _)
  unfold owns; iexists _; isplitr
  swap; · iexact H12
  ipureintro; exact View.read_writes_of_cover _ _ _ _ _ (cover3_C_12 c _ _ _ _ _ _ _ _ _ _ _ _ _ _ _ _ _ _ _ _ _ _ _ _ _ _ _ _ _ _ _ _ _ _ _ _ _ _ _ _ _ _ _ _ _ _)

/-- The body at any point. -/
theorem sound_body (c : Dev nD) (t : Fin cfg3.N) :
    bodyPre V c t ⊢ wp frame (wpE (defs₀ (F := F)) Variants.none c none) Set.univ (bodyAt3 t) (fun _ => bodyPost V c t) := by
  by_cases h0 : t.val = 0
  · exact sound_body_A V c t h0
  · by_cases h3 : t.val = 3
    · exact sound_body_C V c t h0 h3
    · exact sound_body_B V c t h0 h3

/-- The body obligation, at every point. -/
theorem body_obligation (c : Dev nD) : BodyObligation (dat (F := F) V c) (defs₀ (F := F)) Variants.none () Set.univ := fun t => by
  rw [bigSep_W3, bigSep_W3]
  exact sound_body V c t

/-- What the launch hands the region is the invariant before the first point. -/
theorem hin (c : Dev nD) : Pipeline.ΦA spec3 c ⊢ (dat V c).Φ 0 := by
  rw [show (dat V c).Φ 0 = PhiS V c 0 (Nat.zero_le _) from rfl, PhiS_zero V c 0 _ rfl]
  try exact Idealize.SL.BI.Entails.refl _

/-- After any point the invariant gives the class invariant back: the carried rows' named contents are forgotten. -/
theorem Phi_out (c : Dev nD) (t : Fin (cfg3.N + 1)) (ht : t.val ≠ 0) : (dat V c).Φ t ⊢ Pipeline.ΦA spec3 c := by
  rw [show (dat V c).Φ t = PhiS V c t.val (Nat.le_of_lt_succ t.isLt) from rfl, PhiS_pos V c _ _ ht, PhiA3_eq]
  iintro ⟨⟨⟨HS0, HS1⟩, Hrest⟩, Hg⟩
  isplitl [HS0 HS1 Hrest]
  · isplitl [HS0 HS1]
    · isplitl [HS0]
      · iexists _; iexact HS0
      · iexists _; iexact HS1
    · iexact Hrest
  iexact Hg

/-- The same after the last point. -/
theorem hout (c : Dev nD) : (dat V c).Φ (Fin.last cfg3.N) ⊢ Pipeline.ΦA spec3 c :=
  Phi_out V c _ (by rw [Fin.val_last]; have : cfg3.N = 4 := N_3; omega)

end Cert.KernelIdeal.Reg3

end
-- ==== Proof.Reg4Body.lean ====
/-
  The head kernel's region: the body obligation.

  At every grid point the body, called on the point's staging buffers (the inputs at their blocks) and the two
  carried rows as the point before left them, leaves the first output's buffer, the two carried rows and - at the
  last point - the last two outputs' buffers at what the proof data names, and everything else as it found it. The
  three control cases are the first point (the carried rows are started), the middle points (they are combined with
  the block's own column minimum and maximum) and the last point (combined, then copied out).
-/
import proofs.«100906_j73718818669321_2_alg».proof.Proof.Reg4Dat

set_option maxRecDepth 16384

noncomputable section

namespace Cert.KernelIdeal.Reg4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The inputs and the first output are never idle. -/
theorem liveAt4_0 : ∀ t : Fin cfg4.N, cfg4.idle 0 (grid4.coords t) = false := fun _ => rfl
theorem liveAt4_1 : ∀ t : Fin cfg4.N, cfg4.idle 1 (grid4.coords t) = false := fun _ => rfl
theorem liveAt4_2 : ∀ t : Fin cfg4.N, cfg4.idle 2 (grid4.coords t) = false := fun _ => rfl
theorem liveAt4_3 : ∀ t : Fin cfg4.N, cfg4.idle 3 (grid4.coords t) = false := fun _ => rfl
theorem liveAt4_4 : ∀ t : Fin cfg4.N, cfg4.idle 4 (grid4.coords t) = false := fun _ => rfl
theorem liveAt4_5 : ∀ t : Fin cfg4.N, cfg4.idle 5 (grid4.coords t) = false := fun _ => rfl
theorem liveAt4_6 : ∀ t : Fin cfg4.N, cfg4.idle 6 (grid4.coords t) = false := fun _ => rfl
theorem liveAt4_7 : ∀ t : Fin cfg4.N, cfg4.idle 7 (grid4.coords t) = false := fun _ => rfl
theorem liveAt4_8 : ∀ t : Fin cfg4.N, cfg4.idle 8 (grid4.coords t) = false := fun _ => rfl
theorem liveAt4_9 : ∀ t : Fin cfg4.N, cfg4.idle 9 (grid4.coords t) = false := fun _ => rfl
theorem liveAt4_10 : ∀ t : Fin cfg4.N, cfg4.idle 10 (grid4.coords t) = false := fun _ => rfl

/-- What the body is called with at point `t`, the windows one by one, -/
def bodyPre (c : Dev nD) (t : Fin cfg4.N) : sProp 𝕄 :=
  iprop((dat V c).Φ t.castSucc ∗ (dat V c).owesAt () t.castSucc
    ∗ (∃ d, owns (c : Thread nD τ) (ms4_0 t) fullShare ((dat V c).before 0 t d))
    ∗ (∃ d, owns (c : Thread nD τ) (ms4_1 t) fullShare ((dat V c).before 1 t d))
    ∗ (∃ d, owns (c : Thread nD τ) (ms4_2 t) fullShare ((dat V c).before 2 t d))
    ∗ (∃ d, owns (c : Thread nD τ) (ms4_3 t) fullShare ((dat V c).before 3 t d))
    ∗ (∃ d, owns (c : Thread nD τ) (ms4_4 t) fullShare ((dat V c).before 4 t d))
    ∗ (∃ d, owns (c : Thread nD τ) (ms4_5 t) fullShare ((dat V c).before 5 t d))
    ∗ (∃ d, owns (c : Thread nD τ) (ms4_6 t) fullShare ((dat V c).before 6 t d))
    ∗ (∃ d, owns (c : Thread nD τ) (ms4_7 t) fullShare ((dat V c).before 7 t d))
    ∗ (∃ d, owns (c : Thread nD τ) (ms4_8 t) fullShare ((dat V c).before 8 t d))
    ∗ (∃ d, owns (c : Thread nD τ) (ms4_9 t) fullShare ((dat V c).before 9 t d))
    ∗ (∃ d, owns (c : Thread nD τ) (ms4_10 t) fullShare ((dat V c).before 10 t d))
    ∗ (∃ d, owns (c : Thread nD τ) (ms4_11 t) fullShare ((dat V c).before 11 t d))
    ∗ (∃ d, owns (c : Thread nD τ) (ms4_12 t) fullShare ((dat V c).before 12 t d)))

/-- and what it returns. -/
def bodyPost (c : Dev nD) (t : Fin cfg4.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t
    ∗ (dat V c).leavesExact 10 t
    ∗ (dat V c).leavesExact 11 t
    ∗ (dat V c).leavesExact 12 t)

set_option maxHeartbeats 4800000 in
/-- The first point. -/
theorem sound_body_A (c : Dev nD) (t : Fin cfg4.N) (h0 : t.val = 0) :
    bodyPre V c t ⊢ wp frame (wpE (defs₀ (F := F)) Variants.none c none) Set.univ (bodyAt4 t) (fun _ => bodyPost V c t) := by
  unfold bodyPre bodyPost bodyAt4
  simp only [before4_0, before4_1, before4_2, before4_3, before4_4, before4_5, before4_6, before4_7, before4_8, before4_9]
  rw [show (dat V c).owesAt () t.succ = (dat V c).owesAt () t.castSucc from rfl]
  rw [show (dat V c).Φ t.succ = PhiS V c (t.val + 1) t.isLt from rfl, PhiS_succ]
  have hN : t.val < 4 := lt_of_lt_of_eq t.isLt (show cfg4.N = 4 from N_4)
  have h3 : ¬t.val = 3 := by omega
  have hc0 : cond4_0 (grid4.coords t) := (hcond4_0 t).mpr h0
  have hc1 : ¬cond4_1 (grid4.coords t) := fun h => (hcond4_1 t).mp h h0
  have hc2 : ¬cond4_2 (grid4.coords t) := fun h => h3 ((hcond4_2 t).mp h)
  rw [show (dat V c).leavesExact 0 t = owns (c : Thread nD τ) (ms4_0 t) fullShare ((dat V c).after 0 t) from by
    unfold Dat.leavesExact; rw [liveAt4_0 t], after4_0]
  rw [show (dat V c).leavesExact 1 t = owns (c : Thread nD τ) (ms4_1 t) fullShare ((dat V c).after 1 t) from by
    unfold Dat.leavesExact; rw [liveAt4_1 t], after4_1]
  rw [show (dat V c).leavesExact 2 t = owns (c : Thread nD τ) (ms4_2 t) fullShare ((dat V c).after 2 t) from by
    unfold Dat.leavesExact; rw [liveAt4_2 t], after4_2]
  rw [show (dat V c).leavesExact 3 t = owns (c : Thread nD τ) (ms4_3 t) fullShare ((dat V c).after 3 t) from by
    unfold Dat.leavesExact; rw [liveAt4_3 t], after4_3]
  rw [show (dat V c).leavesExact 4 t = owns (c : Thread nD τ) (ms4_4 t) fullShare ((dat V c).after 4 t) from by
    unfold Dat.leavesExact; rw [liveAt4_4 t], after4_4]
  rw [show (dat V c).leavesExact 5 t = owns (c : Thread nD τ) (ms4_5 t) fullShare ((dat V c).after 5 t) from by
    unfold Dat.leavesExact; rw [liveAt4_5 t], after4_5]
  rw [show (dat V c).leavesExact 6 t = owns (c : Thread nD τ) (ms4_6 t) fullShare ((dat V c).after 6 t) from by
    unfold Dat.leavesExact; rw [liveAt4_6 t], after4_6]
  rw [show (dat V c).leavesExact 7 t = owns (c : Thread nD τ) (ms4_7 t) fullShare ((dat V c).after 7 t) from by
    unfold Dat.leavesExact; rw [liveAt4_7 t], after4_7]
  rw [show (dat V c).leavesExact 8 t = owns (c : Thread nD τ) (ms4_8 t) fullShare ((dat V c).after 8 t) from by
    unfold Dat.leavesExact; rw [liveAt4_8 t], after4_8]
  rw [show (dat V c).leavesExact 9 t = owns (c : Thread nD τ) (ms4_9 t) fullShare ((dat V c).after 9 t) from by
    unfold Dat.leavesExact; rw [liveAt4_9 t], after4_9]
  rw [show (dat V c).leavesExact 10 t = owns (c : Thread nD τ) (ms4_10 t) fullShare ((dat V c).after 10 t) from by
    unfold Dat.leavesExact; rw [liveAt4_10 t], after4_10]
  rw [Dat.leavesExact_idle (dat V c) 11 t (idleAt4_11 t hc2) (noFlush4_11 t hc2)]
  rw [Dat.leavesExact_idle (dat V c) 12 t (idleAt4_12 t hc2) (noFlush4_12 t hc2)]
  rw [outsAt4_A V c t h0 h3]
  unfold out4_A_10 sout4_A_0 sout4_A_1; (try dsimp only)
  rw [PhiS_castSucc V c t, PhiS_zero V c _ _ h0, PhiA4_eq]
  iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((kernelRun4_A c (grid4.coords t) _ _ _ _ _ _ _ _ _ _ _ _ _ _ _ _ _ _ _ _ _ _ _ _ _ _ _ _ _ _ hc0 hc1 hc2 (iblk V c 0 t) (iblk V c 1 t) (iblk V c 2 t) (iblk V c 3 t) (iblk V c 4 t) (iblk V c 5 t) (iblk V c 6 t) (iblk V c 7 t) (iblk V c 8 t) (iblk V c 9 t)).2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexact H11
  isplitl [H12]; · iexact H12
  isplitl [HS0]; · iexact HS0
  isplitl [HS1]; · iexact HS1
  iintro ⟨H0, H1, H2, H3, H4, H5, H6, H7, H8, H9, ⟨%e10, H10⟩, H11, H12, ⟨%es0, HS0⟩, ⟨%es1, HS1⟩⟩
  isplitl [HS0 HS1 Hrest Hg]
  · isplitl [HS0 HS1 Hrest]
    · isplitl [HS0 HS1]
      · isplitl [HS0]
        · unfold owns; iexists _; isplitr
          swap; · iexact HS0
          ipureintro; exact View.read_writes_of_cover _ _ _ _ _ (scover4_A_0 c _ _ _ _ _ _ _ _ _ _ _ _ _ _ _ _ _ _ _ _ _ _ _ _ _ _ _ _ _ _ _ _ _ _ _ _ _ _ _ _ _ _ _ _)
        · unfold owns; iexists _; isplitr
          swap; · iexact HS1
          ipureintro; exact View.read_writes_of_cover _ _ _ _ _ (scover4_A_1 c _ _ _ _ _ _ _ _ _ _ _ _ _ _ _ _ _ _ _ _ _ _ _ _ _ _ _ _ _ _ _ _ _ _ _ _ _ _ _ _ _ _ _ _)
      · iexact Hrest
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact View.read_writes_of_cover _ _ _ _ _ (cover4_A_10 c _ _ _ _ _ _ _ _ _ _ _ _ _ _ _ _ _ _ _ _ _ _ _ _ _ _ _ _ _ _ _ _ _ _ _ _ _ _ _ _ _ _ _ _)
  isplitl [H11]; · iexists _; iexact H11
  iexists _; iexact H12

set_option maxHeartbeats 4800000 in
/-- A middle point. -/
theorem sound_body_B (c : Dev nD) (t : Fin cfg4.N) (h0 : ¬t.val = 0) (h3 : ¬t.val = 3) :
    bodyPre V c t ⊢ wp frame (wpE (defs₀ (F := F)) Variants.none c none) Set.univ (bodyAt4 t) (fun _ => bodyPost V c t) := by
  unfold bodyPre bodyPost bodyAt4
  simp only [before4_0, before4_1, before4_2, before4_3, before4_4, before4_5, before4_6, before4_7, before4_8, before4_9]
  rw [show (dat V c).owesAt () t.succ = (dat V c).owesAt () t.castSucc from rfl]
  rw [show (dat V c).Φ t.succ = PhiS V c (t.val + 1) t.isLt from rfl, PhiS_succ]
  have hN : t.val < 4 := lt_of_lt_of_eq t.isLt (show cfg4.N = 4 from N_4)
  have hc0 : ¬cond4_0 (grid4.coords t) := fun h => h0 ((hcond4_0 t).mp h)
  have hc1 : cond4_1 (grid4.coords t) := (hcond4_1 t).mpr h0
  have hc2 : ¬cond4_2 (grid4.coords t) := fun h => h3 ((hcond4_2 t).mp h)
  rw [show (dat V c).leavesExact 0 t = owns (c : Thread nD τ) (ms4_0 t) fullShare ((dat V c).after 0 t) from by
    unfold Dat.leavesExact; rw [liveAt4_0 t], after4_0]
  rw [show (dat V c).leavesExact 1 t = owns (c : Thread nD τ) (ms4_1 t) fullShare ((dat V c).after 1 t) from by
    unfold Dat.leavesExact; rw [liveAt4_1 t], after4_1]
  rw [show (dat V c).leavesExact 2 t = owns (c : Thread nD τ) (ms4_2 t) fullShare ((dat V c).after 2 t) from by
    unfold Dat.leavesExact; rw [liveAt4_2 t], after4_2]
  rw [show (dat V c).leavesExact 3 t = owns (c : Thread nD τ) (ms4_3 t) fullShare ((dat V c).after 3 t) from by
    unfold Dat.leavesExact; rw [liveAt4_3 t], after4_3]
  rw [show (dat V c).leavesExact 4 t = owns (c : Thread nD τ) (ms4_4 t) fullShare ((dat V c).after 4 t) from by
    unfold Dat.leavesExact; rw [liveAt4_4 t], after4_4]
  rw [show (dat V c).leavesExact 5 t = owns (c : Thread nD τ) (ms4_5 t) fullShare ((dat V c).after 5 t) from by
    unfold Dat.leavesExact; rw [liveAt4_5 t], after4_5]
  rw [show (dat V c).leavesExact 6 t = owns (c : Thread nD τ) (ms4_6 t) fullShare ((dat V c).after 6 t) from by
    unfold Dat.leavesExact; rw [liveAt4_6 t], after4_6]
  rw [show (dat V c).leavesExact 7 t = owns (c : Thread nD τ) (ms4_7 t) fullShare ((dat V c).after 7 t) from by
    unfold Dat.leavesExact; rw [liveAt4_7 t], after4_7]
  rw [show (dat V c).leavesExact 8 t = owns (c : Thread nD τ) (ms4_8 t) fullShare ((dat V c).after 8 t) from by
    unfold Dat.leavesExact; rw [liveAt4_8 t], after4_8]
  rw [show (dat V c).leavesExact 9 t = owns (c : Thread nD τ) (ms4_9 t) fullShare ((dat V c).after 9 t) from by
    unfold Dat.leavesExact; rw [liveAt4_9 t], after4_9]
  rw [show (dat V c).leavesExact 10 t = owns (c : Thread nD τ) (ms4_10 t) fullShare ((dat V c).after 10 t) from by
    unfold Dat.leavesExact; rw [liveAt4_10 t], after4_10]
  rw [Dat.leavesExact_idle (dat V c) 11 t (idleAt4_11 t hc2) (noFlush4_11 t hc2)]
  rw [Dat.leavesExact_idle (dat V c) 12 t (idleAt4_12 t hc2) (noFlush4_12 t hc2)]
  rw [outsAt4_B V c t h0 h3]
  unfold out4_B_10 sout4_B_0 sout4_B_1; (try dsimp only)
  rw [PhiS_castSucc V c t, PhiS_pos V c _ _ h0]
  iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((kernelRun4_B c (grid4.coords t) _ _ _ _ _ _ _ _ _ _ _ _ _ _ _ _ _ _ _ _ _ _ _ _ _ _ _ _ _ _ hc0 hc1 hc2 (iblk V c 0 t) (iblk V c 1 t) (iblk V c 2 t) (iblk V c 3 t) (iblk V c 4 t) (iblk V c 5 t) (iblk V c 6 t) (iblk V c 7 t) (iblk V c 8 t) (iblk V c 9 t) _ _).2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexact H11
  isplitl [H12]; · iexact H12
  isplitl [HS0]; · iexact HS0
  isplitl [HS1]; · iexact HS1
  iintro ⟨H0, H1, H2, H3, H4, H5, H6, H7, H8, H9, ⟨%e10, H10⟩, H11, H12, ⟨%es0, HS0⟩, ⟨%es1, HS1⟩⟩
  isplitl [HS0 HS1 Hrest Hg]
  · isplitl [HS0 HS1 Hrest]
    · isplitl [HS0 HS1]
      · isplitl [HS0]
        · unfold owns; iexists _; isplitr
          swap; · iexact HS0
          ipureintro; exact View.read_writes_of_cover _ _ _ _ _ (scover4_B_0 c _ _ _ _ _ _ _ _ _ _ _ _ _ _ _ _ _ _ _ _ _ _ _ _ _ _ _ _ _ _ _ _ _ _ _ _ _ _ _ _ _ _ _ _ _ _)
        · unfold owns; iexists _; isplitr
          swap; · iexact HS1
          ipureintro; exact View.read_writes_of_cover _ _ _ _ _ (scover4_B_1 c _ _ _ _ _ _ _ _ _ _ _ _ _ _ _ _ _ _ _ _ _ _ _ _ _ _ _ _ _ _ _ _ _ _ _ _ _ _ _ _ _ _ _ _ _ _)
      · iexact Hrest
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact View.read_writes_of_cover _ _ _ _ _ (cover4_B_10 c _ _ _ _ _ _ _ _ _ _ _ _ _ _ _ _ _ _ _ _ _ _ _ _ _ _ _ _ _ _ _ _ _ _ _ _ _ _ _ _ _ _ _ _ _ _)
  isplitl [H11]; · iexists _; iexact H11
  iexists _; iexact H12

set_option maxHeartbeats 4800000 in
/-- The last point. -/
theorem sound_body_C (c : Dev nD) (t : Fin cfg4.N) (h0 : ¬t.val = 0) (h3 : t.val = 3) :
    bodyPre V c t ⊢ wp frame (wpE (defs₀ (F := F)) Variants.none c none) Set.univ (bodyAt4 t) (fun _ => bodyPost V c t) := by
  unfold bodyPre bodyPost bodyAt4
  simp only [before4_0, before4_1, before4_2, before4_3, before4_4, before4_5, before4_6, before4_7, before4_8, before4_9]
  rw [show (dat V c).owesAt () t.succ = (dat V c).owesAt () t.castSucc from rfl]
  rw [show (dat V c).Φ t.succ = PhiS V c (t.val + 1) t.isLt from rfl, PhiS_succ]
  have hN : t.val < 4 := lt_of_lt_of_eq t.isLt (show cfg4.N = 4 from N_4)
  have hc0 : ¬cond4_0 (grid4.coords t) := fun h => h0 ((hcond4_0 t).mp h)
  have hc1 : cond4_1 (grid4.coords t) := (hcond4_1 t).mpr h0
  have hc2 : cond4_2 (grid4.coords t) := (hcond4_2 t).mpr h3
  rw [show (dat V c).leavesExact 0 t = owns (c : Thread nD τ) (ms4_0 t) fullShare ((dat V c).after 0 t) from by
    unfold Dat.leavesExact; rw [liveAt4_0 t], after4_0]
  rw [show (dat V c).leavesExact 1 t = owns (c : Thread nD τ) (ms4_1 t) fullShare ((dat V c).after 1 t) from by
    unfold Dat.leavesExact; rw [liveAt4_1 t], after4_1]
  rw [show (dat V c).leavesExact 2 t = owns (c : Thread nD τ) (ms4_2 t) fullShare ((dat V c).after 2 t) from by
    unfold Dat.leavesExact; rw [liveAt4_2 t], after4_2]
  rw [show (dat V c).leavesExact 3 t = owns (c : Thread nD τ) (ms4_3 t) fullShare ((dat V c).after 3 t) from by
    unfold Dat.leavesExact; rw [liveAt4_3 t], after4_3]
  rw [show (dat V c).leavesExact 4 t = owns (c : Thread nD τ) (ms4_4 t) fullShare ((dat V c).after 4 t) from by
    unfold Dat.leavesExact; rw [liveAt4_4 t], after4_4]
  rw [show (dat V c).leavesExact 5 t = owns (c : Thread nD τ) (ms4_5 t) fullShare ((dat V c).after 5 t) from by
    unfold Dat.leavesExact; rw [liveAt4_5 t], after4_5]
  rw [show (dat V c).leavesExact 6 t = owns (c : Thread nD τ) (ms4_6 t) fullShare ((dat V c).after 6 t) from by
    unfold Dat.leavesExact; rw [liveAt4_6 t], after4_6]
  rw [show (dat V c).leavesExact 7 t = owns (c : Thread nD τ) (ms4_7 t) fullShare ((dat V c).after 7 t) from by
    unfold Dat.leavesExact; rw [liveAt4_7 t], after4_7]
  rw [show (dat V c).leavesExact 8 t = owns (c : Thread nD τ) (ms4_8 t) fullShare ((dat V c).after 8 t) from by
    unfold Dat.leavesExact; rw [liveAt4_8 t], after4_8]
  rw [show (dat V c).leavesExact 9 t = owns (c : Thread nD τ) (ms4_9 t) fullShare ((dat V c).after 9 t) from by
    unfold Dat.leavesExact; rw [liveAt4_9 t], after4_9]
  rw [show (dat V c).leavesExact 10 t = owns (c : Thread nD τ) (ms4_10 t) fullShare ((dat V c).after 10 t) from by
    unfold Dat.leavesExact; rw [liveAt4_10 t], after4_10]
  rw [show (dat V c).leavesExact 11 t = owns (c : Thread nD τ) (ms4_11 t) fullShare ((dat V c).after 11 t) from by
    unfold Dat.leavesExact; rw [liveAt4_11 t hc2], after4_11]
  rw [show (dat V c).leavesExact 12 t = owns (c : Thread nD τ) (ms4_12 t) fullShare ((dat V c).after 12 t) from by
    unfold Dat.leavesExact; rw [liveAt4_12 t hc2], after4_12]
  rw [outsAt4_C V c t h0 h3]
  unfold out4_C_10 out4_C_11 out4_C_12 sout4_C_0 sout4_C_1; (try dsimp only)
  rw [PhiS_castSucc V c t, PhiS_pos V c _ _ h0]
  iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((kernelRun4_C c (grid4.coords t) _ _ _ _ _ _ _ _ _ _ _ _ _ _ _ _ _ _ _ _ _ _ _ _ _ _ _ _ _ _ hc0 hc1 hc2 (iblk V c 0 t) (iblk V c 1 t) (iblk V c 2 t) (iblk V c 3 t) (iblk V c 4 t) (iblk V c 5 t) (iblk V c 6 t) (iblk V c 7 t) (iblk V c 8 t) (iblk V c 9 t) _ _).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [HS0]; · iexact HS0
  isplitl [HS1]; · iexact HS1
  iintro ⟨H0, H1, H2, H3, H4, H5, H6, H7, H8, H9, ⟨%e10, H10⟩, ⟨%e11, H11⟩, ⟨%e12, H12⟩, ⟨%es0, HS0⟩, ⟨%es1, HS1⟩⟩
  isplitl [HS0 HS1 Hrest Hg]
  · isplitl [HS0 HS1 Hrest]
    · isplitl [HS0 HS1]
      · isplitl [HS0]
        · unfold owns; iexists _; isplitr
          swap; · iexact HS0
          ipureintro; exact View.read_writes_of_cover _ _ _ _ _ (scover4_C_0 c _ _ _ _ _ _ _ _ _ _ _ _ _ _ _ _ _ _ _ _ _ _ _ _ _ _ _ _ _ _ _ _ _ _ _ _ _ _ _ _ _ _ _ _ _ _)
        · unfold owns; iexists _; isplitr
          swap; · iexact HS1
          ipureintro; exact View.read_writes_of_cover _ _ _ _ _ (scover4_C_1 c _ _ _ _ _ _ _ _ _ _ _ _ _ _ _ _ _ _ _ _ _ _ _ _ _ _ _ _ _ _ _ _ _ _ _ _ _ _ _ _ _ _ _ _ _ _)
      · iexact Hrest
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact View.read_writes_of_cover _ _ _ _ _ (cover4_C_10 c _ _ _ _ _ _ _ _ _ _ _ _ _ _ _ _ _ _ _ _ _ _ _ _ _ _ _ _ _ _ _ _ _ _ _ _ _ _ _ _ _ _ _ _ _ _)
  isplitl [H11]
  · unfold owns; iexists _; isplitr
    swap; · iexact H11
    ipureintro; exact View.read_writes_of_cover _ _ _ _ _ (cover4_C_11 c _ _ _ _ _ _ _ _ _ _ _ _ _ _ _ _ _ _ _ _ _ _ _ _ _ _ _ _ _ _ _ _ _ _ _ _ _ _ _ _ _ _ _ _ _ _)
  unfold owns; iexists _; isplitr
  swap; · iexact H12
  ipureintro; exact View.read_writes_of_cover _ _ _ _ _ (cover4_C_12 c _ _ _ _ _ _ _ _ _ _ _ _ _ _ _ _ _ _ _ _ _ _ _ _ _ _ _ _ _ _ _ _ _ _ _ _ _ _ _ _ _ _ _ _ _ _)

/-- The body at any point. -/
theorem sound_body (c : Dev nD) (t : Fin cfg4.N) :
    bodyPre V c t ⊢ wp frame (wpE (defs₀ (F := F)) Variants.none c none) Set.univ (bodyAt4 t) (fun _ => bodyPost V c t) := by
  by_cases h0 : t.val = 0
  · exact sound_body_A V c t h0
  · by_cases h3 : t.val = 3
    · exact sound_body_C V c t h0 h3
    · exact sound_body_B V c t h0 h3

/-- The body obligation, at every point. -/
theorem body_obligation (c : Dev nD) : BodyObligation (dat (F := F) V c) (defs₀ (F := F)) Variants.none () Set.univ := fun t => by
  rw [bigSep_W4, bigSep_W4]
  exact sound_body V c t

/-- What the launch hands the region is the invariant before the first point. -/
theorem hin (c : Dev nD) : Pipeline.ΦA spec4 c ⊢ (dat V c).Φ 0 := by
  rw [show (dat V c).Φ 0 = PhiS V c 0 (Nat.zero_le _) from rfl, PhiS_zero V c 0 _ rfl]
  try exact Idealize.SL.BI.Entails.refl _

/-- After any point the invariant gives the class invariant back: the carried rows' named contents are forgotten. -/
theorem Phi_out (c : Dev nD) (t : Fin (cfg4.N + 1)) (ht : t.val ≠ 0) : (dat V c).Φ t ⊢ Pipeline.ΦA spec4 c := by
  rw [show (dat V c).Φ t = PhiS V c t.val (Nat.le_of_lt_succ t.isLt) from rfl, PhiS_pos V c _ _ ht, PhiA4_eq]
  iintro ⟨⟨⟨HS0, HS1⟩, Hrest⟩, Hg⟩
  isplitl [HS0 HS1 Hrest]
  · isplitl [HS0 HS1]
    · isplitl [HS0]
      · iexists _; iexact HS0
      · iexists _; iexact HS1
    · iexact Hrest
  iexact Hg

/-- The same after the last point. -/
theorem hout (c : Dev nD) : (dat V c).Φ (Fin.last cfg4.N) ⊢ Pipeline.ΦA spec4 c :=
  Phi_out V c _ (by rw [Fin.val_last]; have : cfg4.N = 4 := N_4; omega)

end Cert.KernelIdeal.Reg4

end
-- ==== Proof.AsmChain.lean ====
/-
  The five regions' proof data satisfy what a segment needs, so the whole program runs; and every argument array
  ends as launched.
-/
import proofs.«100906_j73718818669321_2_alg».proof.Proof.AsmRun
import proofs.«100906_j73718818669321_2_alg».proof.Proof.AsmVals
import proofs.«100906_j73718818669321_2_alg».proof.Proof.Reg0Body
import proofs.«100906_j73718818669321_2_alg».proof.Proof.Reg1Body
import proofs.«100906_j73718818669321_2_alg».proof.Proof.Reg2Body
import proofs.«100906_j73718818669321_2_alg».proof.Proof.Reg3Body
import proofs.«100906_j73718818669321_2_alg».proof.Proof.Reg4Body

noncomputable section

namespace Cert.KernelIdeal.Asm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]
variable (m : (ℓ : Loc nD τ sig) → Buf (Elt F) ℓ)

theorem facts0 : RegionFacts (pdats m) 0 (fun c => StableHlo.after hostOps0 (V0 m c)) (W2 m) where
  hA c w := rfl
  hq _ _ := rfl
  howed _ _ := rfl
  hrec _ _ := rfl
  hbody c := Reg0.body_obligation _ c
  hin c := Reg0.hin _ c
  hout c := Reg0.hout _ c
  hF c w := (W2_arr m c w).symm
  hrest c b hb := W2_of_ne m c b fun w e => hb (Finset.mem_image.mpr ⟨w, Finset.mem_univ _, e⟩)

theorem facts1 : RegionFacts (pdats m) 1 (fun c => StableHlo.after hostOps1 (W2 m c)) (W4 m) where
  hA c w := rfl
  hq _ _ := rfl
  howed _ _ := rfl
  hrec _ _ := rfl
  hbody c := Reg1.body_obligation _ c
  hin c := Reg1.hin _ c
  hout c := Reg1.hout _ c
  hF c w := (W4_arr m c w).symm
  hrest c b hb := W4_of_ne m c b fun w e => hb (Finset.mem_image.mpr ⟨w, Finset.mem_univ _, e⟩)

theorem facts2 : RegionFacts (pdats m) 2 (fun c => StableHlo.after hostOps2 (W4 m c)) (W6 m) where
  hA c w := rfl
  hq _ _ := rfl
  howed _ _ := rfl
  hrec _ _ := rfl
  hbody c := Reg2.body_obligation _ c
  hin c := Reg2.hin _ c
  hout c := Reg2.hout _ c
  hF c w := (W6_arr m c w).symm
  hrest c b hb := W6_of_ne m c b fun w e => hb (Finset.mem_image.mpr ⟨w, Finset.mem_univ _, e⟩)

theorem facts3 : RegionFacts (pdats m) 3 (fun c => StableHlo.after hostOps3 (W6 m c)) (W8 m) where
  hA c w := rfl
  hq _ _ := rfl
  howed _ _ := rfl
  hrec _ _ := rfl
  hbody c := Reg3.body_obligation _ c
  hin c := Reg3.hin _ c
  hout c := Reg3.hout _ c
  hF c w := (W8_arr m c w).symm
  hrest c b hb := W8_of_ne m c b fun w e => hb (Finset.mem_image.mpr ⟨w, Finset.mem_univ _, e⟩)

theorem facts4 : RegionFacts (pdats m) 4 (fun c => StableHlo.after hostOps4 (W8 m c)) (W10 m) where
  hA c w := rfl
  hq _ _ := rfl
  howed _ _ := rfl
  hrec _ _ := rfl
  hbody c := Reg4.body_obligation _ c
  hin c := Reg4.hin _ c
  hout c := Reg4.hout _ c
  hF c w := (W10_arr m c w).symm
  hrest c b hb := W10_of_ne m c b fun w e => hb (Finset.mem_image.mpr ⟨w, Finset.mem_univ _, e⟩)

/-- The run: every weakly fair execution terminates, nothing faulting, and ends with every unscoped buffer at the
    last valuation. -/
theorem run (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W12 m c b) :=
  run_all (pdats m) m ρ (W2 m) (W4 m) (W6 m) (W8 m) (W10 m) (facts0 m) (facts1 m) (facts2 m) (facts3 m) (facts4 m)

/-- The frame: the program runs to its end and every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (W12_main_arg0 m c),
    (h c _ (mem_uc main_arg1 (by decide))).trans (W12_main_arg1 m c),
    (h c _ (mem_uc main_arg2 (by decide))).trans (W12_main_arg2 m c),
    (h c _ (mem_uc main_arg3 (by decide))).trans (W12_main_arg3 m c),
    (h c _ (mem_uc main_arg4 (by decide))).trans (W12_main_arg4 m c),
    (h c _ (mem_uc main_arg5 (by decide))).trans (W12_main_arg5 m c),
    (h c _ (mem_uc main_arg6 (by decide))).trans (W12_main_arg6 m c),
    (h c _ (mem_uc main_arg7 (by decide))).trans (W12_main_arg7 m c),
    (h c _ (mem_uc main_arg8 (by decide))).trans (W12_main_arg8 m c),
    (h c _ (mem_uc main_arg9 (by decide))).trans (W12_main_arg9 m c),
    (h c _ (mem_uc main_arg10 (by decide))).trans (W12_main_arg10 m c)⟩) (run m ρ)

end Cert.KernelIdeal.Asm

end
-- ==== Proof.Reg1Pieces.lean ====
/-
  Region 1: what the body's stores leave, read back as values. At every point window 8's buffer ends holding the
  head's rows before normalisation as one function `pre8` of the eight input blocks; the scratch rows end holding the
  column minimum and maximum of that block (first point) or their fold with what the rows held (later points); at the
  last point windows 9 and 10 receive the scratch rows.
-/
import proofs.«100906_j73718818669321_2_alg».proof.Proof.Reg1RunA
import proofs.«100906_j73718818669321_2_alg».proof.Proof.Reg1RunB
import proofs.«100906_j73718818669321_2_alg».proof.Proof.Reg1RunC
import Idealize.ShloMosaic.Lib.Pipeline.Value

set_option maxRecDepth 16384

noncomputable section

namespace Cert.KernelIdeal.Reg1

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- The block of the array before normalisation, from the eight input blocks. -/
def pre8 (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) : Vec F S8192x128 .f32 := k1_pay1 (k1_pay6 x1) (k1_pay7 x6) (k1_pay8 x7) (k1_pay9 x0 x2 x3) (k1_pay10 x0 x1 x2 x3 x4 x5) (Scalar.ofBits .f32 0x00000000#32)
/-- Its column minimum and maximum, as the first point stores them. -/
def mn0 (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) : Vec F S1x128 .f32 := k1_pay2 (k1_pay6 x1) (k1_pay7 x6) (k1_pay8 x7) (k1_pay9 x0 x2 x3) (k1_pay10 x0 x1 x2 x3 x4 x5) (Scalar.ofBits .f32 0x00000000#32)
def mx0 (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) : Vec F S1x128 .f32 := k1_pay3 (k1_pay6 x1) (k1_pay7 x6) (k1_pay8 x7) (k1_pay9 x0 x2 x3) (k1_pay10 x0 x1 x2 x3 x4 x5) (Scalar.ofBits .f32 0x00000000#32)
/-- The same folded with the rows `xs0`, `xs1` the scratch held. -/
def mnS (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (xs0 : Vec F S1x128 .f32) : Vec F S1x128 .f32 := k1_pay4 (k1_pay6 x1) (k1_pay7 x6) (k1_pay8 x7) (k1_pay9 x0 x2 x3) (k1_pay10 x0 x1 x2 x3 x4 x5) (Scalar.ofBits .f32 0x00000000#32) xs0
def mxS (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (xs1 : Vec F S1x128 .f32) : Vec F S1x128 .f32 := k1_pay5 (k1_pay6 x1) (k1_pay7 x6) (k1_pay8 x7) (k1_pay9 x0 x2 x3) (k1_pay10 x0 x1 x2 x3 x4 x5) (Scalar.ofBits .f32 0x00000000#32) xs1

theorem pieceA_8 (c : Dev nD) (i : grid1.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S8192x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : cond1_0 i) (hc1 : ¬cond1_1 i) (hc2 : ¬cond1_2 i) (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) :
    VO1_8.read (Elt F) (VO1_8.writes (Elt F) VO1_8.junk (kernelRun1_A (F := F) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7).1) = pre8 x0 x1 x2 x3 x4 x5 x6 x7 := by
  rw [View.read_writes_eq_canon _ _ _ (View.cover_of_tiledL _ S8192x128.size (by sl_kernel_rfl))]
  unfold kernelRun1_A
  dsimp only
  sl_unfold_words
  rw [View.canon_unit_zero hz]
  unfold pre8
  simp only [View.readAt_eq_ld, harg1.read_unread, harg2.read_unread, harg3.read_unread, harg4.read_unread, harg5.read_unread, harg6.read_unread, harg7.read_unread, harg8.read_unread, harg12.read_unread, harg13.read_unread, View.ld_unit_zero (S := S8192x128) hz, View.ld_unit_zero (S := S128x64) hz, View.ld_unit_zero (S := S1x64) hz, View.ld_unit_zero (S := S1x1) hz, View.ld_unit_zero (S := S64x128) hz, View.ld_unit_zero (S := S1x128) hz]

theorem pieceA_s0 (c : Dev nD) (i : grid1.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S8192x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : cond1_0 i) (hc1 : ¬cond1_1 i) (hc2 : ¬cond1_2 i) (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) :
    VS1_0.read (Elt F) (VS1_0.writes (Elt F) VS1_0.junk (kernelRun1_A (F := F) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7).2.1) = mn0 x0 x1 x2 x3 x4 x5 x6 x7 := by
  rw [View.read_writes_eq_canon _ _ _ (View.cover_of_tiledL _ S1x128.size (by sl_kernel_rfl))]
  unfold kernelRun1_A
  dsimp only
  sl_unfold_words
  rw [View.canon_unit_zero hz]
  unfold mn0
  simp only [View.readAt_eq_ld, harg1.read_unread, harg2.read_unread, harg3.read_unread, harg4.read_unread, harg5.read_unread, harg6.read_unread, harg7.read_unread, harg8.read_unread, harg12.read_unread, harg13.read_unread, View.ld_unit_zero (S := S8192x128) hz, View.ld_unit_zero (S := S128x64) hz, View.ld_unit_zero (S := S1x64) hz, View.ld_unit_zero (S := S1x1) hz, View.ld_unit_zero (S := S64x128) hz, View.ld_unit_zero (S := S1x128) hz]

theorem pieceA_s1 (c : Dev nD) (i : grid1.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S8192x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : cond1_0 i) (hc1 : ¬cond1_1 i) (hc2 : ¬cond1_2 i) (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) :
    VS1_1.read (Elt F) (VS1_1.writes (Elt F) VS1_1.junk (kernelRun1_A (F := F) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7).2.2.1) = mx0 x0 x1 x2 x3 x4 x5 x6 x7 := by
  rw [View.read_writes_eq_canon _ _ _ (View.cover_of_tiledL _ S1x128.size (by sl_kernel_rfl))]
  unfold kernelRun1_A
  dsimp only
  sl_unfold_words
  rw [View.canon_unit_zero hz]
  unfold mx0
  simp only [View.readAt_eq_ld, harg1.read_unread, harg2.read_unread, harg3.read_unread, harg4.read_unread, harg5.read_unread, harg6.read_unread, harg7.read_unread, harg8.read_unread, harg12.read_unread, harg13.read_unread, View.ld_unit_zero (S := S8192x128) hz, View.ld_unit_zero (S := S128x64) hz, View.ld_unit_zero (S := S1x64) hz, View.ld_unit_zero (S := S1x1) hz, View.ld_unit_zero (S := S64x128) hz, View.ld_unit_zero (S := S1x128) hz]

theorem pieceB_8 (c : Dev nD) (i : grid1.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S8192x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond1_0 i) (hc1 : cond1_1 i) (hc2 : ¬cond1_2 i) (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (xs0 : Vec F S1x128 .f32) (xs1 : Vec F S1x128 .f32) :
    VO1_8.read (Elt F) (VO1_8.writes (Elt F) VO1_8.junk (kernelRun1_B (F := F) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1).1) = pre8 x0 x1 x2 x3 x4 x5 x6 x7 := by
  rw [View.read_writes_eq_canon _ _ _ (View.cover_of_tiledL _ S8192x128.size (by sl_kernel_rfl))]
  unfold kernelRun1_B
  dsimp only
  sl_unfold_words
  rw [View.canon_unit_zero hz]
  unfold pre8
  simp only [View.readAt_eq_ld, harg1.read_unread, harg2.read_unread, harg3.read_unread, harg4.read_unread, harg5.read_unread, harg6.read_unread, harg7.read_unread, harg8.read_unread, harg12.read_unread, harg13.read_unread, View.ld_unit_zero (S := S8192x128) hz, View.ld_unit_zero (S := S128x64) hz, View.ld_unit_zero (S := S1x64) hz, View.ld_unit_zero (S := S1x1) hz, View.ld_unit_zero (S := S64x128) hz, View.ld_unit_zero (S := S1x128) hz]

theorem pieceB_s0 (c : Dev nD) (i : grid1.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S8192x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond1_0 i) (hc1 : cond1_1 i) (hc2 : ¬cond1_2 i) (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (xs0 : Vec F S1x128 .f32) (xs1 : Vec F S1x128 .f32) :
    VS1_0.read (Elt F) (VS1_0.writes (Elt F) VS1_0.junk (kernelRun1_B (F := F) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1).2.1) = mnS x0 x1 x2 x3 x4 x5 x6 x7 xs0 := by
  rw [View.read_writes_eq_canon _ _ _ (View.cover_of_tiledL _ S1x128.size (by sl_kernel_rfl))]
  unfold kernelRun1_B
  dsimp only
  sl_unfold_words
  rw [View.canon_unit_zero hz]
  unfold mnS
  simp only [View.readAt_eq_ld, harg1.read_unread, harg2.read_unread, harg3.read_unread, harg4.read_unread, harg5.read_unread, harg6.read_unread, harg7.read_unread, harg8.read_unread, harg12.read_unread, harg13.read_unread, View.ld_unit_zero (S := S8192x128) hz, View.ld_unit_zero (S := S128x64) hz, View.ld_unit_zero (S := S1x64) hz, View.ld_unit_zero (S := S1x1) hz, View.ld_unit_zero (S := S64x128) hz, View.ld_unit_zero (S := S1x128) hz]

theorem pieceB_s1 (c : Dev nD) (i : grid1.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S8192x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond1_0 i) (hc1 : cond1_1 i) (hc2 : ¬cond1_2 i) (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (xs0 : Vec F S1x128 .f32) (xs1 : Vec F S1x128 .f32) :
    VS1_1.read (Elt F) (VS1_1.writes (Elt F) VS1_1.junk (kernelRun1_B (F := F) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1).2.2.1) = mxS x0 x1 x2 x3 x4 x5 x6 x7 xs1 := by
  rw [View.read_writes_eq_canon _ _ _ (View.cover_of_tiledL _ S1x128.size (by sl_kernel_rfl))]
  unfold kernelRun1_B
  dsimp only
  sl_unfold_words
  rw [View.canon_unit_zero hz]
  unfold mxS
  simp only [View.readAt_eq_ld, harg1.read_unread, harg2.read_unread, harg3.read_unread, harg4.read_unread, harg5.read_unread, harg6.read_unread, harg7.read_unread, harg8.read_unread, harg12.read_unread, harg13.read_unread, View.ld_unit_zero (S := S8192x128) hz, View.ld_unit_zero (S := S128x64) hz, View.ld_unit_zero (S := S1x64) hz, View.ld_unit_zero (S := S1x1) hz, View.ld_unit_zero (S := S64x128) hz, View.ld_unit_zero (S := S1x128) hz]

theorem pieceC_8 (c : Dev nD) (i : grid1.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S8192x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond1_0 i) (hc1 : cond1_1 i) (hc2 : cond1_2 i) (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (xs0 : Vec F S1x128 .f32) (xs1 : Vec F S1x128 .f32) :
    VO1_8.read (Elt F) (VO1_8.writes (Elt F) VO1_8.junk (kernelRun1_C (F := F) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1).1) = pre8 x0 x1 x2 x3 x4 x5 x6 x7 := by
  rw [View.read_writes_eq_canon _ _ _ (View.cover_of_tiledL _ S8192x128.size (by sl_kernel_rfl))]
  unfold kernelRun1_C
  dsimp only
  sl_unfold_words
  rw [View.canon_unit_zero hz]
  unfold pre8
  simp only [View.readAt_eq_ld, harg1.read_unread, harg2.read_unread, harg3.read_unread, harg4.read_unread, harg5.read_unread, harg6.read_unread, harg7.read_unread, harg8.read_unread, harg12.read_unread, harg13.read_unread, View.ld_unit_zero (S := S8192x128) hz, View.ld_unit_zero (S := S128x64) hz, View.ld_unit_zero (S := S1x64) hz, View.ld_unit_zero (S := S1x1) hz, View.ld_unit_zero (S := S64x128) hz, View.ld_unit_zero (S := S1x128) hz]

theorem pieceC_9 (c : Dev nD) (i : grid1.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S8192x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond1_0 i) (hc1 : cond1_1 i) (hc2 : cond1_2 i) (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (xs0 : Vec F S1x128 .f32) (xs1 : Vec F S1x128 .f32) :
    VO1_9.read (Elt F) (VO1_9.writes (Elt F) VO1_9.junk (kernelRun1_C (F := F) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1).2.1) = mnS x0 x1 x2 x3 x4 x5 x6 x7 xs0 := by
  rw [View.read_writes_eq_canon _ _ _ (View.cover_of_tiledL _ S1x128.size (by sl_kernel_rfl))]
  unfold kernelRun1_C
  dsimp only
  sl_unfold_words
  rw [View.canon_unit_zero hz, View.readCov_unit_zero _ hz]
  unfold mnS
  simp only [View.readAt_eq_ld, harg1.read_unread, harg2.read_unread, harg3.read_unread, harg4.read_unread, harg5.read_unread, harg6.read_unread, harg7.read_unread, harg8.read_unread, harg12.read_unread, harg13.read_unread, View.ld_unit_zero (S := S8192x128) hz, View.ld_unit_zero (S := S128x64) hz, View.ld_unit_zero (S := S1x64) hz, View.ld_unit_zero (S := S1x1) hz, View.ld_unit_zero (S := S64x128) hz, View.ld_unit_zero (S := S1x128) hz]

theorem pieceC_10 (c : Dev nD) (i : grid1.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S8192x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond1_0 i) (hc1 : cond1_1 i) (hc2 : cond1_2 i) (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (xs0 : Vec F S1x128 .f32) (xs1 : Vec F S1x128 .f32) :
    VO1_10.read (Elt F) (VO1_10.writes (Elt F) VO1_10.junk (kernelRun1_C (F := F) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1).2.2.1) = mxS x0 x1 x2 x3 x4 x5 x6 x7 xs1 := by
  rw [View.read_writes_eq_canon _ _ _ (View.cover_of_tiledL _ S1x128.size (by sl_kernel_rfl))]
  unfold kernelRun1_C
  dsimp only
  sl_unfold_words
  rw [View.canon_unit_zero hz, View.readCov_unit_zero _ hz]
  unfold mxS
  simp only [View.readAt_eq_ld, harg1.read_unread, harg2.read_unread, harg3.read_unread, harg4.read_unread, harg5.read_unread, harg6.read_unread, harg7.read_unread, harg8.read_unread, harg12.read_unread, harg13.read_unread, View.ld_unit_zero (S := S8192x128) hz, View.ld_unit_zero (S := S128x64) hz, View.ld_unit_zero (S := S1x64) hz, View.ld_unit_zero (S := S1x1) hz, View.ld_unit_zero (S := S64x128) hz, View.ld_unit_zero (S := S1x128) hz]

theorem pieceC_s0 (c : Dev nD) (i : grid1.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S8192x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond1_0 i) (hc1 : cond1_1 i) (hc2 : cond1_2 i) (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (xs0 : Vec F S1x128 .f32) (xs1 : Vec F S1x128 .f32) :
    VS1_0.read (Elt F) (VS1_0.writes (Elt F) VS1_0.junk (kernelRun1_C (F := F) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1).2.2.2.1) = mnS x0 x1 x2 x3 x4 x5 x6 x7 xs0 := by
  rw [View.read_writes_eq_canon _ _ _ (View.cover_of_tiledL _ S1x128.size (by sl_kernel_rfl))]
  unfold kernelRun1_C
  dsimp only
  sl_unfold_words
  rw [View.canon_unit_zero hz]
  unfold mnS
  simp only [View.readAt_eq_ld, harg1.read_unread, harg2.read_unread, harg3.read_unread, harg4.read_unread, harg5.read_unread, harg6.read_unread, harg7.read_unread, harg8.read_unread, harg12.read_unread, harg13.read_unread, View.ld_unit_zero (S := S8192x128) hz, View.ld_unit_zero (S := S128x64) hz, View.ld_unit_zero (S := S1x64) hz, View.ld_unit_zero (S := S1x1) hz, View.ld_unit_zero (S := S64x128) hz, View.ld_unit_zero (S := S1x128) hz]

theorem pieceC_s1 (c : Dev nD) (i : grid1.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S8192x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond1_0 i) (hc1 : cond1_1 i) (hc2 : cond1_2 i) (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (xs0 : Vec F S1x128 .f32) (xs1 : Vec F S1x128 .f32) :
    VS1_1.read (Elt F) (VS1_1.writes (Elt F) VS1_1.junk (kernelRun1_C (F := F) c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1).2.2.2.2.1) = mxS x0 x1 x2 x3 x4 x5 x6 x7 xs1 := by
  rw [View.read_writes_eq_canon _ _ _ (View.cover_of_tiledL _ S1x128.size (by sl_kernel_rfl))]
  unfold kernelRun1_C
  dsimp only
  sl_unfold_words
  rw [View.canon_unit_zero hz]
  unfold mxS
  simp only [View.readAt_eq_ld, harg1.read_unread, harg2.read_unread, harg3.read_unread, harg4.read_unread, harg5.read_unread, harg6.read_unread, harg7.read_unread, harg8.read_unread, harg12.read_unread, harg13.read_unread, View.ld_unit_zero (S := S8192x128) hz, View.ld_unit_zero (S := S128x64) hz, View.ld_unit_zero (S := S1x64) hz, View.ld_unit_zero (S := S1x1) hz, View.ld_unit_zero (S := S64x128) hz, View.ld_unit_zero (S := S1x128) hz]

end Cert.KernelIdeal.Reg1

end
-- ==== Proof.Reg1Chain.lean ====
/-
  Region 1: what the buffers hold after each point, in closed form. Window 8's buffer after point `t` is `pre8` of
  the point's input blocks; the scratch rows after point `n` are the running column minimum and maximum of the
  blocks of points 0 … n; at the last point windows 9 and 10 receive them.
-/
import proofs.«100906_j73718818669321_2_alg».proof.Proof.Reg1Dat
import proofs.«100906_j73718818669321_2_alg».proof.Proof.Reg1Pieces

set_option maxRecDepth 16384

noncomputable section

namespace Cert.KernelIdeal.Reg1

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of the array before normalisation that point `t` computes. -/
def pre8At (c : Dev nD) (t : Fin cfg1.N) : Vec F S8192x128 .f32 := pre8 (iblk V c 0 t) (iblk V c 1 t) (iblk V c 2 t) (iblk V c 3 t) (iblk V c 4 t) (iblk V c 5 t) (iblk V c 6 t) (iblk V c 7 t)

/-- The running column minimum after point `n`. -/
def mnAt (c : Dev nD) : (n : ℕ) → n < cfg1.N → Vec F S1x128 .f32
  | 0, h => mn0 (iblk V c 0 ⟨0, h⟩) (iblk V c 1 ⟨0, h⟩) (iblk V c 2 ⟨0, h⟩) (iblk V c 3 ⟨0, h⟩) (iblk V c 4 ⟨0, h⟩) (iblk V c 5 ⟨0, h⟩) (iblk V c 6 ⟨0, h⟩) (iblk V c 7 ⟨0, h⟩)
  | n + 1, h => mnS (iblk V c 0 ⟨n + 1, h⟩) (iblk V c 1 ⟨n + 1, h⟩) (iblk V c 2 ⟨n + 1, h⟩) (iblk V c 3 ⟨n + 1, h⟩) (iblk V c 4 ⟨n + 1, h⟩) (iblk V c 5 ⟨n + 1, h⟩) (iblk V c 6 ⟨n + 1, h⟩) (iblk V c 7 ⟨n + 1, h⟩) (mnAt c n (Nat.lt_of_succ_lt h))

/-- The running column maximum after point `n`. -/
def mxAt (c : Dev nD) : (n : ℕ) → n < cfg1.N → Vec F S1x128 .f32
  | 0, h => mx0 (iblk V c 0 ⟨0, h⟩) (iblk V c 1 ⟨0, h⟩) (iblk V c 2 ⟨0, h⟩) (iblk V c 3 ⟨0, h⟩) (iblk V c 4 ⟨0, h⟩) (iblk V c 5 ⟨0, h⟩) (iblk V c 6 ⟨0, h⟩) (iblk V c 7 ⟨0, h⟩)
  | n + 1, h => mxS (iblk V c 0 ⟨n + 1, h⟩) (iblk V c 1 ⟨n + 1, h⟩) (iblk V c 2 ⟨n + 1, h⟩) (iblk V c 3 ⟨n + 1, h⟩) (iblk V c 4 ⟨n + 1, h⟩) (iblk V c 5 ⟨n + 1, h⟩) (iblk V c 6 ⟨n + 1, h⟩) (iblk V c 7 ⟨n + 1, h⟩) (mxAt c n (Nat.lt_of_succ_lt h))

/-- After every point: window 8's buffer, and the two scratch rows. -/
theorem outsAt_eq (c : Dev nD) : ∀ (n : ℕ) (h : n < cfg1.N),
    (outsAt1 V c n h).1 = pre8At V c ⟨n, h⟩ ∧ (outsAt1 V c n h).2.2.2.1 = mnAt V c n h ∧ (outsAt1 V c n h).2.2.2.2 = mxAt V c n h
  | 0, h => by
    rw [outsAt1_A V c ⟨0, h⟩ rfl]
    unfold leftA runA
    dsimp only
    exact ⟨pieceA_8 .., pieceA_s0 .., pieceA_s1 ..⟩
  | n + 1, h => by
    obtain ⟨-, ih0, ih1⟩ := outsAt_eq c n (Nat.lt_of_succ_lt h)
    have hN : n + 1 < 4 := lt_of_lt_of_eq h (show cfg1.N = 4 from N_1)
    by_cases h3 : (n + 1) % 4 = 3
    · rw [outsAt1_C V c ⟨n + 1, h⟩ h3]
      unfold leftC runC
      dsimp only
      refine ⟨pieceC_8 .., ?_, ?_⟩
      · refine (pieceC_s0 ..).trans ?_
        show mnS _ _ _ _ _ _ _ _ (outsAt1 V c n _).2.2.2.1 = mnS _ _ _ _ _ _ _ _ (mnAt V c n _)
        rw [ih0]
      · refine (pieceC_s1 ..).trans ?_
        show mxS _ _ _ _ _ _ _ _ (outsAt1 V c n _).2.2.2.2 = mxS _ _ _ _ _ _ _ _ (mxAt V c n _)
        rw [ih1]
    · have h0 : ¬(n + 1) % 4 = 0 := by omega
      rw [outsAt1_B V c ⟨n + 1, h⟩ h0 h3]
      unfold leftB runB
      dsimp only
      refine ⟨pieceB_8 .., ?_, ?_⟩
      · refine (pieceB_s0 ..).trans ?_
        show mnS _ _ _ _ _ _ _ _ (outsAt1 V c n _).2.2.2.1 = mnS _ _ _ _ _ _ _ _ (mnAt V c n _)
        rw [ih0]
      · refine (pieceB_s1 ..).trans ?_
        show mxS _ _ _ _ _ _ _ _ (outsAt1 V c n _).2.2.2.2 = mxS _ _ _ _ _ _ _ _ (mxAt V c n _)
        rw [ih1]

/-- At the last point windows 9 and 10 receive the running minimum and maximum. -/
theorem outsAt_last (c : Dev nD) (t : Fin cfg1.N) (h3 : t.val % 4 = 3) :
    (outsAt1 V c t.val t.isLt).2.1 = mnAt V c t.val t.isLt ∧ (outsAt1 V c t.val t.isLt).2.2.1 = mxAt V c t.val t.isLt := by
  obtain ⟨n, h⟩ := t
  cases n with
  | zero => exact (by exfalso; (try dsimp only at h3); omega)
  | succ n =>
    obtain ⟨-, ih0, ih1⟩ := outsAt_eq V c n (Nat.lt_of_succ_lt h)
    rw [outsAt1_C V c ⟨n + 1, h⟩ h3]
    unfold leftC runC
    dsimp only
    refine ⟨?_, ?_⟩
    · refine (pieceC_9 ..).trans ?_
      show mnS _ _ _ _ _ _ _ _ (outsAt1 V c n _).2.2.2.1 = mnS _ _ _ _ _ _ _ _ (mnAt V c n _)
      rw [ih0]
    · refine (pieceC_10 ..).trans ?_
      show mxS _ _ _ _ _ _ _ _ (outsAt1 V c n _).2.2.2.2 = mxS _ _ _ _ _ _ _ _ (mxAt V c n _)
      rw [ih1]

theorem mnAt_zero (c : Dev nD) (h : 0 < cfg1.N) : mnAt V c 0 h = mn0 (iblk V c 0 ⟨0, h⟩) (iblk V c 1 ⟨0, h⟩) (iblk V c 2 ⟨0, h⟩) (iblk V c 3 ⟨0, h⟩) (iblk V c 4 ⟨0, h⟩) (iblk V c 5 ⟨0, h⟩) (iblk V c 6 ⟨0, h⟩) (iblk V c 7 ⟨0, h⟩) := rfl
theorem mnAt_succ (c : Dev nD) (n : ℕ) (h : n + 1 < cfg1.N) :
    mnAt V c (n + 1) h = mnS (iblk V c 0 ⟨n + 1, h⟩) (iblk V c 1 ⟨n + 1, h⟩) (iblk V c 2 ⟨n + 1, h⟩) (iblk V c 3 ⟨n + 1, h⟩) (iblk V c 4 ⟨n + 1, h⟩) (iblk V c 5 ⟨n + 1, h⟩) (iblk V c 6 ⟨n + 1, h⟩) (iblk V c 7 ⟨n + 1, h⟩) (mnAt V c n (Nat.lt_of_succ_lt h)) := rfl
theorem mxAt_zero (c : Dev nD) (h : 0 < cfg1.N) : mxAt V c 0 h = mx0 (iblk V c 0 ⟨0, h⟩) (iblk V c 1 ⟨0, h⟩) (iblk V c 2 ⟨0, h⟩) (iblk V c 3 ⟨0, h⟩) (iblk V c 4 ⟨0, h⟩) (iblk V c 5 ⟨0, h⟩) (iblk V c 6 ⟨0, h⟩) (iblk V c 7 ⟨0, h⟩) := rfl
theorem mxAt_succ (c : Dev nD) (n : ℕ) (h : n + 1 < cfg1.N) :
    mxAt V c (n + 1) h = mxS (iblk V c 0 ⟨n + 1, h⟩) (iblk V c 1 ⟨n + 1, h⟩) (iblk V c 2 ⟨n + 1, h⟩) (iblk V c 3 ⟨n + 1, h⟩) (iblk V c 4 ⟨n + 1, h⟩) (iblk V c 5 ⟨n + 1, h⟩) (iblk V c 6 ⟨n + 1, h⟩) (iblk V c 7 ⟨n + 1, h⟩) (mxAt V c n (Nat.lt_of_succ_lt h)) := rfl

end Cert.KernelIdeal.Reg1

end
-- ==== Proof.Spec.lean ====
/-
  Both programs as functions of the argument arrays, over plain index types.

  A hypergraph attention stack of four heads applied one after the other. With `inc` the node × edge incidence
  array, `deg n = ∑ e, inc n e + ε`, and for head `h` the edge transform `te e j = ∑ k, ef e k * edgeW h k j + edgeB h j`,
  the aggregate is `agg n j = (∑ e, inc n e * te e j) / deg n`. A head maps a node's row `x` to
  `pre c = ∑ j, upd j * outW j c + outB c` with `tn j = ∑ k, x k * nodeW k j + nodeB j`,
  `s = ∑ j, (tn j + agg j) * attnW j + attnB`, `upd j = logistic (leaky s) * agg j + tn j`; the next head's input is the
  column-wise min-max normalisation of `pre` followed by `max · 0`.

  One program computes every matrix product in ONE pass (`dot1`); the other splits both operands as
  `x = x + (x - x)` and sums three passes (`dot3`), and forms all four heads' aggregates at once from the stacked
  edge transform. The two agree on real inputs; where a zero `deg` makes an aggregate infinite the `pre` arrays may
  differ, but only at entries that are infinite in both, and such a column normalises to zeros in both.
-/
import Idealize.ShloMosaic.PureOps.Ideal

noncomputable section

namespace Cert.Spec

open Idealize.ShloMosaic

/-- The literal `1e-8`, as the f32 word both programs carry. -/
def eps : EReal := Ideal.ofBits .f32 0x322BCC77#32
/-- The literal `0.2`, as the f32 word both programs carry. -/
def slope : EReal := Ideal.ofBits .f32 0x3E4CCCCD#32

/-- A product in one pass. -/
def dot1 {K : Type} [Fintype K] (u w : K → EReal) : EReal := ∑ k, u k * w k

/-- A product in three passes over operands split into a high part (the operand) and a low part (`x - x`):
    high·high + high·low + low·high. -/
def dot3 {K : Type} [Fintype K] (u w : K → EReal) : EReal :=
  ∑ k, u k * w k + ∑ k, u k * (w k - w k) + ∑ k, (u k - u k) * w k

/-- `where(s ≥ 0, s, 0.2 * s)`. -/
def leaky (s : EReal) : EReal := if 0 ≤ s then s else slope * s

/-- One entry of a min-max normalised column, clipped at zero: `max ((v - mn) / (mx - mn + ε)) 0`. -/
def norm (v mn mx : EReal) : EReal := max (Ideal.div (v - mn) (mx - mn + eps)) 0

/-- The column minimum and maximum over all nodes. -/
def colMin (pre : Fin 32768 → Fin 128 → EReal) (c : Fin 128) : EReal := ⨅ n, pre n c
def colMax (pre : Fin 32768 → Fin 128 → EReal) (c : Fin 128) : EReal := ⨆ n, pre n c

/-- A whole array normalised column by column. -/
def normAll (pre : Fin 32768 → Fin 128 → EReal) (n : Fin 32768) (c : Fin 128) : EReal :=
  norm (pre n c) (colMin pre c) (colMax pre c)

/-! ## One head on one node's row -/

section Head

variable (W : Fin 128 → Fin 64 → EReal) (b : Fin 64 → EReal) (a : Fin 64 → EReal) (a0 : EReal)
  (O : Fin 64 → Fin 128 → EReal) (o : Fin 128 → EReal)

/-- The attention score of a row from its node transform and its aggregate. -/
def score (tn agg : Fin 64 → EReal) : EReal := (∑ j, (tn j + agg j) * a j) + a0

/-- The gated residual. -/
def upd (tn agg : Fin 64 → EReal) (j : Fin 64) : EReal :=
  Ideal.logistic (leaky (score a a0 tn agg)) * agg j + tn j

/-- The three-pass head: a row `x` and its aggregate `agg` to the row before normalisation. -/
def headPre3 (x : Fin 128 → EReal) (agg : Fin 64 → EReal) (c : Fin 128) : EReal :=
  dot3 (upd a a0 (fun j => dot3 x (fun k => W k j) + b j) agg) (fun j => O j c) + o c

/-- The one-pass head. -/
def headPre1 (x : Fin 128 → EReal) (agg : Fin 64 → EReal) (c : Fin 128) : EReal :=
  dot1 (upd a a0 (fun j => dot1 x (fun k => W k j) + b j) agg) (fun j => O j c) + o c

end Head

/-! ## The aggregates -/

/-- All heads' aggregates at once, from a stacked edge transform given as a high and a low part:
    `(inc · hi + inc · lo) / (∑ inc + ε)`. -/
def aggAll (inc : Fin 32768 → Fin 8192 → EReal) (hi lo : Fin 8192 → Fin 256 → EReal) (n : Fin 32768) (d : Fin 256) : EReal :=
  Ideal.div ((∑ e, inc n e * hi e d) + (∑ e, inc n e * lo e d)) ((∑ e, inc n e) + eps)

/-- One head's aggregate in one pass: `(inc · te) / (∑ inc + ε)`. -/
def aggOne (inc : Fin 32768 → Fin 8192 → EReal) (te : Fin 8192 → Fin 64 → EReal) (n : Fin 32768) (j : Fin 64) : EReal :=
  Ideal.div (∑ e, inc n e * te e j) ((∑ e, inc n e) + eps)

/-! ## The argument arrays and the two results -/

/-- The eleven argument arrays. `attnW h j` is the entry `[h, j, 0]`, `attnB h` the entry `[h, 0]`. -/
structure Args where
  nf : Fin 32768 → Fin 128 → EReal
  inc : Fin 32768 → Fin 8192 → EReal
  ef : Fin 8192 → Fin 128 → EReal
  nodeW : Fin 4 → Fin 128 → Fin 64 → EReal
  nodeB : Fin 4 → Fin 64 → EReal
  edgeW : Fin 4 → Fin 128 → Fin 64 → EReal
  edgeB : Fin 4 → Fin 64 → EReal
  attnW : Fin 4 → Fin 64 → EReal
  attnB : Fin 4 → EReal
  outW : Fin 4 → Fin 64 → Fin 128 → EReal
  outB : Fin 4 → Fin 128 → EReal

/-- Column `64 * h + j` of the 256 stacked columns. -/
def col (h : Fin 4) (j : Fin 64) : Fin 256 := ⟨64 * h.val + j.val, by have := h.isLt; have := j.isLt; omega⟩

/-- One head's edge transform. -/
def te (A : Args) (h : Fin 4) (e : Fin 8192) (j : Fin 64) : EReal := dot1 (A.ef e) (fun k => A.edgeW h k j) + A.edgeB h j

/-- The stacked edge transform: column `64 * h + j` is head `h`'s column `j`. -/
def teAll (A : Args) (e : Fin 8192) (d : Fin 256) : EReal :=
  dot1 (A.ef e) (fun k => A.edgeW ⟨d.val / 64, by have := d.isLt; omega⟩ k ⟨d.val % 64, Nat.mod_lt _ (by decide)⟩)
    + A.edgeB ⟨d.val / 64, by have := d.isLt; omega⟩ ⟨d.val % 64, Nat.mod_lt _ (by decide)⟩

/-- The three-pass program's array before normalisation after head `h`, from that head's input `x`. -/
def pre3 (A : Args) (h : Fin 4) (x : Fin 32768 → Fin 128 → EReal) (n : Fin 32768) (c : Fin 128) : EReal :=
  headPre3 (A.nodeW h) (A.nodeB h) (A.attnW h) (A.attnB h) (A.outW h) (A.outB h) (x n)
    (fun j => aggAll A.inc (teAll A) (fun e d => teAll A e d - teAll A e d) n (col h j)) c

/-- The one-pass program's. -/
def pre1 (A : Args) (h : Fin 4) (x : Fin 32768 → Fin 128 → EReal) (n : Fin 32768) (c : Fin 128) : EReal :=
  headPre1 (A.nodeW h) (A.nodeB h) (A.attnW h) (A.attnB h) (A.outW h) (A.outB h) (x n)
    (aggOne A.inc (te A h) n) c

/-- The three-pass program's result. -/
def result3 (A : Args) : Fin 32768 → Fin 128 → EReal :=
  normAll (pre3 A 3 (normAll (pre3 A 2 (normAll (pre3 A 1 (normAll (pre3 A 0 A.nf)))))))

/-- The one-pass program's result. -/
def result1 (A : Args) : Fin 32768 → Fin 128 → EReal :=
  normAll (pre1 A 3 (normAll (pre1 A 2 (normAll (pre1 A 1 (normAll (pre1 A 0 A.nf)))))))

/-- Every entry of every argument array is a real number. -/
def Args.Real (A : Args) : Prop :=
  (∀ n k, ∃ r : ℝ, A.nf n k = r) ∧ (∀ n e, ∃ r : ℝ, A.inc n e = r) ∧ (∀ e k, ∃ r : ℝ, A.ef e k = r)
  ∧ (∀ h k j, ∃ r : ℝ, A.nodeW h k j = r) ∧ (∀ h j, ∃ r : ℝ, A.nodeB h j = r)
  ∧ (∀ h k j, ∃ r : ℝ, A.edgeW h k j = r) ∧ (∀ h j, ∃ r : ℝ, A.edgeB h j = r)
  ∧ (∀ h j, ∃ r : ℝ, A.attnW h j = r) ∧ (∀ h, ∃ r : ℝ, A.attnB h = r)
  ∧ (∀ h j c, ∃ r : ℝ, A.outW h j c = r) ∧ (∀ h c, ∃ r : ℝ, A.outB h c = r)

end Cert.Spec

end
-- ==== Proof.Reg1PayIdx.lean ====
/-
  The first head's payloads read at an index, over the extended reals: the node transform and the output projection
  are three-pass products (`Spec.dot3`), the score a lane sum, the gate a logistic of the leaky score.
-/
import proofs.«100906_j73718818669321_2_alg».proof.Proof.Gen.KernelIdeal.Skeleton
import proofs.«100906_j73718818669321_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg1

open Cert.KernelIdeal.Gen
open Idealize.ShloMosaic Idealize.ShloMosaic.ValueIdx

/-- A column of the first 64 as a column of the 128. -/
def lo64 (j : Fin 64) : Fin 128 := ⟨j.val, by have := j.isLt; omega⟩

theorem mm1_apply_l0 (i : S8192x64.Idx) (q : dot_S8192x128_S128x64_S8192x64_1_0_0_1_n_n.contr.Idx) : (dot_S8192x128_S128x64_S8192x64_1_0_0_1_n_n.lhsIdx i q 0).val = (i 0).val := by
  unfold DotDims.lhsIdx
  rw [dif_neg (show ¬(0 : Fin S8192x128.rank) ∈ dot_S8192x128_S128x64_S8192x64_1_0_0_1_n_n.lhsBatch by decide), dif_pos (show (0 : Fin S8192x128.rank) ∈ dot_S8192x128_S128x64_S8192x64_1_0_0_1_n_n.lhsNonContracting by decide)]
  rfl
theorem mm1_apply_l1 (i : S8192x64.Idx) (q : dot_S8192x128_S128x64_S8192x64_1_0_0_1_n_n.contr.Idx) : (dot_S8192x128_S128x64_S8192x64_1_0_0_1_n_n.lhsIdx i q 1).val = (q ⟨0, by decide⟩).val :=
  dot_S8192x128_S128x64_S8192x64_1_0_0_1_n_n.lhsIdx_val_of_single rfl i q
theorem mm1_apply_r0 (i : S8192x64.Idx) (q : dot_S8192x128_S128x64_S8192x64_1_0_0_1_n_n.contr.Idx) : (dot_S8192x128_S128x64_S8192x64_1_0_0_1_n_n.rhsIdx i q 0).val = (q ⟨0, by decide⟩).val :=
  dot_S8192x128_S128x64_S8192x64_1_0_0_1_n_n.rhsIdx_val_of_single rfl i q
theorem mm1_apply_r1 (i : S8192x64.Idx) (q : dot_S8192x128_S128x64_S8192x64_1_0_0_1_n_n.contr.Idx) : (dot_S8192x128_S128x64_S8192x64_1_0_0_1_n_n.rhsIdx i q 1).val = (i 1).val := by
  unfold DotDims.rhsIdx
  rw [dif_neg (show ¬(1 : Fin S128x64.rank) ∈ dot_S8192x128_S128x64_S8192x64_1_0_0_1_n_n.rhsBatch by decide), dif_pos (show (1 : Fin S128x64.rank) ∈ dot_S8192x128_S128x64_S8192x64_1_0_0_1_n_n.rhsNonContracting by decide)]
  rfl

/-- A product into a zero accumulator, read at an index: the sum over the contracted axis. -/
theorem mm1_apply (l : FVec Ideal S8192x128 .bf16) (r : FVec Ideal S128x64 .bf16) (p : Fin 8192) (q : Fin 64) :
    matmul dot_S8192x128_S128x64_S8192x64_1_0_0_1_n_n none l r (constant S8192x64 .f32 0x00000000#32) (ix2 p q) = ∑ k : Fin 128, l (ix2 p k) * r (ix2 k q) := by
  show FloatOps.matmul dot_S8192x128_S128x64_S8192x64_1_0_0_1_n_n none l r (constant S8192x64 .f32 0x00000000#32) (ix2 p q) = _
  rw [Ideal.matmul_constant_zero_apply, ← Equiv.sum_comp (ValueIdx.contrEquiv1 dot_S8192x128_S128x64_S8192x64_1_0_0_1_n_n 128 rfl rfl).symm]
  refine Finset.sum_congr rfl fun k _ => ?_
  have hk := ValueIdx.contrEquiv1_symm_val dot_S8192x128_S128x64_S8192x64_1_0_0_1_n_n 128 rfl rfl k
  have el : dot_S8192x128_S128x64_S8192x64_1_0_0_1_n_n.lhsIdx (ix2 p q) ((ValueIdx.contrEquiv1 dot_S8192x128_S128x64_S8192x64_1_0_0_1_n_n 128 rfl rfl).symm k) = ix2 p k := funext fun a => Fin.ext (by
    match a with
    | ⟨0, _⟩ => exact mm1_apply_l0 _ _
    | ⟨1, _⟩ => exact (mm1_apply_l1 _ _).trans hk)
  have er : dot_S8192x128_S128x64_S8192x64_1_0_0_1_n_n.rhsIdx (ix2 p q) ((ValueIdx.contrEquiv1 dot_S8192x128_S128x64_S8192x64_1_0_0_1_n_n 128 rfl rfl).symm k) = ix2 k q := funext fun a => Fin.ext (by
    match a with
    | ⟨0, _⟩ => exact (mm1_apply_r0 _ _).trans hk
    | ⟨1, _⟩ => exact mm1_apply_r1 _ _)
  rw [el, er]

theorem mm2_apply_l0 (i : S8192x128.Idx) (q : dot_S8192x64_S64x128_S8192x128_1_0_0_1_n_n.contr.Idx) : (dot_S8192x64_S64x128_S8192x128_1_0_0_1_n_n.lhsIdx i q 0).val = (i 0).val := by
  unfold DotDims.lhsIdx
  rw [dif_neg (show ¬(0 : Fin S8192x64.rank) ∈ dot_S8192x64_S64x128_S8192x128_1_0_0_1_n_n.lhsBatch by decide), dif_pos (show (0 : Fin S8192x64.rank) ∈ dot_S8192x64_S64x128_S8192x128_1_0_0_1_n_n.lhsNonContracting by decide)]
  rfl
theorem mm2_apply_l1 (i : S8192x128.Idx) (q : dot_S8192x64_S64x128_S8192x128_1_0_0_1_n_n.contr.Idx) : (dot_S8192x64_S64x128_S8192x128_1_0_0_1_n_n.lhsIdx i q 1).val = (q ⟨0, by decide⟩).val :=
  dot_S8192x64_S64x128_S8192x128_1_0_0_1_n_n.lhsIdx_val_of_single rfl i q
theorem mm2_apply_r0 (i : S8192x128.Idx) (q : dot_S8192x64_S64x128_S8192x128_1_0_0_1_n_n.contr.Idx) : (dot_S8192x64_S64x128_S8192x128_1_0_0_1_n_n.rhsIdx i q 0).val = (q ⟨0, by decide⟩).val :=
  dot_S8192x64_S64x128_S8192x128_1_0_0_1_n_n.rhsIdx_val_of_single rfl i q
theorem mm2_apply_r1 (i : S8192x128.Idx) (q : dot_S8192x64_S64x128_S8192x128_1_0_0_1_n_n.contr.Idx) : (dot_S8192x64_S64x128_S8192x128_1_0_0_1_n_n.rhsIdx i q 1).val = (i 1).val := by
  unfold DotDims.rhsIdx
  rw [dif_neg (show ¬(1 : Fin S64x128.rank) ∈ dot_S8192x64_S64x128_S8192x128_1_0_0_1_n_n.rhsBatch by decide), dif_pos (show (1 : Fin S64x128.rank) ∈ dot_S8192x64_S64x128_S8192x128_1_0_0_1_n_n.rhsNonContracting by decide)]
  rfl

/-- A product into a zero accumulator, read at an index: the sum over the contracted axis. -/
theorem mm2_apply (l : FVec Ideal S8192x64 .bf16) (r : FVec Ideal S64x128 .bf16) (p : Fin 8192) (q : Fin 128) :
    matmul dot_S8192x64_S64x128_S8192x128_1_0_0_1_n_n none l r (constant S8192x128 .f32 0x00000000#32) (ix2 p q) = ∑ k : Fin 64, l (ix2 p k) * r (ix2 k q) := by
  show FloatOps.matmul dot_S8192x64_S64x128_S8192x128_1_0_0_1_n_n none l r (constant S8192x128 .f32 0x00000000#32) (ix2 p q) = _
  rw [Ideal.matmul_constant_zero_apply, ← Equiv.sum_comp (ValueIdx.contrEquiv1 dot_S8192x64_S64x128_S8192x128_1_0_0_1_n_n 64 rfl rfl).symm]
  refine Finset.sum_congr rfl fun k _ => ?_
  have hk := ValueIdx.contrEquiv1_symm_val dot_S8192x64_S64x128_S8192x128_1_0_0_1_n_n 64 rfl rfl k
  have el : dot_S8192x64_S64x128_S8192x128_1_0_0_1_n_n.lhsIdx (ix2 p q) ((ValueIdx.contrEquiv1 dot_S8192x64_S64x128_S8192x128_1_0_0_1_n_n 64 rfl rfl).symm k) = ix2 p k := funext fun a => Fin.ext (by
    match a with
    | ⟨0, _⟩ => exact mm2_apply_l0 _ _
    | ⟨1, _⟩ => exact (mm2_apply_l1 _ _).trans hk)
  have er : dot_S8192x64_S64x128_S8192x128_1_0_0_1_n_n.rhsIdx (ix2 p q) ((ValueIdx.contrEquiv1 dot_S8192x64_S64x128_S8192x128_1_0_0_1_n_n 64 rfl rfl).symm k) = ix2 k q := funext fun a => Fin.ext (by
    match a with
    | ⟨0, _⟩ => exact (mm2_apply_r0 _ _).trans hk
    | ⟨1, _⟩ => exact mm2_apply_r1 _ _)
  rw [el, er]

/-- The aggregate's rows: the first 64 columns of the block. -/
theorem pay6_apply (x1 : Vec Ideal S8192x128 .f32) (r : Fin 8192) (j : Fin 64) :
    k1_pay6 (F := Ideal) x1 (ix2 r j) = x1 (ix2 r (lo64 j)) := by
  unfold k1_pay6
  rw [shapeCast_self]
  exact ValueIdx.slice2_axis1_apply 0 x1 _ r j (lo64 j) (Nat.zero_add _).symm

theorem pay7_eq (x6 : Vec Ideal S64x128 .f32) : k1_pay7 (F := Ideal) x6 = x6 := by
  unfold k1_pay7; exact shapeCast_self _ _

theorem pay8_eq (x7 : Vec Ideal S1x128 .f32) : k1_pay8 (F := Ideal) x7 = x7 := by
  unfold k1_pay8; exact shapeCast_self _ _

/-- The node transform: a three-pass product plus the bias row. -/
theorem pay9_apply (x0 : Vec Ideal S8192x128 .f32) (x2 : Vec Ideal S128x64 .f32) (x3 : Vec Ideal S1x64 .f32) (r : Fin 8192) (j : Fin 64) :
    k1_pay9 (F := Ideal) x0 x2 x3 (ix2 r j)
      = Cert.Spec.dot3 (fun k : Fin 128 => x0 (ix2 r k)) (fun k : Fin 128 => x2 (ix2 k j)) + x3 (ix2 (0 : Fin 1) j) := by
  unfold k1_pay9
  simp only [shapeCast_self]
  simp only [addf_apply]
  rw [mm1_apply, mm1_apply, mm1_apply, ValueIdx.broadcastTo_1b_ab_apply]
  rfl

/-- A row vector of sums `[8192]` recast as a column `[8192, 1]`. -/
theorem cast_col_apply {α : Type} (x : S8192.Idx → α) (r : Fin 8192) (u : Fin 1) :
    shapeCast S8192x1 x shapeCasts_S8192_S8192x1 (ix2 r u) = x (ix1 r) :=
  shapeCast_apply x _ _ _ (by
    have hu : u.val = 0 := by omega
    rw [Shape.rowMajor_val_two, Shape.rowMajor_val_one]
    show r.val = r.val * 1 + u.val
    omega)

/-- The one entry `[1, 1]` broadcast down a column `[8192, 1]`. -/
theorem bcast_11_col_apply {α : Type} (x : S1x1.Idx → α) (r : Fin 8192) (u : Fin 1) :
    broadcastTo S8192x1 x broadcasts_S1x1_S8192x1 (ix2 r u) = x (ix2 (0 : Fin 1) (0 : Fin 1)) :=
  broadcastTo_apply x _ (ix2 r u) (ix2 (0 : Fin 1) (0 : Fin 1)) fun ax => by
    match ax with
    | ⟨0, _⟩ => rfl
    | ⟨1, _⟩ => rfl

/-- A column `[8192, 1]` broadcast along the 64 lanes. -/
theorem bcast_col_apply {α : Type} (x : S8192x1.Idx → α) (r : Fin 8192) (j : Fin 64) :
    broadcastTo S8192x64 x broadcasts_S8192x1_S8192x64 (ix2 r j) = x (ix2 r (0 : Fin 1)) :=
  broadcastTo_apply x _ (ix2 r j) (ix2 r (0 : Fin 1)) fun ax => by
    match ax with
    | ⟨0, _⟩ => rfl
    | ⟨1, _⟩ => rfl

/-- The lane sum at Ideal (the accumulator's word is the zero word). -/
theorem lanesum_apply (src : FVec Ideal S8192x64 .f32) (h : S8192x64.Reduces [1] S8192) (hφ : FKind.Formats .f32)
    (hacc : (0x00000000#32 : BitVec 32) = FKind.add.neutral .f32 hφ) (r : Fin 8192) :
    multiReduction (F := Ideal) .add [1] S8192 src 0x00000000#32 h hφ hacc (ix1 r) = ∑ j : Fin 64, src (ix2 r j) := by
  refine (Ideal.multiReduction_add_single src 0x00000000#32 h hφ hacc (ix1 r)).trans ?_
  refine Finset.sum_congr rfl fun k _ => congrArg src ?_
  funext a
  apply Fin.ext
  match a with
  | ⟨0, _⟩ => rfl
  | ⟨1, _⟩ => rfl

/-- The attention score before the leaky slope. -/
theorem pay10_apply (x0 x1 : Vec Ideal S8192x128 .f32) (x2 : Vec Ideal S128x64 .f32) (x3 x4 : Vec Ideal S1x64 .f32) (x5 : Vec Ideal S1x1 .f32)
    (r : Fin 8192) (u : Fin 1) :
    k1_pay10 (F := Ideal) x0 x1 x2 x3 x4 x5 (ix2 r u)
      = (∑ j : Fin 64, (k1_pay9 (F := Ideal) x0 x2 x3 (ix2 r j) + k1_pay6 (F := Ideal) x1 (ix2 r j)) * x4 (ix2 (0 : Fin 1) j)) + x5 (ix2 (0 : Fin 1) (0 : Fin 1)) := by
  unfold k1_pay10
  simp only [shapeCast_self]
  simp only [addf_apply]
  rw [cast_col_apply, bcast_11_col_apply]
  refine congrArg (· + x5 (ix2 (0 : Fin 1) (0 : Fin 1))) ?_
  refine (lanesum_apply _ _ _ _ r).trans ?_
  refine Finset.sum_congr rfl fun j _ => ?_
  rw [mulf_apply, addf_apply, ValueIdx.broadcastTo_1b_ab_apply]

theorem ofBits_top : Ideal.ofBits .f32 0x7F800000#32 = ⊤ := by simp [Ideal.ofBits, Ideal.ieee]
theorem ofBits_bot : Ideal.ofBits .f32 0xFF800000#32 = ⊥ := by simp [Ideal.ofBits, Ideal.ieee]

/-- `where(s ≥ 0, s, 0.2 s)` as the kernel selects it. -/
theorem leaky_eq (s : EReal) :
    Scalar.select (FloatOps.cmpf (F := Ideal) (φ := .f32) .oge s (FloatOps.ofBits .f32 0x00000000#32)) s
        (FloatOps.mulf (F := Ideal) (φ := .f32) (FloatOps.ofBits .f32 0x3E4CCCCD#32) s) = Cert.Spec.leaky s := by
  show (if BitVec.ofBool (decide (Ideal.ofBits .f32 0x00000000#32 ≤ s)) = 1 then s else Ideal.ofBits .f32 0x3E4CCCCD#32 * s) = _
  rw [Ideal.ofBits_zero_f32]
  unfold Cert.Spec.leaky Cert.Spec.slope
  by_cases h : (0 : EReal) ≤ s
  · rw [if_pos h, decide_eq_true h]; rfl
  · rw [if_neg h, decide_eq_false h]; rfl

theorem logistic_apply {s : Shape} (x : FVec Ideal s .f32) (i : s.Idx) : logistic x i = Ideal.logistic (x i) := rfl

/-- The gated residual through the output projection: a three-pass product plus the bias row. -/
theorem pay1_apply (v3 : FVec Ideal S8192x64 .f32) (v13 : FVec Ideal S64x128 .f32) (v15 : FVec Ideal S1x128 .f32)
    (v30 : FVec Ideal S8192x64 .f32) (v37 : FVec Ideal S8192x1 .f32) (r : Fin 8192) (cc : Fin 128) :
    k1_pay1 (F := Ideal) v3 v13 v15 v30 v37 (Scalar.ofBits .f32 0x00000000#32) (ix2 r cc)
      = Cert.Spec.dot3 (fun j : Fin 64 => Ideal.logistic (Cert.Spec.leaky (v37 (ix2 r (0 : Fin 1)))) * v3 (ix2 r j) + v30 (ix2 r j))
          (fun j : Fin 64 => v13 (ix2 j cc)) + v15 (ix2 (0 : Fin 1) cc) := by
  unfold k1_pay1
  simp only [addf_apply]
  rw [mm2_apply, mm2_apply, mm2_apply, ValueIdx.broadcastTo_1b_ab_apply]
  simp only [truncf_apply, subf_apply, addf_apply, mulf_apply, bcast_col_apply, logistic_apply, select_apply, cmpf_apply, broadcast_apply]
  have hl := leaky_eq (v37 (ix2 r (0 : Fin 1)))
  simp only [Ideal.mulf_def] at hl
  simp only [hl]
  rfl

/-- The block before normalisation at an index, from the eight input blocks' entries. -/
theorem pre_apply (x0 x1 : Vec Ideal S8192x128 .f32) (x2 : Vec Ideal S128x64 .f32) (x3 x4 : Vec Ideal S1x64 .f32) (x5 : Vec Ideal S1x1 .f32)
    (x6 : Vec Ideal S64x128 .f32) (x7 : Vec Ideal S1x128 .f32) (r : Fin 8192) (cc : Fin 128) :
    k1_pay1 (F := Ideal) (k1_pay6 x1) (k1_pay7 x6) (k1_pay8 x7) (k1_pay9 x0 x2 x3) (k1_pay10 x0 x1 x2 x3 x4 x5) (Scalar.ofBits .f32 0x00000000#32) (ix2 r cc)
      = Cert.Spec.headPre3 (fun k j => x2 (ix2 k j)) (fun j => x3 (ix2 (0 : Fin 1) j)) (fun j => x4 (ix2 (0 : Fin 1) j)) (x5 (ix2 (0 : Fin 1) (0 : Fin 1)))
          (fun j c => x6 (ix2 j c)) (fun c => x7 (ix2 (0 : Fin 1) c)) (fun k => x0 (ix2 r k)) (fun j => x1 (ix2 r (lo64 j))) cc := by
  rw [pay1_apply, pay7_eq, pay8_eq, pay10_apply]
  simp only [pay9_apply, pay6_apply]
  rfl

/-- A column minimum over the 8192 rows of a block. -/
theorem colmin_apply (src : FVec Ideal S8192x128 .f32) (h : S8192x128.Reduces [0] S128) (hφ : FKind.Formats .f32)
    (hacc : (0x7F800000#32 : BitVec 32) = FKind.minimumf.neutral .f32 hφ) (cc : Fin 128) :
    multiReduction (F := Ideal) .minimumf [0] S128 src 0x7F800000#32 h hφ hacc (ix1 cc) = ⨅ r : Fin 8192, src (ix2 r cc) := by
  rw [multiReduction_minimumf_eq_fold, h.fold_filter_drop_single]
  show (Finset.univ : Finset (Fin 8192)).fold min (Ideal.ofBits .f32 0x7F800000#32) (src ∘ h.lift (ix1 cc)) = _
  rw [ofBits_top]
  have e : (src ∘ h.lift (ix1 cc)) = fun r : Fin 8192 => src (ix2 r cc) := funext fun k => congrArg src (by
    funext a
    apply Fin.ext
    match a with
    | ⟨0, _⟩ => rfl
    | ⟨1, _⟩ => rfl)
  rw [e]
  refine le_antisymm (le_iInf fun r => (Finset.fold_min_le _).mpr (Or.inr ⟨r, Finset.mem_univ _, le_rfl⟩)) ?_
  exact (Finset.le_fold_min _).mpr ⟨le_top, fun x _ => iInf_le (fun r : Fin 8192 => src (ix2 r cc)) x⟩

/-- A column maximum over the 8192 rows of a block. -/
theorem colmax_apply (src : FVec Ideal S8192x128 .f32) (h : S8192x128.Reduces [0] S128) (hφ : FKind.Formats .f32)
    (hacc : (0xFF800000#32 : BitVec 32) = FKind.maximumf.neutral .f32 hφ) (cc : Fin 128) :
    multiReduction (F := Ideal) .maximumf [0] S128 src 0xFF800000#32 h hφ hacc (ix1 cc) = ⨆ r : Fin 8192, src (ix2 r cc) := by
  rw [multiReduction_maximumf_eq_fold, h.fold_filter_drop_single]
  show (Finset.univ : Finset (Fin 8192)).fold max (Ideal.ofBits .f32 0xFF800000#32) (src ∘ h.lift (ix1 cc)) = _
  rw [ofBits_bot]
  have e : (src ∘ h.lift (ix1 cc)) = fun r : Fin 8192 => src (ix2 r cc) := funext fun k => congrArg src (by
    funext a
    apply Fin.ext
    match a with
    | ⟨0, _⟩ => rfl
    | ⟨1, _⟩ => rfl)
  rw [e]
  refine le_antisymm ?_ (iSup_le fun r => (Finset.le_fold_max _).mpr (Or.inr ⟨r, Finset.mem_univ _, le_rfl⟩))
  exact (Finset.fold_max_le _).mpr ⟨bot_le, fun x _ => le_iSup (fun r : Fin 8192 => src (ix2 r cc)) x⟩

theorem pay2_apply (v3 : FVec Ideal S8192x64 .f32) (v13 : FVec Ideal S64x128 .f32) (v15 : FVec Ideal S1x128 .f32)
    (v30 : FVec Ideal S8192x64 .f32) (v37 : FVec Ideal S8192x1 .f32) (cst : Ideal .f32) (u : Fin 1) (cc : Fin 128) :
    k1_pay2 (F := Ideal) v3 v13 v15 v30 v37 cst (ix2 u cc) = ⨅ r : Fin 8192, k1_pay1 (F := Ideal) v3 v13 v15 v30 v37 cst (ix2 r cc) := by
  unfold k1_pay2
  simp only [shapeCast_self]
  rw [ValueIdx.shapeCast_a_1a_apply]
  exact colmin_apply _ _ _ _ cc

theorem pay3_apply (v3 : FVec Ideal S8192x64 .f32) (v13 : FVec Ideal S64x128 .f32) (v15 : FVec Ideal S1x128 .f32)
    (v30 : FVec Ideal S8192x64 .f32) (v37 : FVec Ideal S8192x1 .f32) (cst : Ideal .f32) (u : Fin 1) (cc : Fin 128) :
    k1_pay3 (F := Ideal) v3 v13 v15 v30 v37 cst (ix2 u cc) = ⨆ r : Fin 8192, k1_pay1 (F := Ideal) v3 v13 v15 v30 v37 cst (ix2 r cc) := by
  unfold k1_pay3
  simp only [shapeCast_self]
  rw [ValueIdx.shapeCast_a_1a_apply]
  exact colmax_apply _ _ _ _ cc

theorem pay4_apply (v3 : FVec Ideal S8192x64 .f32) (v13 : FVec Ideal S64x128 .f32) (v15 : FVec Ideal S1x128 .f32)
    (v30 : FVec Ideal S8192x64 .f32) (v37 : FVec Ideal S8192x1 .f32) (cst : Ideal .f32) (xs : Vec Ideal S1x128 .f32) (u : Fin 1) (cc : Fin 128) :
    k1_pay4 (F := Ideal) v3 v13 v15 v30 v37 cst xs (ix2 u cc) = min (xs (ix2 u cc)) (⨅ r : Fin 8192, k1_pay1 (F := Ideal) v3 v13 v15 v30 v37 cst (ix2 r cc)) := by
  unfold k1_pay4
  simp only [shapeCast_self]
  rw [minimumf_apply, ValueIdx.shapeCast_a_1a_apply]
  exact congrArg (min (xs (ix2 u cc))) (colmin_apply _ _ _ _ cc)

theorem pay5_apply (v3 : FVec Ideal S8192x64 .f32) (v13 : FVec Ideal S64x128 .f32) (v15 : FVec Ideal S1x128 .f32)
    (v30 : FVec Ideal S8192x64 .f32) (v37 : FVec Ideal S8192x1 .f32) (cst : Ideal .f32) (xs : Vec Ideal S1x128 .f32) (u : Fin 1) (cc : Fin 128) :
    k1_pay5 (F := Ideal) v3 v13 v15 v30 v37 cst xs (ix2 u cc) = max (xs (ix2 u cc)) (⨆ r : Fin 8192, k1_pay1 (F := Ideal) v3 v13 v15 v30 v37 cst (ix2 r cc)) := by
  unfold k1_pay5
  simp only [shapeCast_self]
  rw [maximumf_apply, ValueIdx.shapeCast_a_1a_apply]
  exact congrArg (max (xs (ix2 u cc))) (colmax_apply _ _ _ _ cc)

end Cert.KernelIdeal.Reg1

end
-- ==== Proof.Reg1Value.lean ====
/-
  Region 1 at the extended reals: the arrays the region leaves.

  Window 8's array ends holding, row by row, the three-pass head `Spec.headPre3` of the row of the head's input and
  of the row's aggregate (columns 0-63 of the stacked 256: the first head's); windows 9 and 10 end holding the
  minimum and maximum of each column of that array over all 32768 rows - the running minimum and maximum over the
  four row ranges of 8192.
-/
import proofs.«100906_j73718818669321_2_alg».proof.Proof.Reg1Chain
import proofs.«100906_j73718818669321_2_alg».proof.Proof.Reg1PayIdx

set_option maxRecDepth 16384

noncomputable section

namespace Cert.KernelIdeal.Reg1

open Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-! ## The head on one row of the arrays -/

/-- Row `n`, column `cc` of the array before normalisation, from the eight arrays the region reads. -/
def g8 (A0 : S32768x128.Idx → EReal) (A1 : S32768x256.Idx → EReal) (A2 : S128x64.Idx → EReal) (A3 A4 : S1x64.Idx → EReal)
    (A5 : S1x1.Idx → EReal) (A6 : S64x128.Idx → EReal) (A7 : S1x128.Idx → EReal) (n : Fin 32768) (cc : Fin 128) : EReal :=
  Cert.Spec.headPre3 (fun k j => A2 (ix2 k j)) (fun j => A3 (ix2 (0 : Fin 1) j)) (fun j => A4 (ix2 (0 : Fin 1) j)) (A5 (ix2 (0 : Fin 1) (0 : Fin 1)))
    (fun j c => A6 (ix2 j c)) (fun c => A7 (ix2 (0 : Fin 1) c)) (fun k => A0 (ix2 n k)) (fun j => A1 (ix2 n (Cert.Spec.col 0 j))) cc

/-- Row `r` of the block of point `T`. -/
def rowOf (T : ℕ) (hT : T < 4) (r : Fin 8192) : Fin 32768 := ⟨8192 * T + r.val, by have := r.isLt; omega⟩

/-- A block of `pre8` is the rows `8192 T …` of `g8`, when the input blocks are those rows of the arrays. -/
theorem pre8_block (A0 : S32768x128.Idx → EReal) (A1 : S32768x256.Idx → EReal) (A2 : S128x64.Idx → EReal) (A3 A4 : S1x64.Idx → EReal)
    (A5 : S1x1.Idx → EReal) (A6 : S64x128.Idx → EReal) (A7 : S1x128.Idx → EReal)
    (x0 x1 : Vec Ideal S8192x128 .f32) (x2 : Vec Ideal S128x64 .f32) (x3 x4 : Vec Ideal S1x64 .f32) (x5 : Vec Ideal S1x1 .f32)
    (x6 : Vec Ideal S64x128 .f32) (x7 : Vec Ideal S1x128 .f32) (T : ℕ) (hT : T < 4)
    (h0 : ∀ (r : Fin 8192) (k : Fin 128), x0 (ix2 r k) = A0 (ix2 (rowOf T hT r) k))
    (h1 : ∀ (r : Fin 8192) (j : Fin 64), x1 (ix2 r (lo64 j)) = A1 (ix2 (rowOf T hT r) (Cert.Spec.col 0 j)))
    (h2 : ∀ k j, x2 (ix2 k j) = A2 (ix2 k j)) (h3 : ∀ j, x3 (ix2 (0 : Fin 1) j) = A3 (ix2 (0 : Fin 1) j))
    (h4 : ∀ j, x4 (ix2 (0 : Fin 1) j) = A4 (ix2 (0 : Fin 1) j)) (h5 : x5 (ix2 (0 : Fin 1) (0 : Fin 1)) = A5 (ix2 (0 : Fin 1) (0 : Fin 1)))
    (h6 : ∀ j c, x6 (ix2 j c) = A6 (ix2 j c)) (h7 : ∀ c, x7 (ix2 (0 : Fin 1) c) = A7 (ix2 (0 : Fin 1) c))
    (r : Fin 8192) (cc : Fin 128) :
    pre8 x0 x1 x2 x3 x4 x5 x6 x7 (ix2 r cc) = g8 A0 A1 A2 A3 A4 A5 A6 A7 (rowOf T hT r) cc := by
  unfold pre8
  rw [pre_apply]
  unfold g8
  simp only [h0, h1, h2, h3, h4, h5, h6, h7]

/-! ## The windows' blocks read at an index -/

/-- Which block each window is on at each point: the row windows on block `t` of rows, the small operands and the
    two small outputs on their one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_8.index t (0 : Fin 2) = t.val ∧ win1_8.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_9.index t (0 : Fin 2) = 0 ∧ win1_9.index t (1 : Fin 2) = 0
    ∧ win1_10.index t (0 : Fin 2) = 0 ∧ win1_10.index t (1 : Fin 2) = 0 :=
  (by decide +kernel : ∀ t : Fin grid1.N, _)

theorem tval_lt (t : Fin cfg1.N) : t.val < 4 := lt_of_lt_of_eq t.isLt (show cfg1.N = 4 from N_1)

theorem iblk0_apply (c : Dev nD) (t : Fin cfg1.N) (r : Fin 8192) (k : Fin 128) :
    (iblk V c 0 t : Vec Ideal S8192x128 .f32) (ix2 r k) = V c main_arg0 (ix2 (rowOf t.val (tval_lt t) r) k) := by
  obtain ⟨e0, e1, -⟩ := idx_facts t
  unfold iblk
  rw [View.read_apply]
  show V c main_arg0 _ = V c main_arg0 _
  congr 1
  funext a
  apply Fin.ext
  match a with
  | ⟨0, _⟩ => show win1_0.index t (0 : Fin 2) * 8192 + 1 * r.val = 8192 * t.val + r.val; rw [e0]; omega
  | ⟨1, _⟩ => show win1_0.index t (1 : Fin 2) * 128 + 1 * k.val = k.val; rw [e1]; omega

theorem iblk1_apply (c : Dev nD) (t : Fin cfg1.N) (r : Fin 8192) (j : Fin 64) :
    (iblk V c 1 t : Vec Ideal S8192x128 .f32) (ix2 r (lo64 j)) = V c main_v11 (ix2 (rowOf t.val (tval_lt t) r) (Cert.Spec.col 0 j)) := by
  obtain ⟨-, -, e0, e1, -⟩ := idx_facts t
  unfold iblk
  rw [View.read_apply]
  show V c main_v11 _ = V c main_v11 _
  congr 1
  funext a
  apply Fin.ext
  match a with
  | ⟨0, _⟩ => show win1_1.index t (0 : Fin 2) * 8192 + 1 * r.val = 8192 * t.val + r.val; rw [e0]; omega
  | ⟨1, _⟩ => show win1_1.index t (1 : Fin 2) * 128 + 1 * j.val = 64 * 0 + j.val; rw [e1]; omega

theorem iblk2_apply (c : Dev nD) (t : Fin cfg1.N) (p : Fin 128) (q : Fin 64) :
    (iblk V c 2 t : Vec Ideal S128x64 .f32) (ix2 p q) = V c main_v13 (ix2 p q) := by
  have e := idx_facts t
  unfold iblk
  rw [View.read_apply]
  show V c main_v13 _ = V c main_v13 _
  congr 1
  funext a
  apply Fin.ext
  match a with
  | ⟨0, _⟩ => show win1_2.index t (0 : Fin 2) * 128 + 1 * p.val = p.val; rw [e.2.2.2.2.2.2.1]; omega
  | ⟨1, _⟩ => show win1_2.index t (1 : Fin 2) * 64 + 1 * q.val = q.val; rw [e.2.2.2.2.2.2.2.1]; omega

theorem iblk6_apply (c : Dev nD) (t : Fin cfg1.N) (p : Fin 64) (q : Fin 128) :
    (iblk V c 6 t : Vec Ideal S64x128 .f32) (ix2 p q) = V c main_v24 (ix2 p q) := by
  have e := idx_facts t
  unfold iblk
  rw [View.read_apply]
  show V c main_v24 _ = V c main_v24 _
  congr 1
  funext a
  apply Fin.ext
  match a with
  | ⟨0, _⟩ => show win1_6.index t (0 : Fin 2) * 64 + 1 * p.val = p.val; rw [e.2.2.2.2.2.2.2.2.2.2.2.2.2.2.1]; omega
  | ⟨1, _⟩ => show win1_6.index t (1 : Fin 2) * 128 + 1 * q.val = q.val; rw [e.2.2.2.2.2.2.2.2.2.2.2.2.2.2.2.1]; omega

theorem iblk3_apply (c : Dev nD) (t : Fin cfg1.N) (q : Fin 64) :
    (iblk V c 3 t : Vec Ideal S1x64 .f32) (ix2 (0 : Fin 1) q) = V c main_v16 (ix2 (0 : Fin 1) q) := by
  have e := idx_facts t
  unfold iblk
  rw [View.read_apply]
  show V c main_v16 _ = V c main_v16 _
  congr 1
  funext a
  apply Fin.ext
  match a with
  | ⟨0, _⟩ => show win1_3.index t (0 : Fin 2) * 1 + 1 * 0 = 0; rw [e.2.2.2.2.2.2.2.2.1]
  | ⟨1, _⟩ => show win1_3.index t (1 : Fin 2) * 64 + 1 * q.val = q.val; rw [e.2.2.2.2.2.2.2.2.2.1]; omega

theorem iblk4_apply (c : Dev nD) (t : Fin cfg1.N) (q : Fin 64) :
    (iblk V c 4 t : Vec Ideal S1x64 .f32) (ix2 (0 : Fin 1) q) = V c main_v19 (ix2 (0 : Fin 1) q) := by
  have e := idx_facts t
  unfold iblk
  rw [View.read_apply]
  show V c main_v19 _ = V c main_v19 _
  congr 1
  funext a
  apply Fin.ext
  match a with
  | ⟨0, _⟩ => show win1_4.index t (0 : Fin 2) * 1 + 1 * 0 = 0; rw [e.2.2.2.2.2.2.2.2.2.2.1]
  | ⟨1, _⟩ => show win1_4.index t (1 : Fin 2) * 64 + 1 * q.val = q.val; rw [e.2.2.2.2.2.2.2.2.2.2.2.1]; omega

theorem iblk5_apply (c : Dev nD) (t : Fin cfg1.N) (q : Fin 1) :
    (iblk V c 5 t : Vec Ideal S1x1 .f32) (ix2 (0 : Fin 1) q) = V c main_v22 (ix2 (0 : Fin 1) q) := by
  have e := idx_facts t
  unfold iblk
  rw [View.read_apply]
  show V c main_v22 _ = V c main_v22 _
  congr 1
  funext a
  apply Fin.ext
  match a with
  | ⟨0, _⟩ => show win1_5.index t (0 : Fin 2) * 1 + 1 * 0 = 0; rw [e.2.2.2.2.2.2.2.2.2.2.2.2.1]
  | ⟨1, _⟩ => show win1_5.index t (1 : Fin 2) * 1 + 1 * q.val = q.val; rw [e.2.2.2.2.2.2.2.2.2.2.2.2.2.1]; omega

theorem iblk7_apply (c : Dev nD) (t : Fin cfg1.N) (q : Fin 128) :
    (iblk V c 7 t : Vec Ideal S1x128 .f32) (ix2 (0 : Fin 1) q) = V c main_v27 (ix2 (0 : Fin 1) q) := by
  have e := idx_facts t
  unfold iblk
  rw [View.read_apply]
  show V c main_v27 _ = V c main_v27 _
  congr 1
  funext a
  apply Fin.ext
  match a with
  | ⟨0, _⟩ => show win1_7.index t (0 : Fin 2) * 1 + 1 * 0 = 0; rw [e.2.2.2.2.2.2.2.2.2.2.2.2.2.2.2.2.1]
  | ⟨1, _⟩ => show win1_7.index t (1 : Fin 2) * 128 + 1 * q.val = q.val; rw [e.2.2.2.2.2.2.2.2.2.2.2.2.2.2.2.2.2.1]; omega

/-- The arrays the region reads, as it finds them. -/
abbrev G8 (c : Dev nD) (n : Fin 32768) (cc : Fin 128) : EReal :=
  g8 (V c main_arg0) (V c main_v11) (V c main_v13) (V c main_v16) (V c main_v19) (V c main_v22) (V c main_v24) (V c main_v27) n cc

/-- What point `t` computes for window 8 is the rows `8192 t …` of `G8`. -/
theorem pre8At_apply (c : Dev nD) (t : Fin cfg1.N) (r : Fin 8192) (cc : Fin 128) :
    pre8At V c t (ix2 r cc) = G8 V c (rowOf t.val (tval_lt t) r) cc := by
  unfold pre8At
  exact pre8_block (V c main_arg0) (V c main_v11) (V c main_v13) (V c main_v16) (V c main_v19) (V c main_v22) (V c main_v24) (V c main_v27)
    (iblk V c 0 t) (iblk V c 1 t) (iblk V c 2 t) (iblk V c 3 t) (iblk V c 4 t) (iblk V c 5 t) (iblk V c 6 t) (iblk V c 7 t) t.val (tval_lt t)
    (iblk0_apply V c t) (iblk1_apply V c t) (iblk2_apply V c t) (iblk3_apply V c t) (iblk4_apply V c t) (iblk5_apply V c t 0)
    (iblk6_apply V c t) (iblk7_apply V c t) r cc

/-! ## Window 8: from blocks to the array -/

/-- The array window 8 ends holding. -/
def final8 (c : Dev nD) : Buf (Elt Ideal) ((c : Thread nD τ).loc main_v28_0) :=
  fun i => G8 V c ⟨(i 0).val, (i 0).isLt⟩ ⟨(i 1).val, (i 1).isLt⟩

theorem flushed8_eq (c : Dev nD) (t : Fin cfg1.N) :
    (dat V c).flushed 8 t = ((cfg1.win 8).blk t).view.read (Elt Ideal) (final8 V c) := by
  show (cfg1.win 8).cut (grid1.coords t) ((dat V c).after 8 t) = _
  rw [after1_8, (outsAt_eq V c t.val t.isLt).1]
  obtain ⟨-, -, -, -, e0, e1, -⟩ := idx_facts t
  funext j
  have hj0 : (j 0).val < 8192 := (j 0).isLt
  have hj1 : (j 1).val < 128 := (j 1).isLt
  rw [View.read_apply]
  have ej : j = ix2 (⟨(j 0).val, hj0⟩ : Fin 8192) (⟨(j 1).val, hj1⟩ : Fin 128) := by
    funext a
    match a with
    | ⟨0, _⟩ => rfl
    | ⟨1, _⟩ => rfl
  refine (congrArg (pre8At V c t) ej).trans ((pre8At_apply V c t _ _).trans ?_)
  unfold final8
  show G8 V c _ _ = G8 V c _ _
  congr 1
  · apply Fin.ext
    show 8192 * t.val + (j 0).val = win1_8.index t (0 : Fin 2) * 8192 + 1 * (j 0).val
    rw [e0]; omega
  · apply Fin.ext
    show (j 1).val = win1_8.index t (1 : Fin 2) * 128 + 1 * (j 1).val
    rw [e1]; omega

theorem mem_blk8 (t : Fin cfg1.N) (i : S32768x128.Idx) :
    i ∈ ((cfg1.win 8).blk t).view.set ↔ ∀ a : Fin 2, win1_8.index t a * S8192x128.size a ≤ (i a).val ∧ (i a).val < win1_8.index t a * S8192x128.size a + S8192x128.size a := by
  show i ∈ ((View.whole main_v28_0).slice (win1_8.rect t)).set ↔ _
  rw [View.set_slice_whole, Rect.mem_set_unit]
  exact Iff.rfl

theorem cover8 (i : S32768x128.Idx) : ∃ t : Fin cfg1.N, (cfg1.win 8).flush t = true ∧ i ∈ ((cfg1.win 8).blk t).view.set := by
  have hi0 : (i 0).val < 32768 := (i 0).isLt
  have hi1 : (i 1).val < 128 := (i 1).isLt
  have hN : cfg1.N = 4 := N_1
  let t : Fin cfg1.N := ⟨(i 0).val / 8192, by rw [hN]; omega⟩
  obtain ⟨-, -, -, -, e0, e1, -⟩ := idx_facts t
  refine ⟨t, flush1_8 t, ?_⟩
  rw [mem_blk8]
  intro a
  match a with
  | ⟨0, _⟩ =>
    show win1_8.index t (0 : Fin 2) * 8192 ≤ (i 0).val ∧ (i 0).val < win1_8.index t (0 : Fin 2) * 8192 + 8192
    rw [e0]; show (i 0).val / 8192 * 8192 ≤ (i 0).val ∧ (i 0).val < (i 0).val / 8192 * 8192 + 8192; omega
  | ⟨1, _⟩ =>
    show win1_8.index t (1 : Fin 2) * 128 ≤ (i 1).val ∧ (i 1).val < win1_8.index t (1 : Fin 2) * 128 + 128
    rw [e1]; omega

theorem arr8 (c : Dev nD) : (dat V c).arrAt 8 cfg1.N = final8 V c :=
  (dat V c).arrAt_eq_of_cover 8 (final8 V c) (fun t _ => flushed8_eq V c t) cover8

/-- THE ARRAY BEFORE NORMALISATION: row `n`, column `cc` is the three-pass head of row `n` of the head's input and of
    columns 0-63 (the first head's: `Spec.col 0 j = j`) of row `n` of the stacked aggregate. -/
theorem value_pre (c : Dev nD) (n : Fin 32768) (cc : Fin 128) :
    ((dat V c).arrAt 8 cfg1.N) (ix2 n cc)
      = Cert.Spec.headPre3 (fun k j => V c (Pipeline.arrRef spec1 2) (ix2 k j)) (fun j => V c (Pipeline.arrRef spec1 3) (ix2 (0 : Fin 1) j))
          (fun j => V c (Pipeline.arrRef spec1 4) (ix2 (0 : Fin 1) j)) (V c (Pipeline.arrRef spec1 5) (ix2 (0 : Fin 1) (0 : Fin 1)))
          (fun j cc => V c (Pipeline.arrRef spec1 6) (ix2 j cc)) (fun cc => V c (Pipeline.arrRef spec1 7) (ix2 (0 : Fin 1) cc))
          (fun k => V c (Pipeline.arrRef spec1 0) (ix2 n k)) (fun j => V c (Pipeline.arrRef spec1 1) (ix2 n (Cert.Spec.col 0 j))) cc := by
  rw [arr8]
  rfl

/-! ## Windows 9 and 10: the running minimum and maximum over the four row ranges -/

theorem row_split (n : Fin 32768) (T : ℕ) (hT : T < 4) (h : n.val / 8192 = T) :
    rowOf T hT ⟨n.val % 8192, Nat.mod_lt _ (by decide)⟩ = n := Fin.ext (by show 8192 * T + n.val % 8192 = n.val; omega)

/-- An infimum over the 32768 rows is the minimum of the infima over the four ranges of 8192 rows. -/
theorem iInf_rows (f : Fin 32768 → EReal) :
    min (min (min (⨅ r : Fin 8192, f (rowOf 0 (by decide) r)) (⨅ r : Fin 8192, f (rowOf (0 + 1) (by decide) r))) (⨅ r : Fin 8192, f (rowOf (1 + 1) (by decide) r)))
        (⨅ r : Fin 8192, f (rowOf (2 + 1) (by decide) r)) = ⨅ n, f n := by
  apply le_antisymm
  · refine le_iInf fun n => ?_
    have hn := n.isLt
    rcases (by omega : n.val / 8192 = 0 ∨ n.val / 8192 = 0 + 1 ∨ n.val / 8192 = 1 + 1 ∨ n.val / 8192 = 2 + 1) with h | h | h | h
    · exact (min_le_left _ _).trans ((min_le_left _ _).trans ((min_le_left _ _).trans ((iInf_le _ ⟨n.val % 8192, Nat.mod_lt _ (by decide)⟩).trans (le_of_eq (congrArg f (row_split n _ _ h))))))
    · exact (min_le_left _ _).trans ((min_le_left _ _).trans ((min_le_right _ _).trans ((iInf_le _ ⟨n.val % 8192, Nat.mod_lt _ (by decide)⟩).trans (le_of_eq (congrArg f (row_split n _ _ h))))))
    · exact (min_le_left _ _).trans ((min_le_right _ _).trans ((iInf_le _ ⟨n.val % 8192, Nat.mod_lt _ (by decide)⟩).trans (le_of_eq (congrArg f (row_split n _ _ h)))))
    · exact (min_le_right _ _).trans ((iInf_le _ ⟨n.val % 8192, Nat.mod_lt _ (by decide)⟩).trans (le_of_eq (congrArg f (row_split n _ _ h))))
  · exact le_min (le_min (le_min (le_iInf fun r => iInf_le f _) (le_iInf fun r => iInf_le f _)) (le_iInf fun r => iInf_le f _)) (le_iInf fun r => iInf_le f _)

/-- The same for suprema. -/
theorem iSup_rows (f : Fin 32768 → EReal) :
    max (max (max (⨆ r : Fin 8192, f (rowOf 0 (by decide) r)) (⨆ r : Fin 8192, f (rowOf (0 + 1) (by decide) r))) (⨆ r : Fin 8192, f (rowOf (1 + 1) (by decide) r)))
        (⨆ r : Fin 8192, f (rowOf (2 + 1) (by decide) r)) = ⨆ n, f n := by
  apply le_antisymm
  · exact max_le (max_le (max_le (iSup_le fun r => le_iSup f _) (iSup_le fun r => le_iSup f _)) (iSup_le fun r => le_iSup f _)) (iSup_le fun r => le_iSup f _)
  · refine iSup_le fun n => ?_
    have hn := n.isLt
    rcases (by omega : n.val / 8192 = 0 ∨ n.val / 8192 = 0 + 1 ∨ n.val / 8192 = 1 + 1 ∨ n.val / 8192 = 2 + 1) with h | h | h | h
    · exact (le_of_eq (congrArg f (row_split n _ _ h)).symm).trans ((le_iSup (fun r : Fin 8192 => f (rowOf 0 (by decide) r)) ⟨n.val % 8192, Nat.mod_lt _ (by decide)⟩).trans ((le_max_left _ _).trans ((le_max_left _ _).trans (le_max_left _ _))))
    · exact (le_of_eq (congrArg f (row_split n _ _ h)).symm).trans ((le_iSup (fun r : Fin 8192 => f (rowOf (0 + 1) (by decide) r)) ⟨n.val % 8192, Nat.mod_lt _ (by decide)⟩).trans ((le_max_right _ _).trans ((le_max_left _ _).trans (le_max_left _ _))))
    · exact (le_of_eq (congrArg f (row_split n _ _ h)).symm).trans ((le_iSup (fun r : Fin 8192 => f (rowOf (1 + 1) (by decide) r)) ⟨n.val % 8192, Nat.mod_lt _ (by decide)⟩).trans ((le_max_right _ _).trans (le_max_left _ _)))
    · exact (le_of_eq (congrArg f (row_split n _ _ h)).symm).trans ((le_iSup (fun r : Fin 8192 => f (rowOf (2 + 1) (by decide) r)) ⟨n.val % 8192, Nat.mod_lt _ (by decide)⟩).trans (le_max_right _ _))

theorem mn0_apply (x0 x1 : Vec Ideal S8192x128 .f32) (x2 : Vec Ideal S128x64 .f32) (x3 x4 : Vec Ideal S1x64 .f32) (x5 : Vec Ideal S1x1 .f32) (x6 : Vec Ideal S64x128 .f32) (x7 : Vec Ideal S1x128 .f32) (cc : Fin 128) :
    mn0 x0 x1 x2 x3 x4 x5 x6 x7 (ix2 (0 : Fin 1) cc) = ⨅ r : Fin 8192, pre8 x0 x1 x2 x3 x4 x5 x6 x7 (ix2 r cc) := by
  unfold mn0 pre8; exact pay2_apply _ _ _ _ _ _ _ cc

theorem mnS_apply (x0 x1 : Vec Ideal S8192x128 .f32) (x2 : Vec Ideal S128x64 .f32) (x3 x4 : Vec Ideal S1x64 .f32) (x5 : Vec Ideal S1x1 .f32) (x6 : Vec Ideal S64x128 .f32) (x7 : Vec Ideal S1x128 .f32) (xs : Vec Ideal S1x128 .f32) (cc : Fin 128) :
    mnS x0 x1 x2 x3 x4 x5 x6 x7 xs (ix2 (0 : Fin 1) cc) = min (xs (ix2 (0 : Fin 1) cc)) (⨅ r : Fin 8192, pre8 x0 x1 x2 x3 x4 x5 x6 x7 (ix2 r cc)) := by
  unfold mnS pre8; exact pay4_apply _ _ _ _ _ _ _ _ cc

/-- The running minimum after the last point is the minimum of the column over all rows. -/
theorem mnAt_last (c : Dev nD) (cc : Fin 128) (h : 2 + 1 < cfg1.N) :
    mnAt V c (2 + 1) h (ix2 (0 : Fin 1) cc) = ⨅ n : Fin 32768, G8 V c n cc := by
  rw [mnAt_succ V c 2 h, mnS_apply, mnAt_succ V c 1 _, mnS_apply, mnAt_succ V c 0 _, mnS_apply, mnAt_zero, mn0_apply]
  rw [← iInf_rows]
  have e : ∀ t : Fin cfg1.N, (⨅ r : Fin 8192, pre8 (iblk V c 0 t) (iblk V c 1 t) (iblk V c 2 t) (iblk V c 3 t) (iblk V c 4 t) (iblk V c 5 t) (iblk V c 6 t) (iblk V c 7 t) (ix2 r cc)) = ⨅ r : Fin 8192, G8 V c (rowOf t.val (tval_lt t) r) cc :=
    fun t => iInf_congr fun r => pre8At_apply V c t r cc
  rw [e ⟨0, _⟩, e ⟨0 + 1, _⟩, e ⟨1 + 1, _⟩, e ⟨2 + 1, h⟩]

/-- The array window 9 ends holding. -/
def final9 (c : Dev nD) : Buf (Elt Ideal) ((c : Thread nD τ).loc main_v28_1) :=
  mnAt V c (2 + 1) (by rw [show cfg1.N = 4 from N_1]; decide)

theorem flushed9_eq (c : Dev nD) (t : Fin cfg1.N) (hf : (cfg1.win 9).flush t = true) :
    (dat V c).flushed 9 t = ((cfg1.win 9).blk t).view.read (Elt Ideal) (final9 V c) := by
  have hN : cfg1.N = 4 := N_1
  have h3 : t.val = 3 := by have := (flush1_9 t).mp hf; have := t.isLt; omega
  obtain rfl : t = t1_3 := Fin.ext h3
  show (cfg1.win 9).cut (grid1.coords t1_3) ((dat V c).after 9 t1_3) = _
  rw [after1_9, (outsAt_last V c t1_3 rfl).1]
  have hz' : (fun a => win1_9.index t1_3 a * main_v28_1.ty.shape.size a) = fun _ => 0 := funext fun a => by fin_cases a <;> decide
  exact (Memref.read_access_unit_zero (Elt Ideal) main_v28_1 hz' (fun a => by rw [congrFun hz' a]; simp) (final9 V c)).symm

theorem arr9 (c : Dev nD) : (dat V c).arrAt 9 cfg1.N = final9 V c :=
  (dat V c).arrAt_eq_of_cover 9 (final9 V c) (flushed9_eq V c) fun i =>
    ⟨t1_3, (flush1_9 t1_3).mpr rfl, by
      show i ∈ ((View.whole main_v28_1).slice (win1_9.rect t1_3)).set
      rw [View.set_slice_whole, Rect.mem_set_unit]
      intro a
      have h0 : (i 0 : Nat) < 1 := (i 0).isLt
      have h1 : (i 1 : Nat) < 128 := (i 1).isLt
      match a with
      | ⟨0, _⟩ => show win1_9.index t1_3 0 * win1_9.size 0 ≤ (i 0 : Nat) ∧ (i 0 : Nat) < win1_9.index t1_3 0 * win1_9.size 0 + win1_9.xsize (grid1.coords t1_3) 0
                  rw [show win1_9.index t1_3 0 * win1_9.size 0 = 0 from by decide +kernel, show win1_9.xsize (grid1.coords t1_3) 0 = 1 from by decide +kernel]; omega
      | ⟨1, _⟩ => show win1_9.index t1_3 1 * win1_9.size 1 ≤ (i 1 : Nat) ∧ (i 1 : Nat) < win1_9.index t1_3 1 * win1_9.size 1 + win1_9.xsize (grid1.coords t1_3) 1
                  rw [show win1_9.index t1_3 1 * win1_9.size 1 = 0 from by decide +kernel, show win1_9.xsize (grid1.coords t1_3) 1 = 128 from by decide +kernel]; omega⟩

/-- THE COLUMN MINIMUM: window 9's array ends holding, per column, the minimum over all 32768 rows of the array
    before normalisation. -/
theorem value_mn (c : Dev nD) (cc : Fin 128) :
    @Eq EReal (((dat V c).arrAt 9 cfg1.N) (ix2 (0 : Fin 1) cc)) (@iInf EReal (Fin 32768) _ fun n => ((dat V c).arrAt 8 cfg1.N) (ix2 n cc)) := by
  rw [arr9, arr8]
  unfold final9
  rw [mnAt_last]
  rfl

theorem mx0_apply (x0 x1 : Vec Ideal S8192x128 .f32) (x2 : Vec Ideal S128x64 .f32) (x3 x4 : Vec Ideal S1x64 .f32) (x5 : Vec Ideal S1x1 .f32) (x6 : Vec Ideal S64x128 .f32) (x7 : Vec Ideal S1x128 .f32) (cc : Fin 128) :
    mx0 x0 x1 x2 x3 x4 x5 x6 x7 (ix2 (0 : Fin 1) cc) = ⨆ r : Fin 8192, pre8 x0 x1 x2 x3 x4 x5 x6 x7 (ix2 r cc) := by
  unfold mx0 pre8; exact pay3_apply _ _ _ _ _ _ _ cc

theorem mxS_apply (x0 x1 : Vec Ideal S8192x128 .f32) (x2 : Vec Ideal S128x64 .f32) (x3 x4 : Vec Ideal S1x64 .f32) (x5 : Vec Ideal S1x1 .f32) (x6 : Vec Ideal S64x128 .f32) (x7 : Vec Ideal S1x128 .f32) (xs : Vec Ideal S1x128 .f32) (cc : Fin 128) :
    mxS x0 x1 x2 x3 x4 x5 x6 x7 xs (ix2 (0 : Fin 1) cc) = max (xs (ix2 (0 : Fin 1) cc)) (⨆ r : Fin 8192, pre8 x0 x1 x2 x3 x4 x5 x6 x7 (ix2 r cc)) := by
  unfold mxS pre8; exact pay5_apply _ _ _ _ _ _ _ _ cc

/-- The running maximum after the last point is the maximum of the column over all rows. -/
theorem mxAt_last (c : Dev nD) (cc : Fin 128) (h : 2 + 1 < cfg1.N) :
    mxAt V c (2 + 1) h (ix2 (0 : Fin 1) cc) = ⨆ n : Fin 32768, G8 V c n cc := by
  rw [mxAt_succ V c 2 h, mxS_apply, mxAt_succ V c 1 _, mxS_apply, mxAt_succ V c 0 _, mxS_apply, mxAt_zero, mx0_apply]
  rw [← iSup_rows]
  have e : ∀ t : Fin cfg1.N, (⨆ r : Fin 8192, pre8 (iblk V c 0 t) (iblk V c 1 t) (iblk V c 2 t) (iblk V c 3 t) (iblk V c 4 t) (iblk V c 5 t) (iblk V c 6 t) (iblk V c 7 t) (ix2 r cc)) = ⨆ r : Fin 8192, G8 V c (rowOf t.val (tval_lt t) r) cc :=
    fun t => iSup_congr fun r => pre8At_apply V c t r cc
  rw [e ⟨0, _⟩, e ⟨0 + 1, _⟩, e ⟨1 + 1, _⟩, e ⟨2 + 1, h⟩]

/-- The array window 10 ends holding. -/
def final10 (c : Dev nD) : Buf (Elt Ideal) ((c : Thread nD τ).loc main_v28_2) :=
  mxAt V c (2 + 1) (by rw [show cfg1.N = 4 from N_1]; decide)

theorem flushed10_eq (c : Dev nD) (t : Fin cfg1.N) (hf : (cfg1.win 10).flush t = true) :
    (dat V c).flushed 10 t = ((cfg1.win 10).blk t).view.read (Elt Ideal) (final10 V c) := by
  have hN : cfg1.N = 4 := N_1
  have h3 : t.val = 3 := by have := (flush1_10 t).mp hf; have := t.isLt; omega
  obtain rfl : t = t1_3 := Fin.ext h3
  show (cfg1.win 10).cut (grid1.coords t1_3) ((dat V c).after 10 t1_3) = _
  rw [after1_10, (outsAt_last V c t1_3 rfl).2]
  have hz' : (fun a => win1_10.index t1_3 a * main_v28_2.ty.shape.size a) = fun _ => 0 := funext fun a => by fin_cases a <;> decide
  exact (Memref.read_access_unit_zero (Elt Ideal) main_v28_2 hz' (fun a => by rw [congrFun hz' a]; simp) (final10 V c)).symm

theorem arr10 (c : Dev nD) : (dat V c).arrAt 10 cfg1.N = final10 V c :=
  (dat V c).arrAt_eq_of_cover 10 (final10 V c) (flushed10_eq V c) fun i =>
    ⟨t1_3, (flush1_10 t1_3).mpr rfl, by
      show i ∈ ((View.whole main_v28_2).slice (win1_10.rect t1_3)).set
      rw [View.set_slice_whole, Rect.mem_set_unit]
      intro a
      have h0 : (i 0 : Nat) < 1 := (i 0).isLt
      have h1 : (i 1 : Nat) < 128 := (i 1).isLt
      match a with
      | ⟨0, _⟩ => show win1_10.index t1_3 0 * win1_10.size 0 ≤ (i 0 : Nat) ∧ (i 0 : Nat) < win1_10.index t1_3 0 * win1_10.size 0 + win1_10.xsize (grid1.coords t1_3) 0
                  rw [show win1_10.index t1_3 0 * win1_10.size 0 = 0 from by decide +kernel, show win1_10.xsize (grid1.coords t1_3) 0 = 1 from by decide +kernel]; omega
      | ⟨1, _⟩ => show win1_10.index t1_3 1 * win1_10.size 1 ≤ (i 1 : Nat) ∧ (i 1 : Nat) < win1_10.index t1_3 1 * win1_10.size 1 + win1_10.xsize (grid1.coords t1_3) 1
                  rw [show win1_10.index t1_3 1 * win1_10.size 1 = 0 from by decide +kernel, show win1_10.xsize (grid1.coords t1_3) 1 = 128 from by decide +kernel]; omega⟩

/-- THE COLUMN MAXIMUM: window 10's array ends holding, per column, the maximum over all 32768 rows of the array
    before normalisation. -/
theorem value_mx (c : Dev nD) (cc : Fin 128) :
    @Eq EReal (((dat V c).arrAt 10 cfg1.N) (ix2 (0 : Fin 1) cc)) (@iSup EReal (Fin 32768) _ fun n => ((dat V c).arrAt 8 cfg1.N) (ix2 n cc)) := by
  rw [arr10, arr8]
  unfold final10
  rw [mxAt_last]
  rfl

end Cert.KernelIdeal.Reg1

end
-- ==== Proof.Reg2ValueBlk.lean ====
/-
  The second head's region: each window's block at a grid point as a rectangle of its array.

  Windows 0, 1 and 10 move with the point (rows `8192 t … 8192 t + 8191`, block column 0); every other window is
  one block, the whole of its array.
-/
import proofs.«100906_j73718818669321_2_alg».proof.Proof.Reg2Dat
import Idealize.ShloMosaic.Lib.ValueIdx
import Idealize.ShloMosaic.Lib.Pipeline.Value

set_option maxRecDepth 16384

noncomputable section

namespace Cert.KernelIdeal.Reg2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open Cert.KernelIdeal.Gen

-- the buffers' contents when the region is entered, at exact extended-real values
variable (V : (c : Dev nD) → (b : Ref sig .tc) → Buf (Elt Ideal) ((c : Thread nD τ).loc b))

/-! ## The windows' blocks, as rectangles of their arrays -/

theorem idx0 : ∀ t : Fin cfg2.N, win2_0.index t (0 : Fin 2) = t.val ∧ win2_0.index t (1 : Fin 2) = 0 :=
  (by decide +kernel : ∀ t : Fin grid2.N, win2_0.index t (0 : Fin 2) = t.val ∧ win2_0.index t (1 : Fin 2) = 0)
theorem idx1 : ∀ t : Fin cfg2.N, win2_1.index t (0 : Fin 2) = t.val ∧ win2_1.index t (1 : Fin 2) = 0 :=
  (by decide +kernel : ∀ t : Fin grid2.N, win2_1.index t (0 : Fin 2) = t.val ∧ win2_1.index t (1 : Fin 2) = 0)
theorem idx2 : ∀ t : Fin cfg2.N, win2_2.index t (0 : Fin 2) = 0 ∧ win2_2.index t (1 : Fin 2) = 0 :=
  (by decide +kernel : ∀ t : Fin grid2.N, win2_2.index t (0 : Fin 2) = 0 ∧ win2_2.index t (1 : Fin 2) = 0)
theorem idx3 : ∀ t : Fin cfg2.N, win2_3.index t (0 : Fin 2) = 0 ∧ win2_3.index t (1 : Fin 2) = 0 :=
  (by decide +kernel : ∀ t : Fin grid2.N, win2_3.index t (0 : Fin 2) = 0 ∧ win2_3.index t (1 : Fin 2) = 0)
theorem idx4 : ∀ t : Fin cfg2.N, win2_4.index t (0 : Fin 2) = 0 ∧ win2_4.index t (1 : Fin 2) = 0 :=
  (by decide +kernel : ∀ t : Fin grid2.N, win2_4.index t (0 : Fin 2) = 0 ∧ win2_4.index t (1 : Fin 2) = 0)
theorem idx5 : ∀ t : Fin cfg2.N, win2_5.index t (0 : Fin 2) = 0 ∧ win2_5.index t (1 : Fin 2) = 0 :=
  (by decide +kernel : ∀ t : Fin grid2.N, win2_5.index t (0 : Fin 2) = 0 ∧ win2_5.index t (1 : Fin 2) = 0)
theorem idx6 : ∀ t : Fin cfg2.N, win2_6.index t (0 : Fin 2) = 0 ∧ win2_6.index t (1 : Fin 2) = 0 :=
  (by decide +kernel : ∀ t : Fin grid2.N, win2_6.index t (0 : Fin 2) = 0 ∧ win2_6.index t (1 : Fin 2) = 0)
theorem idx7 : ∀ t : Fin cfg2.N, win2_7.index t (0 : Fin 2) = 0 ∧ win2_7.index t (1 : Fin 2) = 0 :=
  (by decide +kernel : ∀ t : Fin grid2.N, win2_7.index t (0 : Fin 2) = 0 ∧ win2_7.index t (1 : Fin 2) = 0)
theorem idx8 : ∀ t : Fin cfg2.N, win2_8.index t (0 : Fin 2) = 0 ∧ win2_8.index t (1 : Fin 2) = 0 :=
  (by decide +kernel : ∀ t : Fin grid2.N, win2_8.index t (0 : Fin 2) = 0 ∧ win2_8.index t (1 : Fin 2) = 0)
theorem idx9 : ∀ t : Fin cfg2.N, win2_9.index t (0 : Fin 2) = 0 ∧ win2_9.index t (1 : Fin 2) = 0 :=
  (by decide +kernel : ∀ t : Fin grid2.N, win2_9.index t (0 : Fin 2) = 0 ∧ win2_9.index t (1 : Fin 2) = 0)
theorem idx10 : ∀ t : Fin cfg2.N, win2_10.index t (0 : Fin 2) = t.val ∧ win2_10.index t (1 : Fin 2) = 0 :=
  (by decide +kernel : ∀ t : Fin grid2.N, win2_10.index t (0 : Fin 2) = t.val ∧ win2_10.index t (1 : Fin 2) = 0)
theorem idx11 : ∀ t : Fin cfg2.N, win2_11.index t (0 : Fin 2) = 0 ∧ win2_11.index t (1 : Fin 2) = 0 :=
  (by decide +kernel : ∀ t : Fin grid2.N, win2_11.index t (0 : Fin 2) = 0 ∧ win2_11.index t (1 : Fin 2) = 0)
theorem idx12 : ∀ t : Fin cfg2.N, win2_12.index t (0 : Fin 2) = 0 ∧ win2_12.index t (1 : Fin 2) = 0 :=
  (by decide +kernel : ∀ t : Fin grid2.N, win2_12.index t (0 : Fin 2) = 0 ∧ win2_12.index t (1 : Fin 2) = 0)

theorem iblk0_apply (c : Dev nD) (t : Fin cfg2.N) (p : Fin 8192) (k : Fin 128) :
    iblk V c 0 t (ix2 p k) = V c (Pipeline.arrRef spec2 0) (ix2 (⟨t.val * 8192 + p.val, by have hN : t.val < 4 := lt_of_lt_of_eq t.isLt (show cfg2.N = 4 from N_2); have := p.isLt; omega⟩ : Fin 32768) k) := by
  show V c (Pipeline.arrRef spec2 0) (((cfg2.win 0).blk t).view.emb (ix2 p k)) = _
  refine congrArg _ (funext fun a => Fin.ext ?_)
  obtain ⟨e0, e1⟩ := idx0 t
  match a with
  | ⟨0, _⟩ =>
    show win2_0.index t (0 : Fin 2) * 8192 + 1 * p.val = t.val * 8192 + p.val
    rw [e0]; omega
  | ⟨1, _⟩ =>
    show win2_0.index t (1 : Fin 2) * 128 + 1 * k.val = k.val
    rw [e1]; omega
theorem iblk1_apply (c : Dev nD) (t : Fin cfg2.N) (p : Fin 8192) (k : Fin 128) :
    iblk V c 1 t (ix2 p k) = V c (Pipeline.arrRef spec2 1) (ix2 (⟨t.val * 8192 + p.val, by have hN : t.val < 4 := lt_of_lt_of_eq t.isLt (show cfg2.N = 4 from N_2); have := p.isLt; omega⟩ : Fin 32768) (⟨k.val, by have := k.isLt; omega⟩ : Fin 256)) := by
  show V c (Pipeline.arrRef spec2 1) (((cfg2.win 1).blk t).view.emb (ix2 p k)) = _
  refine congrArg _ (funext fun a => Fin.ext ?_)
  obtain ⟨e0, e1⟩ := idx1 t
  match a with
  | ⟨0, _⟩ =>
    show win2_1.index t (0 : Fin 2) * 8192 + 1 * p.val = t.val * 8192 + p.val
    rw [e0]; omega
  | ⟨1, _⟩ =>
    show win2_1.index t (1 : Fin 2) * 128 + 1 * k.val = k.val
    rw [e1]; omega
theorem iblk2_apply (c : Dev nD) (t : Fin cfg2.N) (a : Fin 128) (b : Fin 64) :
    iblk V c 2 t (ix2 a b) = V c (Pipeline.arrRef spec2 2) (ix2 a b) := by
  show V c (Pipeline.arrRef spec2 2) (((cfg2.win 2).blk t).view.emb (ix2 a b)) = _
  refine congrArg _ (funext fun ax => Fin.ext ?_)
  obtain ⟨e0, e1⟩ := idx2 t
  match ax with
  | ⟨0, _⟩ =>
    show win2_2.index t (0 : Fin 2) * 128 + 1 * a.val = a.val
    rw [e0]; omega
  | ⟨1, _⟩ =>
    show win2_2.index t (1 : Fin 2) * 64 + 1 * b.val = b.val
    rw [e1]; omega
theorem iblk3_apply (c : Dev nD) (t : Fin cfg2.N) (a : Fin 1) (b : Fin 64) :
    iblk V c 3 t (ix2 a b) = V c (Pipeline.arrRef spec2 3) (ix2 a b) := by
  show V c (Pipeline.arrRef spec2 3) (((cfg2.win 3).blk t).view.emb (ix2 a b)) = _
  refine congrArg _ (funext fun ax => Fin.ext ?_)
  obtain ⟨e0, e1⟩ := idx3 t
  match ax with
  | ⟨0, _⟩ =>
    show win2_3.index t (0 : Fin 2) * 1 + 1 * a.val = a.val
    rw [e0]; omega
  | ⟨1, _⟩ =>
    show win2_3.index t (1 : Fin 2) * 64 + 1 * b.val = b.val
    rw [e1]; omega
theorem iblk4_apply (c : Dev nD) (t : Fin cfg2.N) (a : Fin 1) (b : Fin 64) :
    iblk V c 4 t (ix2 a b) = V c (Pipeline.arrRef spec2 4) (ix2 a b) := by
  show V c (Pipeline.arrRef spec2 4) (((cfg2.win 4).blk t).view.emb (ix2 a b)) = _
  refine congrArg _ (funext fun ax => Fin.ext ?_)
  obtain ⟨e0, e1⟩ := idx4 t
  match ax with
  | ⟨0, _⟩ =>
    show win2_4.index t (0 : Fin 2) * 1 + 1 * a.val = a.val
    rw [e0]; omega
  | ⟨1, _⟩ =>
    show win2_4.index t (1 : Fin 2) * 64 + 1 * b.val = b.val
    rw [e1]; omega
theorem iblk5_apply (c : Dev nD) (t : Fin cfg2.N) (a : Fin 1) (b : Fin 1) :
    iblk V c 5 t (ix2 a b) = V c (Pipeline.arrRef spec2 5) (ix2 a b) := by
  show V c (Pipeline.arrRef spec2 5) (((cfg2.win 5).blk t).view.emb (ix2 a b)) = _
  refine congrArg _ (funext fun ax => Fin.ext ?_)
  obtain ⟨e0, e1⟩ := idx5 t
  match ax with
  | ⟨0, _⟩ =>
    show win2_5.index t (0 : Fin 2) * 1 + 1 * a.val = a.val
    rw [e0]; omega
  | ⟨1, _⟩ =>
    show win2_5.index t (1 : Fin 2) * 1 + 1 * b.val = b.val
    rw [e1]; omega
theorem iblk6_apply (c : Dev nD) (t : Fin cfg2.N) (a : Fin 64) (b : Fin 128) :
    iblk V c 6 t (ix2 a b) = V c (Pipeline.arrRef spec2 6) (ix2 a b) := by
  show V c (Pipeline.arrRef spec2 6) (((cfg2.win 6).blk t).view.emb (ix2 a b)) = _
  refine congrArg _ (funext fun ax => Fin.ext ?_)
  obtain ⟨e0, e1⟩ := idx6 t
  match ax with
  | ⟨0, _⟩ =>
    show win2_6.index t (0 : Fin 2) * 64 + 1 * a.val = a.val
    rw [e0]; omega
  | ⟨1, _⟩ =>
    show win2_6.index t (1 : Fin 2) * 128 + 1 * b.val = b.val
    rw [e1]; omega
theorem iblk7_apply (c : Dev nD) (t : Fin cfg2.N) (a : Fin 1) (b : Fin 128) :
    iblk V c 7 t (ix2 a b) = V c (Pipeline.arrRef spec2 7) (ix2 a b) := by
  show V c (Pipeline.arrRef spec2 7) (((cfg2.win 7).blk t).view.emb (ix2 a b)) = _
  refine congrArg _ (funext fun ax => Fin.ext ?_)
  obtain ⟨e0, e1⟩ := idx7 t
  match ax with
  | ⟨0, _⟩ =>
    show win2_7.index t (0 : Fin 2) * 1 + 1 * a.val = a.val
    rw [e0]; omega
  | ⟨1, _⟩ =>
    show win2_7.index t (1 : Fin 2) * 128 + 1 * b.val = b.val
    rw [e1]; omega
theorem iblk8_apply (c : Dev nD) (t : Fin cfg2.N) (a : Fin 1) (b : Fin 128) :
    iblk V c 8 t (ix2 a b) = V c (Pipeline.arrRef spec2 8) (ix2 a b) := by
  show V c (Pipeline.arrRef spec2 8) (((cfg2.win 8).blk t).view.emb (ix2 a b)) = _
  refine congrArg _ (funext fun ax => Fin.ext ?_)
  obtain ⟨e0, e1⟩ := idx8 t
  match ax with
  | ⟨0, _⟩ =>
    show win2_8.index t (0 : Fin 2) * 1 + 1 * a.val = a.val
    rw [e0]; omega
  | ⟨1, _⟩ =>
    show win2_8.index t (1 : Fin 2) * 128 + 1 * b.val = b.val
    rw [e1]; omega
theorem iblk9_apply (c : Dev nD) (t : Fin cfg2.N) (a : Fin 1) (b : Fin 128) :
    iblk V c 9 t (ix2 a b) = V c (Pipeline.arrRef spec2 9) (ix2 a b) := by
  show V c (Pipeline.arrRef spec2 9) (((cfg2.win 9).blk t).view.emb (ix2 a b)) = _
  refine congrArg _ (funext fun ax => Fin.ext ?_)
  obtain ⟨e0, e1⟩ := idx9 t
  match ax with
  | ⟨0, _⟩ =>
    show win2_9.index t (0 : Fin 2) * 1 + 1 * a.val = a.val
    rw [e0]; omega
  | ⟨1, _⟩ =>
    show win2_9.index t (1 : Fin 2) * 128 + 1 * b.val = b.val
    rw [e1]; omega

theorem after10 (c : Dev nD) (t : Fin cfg2.N) : (dat V c).after 10 t = preAt V c t := by dsimp only [dat]
theorem after11 (c : Dev nD) (t : Fin cfg2.N) : (dat V c).after 11 t = sminAt V c t.val t.isLt := by dsimp only [dat]
theorem after12 (c : Dev nD) (t : Fin cfg2.N) : (dat V c).after 12 t = smaxAt V c t.val t.isLt := by dsimp only [dat]

end Cert.KernelIdeal.Reg2

end
-- ==== Proof.Reg2ValuePay.lean ====
/-
  The second head's arithmetic read entry by entry, at exact extended-real values.

  A row `x` of the previous head's array is normalised on load, `xn k = max ((x k - mn k) / (mx k - mn k + ε)) 0`; the
  node transform is `tn j = Σₖ xn k · W k j` in three passes (the operands split as `u = u + (u - u)`) plus the bias;
  the score `s = Σⱼ (tn j + agg j) · a j + a₀` gates the aggregate, `upd j = logistic (leaky s) · agg j + tn j`; the row
  before normalisation is `Σⱼ upd j · O j c` in three passes plus the bias. Every step is the printed operation read
  at an index; nothing is rearranged, so no entry needs to be a real number.
-/
import proofs.«100906_j73718818669321_2_alg».proof.Proof.Reg2Runs
import proofs.«100906_j73718818669321_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Reg2

open Idealize.ShloMosaic Idealize.ShloMosaic.ValueIdx
open Cert.KernelIdeal.Gen

/-! ## The layout operations the body uses, read at an index -/

section Layout
variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A row's sum over its 64 columns. -/
theorem rowSum64 (v : FVec Ideal S8192x64 .f32) (h : S8192x64.Reduces [1] S8192) (hφ : FKind.Formats .f32)
    (hacc : (0x00000000#32 : BitVec 32) = FKind.add.neutral .f32 hφ) (p : Fin 8192) :
    multiReduction .add [1] S8192 v 0x00000000#32 h hφ hacc (ix1 p) = ∑ j : Fin 64, v (ix2 p j) :=
  (Ideal.multiReduction_add_single v _ h hφ hacc (ix1 p)).trans
    (Finset.sum_congr rfl fun j _ => congrArg v (funext fun a => Fin.ext (by
      match a with
      | ⟨0, _⟩ => rfl
      | ⟨1, _⟩ => rfl)))

theorem mm1_lhs0 (i : S8192x64.Idx) (q : dot_S8192x128_S128x64_S8192x64_1_0_0_1_n_n.contr.Idx) : (dot_S8192x128_S128x64_S8192x64_1_0_0_1_n_n.lhsIdx i q 0).val = (i 0).val := by
  unfold DotDims.lhsIdx
  rw [dif_neg (show ¬(0 : Fin S8192x128.rank) ∈ dot_S8192x128_S128x64_S8192x64_1_0_0_1_n_n.lhsBatch by decide), dif_pos (show (0 : Fin S8192x128.rank) ∈ dot_S8192x128_S128x64_S8192x64_1_0_0_1_n_n.lhsNonContracting by decide)]
  rfl
theorem mm1_lhs1 (i : S8192x64.Idx) (q : dot_S8192x128_S128x64_S8192x64_1_0_0_1_n_n.contr.Idx) : (dot_S8192x128_S128x64_S8192x64_1_0_0_1_n_n.lhsIdx i q 1).val = (q ⟨0, by decide⟩).val :=
  dot_S8192x128_S128x64_S8192x64_1_0_0_1_n_n.lhsIdx_val_of_single rfl i q
theorem mm1_rhs0 (i : S8192x64.Idx) (q : dot_S8192x128_S128x64_S8192x64_1_0_0_1_n_n.contr.Idx) : (dot_S8192x128_S128x64_S8192x64_1_0_0_1_n_n.rhsIdx i q 0).val = (q ⟨0, by decide⟩).val :=
  dot_S8192x128_S128x64_S8192x64_1_0_0_1_n_n.rhsIdx_val_of_single rfl i q
theorem mm1_rhs1 (i : S8192x64.Idx) (q : dot_S8192x128_S128x64_S8192x64_1_0_0_1_n_n.contr.Idx) : (dot_S8192x128_S128x64_S8192x64_1_0_0_1_n_n.rhsIdx i q 1).val = (i 1).val := by
  unfold DotDims.rhsIdx
  rw [dif_neg (show ¬(1 : Fin S128x64.rank) ∈ dot_S8192x128_S128x64_S8192x64_1_0_0_1_n_n.rhsBatch by decide), dif_pos (show (1 : Fin S128x64.rank) ∈ dot_S8192x128_S128x64_S8192x64_1_0_0_1_n_n.rhsNonContracting by decide)]
  rfl

/-- A 128-term product of a row with a column of the node weights. -/
theorem mm1_apply {φ₁ φ₂ : FTy} (l : FVec Ideal S8192x128 φ₁) (r : FVec Ideal S128x64 φ₂) (p : Fin 8192) (j : Fin 64) :
    matmul dot_S8192x128_S128x64_S8192x64_1_0_0_1_n_n none l r (constant (F := Ideal) S8192x64 .f32 0x00000000#32) (ix2 p j) = ∑ k : Fin 128, l (ix2 p k) * r (ix2 k j) := by
  simp only [matmul]
  rw [Ideal.matmul_constant_zero_apply, ← Equiv.sum_comp (contrEquiv1 dot_S8192x128_S128x64_S8192x64_1_0_0_1_n_n 128 rfl rfl).symm]
  refine Finset.sum_congr rfl fun k _ => ?_
  have hk := contrEquiv1_symm_val dot_S8192x128_S128x64_S8192x64_1_0_0_1_n_n 128 rfl rfl k
  have el : dot_S8192x128_S128x64_S8192x64_1_0_0_1_n_n.lhsIdx (ix2 p j) ((contrEquiv1 dot_S8192x128_S128x64_S8192x64_1_0_0_1_n_n 128 rfl rfl).symm k) = ix2 p k := funext fun a => Fin.ext (by
    match a with
    | ⟨0, _⟩ => exact mm1_lhs0 _ _
    | ⟨1, _⟩ => exact (mm1_lhs1 _ _).trans hk)
  have er : dot_S8192x128_S128x64_S8192x64_1_0_0_1_n_n.rhsIdx (ix2 p j) ((contrEquiv1 dot_S8192x128_S128x64_S8192x64_1_0_0_1_n_n 128 rfl rfl).symm k) = ix2 k j := funext fun a => Fin.ext (by
    match a with
    | ⟨0, _⟩ => exact (mm1_rhs0 _ _).trans hk
    | ⟨1, _⟩ => exact mm1_rhs1 _ _)
  rw [el, er]

theorem mm2_lhs0 (i : S8192x128.Idx) (q : dot_S8192x64_S64x128_S8192x128_1_0_0_1_n_n.contr.Idx) : (dot_S8192x64_S64x128_S8192x128_1_0_0_1_n_n.lhsIdx i q 0).val = (i 0).val := by
  unfold DotDims.lhsIdx
  rw [dif_neg (show ¬(0 : Fin S8192x64.rank) ∈ dot_S8192x64_S64x128_S8192x128_1_0_0_1_n_n.lhsBatch by decide), dif_pos (show (0 : Fin S8192x64.rank) ∈ dot_S8192x64_S64x128_S8192x128_1_0_0_1_n_n.lhsNonContracting by decide)]
  rfl
theorem mm2_lhs1 (i : S8192x128.Idx) (q : dot_S8192x64_S64x128_S8192x128_1_0_0_1_n_n.contr.Idx) : (dot_S8192x64_S64x128_S8192x128_1_0_0_1_n_n.lhsIdx i q 1).val = (q ⟨0, by decide⟩).val :=
  dot_S8192x64_S64x128_S8192x128_1_0_0_1_n_n.lhsIdx_val_of_single rfl i q
theorem mm2_rhs0 (i : S8192x128.Idx) (q : dot_S8192x64_S64x128_S8192x128_1_0_0_1_n_n.contr.Idx) : (dot_S8192x64_S64x128_S8192x128_1_0_0_1_n_n.rhsIdx i q 0).val = (q ⟨0, by decide⟩).val :=
  dot_S8192x64_S64x128_S8192x128_1_0_0_1_n_n.rhsIdx_val_of_single rfl i q
theorem mm2_rhs1 (i : S8192x128.Idx) (q : dot_S8192x64_S64x128_S8192x128_1_0_0_1_n_n.contr.Idx) : (dot_S8192x64_S64x128_S8192x128_1_0_0_1_n_n.rhsIdx i q 1).val = (i 1).val := by
  unfold DotDims.rhsIdx
  rw [dif_neg (show ¬(1 : Fin S64x128.rank) ∈ dot_S8192x64_S64x128_S8192x128_1_0_0_1_n_n.rhsBatch by decide), dif_pos (show (1 : Fin S64x128.rank) ∈ dot_S8192x64_S64x128_S8192x128_1_0_0_1_n_n.rhsNonContracting by decide)]
  rfl

/-- A 64-term product of a row with a column of the output weights. -/
theorem mm2_apply {φ₁ φ₂ : FTy} (l : FVec Ideal S8192x64 φ₁) (r : FVec Ideal S64x128 φ₂) (p : Fin 8192) (j : Fin 128) :
    matmul dot_S8192x64_S64x128_S8192x128_1_0_0_1_n_n none l r (constant (F := Ideal) S8192x128 .f32 0x00000000#32) (ix2 p j) = ∑ k : Fin 64, l (ix2 p k) * r (ix2 k j) := by
  simp only [matmul]
  rw [Ideal.matmul_constant_zero_apply, ← Equiv.sum_comp (contrEquiv1 dot_S8192x64_S64x128_S8192x128_1_0_0_1_n_n 64 rfl rfl).symm]
  refine Finset.sum_congr rfl fun k _ => ?_
  have hk := contrEquiv1_symm_val dot_S8192x64_S64x128_S8192x128_1_0_0_1_n_n 64 rfl rfl k
  have el : dot_S8192x64_S64x128_S8192x128_1_0_0_1_n_n.lhsIdx (ix2 p j) ((contrEquiv1 dot_S8192x64_S64x128_S8192x128_1_0_0_1_n_n 64 rfl rfl).symm k) = ix2 p k := funext fun a => Fin.ext (by
    match a with
    | ⟨0, _⟩ => exact mm2_lhs0 _ _
    | ⟨1, _⟩ => exact (mm2_lhs1 _ _).trans hk)
  have er : dot_S8192x64_S64x128_S8192x128_1_0_0_1_n_n.rhsIdx (ix2 p j) ((contrEquiv1 dot_S8192x64_S64x128_S8192x128_1_0_0_1_n_n 64 rfl rfl).symm k) = ix2 k j := funext fun a => Fin.ext (by
    match a with
    | ⟨0, _⟩ => exact (mm2_rhs0 _ _).trans hk
    | ⟨1, _⟩ => exact mm2_rhs1 _ _)
  rw [el, er]

/-! ## The body's intermediate values, named -/

section Vocabulary
variable {F : FTy → Type} [FloatOps F]

/-- The node transform of every row, in three passes, plus the bias. -/
def TNv (v21 : FVec F S1x64 .f32) (v30 v33 : FVec F S8192x128 .bf16) (v34 : FVec F S128x64 .bf16) (v36 : FVec F S128x64 .f32) : FVec F S8192x64 .f32 :=
  addf (addf (addf (matmul dot_S8192x128_S128x64_S8192x64_1_0_0_1_n_n none v30 v34 (constant S8192x64 .f32 0x00000000#32))
        (matmul dot_S8192x128_S128x64_S8192x64_1_0_0_1_n_n none v30 (truncf .bf16 v36 bitsLt_bf16_f32) (constant S8192x64 .f32 0x00000000#32)))
      (matmul dot_S8192x128_S128x64_S8192x64_1_0_0_1_n_n none v33 v34 (constant S8192x64 .f32 0x00000000#32)))
    (broadcastTo S8192x64 v21 broadcasts_S1x64_S8192x64)

/-- The attention score of every row. -/
def SCv (tn agg : FVec F S8192x64 .f32) (v23 : FVec F S1x64 .f32) (v25 : FVec F S1x1 .f32) : FVec F S8192x1 .f32 :=
  addf (shapeCast S8192x1 (multiReduction .add [1] S8192 (mulf (addf tn agg) (broadcastTo S8192x64 v23 broadcasts_S1x64_S8192x64)) 0x00000000#32 reduces_S8192x64_S8192 (.inl rfl) rfl) shapeCasts_S8192_S8192x1)
    (broadcastTo S8192x1 v25 broadcasts_S1x1_S8192x1)

/-- `where(s ≥ 0, s, 0.2 s)` of every score. -/
def LKv (s : FVec F S8192x1 .f32) : FVec F S8192x1 .f32 :=
  select (cmpf .oge s (broadcast S8192x1 (Scalar.ofBits .f32 0x00000000#32))) s (mulf (broadcast S8192x1 (Scalar.ofBits .f32 0x3E4CCCCD#32)) s)

/-- The gated residual of every row. -/
def UPDv (tn agg : FVec F S8192x64 .f32) (s : FVec F S8192x1 .f32) : FVec F S8192x64 .f32 :=
  addf (mulf (broadcastTo S8192x64 (logistic (LKv s)) broadcasts_S8192x1_S8192x64) agg) tn

/-- The output product of every row, in three passes, plus the bias. -/
def OUTv (u : FVec F S8192x64 .f32) (v27 : FVec F S64x128 .f32) (v29 : FVec F S1x128 .f32) : FVec F S8192x128 .f32 :=
  addf (addf (addf (matmul dot_S8192x64_S64x128_S8192x128_1_0_0_1_n_n none (truncf .bf16 u bitsLt_bf16_f32) (truncf .bf16 v27 bitsLt_bf16_f32) (constant S8192x128 .f32 0x00000000#32))
        (matmul dot_S8192x64_S64x128_S8192x128_1_0_0_1_n_n none (truncf .bf16 u bitsLt_bf16_f32) (truncf .bf16 (subf v27 v27) bitsLt_bf16_f32) (constant S8192x128 .f32 0x00000000#32)))
      (matmul dot_S8192x64_S64x128_S8192x128_1_0_0_1_n_n none (truncf .bf16 (subf u u) bitsLt_bf16_f32) (truncf .bf16 v27 bitsLt_bf16_f32) (constant S8192x128 .f32 0x00000000#32)))
    (broadcastTo S8192x128 v29 broadcasts_S1x128_S8192x128)

/-- The printed payload is these, composed. -/
theorem pay15_eq (v17 : FVec F S8192x64 .f32) (v21 v23 : FVec F S1x64 .f32) (v25 : FVec F S1x1 .f32) (v27 : FVec F S64x128 .f32) (v29 : FVec F S1x128 .f32)
    (v30 v33 : FVec F S8192x128 .bf16) (v34 : FVec F S128x64 .bf16) (v36 : FVec F S128x64 .f32) :
    k2_pay15 v17 v21 v23 v25 v27 v29 v30 v33 v34 v36
      = OUTv (UPDv (TNv v21 v30 v33 v34 v36) v17 (SCv (TNv v21 v30 v33 v34 v36) v17 v23 v25)) v27 v29 := rfl

end Vocabulary

/-! ## Each of them at an index -/

theorem TNv_apply (v21 : FVec Ideal S1x64 .f32) (v30 v33 : FVec Ideal S8192x128 .bf16) (v34 : FVec Ideal S128x64 .bf16) (v36 : FVec Ideal S128x64 .f32)
    (p : Fin 8192) (j : Fin 64) :
    TNv v21 v30 v33 v34 v36 (ix2 p j)
      = (∑ k : Fin 128, v30 (ix2 p k) * v34 (ix2 k j) + ∑ k : Fin 128, v30 (ix2 p k) * v36 (ix2 k j) + ∑ k : Fin 128, v33 (ix2 p k) * v34 (ix2 k j))
        + v21 (ix2 (0 : Fin 1) j) := by
  show (matmul dot_S8192x128_S128x64_S8192x64_1_0_0_1_n_n none v30 v34 (constant (F := Ideal) S8192x64 .f32 0x00000000#32) (ix2 p j)
        + matmul dot_S8192x128_S128x64_S8192x64_1_0_0_1_n_n none v30 (truncf .bf16 v36 bitsLt_bf16_f32) (constant (F := Ideal) S8192x64 .f32 0x00000000#32) (ix2 p j)
        + matmul dot_S8192x128_S128x64_S8192x64_1_0_0_1_n_n none v33 v34 (constant (F := Ideal) S8192x64 .f32 0x00000000#32) (ix2 p j))
      + broadcastTo S8192x64 v21 broadcasts_S1x64_S8192x64 (ix2 p j) = _
  rw [mm1_apply, mm1_apply, mm1_apply, broadcastTo_1b_ab_apply]
  rfl

theorem SCv_apply (tn agg : FVec Ideal S8192x64 .f32) (v23 : FVec Ideal S1x64 .f32) (v25 : FVec Ideal S1x1 .f32) (p : Fin 8192) :
    SCv tn agg v23 v25 (ix2 p (0 : Fin 1))
      = (∑ j : Fin 64, (tn (ix2 p j) + agg (ix2 p j)) * v23 (ix2 (0 : Fin 1) j)) + v25 (ix2 (0 : Fin 1) (0 : Fin 1)) := by
  show shapeCast S8192x1 (multiReduction .add [1] S8192 (mulf (addf tn agg) (broadcastTo S8192x64 v23 broadcasts_S1x64_S8192x64)) 0x00000000#32 reduces_S8192x64_S8192 (.inl rfl) rfl) shapeCasts_S8192_S8192x1 (ix2 p (0 : Fin 1))
      + broadcastTo S8192x1 v25 broadcasts_S1x1_S8192x1 (ix2 p (0 : Fin 1)) = _
  rw [shapeCast_a_a1_apply, broadcastTo_1b_ab_apply]
  refine congrArg (· + v25 (ix2 (0 : Fin 1) (0 : Fin 1))) ((rowSum64 _ _ _ _ p).trans (Finset.sum_congr rfl fun j _ => ?_))
  show (tn (ix2 p j) + agg (ix2 p j)) * broadcastTo S8192x64 v23 broadcasts_S1x64_S8192x64 (ix2 p j) = _
  rw [broadcastTo_1b_ab_apply]

/-- The comparison and the select are the case split of `leaky`. -/
theorem leaky_eq (a : EReal) :
    Scalar.select (Ideal.cmp .oge a (Ideal.ofBits .f32 0x00000000#32)) a (Ideal.ofBits .f32 0x3E4CCCCD#32 * a) = Cert.Spec.leaky a := by
  unfold Cert.Spec.leaky Cert.Spec.slope Scalar.select Ideal.cmp
  rw [Ideal.ofBits_zero_f32]
  by_cases h : (0 : EReal) ≤ a
  · simp [h]
  · simp [h]

theorem UPDv_apply (tn agg : FVec Ideal S8192x64 .f32) (s : FVec Ideal S8192x1 .f32) (p : Fin 8192) (j : Fin 64) :
    UPDv tn agg s (ix2 p j) = Ideal.logistic (Cert.Spec.leaky (s (ix2 p (0 : Fin 1)))) * agg (ix2 p j) + tn (ix2 p j) := by
  show broadcastTo S8192x64 (logistic (LKv s)) broadcasts_S8192x1_S8192x64 (ix2 p j) * agg (ix2 p j) + tn (ix2 p j) = _
  rw [broadcastTo_a1_ab_apply]
  show Ideal.logistic (Scalar.select (Ideal.cmp .oge (s (ix2 p (0 : Fin 1))) (Ideal.ofBits .f32 0x00000000#32)) (s (ix2 p (0 : Fin 1))) (Ideal.ofBits .f32 0x3E4CCCCD#32 * s (ix2 p (0 : Fin 1)))) * agg (ix2 p j) + tn (ix2 p j) = _
  rw [leaky_eq]

theorem OUTv_apply (u : FVec Ideal S8192x64 .f32) (v27 : FVec Ideal S64x128 .f32) (v29 : FVec Ideal S1x128 .f32) (p : Fin 8192) (q : Fin 128) :
    OUTv u v27 v29 (ix2 p q) = Cert.Spec.dot3 (fun j : Fin 64 => u (ix2 p j)) (fun j : Fin 64 => v27 (ix2 j q)) + v29 (ix2 (0 : Fin 1) q) := by
  show (matmul dot_S8192x64_S64x128_S8192x128_1_0_0_1_n_n none (truncf .bf16 u bitsLt_bf16_f32) (truncf .bf16 v27 bitsLt_bf16_f32) (constant (F := Ideal) S8192x128 .f32 0x00000000#32) (ix2 p q)
        + matmul dot_S8192x64_S64x128_S8192x128_1_0_0_1_n_n none (truncf .bf16 u bitsLt_bf16_f32) (truncf .bf16 (subf v27 v27) bitsLt_bf16_f32) (constant (F := Ideal) S8192x128 .f32 0x00000000#32) (ix2 p q)
        + matmul dot_S8192x64_S64x128_S8192x128_1_0_0_1_n_n none (truncf .bf16 (subf u u) bitsLt_bf16_f32) (truncf .bf16 v27 bitsLt_bf16_f32) (constant (F := Ideal) S8192x128 .f32 0x00000000#32) (ix2 p q))
      + broadcastTo S8192x128 v29 broadcasts_S1x128_S8192x128 (ix2 p q) = _
  rw [mm2_apply, mm2_apply, mm2_apply, broadcastTo_1b_ab_apply]
  rfl

/-! ## The loads' preparation -/

/-- The block normalised on load is `Spec.norm` of each entry with its column's previous minimum and maximum. -/
theorem pay3_apply (x0 : Vec Ideal S8192x128 .f32) (x8 x9 : Vec Ideal S1x128 .f32) (p : Fin 8192) (k : Fin 128) :
    k2_pay3 x0 x8 x9 (ix2 p k) = Cert.Spec.norm (x0 (ix2 p k)) (x8 (ix2 (0 : Fin 1) k)) (x9 (ix2 (0 : Fin 1) k)) := by
  unfold k2_pay3
  simp only [shapeCast_self]
  show max (Ideal.div (x0 (ix2 p k) - broadcastTo S8192x128 x8 broadcasts_S1x128_S8192x128 (ix2 p k))
        (broadcastTo S8192x128 (addf (subf x9 x8) (broadcast S1x128 (Scalar.ofBits (F := Ideal) .f32 0x322BCC77#32))) broadcasts_S1x128_S8192x128 (ix2 p k)))
      (Scalar.ofBits (F := Ideal) .f32 0x00000000#32) = _
  rw [broadcastTo_1b_ab_apply, broadcastTo_1b_ab_apply]
  show max (Ideal.div (x0 (ix2 p k) - x8 (ix2 (0 : Fin 1) k)) (x9 (ix2 (0 : Fin 1) k) - x8 (ix2 (0 : Fin 1) k) + Ideal.ofBits .f32 0x322BCC77#32)) (Ideal.ofBits .f32 0x00000000#32) = _
  rw [Ideal.ofBits_zero_f32]
  rfl

theorem pay11_apply (x0 : Vec Ideal S8192x128 .f32) (x8 x9 : Vec Ideal S1x128 .f32) (p : Fin 8192) (k : Fin 128) :
    k2_pay11 x0 x8 x9 (ix2 p k) = Cert.Spec.norm (x0 (ix2 p k)) (x8 (ix2 (0 : Fin 1) k)) (x9 (ix2 (0 : Fin 1) k)) :=
  pay3_apply x0 x8 x9 p k

theorem pay12_apply (x0 : Vec Ideal S8192x128 .f32) (x8 x9 : Vec Ideal S1x128 .f32) (p : Fin 8192) (k : Fin 128) :
    k2_pay12 x0 x8 x9 (ix2 p k)
      = Cert.Spec.norm (x0 (ix2 p k)) (x8 (ix2 (0 : Fin 1) k)) (x9 (ix2 (0 : Fin 1) k)) - Cert.Spec.norm (x0 (ix2 p k)) (x8 (ix2 (0 : Fin 1) k)) (x9 (ix2 (0 : Fin 1) k)) := by
  show k2_pay3 x0 x8 x9 (ix2 p k) - k2_pay3 x0 x8 x9 (ix2 p k) = _
  rw [pay3_apply]

/-- The aggregate block's columns 64 … 127 are this head's. -/
theorem pay4_apply (x1 : Vec Ideal S8192x128 .f32) (p : Fin 8192) (j : Fin 64) :
    k2_pay4 x1 (ix2 p j) = x1 (ix2 p (⟨64 + j.val, by have := j.isLt; omega⟩ : Fin 128)) := by
  unfold k2_pay4
  simp only [shapeCast_self]
  exact slice2_axis1_apply 64 x1 _ p j ⟨64 + j.val, by have := j.isLt; omega⟩ rfl

theorem pay5_eq {F : FTy → Type} [FloatOps F] (v : Vec F S128x64 .f32) : k2_pay5 v = v := shapeCast_self v _
theorem pay6_eq {F : FTy → Type} [FloatOps F] (v : Vec F S1x64 .f32) : k2_pay6 v = v := shapeCast_self v _
theorem pay7_eq {F : FTy → Type} [FloatOps F] (v : Vec F S1x64 .f32) : k2_pay7 v = v := shapeCast_self v _
theorem pay8_eq {F : FTy → Type} [FloatOps F] (v : Vec F S1x1 .f32) : k2_pay8 v = v := shapeCast_self v _
theorem pay9_eq {F : FTy → Type} [FloatOps F] (v : Vec F S64x128 .f32) : k2_pay9 v = v := shapeCast_self v _
theorem pay10_eq {F : FTy → Type} [FloatOps F] (v : Vec F S1x128 .f32) : k2_pay10 v = v := shapeCast_self v _

theorem pay13_apply (x2 : Vec Ideal S128x64 .f32) (k : Fin 128) (j : Fin 64) : k2_pay13 x2 (ix2 k j) = x2 (ix2 k j) := by
  show k2_pay5 x2 (ix2 k j) = _
  rw [pay5_eq]

theorem pay14_apply (x2 : Vec Ideal S128x64 .f32) (k : Fin 128) (j : Fin 64) : k2_pay14 x2 (ix2 k j) = x2 (ix2 k j) - x2 (ix2 k j) := by
  show k2_pay5 x2 (ix2 k j) - k2_pay5 x2 (ix2 k j) = _
  rw [pay5_eq]

/-! ## The rows before normalisation, entry by entry -/

/-- Row `p`, column `q` of the block the body stores: the three-pass head of the specification on the normalised
    row `p` of the previous head's block and row `p` of this head's aggregate columns. -/
theorem preOf_apply (x0 x1 : Vec Ideal S8192x128 .f32) (x2 : Vec Ideal S128x64 .f32) (x3 x4 : Vec Ideal S1x64 .f32) (x5 : Vec Ideal S1x1 .f32)
    (x6 : Vec Ideal S64x128 .f32) (x7 x8 x9 : Vec Ideal S1x128 .f32) (p : Fin 8192) (q : Fin 128) :
    preOf x0 x1 x2 x3 x4 x5 x6 x7 x8 x9 (ix2 p q)
      = Cert.Spec.headPre3 (fun k j => x2 (ix2 k j)) (fun j => x3 (ix2 (0 : Fin 1) j)) (fun j => x4 (ix2 (0 : Fin 1) j)) (x5 (ix2 (0 : Fin 1) (0 : Fin 1)))
          (fun j cc => x6 (ix2 j cc)) (fun cc => x7 (ix2 (0 : Fin 1) cc))
          (fun k => Cert.Spec.norm (x0 (ix2 p k)) (x8 (ix2 (0 : Fin 1) k)) (x9 (ix2 (0 : Fin 1) k)))
          (fun j => x1 (ix2 p (⟨64 + j.val, by have := j.isLt; omega⟩ : Fin 128))) q := by
  unfold preOf
  rw [pay15_eq, OUTv_apply, pay9_eq, pay10_eq]
  unfold Cert.Spec.headPre3
  refine congrArg (fun u => Cert.Spec.dot3 u (fun j : Fin 64 => x6 (ix2 j q)) + x7 (ix2 (0 : Fin 1) q)) (funext fun j => ?_)
  rw [UPDv_apply, SCv_apply]
  unfold Cert.Spec.upd Cert.Spec.score
  have htn : ∀ j' : Fin 64, TNv (k2_pay6 x3) (k2_pay11 x0 x8 x9) (k2_pay12 x0 x8 x9) (k2_pay13 x2) (k2_pay14 x2) (ix2 p j')
      = Cert.Spec.dot3 (fun k : Fin 128 => Cert.Spec.norm (x0 (ix2 p k)) (x8 (ix2 (0 : Fin 1) k)) (x9 (ix2 (0 : Fin 1) k))) (fun k : Fin 128 => x2 (ix2 k j')) + x3 (ix2 (0 : Fin 1) j') := by
    intro j'
    rw [TNv_apply, pay6_eq]
    simp only [pay11_apply, pay12_apply, pay13_apply, pay14_apply]
    rfl
  simp only [htn, pay4_apply, pay7_eq, pay8_eq]

end Cert.KernelIdeal.Reg2

end
-- ==== Proof.Reg2ValuePre.lean ====
/-
  The second head's region: the array before normalisation after the last grid point.

  Point `t` writes rows `8192 t … 8192 t + 8191`; row `n` of the array is the three-pass head of the specification
  on row `n` of the previous head's array, normalised with the previous column minimum and maximum, and row `n` of
  this head's 64 aggregate columns (columns 64 … 127 of the 256 stacked ones).
-/
import proofs.«100906_j73718818669321_2_alg».proof.Proof.Reg2ValueBlk
import proofs.«100906_j73718818669321_2_alg».proof.Proof.Reg2ValuePay

set_option maxRecDepth 16384

noncomputable section
namespace Cert.KernelIdeal.Reg2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open Cert.KernelIdeal.Gen

-- the buffers' contents when the region is entered, at exact extended-real values
variable (V : (c : Dev nD) → (b : Ref sig .tc) → Buf (Elt Ideal) ((c : Thread nD τ).loc b))

/-! ## The array before normalisation -/

/-- Row `n`, column `cc` of the array before normalisation, from the arrays the region finds. -/
def preRow (c : Dev nD) (n : Fin 32768) (cc : Fin 128) : EReal :=
  Cert.Spec.headPre3 (fun k j => V c (Pipeline.arrRef spec2 2) (ix2 k j)) (fun j => V c (Pipeline.arrRef spec2 3) (ix2 (0 : Fin 1) j)) (fun j => V c (Pipeline.arrRef spec2 4) (ix2 (0 : Fin 1) j)) (V c (Pipeline.arrRef spec2 5) (ix2 (0 : Fin 1) (0 : Fin 1)))
    (fun j cc => V c (Pipeline.arrRef spec2 6) (ix2 j cc)) (fun cc => V c (Pipeline.arrRef spec2 7) (ix2 (0 : Fin 1) cc))
    (fun k => Cert.Spec.norm (V c (Pipeline.arrRef spec2 0) (ix2 n k)) (V c (Pipeline.arrRef spec2 8) (ix2 (0 : Fin 1) k)) (V c (Pipeline.arrRef spec2 9) (ix2 (0 : Fin 1) k)))
    (fun j => V c (Pipeline.arrRef spec2 1) (ix2 n (Cert.Spec.col 1 j))) cc

/-- The whole array. -/
def Gpre (c : Dev nD) : S32768x128.Idx → EReal := fun i => preRow V c (i 0) (i 1)

/-- Column `64 + j` of the 256 stacked aggregate columns is this head's column `j`. -/
theorem col_eq' (j : Fin 64) (h : 64 + j.val < 256) : (⟨64 + j.val, h⟩ : Fin 256) = Cert.Spec.col 1 j :=
  Fin.ext (by show 64 + j.val = 64 * 1 + j.val; omega)
theorem col_eq (j : Fin 64) (h1 : 64 + j.val < 128) (h2 : (⟨64 + j.val, h1⟩ : Fin 128).val < 256) :
    (⟨(⟨64 + j.val, h1⟩ : Fin 128).val, h2⟩ : Fin 256) = Cert.Spec.col 1 j :=
  Fin.ext (by show 64 + j.val = 64 * 1 + j.val; omega)

/-- Point `t`'s rows are rows `8192 t + p` of it. -/
theorem preAt_apply (c : Dev nD) (t : Fin cfg2.N) (p : Fin 8192) (q : Fin 128) :
    preAt V c t (ix2 p q) = preRow V c (⟨t.val * 8192 + p.val, by have hN : t.val < 4 := lt_of_lt_of_eq t.isLt (show cfg2.N = 4 from N_2); have := p.isLt; omega⟩ : Fin 32768) q := by
  show preOf (iblk V c 0 t) (iblk V c 1 t) (iblk V c 2 t) (iblk V c 3 t) (iblk V c 4 t) (iblk V c 5 t) (iblk V c 6 t) (iblk V c 7 t) (iblk V c 8 t) (iblk V c 9 t) (ix2 p q) = _
  refine (preOf_apply (iblk V c 0 t) (iblk V c 1 t) (iblk V c 2 t) (iblk V c 3 t) (iblk V c 4 t) (iblk V c 5 t) (iblk V c 6 t) (iblk V c 7 t) (iblk V c 8 t) (iblk V c 9 t) p q).trans ?_
  unfold preRow
  simp only [iblk0_apply V c t, iblk1_apply V c t, iblk2_apply V c t, iblk3_apply V c t, iblk4_apply V c t, iblk5_apply V c t, iblk6_apply V c t, iblk7_apply V c t, iblk8_apply V c t, iblk9_apply V c t, col_eq, col_eq']

theorem flushed10_eq (c : Dev nD) (t : Fin cfg2.N) :
    (dat V c).flushed 10 t = ((cfg2.win 10).blk t).view.read (Elt Ideal) (Gpre V c) := by
  show (cfg2.win 10).cut (grid2.coords t) ((dat V c).after 10 t) = _
  rw [after10]
  funext j
  obtain ⟨p, q, rfl⟩ : ∃ (p : Fin 8192) (q : Fin 128), j = ix2 p q := ⟨j 0, j 1, eq_ix2 j⟩
  show preAt V c t (ix2 p q) = Gpre V c (((cfg2.win 10).blk t).view.emb (ix2 p q))
  have hemb : ((cfg2.win 10).blk t).view.emb (ix2 p q) = ix2 (⟨t.val * 8192 + p.val, by have hN : t.val < 4 := lt_of_lt_of_eq t.isLt (show cfg2.N = 4 from N_2); have := p.isLt; omega⟩ : Fin 32768) q := funext fun a => Fin.ext (by
    obtain ⟨e0, e1⟩ := idx10 t
    match a with
    | ⟨0, _⟩ =>
      show win2_10.index t (0 : Fin 2) * 8192 + 1 * p.val = t.val * 8192 + p.val
      rw [e0]; omega
    | ⟨1, _⟩ =>
      show win2_10.index t (1 : Fin 2) * 128 + 1 * q.val = q.val
      rw [e1]; omega)
  rw [hemb]
  exact preAt_apply V c t p q

theorem mem_blk10 (t : Fin cfg2.N) (i : S32768x128.Idx) :
    i ∈ ((cfg2.win 10).blk t).view.set ↔ ∀ a : Fin 2, win2_10.index t a * S8192x128.size a ≤ (i a).val ∧ (i a).val < win2_10.index t a * S8192x128.size a + S8192x128.size a := by
  show i ∈ ((View.whole main_v45_0).slice (win2_10.rect t)).set ↔ _
  rw [View.set_slice_whole, Rect.mem_set_unit]
  exact Iff.rfl

theorem cover10 (i : S32768x128.Idx) : ∃ t : Fin cfg2.N, (cfg2.win 10).flush t = true ∧ i ∈ ((cfg2.win 10).blk t).view.set := by
  have hi0 : (i 0).val < 32768 := (i 0).isLt
  have hi1 : (i 1).val < 128 := (i 1).isLt
  have ht : (i 0).val / 8192 < cfg2.N := by rw [show cfg2.N = 4 from N_2]; omega
  refine ⟨⟨(i 0).val / 8192, ht⟩, flush2_10 _, ?_⟩
  rw [mem_blk10]
  obtain ⟨e0, e1⟩ := idx10 ⟨(i 0).val / 8192, ht⟩
  intro a
  match a with
  | ⟨0, _⟩ =>
    show win2_10.index ⟨(i 0).val / 8192, ht⟩ (0 : Fin 2) * 8192 ≤ (i 0).val ∧ (i 0).val < win2_10.index ⟨(i 0).val / 8192, ht⟩ (0 : Fin 2) * 8192 + 8192
    rw [e0]
    show (i 0).val / 8192 * 8192 ≤ (i 0).val ∧ (i 0).val < (i 0).val / 8192 * 8192 + 8192
    omega
  | ⟨1, _⟩ =>
    show win2_10.index ⟨(i 0).val / 8192, ht⟩ (1 : Fin 2) * 128 ≤ (i 1).val ∧ (i 1).val < win2_10.index ⟨(i 0).val / 8192, ht⟩ (1 : Fin 2) * 128 + 128
    rw [e1]
    omega

/-- The array before normalisation after the region. -/
theorem arr10_eq (c : Dev nD) : (dat V c).arrAt 10 cfg2.N = Gpre V c :=
  (dat V c).arrAt_eq_of_cover 10 (Gpre V c) (fun t _ => flushed10_eq V c t) (cover10)

theorem value_pre (c : Dev nD) (n : Fin 32768) (cc : Fin 128) :
    ((dat V c).arrAt 10 cfg2.N) (ix2 n cc)
      = Cert.Spec.headPre3 (fun k j => V c (Pipeline.arrRef spec2 2) (ix2 k j)) (fun j => V c (Pipeline.arrRef spec2 3) (ix2 (0 : Fin 1) j)) (fun j => V c (Pipeline.arrRef spec2 4) (ix2 (0 : Fin 1) j)) (V c (Pipeline.arrRef spec2 5) (ix2 (0 : Fin 1) (0 : Fin 1)))
          (fun j cc => V c (Pipeline.arrRef spec2 6) (ix2 j cc)) (fun cc => V c (Pipeline.arrRef spec2 7) (ix2 (0 : Fin 1) cc))
          (fun k => Cert.Spec.norm (V c (Pipeline.arrRef spec2 0) (ix2 n k)) (V c (Pipeline.arrRef spec2 8) (ix2 (0 : Fin 1) k)) (V c (Pipeline.arrRef spec2 9) (ix2 (0 : Fin 1) k)))
          (fun j => V c (Pipeline.arrRef spec2 1) (ix2 n (Cert.Spec.col 1 j))) cc := by
  rw [arr10_eq]
  rfl

end Cert.KernelIdeal.Reg2

end
-- ==== Proof.Reg2Value.lean ====
/-
  The second head's region: the column minimum and maximum after the last grid point.

  The running column minimum and maximum, combined over the four points, are the infimum and the supremum of the
  column over all 32768 rows: an infimum over the rows splits over the four row ranges of 8192.
-/
import proofs.«100906_j73718818669321_2_alg».proof.Proof.Reg2ValuePre

set_option maxRecDepth 16384

noncomputable section
namespace Cert.KernelIdeal.Reg2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open Cert.KernelIdeal.Gen

-- the buffers' contents when the region is entered, at exact extended-real values
variable (V : (c : Dev nD) → (b : Ref sig .tc) → Buf (Elt Ideal) ((c : Thread nD τ).loc b))

/-! ## The three output arrays after the region, entry by entry -/

/-- Row `n`, column `cc` of window 10's array after the last point (the array read at `ix2 n cc`, by definition). -/
def outPre (c : Dev nD) (n : Fin 32768) (cc : Fin 128) : EReal := ((dat V c).arrAt 10 cfg2.N) (ix2 n cc)
/-- Column `cc` of window 11's array after the last point (read at `ix2 0 cc`). -/
def outMn (c : Dev nD) (cc : Fin 128) : EReal := ((dat V c).arrAt 11 cfg2.N) (ix2 (0 : Fin 1) cc)
/-- Column `cc` of window 12's array after the last point (read at `ix2 0 cc`). -/
def outMx (c : Dev nD) (cc : Fin 128) : EReal := ((dat V c).arrAt 12 cfg2.N) (ix2 (0 : Fin 1) cc)

theorem outPre_eq (c : Dev nD) (n : Fin 32768) (cc : Fin 128) : outPre V c n cc = preRow V c n cc :=
  congrFun (arr10_eq V c) (ix2 n cc)

/-! ## The column minimum -/

theorem ofBits_minNeutral : Ideal.ofBits .f32 0x7F800000#32 = ⊤ := by simp [Ideal.ofBits, Ideal.ieee]

theorem fold_min_eq {ι : Type} [Fintype ι] [DecidableEq ι] (f : ι → EReal) : (Finset.univ : Finset ι).fold min ⊤ f = ⨅ i, f i := by
  rw [← Finset.inf_univ_eq_iInf]
  have h : ∀ s : Finset ι, s.fold min ⊤ f = s.inf f := fun s => by
    induction s using Finset.induction_on with
    | empty => simp
    | insert a s ha ih => rw [Finset.fold_insert ha, Finset.inf_insert, ih]
  exact h _

/-- A column's minimum over a block's 8192 rows. -/
theorem colMin_apply (v : FVec Ideal S8192x128 .f32) (h : S8192x128.Reduces [0] S128) (hφ : FKind.Formats .f32)
    (hacc : (0x7F800000#32 : BitVec 32) = FKind.minimumf.neutral .f32 hφ) (q : Fin 128) :
    multiReduction .minimumf [0] S128 v 0x7F800000#32 h hφ hacc (ix1 q) = ⨅ r : Fin 8192, v (ix2 r q) := by
  refine (multiReduction_minimumf_eq_fold v _ h hφ hacc (ix1 q)).trans ?_
  refine (h.fold_filter_drop_single _ _ v (ix1 q)).trans ?_
  show (Finset.univ : Finset (Fin 8192)).fold min (Ideal.ofBits .f32 0x7F800000#32) (fun r => v (h.lift (ix1 q) r)) = _
  rw [ofBits_minNeutral]
  refine (fold_min_eq (ι := Fin 8192) (fun r => v (h.lift (ix1 q) r))).trans ?_
  refine iInf_congr fun r => congrArg v (funext fun a => Fin.ext (by
    match a with
    | ⟨0, _⟩ => rfl
    | ⟨1, _⟩ => rfl))

/-- The same with the leading unit axis put back. -/
theorem colMin_row_apply (v : FVec Ideal S8192x128 .f32) (h : S8192x128.Reduces [0] S128) (hφ : FKind.Formats .f32)
    (hacc : (0x7F800000#32 : BitVec 32) = FKind.minimumf.neutral .f32 hφ) (hc : S128.ShapeCasts S1x128) (q : Fin 128) :
    shapeCast S1x128 (multiReduction .minimumf [0] S128 v 0x7F800000#32 h hφ hacc) hc (ix2 (0 : Fin 1) q) = ⨅ r : Fin 8192, v (ix2 r q) :=
  (shapeCast_a_1a_apply _ hc (0 : Fin 1) q).trans (colMin_apply v h hφ hacc q)

/-- A later point's update: the carried value combined with the block's own. -/
theorem pay1_apply (v75 : FVec Ideal S8192x128 .f32) (v86 : Vec Ideal S1x128 .f32) (q : Fin 128) :
    k2_pay1 v75 v86 (ix2 (0 : Fin 1) q) = min (v86 (ix2 (0 : Fin 1) q)) (⨅ r : Fin 8192, v75 (ix2 r q)) := by
  have e : k2_pay1 v75 v86 = minimumf v86 (shapeCast S1x128 (multiReduction .minimumf [0] S128 v75 0x7F800000#32 reduces_S8192x128_S128 (.inl rfl) rfl) shapeCasts_S128_S1x128) :=
    shapeCast_self _ _
  rw [e]
  exact congrArg (min (v86 (ix2 (0 : Fin 1) q))) (colMin_row_apply v75 _ _ _ _ q)

/-- The first point's value: the block's own. -/
theorem pay16_apply (v17 : FVec Ideal S8192x64 .f32) (v21 v23 : FVec Ideal S1x64 .f32) (v25 : FVec Ideal S1x1 .f32) (v27 : FVec Ideal S64x128 .f32) (v29 : FVec Ideal S1x128 .f32) (v30 v33 : FVec Ideal S8192x128 .bf16) (v34 : FVec Ideal S128x64 .bf16) (v36 : FVec Ideal S128x64 .f32) (q : Fin 128) :
    k2_pay16 v17 v21 v23 v25 v27 v29 v30 v33 v34 v36 (ix2 (0 : Fin 1) q) = ⨅ r : Fin 8192, k2_pay15 v17 v21 v23 v25 v27 v29 v30 v33 v34 v36 (ix2 r q) := by
  have e : k2_pay16 v17 v21 v23 v25 v27 v29 v30 v33 v34 v36 = shapeCast S1x128 (multiReduction .minimumf [0] S128 (k2_pay15 v17 v21 v23 v25 v27 v29 v30 v33 v34 v36) 0x7F800000#32 reduces_S8192x128_S128 (.inl rfl) rfl) shapeCasts_S128_S1x128 :=
    shapeCast_self _ _
  rw [e]
  exact colMin_row_apply (k2_pay15 v17 v21 v23 v25 v27 v29 v30 v33 v34 v36) _ _ _ _ q

theorem minInitAt_apply (c : Dev nD) (t : Fin cfg2.N) (q : Fin 128) :
    minInitAt V c t (ix2 (0 : Fin 1) q) = ⨅ r : Fin 8192, preAt V c t (ix2 r q) :=
  pay16_apply (k2_pay4 (iblk V c 1 t)) (k2_pay6 (iblk V c 3 t)) (k2_pay7 (iblk V c 4 t)) (k2_pay8 (iblk V c 5 t)) (k2_pay9 (iblk V c 6 t)) (k2_pay10 (iblk V c 7 t)) (k2_pay11 (iblk V c 0 t) (iblk V c 8 t) (iblk V c 9 t)) (k2_pay12 (iblk V c 0 t) (iblk V c 8 t) (iblk V c 9 t)) (k2_pay13 (iblk V c 2 t)) (k2_pay14 (iblk V c 2 t)) q

/-- An infimum over the 32768 rows splits over the four row ranges. -/
theorem iInf_rows (f : Fin 32768 → EReal) (I0 I1 I2 I3 : EReal)
    (h0 : I0 = ⨅ r : Fin 8192, f ⟨0 * 8192 + r.val, by have := r.isLt; omega⟩)
    (h1 : I1 = ⨅ r : Fin 8192, f ⟨1 * 8192 + r.val, by have := r.isLt; omega⟩)
    (h2 : I2 = ⨅ r : Fin 8192, f ⟨2 * 8192 + r.val, by have := r.isLt; omega⟩)
    (h3 : I3 = ⨅ r : Fin 8192, f ⟨3 * 8192 + r.val, by have := r.isLt; omega⟩) :
    min (min (min I0 I1) I2) I3 = ⨅ n, f n := by
  have key0 : ∀ n : Fin 32768, n.val / 8192 = 0 → I0 ≤ f n := fun n hn => by
    rw [h0]
    refine le_trans (iInf_le _ (⟨n.val % 8192, Nat.mod_lt _ (by decide)⟩ : Fin 8192)) (le_of_eq (congrArg f (Fin.ext ?_)))
    show 0 * 8192 + n.val % 8192 = n.val
    omega
  have key1 : ∀ n : Fin 32768, n.val / 8192 = 1 → I1 ≤ f n := fun n hn => by
    rw [h1]
    refine le_trans (iInf_le _ (⟨n.val % 8192, Nat.mod_lt _ (by decide)⟩ : Fin 8192)) (le_of_eq (congrArg f (Fin.ext ?_)))
    show 1 * 8192 + n.val % 8192 = n.val
    omega
  have key2 : ∀ n : Fin 32768, n.val / 8192 = 2 → I2 ≤ f n := fun n hn => by
    rw [h2]
    refine le_trans (iInf_le _ (⟨n.val % 8192, Nat.mod_lt _ (by decide)⟩ : Fin 8192)) (le_of_eq (congrArg f (Fin.ext ?_)))
    show 2 * 8192 + n.val % 8192 = n.val
    omega
  have key3 : ∀ n : Fin 32768, n.val / 8192 = 3 → I3 ≤ f n := fun n hn => by
    rw [h3]
    refine le_trans (iInf_le _ (⟨n.val % 8192, Nat.mod_lt _ (by decide)⟩ : Fin 8192)) (le_of_eq (congrArg f (Fin.ext ?_)))
    show 3 * 8192 + n.val % 8192 = n.val
    omega
  apply le_antisymm
  · refine le_iInf fun n => ?_
    have hn := n.isLt
    rcases (show n.val / 8192 = 0 ∨ n.val / 8192 = 1 ∨ n.val / 8192 = 2 ∨ n.val / 8192 = 3 by omega) with h | h | h | h
    · exact le_trans (le_trans (min_le_left _ _) (le_trans (min_le_left _ _) (min_le_left _ _))) (key0 n h)
    · exact le_trans (le_trans (min_le_left _ _) (le_trans (min_le_left _ _) (min_le_right _ _))) (key1 n h)
    · exact le_trans (le_trans (min_le_left _ _) (min_le_right _ _)) (key2 n h)
    · exact le_trans (min_le_right _ _) (key3 n h)
  · refine le_min (le_min (le_min ?_ ?_) ?_) ?_
    · rw [h0]; exact le_iInf fun r => iInf_le _ _
    · rw [h1]; exact le_iInf fun r => iInf_le _ _
    · rw [h2]; exact le_iInf fun r => iInf_le _ _
    · rw [h3]; exact le_iInf fun r => iInf_le _ _

/-- The recursion of the carried value, one point at a time. -/
theorem sminAt_succ (c : Dev nD) (n : ℕ) (hn : n + 1 < cfg2.N) :
    sminAt V c (n + 1) hn = k2_pay1 (preAt V c ⟨n + 1, hn⟩) (sminAt V c n (Nat.lt_of_succ_lt hn)) := rfl
theorem sminAt_first (c : Dev nD) (h0 : 0 < cfg2.N) : sminAt V c 0 h0 = minInitAt V c ⟨0, h0⟩ := rfl

/-- After the last point the carried value is the column's infimum over all rows. -/
theorem sminAt_last (c : Dev nD) (t : Fin cfg2.N) (ht : t.val = 3) (q : Fin 128) :
    sminAt V c t.val t.isLt (ix2 (0 : Fin 1) q) = ⨅ n : Fin 32768, preRow V c n q := by
  obtain ⟨tv, htv⟩ := t
  obtain rfl : tv = 3 := ht
  have h2 : 2 < cfg2.N := Nat.lt_of_succ_lt htv
  have h1 : 1 < cfg2.N := Nat.lt_of_succ_lt h2
  have h0 : 0 < cfg2.N := Nat.lt_of_succ_lt h1
  have hI : ∀ (s : ℕ) (hs : s < cfg2.N) (hs4 : s < 4), (⨅ r : Fin 8192, preAt V c ⟨s, hs⟩ (ix2 r q))
      = ⨅ r : Fin 8192, (fun n => preRow V c n q) ⟨s * 8192 + r.val, by have := r.isLt; omega⟩ :=
    fun s hs hs4 => iInf_congr fun r => by
      refine (preAt_apply V c ⟨s, hs⟩ r q).trans ?_
      rfl
  show sminAt V c (2 + 1) htv (ix2 (0 : Fin 1) q) = _
  rw [sminAt_succ V c 2 htv, pay1_apply]
  show min (sminAt V c (1 + 1) h2 (ix2 (0 : Fin 1) q)) _ = _
  rw [sminAt_succ V c 1 h2, pay1_apply]
  show min (min (sminAt V c (0 + 1) h1 (ix2 (0 : Fin 1) q)) _) _ = _
  rw [sminAt_succ V c 0 h1, pay1_apply, sminAt_first V c h0, minInitAt_apply]
  exact iInf_rows (fun n => preRow V c n q) _ _ _ _ (hI 0 h0 (by omega)) (hI 1 h1 (by omega)) (hI 2 h2 (by omega)) (hI 3 htv (by omega))

/-- The column minimum array. -/
def Gmn (c : Dev nD) : S1x128.Idx → EReal := fun i => ⨅ n : Fin 32768, preRow V c n (i 1)

theorem flushed11_eq (c : Dev nD) (t : Fin cfg2.N) (hf : (cfg2.win 11).flush t = true) :
    (dat V c).flushed 11 t = ((cfg2.win 11).blk t).view.read (Elt Ideal) (Gmn V c) := by
  have ht : t.val = 3 := by
    have h3 := (flush2_11 t).mp hf
    have hN : t.val < 4 := lt_of_lt_of_eq t.isLt (show cfg2.N = 4 from N_2)
    omega
  show (cfg2.win 11).cut (grid2.coords t) ((dat V c).after 11 t) = _
  rw [after11]
  funext j
  obtain ⟨u, q, rfl⟩ : ∃ (u : Fin 1) (q : Fin 128), j = ix2 u q := ⟨j 0, j 1, eq_ix2 j⟩
  obtain rfl : u = 0 := Subsingleton.elim _ _
  show sminAt V c t.val t.isLt (ix2 (0 : Fin 1) q) = Gmn V c (((cfg2.win 11).blk t).view.emb (ix2 (0 : Fin 1) q))
  have hemb : ((cfg2.win 11).blk t).view.emb (ix2 (0 : Fin 1) q) = ix2 (0 : Fin 1) q := funext fun a => Fin.ext (by
    obtain ⟨e0, e1⟩ := idx11 t
    match a with
    | ⟨0, _⟩ =>
      show win2_11.index t (0 : Fin 2) * 1 + 1 * 0 = 0
      rw [e0]
    | ⟨1, _⟩ =>
      show win2_11.index t (1 : Fin 2) * 128 + 1 * q.val = q.val
      rw [e1]; omega)
  rw [hemb]
  exact sminAt_last V c t ht q

theorem mem_blk11 (t : Fin cfg2.N) (i : S1x128.Idx) :
    i ∈ ((cfg2.win 11).blk t).view.set ↔ ∀ a : Fin 2, win2_11.index t a * S1x128.size a ≤ (i a).val ∧ (i a).val < win2_11.index t a * S1x128.size a + S1x128.size a := by
  show i ∈ ((View.whole main_v45_1).slice (win2_11.rect t)).set ↔ _
  rw [View.set_slice_whole, Rect.mem_set_unit]
  exact Iff.rfl

theorem cover11 (i : S1x128.Idx) : ∃ t : Fin cfg2.N, (cfg2.win 11).flush t = true ∧ i ∈ ((cfg2.win 11).blk t).view.set := by
  have hi0 : (i 0).val < 1 := (i 0).isLt
  have hi1 : (i 1).val < 128 := (i 1).isLt
  have ht : 3 < cfg2.N := by rw [show cfg2.N = 4 from N_2]; omega
  refine ⟨⟨3, ht⟩, (flush2_11 _).mpr rfl, ?_⟩
  rw [mem_blk11]
  obtain ⟨e0, e1⟩ := idx11 ⟨3, ht⟩
  intro a
  match a with
  | ⟨0, _⟩ =>
    show win2_11.index ⟨3, ht⟩ (0 : Fin 2) * 1 ≤ (i 0).val ∧ (i 0).val < win2_11.index ⟨3, ht⟩ (0 : Fin 2) * 1 + 1
    rw [e0]; omega
  | ⟨1, _⟩ =>
    show win2_11.index ⟨3, ht⟩ (1 : Fin 2) * 128 ≤ (i 1).val ∧ (i 1).val < win2_11.index ⟨3, ht⟩ (1 : Fin 2) * 128 + 128
    rw [e1]; omega

theorem arr11_eq (c : Dev nD) : (dat V c).arrAt 11 cfg2.N = Gmn V c :=
  (dat V c).arrAt_eq_of_cover 11 (Gmn V c) (fun t hf => flushed11_eq V c t hf) (cover11)

/-- The column minimum the region leaves is the infimum, over all rows, of the array it leaves in window 10. -/
theorem value_mn (c : Dev nD) (cc : Fin 128) :
    outMn V c cc = ⨅ n : Fin 32768, outPre V c n cc := by
  have h11 : outMn V c cc = ⨅ n : Fin 32768, preRow V c n cc := congrFun (arr11_eq V c) (ix2 (0 : Fin 1) cc)
  rw [h11]
  exact iInf_congr fun n => (outPre_eq V c n cc).symm

/-! ## The column maximum -/

theorem ofBits_maxNeutral : Ideal.ofBits .f32 0xFF800000#32 = ⊥ := by simp [Ideal.ofBits, Ideal.ieee]

theorem fold_max_eq {ι : Type} [Fintype ι] [DecidableEq ι] (f : ι → EReal) : (Finset.univ : Finset ι).fold max ⊥ f = ⨆ i, f i := by
  rw [← Finset.sup_univ_eq_iSup]
  have h : ∀ s : Finset ι, s.fold max ⊥ f = s.sup f := fun s => by
    induction s using Finset.induction_on with
    | empty => simp
    | insert a s ha ih => rw [Finset.fold_insert ha, Finset.sup_insert, ih]
  exact h _

/-- A column's maximum over a block's 8192 rows. -/
theorem colMax_apply (v : FVec Ideal S8192x128 .f32) (h : S8192x128.Reduces [0] S128) (hφ : FKind.Formats .f32)
    (hacc : (0xFF800000#32 : BitVec 32) = FKind.maximumf.neutral .f32 hφ) (q : Fin 128) :
    multiReduction .maximumf [0] S128 v 0xFF800000#32 h hφ hacc (ix1 q) = ⨆ r : Fin 8192, v (ix2 r q) := by
  refine (multiReduction_maximumf_eq_fold v _ h hφ hacc (ix1 q)).trans ?_
  refine (h.fold_filter_drop_single _ _ v (ix1 q)).trans ?_
  show (Finset.univ : Finset (Fin 8192)).fold max (Ideal.ofBits .f32 0xFF800000#32) (fun r => v (h.lift (ix1 q) r)) = _
  rw [ofBits_maxNeutral]
  refine (fold_max_eq (ι := Fin 8192) (fun r => v (h.lift (ix1 q) r))).trans ?_
  refine iSup_congr fun r => congrArg v (funext fun a => Fin.ext (by
    match a with
    | ⟨0, _⟩ => rfl
    | ⟨1, _⟩ => rfl))

/-- The same with the leading unit axis put back. -/
theorem colMax_row_apply (v : FVec Ideal S8192x128 .f32) (h : S8192x128.Reduces [0] S128) (hφ : FKind.Formats .f32)
    (hacc : (0xFF800000#32 : BitVec 32) = FKind.maximumf.neutral .f32 hφ) (hc : S128.ShapeCasts S1x128) (q : Fin 128) :
    shapeCast S1x128 (multiReduction .maximumf [0] S128 v 0xFF800000#32 h hφ hacc) hc (ix2 (0 : Fin 1) q) = ⨆ r : Fin 8192, v (ix2 r q) :=
  (shapeCast_a_1a_apply _ hc (0 : Fin 1) q).trans (colMax_apply v h hφ hacc q)

/-- A later point's update: the carried value combined with the block's own. -/
theorem pay2_apply (v75 : FVec Ideal S8192x128 .f32) (v86 : Vec Ideal S1x128 .f32) (q : Fin 128) :
    k2_pay2 v75 v86 (ix2 (0 : Fin 1) q) = max (v86 (ix2 (0 : Fin 1) q)) (⨆ r : Fin 8192, v75 (ix2 r q)) := by
  have e : k2_pay2 v75 v86 = maximumf v86 (shapeCast S1x128 (multiReduction .maximumf [0] S128 v75 0xFF800000#32 reduces_S8192x128_S128 (.inl rfl) rfl) shapeCasts_S128_S1x128) :=
    shapeCast_self _ _
  rw [e]
  exact congrArg (max (v86 (ix2 (0 : Fin 1) q))) (colMax_row_apply v75 _ _ _ _ q)

/-- The first point's value: the block's own. -/
theorem pay17_apply (v17 : FVec Ideal S8192x64 .f32) (v21 v23 : FVec Ideal S1x64 .f32) (v25 : FVec Ideal S1x1 .f32) (v27 : FVec Ideal S64x128 .f32) (v29 : FVec Ideal S1x128 .f32) (v30 v33 : FVec Ideal S8192x128 .bf16) (v34 : FVec Ideal S128x64 .bf16) (v36 : FVec Ideal S128x64 .f32) (q : Fin 128) :
    k2_pay17 v17 v21 v23 v25 v27 v29 v30 v33 v34 v36 (ix2 (0 : Fin 1) q) = ⨆ r : Fin 8192, k2_pay15 v17 v21 v23 v25 v27 v29 v30 v33 v34 v36 (ix2 r q) := by
  have e : k2_pay17 v17 v21 v23 v25 v27 v29 v30 v33 v34 v36 = shapeCast S1x128 (multiReduction .maximumf [0] S128 (k2_pay15 v17 v21 v23 v25 v27 v29 v30 v33 v34 v36) 0xFF800000#32 reduces_S8192x128_S128 (.inl rfl) rfl) shapeCasts_S128_S1x128 :=
    shapeCast_self _ _
  rw [e]
  exact colMax_row_apply (k2_pay15 v17 v21 v23 v25 v27 v29 v30 v33 v34 v36) _ _ _ _ q

theorem maxInitAt_apply (c : Dev nD) (t : Fin cfg2.N) (q : Fin 128) :
    maxInitAt V c t (ix2 (0 : Fin 1) q) = ⨆ r : Fin 8192, preAt V c t (ix2 r q) :=
  pay17_apply (k2_pay4 (iblk V c 1 t)) (k2_pay6 (iblk V c 3 t)) (k2_pay7 (iblk V c 4 t)) (k2_pay8 (iblk V c 5 t)) (k2_pay9 (iblk V c 6 t)) (k2_pay10 (iblk V c 7 t)) (k2_pay11 (iblk V c 0 t) (iblk V c 8 t) (iblk V c 9 t)) (k2_pay12 (iblk V c 0 t) (iblk V c 8 t) (iblk V c 9 t)) (k2_pay13 (iblk V c 2 t)) (k2_pay14 (iblk V c 2 t)) q

/-- A supremum over the 32768 rows splits over the four row ranges. -/
theorem iSup_rows (f : Fin 32768 → EReal) (I0 I1 I2 I3 : EReal)
    (h0 : I0 = ⨆ r : Fin 8192, f ⟨0 * 8192 + r.val, by have := r.isLt; omega⟩)
    (h1 : I1 = ⨆ r : Fin 8192, f ⟨1 * 8192 + r.val, by have := r.isLt; omega⟩)
    (h2 : I2 = ⨆ r : Fin 8192, f ⟨2 * 8192 + r.val, by have := r.isLt; omega⟩)
    (h3 : I3 = ⨆ r : Fin 8192, f ⟨3 * 8192 + r.val, by have := r.isLt; omega⟩) :
    max (max (max I0 I1) I2) I3 = ⨆ n, f n := by
  have key0 : ∀ n : Fin 32768, n.val / 8192 = 0 → f n ≤ I0 := fun n hn => by
    rw [h0]
    refine le_trans (le_of_eq (congrArg f (Fin.ext ?_))) (le_iSup (fun r : Fin 8192 => f ⟨0 * 8192 + r.val, by have := r.isLt; omega⟩) (⟨n.val % 8192, Nat.mod_lt _ (by decide)⟩ : Fin 8192))
    show n.val = 0 * 8192 + n.val % 8192
    omega
  have key1 : ∀ n : Fin 32768, n.val / 8192 = 1 → f n ≤ I1 := fun n hn => by
    rw [h1]
    refine le_trans (le_of_eq (congrArg f (Fin.ext ?_))) (le_iSup (fun r : Fin 8192 => f ⟨1 * 8192 + r.val, by have := r.isLt; omega⟩) (⟨n.val % 8192, Nat.mod_lt _ (by decide)⟩ : Fin 8192))
    show n.val = 1 * 8192 + n.val % 8192
    omega
  have key2 : ∀ n : Fin 32768, n.val / 8192 = 2 → f n ≤ I2 := fun n hn => by
    rw [h2]
    refine le_trans (le_of_eq (congrArg f (Fin.ext ?_))) (le_iSup (fun r : Fin 8192 => f ⟨2 * 8192 + r.val, by have := r.isLt; omega⟩) (⟨n.val % 8192, Nat.mod_lt _ (by decide)⟩ : Fin 8192))
    show n.val = 2 * 8192 + n.val % 8192
    omega
  have key3 : ∀ n : Fin 32768, n.val / 8192 = 3 → f n ≤ I3 := fun n hn => by
    rw [h3]
    refine le_trans (le_of_eq (congrArg f (Fin.ext ?_))) (le_iSup (fun r : Fin 8192 => f ⟨3 * 8192 + r.val, by have := r.isLt; omega⟩) (⟨n.val % 8192, Nat.mod_lt _ (by decide)⟩ : Fin 8192))
    show n.val = 3 * 8192 + n.val % 8192
    omega
  apply le_antisymm
  · refine max_le (max_le (max_le ?_ ?_) ?_) ?_
    · rw [h0]; exact iSup_le fun r => le_iSup _ _
    · rw [h1]; exact iSup_le fun r => le_iSup _ _
    · rw [h2]; exact iSup_le fun r => le_iSup _ _
    · rw [h3]; exact iSup_le fun r => le_iSup _ _
  · refine iSup_le fun n => ?_
    have hn := n.isLt
    rcases (show n.val / 8192 = 0 ∨ n.val / 8192 = 1 ∨ n.val / 8192 = 2 ∨ n.val / 8192 = 3 by omega) with h | h | h | h
    · exact le_trans (key0 n h) (le_trans (le_trans (le_max_left _ _) (le_max_left _ _)) (le_max_left _ _))
    · exact le_trans (key1 n h) (le_trans (le_trans (le_max_right _ _) (le_max_left _ _)) (le_max_left _ _))
    · exact le_trans (key2 n h) (le_trans (le_max_right _ _) (le_max_left _ _))
    · exact le_trans (key3 n h) (le_max_right _ _)

/-- The recursion of the carried value, one point at a time. -/
theorem smaxAt_succ (c : Dev nD) (n : ℕ) (hn : n + 1 < cfg2.N) :
    smaxAt V c (n + 1) hn = k2_pay2 (preAt V c ⟨n + 1, hn⟩) (smaxAt V c n (Nat.lt_of_succ_lt hn)) := rfl
theorem smaxAt_first (c : Dev nD) (h0 : 0 < cfg2.N) : smaxAt V c 0 h0 = maxInitAt V c ⟨0, h0⟩ := rfl

/-- After the last point the carried value is the column's supremum over all rows. -/
theorem smaxAt_last (c : Dev nD) (t : Fin cfg2.N) (ht : t.val = 3) (q : Fin 128) :
    smaxAt V c t.val t.isLt (ix2 (0 : Fin 1) q) = ⨆ n : Fin 32768, preRow V c n q := by
  obtain ⟨tv, htv⟩ := t
  obtain rfl : tv = 3 := ht
  have h2 : 2 < cfg2.N := Nat.lt_of_succ_lt htv
  have h1 : 1 < cfg2.N := Nat.lt_of_succ_lt h2
  have h0 : 0 < cfg2.N := Nat.lt_of_succ_lt h1
  have hI : ∀ (s : ℕ) (hs : s < cfg2.N) (hs4 : s < 4), (⨆ r : Fin 8192, preAt V c ⟨s, hs⟩ (ix2 r q))
      = ⨆ r : Fin 8192, (fun n => preRow V c n q) ⟨s * 8192 + r.val, by have := r.isLt; omega⟩ :=
    fun s hs hs4 => iSup_congr fun r => by
      refine (preAt_apply V c ⟨s, hs⟩ r q).trans ?_
      rfl
  show smaxAt V c (2 + 1) htv (ix2 (0 : Fin 1) q) = _
  rw [smaxAt_succ V c 2 htv, pay2_apply]
  show max (smaxAt V c (1 + 1) h2 (ix2 (0 : Fin 1) q)) _ = _
  rw [smaxAt_succ V c 1 h2, pay2_apply]
  show max (max (smaxAt V c (0 + 1) h1 (ix2 (0 : Fin 1) q)) _) _ = _
  rw [smaxAt_succ V c 0 h1, pay2_apply, smaxAt_first V c h0, maxInitAt_apply]
  exact iSup_rows (fun n => preRow V c n q) _ _ _ _ (hI 0 h0 (by omega)) (hI 1 h1 (by omega)) (hI 2 h2 (by omega)) (hI 3 htv (by omega))

/-- The column maximum array. -/
def Gmx (c : Dev nD) : S1x128.Idx → EReal := fun i => ⨆ n : Fin 32768, preRow V c n (i 1)

theorem flushed12_eq (c : Dev nD) (t : Fin cfg2.N) (hf : (cfg2.win 12).flush t = true) :
    (dat V c).flushed 12 t = ((cfg2.win 12).blk t).view.read (Elt Ideal) (Gmx V c) := by
  have ht : t.val = 3 := by
    have h3 := (flush2_12 t).mp hf
    have hN : t.val < 4 := lt_of_lt_of_eq t.isLt (show cfg2.N = 4 from N_2)
    omega
  show (cfg2.win 12).cut (grid2.coords t) ((dat V c).after 12 t) = _
  rw [after12]
  funext j
  obtain ⟨u, q, rfl⟩ : ∃ (u : Fin 1) (q : Fin 128), j = ix2 u q := ⟨j 0, j 1, eq_ix2 j⟩
  obtain rfl : u = 0 := Subsingleton.elim _ _
  show smaxAt V c t.val t.isLt (ix2 (0 : Fin 1) q) = Gmx V c (((cfg2.win 12).blk t).view.emb (ix2 (0 : Fin 1) q))
  have hemb : ((cfg2.win 12).blk t).view.emb (ix2 (0 : Fin 1) q) = ix2 (0 : Fin 1) q := funext fun a => Fin.ext (by
    obtain ⟨e0, e1⟩ := idx12 t
    match a with
    | ⟨0, _⟩ =>
      show win2_12.index t (0 : Fin 2) * 1 + 1 * 0 = 0
      rw [e0]
    | ⟨1, _⟩ =>
      show win2_12.index t (1 : Fin 2) * 128 + 1 * q.val = q.val
      rw [e1]; omega)
  rw [hemb]
  exact smaxAt_last V c t ht q

theorem mem_blk12 (t : Fin cfg2.N) (i : S1x128.Idx) :
    i ∈ ((cfg2.win 12).blk t).view.set ↔ ∀ a : Fin 2, win2_12.index t a * S1x128.size a ≤ (i a).val ∧ (i a).val < win2_12.index t a * S1x128.size a + S1x128.size a := by
  show i ∈ ((View.whole main_v45_2).slice (win2_12.rect t)).set ↔ _
  rw [View.set_slice_whole, Rect.mem_set_unit]
  exact Iff.rfl

theorem cover12 (i : S1x128.Idx) : ∃ t : Fin cfg2.N, (cfg2.win 12).flush t = true ∧ i ∈ ((cfg2.win 12).blk t).view.set := by
  have hi0 : (i 0).val < 1 := (i 0).isLt
  have hi1 : (i 1).val < 128 := (i 1).isLt
  have ht : 3 < cfg2.N := by rw [show cfg2.N = 4 from N_2]; omega
  refine ⟨⟨3, ht⟩, (flush2_12 _).mpr rfl, ?_⟩
  rw [mem_blk12]
  obtain ⟨e0, e1⟩ := idx12 ⟨3, ht⟩
  intro a
  match a with
  | ⟨0, _⟩ =>
    show win2_12.index ⟨3, ht⟩ (0 : Fin 2) * 1 ≤ (i 0).val ∧ (i 0).val < win2_12.index ⟨3, ht⟩ (0 : Fin 2) * 1 + 1
    rw [e0]; omega
  | ⟨1, _⟩ =>
    show win2_12.index ⟨3, ht⟩ (1 : Fin 2) * 128 ≤ (i 1).val ∧ (i 1).val < win2_12.index ⟨3, ht⟩ (1 : Fin 2) * 128 + 128
    rw [e1]; omega

theorem arr12_eq (c : Dev nD) : (dat V c).arrAt 12 cfg2.N = Gmx V c :=
  (dat V c).arrAt_eq_of_cover 12 (Gmx V c) (fun t hf => flushed12_eq V c t hf) (cover12)

/-- The column maximum the region leaves is the supremum, over all rows, of the array it leaves in window 10. -/
theorem value_mx (c : Dev nD) (cc : Fin 128) :
    outMx V c cc = ⨆ n : Fin 32768, outPre V c n cc := by
  have h12 : outMx V c cc = ⨆ n : Fin 32768, preRow V c n cc := congrFun (arr12_eq V c) (ix2 (0 : Fin 1) cc)
  rw [h12]
  exact iSup_congr fun n => (outPre_eq V c n cc).symm

end Cert.KernelIdeal.Reg2

end
-- ==== Proof.Reg3Pieces.lean ====
/-
  The head kernel's region: what each control case leaves in each buffer, as the body's arithmetic of the input blocks.

  Every case overwrites the first output's buffer with the rows before normalisation. The first case sets the two
  carried rows to the block's own column minimum and maximum; the other two combine the carried rows with them; the
  last case also copies the combined rows to the last two outputs.
-/
import proofs.«100906_j73718818669321_2_alg».proof.Proof.Reg3Dat
import Idealize.ShloMosaic.Lib.Pipeline.Value

set_option maxRecDepth 16384

noncomputable section

namespace Cert.KernelIdeal.Reg3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz3 : (![0, 0] : Fin 2 → ℕ) = fun _ => 0 := funext fun a => by fin_cases a <;> rfl

/-- The rows before normalisation, from the ten input blocks in window order. -/
def preOf (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) : Vec F S8192x128 .f32 :=
  k3_pay15 (k3_pay4 x1) (k3_pay6 x3) (k3_pay7 x4) (k3_pay8 x5) (k3_pay9 x6) (k3_pay10 x7) (k3_pay11 x0 x8 x9) (k3_pay12 x0 x8 x9) (k3_pay13 x2) (k3_pay14 x2)

theorem out_A_10_eq (c : Dev nD) (i : grid3.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : cond3_0 i) (hc1 : ¬cond3_1 i) (hc2 : ¬cond3_2 i)     (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) :
    out3_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 = preOf x0 x1 x2 x3 x4 x5 x6 x7 x8 x9 := by
  unfold out3_A_10
  rw [View.read_writes_eq_canon _ _ _ (cover3_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9)]
  unfold kernelRun3_A
  dsimp only
  sl_unfold_words
  rw [View.canon_unit_zero hz3]
  simp only [View.readAt_eq_ld, harg1.read_unread, harg2.read_unread, harg3.read_unread, harg4.read_unread, harg5.read_unread, harg6.read_unread, harg7.read_unread, harg8.read_unread, harg9.read_unread, harg10.read_unread, harg14.read_unread, harg15.read_unread, View.ld_unit_zero (S := S8192x128) hz3, View.ld_unit_zero (S := S128x64) hz3, View.ld_unit_zero (S := S1x64) hz3, View.ld_unit_zero (S := S1x1) hz3, View.ld_unit_zero (S := S64x128) hz3, View.ld_unit_zero (S := S1x128) hz3] <;> first | rfl | exact View.readCov_unit_zero _ hz3 _ _

theorem sout_A_0_eq (c : Dev nD) (i : grid3.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : cond3_0 i) (hc1 : ¬cond3_1 i) (hc2 : ¬cond3_2 i)     (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) :
    sout3_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 = k3_pay16 (k3_pay4 x1) (k3_pay6 x3) (k3_pay7 x4) (k3_pay8 x5) (k3_pay9 x6) (k3_pay10 x7) (k3_pay11 x0 x8 x9) (k3_pay12 x0 x8 x9) (k3_pay13 x2) (k3_pay14 x2) := by
  unfold sout3_A_0
  rw [View.read_writes_eq_canon _ _ _ (scover3_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9)]
  unfold kernelRun3_A
  dsimp only
  sl_unfold_words
  rw [View.canon_unit_zero hz3]
  simp only [View.readAt_eq_ld, harg1.read_unread, harg2.read_unread, harg3.read_unread, harg4.read_unread, harg5.read_unread, harg6.read_unread, harg7.read_unread, harg8.read_unread, harg9.read_unread, harg10.read_unread, harg14.read_unread, harg15.read_unread, View.ld_unit_zero (S := S8192x128) hz3, View.ld_unit_zero (S := S128x64) hz3, View.ld_unit_zero (S := S1x64) hz3, View.ld_unit_zero (S := S1x1) hz3, View.ld_unit_zero (S := S64x128) hz3, View.ld_unit_zero (S := S1x128) hz3] <;> first | rfl | exact View.readCov_unit_zero _ hz3 _ _

theorem sout_A_1_eq (c : Dev nD) (i : grid3.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : cond3_0 i) (hc1 : ¬cond3_1 i) (hc2 : ¬cond3_2 i)     (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) :
    sout3_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 = k3_pay17 (k3_pay4 x1) (k3_pay6 x3) (k3_pay7 x4) (k3_pay8 x5) (k3_pay9 x6) (k3_pay10 x7) (k3_pay11 x0 x8 x9) (k3_pay12 x0 x8 x9) (k3_pay13 x2) (k3_pay14 x2) := by
  unfold sout3_A_1
  rw [View.read_writes_eq_canon _ _ _ (scover3_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9)]
  unfold kernelRun3_A
  dsimp only
  sl_unfold_words
  rw [View.canon_unit_zero hz3]
  simp only [View.readAt_eq_ld, harg1.read_unread, harg2.read_unread, harg3.read_unread, harg4.read_unread, harg5.read_unread, harg6.read_unread, harg7.read_unread, harg8.read_unread, harg9.read_unread, harg10.read_unread, harg14.read_unread, harg15.read_unread, View.ld_unit_zero (S := S8192x128) hz3, View.ld_unit_zero (S := S128x64) hz3, View.ld_unit_zero (S := S1x64) hz3, View.ld_unit_zero (S := S1x1) hz3, View.ld_unit_zero (S := S64x128) hz3, View.ld_unit_zero (S := S1x128) hz3] <;> first | rfl | exact View.readCov_unit_zero _ hz3 _ _

theorem out_B_10_eq (c : Dev nD) (i : grid3.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond3_0 i) (hc1 : cond3_1 i) (hc2 : ¬cond3_2 i)     (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) :
    out3_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1 = preOf x0 x1 x2 x3 x4 x5 x6 x7 x8 x9 := by
  unfold out3_B_10
  rw [View.read_writes_eq_canon _ _ _ (cover3_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1)]
  unfold kernelRun3_B
  dsimp only
  sl_unfold_words
  rw [View.canon_unit_zero hz3]
  simp only [View.readAt_eq_ld, harg1.read_unread, harg2.read_unread, harg3.read_unread, harg4.read_unread, harg5.read_unread, harg6.read_unread, harg7.read_unread, harg8.read_unread, harg9.read_unread, harg10.read_unread, harg14.read_unread, harg15.read_unread, View.ld_unit_zero (S := S8192x128) hz3, View.ld_unit_zero (S := S128x64) hz3, View.ld_unit_zero (S := S1x64) hz3, View.ld_unit_zero (S := S1x1) hz3, View.ld_unit_zero (S := S64x128) hz3, View.ld_unit_zero (S := S1x128) hz3] <;> first | rfl | exact View.readCov_unit_zero _ hz3 _ _

theorem sout_B_0_eq (c : Dev nD) (i : grid3.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond3_0 i) (hc1 : cond3_1 i) (hc2 : ¬cond3_2 i)     (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) :
    sout3_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1 = k3_pay1 (preOf x0 x1 x2 x3 x4 x5 x6 x7 x8 x9) xs0 := by
  unfold sout3_B_0
  rw [View.read_writes_eq_canon _ _ _ (scover3_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1)]
  unfold kernelRun3_B
  dsimp only
  sl_unfold_words
  rw [View.canon_unit_zero hz3]
  simp only [View.readAt_eq_ld, harg1.read_unread, harg2.read_unread, harg3.read_unread, harg4.read_unread, harg5.read_unread, harg6.read_unread, harg7.read_unread, harg8.read_unread, harg9.read_unread, harg10.read_unread, harg14.read_unread, harg15.read_unread, View.ld_unit_zero (S := S8192x128) hz3, View.ld_unit_zero (S := S128x64) hz3, View.ld_unit_zero (S := S1x64) hz3, View.ld_unit_zero (S := S1x1) hz3, View.ld_unit_zero (S := S64x128) hz3, View.ld_unit_zero (S := S1x128) hz3] <;> first | rfl | exact View.readCov_unit_zero _ hz3 _ _

theorem sout_B_1_eq (c : Dev nD) (i : grid3.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond3_0 i) (hc1 : cond3_1 i) (hc2 : ¬cond3_2 i)     (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) :
    sout3_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1 = k3_pay2 (preOf x0 x1 x2 x3 x4 x5 x6 x7 x8 x9) xs1 := by
  unfold sout3_B_1
  rw [View.read_writes_eq_canon _ _ _ (scover3_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1)]
  unfold kernelRun3_B
  dsimp only
  sl_unfold_words
  rw [View.canon_unit_zero hz3]
  simp only [View.readAt_eq_ld, harg1.read_unread, harg2.read_unread, harg3.read_unread, harg4.read_unread, harg5.read_unread, harg6.read_unread, harg7.read_unread, harg8.read_unread, harg9.read_unread, harg10.read_unread, harg14.read_unread, harg15.read_unread, View.ld_unit_zero (S := S8192x128) hz3, View.ld_unit_zero (S := S128x64) hz3, View.ld_unit_zero (S := S1x64) hz3, View.ld_unit_zero (S := S1x1) hz3, View.ld_unit_zero (S := S64x128) hz3, View.ld_unit_zero (S := S1x128) hz3] <;> first | rfl | exact View.readCov_unit_zero _ hz3 _ _

theorem out_C_10_eq (c : Dev nD) (i : grid3.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond3_0 i) (hc1 : cond3_1 i) (hc2 : cond3_2 i)     (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) :
    out3_C_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1 = preOf x0 x1 x2 x3 x4 x5 x6 x7 x8 x9 := by
  unfold out3_C_10
  rw [View.read_writes_eq_canon _ _ _ (cover3_C_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1)]
  unfold kernelRun3_C
  dsimp only
  sl_unfold_words
  rw [View.canon_unit_zero hz3]
  simp only [View.readAt_eq_ld, harg1.read_unread, harg2.read_unread, harg3.read_unread, harg4.read_unread, harg5.read_unread, harg6.read_unread, harg7.read_unread, harg8.read_unread, harg9.read_unread, harg10.read_unread, harg14.read_unread, harg15.read_unread, View.ld_unit_zero (S := S8192x128) hz3, View.ld_unit_zero (S := S128x64) hz3, View.ld_unit_zero (S := S1x64) hz3, View.ld_unit_zero (S := S1x1) hz3, View.ld_unit_zero (S := S64x128) hz3, View.ld_unit_zero (S := S1x128) hz3] <;> first | rfl | exact View.readCov_unit_zero _ hz3 _ _

theorem out_C_11_eq (c : Dev nD) (i : grid3.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond3_0 i) (hc1 : cond3_1 i) (hc2 : cond3_2 i)     (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) :
    out3_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1 = k3_pay1 (preOf x0 x1 x2 x3 x4 x5 x6 x7 x8 x9) xs0 := by
  unfold out3_C_11
  rw [View.read_writes_eq_canon _ _ _ (cover3_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1)]
  unfold kernelRun3_C
  dsimp only
  sl_unfold_words
  rw [View.canon_unit_zero hz3]
  simp only [View.readAt_eq_ld, harg1.read_unread, harg2.read_unread, harg3.read_unread, harg4.read_unread, harg5.read_unread, harg6.read_unread, harg7.read_unread, harg8.read_unread, harg9.read_unread, harg10.read_unread, harg14.read_unread, harg15.read_unread, View.ld_unit_zero (S := S8192x128) hz3, View.ld_unit_zero (S := S128x64) hz3, View.ld_unit_zero (S := S1x64) hz3, View.ld_unit_zero (S := S1x1) hz3, View.ld_unit_zero (S := S64x128) hz3, View.ld_unit_zero (S := S1x128) hz3] <;> first | rfl | exact View.readCov_unit_zero _ hz3 _ _

theorem out_C_12_eq (c : Dev nD) (i : grid3.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond3_0 i) (hc1 : cond3_1 i) (hc2 : cond3_2 i)     (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) :
    out3_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1 = k3_pay2 (preOf x0 x1 x2 x3 x4 x5 x6 x7 x8 x9) xs1 := by
  unfold out3_C_12
  rw [View.read_writes_eq_canon _ _ _ (cover3_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1)]
  unfold kernelRun3_C
  dsimp only
  sl_unfold_words
  rw [View.canon_unit_zero hz3]
  simp only [View.readAt_eq_ld, harg1.read_unread, harg2.read_unread, harg3.read_unread, harg4.read_unread, harg5.read_unread, harg6.read_unread, harg7.read_unread, harg8.read_unread, harg9.read_unread, harg10.read_unread, harg14.read_unread, harg15.read_unread, View.ld_unit_zero (S := S8192x128) hz3, View.ld_unit_zero (S := S128x64) hz3, View.ld_unit_zero (S := S1x64) hz3, View.ld_unit_zero (S := S1x1) hz3, View.ld_unit_zero (S := S64x128) hz3, View.ld_unit_zero (S := S1x128) hz3] <;> first | rfl | exact View.readCov_unit_zero _ hz3 _ _

theorem sout_C_0_eq (c : Dev nD) (i : grid3.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond3_0 i) (hc1 : cond3_1 i) (hc2 : cond3_2 i)     (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) :
    sout3_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1 = k3_pay1 (preOf x0 x1 x2 x3 x4 x5 x6 x7 x8 x9) xs0 := by
  unfold sout3_C_0
  rw [View.read_writes_eq_canon _ _ _ (scover3_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1)]
  unfold kernelRun3_C
  dsimp only
  sl_unfold_words
  rw [View.canon_unit_zero hz3]
  simp only [View.readAt_eq_ld, harg1.read_unread, harg2.read_unread, harg3.read_unread, harg4.read_unread, harg5.read_unread, harg6.read_unread, harg7.read_unread, harg8.read_unread, harg9.read_unread, harg10.read_unread, harg14.read_unread, harg15.read_unread, View.ld_unit_zero (S := S8192x128) hz3, View.ld_unit_zero (S := S128x64) hz3, View.ld_unit_zero (S := S1x64) hz3, View.ld_unit_zero (S := S1x1) hz3, View.ld_unit_zero (S := S64x128) hz3, View.ld_unit_zero (S := S1x128) hz3] <;> first | rfl | exact View.readCov_unit_zero _ hz3 _ _

theorem sout_C_1_eq (c : Dev nD) (i : grid3.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond3_0 i) (hc1 : cond3_1 i) (hc2 : cond3_2 i)     (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) :
    sout3_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1 = k3_pay2 (preOf x0 x1 x2 x3 x4 x5 x6 x7 x8 x9) xs1 := by
  unfold sout3_C_1
  rw [View.read_writes_eq_canon _ _ _ (scover3_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1)]
  unfold kernelRun3_C
  dsimp only
  sl_unfold_words
  rw [View.canon_unit_zero hz3]
  simp only [View.readAt_eq_ld, harg1.read_unread, harg2.read_unread, harg3.read_unread, harg4.read_unread, harg5.read_unread, harg6.read_unread, harg7.read_unread, harg8.read_unread, harg9.read_unread, harg10.read_unread, harg14.read_unread, harg15.read_unread, View.ld_unit_zero (S := S8192x128) hz3, View.ld_unit_zero (S := S128x64) hz3, View.ld_unit_zero (S := S1x64) hz3, View.ld_unit_zero (S := S1x1) hz3, View.ld_unit_zero (S := S64x128) hz3, View.ld_unit_zero (S := S1x128) hz3] <;> first | rfl | exact View.readCov_unit_zero _ hz3 _ _

end Cert.KernelIdeal.Reg3

end
-- ==== Proof.Reg3Chain.lean ====
/-
  The third head kernel's region: what the buffers hold after each point, in the body's arithmetic, at any values.

  The first output's buffer holds the point's rows at every point; the two carried rows are started from the block's own
  column minimum and maximum at the first point and combined with them afterwards; the last point copies them out.
-/
import proofs.«100906_j73718818669321_2_alg».proof.Proof.Reg3Pieces

set_option maxRecDepth 16384

noncomputable section

namespace Cert.KernelIdeal.Reg3

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]
variable (V : (c : Dev nD) → (b : Ref sig .tc) → Buf (Elt F) ((c : Thread nD τ).loc b))

/-- The rows point `t` computes, from its blocks. -/
def preAt (c : Dev nD) (t : Fin cfg3.N) : Vec F S8192x128 .f32 :=
  preOf (iblk V c 0 t) (iblk V c 1 t) (iblk V c 2 t) (iblk V c 3 t) (iblk V c 4 t) (iblk V c 5 t) (iblk V c 6 t) (iblk V c 7 t) (iblk V c 8 t) (iblk V c 9 t)

/-- The block's own column minimum, as the first point stores it. -/
def mn0At (c : Dev nD) (t : Fin cfg3.N) : Vec F S1x128 .f32 :=
  k3_pay16 (k3_pay4 (iblk V c 1 t)) (k3_pay6 (iblk V c 3 t)) (k3_pay7 (iblk V c 4 t)) (k3_pay8 (iblk V c 5 t)) (k3_pay9 (iblk V c 6 t)) (k3_pay10 (iblk V c 7 t)) (k3_pay11 (iblk V c 0 t) (iblk V c 8 t) (iblk V c 9 t)) (k3_pay12 (iblk V c 0 t) (iblk V c 8 t) (iblk V c 9 t)) (k3_pay13 (iblk V c 2 t)) (k3_pay14 (iblk V c 2 t))

/-- The block's own column maximum, as the first point stores it. -/
def mx0At (c : Dev nD) (t : Fin cfg3.N) : Vec F S1x128 .f32 :=
  k3_pay17 (k3_pay4 (iblk V c 1 t)) (k3_pay6 (iblk V c 3 t)) (k3_pay7 (iblk V c 4 t)) (k3_pay8 (iblk V c 5 t)) (k3_pay9 (iblk V c 6 t)) (k3_pay10 (iblk V c 7 t)) (k3_pay11 (iblk V c 0 t) (iblk V c 8 t) (iblk V c 9 t)) (k3_pay12 (iblk V c 0 t) (iblk V c 8 t) (iblk V c 9 t)) (k3_pay13 (iblk V c 2 t)) (k3_pay14 (iblk V c 2 t))

theorem outs_A (c : Dev nD) (t : Fin cfg3.N) (h0 : t.val = 0) :
    (outsAt3 V c t.val t.isLt).1 = preAt V c t
    ∧ (outsAt3 V c t.val t.isLt).2.2.2.1 = mn0At V c t
    ∧ (outsAt3 V c t.val t.isLt).2.2.2.2 = mx0At V c t := by
  have h3 : ¬t.val = 3 := by omega
  rw [outsAt3_A V c t h0 h3]
  dsimp only
  exact ⟨out_A_10_eq .., sout_A_0_eq .., sout_A_1_eq ..⟩

theorem outs_B (c : Dev nD) (t : Fin cfg3.N) (h0 : ¬t.val = 0) (h3 : ¬t.val = 3) :
    (outsAt3 V c t.val t.isLt).1 = preAt V c t
    ∧ (outsAt3 V c t.val t.isLt).2.2.2.1 = k3_pay1 (preAt V c t) (outsAt3 V c (t.val - 1) (Nat.lt_of_le_of_lt (Nat.sub_le _ _) t.isLt)).2.2.2.1
    ∧ (outsAt3 V c t.val t.isLt).2.2.2.2 = k3_pay2 (preAt V c t) (outsAt3 V c (t.val - 1) (Nat.lt_of_le_of_lt (Nat.sub_le _ _) t.isLt)).2.2.2.2 := by
  rw [outsAt3_B V c t h0 h3]
  dsimp only
  exact ⟨out_B_10_eq .., sout_B_0_eq .., sout_B_1_eq ..⟩

theorem outs_C (c : Dev nD) (t : Fin cfg3.N) (h0 : ¬t.val = 0) (h3 : t.val = 3) :
    (outsAt3 V c t.val t.isLt).1 = preAt V c t
    ∧ (outsAt3 V c t.val t.isLt).2.1 = k3_pay1 (preAt V c t) (outsAt3 V c (t.val - 1) (Nat.lt_of_le_of_lt (Nat.sub_le _ _) t.isLt)).2.2.2.1
    ∧ (outsAt3 V c t.val t.isLt).2.2.1 = k3_pay2 (preAt V c t) (outsAt3 V c (t.val - 1) (Nat.lt_of_le_of_lt (Nat.sub_le _ _) t.isLt)).2.2.2.2 := by
  rw [outsAt3_C V c t h0 h3]
  dsimp only
  exact ⟨out_C_10_eq .., out_C_11_eq .., out_C_12_eq ..⟩

/-- At every point the first output's buffer holds the point's rows. -/
theorem out10_eq (c : Dev nD) (t : Fin cfg3.N) : (outsAt3 V c t.val t.isLt).1 = preAt V c t := by
  by_cases h0 : t.val = 0
  · exact (outs_A V c t h0).1
  · by_cases h3 : t.val = 3
    · exact (outs_C V c t h0 h3).1
    · exact (outs_B V c t h0 h3).1

end Cert.KernelIdeal.Reg3

end
-- ==== Proof.Reg3PayA.lean ====
/-
  The head kernel's arithmetic read at one index, at the ideal values: the pieces.

  On load a row of the previous head's array is normalised with the previous column minimum and maximum; the
  aggregate block is cut to its 64 columns; every matrix product is three passes over operands split as x and x - x;
  a column minimum or maximum over the block's 8192 rows is an infimum or supremum over them.
-/
import proofs.«100906_j73718818669321_2_alg».proof.Proof.Gen.KernelIdeal.Skeleton
import proofs.«100906_j73718818669321_2_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Reg3

open Idealize.ShloMosaic Idealize.ShloMosaic.ValueIdx
open Cert.KernelIdeal.Gen

/-! ## The two products' operand indices -/

theorem dotN_lhs_0 (i : S8192x64.Idx) (k : dot_S8192x128_S128x64_S8192x64_1_0_0_1_n_n.contr.Idx) : (dot_S8192x128_S128x64_S8192x64_1_0_0_1_n_n.lhsIdx i k 0).val = (i 0).val := by
  unfold DotDims.lhsIdx
  rw [dif_neg (show ¬(0 : Fin S8192x128.rank) ∈ dot_S8192x128_S128x64_S8192x64_1_0_0_1_n_n.lhsBatch by decide), dif_pos (show (0 : Fin S8192x128.rank) ∈ dot_S8192x128_S128x64_S8192x64_1_0_0_1_n_n.lhsNonContracting by decide)]
  rfl
theorem dotN_lhs_1 (i : S8192x64.Idx) (k : dot_S8192x128_S128x64_S8192x64_1_0_0_1_n_n.contr.Idx) : (dot_S8192x128_S128x64_S8192x64_1_0_0_1_n_n.lhsIdx i k 1).val = (k ⟨0, by decide⟩).val :=
  dot_S8192x128_S128x64_S8192x64_1_0_0_1_n_n.lhsIdx_val_of_single rfl i k
theorem dotN_rhs_0 (i : S8192x64.Idx) (k : dot_S8192x128_S128x64_S8192x64_1_0_0_1_n_n.contr.Idx) : (dot_S8192x128_S128x64_S8192x64_1_0_0_1_n_n.rhsIdx i k 0).val = (k ⟨0, by decide⟩).val :=
  dot_S8192x128_S128x64_S8192x64_1_0_0_1_n_n.rhsIdx_val_of_single rfl i k
theorem dotN_rhs_1 (i : S8192x64.Idx) (k : dot_S8192x128_S128x64_S8192x64_1_0_0_1_n_n.contr.Idx) : (dot_S8192x128_S128x64_S8192x64_1_0_0_1_n_n.rhsIdx i k 1).val = (i 1).val := by
  unfold DotDims.rhsIdx
  rw [dif_neg (show ¬(1 : Fin S128x64.rank) ∈ dot_S8192x128_S128x64_S8192x64_1_0_0_1_n_n.rhsBatch by decide), dif_pos (show (1 : Fin S128x64.rank) ∈ dot_S8192x128_S128x64_S8192x64_1_0_0_1_n_n.rhsNonContracting by decide)]
  rfl

/-- A product into the zero accumulator at (p, q): the sum over the 128 contracted coordinates. -/
theorem dotN_ix (a : FVec Ideal S8192x128 .bf16) (b : FVec Ideal S128x64 .bf16) (p : Fin 8192) (q : Fin 64) :
    matmul dot_S8192x128_S128x64_S8192x64_1_0_0_1_n_n none a b (constant (F := Ideal) S8192x64 .f32 0x00000000#32) (ix2 p q)
      = ∑ e : Fin 128, a (ix2 p e) * b (ix2 e q) := by
  refine (Ideal.matmul_constant_zero_apply dot_S8192x128_S128x64_S8192x64_1_0_0_1_n_n none a b (ix2 p q)).trans ?_
  rw [← Equiv.sum_comp (contrEquiv1 dot_S8192x128_S128x64_S8192x64_1_0_0_1_n_n 128 rfl rfl).symm]
  refine Finset.sum_congr rfl fun k _ => ?_
  have hk := contrEquiv1_symm_val dot_S8192x128_S128x64_S8192x64_1_0_0_1_n_n 128 rfl rfl k
  have el : dot_S8192x128_S128x64_S8192x64_1_0_0_1_n_n.lhsIdx (ix2 p q) ((contrEquiv1 dot_S8192x128_S128x64_S8192x64_1_0_0_1_n_n 128 rfl rfl).symm k) = ix2 p k := funext fun c => Fin.ext (by
    match c with
    | ⟨0, _⟩ => exact dotN_lhs_0 _ _
    | ⟨1, _⟩ => exact (dotN_lhs_1 _ _).trans hk)
  have er : dot_S8192x128_S128x64_S8192x64_1_0_0_1_n_n.rhsIdx (ix2 p q) ((contrEquiv1 dot_S8192x128_S128x64_S8192x64_1_0_0_1_n_n 128 rfl rfl).symm k) = ix2 k q := funext fun c => Fin.ext (by
    match c with
    | ⟨0, _⟩ => exact (dotN_rhs_0 _ _).trans hk
    | ⟨1, _⟩ => exact dotN_rhs_1 _ _)
  rw [el, er]

theorem dotO_lhs_0 (i : S8192x128.Idx) (k : dot_S8192x64_S64x128_S8192x128_1_0_0_1_n_n.contr.Idx) : (dot_S8192x64_S64x128_S8192x128_1_0_0_1_n_n.lhsIdx i k 0).val = (i 0).val := by
  unfold DotDims.lhsIdx
  rw [dif_neg (show ¬(0 : Fin S8192x64.rank) ∈ dot_S8192x64_S64x128_S8192x128_1_0_0_1_n_n.lhsBatch by decide), dif_pos (show (0 : Fin S8192x64.rank) ∈ dot_S8192x64_S64x128_S8192x128_1_0_0_1_n_n.lhsNonContracting by decide)]
  rfl
theorem dotO_lhs_1 (i : S8192x128.Idx) (k : dot_S8192x64_S64x128_S8192x128_1_0_0_1_n_n.contr.Idx) : (dot_S8192x64_S64x128_S8192x128_1_0_0_1_n_n.lhsIdx i k 1).val = (k ⟨0, by decide⟩).val :=
  dot_S8192x64_S64x128_S8192x128_1_0_0_1_n_n.lhsIdx_val_of_single rfl i k
theorem dotO_rhs_0 (i : S8192x128.Idx) (k : dot_S8192x64_S64x128_S8192x128_1_0_0_1_n_n.contr.Idx) : (dot_S8192x64_S64x128_S8192x128_1_0_0_1_n_n.rhsIdx i k 0).val = (k ⟨0, by decide⟩).val :=
  dot_S8192x64_S64x128_S8192x128_1_0_0_1_n_n.rhsIdx_val_of_single rfl i k
theorem dotO_rhs_1 (i : S8192x128.Idx) (k : dot_S8192x64_S64x128_S8192x128_1_0_0_1_n_n.contr.Idx) : (dot_S8192x64_S64x128_S8192x128_1_0_0_1_n_n.rhsIdx i k 1).val = (i 1).val := by
  unfold DotDims.rhsIdx
  rw [dif_neg (show ¬(1 : Fin S64x128.rank) ∈ dot_S8192x64_S64x128_S8192x128_1_0_0_1_n_n.rhsBatch by decide), dif_pos (show (1 : Fin S64x128.rank) ∈ dot_S8192x64_S64x128_S8192x128_1_0_0_1_n_n.rhsNonContracting by decide)]
  rfl

/-- A product into the zero accumulator at (p, q): the sum over the 64 contracted coordinates. -/
theorem dotO_ix (a : FVec Ideal S8192x64 .bf16) (b : FVec Ideal S64x128 .bf16) (p : Fin 8192) (q : Fin 128) :
    matmul dot_S8192x64_S64x128_S8192x128_1_0_0_1_n_n none a b (constant (F := Ideal) S8192x128 .f32 0x00000000#32) (ix2 p q)
      = ∑ e : Fin 64, a (ix2 p e) * b (ix2 e q) := by
  refine (Ideal.matmul_constant_zero_apply dot_S8192x64_S64x128_S8192x128_1_0_0_1_n_n none a b (ix2 p q)).trans ?_
  rw [← Equiv.sum_comp (contrEquiv1 dot_S8192x64_S64x128_S8192x128_1_0_0_1_n_n 64 rfl rfl).symm]
  refine Finset.sum_congr rfl fun k _ => ?_
  have hk := contrEquiv1_symm_val dot_S8192x64_S64x128_S8192x128_1_0_0_1_n_n 64 rfl rfl k
  have el : dot_S8192x64_S64x128_S8192x128_1_0_0_1_n_n.lhsIdx (ix2 p q) ((contrEquiv1 dot_S8192x64_S64x128_S8192x128_1_0_0_1_n_n 64 rfl rfl).symm k) = ix2 p k := funext fun c => Fin.ext (by
    match c with
    | ⟨0, _⟩ => exact dotO_lhs_0 _ _
    | ⟨1, _⟩ => exact (dotO_lhs_1 _ _).trans hk)
  have er : dot_S8192x64_S64x128_S8192x128_1_0_0_1_n_n.rhsIdx (ix2 p q) ((contrEquiv1 dot_S8192x64_S64x128_S8192x128_1_0_0_1_n_n 64 rfl rfl).symm k) = ix2 k q := funext fun c => Fin.ext (by
    match c with
    | ⟨0, _⟩ => exact (dotO_rhs_0 _ _).trans hk
    | ⟨1, _⟩ => exact dotO_rhs_1 _ _)
  rw [el, er]

/-! ## Normalisation on load, the cut of the aggregate block, the casts to the same shape -/

theorem pay3_ix (v0 : Vec Ideal S8192x128 .f32) (v2 v4 : Vec Ideal S1x128 .f32) (r : Fin 8192) (k : Fin 128) :
    k3_pay3 (F := Ideal) v0 v2 v4 (ix2 r k) = Cert.Spec.norm (v0 (ix2 r k)) (v2 (ix2 (0 : Fin 1) k)) (v4 (ix2 (0 : Fin 1) k)) := by
  unfold k3_pay3 Cert.Spec.norm
  refine (maximumf_apply _ _ _).trans ?_
  refine congrArg₂ max ?_ Ideal.ofBits_zero_f32
  refine (divf_apply _ _ _).trans ?_
  refine congrArg₂ Ideal.div ?_ ?_
  · refine (subf_apply _ _ _).trans ?_
    refine congrArg₂ (· - ·) ?_ ?_
    · rw [shapeCast_self]
    · refine (broadcastTo_apply _ broadcasts_S1x128_S8192x128 (ix2 r k) (ix2 (0 : Fin 1) k) (fun c => by match c with | ⟨0, _⟩ => rfl | ⟨1, _⟩ => rfl)).trans ?_
      rw [shapeCast_self]
  · refine (broadcastTo_apply _ broadcasts_S1x128_S8192x128 (ix2 r k) (ix2 (0 : Fin 1) k) (fun c => by match c with | ⟨0, _⟩ => rfl | ⟨1, _⟩ => rfl)).trans ?_
    refine (addf_apply _ _ _).trans ?_
    refine congrArg₂ (· + ·) ?_ rfl
    refine (subf_apply _ _ _).trans ?_
    rw [shapeCast_self, shapeCast_self]

theorem pay4_ix (v15 : Vec Ideal S8192x128 .f32) (r : Fin 8192) (j : Fin 64) :
    k3_pay4 (F := Ideal) v15 (ix2 r j) = v15 (ix2 r (⟨0 + j.val, by have := j.isLt; omega⟩ : Fin 128)) := by
  unfold k3_pay4
  refine (extractStridedSlice_apply ![0, 0] _ slices_S8192x128_o0_0_S8192x64 (ix2 r j) (ix2 r (⟨0 + j.val, by have := j.isLt; omega⟩ : Fin 128))
    (fun a => by match a with | ⟨0, _⟩ => exact (Nat.zero_add _).symm | ⟨1, _⟩ => rfl)).trans ?_
  rw [shapeCast_self]

theorem pay5_eq (v : Vec Ideal S128x64 .f32) : k3_pay5 (F := Ideal) v = v := by unfold k3_pay5; exact shapeCast_self _ _
theorem pay6_eq (v : Vec Ideal S1x64 .f32) : k3_pay6 (F := Ideal) v = v := by unfold k3_pay6; exact shapeCast_self _ _
theorem pay7_eq (v : Vec Ideal S1x64 .f32) : k3_pay7 (F := Ideal) v = v := by unfold k3_pay7; exact shapeCast_self _ _
theorem pay8_eq (v : Vec Ideal S1x1 .f32) : k3_pay8 (F := Ideal) v = v := by unfold k3_pay8; exact shapeCast_self _ _
theorem pay9_eq (v : Vec Ideal S64x128 .f32) : k3_pay9 (F := Ideal) v = v := by unfold k3_pay9; exact shapeCast_self _ _
theorem pay10_eq (v : Vec Ideal S1x128 .f32) : k3_pay10 (F := Ideal) v = v := by unfold k3_pay10; exact shapeCast_self _ _

theorem pay11_ix (v0 : Vec Ideal S8192x128 .f32) (v2 v4 : Vec Ideal S1x128 .f32) (i : S8192x128.Idx) :
    k3_pay11 (F := Ideal) v0 v2 v4 i = k3_pay3 (F := Ideal) v0 v2 v4 i := rfl
theorem pay12_ix (v0 : Vec Ideal S8192x128 .f32) (v2 v4 : Vec Ideal S1x128 .f32) (i : S8192x128.Idx) :
    k3_pay12 (F := Ideal) v0 v2 v4 i = k3_pay3 (F := Ideal) v0 v2 v4 i - k3_pay3 (F := Ideal) v0 v2 v4 i := rfl
theorem pay13_ix (v : Vec Ideal S128x64 .f32) (i : S128x64.Idx) : k3_pay13 (F := Ideal) v i = v i := by
  show k3_pay5 (F := Ideal) v i = v i
  rw [pay5_eq]
theorem pay14_ix (v : Vec Ideal S128x64 .f32) (i : S128x64.Idx) : k3_pay14 (F := Ideal) v i = v i - v i := by
  show k3_pay5 (F := Ideal) v i - k3_pay5 (F := Ideal) v i = v i - v i
  rw [pay5_eq]

/-! ## The leaky gate -/

theorem leaky_eq (s : EReal) :
    Scalar.select (Ideal.cmp .oge s (Ideal.ofBits .f32 0x00000000#32)) s (Ideal.ofBits .f32 0x3E4CCCCD#32 * s) = Cert.Spec.leaky s := by
  unfold Cert.Spec.leaky Cert.Spec.slope Scalar.select Ideal.cmp
  rw [Ideal.ofBits_zero_f32]
  by_cases h : (0 : EReal) ≤ s <;> simp [h]

end Cert.KernelIdeal.Reg3

end
-- ==== Proof.Reg3PayB.lean ====
/-
  The head kernel's arithmetic read at one index, at the ideal values: the row before normalisation and the
  column minimum and maximum.

  At row `r` of the block: the node transform is a three-pass product of the (normalised) row with the node weights
  plus the bias; the score sums (transform + aggregate) · attention weights and adds the attention bias; the gate is
  the logistic of the leaky score; the update is gate · aggregate + transform; the row before normalisation is a
  three-pass product of the update with the output weights plus the output bias.
-/
import proofs.«100906_j73718818669321_2_alg».proof.Proof.Reg3PayA

set_option maxRecDepth 16384

noncomputable section

namespace Cert.KernelIdeal.Reg3

open Idealize.ShloMosaic Idealize.ShloMosaic.ValueIdx
open Cert.KernelIdeal.Gen

/-! ## Sums along a row, infima and suprema down a column -/

theorem lift_row64 (r : Fin 8192) (e : Fin (S8192x64.size 1)) :
    reduces_S8192x64_S8192.lift (ix1 r) e = ix2 r (⟨e.val, e.isLt⟩ : Fin 64) := by
  funext c; apply Fin.ext
  fin_cases c <;> rfl

theorem rowsum64_ix (x : FVec Ideal S8192x64 .f32) (r : Fin 8192) :
    multiReduction .add [1] S8192 x 0x00000000#32 reduces_S8192x64_S8192 (.inl rfl) rfl (ix1 r)
      = ∑ j : Fin 64, x (ix2 r j) := by
  refine (Ideal.multiReduction_add_single x 0x00000000#32 reduces_S8192x64_S8192 (.inl rfl) rfl (ix1 r)).trans ?_
  exact Finset.sum_congr rfl fun e _ => congrArg x (lift_row64 r e)

theorem lift_col (c : Fin 128) (e : Fin (S8192x128.size 0)) :
    reduces_S8192x128_S128.lift (ix1 c) e = ix2 (⟨e.val, e.isLt⟩ : Fin 8192) c := by
  funext a; apply Fin.ext
  fin_cases a <;> rfl

theorem fold_min_top {ι : Type} [Fintype ι] (f : ι → EReal) : (Finset.univ : Finset ι).fold min ⊤ f = ⨅ i, f i := by
  apply le_antisymm
  · exact le_iInf fun i => (Finset.fold_min_le _).2 (Or.inr ⟨i, Finset.mem_univ i, le_rfl⟩)
  · exact (Finset.le_fold_min _).2 ⟨le_top, fun i _ => iInf_le f i⟩

theorem fold_max_bot {ι : Type} [Fintype ι] (f : ι → EReal) : (Finset.univ : Finset ι).fold max ⊥ f = ⨆ i, f i := by
  apply le_antisymm
  · exact (Finset.fold_max_le _).2 ⟨bot_le, fun i _ => le_iSup f i⟩
  · exact iSup_le fun i => (Finset.le_fold_max _).2 (Or.inr ⟨i, Finset.mem_univ i, le_rfl⟩)

theorem posInf_eq : Ideal.ofBits .f32 0x7F800000#32 = (⊤ : EReal) := by simp [Ideal.ofBits, Ideal.ieee]
theorem negInf_eq : Ideal.ofBits .f32 0xFF800000#32 = (⊥ : EReal) := by simp [Ideal.ofBits, Ideal.ieee]

theorem colmin_aux (f : Fin 8192 → EReal) :
    (Finset.univ : Finset (Fin 8192)).fold min (Ideal.ofBits .f32 0x7F800000#32) f = ⨅ r, f r := by
  rw [posInf_eq]; exact fold_min_top f
theorem colmax_aux (f : Fin 8192 → EReal) :
    (Finset.univ : Finset (Fin 8192)).fold max (Ideal.ofBits .f32 0xFF800000#32) f = ⨆ r, f r := by
  rw [negInf_eq]; exact fold_max_bot f

/-- The column minimum of a block at column `c`: the infimum over its 8192 rows. -/
theorem colmin_ix (v : FVec Ideal S8192x128 .f32) (c : Fin 128) :
    multiReduction .minimumf [0] S128 v 0x7F800000#32 reduces_S8192x128_S128 (.inl rfl) rfl (ix1 c)
      = ⨅ r : Fin 8192, v (ix2 r c) := by
  refine (multiReduction_minimumf_eq_fold (F := Ideal) v 0x7F800000#32 reduces_S8192x128_S128 (.inl rfl) rfl (ix1 c)).trans ?_
  refine (reduces_S8192x128_S128.fold_filter_drop_single FloatOps.minimumf _ v (ix1 c)).trans ?_
  exact (colmin_aux _).trans (iInf_congr fun e => congrArg v (lift_col c e))

/-- The column maximum: the supremum. -/
theorem colmax_ix (v : FVec Ideal S8192x128 .f32) (c : Fin 128) :
    multiReduction .maximumf [0] S128 v 0xFF800000#32 reduces_S8192x128_S128 (.inl rfl) rfl (ix1 c)
      = ⨆ r : Fin 8192, v (ix2 r c) := by
  refine (multiReduction_maximumf_eq_fold (F := Ideal) v 0xFF800000#32 reduces_S8192x128_S128 (.inl rfl) rfl (ix1 c)).trans ?_
  refine (reduces_S8192x128_S128.fold_filter_drop_single FloatOps.maximumf _ v (ix1 c)).trans ?_
  exact (colmax_aux _).trans (iSup_congr fun e => congrArg v (lift_col c e))

theorem row_of_col (x : FVec Ideal S128 .f32) (c : Fin 128) :
    shapeCast S1x128 x shapeCasts_S128_S1x128 (ix2 (0 : Fin 1) c) = x (ix1 c) :=
  shapeCast_apply x shapeCasts_S128_S1x128 (ix2 (0 : Fin 1) c) (ix1 c)
    (by rw [Shape.rowMajor_val_one, Shape.rowMajor_val_two]; show c.val = 0 * 128 + c.val; omega)

theorem pay16_ix (pre : FVec Ideal S8192x128 .f32) (c : Fin 128) :
    shapeCast S1x128 (shapeCast S1x128 (multiReduction .minimumf [0] S128 pre 0x7F800000#32 reduces_S8192x128_S128 (.inl rfl) rfl) shapeCasts_S128_S1x128) shapeCasts_S1x128_S1x128 (ix2 (0 : Fin 1) c)
      = ⨅ r : Fin 8192, pre (ix2 r c) := by
  rw [shapeCast_self, row_of_col, colmin_ix]

theorem pay17_ix (pre : FVec Ideal S8192x128 .f32) (c : Fin 128) :
    shapeCast S1x128 (shapeCast S1x128 (multiReduction .maximumf [0] S128 pre 0xFF800000#32 reduces_S8192x128_S128 (.inl rfl) rfl) shapeCasts_S128_S1x128) shapeCasts_S1x128_S1x128 (ix2 (0 : Fin 1) c)
      = ⨆ r : Fin 8192, pre (ix2 r c) := by
  rw [shapeCast_self, row_of_col, colmax_ix]

theorem pay1_ix (pre : FVec Ideal S8192x128 .f32) (prev : Vec Ideal S1x128 .f32) (c : Fin 128) :
    k3_pay1 (F := Ideal) pre prev (ix2 (0 : Fin 1) c) = min (prev (ix2 (0 : Fin 1) c)) (⨅ r : Fin 8192, pre (ix2 r c)) := by
  unfold k3_pay1
  rw [shapeCast_self]
  refine (minimumf_apply _ _ _).trans ?_
  rw [row_of_col, colmin_ix]

theorem pay2_ix (pre : FVec Ideal S8192x128 .f32) (prev : Vec Ideal S1x128 .f32) (c : Fin 128) :
    k3_pay2 (F := Ideal) pre prev (ix2 (0 : Fin 1) c) = max (prev (ix2 (0 : Fin 1) c)) (⨆ r : Fin 8192, pre (ix2 r c)) := by
  unfold k3_pay2
  rw [shapeCast_self]
  refine (maximumf_apply _ _ _).trans ?_
  rw [row_of_col, colmax_ix]

/-! ## The row before normalisation -/

theorem tn_ix (v30 v33 : FVec Ideal S8192x128 .bf16) (v34 : FVec Ideal S128x64 .bf16) (v36 : FVec Ideal S128x64 .f32) (v21 : FVec Ideal S1x64 .f32)
    (r : Fin 8192) (j : Fin 64) (x : Fin 128 → EReal) (W : Fin 128 → Fin 64 → EReal)
    (h30 : ∀ k, v30 (ix2 r k) = x k) (h33 : ∀ k, v33 (ix2 r k) = x k - x k)
    (h34 : ∀ k j, v34 (ix2 k j) = W k j) (h36 : ∀ k j, v36 (ix2 k j) = W k j - W k j) :
    addf (addf (addf (matmul dot_S8192x128_S128x64_S8192x64_1_0_0_1_n_n none v30 v34 (constant (F := Ideal) S8192x64 .f32 0x00000000#32)) (matmul dot_S8192x128_S128x64_S8192x64_1_0_0_1_n_n none v30 (truncf .bf16 v36 bitsLt_bf16_f32) (constant (F := Ideal) S8192x64 .f32 0x00000000#32)))
        (matmul dot_S8192x128_S128x64_S8192x64_1_0_0_1_n_n none v33 v34 (constant (F := Ideal) S8192x64 .f32 0x00000000#32))) (broadcastTo S8192x64 v21 broadcasts_S1x64_S8192x64) (ix2 r j)
      = Cert.Spec.dot3 x (fun k => W k j) + v21 (ix2 (0 : Fin 1) j) := by
  refine (addf_apply _ _ _).trans ?_
  refine congrArg₂ (· + ·) ?_ (broadcastTo_apply _ broadcasts_S1x64_S8192x64 (ix2 r j) (ix2 (0 : Fin 1) j) (fun c => by match c with | ⟨0, _⟩ => rfl | ⟨1, _⟩ => rfl))
  refine (addf_apply _ _ _).trans ?_
  unfold Cert.Spec.dot3
  refine congrArg₂ (· + ·) ?_ ?_
  · refine (addf_apply _ _ _).trans ?_
    refine congrArg₂ (· + ·) ?_ ?_
    · exact (dotN_ix _ _ r j).trans (Finset.sum_congr rfl fun k _ => by rw [h30, h34])
    · refine (dotN_ix _ _ r j).trans (Finset.sum_congr rfl fun k _ => ?_)
      show v30 (ix2 r k) * v36 (ix2 k j) = _
      rw [h30, h36]
  · exact (dotN_ix _ _ r j).trans (Finset.sum_congr rfl fun k _ => by rw [h33, h34])

theorem score_ix (T v17 : FVec Ideal S8192x64 .f32) (v23 : FVec Ideal S1x64 .f32) (v25 : FVec Ideal S1x1 .f32) (r : Fin 8192) :
    addf (shapeCast S8192x1 (multiReduction .add [1] S8192 (mulf (addf T v17) (broadcastTo S8192x64 v23 broadcasts_S1x64_S8192x64)) 0x00000000#32 reduces_S8192x64_S8192 (.inl rfl) rfl) shapeCasts_S8192_S8192x1)
        (broadcastTo S8192x1 v25 broadcasts_S1x1_S8192x1) (ix2 r (0 : Fin 1))
      = (∑ j : Fin 64, (T (ix2 r j) + v17 (ix2 r j)) * v23 (ix2 (0 : Fin 1) j)) + v25 (ix2 (0 : Fin 1) (0 : Fin 1)) := by
  refine (addf_apply _ _ _).trans ?_
  refine congrArg₂ (· + ·) ?_ (broadcastTo_apply _ broadcasts_S1x1_S8192x1 (ix2 r (0 : Fin 1)) (ix2 (0 : Fin 1) (0 : Fin 1)) (fun c => by match c with | ⟨0, _⟩ => rfl | ⟨1, _⟩ => rfl))
  refine (shapeCast_apply _ shapeCasts_S8192_S8192x1 (ix2 r (0 : Fin 1)) (ix1 r)
    (by rw [Shape.rowMajor_val_one, Shape.rowMajor_val_two]; show r.val = r.val * 1 + 0; omega)).trans ?_
  refine (rowsum64_ix _ r).trans (Finset.sum_congr rfl fun j _ => ?_)
  refine (mulf_apply _ _ _).trans ?_
  exact congrArg₂ (· * ·) (addf_apply _ _ _) (broadcastTo_apply _ broadcasts_S1x64_S8192x64 (ix2 r j) (ix2 (0 : Fin 1) j) (fun c => by match c with | ⟨0, _⟩ => rfl | ⟨1, _⟩ => rfl))

theorem gate_ix (S51 : FVec Ideal S8192x1 .f32) (i : S8192x1.Idx) :
    logistic (select (cmpf .oge S51 (broadcast S8192x1 (Scalar.ofBits (F := Ideal) .f32 0x00000000#32))) S51
        (mulf (broadcast S8192x1 (Scalar.ofBits (F := Ideal) .f32 0x3E4CCCCD#32)) S51)) i
      = Ideal.logistic (Cert.Spec.leaky (S51 i)) := by
  show Ideal.logistic (Scalar.select (Ideal.cmp .oge (S51 i) (Ideal.ofBits .f32 0x00000000#32)) (S51 i) (Ideal.ofBits .f32 0x3E4CCCCD#32 * S51 i)) = _
  rw [leaky_eq]

theorem upd_ix (G : FVec Ideal S8192x1 .f32) (v17 T : FVec Ideal S8192x64 .f32) (r : Fin 8192) (j : Fin 64) :
    addf (mulf (broadcastTo S8192x64 G broadcasts_S8192x1_S8192x64) v17) T (ix2 r j)
      = G (ix2 r (0 : Fin 1)) * v17 (ix2 r j) + T (ix2 r j) := by
  refine (addf_apply _ _ _).trans ?_
  refine congrArg₂ (· + ·) ?_ rfl
  refine (mulf_apply _ _ _).trans ?_
  exact congrArg₂ (· * ·) (broadcastTo_apply _ broadcasts_S8192x1_S8192x64 (ix2 r j) (ix2 r (0 : Fin 1)) (fun c => by match c with | ⟨0, _⟩ => rfl | ⟨1, _⟩ => rfl)) rfl

theorem out_ix (U : FVec Ideal S8192x64 .f32) (v27 : FVec Ideal S64x128 .f32) (v29 : FVec Ideal S1x128 .f32) (r : Fin 8192) (c : Fin 128) :
    addf (addf (addf (matmul dot_S8192x64_S64x128_S8192x128_1_0_0_1_n_n none (truncf .bf16 U bitsLt_bf16_f32) (truncf .bf16 v27 bitsLt_bf16_f32) (constant (F := Ideal) S8192x128 .f32 0x00000000#32))
          (matmul dot_S8192x64_S64x128_S8192x128_1_0_0_1_n_n none (truncf .bf16 U bitsLt_bf16_f32) (truncf .bf16 (subf v27 v27) bitsLt_bf16_f32) (constant (F := Ideal) S8192x128 .f32 0x00000000#32)))
        (matmul dot_S8192x64_S64x128_S8192x128_1_0_0_1_n_n none (truncf .bf16 (subf U U) bitsLt_bf16_f32) (truncf .bf16 v27 bitsLt_bf16_f32) (constant (F := Ideal) S8192x128 .f32 0x00000000#32)))
        (broadcastTo S8192x128 v29 broadcasts_S1x128_S8192x128) (ix2 r c)
      = Cert.Spec.dot3 (fun j => U (ix2 r j)) (fun j => v27 (ix2 j c)) + v29 (ix2 (0 : Fin 1) c) := by
  refine (addf_apply _ _ _).trans ?_
  refine congrArg₂ (· + ·) ?_ (broadcastTo_apply _ broadcasts_S1x128_S8192x128 (ix2 r c) (ix2 (0 : Fin 1) c) (fun c => by match c with | ⟨0, _⟩ => rfl | ⟨1, _⟩ => rfl))
  refine (addf_apply _ _ _).trans ?_
  unfold Cert.Spec.dot3
  refine congrArg₂ (· + ·) ?_ ?_
  · refine (addf_apply _ _ _).trans ?_
    refine congrArg₂ (· + ·) ?_ ?_
    · exact (dotO_ix _ _ r c).trans (Finset.sum_congr rfl fun j _ => rfl)
    · exact (dotO_ix _ _ r c).trans (Finset.sum_congr rfl fun j _ => rfl)
  · exact (dotO_ix _ _ r c).trans (Finset.sum_congr rfl fun j _ => rfl)

/-- The row before normalisation at (r, c), from what the operands are at the row. -/
theorem pay15_ix (v17 : FVec Ideal S8192x64 .f32) (v21 v23 : FVec Ideal S1x64 .f32) (v25 : FVec Ideal S1x1 .f32)
    (v27 : FVec Ideal S64x128 .f32) (v29 : FVec Ideal S1x128 .f32) (v30 v33 : FVec Ideal S8192x128 .bf16)
    (v34 : FVec Ideal S128x64 .bf16) (v36 : FVec Ideal S128x64 .f32) (r : Fin 8192) (c : Fin 128)
    (x : Fin 128 → EReal) (W : Fin 128 → Fin 64 → EReal)
    (h30 : ∀ k, v30 (ix2 r k) = x k) (h33 : ∀ k, v33 (ix2 r k) = x k - x k)
    (h34 : ∀ k j, v34 (ix2 k j) = W k j) (h36 : ∀ k j, v36 (ix2 k j) = W k j - W k j) :
    k3_pay15 (F := Ideal) v17 v21 v23 v25 v27 v29 v30 v33 v34 v36 (ix2 r c)
      = Cert.Spec.headPre3 W (fun j => v21 (ix2 (0 : Fin 1) j)) (fun j => v23 (ix2 (0 : Fin 1) j)) (v25 (ix2 (0 : Fin 1) (0 : Fin 1)))
          (fun j cc => v27 (ix2 j cc)) (fun cc => v29 (ix2 (0 : Fin 1) cc)) x (fun j => v17 (ix2 r j)) c := by
  unfold k3_pay15
  refine (out_ix _ v27 v29 r c).trans ?_
  unfold Cert.Spec.headPre3
  refine congrArg₂ (· + ·) (congrArg₂ Cert.Spec.dot3 (funext fun j => ?_) rfl) rfl
  refine (upd_ix _ v17 _ r j).trans ?_
  unfold Cert.Spec.upd
  refine congrArg₂ (· + ·) (congrArg₂ (· * ·) ?_ rfl) (tn_ix v30 v33 v34 v36 v21 r j x W h30 h33 h34 h36)
  refine (gate_ix _ _).trans ?_
  refine congrArg (fun s => Ideal.logistic (Cert.Spec.leaky s)) ?_
  refine (score_ix _ v17 v23 v25 r).trans ?_
  unfold Cert.Spec.score
  refine congrArg₂ (· + ·) (Finset.sum_congr rfl fun j' _ => ?_) rfl
  exact congrArg₂ (· * ·) (congrArg₂ (· + ·) (tn_ix v30 v33 v34 v36 v21 r j' x W h30 h33 h34 h36) rfl) rfl

/-- The row before normalisation at (r, cc), from what the ten input blocks are at the row: over plain vectors. -/
theorem pre_ix_var (x0 x1 : Vec Ideal S8192x128 .f32) (x2 : Vec Ideal S128x64 .f32) (x3 x4 : Vec Ideal S1x64 .f32) (x5 : Vec Ideal S1x1 .f32)
    (x6 : Vec Ideal S64x128 .f32) (x7 x8 x9 : Vec Ideal S1x128 .f32) (r : Fin 8192) (cc : Fin 128)
    (a0 a8 a9 : Fin 128 → EReal) (agg : Fin 64 → EReal) (W : Fin 128 → Fin 64 → EReal) (b a : Fin 64 → EReal) (a5 : EReal)
    (O : Fin 64 → Fin 128 → EReal) (o : Fin 128 → EReal)
    (h0 : ∀ k, x0 (ix2 r k) = a0 k) (h8 : ∀ k, x8 (ix2 (0 : Fin 1) k) = a8 k) (h9 : ∀ k, x9 (ix2 (0 : Fin 1) k) = a9 k)
    (h1 : ∀ j : Fin 64, x1 (ix2 r (⟨0 + j.val, by have := j.isLt; omega⟩ : Fin 128)) = agg j)
    (h2 : ∀ k j, x2 (ix2 k j) = W k j) (h3 : ∀ j, x3 (ix2 (0 : Fin 1) j) = b j) (h4 : ∀ j, x4 (ix2 (0 : Fin 1) j) = a j)
    (h5 : x5 (ix2 (0 : Fin 1) (0 : Fin 1)) = a5) (h6 : ∀ j c, x6 (ix2 j c) = O j c) (h7 : ∀ c, x7 (ix2 (0 : Fin 1) c) = o c) :
    k3_pay15 (F := Ideal) (k3_pay4 x1) (k3_pay6 x3) (k3_pay7 x4) (k3_pay8 x5) (k3_pay9 x6) (k3_pay10 x7) (k3_pay11 x0 x8 x9) (k3_pay12 x0 x8 x9) (k3_pay13 x2) (k3_pay14 x2) (ix2 r cc)
      = Cert.Spec.headPre3 W b a a5 O o (fun k => Cert.Spec.norm (a0 k) (a8 k) (a9 k)) agg cc := by
  refine (pay15_ix (k3_pay4 x1) (k3_pay6 x3) (k3_pay7 x4) (k3_pay8 x5) (k3_pay9 x6) (k3_pay10 x7) (k3_pay11 x0 x8 x9) (k3_pay12 x0 x8 x9) (k3_pay13 x2) (k3_pay14 x2) r cc
    (fun k => Cert.Spec.norm (a0 k) (a8 k) (a9 k)) W
    (fun k => by rw [pay11_ix, pay3_ix, h0, h8, h9])
    (fun k => by rw [pay12_ix, pay3_ix, h0, h8, h9])
    (fun k j => by rw [pay13_ix, h2])
    (fun k j => by rw [pay14_ix, h2])).trans ?_
  rw [pay6_eq, pay7_eq, pay8_eq, pay9_eq, pay10_eq]
  simp only [pay4_ix, h1, h3, h4, h5, h6, h7]

end Cert.KernelIdeal.Reg3

end
-- ==== Proof.Reg3Blocks.lean ====
/-
  The head kernel's region (the third head): what its three output arrays hold after the launch.

  Point `t` of the four works on rows 8192·t … 8192·t + 8191: it reads those rows of the previous head's array and of
  the 128-column block of the stacked aggregates that holds this head's 64 columns, and the head's weights whole; it
  writes back the rows before normalisation. The column minimum and maximum are carried from point to point and
  written back once, at the last point: the minimum (maximum) of the four blocks' own infima (suprema), that is, the
  infimum (supremum) over all 32768 rows.
-/
import proofs.«100906_j73718818669321_2_alg».proof.Proof.Reg3Chain
import proofs.«100906_j73718818669321_2_alg».proof.Proof.Reg3PayB

set_option maxRecDepth 16384

noncomputable section

namespace Cert.KernelIdeal.Reg3

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! ## The printed index maps, and where a block's entry sits in its array -/

theorem idx_facts : ∀ t : Fin cfg3.N,
    win3_0.index t (0 : Fin 2) = t.val ∧ win3_0.index t (1 : Fin 2) = 0
    ∧ win3_1.index t (0 : Fin 2) = t.val ∧ win3_1.index t (1 : Fin 2) = 1
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = 0 ∧ win3_8.index t (1 : Fin 2) = 0
    ∧ win3_9.index t (0 : Fin 2) = 0 ∧ win3_9.index t (1 : Fin 2) = 0
    ∧ win3_10.index t (0 : Fin 2) = t.val ∧ win3_10.index t (1 : Fin 2) = 0
    ∧ win3_11.index t (0 : Fin 2) = 0 ∧ win3_11.index t (1 : Fin 2) = 0
    ∧ win3_12.index t (0 : Fin 2) = 0 ∧ win3_12.index t (1 : Fin 2) = 0 :=
  (by decide +kernel : ∀ t : Fin grid3.N, _)

theorem t_lt (t : Fin cfg3.N) : t.val < 4 := lt_of_lt_of_eq t.isLt N_3

theorem emb_0 (t : Fin cfg3.N) (r : Fin 8192) (k : Fin 128) :
    ((cfg3.win 0).blk t).view.emb (ix2 r k)
      = ix2 (⟨t.val * 8192 + r.val, by have := t_lt t; have := r.isLt; omega⟩ : Fin 32768) k := by
  have e := idx_facts t
  funext x; apply Fin.ext
  match x with
  | ⟨0, _⟩ => show win3_0.index t (0 : Fin 2) * 8192 + 1 * r.val = t.val * 8192 + r.val; omega
  | ⟨1, _⟩ => show win3_0.index t (1 : Fin 2) * 128 + 1 * k.val = k.val; omega
theorem iblk_0 (c : Dev nD) (t : Fin cfg3.N) (r : Fin 8192) (k : Fin 128) :
    iblk V c 0 t (ix2 r k) = (V c (Pipeline.arrRef spec3 0) : S32768x128.Idx → EReal)
      (ix2 (⟨t.val * 8192 + r.val, by have := t_lt t; have := r.isLt; omega⟩ : Fin 32768) k) := by
  show (V c (Pipeline.arrRef spec3 0) : S32768x128.Idx → EReal) (((cfg3.win 0).blk t).view.emb (ix2 r k)) = _
  rw [emb_0]

theorem emb_1 (t : Fin cfg3.N) (r : Fin 8192) (k : Fin 128) :
    ((cfg3.win 1).blk t).view.emb (ix2 r k)
      = ix2 (⟨t.val * 8192 + r.val, by have := t_lt t; have := r.isLt; omega⟩ : Fin 32768) (⟨128 + k.val, by have := k.isLt; omega⟩ : Fin 256) := by
  have e := idx_facts t
  funext x; apply Fin.ext
  match x with
  | ⟨0, _⟩ => show win3_1.index t (0 : Fin 2) * 8192 + 1 * r.val = t.val * 8192 + r.val; omega
  | ⟨1, _⟩ => show win3_1.index t (1 : Fin 2) * 128 + 1 * k.val = 128 + k.val; omega
theorem iblk_1 (c : Dev nD) (t : Fin cfg3.N) (r : Fin 8192) (k : Fin 128) :
    iblk V c 1 t (ix2 r k) = (V c (Pipeline.arrRef spec3 1) : S32768x256.Idx → EReal)
      (ix2 (⟨t.val * 8192 + r.val, by have := t_lt t; have := r.isLt; omega⟩ : Fin 32768) (⟨128 + k.val, by have := k.isLt; omega⟩ : Fin 256)) := by
  show (V c (Pipeline.arrRef spec3 1) : S32768x256.Idx → EReal) (((cfg3.win 1).blk t).view.emb (ix2 r k)) = _
  rw [emb_1]

theorem emb_2 (t : Fin cfg3.N) (a : Fin 128) (b : Fin 64) :
    ((cfg3.win 2).blk t).view.emb (ix2 a b) = ix2 a b := by
  have e := idx_facts t
  funext x; apply Fin.ext
  match x with
  | ⟨0, _⟩ => show win3_2.index t (0 : Fin 2) * 128 + 1 * a.val = a.val; omega
  | ⟨1, _⟩ => show win3_2.index t (1 : Fin 2) * 64 + 1 * b.val = b.val; omega
theorem iblk_2 (c : Dev nD) (t : Fin cfg3.N) (a : Fin 128) (b : Fin 64) :
    iblk V c 2 t (ix2 a b) = (V c (Pipeline.arrRef spec3 2) : S128x64.Idx → EReal) (ix2 a b) := by
  show (V c (Pipeline.arrRef spec3 2) : S128x64.Idx → EReal) (((cfg3.win 2).blk t).view.emb (ix2 a b)) = _
  rw [emb_2]

theorem emb_3 (t : Fin cfg3.N) (a : Fin 1) (b : Fin 64) :
    ((cfg3.win 3).blk t).view.emb (ix2 a b) = ix2 a b := by
  have e := idx_facts t
  funext x; apply Fin.ext
  match x with
  | ⟨0, _⟩ => show win3_3.index t (0 : Fin 2) * 1 + 1 * a.val = a.val; omega
  | ⟨1, _⟩ => show win3_3.index t (1 : Fin 2) * 64 + 1 * b.val = b.val; omega
theorem iblk_3 (c : Dev nD) (t : Fin cfg3.N) (a : Fin 1) (b : Fin 64) :
    iblk V c 3 t (ix2 a b) = (V c (Pipeline.arrRef spec3 3) : S1x64.Idx → EReal) (ix2 a b) := by
  show (V c (Pipeline.arrRef spec3 3) : S1x64.Idx → EReal) (((cfg3.win 3).blk t).view.emb (ix2 a b)) = _
  rw [emb_3]

theorem emb_4 (t : Fin cfg3.N) (a : Fin 1) (b : Fin 64) :
    ((cfg3.win 4).blk t).view.emb (ix2 a b) = ix2 a b := by
  have e := idx_facts t
  funext x; apply Fin.ext
  match x with
  | ⟨0, _⟩ => show win3_4.index t (0 : Fin 2) * 1 + 1 * a.val = a.val; omega
  | ⟨1, _⟩ => show win3_4.index t (1 : Fin 2) * 64 + 1 * b.val = b.val; omega
theorem iblk_4 (c : Dev nD) (t : Fin cfg3.N) (a : Fin 1) (b : Fin 64) :
    iblk V c 4 t (ix2 a b) = (V c (Pipeline.arrRef spec3 4) : S1x64.Idx → EReal) (ix2 a b) := by
  show (V c (Pipeline.arrRef spec3 4) : S1x64.Idx → EReal) (((cfg3.win 4).blk t).view.emb (ix2 a b)) = _
  rw [emb_4]

theorem emb_5 (t : Fin cfg3.N) (a : Fin 1) (b : Fin 1) :
    ((cfg3.win 5).blk t).view.emb (ix2 a b) = ix2 a b := by
  have e := idx_facts t
  funext x; apply Fin.ext
  match x with
  | ⟨0, _⟩ => show win3_5.index t (0 : Fin 2) * 1 + 1 * a.val = a.val; omega
  | ⟨1, _⟩ => show win3_5.index t (1 : Fin 2) * 1 + 1 * b.val = b.val; omega
theorem iblk_5 (c : Dev nD) (t : Fin cfg3.N) (a : Fin 1) (b : Fin 1) :
    iblk V c 5 t (ix2 a b) = (V c (Pipeline.arrRef spec3 5) : S1x1.Idx → EReal) (ix2 a b) := by
  show (V c (Pipeline.arrRef spec3 5) : S1x1.Idx → EReal) (((cfg3.win 5).blk t).view.emb (ix2 a b)) = _
  rw [emb_5]

theorem emb_6 (t : Fin cfg3.N) (a : Fin 64) (b : Fin 128) :
    ((cfg3.win 6).blk t).view.emb (ix2 a b) = ix2 a b := by
  have e := idx_facts t
  funext x; apply Fin.ext
  match x with
  | ⟨0, _⟩ => show win3_6.index t (0 : Fin 2) * 64 + 1 * a.val = a.val; omega
  | ⟨1, _⟩ => show win3_6.index t (1 : Fin 2) * 128 + 1 * b.val = b.val; omega
theorem iblk_6 (c : Dev nD) (t : Fin cfg3.N) (a : Fin 64) (b : Fin 128) :
    iblk V c 6 t (ix2 a b) = (V c (Pipeline.arrRef spec3 6) : S64x128.Idx → EReal) (ix2 a b) := by
  show (V c (Pipeline.arrRef spec3 6) : S64x128.Idx → EReal) (((cfg3.win 6).blk t).view.emb (ix2 a b)) = _
  rw [emb_6]

theorem emb_7 (t : Fin cfg3.N) (a : Fin 1) (b : Fin 128) :
    ((cfg3.win 7).blk t).view.emb (ix2 a b) = ix2 a b := by
  have e := idx_facts t
  funext x; apply Fin.ext
  match x with
  | ⟨0, _⟩ => show win3_7.index t (0 : Fin 2) * 1 + 1 * a.val = a.val; omega
  | ⟨1, _⟩ => show win3_7.index t (1 : Fin 2) * 128 + 1 * b.val = b.val; omega
theorem iblk_7 (c : Dev nD) (t : Fin cfg3.N) (a : Fin 1) (b : Fin 128) :
    iblk V c 7 t (ix2 a b) = (V c (Pipeline.arrRef spec3 7) : S1x128.Idx → EReal) (ix2 a b) := by
  show (V c (Pipeline.arrRef spec3 7) : S1x128.Idx → EReal) (((cfg3.win 7).blk t).view.emb (ix2 a b)) = _
  rw [emb_7]

theorem emb_8 (t : Fin cfg3.N) (a : Fin 1) (b : Fin 128) :
    ((cfg3.win 8).blk t).view.emb (ix2 a b) = ix2 a b := by
  have e := idx_facts t
  funext x; apply Fin.ext
  match x with
  | ⟨0, _⟩ => show win3_8.index t (0 : Fin 2) * 1 + 1 * a.val = a.val; omega
  | ⟨1, _⟩ => show win3_8.index t (1 : Fin 2) * 128 + 1 * b.val = b.val; omega
theorem iblk_8 (c : Dev nD) (t : Fin cfg3.N) (a : Fin 1) (b : Fin 128) :
    iblk V c 8 t (ix2 a b) = (V c (Pipeline.arrRef spec3 8) : S1x128.Idx → EReal) (ix2 a b) := by
  show (V c (Pipeline.arrRef spec3 8) : S1x128.Idx → EReal) (((cfg3.win 8).blk t).view.emb (ix2 a b)) = _
  rw [emb_8]

theorem emb_9 (t : Fin cfg3.N) (a : Fin 1) (b : Fin 128) :
    ((cfg3.win 9).blk t).view.emb (ix2 a b) = ix2 a b := by
  have e := idx_facts t
  funext x; apply Fin.ext
  match x with
  | ⟨0, _⟩ => show win3_9.index t (0 : Fin 2) * 1 + 1 * a.val = a.val; omega
  | ⟨1, _⟩ => show win3_9.index t (1 : Fin 2) * 128 + 1 * b.val = b.val; omega
theorem iblk_9 (c : Dev nD) (t : Fin cfg3.N) (a : Fin 1) (b : Fin 128) :
    iblk V c 9 t (ix2 a b) = (V c (Pipeline.arrRef spec3 9) : S1x128.Idx → EReal) (ix2 a b) := by
  show (V c (Pipeline.arrRef spec3 9) : S1x128.Idx → EReal) (((cfg3.win 9).blk t).view.emb (ix2 a b)) = _
  rw [emb_9]

theorem emb_10 (t : Fin cfg3.N) (r : Fin 8192) (k : Fin 128) :
    ((cfg3.win 10).blk t).view.emb (ix2 r k)
      = ix2 (⟨t.val * 8192 + r.val, by have := t_lt t; have := r.isLt; omega⟩ : Fin 32768) k := by
  have e := idx_facts t
  funext x; apply Fin.ext
  match x with
  | ⟨0, _⟩ => show win3_10.index t (0 : Fin 2) * 8192 + 1 * r.val = t.val * 8192 + r.val; omega
  | ⟨1, _⟩ => show win3_10.index t (1 : Fin 2) * 128 + 1 * k.val = k.val; omega

theorem emb_11 (t : Fin cfg3.N) (a : Fin 1) (b : Fin 128) :
    ((cfg3.win 11).blk t).view.emb (ix2 a b) = ix2 a b := by
  have e := idx_facts t
  funext x; apply Fin.ext
  match x with
  | ⟨0, _⟩ => show win3_11.index t (0 : Fin 2) * 1 + 1 * a.val = a.val; omega
  | ⟨1, _⟩ => show win3_11.index t (1 : Fin 2) * 128 + 1 * b.val = b.val; omega
theorem emb_12 (t : Fin cfg3.N) (a : Fin 1) (b : Fin 128) :
    ((cfg3.win 12).blk t).view.emb (ix2 a b) = ix2 a b := by
  have e := idx_facts t
  funext x; apply Fin.ext
  match x with
  | ⟨0, _⟩ => show win3_12.index t (0 : Fin 2) * 1 + 1 * a.val = a.val; omega
  | ⟨1, _⟩ => show win3_12.index t (1 : Fin 2) * 128 + 1 * b.val = b.val; omega

/-! ## The row before normalisation as a function of the arrays the region found -/

/-- Row `n`, column `cc` of the array before normalisation. -/
def preRow (c : Dev nD) (n : Fin 32768) (cc : Fin 128) : EReal :=
  Cert.Spec.headPre3 (fun k j => (V c (Pipeline.arrRef spec3 2) : S128x64.Idx → EReal) (ix2 k j))
    (fun j => (V c (Pipeline.arrRef spec3 3) : S1x64.Idx → EReal) (ix2 (0 : Fin 1) j))
    (fun j => (V c (Pipeline.arrRef spec3 4) : S1x64.Idx → EReal) (ix2 (0 : Fin 1) j))
    ((V c (Pipeline.arrRef spec3 5) : S1x1.Idx → EReal) (ix2 (0 : Fin 1) (0 : Fin 1)))
    (fun j cc => (V c (Pipeline.arrRef spec3 6) : S64x128.Idx → EReal) (ix2 j cc))
    (fun cc => (V c (Pipeline.arrRef spec3 7) : S1x128.Idx → EReal) (ix2 (0 : Fin 1) cc))
    (fun k => Cert.Spec.norm ((V c (Pipeline.arrRef spec3 0) : S32768x128.Idx → EReal) (ix2 n k))
      ((V c (Pipeline.arrRef spec3 8) : S1x128.Idx → EReal) (ix2 (0 : Fin 1) k))
      ((V c (Pipeline.arrRef spec3 9) : S1x128.Idx → EReal) (ix2 (0 : Fin 1) k)))
    (fun j => (V c (Pipeline.arrRef spec3 1) : S32768x256.Idx → EReal) (ix2 n (⟨128 + j.val, by have := j.isLt; omega⟩ : Fin 256))) cc

/-- The aggregate's column `j` of this head at row `r` of the block: column 128 + j of the stacked array. -/
theorem agg_blk (c : Dev nD) (t : Fin cfg3.N) (r : Fin 8192) (j : Fin 64) :
    iblk V c 1 t (ix2 r (⟨0 + j.val, by have := j.isLt; omega⟩ : Fin 128)) = (V c (Pipeline.arrRef spec3 1) : S32768x256.Idx → EReal)
      (ix2 (⟨t.val * 8192 + r.val, by have := t_lt t; have := r.isLt; omega⟩ : Fin 32768) (⟨128 + j.val, by have := j.isLt; omega⟩ : Fin 256)) := by
  rw [iblk_1]
  exact congrArg _ (congrArg (ix2 _) (Fin.ext (by show 128 + (0 + j.val) = 128 + j.val; omega)))

theorem preAt_ix (c : Dev nD) (t : Fin cfg3.N) (r : Fin 8192) (cc : Fin 128) :
    preAt V c t (ix2 r cc) = preRow V c ⟨t.val * 8192 + r.val, by have := t_lt t; have := r.isLt; omega⟩ cc :=
  pre_ix_var (iblk V c 0 t) (iblk V c 1 t) (iblk V c 2 t) (iblk V c 3 t) (iblk V c 4 t) (iblk V c 5 t) (iblk V c 6 t) (iblk V c 7 t) (iblk V c 8 t) (iblk V c 9 t) r cc
    (fun k => (V c (Pipeline.arrRef spec3 0) : S32768x128.Idx → EReal) (ix2 (⟨t.val * 8192 + r.val, by have := t_lt t; have := r.isLt; omega⟩ : Fin 32768) k))
    (fun k => (V c (Pipeline.arrRef spec3 8) : S1x128.Idx → EReal) (ix2 (0 : Fin 1) k))
    (fun k => (V c (Pipeline.arrRef spec3 9) : S1x128.Idx → EReal) (ix2 (0 : Fin 1) k))
    (fun j => (V c (Pipeline.arrRef spec3 1) : S32768x256.Idx → EReal) (ix2 (⟨t.val * 8192 + r.val, by have := t_lt t; have := r.isLt; omega⟩ : Fin 32768) (⟨128 + j.val, by have := j.isLt; omega⟩ : Fin 256)))
    (fun k j => (V c (Pipeline.arrRef spec3 2) : S128x64.Idx → EReal) (ix2 k j))
    (fun j => (V c (Pipeline.arrRef spec3 3) : S1x64.Idx → EReal) (ix2 (0 : Fin 1) j))
    (fun j => (V c (Pipeline.arrRef spec3 4) : S1x64.Idx → EReal) (ix2 (0 : Fin 1) j))
    ((V c (Pipeline.arrRef spec3 5) : S1x1.Idx → EReal) (ix2 (0 : Fin 1) (0 : Fin 1)))
    (fun j cc => (V c (Pipeline.arrRef spec3 6) : S64x128.Idx → EReal) (ix2 j cc))
    (fun cc => (V c (Pipeline.arrRef spec3 7) : S1x128.Idx → EReal) (ix2 (0 : Fin 1) cc))
    (fun k => iblk_0 V c t r k) (fun k => iblk_8 V c t 0 k) (fun k => iblk_9 V c t 0 k)
    (fun j => agg_blk V c t r j)
    (fun k j => iblk_2 V c t k j) (fun j => iblk_3 V c t 0 j) (fun j => iblk_4 V c t 0 j)
    (iblk_5 V c t 0 0) (fun j cc => iblk_6 V c t j cc) (fun cc => iblk_7 V c t 0 cc)

end Cert.KernelIdeal.Reg3

end
-- ==== Proof.Reg3Value.lean ====
/-
  The head kernel's region (the third head): the three output arrays after the launch.

  The four blocks of rows tile the first output, so it ends as one function of the arrays the region found. The last
  two outputs are written back once, at the last point, with the minimum (maximum) of the four blocks' own column
  infima (suprema): the infimum (supremum) over all 32768 rows.
-/
import proofs.«100906_j73718818669321_2_alg».proof.Proof.Reg3Blocks

set_option maxRecDepth 16384

noncomputable section

namespace Cert.KernelIdeal.Reg3

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! ## The first output: the array before normalisation -/

/-- What the first output array ends holding. -/
def G10 (c : Dev nD) : S32768x128.Idx → EReal := fun i => preRow V c ⟨(i 0).val, (i 0).isLt⟩ ⟨(i 1).val, (i 1).isLt⟩

theorem flushed10_eq (c : Dev nD) (t : Fin cfg3.N) :
    (dat V c).flushed 10 t = ((cfg3.win 10).blk t).view.read (Elt Ideal) (G10 V c) := by
  show (cfg3.win 10).cut (grid3.coords t) ((dat V c).after 10 t) = _
  rw [after3_10, out10_eq]
  funext j
  obtain ⟨r, cc, rfl⟩ : ∃ (r : Fin 8192) (cc : Fin 128), j = ix2 r cc := ⟨j 0, j 1, eq_ix2 j⟩
  refine (preAt_ix V c t r cc).trans ?_
  show _ = G10 V c (((cfg3.win 10).blk t).view.emb (ix2 r cc))
  rw [emb_10]
  rfl

theorem mem_blk10 (t : Fin cfg3.N) (i : S32768x128.Idx) :
    i ∈ ((cfg3.win 10).blk t).view.set ↔ ∀ a : Fin 2, win3_10.index t a * S8192x128.size a ≤ (i a).val ∧ (i a).val < win3_10.index t a * S8192x128.size a + S8192x128.size a := by
  show i ∈ ((View.whole main_v79_0).slice (win3_10.rect t)).set ↔ _
  rw [View.set_slice_whole, Rect.mem_set_unit]
  exact Iff.rfl

theorem cover10 (i : S32768x128.Idx) :
    ∃ t : Fin cfg3.N, (cfg3.win 10).flush t = true ∧ i ∈ ((cfg3.win 10).blk t).view.set := by
  have hi0 : (i 0).val < 32768 := (i 0).isLt
  have hi1 : (i 1).val < 128 := (i 1).isLt
  let t : Fin cfg3.N := ⟨(i 0).val / 8192, lt_of_lt_of_eq (show (i 0).val / 8192 < 4 by omega) N_3.symm⟩
  have ht : t.val = (i 0).val / 8192 := rfl
  have e := idx_facts t
  refine ⟨t, flush3_10 t, ?_⟩
  rw [mem_blk10]
  intro a
  match a with
  | ⟨0, _⟩ => show win3_10.index t (0 : Fin 2) * 8192 ≤ (i 0).val ∧ (i 0).val < win3_10.index t (0 : Fin 2) * 8192 + 8192; omega
  | ⟨1, _⟩ => show win3_10.index t (1 : Fin 2) * 128 ≤ (i 1).val ∧ (i 1).val < win3_10.index t (1 : Fin 2) * 128 + 128; omega

theorem final10 (c : Dev nD) : (dat V c).arrAt 10 cfg3.N = G10 V c :=
  (dat V c).arrAt_eq_of_cover 10 (G10 V c) (fun t _ => flushed10_eq V c t) cover10

/-- The array before normalisation, at row `n` and column `cc`. -/
theorem value_pre (c : Dev nD) (n : Fin 32768) (cc : Fin 128) :
    ((dat V c).arrAt 10 cfg3.N : S32768x128.Idx → EReal) (ix2 n cc) = preRow V c n cc := by
  rw [final10]
  rfl

/-- The first output array after the launch, over plain indices. -/
def preArr (c : Dev nD) (n : Fin 32768) (cc : Fin 128) : EReal :=
  ((dat V c).arrAt 10 cfg3.N : S32768x128.Idx → EReal) (ix2 n cc)

/-! ## The carried rows: the running column minimum and maximum -/

/-- The block's own column infimum and supremum at point `t`. -/
def blkMin (c : Dev nD) (t : Fin 4) (cc : Fin 128) : EReal :=
  ⨅ r : Fin 8192, preRow V c ⟨t.val * 8192 + r.val, by have := t.isLt; have := r.isLt; omega⟩ cc
def blkMax (c : Dev nD) (t : Fin 4) (cc : Fin 128) : EReal :=
  ⨆ r : Fin 8192, preRow V c ⟨t.val * 8192 + r.val, by have := t.isLt; have := r.isLt; omega⟩ cc

theorem colInf_preAt (c : Dev nD) (t : Fin cfg3.N) (cc : Fin 128) :
    (⨅ r : Fin 8192, preAt V c t (ix2 r cc)) = blkMin V c ⟨t.val, t_lt t⟩ cc :=
  iInf_congr fun r => preAt_ix V c t r cc
theorem colSup_preAt (c : Dev nD) (t : Fin cfg3.N) (cc : Fin 128) :
    (⨆ r : Fin 8192, preAt V c t (ix2 r cc)) = blkMax V c ⟨t.val, t_lt t⟩ cc :=
  iSup_congr fun r => preAt_ix V c t r cc

/-- An infimum over the 32768 rows is the minimum of the four blocks' infima. -/
theorem iInf_four (f : Fin 32768 → EReal) :
    min (min (min (⨅ r : Fin 8192, f ⟨0 * 8192 + r.val, by have := r.isLt; omega⟩) (⨅ r : Fin 8192, f ⟨1 * 8192 + r.val, by have := r.isLt; omega⟩))
      (⨅ r : Fin 8192, f ⟨2 * 8192 + r.val, by have := r.isLt; omega⟩)) (⨅ r : Fin 8192, f ⟨3 * 8192 + r.val, by have := r.isLt; omega⟩) = ⨅ n, f n := by
  apply le_antisymm
  · refine le_iInf fun n => ?_
    have hn := n.isLt
    rcases (by omega : n.val < 8192 ∨ (8192 ≤ n.val ∧ n.val < 16384) ∨ (16384 ≤ n.val ∧ n.val < 24576) ∨ 24576 ≤ n.val) with h | h | h | h
    · exact (min_le_left _ _).trans ((min_le_left _ _).trans ((min_le_left _ _).trans
        ((iInf_le _ (⟨n.val, h⟩ : Fin 8192)).trans (le_of_eq (congrArg f (Fin.ext (by show 0 * 8192 + n.val = n.val; omega)))))))
    · exact (min_le_left _ _).trans ((min_le_left _ _).trans ((min_le_right _ _).trans
        ((iInf_le _ (⟨n.val - 8192, by omega⟩ : Fin 8192)).trans (le_of_eq (congrArg f (Fin.ext (by show 1 * 8192 + (n.val - 8192) = n.val; omega)))))))
    · exact (min_le_left _ _).trans ((min_le_right _ _).trans
        ((iInf_le _ (⟨n.val - 16384, by omega⟩ : Fin 8192)).trans (le_of_eq (congrArg f (Fin.ext (by show 2 * 8192 + (n.val - 16384) = n.val; omega))))))
    · exact (min_le_right _ _).trans
        ((iInf_le _ (⟨n.val - 24576, by omega⟩ : Fin 8192)).trans (le_of_eq (congrArg f (Fin.ext (by show 3 * 8192 + (n.val - 24576) = n.val; omega)))))
  · exact le_min (le_min (le_min (le_iInf fun r => iInf_le f _) (le_iInf fun r => iInf_le f _)) (le_iInf fun r => iInf_le f _)) (le_iInf fun r => iInf_le f _)

theorem iSup_four (f : Fin 32768 → EReal) :
    max (max (max (⨆ r : Fin 8192, f ⟨0 * 8192 + r.val, by have := r.isLt; omega⟩) (⨆ r : Fin 8192, f ⟨1 * 8192 + r.val, by have := r.isLt; omega⟩))
      (⨆ r : Fin 8192, f ⟨2 * 8192 + r.val, by have := r.isLt; omega⟩)) (⨆ r : Fin 8192, f ⟨3 * 8192 + r.val, by have := r.isLt; omega⟩) = ⨆ n, f n := by
  apply le_antisymm
  · exact max_le (max_le (max_le (iSup_le fun r => le_iSup f _) (iSup_le fun r => le_iSup f _)) (iSup_le fun r => le_iSup f _)) (iSup_le fun r => le_iSup f _)
  · refine iSup_le fun n => ?_
    have hn := n.isLt
    rcases (by omega : n.val < 8192 ∨ (8192 ≤ n.val ∧ n.val < 16384) ∨ (16384 ≤ n.val ∧ n.val < 24576) ∨ 24576 ≤ n.val) with h | h | h | h
    · have e : f n = f ⟨0 * 8192 + (⟨n.val - 0, by omega⟩ : Fin 8192).val, by have := n.isLt; omega⟩ :=
        congrArg f (Fin.ext (by show n.val = 0 * 8192 + (n.val - 0); omega))
      exact (e.le.trans (le_iSup (fun r : Fin 8192 => f ⟨0 * 8192 + r.val, by have := r.isLt; omega⟩) ⟨n.val - 0, by omega⟩)).trans
        ((le_max_left _ _).trans ((le_max_left _ _).trans (le_max_left _ _)))
    · have e : f n = f ⟨1 * 8192 + (⟨n.val - 8192, by omega⟩ : Fin 8192).val, by have := n.isLt; omega⟩ :=
        congrArg f (Fin.ext (by show n.val = 1 * 8192 + (n.val - 8192); omega))
      exact (e.le.trans (le_iSup (fun r : Fin 8192 => f ⟨1 * 8192 + r.val, by have := r.isLt; omega⟩) ⟨n.val - 8192, by omega⟩)).trans
        ((le_max_right _ _).trans ((le_max_left _ _).trans (le_max_left _ _)))
    · have e : f n = f ⟨2 * 8192 + (⟨n.val - 16384, by omega⟩ : Fin 8192).val, by have := n.isLt; omega⟩ :=
        congrArg f (Fin.ext (by show n.val = 2 * 8192 + (n.val - 16384); omega))
      exact (e.le.trans (le_iSup (fun r : Fin 8192 => f ⟨2 * 8192 + r.val, by have := r.isLt; omega⟩) ⟨n.val - 16384, by omega⟩)).trans
        ((le_max_right _ _).trans (le_max_left _ _))
    · have e : f n = f ⟨3 * 8192 + (⟨n.val - 24576, by omega⟩ : Fin 8192).val, by have := n.isLt; omega⟩ :=
        congrArg f (Fin.ext (by show n.val = 3 * 8192 + (n.val - 24576); omega))
      exact (e.le.trans (le_iSup (fun r : Fin 8192 => f ⟨3 * 8192 + r.val, by have := r.isLt; omega⟩) ⟨n.val - 24576, by omega⟩)).trans
        (le_max_right _ _)

theorem smin_A (c : Dev nD) (t : Fin cfg3.N) (h0 : t.val = 0) (cc : Fin 128) :
    (outsAt3 V c t.val t.isLt).2.2.2.1 (ix2 (0 : Fin 1) cc) = blkMin V c ⟨t.val, t_lt t⟩ cc := by
  rw [(outs_A V c t h0).2.1]
  unfold mn0At k3_pay16
  exact (pay16_ix _ cc).trans (colInf_preAt V c t cc)

theorem smin_B (c : Dev nD) (t : Fin cfg3.N) (h0 : ¬t.val = 0) (h3 : ¬t.val = 3) (cc : Fin 128) :
    (outsAt3 V c t.val t.isLt).2.2.2.1 (ix2 (0 : Fin 1) cc)
      = min ((outsAt3 V c (t.val - 1) (Nat.lt_of_le_of_lt (Nat.sub_le _ _) t.isLt)).2.2.2.1 (ix2 (0 : Fin 1) cc)) (blkMin V c ⟨t.val, t_lt t⟩ cc) := by
  rw [(outs_B V c t h0 h3).2.1, pay1_ix, colInf_preAt]

theorem smin_C (c : Dev nD) (t : Fin cfg3.N) (h0 : ¬t.val = 0) (h3 : t.val = 3) (cc : Fin 128) :
    (outsAt3 V c t.val t.isLt).2.1 (ix2 (0 : Fin 1) cc)
      = min ((outsAt3 V c (t.val - 1) (Nat.lt_of_le_of_lt (Nat.sub_le _ _) t.isLt)).2.2.2.1 (ix2 (0 : Fin 1) cc)) (blkMin V c ⟨t.val, t_lt t⟩ cc) := by
  rw [(outs_C V c t h0 h3).2.1, pay1_ix, colInf_preAt]

/-- What the last point copies out: the minimum of the four blocks' own. -/
theorem smin_last (c : Dev nD) (h : 3 < cfg3.N) (cc : Fin 128) :
    (outsAt3 V c 3 h).2.1 (ix2 (0 : Fin 1) cc)
      = min (min (min (blkMin V c ⟨0, by decide⟩ cc) (blkMin V c ⟨1, by decide⟩ cc)) (blkMin V c ⟨2, by decide⟩ cc)) (blkMin V c ⟨3, by decide⟩ cc) := by
  have e3 := smin_C V c ⟨3, h⟩ (show ¬(3 : ℕ) = 0 by decide) rfl cc
  have e2 := smin_B V c ⟨2, Nat.lt_of_succ_lt h⟩ (show ¬(2 : ℕ) = 0 by decide) (show ¬(2 : ℕ) = 3 by decide) cc
  have e1 := smin_B V c ⟨1, Nat.lt_of_succ_lt (Nat.lt_of_succ_lt h)⟩ (show ¬(1 : ℕ) = 0 by decide) (show ¬(1 : ℕ) = 3 by decide) cc
  have e0 := smin_A V c ⟨0, Nat.lt_of_succ_lt (Nat.lt_of_succ_lt (Nat.lt_of_succ_lt h))⟩ rfl cc
  exact e3.trans (congrArg₂ min (e2.trans (congrArg₂ min (e1.trans (congrArg₂ min e0 rfl)) rfl)) rfl)

theorem smax_A (c : Dev nD) (t : Fin cfg3.N) (h0 : t.val = 0) (cc : Fin 128) :
    (outsAt3 V c t.val t.isLt).2.2.2.2 (ix2 (0 : Fin 1) cc) = blkMax V c ⟨t.val, t_lt t⟩ cc := by
  rw [(outs_A V c t h0).2.2]
  unfold mx0At k3_pay17
  exact (pay17_ix _ cc).trans (colSup_preAt V c t cc)

theorem smax_B (c : Dev nD) (t : Fin cfg3.N) (h0 : ¬t.val = 0) (h3 : ¬t.val = 3) (cc : Fin 128) :
    (outsAt3 V c t.val t.isLt).2.2.2.2 (ix2 (0 : Fin 1) cc)
      = max ((outsAt3 V c (t.val - 1) (Nat.lt_of_le_of_lt (Nat.sub_le _ _) t.isLt)).2.2.2.2 (ix2 (0 : Fin 1) cc)) (blkMax V c ⟨t.val, t_lt t⟩ cc) := by
  rw [(outs_B V c t h0 h3).2.2, pay2_ix, colSup_preAt]

theorem smax_C (c : Dev nD) (t : Fin cfg3.N) (h0 : ¬t.val = 0) (h3 : t.val = 3) (cc : Fin 128) :
    (outsAt3 V c t.val t.isLt).2.2.1 (ix2 (0 : Fin 1) cc)
      = max ((outsAt3 V c (t.val - 1) (Nat.lt_of_le_of_lt (Nat.sub_le _ _) t.isLt)).2.2.2.2 (ix2 (0 : Fin 1) cc)) (blkMax V c ⟨t.val, t_lt t⟩ cc) := by
  rw [(outs_C V c t h0 h3).2.2, pay2_ix, colSup_preAt]

/-- What the last point copies out: the maximum of the four blocks' own. -/
theorem smax_last (c : Dev nD) (h : 3 < cfg3.N) (cc : Fin 128) :
    (outsAt3 V c 3 h).2.2.1 (ix2 (0 : Fin 1) cc)
      = max (max (max (blkMax V c ⟨0, by decide⟩ cc) (blkMax V c ⟨1, by decide⟩ cc)) (blkMax V c ⟨2, by decide⟩ cc)) (blkMax V c ⟨3, by decide⟩ cc) := by
  have e3 := smax_C V c ⟨3, h⟩ (show ¬(3 : ℕ) = 0 by decide) rfl cc
  have e2 := smax_B V c ⟨2, Nat.lt_of_succ_lt h⟩ (show ¬(2 : ℕ) = 0 by decide) (show ¬(2 : ℕ) = 3 by decide) cc
  have e1 := smax_B V c ⟨1, Nat.lt_of_succ_lt (Nat.lt_of_succ_lt h)⟩ (show ¬(1 : ℕ) = 0 by decide) (show ¬(1 : ℕ) = 3 by decide) cc
  have e0 := smax_A V c ⟨0, Nat.lt_of_succ_lt (Nat.lt_of_succ_lt (Nat.lt_of_succ_lt h))⟩ rfl cc
  exact e3.trans (congrArg₂ max (e2.trans (congrArg₂ max (e1.trans (congrArg₂ max e0 rfl)) rfl)) rfl)

/-! ## The last two outputs: the column minimum and maximum over all rows -/

/-- What output array 11 ends holding. -/
def G11 (c : Dev nD) : S1x128.Idx → EReal := fun i => ⨅ n : Fin 32768, preRow V c n ⟨(i 1).val, (i 1).isLt⟩

theorem flushed11_eq (c : Dev nD) (t : Fin cfg3.N) (hf : (cfg3.win 11).flush t = true) :
    (dat V c).flushed 11 t = ((cfg3.win 11).blk t).view.read (Elt Ideal) (G11 V c) := by
  have h3 : t.val = 3 := by have := (flush3_11 t).mp hf; have := t_lt t; omega
  obtain ⟨n, hn⟩ := t
  have hn3 : n = 3 := h3
  subst hn3
  show (cfg3.win 11).cut (grid3.coords ⟨3, hn⟩) ((dat V c).after 11 ⟨3, hn⟩) = _
  rw [after3_11]
  funext j
  obtain ⟨a, cc, rfl⟩ : ∃ (a : Fin 1) (cc : Fin 128), j = ix2 a cc := ⟨j 0, j 1, eq_ix2 j⟩
  have ha : a = 0 := Subsingleton.elim _ _
  subst ha
  refine (smin_last V c hn cc).trans ?_
  show _ = G11 V c (((cfg3.win 11).blk ⟨3, hn⟩).view.emb (ix2 (0 : Fin 1) cc))
  rw [emb_11]
  exact iInf_four (fun n => preRow V c n cc)

theorem mem_blk11 (t : Fin cfg3.N) (i : S1x128.Idx) :
    i ∈ ((cfg3.win 11).blk t).view.set ↔ ∀ a : Fin 2, win3_11.index t a * S1x128.size a ≤ (i a).val ∧ (i a).val < win3_11.index t a * S1x128.size a + S1x128.size a := by
  show i ∈ ((View.whole main_v79_1).slice (win3_11.rect t)).set ↔ _
  rw [View.set_slice_whole, Rect.mem_set_unit]
  exact Iff.rfl

theorem cover11 (i : S1x128.Idx) :
    ∃ t : Fin cfg3.N, (cfg3.win 11).flush t = true ∧ i ∈ ((cfg3.win 11).blk t).view.set := by
  have hi0 : (i 0).val < 1 := (i 0).isLt
  have hi1 : (i 1).val < 128 := (i 1).isLt
  let t : Fin cfg3.N := ⟨3, lt_of_lt_of_eq (by decide) N_3.symm⟩
  have e := idx_facts t
  refine ⟨t, (flush3_11 t).mpr rfl, ?_⟩
  rw [mem_blk11]
  intro a
  match a with
  | ⟨0, _⟩ => show win3_11.index t (0 : Fin 2) * 1 ≤ (i 0).val ∧ (i 0).val < win3_11.index t (0 : Fin 2) * 1 + 1; omega
  | ⟨1, _⟩ => show win3_11.index t (1 : Fin 2) * 128 ≤ (i 1).val ∧ (i 1).val < win3_11.index t (1 : Fin 2) * 128 + 128; omega

theorem final11 (c : Dev nD) : (dat V c).arrAt 11 cfg3.N = G11 V c :=
  (dat V c).arrAt_eq_of_cover 11 (G11 V c) (fun t hf => flushed11_eq V c t hf) cover11

/-- What output array 12 ends holding. -/
def G12 (c : Dev nD) : S1x128.Idx → EReal := fun i => ⨆ n : Fin 32768, preRow V c n ⟨(i 1).val, (i 1).isLt⟩

theorem flushed12_eq (c : Dev nD) (t : Fin cfg3.N) (hf : (cfg3.win 12).flush t = true) :
    (dat V c).flushed 12 t = ((cfg3.win 12).blk t).view.read (Elt Ideal) (G12 V c) := by
  have h3 : t.val = 3 := by have := (flush3_12 t).mp hf; have := t_lt t; omega
  obtain ⟨n, hn⟩ := t
  have hn3 : n = 3 := h3
  subst hn3
  show (cfg3.win 12).cut (grid3.coords ⟨3, hn⟩) ((dat V c).after 12 ⟨3, hn⟩) = _
  rw [after3_12]
  funext j
  obtain ⟨a, cc, rfl⟩ : ∃ (a : Fin 1) (cc : Fin 128), j = ix2 a cc := ⟨j 0, j 1, eq_ix2 j⟩
  have ha : a = 0 := Subsingleton.elim _ _
  subst ha
  refine (smax_last V c hn cc).trans ?_
  show _ = G12 V c (((cfg3.win 12).blk ⟨3, hn⟩).view.emb (ix2 (0 : Fin 1) cc))
  rw [emb_12]
  exact iSup_four (fun n => preRow V c n cc)

theorem mem_blk12 (t : Fin cfg3.N) (i : S1x128.Idx) :
    i ∈ ((cfg3.win 12).blk t).view.set ↔ ∀ a : Fin 2, win3_12.index t a * S1x128.size a ≤ (i a).val ∧ (i a).val < win3_12.index t a * S1x128.size a + S1x128.size a := by
  show i ∈ ((View.whole main_v79_2).slice (win3_12.rect t)).set ↔ _
  rw [View.set_slice_whole, Rect.mem_set_unit]
  exact Iff.rfl

theorem cover12 (i : S1x128.Idx) :
    ∃ t : Fin cfg3.N, (cfg3.win 12).flush t = true ∧ i ∈ ((cfg3.win 12).blk t).view.set := by
  have hi0 : (i 0).val < 1 := (i 0).isLt
  have hi1 : (i 1).val < 128 := (i 1).isLt
  let t : Fin cfg3.N := ⟨3, lt_of_lt_of_eq (by decide) N_3.symm⟩
  have e := idx_facts t
  refine ⟨t, (flush3_12 t).mpr rfl, ?_⟩
  rw [mem_blk12]
  intro a
  match a with
  | ⟨0, _⟩ => show win3_12.index t (0 : Fin 2) * 1 ≤ (i 0).val ∧ (i 0).val < win3_12.index t (0 : Fin 2) * 1 + 1; omega
  | ⟨1, _⟩ => show win3_12.index t (1 : Fin 2) * 128 ≤ (i 1).val ∧ (i 1).val < win3_12.index t (1 : Fin 2) * 128 + 128; omega

theorem final12 (c : Dev nD) : (dat V c).arrAt 12 cfg3.N = G12 V c :=
  (dat V c).arrAt_eq_of_cover 12 (G12 V c) (fun t hf => flushed12_eq V c t hf) cover12

/-- The column minimum, at column `cc`: the infimum over the 32768 rows of the array before normalisation. -/
theorem value_mn (c : Dev nD) (cc : Fin 128) :
    ((dat V c).arrAt 11 cfg3.N : S1x128.Idx → EReal) (ix2 (0 : Fin 1) cc) = ⨅ n : Fin 32768, preArr V c n cc := by
  unfold preArr
  rw [final11, final10]
  rfl

/-- The column maximum: the supremum. -/
theorem value_mx (c : Dev nD) (cc : Fin 128) :
    ((dat V c).arrAt 12 cfg3.N : S1x128.Idx → EReal) (ix2 (0 : Fin 1) cc) = ⨆ n : Fin 32768, preArr V c n cc := by
  unfold preArr
  rw [final12, final10]
  rfl

end Cert.KernelIdeal.Reg3

end
-- ==== Proof.Reg4Pieces.lean ====
/-
  The head kernel's region: what each control case leaves in each buffer, as the body's arithmetic of the input blocks.

  Every case overwrites the first output's buffer with the rows before normalisation. The first case sets the two
  carried rows to the block's own column minimum and maximum; the other two combine the carried rows with them; the
  last case also copies the combined rows to the last two outputs.
-/
import proofs.«100906_j73718818669321_2_alg».proof.Proof.Reg4Dat
import Idealize.ShloMosaic.Lib.Pipeline.Value

set_option maxRecDepth 16384

noncomputable section

namespace Cert.KernelIdeal.Reg4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz4 : (![0, 0] : Fin 2 → ℕ) = fun _ => 0 := funext fun a => by fin_cases a <;> rfl

/-- The rows before normalisation, from the ten input blocks in window order. -/
def preOf (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) : Vec F S8192x128 .f32 :=
  k4_pay15 (k4_pay4 x1) (k4_pay6 x3) (k4_pay7 x4) (k4_pay8 x5) (k4_pay9 x6) (k4_pay10 x7) (k4_pay11 x0 x8 x9) (k4_pay12 x0 x8 x9) (k4_pay13 x2) (k4_pay14 x2)

theorem out_A_10_eq (c : Dev nD) (i : grid4.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : cond4_0 i) (hc1 : ¬cond4_1 i) (hc2 : ¬cond4_2 i)     (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) :
    out4_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 = preOf x0 x1 x2 x3 x4 x5 x6 x7 x8 x9 := by
  unfold out4_A_10
  rw [View.read_writes_eq_canon _ _ _ (cover4_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9)]
  unfold kernelRun4_A
  dsimp only
  sl_unfold_words
  rw [View.canon_unit_zero hz4]
  simp only [View.readAt_eq_ld, harg1.read_unread, harg2.read_unread, harg3.read_unread, harg4.read_unread, harg5.read_unread, harg6.read_unread, harg7.read_unread, harg8.read_unread, harg9.read_unread, harg10.read_unread, harg14.read_unread, harg15.read_unread, View.ld_unit_zero (S := S8192x128) hz4, View.ld_unit_zero (S := S128x64) hz4, View.ld_unit_zero (S := S1x64) hz4, View.ld_unit_zero (S := S1x1) hz4, View.ld_unit_zero (S := S64x128) hz4, View.ld_unit_zero (S := S1x128) hz4] <;> first | rfl | exact View.readCov_unit_zero _ hz4 _ _

theorem sout_A_0_eq (c : Dev nD) (i : grid4.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : cond4_0 i) (hc1 : ¬cond4_1 i) (hc2 : ¬cond4_2 i)     (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) :
    sout4_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 = k4_pay16 (k4_pay4 x1) (k4_pay6 x3) (k4_pay7 x4) (k4_pay8 x5) (k4_pay9 x6) (k4_pay10 x7) (k4_pay11 x0 x8 x9) (k4_pay12 x0 x8 x9) (k4_pay13 x2) (k4_pay14 x2) := by
  unfold sout4_A_0
  rw [View.read_writes_eq_canon _ _ _ (scover4_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9)]
  unfold kernelRun4_A
  dsimp only
  sl_unfold_words
  rw [View.canon_unit_zero hz4]
  simp only [View.readAt_eq_ld, harg1.read_unread, harg2.read_unread, harg3.read_unread, harg4.read_unread, harg5.read_unread, harg6.read_unread, harg7.read_unread, harg8.read_unread, harg9.read_unread, harg10.read_unread, harg14.read_unread, harg15.read_unread, View.ld_unit_zero (S := S8192x128) hz4, View.ld_unit_zero (S := S128x64) hz4, View.ld_unit_zero (S := S1x64) hz4, View.ld_unit_zero (S := S1x1) hz4, View.ld_unit_zero (S := S64x128) hz4, View.ld_unit_zero (S := S1x128) hz4] <;> first | rfl | exact View.readCov_unit_zero _ hz4 _ _

theorem sout_A_1_eq (c : Dev nD) (i : grid4.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : cond4_0 i) (hc1 : ¬cond4_1 i) (hc2 : ¬cond4_2 i)     (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) :
    sout4_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 = k4_pay17 (k4_pay4 x1) (k4_pay6 x3) (k4_pay7 x4) (k4_pay8 x5) (k4_pay9 x6) (k4_pay10 x7) (k4_pay11 x0 x8 x9) (k4_pay12 x0 x8 x9) (k4_pay13 x2) (k4_pay14 x2) := by
  unfold sout4_A_1
  rw [View.read_writes_eq_canon _ _ _ (scover4_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9)]
  unfold kernelRun4_A
  dsimp only
  sl_unfold_words
  rw [View.canon_unit_zero hz4]
  simp only [View.readAt_eq_ld, harg1.read_unread, harg2.read_unread, harg3.read_unread, harg4.read_unread, harg5.read_unread, harg6.read_unread, harg7.read_unread, harg8.read_unread, harg9.read_unread, harg10.read_unread, harg14.read_unread, harg15.read_unread, View.ld_unit_zero (S := S8192x128) hz4, View.ld_unit_zero (S := S128x64) hz4, View.ld_unit_zero (S := S1x64) hz4, View.ld_unit_zero (S := S1x1) hz4, View.ld_unit_zero (S := S64x128) hz4, View.ld_unit_zero (S := S1x128) hz4] <;> first | rfl | exact View.readCov_unit_zero _ hz4 _ _

theorem out_B_10_eq (c : Dev nD) (i : grid4.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond4_0 i) (hc1 : cond4_1 i) (hc2 : ¬cond4_2 i)     (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) :
    out4_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1 = preOf x0 x1 x2 x3 x4 x5 x6 x7 x8 x9 := by
  unfold out4_B_10
  rw [View.read_writes_eq_canon _ _ _ (cover4_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1)]
  unfold kernelRun4_B
  dsimp only
  sl_unfold_words
  rw [View.canon_unit_zero hz4]
  simp only [View.readAt_eq_ld, harg1.read_unread, harg2.read_unread, harg3.read_unread, harg4.read_unread, harg5.read_unread, harg6.read_unread, harg7.read_unread, harg8.read_unread, harg9.read_unread, harg10.read_unread, harg14.read_unread, harg15.read_unread, View.ld_unit_zero (S := S8192x128) hz4, View.ld_unit_zero (S := S128x64) hz4, View.ld_unit_zero (S := S1x64) hz4, View.ld_unit_zero (S := S1x1) hz4, View.ld_unit_zero (S := S64x128) hz4, View.ld_unit_zero (S := S1x128) hz4] <;> first | rfl | exact View.readCov_unit_zero _ hz4 _ _

theorem sout_B_0_eq (c : Dev nD) (i : grid4.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond4_0 i) (hc1 : cond4_1 i) (hc2 : ¬cond4_2 i)     (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) :
    sout4_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1 = k4_pay1 (preOf x0 x1 x2 x3 x4 x5 x6 x7 x8 x9) xs0 := by
  unfold sout4_B_0
  rw [View.read_writes_eq_canon _ _ _ (scover4_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1)]
  unfold kernelRun4_B
  dsimp only
  sl_unfold_words
  rw [View.canon_unit_zero hz4]
  simp only [View.readAt_eq_ld, harg1.read_unread, harg2.read_unread, harg3.read_unread, harg4.read_unread, harg5.read_unread, harg6.read_unread, harg7.read_unread, harg8.read_unread, harg9.read_unread, harg10.read_unread, harg14.read_unread, harg15.read_unread, View.ld_unit_zero (S := S8192x128) hz4, View.ld_unit_zero (S := S128x64) hz4, View.ld_unit_zero (S := S1x64) hz4, View.ld_unit_zero (S := S1x1) hz4, View.ld_unit_zero (S := S64x128) hz4, View.ld_unit_zero (S := S1x128) hz4] <;> first | rfl | exact View.readCov_unit_zero _ hz4 _ _

theorem sout_B_1_eq (c : Dev nD) (i : grid4.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond4_0 i) (hc1 : cond4_1 i) (hc2 : ¬cond4_2 i)     (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) :
    sout4_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1 = k4_pay2 (preOf x0 x1 x2 x3 x4 x5 x6 x7 x8 x9) xs1 := by
  unfold sout4_B_1
  rw [View.read_writes_eq_canon _ _ _ (scover4_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1)]
  unfold kernelRun4_B
  dsimp only
  sl_unfold_words
  rw [View.canon_unit_zero hz4]
  simp only [View.readAt_eq_ld, harg1.read_unread, harg2.read_unread, harg3.read_unread, harg4.read_unread, harg5.read_unread, harg6.read_unread, harg7.read_unread, harg8.read_unread, harg9.read_unread, harg10.read_unread, harg14.read_unread, harg15.read_unread, View.ld_unit_zero (S := S8192x128) hz4, View.ld_unit_zero (S := S128x64) hz4, View.ld_unit_zero (S := S1x64) hz4, View.ld_unit_zero (S := S1x1) hz4, View.ld_unit_zero (S := S64x128) hz4, View.ld_unit_zero (S := S1x128) hz4] <;> first | rfl | exact View.readCov_unit_zero _ hz4 _ _

theorem out_C_10_eq (c : Dev nD) (i : grid4.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond4_0 i) (hc1 : cond4_1 i) (hc2 : cond4_2 i)     (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) :
    out4_C_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1 = preOf x0 x1 x2 x3 x4 x5 x6 x7 x8 x9 := by
  unfold out4_C_10
  rw [View.read_writes_eq_canon _ _ _ (cover4_C_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1)]
  unfold kernelRun4_C
  dsimp only
  sl_unfold_words
  rw [View.canon_unit_zero hz4]
  simp only [View.readAt_eq_ld, harg1.read_unread, harg2.read_unread, harg3.read_unread, harg4.read_unread, harg5.read_unread, harg6.read_unread, harg7.read_unread, harg8.read_unread, harg9.read_unread, harg10.read_unread, harg14.read_unread, harg15.read_unread, View.ld_unit_zero (S := S8192x128) hz4, View.ld_unit_zero (S := S128x64) hz4, View.ld_unit_zero (S := S1x64) hz4, View.ld_unit_zero (S := S1x1) hz4, View.ld_unit_zero (S := S64x128) hz4, View.ld_unit_zero (S := S1x128) hz4] <;> first | rfl | exact View.readCov_unit_zero _ hz4 _ _

theorem out_C_11_eq (c : Dev nD) (i : grid4.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond4_0 i) (hc1 : cond4_1 i) (hc2 : cond4_2 i)     (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) :
    out4_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1 = k4_pay1 (preOf x0 x1 x2 x3 x4 x5 x6 x7 x8 x9) xs0 := by
  unfold out4_C_11
  rw [View.read_writes_eq_canon _ _ _ (cover4_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1)]
  unfold kernelRun4_C
  dsimp only
  sl_unfold_words
  rw [View.canon_unit_zero hz4]
  simp only [View.readAt_eq_ld, harg1.read_unread, harg2.read_unread, harg3.read_unread, harg4.read_unread, harg5.read_unread, harg6.read_unread, harg7.read_unread, harg8.read_unread, harg9.read_unread, harg10.read_unread, harg14.read_unread, harg15.read_unread, View.ld_unit_zero (S := S8192x128) hz4, View.ld_unit_zero (S := S128x64) hz4, View.ld_unit_zero (S := S1x64) hz4, View.ld_unit_zero (S := S1x1) hz4, View.ld_unit_zero (S := S64x128) hz4, View.ld_unit_zero (S := S1x128) hz4] <;> first | rfl | exact View.readCov_unit_zero _ hz4 _ _

theorem out_C_12_eq (c : Dev nD) (i : grid4.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond4_0 i) (hc1 : cond4_1 i) (hc2 : cond4_2 i)     (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) :
    out4_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1 = k4_pay2 (preOf x0 x1 x2 x3 x4 x5 x6 x7 x8 x9) xs1 := by
  unfold out4_C_12
  rw [View.read_writes_eq_canon _ _ _ (cover4_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1)]
  unfold kernelRun4_C
  dsimp only
  sl_unfold_words
  rw [View.canon_unit_zero hz4]
  simp only [View.readAt_eq_ld, harg1.read_unread, harg2.read_unread, harg3.read_unread, harg4.read_unread, harg5.read_unread, harg6.read_unread, harg7.read_unread, harg8.read_unread, harg9.read_unread, harg10.read_unread, harg14.read_unread, harg15.read_unread, View.ld_unit_zero (S := S8192x128) hz4, View.ld_unit_zero (S := S128x64) hz4, View.ld_unit_zero (S := S1x64) hz4, View.ld_unit_zero (S := S1x1) hz4, View.ld_unit_zero (S := S64x128) hz4, View.ld_unit_zero (S := S1x128) hz4] <;> first | rfl | exact View.readCov_unit_zero _ hz4 _ _

theorem sout_C_0_eq (c : Dev nD) (i : grid4.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond4_0 i) (hc1 : cond4_1 i) (hc2 : cond4_2 i)     (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) :
    sout4_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1 = k4_pay1 (preOf x0 x1 x2 x3 x4 x5 x6 x7 x8 x9) xs0 := by
  unfold sout4_C_0
  rw [View.read_writes_eq_canon _ _ _ (scover4_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1)]
  unfold kernelRun4_C
  dsimp only
  sl_unfold_words
  rw [View.canon_unit_zero hz4]
  simp only [View.readAt_eq_ld, harg1.read_unread, harg2.read_unread, harg3.read_unread, harg4.read_unread, harg5.read_unread, harg6.read_unread, harg7.read_unread, harg8.read_unread, harg9.read_unread, harg10.read_unread, harg14.read_unread, harg15.read_unread, View.ld_unit_zero (S := S8192x128) hz4, View.ld_unit_zero (S := S128x64) hz4, View.ld_unit_zero (S := S1x64) hz4, View.ld_unit_zero (S := S1x1) hz4, View.ld_unit_zero (S := S64x128) hz4, View.ld_unit_zero (S := S1x128) hz4] <;> first | rfl | exact View.readCov_unit_zero _ hz4 _ _

theorem sout_C_1_eq (c : Dev nD) (i : grid4.Coords) (arg1 : Memref sig .tc .vmem S8192x128 .f32) (harg1 : arg1.IsWhole) (arg2 : Memref sig .tc .vmem S8192x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S8192x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (hc0 : ¬cond4_0 i) (hc1 : cond4_1 i) (hc2 : cond4_2 i)     (x0 : Vec F S8192x128 .f32) (x1 : Vec F S8192x128 .f32) (x2 : Vec F S128x64 .f32) (x3 : Vec F S1x64 .f32) (x4 : Vec F S1x64 .f32) (x5 : Vec F S1x1 .f32) (x6 : Vec F S64x128 .f32) (x7 : Vec F S1x128 .f32) (x8 : Vec F S1x128 .f32) (x9 : Vec F S1x128 .f32) (xs0 xs1 : Vec F S1x128 .f32) :
    sout4_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1 = k4_pay2 (preOf x0 x1 x2 x3 x4 x5 x6 x7 x8 x9) xs1 := by
  unfold sout4_C_1
  rw [View.read_writes_eq_canon _ _ _ (scover4_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1)]
  unfold kernelRun4_C
  dsimp only
  sl_unfold_words
  rw [View.canon_unit_zero hz4]
  simp only [View.readAt_eq_ld, harg1.read_unread, harg2.read_unread, harg3.read_unread, harg4.read_unread, harg5.read_unread, harg6.read_unread, harg7.read_unread, harg8.read_unread, harg9.read_unread, harg10.read_unread, harg14.read_unread, harg15.read_unread, View.ld_unit_zero (S := S8192x128) hz4, View.ld_unit_zero (S := S128x64) hz4, View.ld_unit_zero (S := S1x64) hz4, View.ld_unit_zero (S := S1x1) hz4, View.ld_unit_zero (S := S64x128) hz4, View.ld_unit_zero (S := S1x128) hz4] <;> first | rfl | exact View.readCov_unit_zero _ hz4 _ _

end Cert.KernelIdeal.Reg4

end
-- ==== Proof.Reg4Chain.lean ====
/-
  The fourth head kernel's region: what the buffers hold after each point, in the body's arithmetic, at any values.

  The first output's buffer holds the point's rows at every point; the two carried rows are started from the block's own
  column minimum and maximum at the first point and combined with them afterwards; the last point copies them out.
-/
import proofs.«100906_j73718818669321_2_alg».proof.Proof.Reg4Pieces

set_option maxRecDepth 16384

noncomputable section

namespace Cert.KernelIdeal.Reg4

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]
variable (V : (c : Dev nD) → (b : Ref sig .tc) → Buf (Elt F) ((c : Thread nD τ).loc b))

/-- The rows point `t` computes, from its blocks. -/
def preAt (c : Dev nD) (t : Fin cfg4.N) : Vec F S8192x128 .f32 :=
  preOf (iblk V c 0 t) (iblk V c 1 t) (iblk V c 2 t) (iblk V c 3 t) (iblk V c 4 t) (iblk V c 5 t) (iblk V c 6 t) (iblk V c 7 t) (iblk V c 8 t) (iblk V c 9 t)

/-- The block's own column minimum, as the first point stores it. -/
def mn0At (c : Dev nD) (t : Fin cfg4.N) : Vec F S1x128 .f32 :=
  k4_pay16 (k4_pay4 (iblk V c 1 t)) (k4_pay6 (iblk V c 3 t)) (k4_pay7 (iblk V c 4 t)) (k4_pay8 (iblk V c 5 t)) (k4_pay9 (iblk V c 6 t)) (k4_pay10 (iblk V c 7 t)) (k4_pay11 (iblk V c 0 t) (iblk V c 8 t) (iblk V c 9 t)) (k4_pay12 (iblk V c 0 t) (iblk V c 8 t) (iblk V c 9 t)) (k4_pay13 (iblk V c 2 t)) (k4_pay14 (iblk V c 2 t))

/-- The block's own column maximum, as the first point stores it. -/
def mx0At (c : Dev nD) (t : Fin cfg4.N) : Vec F S1x128 .f32 :=
  k4_pay17 (k4_pay4 (iblk V c 1 t)) (k4_pay6 (iblk V c 3 t)) (k4_pay7 (iblk V c 4 t)) (k4_pay8 (iblk V c 5 t)) (k4_pay9 (iblk V c 6 t)) (k4_pay10 (iblk V c 7 t)) (k4_pay11 (iblk V c 0 t) (iblk V c 8 t) (iblk V c 9 t)) (k4_pay12 (iblk V c 0 t) (iblk V c 8 t) (iblk V c 9 t)) (k4_pay13 (iblk V c 2 t)) (k4_pay14 (iblk V c 2 t))

theorem outs_A (c : Dev nD) (t : Fin cfg4.N) (h0 : t.val = 0) :
    (outsAt4 V c t.val t.isLt).1 = preAt V c t
    ∧ (outsAt4 V c t.val t.isLt).2.2.2.1 = mn0At V c t
    ∧ (outsAt4 V c t.val t.isLt).2.2.2.2 = mx0At V c t := by
  have h3 : ¬t.val = 3 := by omega
  rw [outsAt4_A V c t h0 h3]
  dsimp only
  exact ⟨out_A_10_eq .., sout_A_0_eq .., sout_A_1_eq ..⟩

theorem outs_B (c : Dev nD) (t : Fin cfg4.N) (h0 : ¬t.val = 0) (h3 : ¬t.val = 3) :
    (outsAt4 V c t.val t.isLt).1 = preAt V c t
    ∧ (outsAt4 V c t.val t.isLt).2.2.2.1 = k4_pay1 (preAt V c t) (outsAt4 V c (t.val - 1) (Nat.lt_of_le_of_lt (Nat.sub_le _ _) t.isLt)).2.2.2.1
    ∧ (outsAt4 V c t.val t.isLt).2.2.2.2 = k4_pay2 (preAt V c t) (outsAt4 V c (t.val - 1) (Nat.lt_of_le_of_lt (Nat.sub_le _ _) t.isLt)).2.2.2.2 := by
  rw [outsAt4_B V c t h0 h3]
  dsimp only
  exact ⟨out_B_10_eq .., sout_B_0_eq .., sout_B_1_eq ..⟩

theorem outs_C (c : Dev nD) (t : Fin cfg4.N) (h0 : ¬t.val = 0) (h3 : t.val = 3) :
    (outsAt4 V c t.val t.isLt).1 = preAt V c t
    ∧ (outsAt4 V c t.val t.isLt).2.1 = k4_pay1 (preAt V c t) (outsAt4 V c (t.val - 1) (Nat.lt_of_le_of_lt (Nat.sub_le _ _) t.isLt)).2.2.2.1
    ∧ (outsAt4 V c t.val t.isLt).2.2.1 = k4_pay2 (preAt V c t) (outsAt4 V c (t.val - 1) (Nat.lt_of_le_of_lt (Nat.sub_le _ _) t.isLt)).2.2.2.2 := by
  rw [outsAt4_C V c t h0 h3]
  dsimp only
  exact ⟨out_C_10_eq .., out_C_11_eq .., out_C_12_eq ..⟩

/-- At every point the first output's buffer holds the point's rows. -/
theorem out10_eq (c : Dev nD) (t : Fin cfg4.N) : (outsAt4 V c t.val t.isLt).1 = preAt V c t := by
  by_cases h0 : t.val = 0
  · exact (outs_A V c t h0).1
  · by_cases h3 : t.val = 3
    · exact (outs_C V c t h0 h3).1
    · exact (outs_B V c t h0 h3).1

end Cert.KernelIdeal.Reg4

end
-- ==== Proof.Reg4PayA.lean ====
/-
  The head kernel's arithmetic read at one index, at the ideal values: the pieces.

  On load a row of the previous head's array is normalised with the previous column minimum and maximum; the
  aggregate block is cut to its 64 columns; every matrix product is three passes over operands split as x and x - x;
  a column minimum or maximum over the block's 8192 rows is an infimum or supremum over them.
-/
import proofs.«100906_j73718818669321_2_alg».proof.Proof.Gen.KernelIdeal.Skeleton
import proofs.«100906_j73718818669321_2_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Reg4

open Idealize.ShloMosaic Idealize.ShloMosaic.ValueIdx
open Cert.KernelIdeal.Gen

/-! ## The two products' operand indices -/

theorem dotN_lhs_0 (i : S8192x64.Idx) (k : dot_S8192x128_S128x64_S8192x64_1_0_0_1_n_n.contr.Idx) : (dot_S8192x128_S128x64_S8192x64_1_0_0_1_n_n.lhsIdx i k 0).val = (i 0).val := by
  unfold DotDims.lhsIdx
  rw [dif_neg (show ¬(0 : Fin S8192x128.rank) ∈ dot_S8192x128_S128x64_S8192x64_1_0_0_1_n_n.lhsBatch by decide), dif_pos (show (0 : Fin S8192x128.rank) ∈ dot_S8192x128_S128x64_S8192x64_1_0_0_1_n_n.lhsNonContracting by decide)]
  rfl
theorem dotN_lhs_1 (i : S8192x64.Idx) (k : dot_S8192x128_S128x64_S8192x64_1_0_0_1_n_n.contr.Idx) : (dot_S8192x128_S128x64_S8192x64_1_0_0_1_n_n.lhsIdx i k 1).val = (k ⟨0, by decide⟩).val :=
  dot_S8192x128_S128x64_S8192x64_1_0_0_1_n_n.lhsIdx_val_of_single rfl i k
theorem dotN_rhs_0 (i : S8192x64.Idx) (k : dot_S8192x128_S128x64_S8192x64_1_0_0_1_n_n.contr.Idx) : (dot_S8192x128_S128x64_S8192x64_1_0_0_1_n_n.rhsIdx i k 0).val = (k ⟨0, by decide⟩).val :=
  dot_S8192x128_S128x64_S8192x64_1_0_0_1_n_n.rhsIdx_val_of_single rfl i k
theorem dotN_rhs_1 (i : S8192x64.Idx) (k : dot_S8192x128_S128x64_S8192x64_1_0_0_1_n_n.contr.Idx) : (dot_S8192x128_S128x64_S8192x64_1_0_0_1_n_n.rhsIdx i k 1).val = (i 1).val := by
  unfold DotDims.rhsIdx
  rw [dif_neg (show ¬(1 : Fin S128x64.rank) ∈ dot_S8192x128_S128x64_S8192x64_1_0_0_1_n_n.rhsBatch by decide), dif_pos (show (1 : Fin S128x64.rank) ∈ dot_S8192x128_S128x64_S8192x64_1_0_0_1_n_n.rhsNonContracting by decide)]
  rfl

/-- A product into the zero accumulator at (p, q): the sum over the 128 contracted coordinates. -/
theorem dotN_ix (a : FVec Ideal S8192x128 .bf16) (b : FVec Ideal S128x64 .bf16) (p : Fin 8192) (q : Fin 64) :
    matmul dot_S8192x128_S128x64_S8192x64_1_0_0_1_n_n none a b (constant (F := Ideal) S8192x64 .f32 0x00000000#32) (ix2 p q)
      = ∑ e : Fin 128, a (ix2 p e) * b (ix2 e q) := by
  refine (Ideal.matmul_constant_zero_apply dot_S8192x128_S128x64_S8192x64_1_0_0_1_n_n none a b (ix2 p q)).trans ?_
  rw [← Equiv.sum_comp (contrEquiv1 dot_S8192x128_S128x64_S8192x64_1_0_0_1_n_n 128 rfl rfl).symm]
  refine Finset.sum_congr rfl fun k _ => ?_
  have hk := contrEquiv1_symm_val dot_S8192x128_S128x64_S8192x64_1_0_0_1_n_n 128 rfl rfl k
  have el : dot_S8192x128_S128x64_S8192x64_1_0_0_1_n_n.lhsIdx (ix2 p q) ((contrEquiv1 dot_S8192x128_S128x64_S8192x64_1_0_0_1_n_n 128 rfl rfl).symm k) = ix2 p k := funext fun c => Fin.ext (by
    match c with
    | ⟨0, _⟩ => exact dotN_lhs_0 _ _
    | ⟨1, _⟩ => exact (dotN_lhs_1 _ _).trans hk)
  have er : dot_S8192x128_S128x64_S8192x64_1_0_0_1_n_n.rhsIdx (ix2 p q) ((contrEquiv1 dot_S8192x128_S128x64_S8192x64_1_0_0_1_n_n 128 rfl rfl).symm k) = ix2 k q := funext fun c => Fin.ext (by
    match c with
    | ⟨0, _⟩ => exact (dotN_rhs_0 _ _).trans hk
    | ⟨1, _⟩ => exact dotN_rhs_1 _ _)
  rw [el, er]

theorem dotO_lhs_0 (i : S8192x128.Idx) (k : dot_S8192x64_S64x128_S8192x128_1_0_0_1_n_n.contr.Idx) : (dot_S8192x64_S64x128_S8192x128_1_0_0_1_n_n.lhsIdx i k 0).val = (i 0).val := by
  unfold DotDims.lhsIdx
  rw [dif_neg (show ¬(0 : Fin S8192x64.rank) ∈ dot_S8192x64_S64x128_S8192x128_1_0_0_1_n_n.lhsBatch by decide), dif_pos (show (0 : Fin S8192x64.rank) ∈ dot_S8192x64_S64x128_S8192x128_1_0_0_1_n_n.lhsNonContracting by decide)]
  rfl
theorem dotO_lhs_1 (i : S8192x128.Idx) (k : dot_S8192x64_S64x128_S8192x128_1_0_0_1_n_n.contr.Idx) : (dot_S8192x64_S64x128_S8192x128_1_0_0_1_n_n.lhsIdx i k 1).val = (k ⟨0, by decide⟩).val :=
  dot_S8192x64_S64x128_S8192x128_1_0_0_1_n_n.lhsIdx_val_of_single rfl i k
theorem dotO_rhs_0 (i : S8192x128.Idx) (k : dot_S8192x64_S64x128_S8192x128_1_0_0_1_n_n.contr.Idx) : (dot_S8192x64_S64x128_S8192x128_1_0_0_1_n_n.rhsIdx i k 0).val = (k ⟨0, by decide⟩).val :=
  dot_S8192x64_S64x128_S8192x128_1_0_0_1_n_n.rhsIdx_val_of_single rfl i k
theorem dotO_rhs_1 (i : S8192x128.Idx) (k : dot_S8192x64_S64x128_S8192x128_1_0_0_1_n_n.contr.Idx) : (dot_S8192x64_S64x128_S8192x128_1_0_0_1_n_n.rhsIdx i k 1).val = (i 1).val := by
  unfold DotDims.rhsIdx
  rw [dif_neg (show ¬(1 : Fin S64x128.rank) ∈ dot_S8192x64_S64x128_S8192x128_1_0_0_1_n_n.rhsBatch by decide), dif_pos (show (1 : Fin S64x128.rank) ∈ dot_S8192x64_S64x128_S8192x128_1_0_0_1_n_n.rhsNonContracting by decide)]
  rfl

/-- A product into the zero accumulator at (p, q): the sum over the 64 contracted coordinates. -/
theorem dotO_ix (a : FVec Ideal S8192x64 .bf16) (b : FVec Ideal S64x128 .bf16) (p : Fin 8192) (q : Fin 128) :
    matmul dot_S8192x64_S64x128_S8192x128_1_0_0_1_n_n none a b (constant (F := Ideal) S8192x128 .f32 0x00000000#32) (ix2 p q)
      = ∑ e : Fin 64, a (ix2 p e) * b (ix2 e q) := by
  refine (Ideal.matmul_constant_zero_apply dot_S8192x64_S64x128_S8192x128_1_0_0_1_n_n none a b (ix2 p q)).trans ?_
  rw [← Equiv.sum_comp (contrEquiv1 dot_S8192x64_S64x128_S8192x128_1_0_0_1_n_n 64 rfl rfl).symm]
  refine Finset.sum_congr rfl fun k _ => ?_
  have hk := contrEquiv1_symm_val dot_S8192x64_S64x128_S8192x128_1_0_0_1_n_n 64 rfl rfl k
  have el : dot_S8192x64_S64x128_S8192x128_1_0_0_1_n_n.lhsIdx (ix2 p q) ((contrEquiv1 dot_S8192x64_S64x128_S8192x128_1_0_0_1_n_n 64 rfl rfl).symm k) = ix2 p k := funext fun c => Fin.ext (by
    match c with
    | ⟨0, _⟩ => exact dotO_lhs_0 _ _
    | ⟨1, _⟩ => exact (dotO_lhs_1 _ _).trans hk)
  have er : dot_S8192x64_S64x128_S8192x128_1_0_0_1_n_n.rhsIdx (ix2 p q) ((contrEquiv1 dot_S8192x64_S64x128_S8192x128_1_0_0_1_n_n 64 rfl rfl).symm k) = ix2 k q := funext fun c => Fin.ext (by
    match c with
    | ⟨0, _⟩ => exact (dotO_rhs_0 _ _).trans hk
    | ⟨1, _⟩ => exact dotO_rhs_1 _ _)
  rw [el, er]

/-! ## Normalisation on load, the cut of the aggregate block, the casts to the same shape -/

theorem pay3_ix (v0 : Vec Ideal S8192x128 .f32) (v2 v4 : Vec Ideal S1x128 .f32) (r : Fin 8192) (k : Fin 128) :
    k4_pay3 (F := Ideal) v0 v2 v4 (ix2 r k) = Cert.Spec.norm (v0 (ix2 r k)) (v2 (ix2 (0 : Fin 1) k)) (v4 (ix2 (0 : Fin 1) k)) := by
  unfold k4_pay3 Cert.Spec.norm
  refine (maximumf_apply _ _ _).trans ?_
  refine congrArg₂ max ?_ Ideal.ofBits_zero_f32
  refine (divf_apply _ _ _).trans ?_
  refine congrArg₂ Ideal.div ?_ ?_
  · refine (subf_apply _ _ _).trans ?_
    refine congrArg₂ (· - ·) ?_ ?_
    · rw [shapeCast_self]
    · refine (broadcastTo_apply _ broadcasts_S1x128_S8192x128 (ix2 r k) (ix2 (0 : Fin 1) k) (fun c => by match c with | ⟨0, _⟩ => rfl | ⟨1, _⟩ => rfl)).trans ?_
      rw [shapeCast_self]
  · refine (broadcastTo_apply _ broadcasts_S1x128_S8192x128 (ix2 r k) (ix2 (0 : Fin 1) k) (fun c => by match c with | ⟨0, _⟩ => rfl | ⟨1, _⟩ => rfl)).trans ?_
    refine (addf_apply _ _ _).trans ?_
    refine congrArg₂ (· + ·) ?_ rfl
    refine (subf_apply _ _ _).trans ?_
    rw [shapeCast_self, shapeCast_self]

theorem pay4_ix (v15 : Vec Ideal S8192x128 .f32) (r : Fin 8192) (j : Fin 64) :
    k4_pay4 (F := Ideal) v15 (ix2 r j) = v15 (ix2 r (⟨64 + j.val, by have := j.isLt; omega⟩ : Fin 128)) := by
  unfold k4_pay4
  refine (extractStridedSlice_apply ![0, 64] _ slices_S8192x128_o0_64_S8192x64 (ix2 r j) (ix2 r (⟨64 + j.val, by have := j.isLt; omega⟩ : Fin 128))
    (fun a => by match a with | ⟨0, _⟩ => exact (Nat.zero_add _).symm | ⟨1, _⟩ => rfl)).trans ?_
  rw [shapeCast_self]

theorem pay5_eq (v : Vec Ideal S128x64 .f32) : k4_pay5 (F := Ideal) v = v := by unfold k4_pay5; exact shapeCast_self _ _
theorem pay6_eq (v : Vec Ideal S1x64 .f32) : k4_pay6 (F := Ideal) v = v := by unfold k4_pay6; exact shapeCast_self _ _
theorem pay7_eq (v : Vec Ideal S1x64 .f32) : k4_pay7 (F := Ideal) v = v := by unfold k4_pay7; exact shapeCast_self _ _
theorem pay8_eq (v : Vec Ideal S1x1 .f32) : k4_pay8 (F := Ideal) v = v := by unfold k4_pay8; exact shapeCast_self _ _
theorem pay9_eq (v : Vec Ideal S64x128 .f32) : k4_pay9 (F := Ideal) v = v := by unfold k4_pay9; exact shapeCast_self _ _
theorem pay10_eq (v : Vec Ideal S1x128 .f32) : k4_pay10 (F := Ideal) v = v := by unfold k4_pay10; exact shapeCast_self _ _

theorem pay11_ix (v0 : Vec Ideal S8192x128 .f32) (v2 v4 : Vec Ideal S1x128 .f32) (i : S8192x128.Idx) :
    k4_pay11 (F := Ideal) v0 v2 v4 i = k4_pay3 (F := Ideal) v0 v2 v4 i := rfl
theorem pay12_ix (v0 : Vec Ideal S8192x128 .f32) (v2 v4 : Vec Ideal S1x128 .f32) (i : S8192x128.Idx) :
    k4_pay12 (F := Ideal) v0 v2 v4 i = k4_pay3 (F := Ideal) v0 v2 v4 i - k4_pay3 (F := Ideal) v0 v2 v4 i := rfl
theorem pay13_ix (v : Vec Ideal S128x64 .f32) (i : S128x64.Idx) : k4_pay13 (F := Ideal) v i = v i := by
  show k4_pay5 (F := Ideal) v i = v i
  rw [pay5_eq]
theorem pay14_ix (v : Vec Ideal S128x64 .f32) (i : S128x64.Idx) : k4_pay14 (F := Ideal) v i = v i - v i := by
  show k4_pay5 (F := Ideal) v i - k4_pay5 (F := Ideal) v i = v i - v i
  rw [pay5_eq]

/-! ## The leaky gate -/

theorem leaky_eq (s : EReal) :
    Scalar.select (Ideal.cmp .oge s (Ideal.ofBits .f32 0x00000000#32)) s (Ideal.ofBits .f32 0x3E4CCCCD#32 * s) = Cert.Spec.leaky s := by
  unfold Cert.Spec.leaky Cert.Spec.slope Scalar.select Ideal.cmp
  rw [Ideal.ofBits_zero_f32]
  by_cases h : (0 : EReal) ≤ s <;> simp [h]

end Cert.KernelIdeal.Reg4

end
-- ==== Proof.Reg4PayB.lean ====
/-
  The head kernel's arithmetic read at one index, at the ideal values: the row before normalisation and the
  column minimum and maximum.

  At row `r` of the block: the node transform is a three-pass product of the (normalised) row with the node weights
  plus the bias; the score sums (transform + aggregate) · attention weights and adds the attention bias; the gate is
  the logistic of the leaky score; the update is gate · aggregate + transform; the row before normalisation is a
  three-pass product of the update with the output weights plus the output bias.
-/
import proofs.«100906_j73718818669321_2_alg».proof.Proof.Reg4PayA

set_option maxRecDepth 16384

noncomputable section

namespace Cert.KernelIdeal.Reg4

open Idealize.ShloMosaic Idealize.ShloMosaic.ValueIdx
open Cert.KernelIdeal.Gen

/-! ## Sums along a row, infima and suprema down a column -/

theorem lift_row64 (r : Fin 8192) (e : Fin (S8192x64.size 1)) :
    reduces_S8192x64_S8192.lift (ix1 r) e = ix2 r (⟨e.val, e.isLt⟩ : Fin 64) := by
  funext c; apply Fin.ext
  fin_cases c <;> rfl

theorem rowsum64_ix (x : FVec Ideal S8192x64 .f32) (r : Fin 8192) :
    multiReduction .add [1] S8192 x 0x00000000#32 reduces_S8192x64_S8192 (.inl rfl) rfl (ix1 r)
      = ∑ j : Fin 64, x (ix2 r j) := by
  refine (Ideal.multiReduction_add_single x 0x00000000#32 reduces_S8192x64_S8192 (.inl rfl) rfl (ix1 r)).trans ?_
  exact Finset.sum_congr rfl fun e _ => congrArg x (lift_row64 r e)

theorem lift_col (c : Fin 128) (e : Fin (S8192x128.size 0)) :
    reduces_S8192x128_S128.lift (ix1 c) e = ix2 (⟨e.val, e.isLt⟩ : Fin 8192) c := by
  funext a; apply Fin.ext
  fin_cases a <;> rfl

theorem fold_min_top {ι : Type} [Fintype ι] (f : ι → EReal) : (Finset.univ : Finset ι).fold min ⊤ f = ⨅ i, f i := by
  apply le_antisymm
  · exact le_iInf fun i => (Finset.fold_min_le _).2 (Or.inr ⟨i, Finset.mem_univ i, le_rfl⟩)
  · exact (Finset.le_fold_min _).2 ⟨le_top, fun i _ => iInf_le f i⟩

theorem fold_max_bot {ι : Type} [Fintype ι] (f : ι → EReal) : (Finset.univ : Finset ι).fold max ⊥ f = ⨆ i, f i := by
  apply le_antisymm
  · exact (Finset.fold_max_le _).2 ⟨bot_le, fun i _ => le_iSup f i⟩
  · exact iSup_le fun i => (Finset.le_fold_max _).2 (Or.inr ⟨i, Finset.mem_univ i, le_rfl⟩)

theorem posInf_eq : Ideal.ofBits .f32 0x7F800000#32 = (⊤ : EReal) := by simp [Ideal.ofBits, Ideal.ieee]
theorem negInf_eq : Ideal.ofBits .f32 0xFF800000#32 = (⊥ : EReal) := by simp [Ideal.ofBits, Ideal.ieee]

theorem colmin_aux (f : Fin 8192 → EReal) :
    (Finset.univ : Finset (Fin 8192)).fold min (Ideal.ofBits .f32 0x7F800000#32) f = ⨅ r, f r := by
  rw [posInf_eq]; exact fold_min_top f
theorem colmax_aux (f : Fin 8192 → EReal) :
    (Finset.univ : Finset (Fin 8192)).fold max (Ideal.ofBits .f32 0xFF800000#32) f = ⨆ r, f r := by
  rw [negInf_eq]; exact fold_max_bot f

/-- The column minimum of a block at column `c`: the infimum over its 8192 rows. -/
theorem colmin_ix (v : FVec Ideal S8192x128 .f32) (c : Fin 128) :
    multiReduction .minimumf [0] S128 v 0x7F800000#32 reduces_S8192x128_S128 (.inl rfl) rfl (ix1 c)
      = ⨅ r : Fin 8192, v (ix2 r c) := by
  refine (multiReduction_minimumf_eq_fold (F := Ideal) v 0x7F800000#32 reduces_S8192x128_S128 (.inl rfl) rfl (ix1 c)).trans ?_
  refine (reduces_S8192x128_S128.fold_filter_drop_single FloatOps.minimumf _ v (ix1 c)).trans ?_
  exact (colmin_aux _).trans (iInf_congr fun e => congrArg v (lift_col c e))

/-- The column maximum: the supremum. -/
theorem colmax_ix (v : FVec Ideal S8192x128 .f32) (c : Fin 128) :
    multiReduction .maximumf [0] S128 v 0xFF800000#32 reduces_S8192x128_S128 (.inl rfl) rfl (ix1 c)
      = ⨆ r : Fin 8192, v (ix2 r c) := by
  refine (multiReduction_maximumf_eq_fold (F := Ideal) v 0xFF800000#32 reduces_S8192x128_S128 (.inl rfl) rfl (ix1 c)).trans ?_
  refine (reduces_S8192x128_S128.fold_filter_drop_single FloatOps.maximumf _ v (ix1 c)).trans ?_
  exact (colmax_aux _).trans (iSup_congr fun e => congrArg v (lift_col c e))

theorem row_of_col (x : FVec Ideal S128 .f32) (c : Fin 128) :
    shapeCast S1x128 x shapeCasts_S128_S1x128 (ix2 (0 : Fin 1) c) = x (ix1 c) :=
  shapeCast_apply x shapeCasts_S128_S1x128 (ix2 (0 : Fin 1) c) (ix1 c)
    (by rw [Shape.rowMajor_val_one, Shape.rowMajor_val_two]; show c.val = 0 * 128 + c.val; omega)

theorem pay16_ix (pre : FVec Ideal S8192x128 .f32) (c : Fin 128) :
    shapeCast S1x128 (shapeCast S1x128 (multiReduction .minimumf [0] S128 pre 0x7F800000#32 reduces_S8192x128_S128 (.inl rfl) rfl) shapeCasts_S128_S1x128) shapeCasts_S1x128_S1x128 (ix2 (0 : Fin 1) c)
      = ⨅ r : Fin 8192, pre (ix2 r c) := by
  rw [shapeCast_self, row_of_col, colmin_ix]

theorem pay17_ix (pre : FVec Ideal S8192x128 .f32) (c : Fin 128) :
    shapeCast S1x128 (shapeCast S1x128 (multiReduction .maximumf [0] S128 pre 0xFF800000#32 reduces_S8192x128_S128 (.inl rfl) rfl) shapeCasts_S128_S1x128) shapeCasts_S1x128_S1x128 (ix2 (0 : Fin 1) c)
      = ⨆ r : Fin 8192, pre (ix2 r c) := by
  rw [shapeCast_self, row_of_col, colmax_ix]

theorem pay1_ix (pre : FVec Ideal S8192x128 .f32) (prev : Vec Ideal S1x128 .f32) (c : Fin 128) :
    k4_pay1 (F := Ideal) pre prev (ix2 (0 : Fin 1) c) = min (prev (ix2 (0 : Fin 1) c)) (⨅ r : Fin 8192, pre (ix2 r c)) := by
  unfold k4_pay1
  rw [shapeCast_self]
  refine (minimumf_apply _ _ _).trans ?_
  rw [row_of_col, colmin_ix]

theorem pay2_ix (pre : FVec Ideal S8192x128 .f32) (prev : Vec Ideal S1x128 .f32) (c : Fin 128) :
    k4_pay2 (F := Ideal) pre prev (ix2 (0 : Fin 1) c) = max (prev (ix2 (0 : Fin 1) c)) (⨆ r : Fin 8192, pre (ix2 r c)) := by
  unfold k4_pay2
  rw [shapeCast_self]
  refine (maximumf_apply _ _ _).trans ?_
  rw [row_of_col, colmax_ix]

/-! ## The row before normalisation -/

theorem tn_ix (v30 v33 : FVec Ideal S8192x128 .bf16) (v34 : FVec Ideal S128x64 .bf16) (v36 : FVec Ideal S128x64 .f32) (v21 : FVec Ideal S1x64 .f32)
    (r : Fin 8192) (j : Fin 64) (x : Fin 128 → EReal) (W : Fin 128 → Fin 64 → EReal)
    (h30 : ∀ k, v30 (ix2 r k) = x k) (h33 : ∀ k, v33 (ix2 r k) = x k - x k)
    (h34 : ∀ k j, v34 (ix2 k j) = W k j) (h36 : ∀ k j, v36 (ix2 k j) = W k j - W k j) :
    addf (addf (addf (matmul dot_S8192x128_S128x64_S8192x64_1_0_0_1_n_n none v30 v34 (constant (F := Ideal) S8192x64 .f32 0x00000000#32)) (matmul dot_S8192x128_S128x64_S8192x64_1_0_0_1_n_n none v30 (truncf .bf16 v36 bitsLt_bf16_f32) (constant (F := Ideal) S8192x64 .f32 0x00000000#32)))
        (matmul dot_S8192x128_S128x64_S8192x64_1_0_0_1_n_n none v33 v34 (constant (F := Ideal) S8192x64 .f32 0x00000000#32))) (broadcastTo S8192x64 v21 broadcasts_S1x64_S8192x64) (ix2 r j)
      = Cert.Spec.dot3 x (fun k => W k j) + v21 (ix2 (0 : Fin 1) j) := by
  refine (addf_apply _ _ _).trans ?_
  refine congrArg₂ (· + ·) ?_ (broadcastTo_apply _ broadcasts_S1x64_S8192x64 (ix2 r j) (ix2 (0 : Fin 1) j) (fun c => by match c with | ⟨0, _⟩ => rfl | ⟨1, _⟩ => rfl))
  refine (addf_apply _ _ _).trans ?_
  unfold Cert.Spec.dot3
  refine congrArg₂ (· + ·) ?_ ?_
  · refine (addf_apply _ _ _).trans ?_
    refine congrArg₂ (· + ·) ?_ ?_
    · exact (dotN_ix _ _ r j).trans (Finset.sum_congr rfl fun k _ => by rw [h30, h34])
    · refine (dotN_ix _ _ r j).trans (Finset.sum_congr rfl fun k _ => ?_)
      show v30 (ix2 r k) * v36 (ix2 k j) = _
      rw [h30, h36]
  · exact (dotN_ix _ _ r j).trans (Finset.sum_congr rfl fun k _ => by rw [h33, h34])

theorem score_ix (T v17 : FVec Ideal S8192x64 .f32) (v23 : FVec Ideal S1x64 .f32) (v25 : FVec Ideal S1x1 .f32) (r : Fin 8192) :
    addf (shapeCast S8192x1 (multiReduction .add [1] S8192 (mulf (addf T v17) (broadcastTo S8192x64 v23 broadcasts_S1x64_S8192x64)) 0x00000000#32 reduces_S8192x64_S8192 (.inl rfl) rfl) shapeCasts_S8192_S8192x1)
        (broadcastTo S8192x1 v25 broadcasts_S1x1_S8192x1) (ix2 r (0 : Fin 1))
      = (∑ j : Fin 64, (T (ix2 r j) + v17 (ix2 r j)) * v23 (ix2 (0 : Fin 1) j)) + v25 (ix2 (0 : Fin 1) (0 : Fin 1)) := by
  refine (addf_apply _ _ _).trans ?_
  refine congrArg₂ (· + ·) ?_ (broadcastTo_apply _ broadcasts_S1x1_S8192x1 (ix2 r (0 : Fin 1)) (ix2 (0 : Fin 1) (0 : Fin 1)) (fun c => by match c with | ⟨0, _⟩ => rfl | ⟨1, _⟩ => rfl))
  refine (shapeCast_apply _ shapeCasts_S8192_S8192x1 (ix2 r (0 : Fin 1)) (ix1 r)
    (by rw [Shape.rowMajor_val_one, Shape.rowMajor_val_two]; show r.val = r.val * 1 + 0; omega)).trans ?_
  refine (rowsum64_ix _ r).trans (Finset.sum_congr rfl fun j _ => ?_)
  refine (mulf_apply _ _ _).trans ?_
  exact congrArg₂ (· * ·) (addf_apply _ _ _) (broadcastTo_apply _ broadcasts_S1x64_S8192x64 (ix2 r j) (ix2 (0 : Fin 1) j) (fun c => by match c with | ⟨0, _⟩ => rfl | ⟨1, _⟩ => rfl))

theorem gate_ix (S51 : FVec Ideal S8192x1 .f32) (i : S8192x1.Idx) :
    logistic (select (cmpf .oge S51 (broadcast S8192x1 (Scalar.ofBits (F := Ideal) .f32 0x00000000#32))) S51
        (mulf (broadcast S8192x1 (Scalar.ofBits (F := Ideal) .f32 0x3E4CCCCD#32)) S51)) i
      = Ideal.logistic (Cert.Spec.leaky (S51 i)) := by
  show Ideal.logistic (Scalar.select (Ideal.cmp .oge (S51 i) (Ideal.ofBits .f32 0x00000000#32)) (S51 i) (Ideal.ofBits .f32 0x3E4CCCCD#32 * S51 i)) = _
  rw [leaky_eq]

theorem upd_ix (G : FVec Ideal S8192x1 .f32) (v17 T : FVec Ideal S8192x64 .f32) (r : Fin 8192) (j : Fin 64) :
    addf (mulf (broadcastTo S8192x64 G broadcasts_S8192x1_S8192x64) v17) T (ix2 r j)
      = G (ix2 r (0 : Fin 1)) * v17 (ix2 r j) + T (ix2 r j) := by
  refine (addf_apply _ _ _).trans ?_
  refine congrArg₂ (· + ·) ?_ rfl
  refine (mulf_apply _ _ _).trans ?_
  exact congrArg₂ (· * ·) (broadcastTo_apply _ broadcasts_S8192x1_S8192x64 (ix2 r j) (ix2 r (0 : Fin 1)) (fun c => by match c with | ⟨0, _⟩ => rfl | ⟨1, _⟩ => rfl)) rfl

theorem out_ix (U : FVec Ideal S8192x64 .f32) (v27 : FVec Ideal S64x128 .f32) (v29 : FVec Ideal S1x128 .f32) (r : Fin 8192) (c : Fin 128) :
    addf (addf (addf (matmul dot_S8192x64_S64x128_S8192x128_1_0_0_1_n_n none (truncf .bf16 U bitsLt_bf16_f32) (truncf .bf16 v27 bitsLt_bf16_f32) (constant (F := Ideal) S8192x128 .f32 0x00000000#32))
          (matmul dot_S8192x64_S64x128_S8192x128_1_0_0_1_n_n none (truncf .bf16 U bitsLt_bf16_f32) (truncf .bf16 (subf v27 v27) bitsLt_bf16_f32) (constant (F := Ideal) S8192x128 .f32 0x00000000#32)))
        (matmul dot_S8192x64_S64x128_S8192x128_1_0_0_1_n_n none (truncf .bf16 (subf U U) bitsLt_bf16_f32) (truncf .bf16 v27 bitsLt_bf16_f32) (constant (F := Ideal) S8192x128 .f32 0x00000000#32)))
        (broadcastTo S8192x128 v29 broadcasts_S1x128_S8192x128) (ix2 r c)
      = Cert.Spec.dot3 (fun j => U (ix2 r j)) (fun j => v27 (ix2 j c)) + v29 (ix2 (0 : Fin 1) c) := by
  refine (addf_apply _ _ _).trans ?_
  refine congrArg₂ (· + ·) ?_ (broadcastTo_apply _ broadcasts_S1x128_S8192x128 (ix2 r c) (ix2 (0 : Fin 1) c) (fun c => by match c with | ⟨0, _⟩ => rfl | ⟨1, _⟩ => rfl))
  refine (addf_apply _ _ _).trans ?_
  unfold Cert.Spec.dot3
  refine congrArg₂ (· + ·) ?_ ?_
  · refine (addf_apply _ _ _).trans ?_
    refine congrArg₂ (· + ·) ?_ ?_
    · exact (dotO_ix _ _ r c).trans (Finset.sum_congr rfl fun j _ => rfl)
    · exact (dotO_ix _ _ r c).trans (Finset.sum_congr rfl fun j _ => rfl)
  · exact (dotO_ix _ _ r c).trans (Finset.sum_congr rfl fun j _ => rfl)

/-- The row before normalisation at (r, c), from what the operands are at the row. -/
theorem pay15_ix (v17 : FVec Ideal S8192x64 .f32) (v21 v23 : FVec Ideal S1x64 .f32) (v25 : FVec Ideal S1x1 .f32)
    (v27 : FVec Ideal S64x128 .f32) (v29 : FVec Ideal S1x128 .f32) (v30 v33 : FVec Ideal S8192x128 .bf16)
    (v34 : FVec Ideal S128x64 .bf16) (v36 : FVec Ideal S128x64 .f32) (r : Fin 8192) (c : Fin 128)
    (x : Fin 128 → EReal) (W : Fin 128 → Fin 64 → EReal)
    (h30 : ∀ k, v30 (ix2 r k) = x k) (h33 : ∀ k, v33 (ix2 r k) = x k - x k)
    (h34 : ∀ k j, v34 (ix2 k j) = W k j) (h36 : ∀ k j, v36 (ix2 k j) = W k j - W k j) :
    k4_pay15 (F := Ideal) v17 v21 v23 v25 v27 v29 v30 v33 v34 v36 (ix2 r c)
      = Cert.Spec.headPre3 W (fun j => v21 (ix2 (0 : Fin 1) j)) (fun j => v23 (ix2 (0 : Fin 1) j)) (v25 (ix2 (0 : Fin 1) (0 : Fin 1)))
          (fun j cc => v27 (ix2 j cc)) (fun cc => v29 (ix2 (0 : Fin 1) cc)) x (fun j => v17 (ix2 r j)) c := by
  unfold k4_pay15
  refine (out_ix _ v27 v29 r c).trans ?_
  unfold Cert.Spec.headPre3
  refine congrArg₂ (· + ·) (congrArg₂ Cert.Spec.dot3 (funext fun j => ?_) rfl) rfl
  refine (upd_ix _ v17 _ r j).trans ?_
  unfold Cert.Spec.upd
  refine congrArg₂ (· + ·) (congrArg₂ (· * ·) ?_ rfl) (tn_ix v30 v33 v34 v36 v21 r j x W h30 h33 h34 h36)
  refine (gate_ix _ _).trans ?_
  refine congrArg (fun s => Ideal.logistic (Cert.Spec.leaky s)) ?_
  refine (score_ix _ v17 v23 v25 r).trans ?_
  unfold Cert.Spec.score
  refine congrArg₂ (· + ·) (Finset.sum_congr rfl fun j' _ => ?_) rfl
  exact congrArg₂ (· * ·) (congrArg₂ (· + ·) (tn_ix v30 v33 v34 v36 v21 r j' x W h30 h33 h34 h36) rfl) rfl

/-- The row before normalisation at (r, cc), from what the ten input blocks are at the row: over plain vectors. -/
theorem pre_ix_var (x0 x1 : Vec Ideal S8192x128 .f32) (x2 : Vec Ideal S128x64 .f32) (x3 x4 : Vec Ideal S1x64 .f32) (x5 : Vec Ideal S1x1 .f32)
    (x6 : Vec Ideal S64x128 .f32) (x7 x8 x9 : Vec Ideal S1x128 .f32) (r : Fin 8192) (cc : Fin 128)
    (a0 a8 a9 : Fin 128 → EReal) (agg : Fin 64 → EReal) (W : Fin 128 → Fin 64 → EReal) (b a : Fin 64 → EReal) (a5 : EReal)
    (O : Fin 64 → Fin 128 → EReal) (o : Fin 128 → EReal)
    (h0 : ∀ k, x0 (ix2 r k) = a0 k) (h8 : ∀ k, x8 (ix2 (0 : Fin 1) k) = a8 k) (h9 : ∀ k, x9 (ix2 (0 : Fin 1) k) = a9 k)
    (h1 : ∀ j : Fin 64, x1 (ix2 r (⟨64 + j.val, by have := j.isLt; omega⟩ : Fin 128)) = agg j)
    (h2 : ∀ k j, x2 (ix2 k j) = W k j) (h3 : ∀ j, x3 (ix2 (0 : Fin 1) j) = b j) (h4 : ∀ j, x4 (ix2 (0 : Fin 1) j) = a j)
    (h5 : x5 (ix2 (0 : Fin 1) (0 : Fin 1)) = a5) (h6 : ∀ j c, x6 (ix2 j c) = O j c) (h7 : ∀ c, x7 (ix2 (0 : Fin 1) c) = o c) :
    k4_pay15 (F := Ideal) (k4_pay4 x1) (k4_pay6 x3) (k4_pay7 x4) (k4_pay8 x5) (k4_pay9 x6) (k4_pay10 x7) (k4_pay11 x0 x8 x9) (k4_pay12 x0 x8 x9) (k4_pay13 x2) (k4_pay14 x2) (ix2 r cc)
      = Cert.Spec.headPre3 W b a a5 O o (fun k => Cert.Spec.norm (a0 k) (a8 k) (a9 k)) agg cc := by
  refine (pay15_ix (k4_pay4 x1) (k4_pay6 x3) (k4_pay7 x4) (k4_pay8 x5) (k4_pay9 x6) (k4_pay10 x7) (k4_pay11 x0 x8 x9) (k4_pay12 x0 x8 x9) (k4_pay13 x2) (k4_pay14 x2) r cc
    (fun k => Cert.Spec.norm (a0 k) (a8 k) (a9 k)) W
    (fun k => by rw [pay11_ix, pay3_ix, h0, h8, h9])
    (fun k => by rw [pay12_ix, pay3_ix, h0, h8, h9])
    (fun k j => by rw [pay13_ix, h2])
    (fun k j => by rw [pay14_ix, h2])).trans ?_
  rw [pay6_eq, pay7_eq, pay8_eq, pay9_eq, pay10_eq]
  simp only [pay4_ix, h1, h3, h4, h5, h6, h7]

end Cert.KernelIdeal.Reg4

end
-- ==== Proof.Reg4Blocks.lean ====
/-
  The head kernel's region (the fourth head): what its three output arrays hold after the launch.

  Point `t` of the four works on rows 8192·t … 8192·t + 8191: it reads those rows of the previous head's array and of
  the 128-column block of the stacked aggregates that holds this head's 64 columns, and the head's weights whole; it
  writes back the rows before normalisation. The column minimum and maximum are carried from point to point and
  written back once, at the last point: the minimum (maximum) of the four blocks' own infima (suprema), that is, the
  infimum (supremum) over all 32768 rows.
-/
import proofs.«100906_j73718818669321_2_alg».proof.Proof.Reg4Chain
import proofs.«100906_j73718818669321_2_alg».proof.Proof.Reg4PayB

set_option maxRecDepth 16384

noncomputable section

namespace Cert.KernelIdeal.Reg4

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! ## The printed index maps, and where a block's entry sits in its array -/

theorem idx_facts : ∀ t : Fin cfg4.N,
    win4_0.index t (0 : Fin 2) = t.val ∧ win4_0.index t (1 : Fin 2) = 0
    ∧ win4_1.index t (0 : Fin 2) = t.val ∧ win4_1.index t (1 : Fin 2) = 1
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0
    ∧ win4_8.index t (0 : Fin 2) = 0 ∧ win4_8.index t (1 : Fin 2) = 0
    ∧ win4_9.index t (0 : Fin 2) = 0 ∧ win4_9.index t (1 : Fin 2) = 0
    ∧ win4_10.index t (0 : Fin 2) = t.val ∧ win4_10.index t (1 : Fin 2) = 0
    ∧ win4_11.index t (0 : Fin 2) = 0 ∧ win4_11.index t (1 : Fin 2) = 0
    ∧ win4_12.index t (0 : Fin 2) = 0 ∧ win4_12.index t (1 : Fin 2) = 0 :=
  (by decide +kernel : ∀ t : Fin grid4.N, _)

theorem t_lt (t : Fin cfg4.N) : t.val < 4 := lt_of_lt_of_eq t.isLt N_4

theorem emb_0 (t : Fin cfg4.N) (r : Fin 8192) (k : Fin 128) :
    ((cfg4.win 0).blk t).view.emb (ix2 r k)
      = ix2 (⟨t.val * 8192 + r.val, by have := t_lt t; have := r.isLt; omega⟩ : Fin 32768) k := by
  have e := idx_facts t
  funext x; apply Fin.ext
  match x with
  | ⟨0, _⟩ => show win4_0.index t (0 : Fin 2) * 8192 + 1 * r.val = t.val * 8192 + r.val; omega
  | ⟨1, _⟩ => show win4_0.index t (1 : Fin 2) * 128 + 1 * k.val = k.val; omega
theorem iblk_0 (c : Dev nD) (t : Fin cfg4.N) (r : Fin 8192) (k : Fin 128) :
    iblk V c 0 t (ix2 r k) = (V c (Pipeline.arrRef spec4 0) : S32768x128.Idx → EReal)
      (ix2 (⟨t.val * 8192 + r.val, by have := t_lt t; have := r.isLt; omega⟩ : Fin 32768) k) := by
  show (V c (Pipeline.arrRef spec4 0) : S32768x128.Idx → EReal) (((cfg4.win 0).blk t).view.emb (ix2 r k)) = _
  rw [emb_0]

theorem emb_1 (t : Fin cfg4.N) (r : Fin 8192) (k : Fin 128) :
    ((cfg4.win 1).blk t).view.emb (ix2 r k)
      = ix2 (⟨t.val * 8192 + r.val, by have := t_lt t; have := r.isLt; omega⟩ : Fin 32768) (⟨128 + k.val, by have := k.isLt; omega⟩ : Fin 256) := by
  have e := idx_facts t
  funext x; apply Fin.ext
  match x with
  | ⟨0, _⟩ => show win4_1.index t (0 : Fin 2) * 8192 + 1 * r.val = t.val * 8192 + r.val; omega
  | ⟨1, _⟩ => show win4_1.index t (1 : Fin 2) * 128 + 1 * k.val = 128 + k.val; omega
theorem iblk_1 (c : Dev nD) (t : Fin cfg4.N) (r : Fin 8192) (k : Fin 128) :
    iblk V c 1 t (ix2 r k) = (V c (Pipeline.arrRef spec4 1) : S32768x256.Idx → EReal)
      (ix2 (⟨t.val * 8192 + r.val, by have := t_lt t; have := r.isLt; omega⟩ : Fin 32768) (⟨128 + k.val, by have := k.isLt; omega⟩ : Fin 256)) := by
  show (V c (Pipeline.arrRef spec4 1) : S32768x256.Idx → EReal) (((cfg4.win 1).blk t).view.emb (ix2 r k)) = _
  rw [emb_1]

theorem emb_2 (t : Fin cfg4.N) (a : Fin 128) (b : Fin 64) :
    ((cfg4.win 2).blk t).view.emb (ix2 a b) = ix2 a b := by
  have e := idx_facts t
  funext x; apply Fin.ext
  match x with
  | ⟨0, _⟩ => show win4_2.index t (0 : Fin 2) * 128 + 1 * a.val = a.val; omega
  | ⟨1, _⟩ => show win4_2.index t (1 : Fin 2) * 64 + 1 * b.val = b.val; omega
theorem iblk_2 (c : Dev nD) (t : Fin cfg4.N) (a : Fin 128) (b : Fin 64) :
    iblk V c 2 t (ix2 a b) = (V c (Pipeline.arrRef spec4 2) : S128x64.Idx → EReal) (ix2 a b) := by
  show (V c (Pipeline.arrRef spec4 2) : S128x64.Idx → EReal) (((cfg4.win 2).blk t).view.emb (ix2 a b)) = _
  rw [emb_2]

theorem emb_3 (t : Fin cfg4.N) (a : Fin 1) (b : Fin 64) :
    ((cfg4.win 3).blk t).view.emb (ix2 a b) = ix2 a b := by
  have e := idx_facts t
  funext x; apply Fin.ext
  match x with
  | ⟨0, _⟩ => show win4_3.index t (0 : Fin 2) * 1 + 1 * a.val = a.val; omega
  | ⟨1, _⟩ => show win4_3.index t (1 : Fin 2) * 64 + 1 * b.val = b.val; omega
theorem iblk_3 (c : Dev nD) (t : Fin cfg4.N) (a : Fin 1) (b : Fin 64) :
    iblk V c 3 t (ix2 a b) = (V c (Pipeline.arrRef spec4 3) : S1x64.Idx → EReal) (ix2 a b) := by
  show (V c (Pipeline.arrRef spec4 3) : S1x64.Idx → EReal) (((cfg4.win 3).blk t).view.emb (ix2 a b)) = _
  rw [emb_3]

theorem emb_4 (t : Fin cfg4.N) (a : Fin 1) (b : Fin 64) :
    ((cfg4.win 4).blk t).view.emb (ix2 a b) = ix2 a b := by
  have e := idx_facts t
  funext x; apply Fin.ext
  match x with
  | ⟨0, _⟩ => show win4_4.index t (0 : Fin 2) * 1 + 1 * a.val = a.val; omega
  | ⟨1, _⟩ => show win4_4.index t (1 : Fin 2) * 64 + 1 * b.val = b.val; omega
theorem iblk_4 (c : Dev nD) (t : Fin cfg4.N) (a : Fin 1) (b : Fin 64) :
    iblk V c 4 t (ix2 a b) = (V c (Pipeline.arrRef spec4 4) : S1x64.Idx → EReal) (ix2 a b) := by
  show (V c (Pipeline.arrRef spec4 4) : S1x64.Idx → EReal) (((cfg4.win 4).blk t).view.emb (ix2 a b)) = _
  rw [emb_4]

theorem emb_5 (t : Fin cfg4.N) (a : Fin 1) (b : Fin 1) :
    ((cfg4.win 5).blk t).view.emb (ix2 a b) = ix2 a b := by
  have e := idx_facts t
  funext x; apply Fin.ext
  match x with
  | ⟨0, _⟩ => show win4_5.index t (0 : Fin 2) * 1 + 1 * a.val = a.val; omega
  | ⟨1, _⟩ => show win4_5.index t (1 : Fin 2) * 1 + 1 * b.val = b.val; omega
theorem iblk_5 (c : Dev nD) (t : Fin cfg4.N) (a : Fin 1) (b : Fin 1) :
    iblk V c 5 t (ix2 a b) = (V c (Pipeline.arrRef spec4 5) : S1x1.Idx → EReal) (ix2 a b) := by
  show (V c (Pipeline.arrRef spec4 5) : S1x1.Idx → EReal) (((cfg4.win 5).blk t).view.emb (ix2 a b)) = _
  rw [emb_5]

theorem emb_6 (t : Fin cfg4.N) (a : Fin 64) (b : Fin 128) :
    ((cfg4.win 6).blk t).view.emb (ix2 a b) = ix2 a b := by
  have e := idx_facts t
  funext x; apply Fin.ext
  match x with
  | ⟨0, _⟩ => show win4_6.index t (0 : Fin 2) * 64 + 1 * a.val = a.val; omega
  | ⟨1, _⟩ => show win4_6.index t (1 : Fin 2) * 128 + 1 * b.val = b.val; omega
theorem iblk_6 (c : Dev nD) (t : Fin cfg4.N) (a : Fin 64) (b : Fin 128) :
    iblk V c 6 t (ix2 a b) = (V c (Pipeline.arrRef spec4 6) : S64x128.Idx → EReal) (ix2 a b) := by
  show (V c (Pipeline.arrRef spec4 6) : S64x128.Idx → EReal) (((cfg4.win 6).blk t).view.emb (ix2 a b)) = _
  rw [emb_6]

theorem emb_7 (t : Fin cfg4.N) (a : Fin 1) (b : Fin 128) :
    ((cfg4.win 7).blk t).view.emb (ix2 a b) = ix2 a b := by
  have e := idx_facts t
  funext x; apply Fin.ext
  match x with
  | ⟨0, _⟩ => show win4_7.index t (0 : Fin 2) * 1 + 1 * a.val = a.val; omega
  | ⟨1, _⟩ => show win4_7.index t (1 : Fin 2) * 128 + 1 * b.val = b.val; omega
theorem iblk_7 (c : Dev nD) (t : Fin cfg4.N) (a : Fin 1) (b : Fin 128) :
    iblk V c 7 t (ix2 a b) = (V c (Pipeline.arrRef spec4 7) : S1x128.Idx → EReal) (ix2 a b) := by
  show (V c (Pipeline.arrRef spec4 7) : S1x128.Idx → EReal) (((cfg4.win 7).blk t).view.emb (ix2 a b)) = _
  rw [emb_7]

theorem emb_8 (t : Fin cfg4.N) (a : Fin 1) (b : Fin 128) :
    ((cfg4.win 8).blk t).view.emb (ix2 a b) = ix2 a b := by
  have e := idx_facts t
  funext x; apply Fin.ext
  match x with
  | ⟨0, _⟩ => show win4_8.index t (0 : Fin 2) * 1 + 1 * a.val = a.val; omega
  | ⟨1, _⟩ => show win4_8.index t (1 : Fin 2) * 128 + 1 * b.val = b.val; omega
theorem iblk_8 (c : Dev nD) (t : Fin cfg4.N) (a : Fin 1) (b : Fin 128) :
    iblk V c 8 t (ix2 a b) = (V c (Pipeline.arrRef spec4 8) : S1x128.Idx → EReal) (ix2 a b) := by
  show (V c (Pipeline.arrRef spec4 8) : S1x128.Idx → EReal) (((cfg4.win 8).blk t).view.emb (ix2 a b)) = _
  rw [emb_8]

theorem emb_9 (t : Fin cfg4.N) (a : Fin 1) (b : Fin 128) :
    ((cfg4.win 9).blk t).view.emb (ix2 a b) = ix2 a b := by
  have e := idx_facts t
  funext x; apply Fin.ext
  match x with
  | ⟨0, _⟩ => show win4_9.index t (0 : Fin 2) * 1 + 1 * a.val = a.val; omega
  | ⟨1, _⟩ => show win4_9.index t (1 : Fin 2) * 128 + 1 * b.val = b.val; omega
theorem iblk_9 (c : Dev nD) (t : Fin cfg4.N) (a : Fin 1) (b : Fin 128) :
    iblk V c 9 t (ix2 a b) = (V c (Pipeline.arrRef spec4 9) : S1x128.Idx → EReal) (ix2 a b) := by
  show (V c (Pipeline.arrRef spec4 9) : S1x128.Idx → EReal) (((cfg4.win 9).blk t).view.emb (ix2 a b)) = _
  rw [emb_9]

theorem emb_10 (t : Fin cfg4.N) (r : Fin 8192) (k : Fin 128) :
    ((cfg4.win 10).blk t).view.emb (ix2 r k)
      = ix2 (⟨t.val * 8192 + r.val, by have := t_lt t; have := r.isLt; omega⟩ : Fin 32768) k := by
  have e := idx_facts t
  funext x; apply Fin.ext
  match x with
  | ⟨0, _⟩ => show win4_10.index t (0 : Fin 2) * 8192 + 1 * r.val = t.val * 8192 + r.val; omega
  | ⟨1, _⟩ => show win4_10.index t (1 : Fin 2) * 128 + 1 * k.val = k.val; omega

theorem emb_11 (t : Fin cfg4.N) (a : Fin 1) (b : Fin 128) :
    ((cfg4.win 11).blk t).view.emb (ix2 a b) = ix2 a b := by
  have e := idx_facts t
  funext x; apply Fin.ext
  match x with
  | ⟨0, _⟩ => show win4_11.index t (0 : Fin 2) * 1 + 1 * a.val = a.val; omega
  | ⟨1, _⟩ => show win4_11.index t (1 : Fin 2) * 128 + 1 * b.val = b.val; omega
theorem emb_12 (t : Fin cfg4.N) (a : Fin 1) (b : Fin 128) :
    ((cfg4.win 12).blk t).view.emb (ix2 a b) = ix2 a b := by
  have e := idx_facts t
  funext x; apply Fin.ext
  match x with
  | ⟨0, _⟩ => show win4_12.index t (0 : Fin 2) * 1 + 1 * a.val = a.val; omega
  | ⟨1, _⟩ => show win4_12.index t (1 : Fin 2) * 128 + 1 * b.val = b.val; omega

/-! ## The row before normalisation as a function of the arrays the region found -/

/-- Row `n`, column `cc` of the array before normalisation. -/
def preRow (c : Dev nD) (n : Fin 32768) (cc : Fin 128) : EReal :=
  Cert.Spec.headPre3 (fun k j => (V c (Pipeline.arrRef spec4 2) : S128x64.Idx → EReal) (ix2 k j))
    (fun j => (V c (Pipeline.arrRef spec4 3) : S1x64.Idx → EReal) (ix2 (0 : Fin 1) j))
    (fun j => (V c (Pipeline.arrRef spec4 4) : S1x64.Idx → EReal) (ix2 (0 : Fin 1) j))
    ((V c (Pipeline.arrRef spec4 5) : S1x1.Idx → EReal) (ix2 (0 : Fin 1) (0 : Fin 1)))
    (fun j cc => (V c (Pipeline.arrRef spec4 6) : S64x128.Idx → EReal) (ix2 j cc))
    (fun cc => (V c (Pipeline.arrRef spec4 7) : S1x128.Idx → EReal) (ix2 (0 : Fin 1) cc))
    (fun k => Cert.Spec.norm ((V c (Pipeline.arrRef spec4 0) : S32768x128.Idx → EReal) (ix2 n k))
      ((V c (Pipeline.arrRef spec4 8) : S1x128.Idx → EReal) (ix2 (0 : Fin 1) k))
      ((V c (Pipeline.arrRef spec4 9) : S1x128.Idx → EReal) (ix2 (0 : Fin 1) k)))
    (fun j => (V c (Pipeline.arrRef spec4 1) : S32768x256.Idx → EReal) (ix2 n (⟨192 + j.val, by have := j.isLt; omega⟩ : Fin 256))) cc

/-- The aggregate's column `j` of this head at row `r` of the block: column 192 + j of the stacked array. -/
theorem agg_blk (c : Dev nD) (t : Fin cfg4.N) (r : Fin 8192) (j : Fin 64) :
    iblk V c 1 t (ix2 r (⟨64 + j.val, by have := j.isLt; omega⟩ : Fin 128)) = (V c (Pipeline.arrRef spec4 1) : S32768x256.Idx → EReal)
      (ix2 (⟨t.val * 8192 + r.val, by have := t_lt t; have := r.isLt; omega⟩ : Fin 32768) (⟨192 + j.val, by have := j.isLt; omega⟩ : Fin 256)) := by
  rw [iblk_1]
  exact congrArg _ (congrArg (ix2 _) (Fin.ext (by show 128 + (64 + j.val) = 192 + j.val; omega)))

theorem preAt_ix (c : Dev nD) (t : Fin cfg4.N) (r : Fin 8192) (cc : Fin 128) :
    preAt V c t (ix2 r cc) = preRow V c ⟨t.val * 8192 + r.val, by have := t_lt t; have := r.isLt; omega⟩ cc :=
  pre_ix_var (iblk V c 0 t) (iblk V c 1 t) (iblk V c 2 t) (iblk V c 3 t) (iblk V c 4 t) (iblk V c 5 t) (iblk V c 6 t) (iblk V c 7 t) (iblk V c 8 t) (iblk V c 9 t) r cc
    (fun k => (V c (Pipeline.arrRef spec4 0) : S32768x128.Idx → EReal) (ix2 (⟨t.val * 8192 + r.val, by have := t_lt t; have := r.isLt; omega⟩ : Fin 32768) k))
    (fun k => (V c (Pipeline.arrRef spec4 8) : S1x128.Idx → EReal) (ix2 (0 : Fin 1) k))
    (fun k => (V c (Pipeline.arrRef spec4 9) : S1x128.Idx → EReal) (ix2 (0 : Fin 1) k))
    (fun j => (V c (Pipeline.arrRef spec4 1) : S32768x256.Idx → EReal) (ix2 (⟨t.val * 8192 + r.val, by have := t_lt t; have := r.isLt; omega⟩ : Fin 32768) (⟨192 + j.val, by have := j.isLt; omega⟩ : Fin 256)))
    (fun k j => (V c (Pipeline.arrRef spec4 2) : S128x64.Idx → EReal) (ix2 k j))
    (fun j => (V c (Pipeline.arrRef spec4 3) : S1x64.Idx → EReal) (ix2 (0 : Fin 1) j))
    (fun j => (V c (Pipeline.arrRef spec4 4) : S1x64.Idx → EReal) (ix2 (0 : Fin 1) j))
    ((V c (Pipeline.arrRef spec4 5) : S1x1.Idx → EReal) (ix2 (0 : Fin 1) (0 : Fin 1)))
    (fun j cc => (V c (Pipeline.arrRef spec4 6) : S64x128.Idx → EReal) (ix2 j cc))
    (fun cc => (V c (Pipeline.arrRef spec4 7) : S1x128.Idx → EReal) (ix2 (0 : Fin 1) cc))
    (fun k => iblk_0 V c t r k) (fun k => iblk_8 V c t 0 k) (fun k => iblk_9 V c t 0 k)
    (fun j => agg_blk V c t r j)
    (fun k j => iblk_2 V c t k j) (fun j => iblk_3 V c t 0 j) (fun j => iblk_4 V c t 0 j)
    (iblk_5 V c t 0 0) (fun j cc => iblk_6 V c t j cc) (fun cc => iblk_7 V c t 0 cc)

end Cert.KernelIdeal.Reg4

end
-- ==== Proof.Reg4Value.lean ====
/-
  The head kernel's region (the fourth head): the three output arrays after the launch.

  The four blocks of rows tile the first output, so it ends as one function of the arrays the region found. The last
  two outputs are written back once, at the last point, with the minimum (maximum) of the four blocks' own column
  infima (suprema): the infimum (supremum) over all 32768 rows.
-/
import proofs.«100906_j73718818669321_2_alg».proof.Proof.Reg4Blocks

set_option maxRecDepth 16384

noncomputable section

namespace Cert.KernelIdeal.Reg4

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! ## The first output: the array before normalisation -/

/-- What the first output array ends holding. -/
def G10 (c : Dev nD) : S32768x128.Idx → EReal := fun i => preRow V c ⟨(i 0).val, (i 0).isLt⟩ ⟨(i 1).val, (i 1).isLt⟩

theorem flushed10_eq (c : Dev nD) (t : Fin cfg4.N) :
    (dat V c).flushed 10 t = ((cfg4.win 10).blk t).view.read (Elt Ideal) (G10 V c) := by
  show (cfg4.win 10).cut (grid4.coords t) ((dat V c).after 10 t) = _
  rw [after4_10, out10_eq]
  funext j
  obtain ⟨r, cc, rfl⟩ : ∃ (r : Fin 8192) (cc : Fin 128), j = ix2 r cc := ⟨j 0, j 1, eq_ix2 j⟩
  refine (preAt_ix V c t r cc).trans ?_
  show _ = G10 V c (((cfg4.win 10).blk t).view.emb (ix2 r cc))
  rw [emb_10]
  rfl

theorem mem_blk10 (t : Fin cfg4.N) (i : S32768x128.Idx) :
    i ∈ ((cfg4.win 10).blk t).view.set ↔ ∀ a : Fin 2, win4_10.index t a * S8192x128.size a ≤ (i a).val ∧ (i a).val < win4_10.index t a * S8192x128.size a + S8192x128.size a := by
  show i ∈ ((View.whole main_v79_0).slice (win4_10.rect t)).set ↔ _
  rw [View.set_slice_whole, Rect.mem_set_unit]
  exact Iff.rfl

theorem cover10 (i : S32768x128.Idx) :
    ∃ t : Fin cfg4.N, (cfg4.win 10).flush t = true ∧ i ∈ ((cfg4.win 10).blk t).view.set := by
  have hi0 : (i 0).val < 32768 := (i 0).isLt
  have hi1 : (i 1).val < 128 := (i 1).isLt
  let t : Fin cfg4.N := ⟨(i 0).val / 8192, lt_of_lt_of_eq (show (i 0).val / 8192 < 4 by omega) N_4.symm⟩
  have ht : t.val = (i 0).val / 8192 := rfl
  have e := idx_facts t
  refine ⟨t, flush4_10 t, ?_⟩
  rw [mem_blk10]
  intro a
  match a with
  | ⟨0, _⟩ => show win4_10.index t (0 : Fin 2) * 8192 ≤ (i 0).val ∧ (i 0).val < win4_10.index t (0 : Fin 2) * 8192 + 8192; omega
  | ⟨1, _⟩ => show win4_10.index t (1 : Fin 2) * 128 ≤ (i 1).val ∧ (i 1).val < win4_10.index t (1 : Fin 2) * 128 + 128; omega

theorem final10 (c : Dev nD) : (dat V c).arrAt 10 cfg4.N = G10 V c :=
  (dat V c).arrAt_eq_of_cover 10 (G10 V c) (fun t _ => flushed10_eq V c t) cover10

/-- The array before normalisation, at row `n` and column `cc`. -/
theorem value_pre (c : Dev nD) (n : Fin 32768) (cc : Fin 128) :
    ((dat V c).arrAt 10 cfg4.N : S32768x128.Idx → EReal) (ix2 n cc) = preRow V c n cc := by
  rw [final10]
  rfl

/-- The first output array after the launch, over plain indices. -/
def preArr (c : Dev nD) (n : Fin 32768) (cc : Fin 128) : EReal :=
  ((dat V c).arrAt 10 cfg4.N : S32768x128.Idx → EReal) (ix2 n cc)

/-! ## The carried rows: the running column minimum and maximum -/

/-- The block's own column infimum and supremum at point `t`. -/
def blkMin (c : Dev nD) (t : Fin 4) (cc : Fin 128) : EReal :=
  ⨅ r : Fin 8192, preRow V c ⟨t.val * 8192 + r.val, by have := t.isLt; have := r.isLt; omega⟩ cc
def blkMax (c : Dev nD) (t : Fin 4) (cc : Fin 128) : EReal :=
  ⨆ r : Fin 8192, preRow V c ⟨t.val * 8192 + r.val, by have := t.isLt; have := r.isLt; omega⟩ cc

theorem colInf_preAt (c : Dev nD) (t : Fin cfg4.N) (cc : Fin 128) :
    (⨅ r : Fin 8192, preAt V c t (ix2 r cc)) = blkMin V c ⟨t.val, t_lt t⟩ cc :=
  iInf_congr fun r => preAt_ix V c t r cc
theorem colSup_preAt (c : Dev nD) (t : Fin cfg4.N) (cc : Fin 128) :
    (⨆ r : Fin 8192, preAt V c t (ix2 r cc)) = blkMax V c ⟨t.val, t_lt t⟩ cc :=
  iSup_congr fun r => preAt_ix V c t r cc

/-- An infimum over the 32768 rows is the minimum of the four blocks' infima. -/
theorem iInf_four (f : Fin 32768 → EReal) :
    min (min (min (⨅ r : Fin 8192, f ⟨0 * 8192 + r.val, by have := r.isLt; omega⟩) (⨅ r : Fin 8192, f ⟨1 * 8192 + r.val, by have := r.isLt; omega⟩))
      (⨅ r : Fin 8192, f ⟨2 * 8192 + r.val, by have := r.isLt; omega⟩)) (⨅ r : Fin 8192, f ⟨3 * 8192 + r.val, by have := r.isLt; omega⟩) = ⨅ n, f n := by
  apply le_antisymm
  · refine le_iInf fun n => ?_
    have hn := n.isLt
    rcases (by omega : n.val < 8192 ∨ (8192 ≤ n.val ∧ n.val < 16384) ∨ (16384 ≤ n.val ∧ n.val < 24576) ∨ 24576 ≤ n.val) with h | h | h | h
    · exact (min_le_left _ _).trans ((min_le_left _ _).trans ((min_le_left _ _).trans
        ((iInf_le _ (⟨n.val, h⟩ : Fin 8192)).trans (le_of_eq (congrArg f (Fin.ext (by show 0 * 8192 + n.val = n.val; omega)))))))
    · exact (min_le_left _ _).trans ((min_le_left _ _).trans ((min_le_right _ _).trans
        ((iInf_le _ (⟨n.val - 8192, by omega⟩ : Fin 8192)).trans (le_of_eq (congrArg f (Fin.ext (by show 1 * 8192 + (n.val - 8192) = n.val; omega)))))))
    · exact (min_le_left _ _).trans ((min_le_right _ _).trans
        ((iInf_le _ (⟨n.val - 16384, by omega⟩ : Fin 8192)).trans (le_of_eq (congrArg f (Fin.ext (by show 2 * 8192 + (n.val - 16384) = n.val; omega))))))
    · exact (min_le_right _ _).trans
        ((iInf_le _ (⟨n.val - 24576, by omega⟩ : Fin 8192)).trans (le_of_eq (congrArg f (Fin.ext (by show 3 * 8192 + (n.val - 24576) = n.val; omega)))))
  · exact le_min (le_min (le_min (le_iInf fun r => iInf_le f _) (le_iInf fun r => iInf_le f _)) (le_iInf fun r => iInf_le f _)) (le_iInf fun r => iInf_le f _)

theorem iSup_four (f : Fin 32768 → EReal) :
    max (max (max (⨆ r : Fin 8192, f ⟨0 * 8192 + r.val, by have := r.isLt; omega⟩) (⨆ r : Fin 8192, f ⟨1 * 8192 + r.val, by have := r.isLt; omega⟩))
      (⨆ r : Fin 8192, f ⟨2 * 8192 + r.val, by have := r.isLt; omega⟩)) (⨆ r : Fin 8192, f ⟨3 * 8192 + r.val, by have := r.isLt; omega⟩) = ⨆ n, f n := by
  apply le_antisymm
  · exact max_le (max_le (max_le (iSup_le fun r => le_iSup f _) (iSup_le fun r => le_iSup f _)) (iSup_le fun r => le_iSup f _)) (iSup_le fun r => le_iSup f _)
  · refine iSup_le fun n => ?_
    have hn := n.isLt
    rcases (by omega : n.val < 8192 ∨ (8192 ≤ n.val ∧ n.val < 16384) ∨ (16384 ≤ n.val ∧ n.val < 24576) ∨ 24576 ≤ n.val) with h | h | h | h
    · have e : f n = f ⟨0 * 8192 + (⟨n.val - 0, by omega⟩ : Fin 8192).val, by have := n.isLt; omega⟩ :=
        congrArg f (Fin.ext (by show n.val = 0 * 8192 + (n.val - 0); omega))
      exact (e.le.trans (le_iSup (fun r : Fin 8192 => f ⟨0 * 8192 + r.val, by have := r.isLt; omega⟩) ⟨n.val - 0, by omega⟩)).trans
        ((le_max_left _ _).trans ((le_max_left _ _).trans (le_max_left _ _)))
    · have e : f n = f ⟨1 * 8192 + (⟨n.val - 8192, by omega⟩ : Fin 8192).val, by have := n.isLt; omega⟩ :=
        congrArg f (Fin.ext (by show n.val = 1 * 8192 + (n.val - 8192); omega))
      exact (e.le.trans (le_iSup (fun r : Fin 8192 => f ⟨1 * 8192 + r.val, by have := r.isLt; omega⟩) ⟨n.val - 8192, by omega⟩)).trans
        ((le_max_right _ _).trans ((le_max_left _ _).trans (le_max_left _ _)))
    · have e : f n = f ⟨2 * 8192 + (⟨n.val - 16384, by omega⟩ : Fin 8192).val, by have := n.isLt; omega⟩ :=
        congrArg f (Fin.ext (by show n.val = 2 * 8192 + (n.val - 16384); omega))
      exact (e.le.trans (le_iSup (fun r : Fin 8192 => f ⟨2 * 8192 + r.val, by have := r.isLt; omega⟩) ⟨n.val - 16384, by omega⟩)).trans
        ((le_max_right _ _).trans (le_max_left _ _))
    · have e : f n = f ⟨3 * 8192 + (⟨n.val - 24576, by omega⟩ : Fin 8192).val, by have := n.isLt; omega⟩ :=
        congrArg f (Fin.ext (by show n.val = 3 * 8192 + (n.val - 24576); omega))
      exact (e.le.trans (le_iSup (fun r : Fin 8192 => f ⟨3 * 8192 + r.val, by have := r.isLt; omega⟩) ⟨n.val - 24576, by omega⟩)).trans
        (le_max_right _ _)

theorem smin_A (c : Dev nD) (t : Fin cfg4.N) (h0 : t.val = 0) (cc : Fin 128) :
    (outsAt4 V c t.val t.isLt).2.2.2.1 (ix2 (0 : Fin 1) cc) = blkMin V c ⟨t.val, t_lt t⟩ cc := by
  rw [(outs_A V c t h0).2.1]
  unfold mn0At k4_pay16
  exact (pay16_ix _ cc).trans (colInf_preAt V c t cc)

theorem smin_B (c : Dev nD) (t : Fin cfg4.N) (h0 : ¬t.val = 0) (h3 : ¬t.val = 3) (cc : Fin 128) :
    (outsAt4 V c t.val t.isLt).2.2.2.1 (ix2 (0 : Fin 1) cc)
      = min ((outsAt4 V c (t.val - 1) (Nat.lt_of_le_of_lt (Nat.sub_le _ _) t.isLt)).2.2.2.1 (ix2 (0 : Fin 1) cc)) (blkMin V c ⟨t.val, t_lt t⟩ cc) := by
  rw [(outs_B V c t h0 h3).2.1, pay1_ix, colInf_preAt]

theorem smin_C (c : Dev nD) (t : Fin cfg4.N) (h0 : ¬t.val = 0) (h3 : t.val = 3) (cc : Fin 128) :
    (outsAt4 V c t.val t.isLt).2.1 (ix2 (0 : Fin 1) cc)
      = min ((outsAt4 V c (t.val - 1) (Nat.lt_of_le_of_lt (Nat.sub_le _ _) t.isLt)).2.2.2.1 (ix2 (0 : Fin 1) cc)) (blkMin V c ⟨t.val, t_lt t⟩ cc) := by
  rw [(outs_C V c t h0 h3).2.1, pay1_ix, colInf_preAt]

/-- What the last point copies out: the minimum of the four blocks' own. -/
theorem smin_last (c : Dev nD) (h : 3 < cfg4.N) (cc : Fin 128) :
    (outsAt4 V c 3 h).2.1 (ix2 (0 : Fin 1) cc)
      = min (min (min (blkMin V c ⟨0, by decide⟩ cc) (blkMin V c ⟨1, by decide⟩ cc)) (blkMin V c ⟨2, by decide⟩ cc)) (blkMin V c ⟨3, by decide⟩ cc) := by
  have e3 := smin_C V c ⟨3, h⟩ (show ¬(3 : ℕ) = 0 by decide) rfl cc
  have e2 := smin_B V c ⟨2, Nat.lt_of_succ_lt h⟩ (show ¬(2 : ℕ) = 0 by decide) (show ¬(2 : ℕ) = 3 by decide) cc
  have e1 := smin_B V c ⟨1, Nat.lt_of_succ_lt (Nat.lt_of_succ_lt h)⟩ (show ¬(1 : ℕ) = 0 by decide) (show ¬(1 : ℕ) = 3 by decide) cc
  have e0 := smin_A V c ⟨0, Nat.lt_of_succ_lt (Nat.lt_of_succ_lt (Nat.lt_of_succ_lt h))⟩ rfl cc
  exact e3.trans (congrArg₂ min (e2.trans (congrArg₂ min (e1.trans (congrArg₂ min e0 rfl)) rfl)) rfl)

theorem smax_A (c : Dev nD) (t : Fin cfg4.N) (h0 : t.val = 0) (cc : Fin 128) :
    (outsAt4 V c t.val t.isLt).2.2.2.2 (ix2 (0 : Fin 1) cc) = blkMax V c ⟨t.val, t_lt t⟩ cc := by
  rw [(outs_A V c t h0).2.2]
  unfold mx0At k4_pay17
  exact (pay17_ix _ cc).trans (colSup_preAt V c t cc)

theorem smax_B (c : Dev nD) (t : Fin cfg4.N) (h0 : ¬t.val = 0) (h3 : ¬t.val = 3) (cc : Fin 128) :
    (outsAt4 V c t.val t.isLt).2.2.2.2 (ix2 (0 : Fin 1) cc)
      = max ((outsAt4 V c (t.val - 1) (Nat.lt_of_le_of_lt (Nat.sub_le _ _) t.isLt)).2.2.2.2 (ix2 (0 : Fin 1) cc)) (blkMax V c ⟨t.val, t_lt t⟩ cc) := by
  rw [(outs_B V c t h0 h3).2.2, pay2_ix, colSup_preAt]

theorem smax_C (c : Dev nD) (t : Fin cfg4.N) (h0 : ¬t.val = 0) (h3 : t.val = 3) (cc : Fin 128) :
    (outsAt4 V c t.val t.isLt).2.2.1 (ix2 (0 : Fin 1) cc)
      = max ((outsAt4 V c (t.val - 1) (Nat.lt_of_le_of_lt (Nat.sub_le _ _) t.isLt)).2.2.2.2 (ix2 (0 : Fin 1) cc)) (blkMax V c ⟨t.val, t_lt t⟩ cc) := by
  rw [(outs_C V c t h0 h3).2.2, pay2_ix, colSup_preAt]

/-- What the last point copies out: the maximum of the four blocks' own. -/
theorem smax_last (c : Dev nD) (h : 3 < cfg4.N) (cc : Fin 128) :
    (outsAt4 V c 3 h).2.2.1 (ix2 (0 : Fin 1) cc)
      = max (max (max (blkMax V c ⟨0, by decide⟩ cc) (blkMax V c ⟨1, by decide⟩ cc)) (blkMax V c ⟨2, by decide⟩ cc)) (blkMax V c ⟨3, by decide⟩ cc) := by
  have e3 := smax_C V c ⟨3, h⟩ (show ¬(3 : ℕ) = 0 by decide) rfl cc
  have e2 := smax_B V c ⟨2, Nat.lt_of_succ_lt h⟩ (show ¬(2 : ℕ) = 0 by decide) (show ¬(2 : ℕ) = 3 by decide) cc
  have e1 := smax_B V c ⟨1, Nat.lt_of_succ_lt (Nat.lt_of_succ_lt h)⟩ (show ¬(1 : ℕ) = 0 by decide) (show ¬(1 : ℕ) = 3 by decide) cc
  have e0 := smax_A V c ⟨0, Nat.lt_of_succ_lt (Nat.lt_of_succ_lt (Nat.lt_of_succ_lt h))⟩ rfl cc
  exact e3.trans (congrArg₂ max (e2.trans (congrArg₂ max (e1.trans (congrArg₂ max e0 rfl)) rfl)) rfl)

/-! ## The last two outputs: the column minimum and maximum over all rows -/

/-- What output array 11 ends holding. -/
def G11 (c : Dev nD) : S1x128.Idx → EReal := fun i => ⨅ n : Fin 32768, preRow V c n ⟨(i 1).val, (i 1).isLt⟩

theorem flushed11_eq (c : Dev nD) (t : Fin cfg4.N) (hf : (cfg4.win 11).flush t = true) :
    (dat V c).flushed 11 t = ((cfg4.win 11).blk t).view.read (Elt Ideal) (G11 V c) := by
  have h3 : t.val = 3 := by have := (flush4_11 t).mp hf; have := t_lt t; omega
  obtain ⟨n, hn⟩ := t
  have hn3 : n = 3 := h3
  subst hn3
  show (cfg4.win 11).cut (grid4.coords ⟨3, hn⟩) ((dat V c).after 11 ⟨3, hn⟩) = _
  rw [after4_11]
  funext j
  obtain ⟨a, cc, rfl⟩ : ∃ (a : Fin 1) (cc : Fin 128), j = ix2 a cc := ⟨j 0, j 1, eq_ix2 j⟩
  have ha : a = 0 := Subsingleton.elim _ _
  subst ha
  refine (smin_last V c hn cc).trans ?_
  show _ = G11 V c (((cfg4.win 11).blk ⟨3, hn⟩).view.emb (ix2 (0 : Fin 1) cc))
  rw [emb_11]
  exact iInf_four (fun n => preRow V c n cc)

theorem mem_blk11 (t : Fin cfg4.N) (i : S1x128.Idx) :
    i ∈ ((cfg4.win 11).blk t).view.set ↔ ∀ a : Fin 2, win4_11.index t a * S1x128.size a ≤ (i a).val ∧ (i a).val < win4_11.index t a * S1x128.size a + S1x128.size a := by
  show i ∈ ((View.whole main_v79_1).slice (win4_11.rect t)).set ↔ _
  rw [View.set_slice_whole, Rect.mem_set_unit]
  exact Iff.rfl

theorem cover11 (i : S1x128.Idx) :
    ∃ t : Fin cfg4.N, (cfg4.win 11).flush t = true ∧ i ∈ ((cfg4.win 11).blk t).view.set := by
  have hi0 : (i 0).val < 1 := (i 0).isLt
  have hi1 : (i 1).val < 128 := (i 1).isLt
  let t : Fin cfg4.N := ⟨3, lt_of_lt_of_eq (by decide) N_4.symm⟩
  have e := idx_facts t
  refine ⟨t, (flush4_11 t).mpr rfl, ?_⟩
  rw [mem_blk11]
  intro a
  match a with
  | ⟨0, _⟩ => show win4_11.index t (0 : Fin 2) * 1 ≤ (i 0).val ∧ (i 0).val < win4_11.index t (0 : Fin 2) * 1 + 1; omega
  | ⟨1, _⟩ => show win4_11.index t (1 : Fin 2) * 128 ≤ (i 1).val ∧ (i 1).val < win4_11.index t (1 : Fin 2) * 128 + 128; omega

theorem final11 (c : Dev nD) : (dat V c).arrAt 11 cfg4.N = G11 V c :=
  (dat V c).arrAt_eq_of_cover 11 (G11 V c) (fun t hf => flushed11_eq V c t hf) cover11

/-- What output array 12 ends holding. -/
def G12 (c : Dev nD) : S1x128.Idx → EReal := fun i => ⨆ n : Fin 32768, preRow V c n ⟨(i 1).val, (i 1).isLt⟩

theorem flushed12_eq (c : Dev nD) (t : Fin cfg4.N) (hf : (cfg4.win 12).flush t = true) :
    (dat V c).flushed 12 t = ((cfg4.win 12).blk t).view.read (Elt Ideal) (G12 V c) := by
  have h3 : t.val = 3 := by have := (flush4_12 t).mp hf; have := t_lt t; omega
  obtain ⟨n, hn⟩ := t
  have hn3 : n = 3 := h3
  subst hn3
  show (cfg4.win 12).cut (grid4.coords ⟨3, hn⟩) ((dat V c).after 12 ⟨3, hn⟩) = _
  rw [after4_12]
  funext j
  obtain ⟨a, cc, rfl⟩ : ∃ (a : Fin 1) (cc : Fin 128), j = ix2 a cc := ⟨j 0, j 1, eq_ix2 j⟩
  have ha : a = 0 := Subsingleton.elim _ _
  subst ha
  refine (smax_last V c hn cc).trans ?_
  show _ = G12 V c (((cfg4.win 12).blk ⟨3, hn⟩).view.emb (ix2 (0 : Fin 1) cc))
  rw [emb_12]
  exact iSup_four (fun n => preRow V c n cc)

theorem mem_blk12 (t : Fin cfg4.N) (i : S1x128.Idx) :
    i ∈ ((cfg4.win 12).blk t).view.set ↔ ∀ a : Fin 2, win4_12.index t a * S1x128.size a ≤ (i a).val ∧ (i a).val < win4_12.index t a * S1x128.size a + S1x128.size a := by
  show i ∈ ((View.whole main_v79_2).slice (win4_12.rect t)).set ↔ _
  rw [View.set_slice_whole, Rect.mem_set_unit]
  exact Iff.rfl

theorem cover12 (i : S1x128.Idx) :
    ∃ t : Fin cfg4.N, (cfg4.win 12).flush t = true ∧ i ∈ ((cfg4.win 12).blk t).view.set := by
  have hi0 : (i 0).val < 1 := (i 0).isLt
  have hi1 : (i 1).val < 128 := (i 1).isLt
  let t : Fin cfg4.N := ⟨3, lt_of_lt_of_eq (by decide) N_4.symm⟩
  have e := idx_facts t
  refine ⟨t, (flush4_12 t).mpr rfl, ?_⟩
  rw [mem_blk12]
  intro a
  match a with
  | ⟨0, _⟩ => show win4_12.index t (0 : Fin 2) * 1 ≤ (i 0).val ∧ (i 0).val < win4_12.index t (0 : Fin 2) * 1 + 1; omega
  | ⟨1, _⟩ => show win4_12.index t (1 : Fin 2) * 128 ≤ (i 1).val ∧ (i 1).val < win4_12.index t (1 : Fin 2) * 128 + 128; omega

theorem final12 (c : Dev nD) : (dat V c).arrAt 12 cfg4.N = G12 V c :=
  (dat V c).arrAt_eq_of_cover 12 (G12 V c) (fun t hf => flushed12_eq V c t hf) cover12

/-- The column minimum, at column `cc`: the infimum over the 32768 rows of the array before normalisation. -/
theorem value_mn (c : Dev nD) (cc : Fin 128) :
    ((dat V c).arrAt 11 cfg4.N : S1x128.Idx → EReal) (ix2 (0 : Fin 1) cc) = ⨅ n : Fin 32768, preArr V c n cc := by
  unfold preArr
  rw [final11, final10]
  rfl

/-- The column maximum: the supremum. -/
theorem value_mx (c : Dev nD) (cc : Fin 128) :
    ((dat V c).arrAt 12 cfg4.N : S1x128.Idx → EReal) (ix2 (0 : Fin 1) cc) = ⨆ n : Fin 32768, preArr V c n cc := by
  unfold preArr
  rw [final12, final10]
  rfl

end Cert.KernelIdeal.Reg4

end
-- ==== Proof.Reg0Pay.lean ====
/-
  The aggregation body's arithmetic read at one index, at the ideal values.

  For a block `x0` of 256 rows of the incidence array and the two parts `x1`, `x2` of the stacked edge transform,
  the stored value at row `p`, column `q` is
      ( ∑ e, x0 p e · x1 e q  +  ∑ e, x0 p e · x2 e q ) / ( ∑ e, x0 p e + ε ):
  two products into a zero accumulator (a change of format is the identity on extended reals, a cast to the same
  shape is the identity), the row sum of the block as a column, ε added, the column repeated along the row.
-/
import proofs.«100906_j73718818669321_2_alg».proof.Proof.Gen.KernelIdeal.Skeleton
import proofs.«100906_j73718818669321_2_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Reg0

open Idealize.ShloMosaic Idealize.ShloMosaic.ValueIdx
open Cert.KernelIdeal.Gen

/-! ## The product's operand indices: at output (p, q) and contraction coordinate e they are (p, e) and (e, q) -/

theorem lhs_0 (i : S256x256.Idx) (k : dot_S256x8192_S8192x256_S256x256_1_0_0_1_n_n.contr.Idx) : (dot_S256x8192_S8192x256_S256x256_1_0_0_1_n_n.lhsIdx i k 0).val = (i 0).val := by
  unfold DotDims.lhsIdx
  rw [dif_neg (show ¬(0 : Fin S256x8192.rank) ∈ dot_S256x8192_S8192x256_S256x256_1_0_0_1_n_n.lhsBatch by decide), dif_pos (show (0 : Fin S256x8192.rank) ∈ dot_S256x8192_S8192x256_S256x256_1_0_0_1_n_n.lhsNonContracting by decide)]
  rfl
theorem lhs_1 (i : S256x256.Idx) (k : dot_S256x8192_S8192x256_S256x256_1_0_0_1_n_n.contr.Idx) : (dot_S256x8192_S8192x256_S256x256_1_0_0_1_n_n.lhsIdx i k 1).val = (k ⟨0, by decide⟩).val :=
  dot_S256x8192_S8192x256_S256x256_1_0_0_1_n_n.lhsIdx_val_of_single rfl i k
theorem rhs_0 (i : S256x256.Idx) (k : dot_S256x8192_S8192x256_S256x256_1_0_0_1_n_n.contr.Idx) : (dot_S256x8192_S8192x256_S256x256_1_0_0_1_n_n.rhsIdx i k 0).val = (k ⟨0, by decide⟩).val :=
  dot_S256x8192_S8192x256_S256x256_1_0_0_1_n_n.rhsIdx_val_of_single rfl i k
theorem rhs_1 (i : S256x256.Idx) (k : dot_S256x8192_S8192x256_S256x256_1_0_0_1_n_n.contr.Idx) : (dot_S256x8192_S8192x256_S256x256_1_0_0_1_n_n.rhsIdx i k 1).val = (i 1).val := by
  unfold DotDims.rhsIdx
  rw [dif_neg (show ¬(1 : Fin S8192x256.rank) ∈ dot_S256x8192_S8192x256_S256x256_1_0_0_1_n_n.rhsBatch by decide), dif_pos (show (1 : Fin S8192x256.rank) ∈ dot_S256x8192_S8192x256_S256x256_1_0_0_1_n_n.rhsNonContracting by decide)]
  rfl

/-- A product into the zero accumulator, at (p, q): the sum over the 8192 contracted coordinates. -/
theorem matmul_ix (a : FVec Ideal S256x8192 .bf16) (b : FVec Ideal S8192x256 .bf16) (p q : Fin 256) :
    matmul dot_S256x8192_S8192x256_S256x256_1_0_0_1_n_n none a b (constant (F := Ideal) S256x256 .f32 0x00000000#32) (ix2 p q)
      = ∑ e : Fin 8192, a (ix2 p e) * b (ix2 e q) := by
  refine (Ideal.matmul_constant_zero_apply dot_S256x8192_S8192x256_S256x256_1_0_0_1_n_n none a b (ix2 p q)).trans ?_
  rw [← Equiv.sum_comp (contrEquiv1 dot_S256x8192_S8192x256_S256x256_1_0_0_1_n_n 8192 rfl rfl).symm]
  refine Finset.sum_congr rfl fun k _ => ?_
  have hk := contrEquiv1_symm_val dot_S256x8192_S8192x256_S256x256_1_0_0_1_n_n 8192 rfl rfl k
  have el : dot_S256x8192_S8192x256_S256x256_1_0_0_1_n_n.lhsIdx (ix2 p q) ((contrEquiv1 dot_S256x8192_S8192x256_S256x256_1_0_0_1_n_n 8192 rfl rfl).symm k) = ix2 p k := funext fun c => Fin.ext (by
    match c with
    | ⟨0, _⟩ => exact lhs_0 _ _
    | ⟨1, _⟩ => exact (lhs_1 _ _).trans hk)
  have er : dot_S256x8192_S8192x256_S256x256_1_0_0_1_n_n.rhsIdx (ix2 p q) ((contrEquiv1 dot_S256x8192_S8192x256_S256x256_1_0_0_1_n_n 8192 rfl rfl).symm k) = ix2 k q := funext fun c => Fin.ext (by
    match c with
    | ⟨0, _⟩ => exact (rhs_0 _ _).trans hk
    | ⟨1, _⟩ => exact rhs_1 _ _)
  rw [el, er]

/-- The row index `p` with column `e` put back is (p, e). -/
theorem lift_row (p : Fin 256) (e : Fin (S256x8192.size 1)) :
    reduces_S256x8192_S256.lift (ix1 p) e = ix2 p (⟨e.val, e.isLt⟩ : Fin 8192) := by
  funext c; apply Fin.ext
  fin_cases c <;> rfl

/-- The block's row sum at row `p`. -/
theorem rowsum_ix (x : FVec Ideal S256x8192 .f32) (p : Fin 256) :
    multiReduction .add [1] S256 x 0x00000000#32 reduces_S256x8192_S256 (.inl rfl) rfl (ix1 p)
      = ∑ e : Fin 8192, x (ix2 p e) := by
  refine (Ideal.multiReduction_add_single x 0x00000000#32 reduces_S256x8192_S256 (.inl rfl) rfl (ix1 p)).trans ?_
  exact Finset.sum_congr rfl fun e _ => congrArg x (lift_row p e)

/-- The divisor at (p, q): the row sum of row `p` plus ε, whatever `q`. -/
theorem denom_ix (x : FVec Ideal S256x8192 .f32) (p q : Fin 256) :
    broadcastTo S256x256
        (addf (shapeCast S256x1 (multiReduction .add [1] S256 x 0x00000000#32 reduces_S256x8192_S256 (.inl rfl) rfl) shapeCasts_S256_S256x1)
          (broadcast S256x1 (Scalar.ofBits (F := Ideal) .f32 0x322BCC77#32)))
        broadcasts_S256x1_S256x256 (ix2 p q)
      = (∑ e : Fin 8192, x (ix2 p e)) + Cert.Spec.eps := by
  refine (broadcastTo_apply _ broadcasts_S256x1_S256x256 (ix2 p q) (ix2 p (0 : Fin 1))
    (fun c => by match c with | ⟨0, _⟩ => rfl | ⟨1, _⟩ => rfl)).trans ?_
  refine (addf_apply _ _ _).trans ?_
  refine congrArg₂ (· + ·) ?_ rfl
  refine (shapeCast_apply _ shapeCasts_S256_S256x1 (ix2 p (0 : Fin 1)) (ix1 p)
    (by rw [Shape.rowMajor_val_one, Shape.rowMajor_val_two]; show p.val = p.val * 1 + 0; omega)).trans ?_
  exact rowsum_ix x p

/-- The stored value at (p, q). -/
theorem pay_ix (x0 : Vec Ideal S256x8192 .f32) (x1 x2 : Vec Ideal S8192x256 .bf16) (p q : Fin 256) :
    k0_pay1 (F := Ideal) x0 x1 x2 (ix2 p q)
      = Ideal.div ((∑ e : Fin 8192, x0 (ix2 p e) * x1 (ix2 e q)) + (∑ e : Fin 8192, x0 (ix2 p e) * x2 (ix2 e q)))
          ((∑ e : Fin 8192, x0 (ix2 p e)) + Cert.Spec.eps) := by
  unfold k0_pay1
  refine (divf_apply _ _ _).trans ?_
  refine congrArg₂ Ideal.div ?_ (denom_ix x0 p q)
  refine (addf_apply _ _ _).trans ?_
  refine congrArg₂ (· + ·) ?_ ?_
  · refine (matmul_ix _ _ p q).trans ?_
    rw [shapeCast_self]
    rfl
  · refine (matmul_ix _ _ p q).trans ?_
    rw [shapeCast_self]
    rfl

end Cert.KernelIdeal.Reg0

end
-- ==== Proof.Reg0Value.lean ====
/-
  The aggregation region's output array after the launch, read at an index.

  Point `t` of the grid writes back rows 256·t … 256·t + 255 of the output; what it writes at row `p`, column `q` of
  the block is the body's arithmetic of rows 256·t + p of the incidence array and columns `q` of the two parts of the
  stacked edge transform (whose one block is the whole array). The 128 blocks tile the 32768 rows, so the array ends
  as one function of the arrays the region found: the stacked aggregate, (inc · hi + inc · lo) / (∑ inc + ε).
-/
import proofs.«100906_j73718818669321_2_alg».proof.Proof.Reg0Body
import proofs.«100906_j73718818669321_2_alg».proof.Proof.Reg0Pay

set_option maxRecDepth 16384

noncomputable section

namespace Cert.KernelIdeal.Reg0

open Idealize.ShloMosaic Idealize.ShloMosaic.TcCoe Idealize.ShloMosaic.ValueIdx
open Idealize.SL Idealize.SL.Sem
open Idealize.ShloMosaic.Pipeline (Dat Cfg Window)
open Cert.KernelIdeal.Gen

variable (V : (c : Dev nD) → (b : Ref sig .tc) → Buf (Elt Ideal) ((c : Thread nD τ).loc b))

/-- The incidence array and the two parts of the stacked edge transform as the region finds them, over plain indices. -/
abbrev incOf (c : Dev nD) : Fin 32768 → Fin 8192 → EReal := fun n e => (V c (Pipeline.arrRef spec0 0) : S32768x8192.Idx → EReal) (ix2 n e)
abbrev hiOf (c : Dev nD) : Fin 8192 → Fin 256 → EReal := fun e d => (V c (Pipeline.arrRef spec0 1) : S8192x256.Idx → EReal) (ix2 e d)
abbrev loOf (c : Dev nD) : Fin 8192 → Fin 256 → EReal := fun e d => (V c (Pipeline.arrRef spec0 2) : S8192x256.Idx → EReal) (ix2 e d)

/-- What the output array ends holding. -/
def G (c : Dev nD) : S32768x256.Idx → EReal := fun i =>
  Cert.Spec.aggAll (incOf V c) (hiOf V c) (loOf V c) ⟨(i 0).val, (i 0).isLt⟩ ⟨(i 1).val, (i 1).isLt⟩

/-- The printed index maps over the grid: the incidence block and the output block are block `t` along the rows, the
    edge transform's parts are their one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem t_lt (t : Fin cfg0.N) : t.val < 128 := lt_of_lt_of_eq t.isLt N_0

/-! ## Where a block's entry sits in its array -/

theorem emb_0 (t : Fin cfg0.N) (p : Fin 256) (e : Fin 8192) :
    ((cfg0.win 0).blk t).view.emb (ix2 p e)
      = ix2 (⟨t.val * 256 + p.val, by have := t_lt t; have := p.isLt; omega⟩ : Fin 32768) e := by
  obtain ⟨e0, e1, -⟩ := idx_facts t
  funext a; apply Fin.ext
  match a with
  | ⟨0, _⟩ => show win0_0.index t (0 : Fin 2) * 256 + 1 * p.val = t.val * 256 + p.val; omega
  | ⟨1, _⟩ => show win0_0.index t (1 : Fin 2) * 8192 + 1 * e.val = e.val; omega

theorem emb_1 (t : Fin cfg0.N) (e : Fin 8192) (q : Fin 256) :
    ((cfg0.win 1).blk t).view.emb (ix2 e q) = ix2 e q := by
  obtain ⟨-, -, e2, e3, -⟩ := idx_facts t
  funext a; apply Fin.ext
  match a with
  | ⟨0, _⟩ => show win0_1.index t (0 : Fin 2) * 8192 + 1 * e.val = e.val; omega
  | ⟨1, _⟩ => show win0_1.index t (1 : Fin 2) * 256 + 1 * q.val = q.val; omega

theorem emb_2 (t : Fin cfg0.N) (e : Fin 8192) (q : Fin 256) :
    ((cfg0.win 2).blk t).view.emb (ix2 e q) = ix2 e q := by
  obtain ⟨-, -, -, -, e4, e5, -⟩ := idx_facts t
  funext a; apply Fin.ext
  match a with
  | ⟨0, _⟩ => show win0_2.index t (0 : Fin 2) * 8192 + 1 * e.val = e.val; omega
  | ⟨1, _⟩ => show win0_2.index t (1 : Fin 2) * 256 + 1 * q.val = q.val; omega

theorem emb_3 (t : Fin cfg0.N) (p q : Fin 256) :
    ((cfg0.win 3).blk t).view.emb (ix2 p q)
      = ix2 (⟨t.val * 256 + p.val, by have := t_lt t; have := p.isLt; omega⟩ : Fin 32768) q := by
  obtain ⟨-, -, -, -, -, -, e6, e7⟩ := idx_facts t
  funext a; apply Fin.ext
  match a with
  | ⟨0, _⟩ => show win0_3.index t (0 : Fin 2) * 256 + 1 * p.val = t.val * 256 + p.val; omega
  | ⟨1, _⟩ => show win0_3.index t (1 : Fin 2) * 256 + 1 * q.val = q.val; omega

/-- An input block's entry is its array's entry there. -/
theorem iblk_0 (c : Dev nD) (t : Fin cfg0.N) (p : Fin 256) (e : Fin 8192) :
    iblk V c 0 t (ix2 p e) = incOf V c ⟨t.val * 256 + p.val, by have := t_lt t; have := p.isLt; omega⟩ e := by
  show (V c (Pipeline.arrRef spec0 0) : S32768x8192.Idx → EReal) (((cfg0.win 0).blk t).view.emb (ix2 p e)) = _
  rw [emb_0]
theorem iblk_1 (c : Dev nD) (t : Fin cfg0.N) (e : Fin 8192) (q : Fin 256) :
    iblk V c 1 t (ix2 e q) = hiOf V c e q := by
  show (V c (Pipeline.arrRef spec0 1) : S8192x256.Idx → EReal) (((cfg0.win 1).blk t).view.emb (ix2 e q)) = _
  rw [emb_1]
theorem iblk_2 (c : Dev nD) (t : Fin cfg0.N) (e : Fin 8192) (q : Fin 256) :
    iblk V c 2 t (ix2 e q) = loOf V c e q := by
  show (V c (Pipeline.arrRef spec0 2) : S8192x256.Idx → EReal) (((cfg0.win 2).blk t).view.emb (ix2 e q)) = _
  rw [emb_2]

/-- WHAT POINT `t` WRITES BACK is block `t` of `G`. -/
theorem flushed_eq (c : Dev nD) (t : Fin cfg0.N) :
    (dat V c).flushed 3 t = ((cfg0.win 3).blk t).view.read (Elt Ideal) (G V c) := by
  show (cfg0.win 3).cut (grid0.coords t) ((dat V c).after 3 t) = _
  rw [after_3]
  unfold outBlk
  rw [View.canon_unit_zero hz]
  simp only [View.ld_unit_zero (S := S256x8192) hz, View.ld_unit_zero (S := S8192x256) hz]
  funext j
  obtain ⟨p, q, rfl⟩ : ∃ (p : Fin 256) (q : Fin 256), j = ix2 p q := ⟨j 0, j 1, eq_ix2 j⟩
  refine (pay_ix (iblk V c 0 t) (iblk V c 1 t) (iblk V c 2 t) p q).trans ?_
  show _ = G V c (((cfg0.win 3).blk t).view.emb (ix2 p q))
  rw [emb_3]
  simp only [iblk_0, iblk_1, iblk_2]
  rfl

/-- An index of the array is in point `t`'s block iff each coordinate is in the block's range on its axis. -/
theorem mem_blk (t : Fin cfg0.N) (i : S32768x256.Idx) :
    i ∈ ((cfg0.win 3).blk t).view.set ↔ ∀ a : Fin 2, win0_3.index t a * S256x256.size a ≤ (i a).val ∧ (i a).val < win0_3.index t a * S256x256.size a + S256x256.size a := by
  show i ∈ ((View.whole main_v11).slice (win0_3.rect t)).set ↔ _
  rw [View.set_slice_whole, Rect.mem_set_unit]
  exact Iff.rfl

/-- Row `r` of the array is in the block of point `r / 256`. -/
theorem cover (i : S32768x256.Idx) :
    ∃ t : Fin cfg0.N, (cfg0.win 3).flush t = true ∧ i ∈ ((cfg0.win 3).blk t).view.set := by
  have hi0 : (i 0).val < 32768 := (i 0).isLt
  have hi1 : (i 1).val < 256 := (i 1).isLt
  let t : Fin cfg0.N := ⟨(i 0).val / 256, lt_of_lt_of_eq (show (i 0).val / 256 < 128 by omega) N_0.symm⟩
  have ht : t.val = (i 0).val / 256 := rfl
  obtain ⟨-, -, -, -, -, -, e6, e7⟩ := idx_facts t
  refine ⟨t, flush0_3 t, ?_⟩
  rw [mem_blk]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 256 ≤ (i 1).val ∧ (i 1).val < win0_3.index t (1 : Fin 2) * 256 + 256; omega

/-- THE ARRAY after the launch. -/
theorem final (c : Dev nD) : (dat V c).arrAt 3 cfg0.N = G V c :=
  (dat V c).arrAt_eq_of_cover 3 (G V c) (fun t _ => flushed_eq V c t) cover

/-- The output array after the launch, at row `n` and stacked column `d`: the stacked aggregate of the arrays the region found. -/
theorem value (c : Dev nD) (n : Fin 32768) (d : Fin 256) :
    ((dat V c).arrAt 3 cfg0.N : S32768x256.Idx → EReal) (ix2 n d)
      = Cert.Spec.aggAll (fun n e => (V c (Pipeline.arrRef spec0 0) : S32768x8192.Idx → EReal) (ix2 n e))
          (fun e d => (V c (Pipeline.arrRef spec0 1) : S8192x256.Idx → EReal) (ix2 e d))
          (fun e d => (V c (Pipeline.arrRef spec0 2) : S8192x256.Idx → EReal) (ix2 e d)) n d := by
  rw [final]
  rfl

end Cert.KernelIdeal.Reg0

end
-- ==== Proof.SpecArgs.lean ====
/-
  The eleven argument arrays of either program, as the plain functions of `Spec.Args`: an array of shape
  `[a, b]` read at `(i, j)`, one of shape `[a, b, c]` at `(i, j, k)`.
-/
import proofs.«100906_j73718818669321_2_alg».proof.Proof.Spec
import Idealize.ShloMosaic.Lib.ValueIdx

noncomputable section

namespace Cert.Spec

open Idealize.ShloMosaic Idealize.ShloMosaic.ValueIdx

/-- The arguments, in the order of both programs' parameters: node features, incidence, edge features, then the
    stacked per-head weights and biases. -/
def argsOf (a0 : (⟨2, ![32768, 128]⟩ : Shape).Idx → EReal) (a1 : (⟨2, ![32768, 8192]⟩ : Shape).Idx → EReal)
    (a2 : (⟨2, ![8192, 128]⟩ : Shape).Idx → EReal) (a3 : (⟨3, ![4, 128, 64]⟩ : Shape).Idx → EReal)
    (a4 : (⟨2, ![4, 64]⟩ : Shape).Idx → EReal) (a5 : (⟨3, ![4, 128, 64]⟩ : Shape).Idx → EReal)
    (a6 : (⟨2, ![4, 64]⟩ : Shape).Idx → EReal) (a7 : (⟨3, ![4, 64, 1]⟩ : Shape).Idx → EReal)
    (a8 : (⟨2, ![4, 1]⟩ : Shape).Idx → EReal) (a9 : (⟨3, ![4, 64, 128]⟩ : Shape).Idx → EReal)
    (a10 : (⟨2, ![4, 128]⟩ : Shape).Idx → EReal) : Args where
  nf n k := a0 (ix2 n k)
  inc n e := a1 (ix2 n e)
  ef e k := a2 (ix2 e k)
  nodeW h k j := a3 (ix3 h k j)
  nodeB h j := a4 (ix2 h j)
  edgeW h k j := a5 (ix3 h k j)
  edgeB h j := a6 (ix2 h j)
  attnW h j := a7 (ix3 h j 0)
  attnB h := a8 (ix2 h 0)
  outW h j c := a9 (ix3 h j c)
  outB h c := a10 (ix2 h c)

end Cert.Spec

end
-- ==== Proof.GlueArgs.lean ====
/-
  The eleven argument arrays as a valuation of the buffers holds them.
-/
import proofs.«100906_j73718818669321_2_alg».proof.Proof.Gen.KernelIdeal
import proofs.«100906_j73718818669321_2_alg».proof.Proof.SpecArgs

noncomputable section

namespace Cert.KernelIdeal.Glue

open Idealize.ShloMosaic Idealize.ShloMosaic.TcCoe
open Cert.KernelIdeal

/-- The argument arrays read off a valuation, as the plain functions of `Spec.Args`. -/
def argsAt (W : Valuation τ sig (Elt Ideal)) : Cert.Spec.Args :=
  Cert.Spec.argsOf (W main_arg0) (W main_arg1) (W main_arg2) (W main_arg3) (W main_arg4) (W main_arg5)
    (W main_arg6) (W main_arg7) (W main_arg8) (W main_arg9) (W main_arg10)

theorem argsAt_def (W : Valuation τ sig (Elt Ideal)) :
    argsAt W = Cert.Spec.argsOf (W main_arg0) (W main_arg1) (W main_arg2) (W main_arg3) (W main_arg4) (W main_arg5)
      (W main_arg6) (W main_arg7) (W main_arg8) (W main_arg9) (W main_arg10) := rfl

/-- Two valuations that hold the same argument arrays give the same arguments. -/
theorem argsAt_congr (W W' : Valuation τ sig (Elt Ideal))
    (h0 : W main_arg0 = W' main_arg0) (h1 : W main_arg1 = W' main_arg1) (h2 : W main_arg2 = W' main_arg2)
    (h3 : W main_arg3 = W' main_arg3) (h4 : W main_arg4 = W' main_arg4) (h5 : W main_arg5 = W' main_arg5)
    (h6 : W main_arg6 = W' main_arg6) (h7 : W main_arg7 = W' main_arg7) (h8 : W main_arg8 = W' main_arg8)
    (h9 : W main_arg9 = W' main_arg9) (h10 : W main_arg10 = W' main_arg10) : argsAt W = argsAt W' := by
  unfold argsAt
  rw [h0, h1, h2, h3, h4, h5, h6, h7, h8, h9, h10]

end Cert.KernelIdeal.Glue

end
-- ==== Proof.GlueLayout.lean ====
/-
  Layout operations of the host side read at an index, for the shapes this program meets.

  The stacked per-head parameters are cut out one head at a time (a slice of extent one along the leading axis,
  then casts that drop or move the unit axis); the stacked edge transform is laid out with the head index inside
  the column index: column `d` of the 256 stacked columns is column `d % 64` of head `d / 64`.
-/
import Idealize.ShloMosaic.Lib.ValueLayout

namespace Cert.KernelIdeal.Glue

open Idealize.ShloMosaic Idealize.ShloMosaic.ValueIdx

variable {α : Type}

/-! ## One member of a stack -/

/-- One matrix of a stack `[n, a, b]`, cut out at position `o` and cast to `[a, b]`, reads at `(i, j)` the stack
    at `(o, i, j)`. -/
theorem member3_apply {n a b : ℕ} (o : ℕ) (X : (⟨3, ![n, a, b]⟩ : Shape).Idx → α)
    (hs : (⟨3, ![n, a, b]⟩ : Shape).Slices ![o, 0, 0] ⟨3, ![1, a, b]⟩)
    (hc : (⟨3, ![1, a, b]⟩ : Shape).ShapeCasts ⟨2, ![a, b]⟩) (k : Fin n) (hk : k.val = o) (i : Fin a) (j : Fin b) :
    shapeCast ⟨2, ![a, b]⟩ (extractStridedSlice ⟨3, ![1, a, b]⟩ ![o, 0, 0] X hs) hc (ix2 i j) = X (ix3 k i j) :=
  (shapeCast_1ab_ab_apply _ hc i j).trans
    (extractStridedSlice_apply _ X hs _ _ fun ax => by
      match ax with
      | ⟨0, _⟩ => exact hk
      | ⟨1, _⟩ => exact (Nat.zero_add _).symm
      | ⟨2, _⟩ => exact (Nat.zero_add _).symm)

/-- One row of a matrix `[n, b]`, cut out at position `o`, cast to a vector and back to a one-row matrix, reads at
    `(0, j)` the matrix at `(o, j)`. -/
theorem row2_apply {n b : ℕ} (o : ℕ) (X : (⟨2, ![n, b]⟩ : Shape).Idx → α)
    (hs : (⟨2, ![n, b]⟩ : Shape).Slices ![o, 0] ⟨2, ![1, b]⟩)
    (h1 : (⟨2, ![1, b]⟩ : Shape).ShapeCasts ⟨1, ![b]⟩) (h2 : (⟨1, ![b]⟩ : Shape).ShapeCasts ⟨2, ![1, b]⟩)
    (k : Fin n) (hk : k.val = o) (u : Fin 1) (j : Fin b) :
    shapeCast ⟨2, ![1, b]⟩ (shapeCast ⟨1, ![b]⟩ (extractStridedSlice ⟨2, ![1, b]⟩ ![o, 0] X hs) h1) h2 (ix2 u j)
      = X (ix2 k j) :=
  (shapeCast_a_1a_apply _ h2 u j).trans <| (shapeCast_1a_a_apply _ h1 j).trans <|
    extractStridedSlice_apply _ X hs _ _ fun ax => by
      match ax with
      | ⟨0, _⟩ => exact hk
      | ⟨1, _⟩ => exact (Nat.zero_add _).symm

/-- One column vector `[b, 1]` of a stack `[n, b, 1]`, cut out at position `o` and cast to a one-row matrix, reads
    at `(0, j)` the stack at `(o, j, 0)`. -/
theorem col3_apply {n b : ℕ} (o : ℕ) (X : (⟨3, ![n, b, 1]⟩ : Shape).Idx → α)
    (hs : (⟨3, ![n, b, 1]⟩ : Shape).Slices ![o, 0, 0] ⟨3, ![1, b, 1]⟩)
    (h1 : (⟨3, ![1, b, 1]⟩ : Shape).ShapeCasts ⟨2, ![b, 1]⟩) (h2 : (⟨2, ![b, 1]⟩ : Shape).ShapeCasts ⟨2, ![1, b]⟩)
    (k : Fin n) (hk : k.val = o) (u : Fin 1) (j : Fin b) :
    shapeCast ⟨2, ![1, b]⟩ (shapeCast ⟨2, ![b, 1]⟩ (extractStridedSlice ⟨3, ![1, b, 1]⟩ ![o, 0, 0] X hs) h1) h2 (ix2 u j)
      = X (ix3 k j (0 : Fin 1)) :=
  (shapeCast_apply _ h2 (ix2 u j) (ix2 j (0 : Fin 1)) (by
      have hu : u.val = 0 := by omega
      rw [Shape.rowMajor_val_two, Shape.rowMajor_val_two]
      show j.val * 1 + 0 = u.val * b + j.val
      rw [hu, Nat.zero_mul, Nat.zero_add, Nat.mul_one, Nat.add_zero])).trans <|
    (shapeCast_1ab_ab_apply _ h1 j (0 : Fin 1)).trans <|
      extractStridedSlice_apply _ X hs _ _ fun ax => by
        match ax with
        | ⟨0, _⟩ => exact hk
        | ⟨1, _⟩ => exact (Nat.zero_add _).symm
        | ⟨2, _⟩ => exact (Nat.zero_add _).symm

/-! ## The four heads' weights side by side -/

/-- The head a stacked column belongs to, and the column inside that head. -/
def headOf (d : Fin 256) : Fin 4 := ⟨d.val / 64, by have := d.isLt; omega⟩
def colOf (d : Fin 256) : Fin 64 := ⟨d.val % 64, Nat.mod_lt _ (by decide)⟩

/-- The stack `[4, 128, 64]` with the head axis moved inside (`[128, 4, 64]`) and merged with the column axis
    (`[128, 256]`): row `k`, stacked column `d` is head `d / 64`'s entry `(k, d % 64)`. -/
theorem stackedW_apply (X : (⟨3, ![4, 128, 64]⟩ : Shape).Idx → α)
    (ht : (⟨3, ![4, 128, 64]⟩ : Shape).Transposes [1, 0, 2] ⟨3, ![128, 4, 64]⟩)
    (hc : (⟨3, ![128, 4, 64]⟩ : Shape).ShapeCasts ⟨2, ![128, 256]⟩) (k : Fin 128) (d : Fin 256) :
    shapeCast ⟨2, ![128, 256]⟩ (transpose ⟨3, ![128, 4, 64]⟩ [1, 0, 2] X ht) hc (ix2 k d)
      = X (ix3 (headOf d) k (colOf d)) :=
  (shapeCast_apply _ hc (ix2 k d) (ix3 k (headOf d) (colOf d)) (by
      rw [Shape.rowMajor_val_three, Shape.rowMajor_val_two]
      show (k.val * 4 + d.val / 64) * 64 + d.val % 64 = k.val * 256 + d.val
      omega)).trans <|
    transpose_apply _ X ht _ _ fun c => match c with | ⟨0, _⟩ => rfl | ⟨1, _⟩ => rfl | ⟨2, _⟩ => rfl

/-- The biases `[4, 64]` merged to one vector `[256]`: entry `d` is head `d / 64`'s entry `d % 64`. -/
theorem stackedB_apply (X : (⟨2, ![4, 64]⟩ : Shape).Idx → α)
    (hc : (⟨2, ![4, 64]⟩ : Shape).ShapeCasts ⟨1, ![256]⟩) (d : Fin 256) :
    shapeCast ⟨1, ![256]⟩ X hc (ix1 d) = X (ix2 (headOf d) (colOf d)) :=
  shapeCast_apply _ hc (ix1 d) (ix2 (headOf d) (colOf d)) (by
    rw [Shape.rowMajor_val_two, Shape.rowMajor_val_one]
    show d.val / 64 * 64 + d.val % 64 = d.val
    omega)

/-! ## A row laid along every row of a matrix -/

/-- A vector `[b]` broadcast to one row `[1, b]` along axis 1 reads, at `(u, j)`, the vector at `j`. -/
theorem bcastRow_apply {b : ℕ} (hb : 1 < b) (x : (⟨1, ![b]⟩ : Shape).Idx → α)
    (h : (⟨1, ![b]⟩ : Shape).BroadcastsInDim ⟨2, ![1, b]⟩ (![1] : Fin 1 → Fin 2)) (u : Fin 1) (j : Fin b) :
    broadcastInDim ⟨2, ![1, b]⟩ (![1] : Fin 1 → Fin 2) h x (ix2 u j) = x (ix1 j) :=
  broadcastInDim_apply _ h x _ _ fun a => by
    match a with
    | ⟨0, _⟩ =>
      show j.val = if b = 1 then 0 else j.val
      rw [if_neg (by omega)]

/-- A one-row matrix `[1, b]` broadcast to `[a, b]` along both axes reads, at `(p, j)`, the row at `(0, j)`. -/
theorem bcastRows_apply {a b : ℕ} (hb : 1 < b) (x : (⟨2, ![1, b]⟩ : Shape).Idx → α)
    (h : (⟨2, ![1, b]⟩ : Shape).BroadcastsInDim ⟨2, ![a, b]⟩ (![0, 1] : Fin 2 → Fin 2)) (p : Fin a) (j : Fin b) :
    broadcastInDim ⟨2, ![a, b]⟩ (![0, 1] : Fin 2 → Fin 2) h x (ix2 p j) = x (ix2 (0 : Fin 1) j) :=
  broadcastInDim_apply _ h x _ _ fun c => by
    match c with
    | ⟨0, _⟩ => rfl
    | ⟨1, _⟩ =>
      show j.val = if b = 1 then 0 else j.val
      rw [if_neg (by omega)]

/-- A scalar broadcast to any shape reads, everywhere, the scalar. -/
theorem bcastScalar_apply {t : Shape} (x : (⟨0, ![]⟩ : Shape).Idx → α)
    (h : (⟨0, ![]⟩ : Shape).BroadcastsInDim t (![] : Fin 0 → Fin t.rank)) (j : t.Idx) :
    broadcastInDim t (![] : Fin 0 → Fin t.rank) h x j = x ix0 :=
  broadcastInDim_apply _ h x _ _ fun a => a.elim0

end Cert.KernelIdeal.Glue
-- ==== Proof.Glue0.lean ====
/-
  The host operations before the aggregation kernel build the stacked edge transform: all four heads' edge
  weights side by side as one `[128, 256]` matrix (column `d` is head `d / 64`'s column `d % 64`), the edge
  features times that matrix, plus the four biases side by side along every row. The kernel is handed this
  array twice: once as it is (a change of float format is the identity on the extended reals) and once as
  the difference of the array and itself, which is zero at a real entry and `⊥` at an infinite one, so the
  difference is kept as written.
-/
import proofs.«100906_j73718818669321_2_alg».proof.Proof.Gen.KernelIdeal.Launch
import proofs.«100906_j73718818669321_2_alg».proof.Proof.GlueArgs
import proofs.«100906_j73718818669321_2_alg».proof.Proof.GlueLayout
import Idealize.ShloMosaic.Lib.StableHlo.Run
import Idealize.ShloMosaic.Lib.StackMember

noncomputable section

namespace Cert.KernelIdeal.Glue

open Idealize.ShloMosaic Idealize.ShloMosaic.TcCoe Idealize.ShloMosaic.ValueIdx
open Cert.KernelIdeal Cert.KernelIdeal.Gen

/-- The four heads' edge weights side by side. -/
def stackedEdgeW (Wt : FVec Ideal S4x128x64 .f32) : FVec Ideal S128x256 .f32 :=
  shapeCast S128x256 (transpose S128x4x64 [1, 0, 2] Wt transposes_S4x128x64_S128x4x64_1_0_2)
    shapeCasts_S128x4x64_S128x256

/-- The four heads' edge biases side by side, along every row. -/
def stackedEdgeB (B : FVec Ideal S4x64 .f32) : FVec Ideal S8192x256 .f32 :=
  broadcastInDim S8192x256 ![0, 1] bcast_S1x256_S8192x256_0_1
    (broadcastInDim S1x256 ![1] bcast_S256_S1x256_1 (shapeCast S256 B shapeCasts_S4x64_S256))

/-- The stacked edge transform as the host computes it from the edge features, weights and biases. -/
def teHost (E : FVec Ideal S8192x128 .f32) (Wt : FVec Ideal S4x128x64 .f32) (B : FVec Ideal S4x64 .f32) :
    FVec Ideal S8192x256 .f32 :=
  addf (Host.dotGeneral (F := Ideal) dot_S8192x128_S128x256_S8192x256_1_0_0_1_n_n none E (stackedEdgeW Wt))
    (stackedEdgeB B)

/-- The host's product, read at an index, is the sum over the 128 edge features. -/
theorem dotHost_apply (L : FVec Ideal S8192x128 .f32) (R : FVec Ideal S128x256 .f32) (e : Fin 8192) (d : Fin 256) :
    Host.dotGeneral (F := Ideal) dot_S8192x128_S128x256_S8192x256_1_0_0_1_n_n none L R (ix2 e d)
      = ∑ c : Fin 128, L (ix2 e c) * R (ix2 c d) :=
  StackMember.dotGeneral_plain_apply (m := 8192) (n := 256) (k := 128) none L R e d

/-- The host's stacked edge transform entry by entry: stacked column `d` is head `d / 64`'s column `d % 64`. -/
theorem teHost_apply (E : FVec Ideal S8192x128 .f32) (Wt : FVec Ideal S4x128x64 .f32) (B : FVec Ideal S4x64 .f32)
    (e : Fin 8192) (d : Fin 256) :
    teHost E Wt B (ix2 e d)
      = (∑ c : Fin 128, E (ix2 e c) * Wt (ix3 (headOf d) c (colOf d))) + B (ix2 (headOf d) (colOf d)) := by
  show Host.dotGeneral (F := Ideal) dot_S8192x128_S128x256_S8192x256_1_0_0_1_n_n none E (stackedEdgeW Wt) (ix2 e d)
        + stackedEdgeB B (ix2 e d) = _
  refine congrArg₂ (· + ·) ?_ ?_
  · refine (dotHost_apply _ _ e d).trans (Finset.sum_congr rfl fun c _ => ?_)
    exact congrArg (_ * ·) (stackedW_apply _ _ _ c d)
  · exact (bcastRows_apply (by decide) _ _ e d).trans <|
      (bcastRow_apply (by decide) _ _ 0 d).trans (stackedB_apply _ _ d)

variable (W : Valuation τ sig (Elt Ideal))

/-- The host's stacked edge transform of a valuation's argument arrays is the specification's. -/
theorem teHost_eq_teAll (e : Fin 8192) (d : Fin 256) :
    teHost (W main_arg2) (W main_arg5) (W main_arg6) (ix2 e d) = Cert.Spec.teAll (argsAt W) e d :=
  (teHost_apply (W main_arg2) (W main_arg5) (W main_arg6) e d).trans rfl

/-- The array the aggregation kernel is handed as the high part: the stacked edge transform. -/
theorem hostOps0_hi (e : Fin 8192) (d : Fin 256) :
    (StableHlo.after hostOps0 W main_v7 : (⟨2, ![8192, 256]⟩ : Shape).Idx → EReal) (ix2 e d)
      = Cert.Spec.teAll (argsAt W) e d := by
  have e7 : (StableHlo.after hostOps0 W main_v7 : (⟨2, ![8192, 256]⟩ : Shape).Idx → EReal)
      = truncf .bf16 (teHost (W main_arg2) (W main_arg5) (W main_arg6)) bitsLt_bf16_f32 := by
    after_results
    try rfl
  exact (congrFun e7 _).trans (teHost_eq_teAll W e d)

/-- The array it is handed as the low part: the stacked edge transform less itself. -/
theorem hostOps0_lo (e : Fin 8192) (d : Fin 256) :
    (StableHlo.after hostOps0 W main_v10 : (⟨2, ![8192, 256]⟩ : Shape).Idx → EReal) (ix2 e d)
      = Cert.Spec.teAll (argsAt W) e d - Cert.Spec.teAll (argsAt W) e d := by
  have e10 : (StableHlo.after hostOps0 W main_v10 : (⟨2, ![8192, 256]⟩ : Shape).Idx → EReal)
      = truncf .bf16 (subf (teHost (W main_arg2) (W main_arg5) (W main_arg6))
          (extf .f32 (truncf .bf16 (teHost (W main_arg2) (W main_arg5) (W main_arg6)) bitsLt_bf16_f32) bitsLt_bf16_f32))
          bitsLt_bf16_f32 := by
    after_results
    try rfl
  rw [← teHost_eq_teAll W e d]
  exact congrFun e10 _

end Cert.KernelIdeal.Glue

end
-- ==== Proof.GlueKeeps.lean ====
/-
  A host stretch changes only the buffers its operations write: every other buffer — every argument array, the
  aggregation kernel's output, each head kernel's three outputs — holds after the stretch what it held before.
-/
import proofs.«100906_j73718818669321_2_alg».proof.Proof.Gen.KernelIdeal.Regions
import Idealize.ShloMosaic.Lib.StableHlo.Run

noncomputable section

namespace Cert.KernelIdeal.Glue

open Idealize.ShloMosaic Idealize.ShloMosaic.TcCoe
open Cert.KernelIdeal Cert.KernelIdeal.Gen

variable {F : FTy → Type} [FloatOps F] (W : Valuation τ sig (Elt F))

/-- A reference `hostOps0` does not write keeps its contents. -/
theorem hostOps0_keeps (r : Ref sig .tc) (h : r ∉ hostOps0_W) : StableHlo.after hostOps0 W r = W r :=
  StableHlo.after_of_writes_sub hostOps0 W hostOps0_writes h

/-- A reference `hostOps1` does not write keeps its contents. -/
theorem hostOps1_keeps (r : Ref sig .tc) (h : r ∉ hostOps1_W) : StableHlo.after hostOps1 W r = W r :=
  StableHlo.after_of_writes_sub hostOps1 W hostOps1_writes h

/-- A reference `hostOps2` does not write keeps its contents. -/
theorem hostOps2_keeps (r : Ref sig .tc) (h : r ∉ hostOps2_W) : StableHlo.after hostOps2 W r = W r :=
  StableHlo.after_of_writes_sub hostOps2 W hostOps2_writes h

/-- A reference `hostOps3` does not write keeps its contents. -/
theorem hostOps3_keeps (r : Ref sig .tc) (h : r ∉ hostOps3_W) : StableHlo.after hostOps3 W r = W r :=
  StableHlo.after_of_writes_sub hostOps3 W hostOps3_writes h

/-- A reference `hostOps4` does not write keeps its contents. -/
theorem hostOps4_keeps (r : Ref sig .tc) (h : r ∉ hostOps4_W) : StableHlo.after hostOps4 W r = W r :=
  StableHlo.after_of_writes_sub hostOps4 W hostOps4_writes h

/-- A reference `hostOps5` does not write keeps its contents. -/
theorem hostOps5_keeps (r : Ref sig .tc) (h : r ∉ hostOps5_W) : StableHlo.after hostOps5 W r = W r :=
  StableHlo.after_of_writes_sub hostOps5 W hostOps5_writes h

/-- A reference `hostOps5_1` does not write keeps its contents. -/
theorem hostOps5_1_keeps (r : Ref sig .tc) (h : r ∉ hostOps5_1_W) : StableHlo.after hostOps5_1 W r = W r :=
  StableHlo.after_of_writes_sub hostOps5_1 W hostOps5_1_writes h

end Cert.KernelIdeal.Glue

end
-- ==== Proof.KerStep.lean ====
/-
  One head of the three-pass program, read off the arrays a head kernel is handed and the arrays it leaves.

  A head kernel is handed six parameter arrays, the aggregates and its input array, and leaves an array `out`
  with its column minimum and maximum. When the parameters are head `h`'s, the aggregates are the stacked
  aggregates and the input is `x`, the array it leaves is `Spec.pre3 A h x`; the next head's input — the array
  normalised on load with the minimum and maximum beside it — is then `Spec.normAll (Spec.pre3 A h x)`.
-/
import proofs.«100906_j73718818669321_2_alg».proof.Proof.Spec

noncomputable section

namespace Cert.KernelIdeal.Ker

open Cert.Spec

/-- The stacked aggregates of the three-pass program: the incidence array against the stacked edge transform
    and against the stacked edge transform less itself, over the degree. -/
def agg3 (A : Args) (n : Fin 32768) (d : Fin 256) : EReal :=
  aggAll A.inc (teAll A) (fun e d => teAll A e d - teAll A e d) n d

/-- A head's output entry by entry: the head's formula over the parameters, input and aggregates handed to it
    is `Spec.pre3` once each of them is identified. -/
theorem pre3_of (A : Args) (h : Fin 4) (x out : Fin 32768 → Fin 128 → EReal)
    (aW : Fin 128 → Fin 64 → EReal) (ab aa : Fin 64 → EReal) (aa0 : EReal)
    (aO : Fin 64 → Fin 128 → EReal) (ao : Fin 128 → EReal)
    (xin : Fin 32768 → Fin 128 → EReal) (agg : Fin 32768 → Fin 256 → EReal)
    (hW : ∀ k j, aW k j = A.nodeW h k j) (hb : ∀ j, ab j = A.nodeB h j) (ha : ∀ j, aa j = A.attnW h j)
    (ha0 : aa0 = A.attnB h) (hO : ∀ j cc, aO j cc = A.outW h j cc) (ho : ∀ cc, ao cc = A.outB h cc)
    (hx : ∀ n k, xin n k = x n k) (hagg : ∀ n d, agg n d = agg3 A n d)
    (hout : ∀ n cc, out n cc = headPre3 aW ab aa aa0 aO ao (fun k => xin n k) (fun j => agg n (col h j)) cc)
    (n : Fin 32768) (cc : Fin 128) : out n cc = pre3 A h x n cc := by
  obtain rfl : aW = A.nodeW h := funext fun k => funext (hW k)
  obtain rfl : ab = A.nodeB h := funext hb
  obtain rfl : aa = A.attnW h := funext ha
  obtain rfl : aO = A.outW h := funext fun j => funext (hO j)
  obtain rfl : ao = A.outB h := funext ho
  obtain rfl : xin = x := funext fun n => funext (hx n)
  obtain rfl : agg = agg3 A := funext fun n => funext (hagg n)
  subst ha0
  rw [hout]
  rfl

/-- The column minimum a head leaves beside its output. -/
theorem colMin_of (pre out : Fin 32768 → Fin 128 → EReal) (mn : Fin 128 → EReal)
    (hout : ∀ n cc, out n cc = pre n cc) (hmn : ∀ cc, mn cc = ⨅ n, out n cc) (cc : Fin 128) :
    mn cc = colMin pre cc := by
  rw [hmn]
  unfold colMin
  exact iInf_congr fun n => hout n cc

/-- The column maximum a head leaves beside its output. -/
theorem colMax_of (pre out : Fin 32768 → Fin 128 → EReal) (mx : Fin 128 → EReal)
    (hout : ∀ n cc, out n cc = pre n cc) (hmx : ∀ cc, mx cc = ⨆ n, out n cc) (cc : Fin 128) :
    mx cc = colMax pre cc := by
  rw [hmx]
  unfold colMax
  exact iSup_congr fun n => hout n cc

/-- The next head's input: the output normalised with the minimum and maximum left beside it. -/
theorem normAll_of (pre out : Fin 32768 → Fin 128 → EReal) (mn mx : Fin 128 → EReal)
    (hout : ∀ n cc, out n cc = pre n cc) (hmn : ∀ cc, mn cc = colMin pre cc) (hmx : ∀ cc, mx cc = colMax pre cc)
    (n : Fin 32768) (k : Fin 128) : norm (out n k) (mn k) (mx k) = normAll pre n k := by
  rw [hout, hmn, hmx]
  rfl

end Cert.KernelIdeal.Ker

end
-- ==== Proof.KerAgg.lean ====
/-
  The aggregates the aggregation kernel leaves: entered with the first host stretch applied to any contents
  of the buffers, its output array is the stacked aggregate of those contents' argument arrays — the incidence
  array against the stacked edge transform and against the stacked edge transform less itself, over the degree.
-/
import proofs.«100906_j73718818669321_2_alg».proof.Proof.Reg0Value
import proofs.«100906_j73718818669321_2_alg».proof.Proof.Glue0
import proofs.«100906_j73718818669321_2_alg».proof.Proof.GlueKeeps
import proofs.«100906_j73718818669321_2_alg».proof.Proof.KerStep

noncomputable section

namespace Cert.KernelIdeal.Ker

open Idealize.ShloMosaic Idealize.ShloMosaic.TcCoe Idealize.ShloMosaic.ValueIdx
open Cert.KernelIdeal Cert.KernelIdeal.Gen Cert.KernelIdeal.Glue

/-- The buffers as the aggregation kernel finds them: the first host stretch applied to `Win`. -/
abbrev ent0 (Win : Dev nD → Valuation τ sig (Elt Ideal)) :
    (c : Dev nD) → (b : Ref sig .tc) → Buf (Elt Ideal) ((c : Thread nD τ).loc b) :=
  fun c b => StableHlo.after hostOps0 (Win c) b

/-- The aggregation kernel's output is the stacked aggregate. -/
theorem agg_value (Win : Dev nD → Valuation τ sig (Elt Ideal)) (c : Dev nD) (n : Fin 32768) (d : Fin 256) :
    ((Reg0.dat (ent0 Win) c).arrAt 3 cfg0.N : S32768x256.Idx → EReal) (ix2 n d) = agg3 (argsAt (Win c)) n d := by
  refine (Reg0.value (ent0 Win) c n d).trans ?_
  have h0 : (fun (n : Fin 32768) (e : Fin 8192) =>
        (StableHlo.after hostOps0 (Win c) main_arg1 : S32768x8192.Idx → EReal) (ix2 n e)) = (argsAt (Win c)).inc :=
    funext fun n => funext fun e => by rw [hostOps0_keeps (Win c) main_arg1 (by decide)]; rfl
  have h1 : (fun (e : Fin 8192) (d : Fin 256) =>
        (StableHlo.after hostOps0 (Win c) main_v7 : S8192x256.Idx → EReal) (ix2 e d)) = Cert.Spec.teAll (argsAt (Win c)) :=
    funext fun e => funext fun d => hostOps0_hi (Win c) e d
  have h2 : (fun (e : Fin 8192) (d : Fin 256) =>
        (StableHlo.after hostOps0 (Win c) main_v10 : S8192x256.Idx → EReal) (ix2 e d))
      = fun e d => Cert.Spec.teAll (argsAt (Win c)) e d - Cert.Spec.teAll (argsAt (Win c)) e d :=
    funext fun e => funext fun d => hostOps0_lo (Win c) e d
  show Cert.Spec.aggAll
      (fun (n : Fin 32768) (e : Fin 8192) => (StableHlo.after hostOps0 (Win c) main_arg1 : S32768x8192.Idx → EReal) (ix2 n e))
      (fun (e : Fin 8192) (d : Fin 256) => (StableHlo.after hostOps0 (Win c) main_v7 : S8192x256.Idx → EReal) (ix2 e d))
      (fun (e : Fin 8192) (d : Fin 256) => (StableHlo.after hostOps0 (Win c) main_v10 : S8192x256.Idx → EReal) (ix2 e d)) n d = _
  rw [h0, h1, h2]
  rfl

end Cert.KernelIdeal.Ker

end
-- ==== Proof.Glue1.lean ====
/-
  The host operations before head 0's kernel cut that head's parameters out of the stacked argument arrays:
  a slice of extent one along the head axis at position 0, then casts that drop or move the unit axis.
  Read at an index, each of the six arrays the kernel's windows are staged from is the stacked array's
  entry of head 0.
-/
import proofs.«100906_j73718818669321_2_alg».proof.Proof.Gen.KernelIdeal.Launch
import proofs.«100906_j73718818669321_2_alg».proof.Proof.GlueArgs
import proofs.«100906_j73718818669321_2_alg».proof.Proof.GlueLayout
import Idealize.ShloMosaic.Lib.StableHlo.Run

noncomputable section

namespace Cert.KernelIdeal.Glue

open Idealize.ShloMosaic Idealize.ShloMosaic.TcCoe Idealize.ShloMosaic.ValueIdx
open Cert.KernelIdeal Cert.KernelIdeal.Gen

variable (W : Valuation τ sig (Elt Ideal))

/-- The node transform's weights of head 0. -/
theorem hostOps1_nodeW (k : Fin 128) (j : Fin 64) :
    (StableHlo.after hostOps1 W main_v13 : (⟨2, ![128, 64]⟩ : Shape).Idx → EReal) (ix2 k j) = (argsAt W).nodeW 0 k j := by
  have e : (StableHlo.after hostOps1 W main_v13 : (⟨2, ![128, 64]⟩ : Shape).Idx → EReal)
      = shapeCast S128x64 (extractStridedSlice S1x128x64 ![0, 0, 0] (W main_arg3) slices_S4x128x64_S1x128x64_0_0_0)
          shapeCasts_S1x128x64_S128x64 := by
    after_results; rfl
  exact (congrFun e _).trans (member3_apply 0 _ _ _ (0 : Fin 4) rfl k j)

/-- The node transform's bias of head 0. -/
theorem hostOps1_nodeB (j : Fin 64) :
    (StableHlo.after hostOps1 W main_v16 : (⟨2, ![1, 64]⟩ : Shape).Idx → EReal) (ix2 0 j) = (argsAt W).nodeB 0 j := by
  have e : (StableHlo.after hostOps1 W main_v16 : (⟨2, ![1, 64]⟩ : Shape).Idx → EReal)
      = shapeCast S1x64 (shapeCast S64 (extractStridedSlice S1x64 ![0, 0] (W main_arg4) slices_S4x64_S1x64_0_0)
          shapeCasts_S1x64_S64) shapeCasts_S64_S1x64 := by
    after_results; rfl
  exact (congrFun e _).trans (row2_apply 0 _ _ _ _ (0 : Fin 4) rfl 0 j)

/-- The attention weights of head 0. -/
theorem hostOps1_attnW (j : Fin 64) :
    (StableHlo.after hostOps1 W main_v19 : (⟨2, ![1, 64]⟩ : Shape).Idx → EReal) (ix2 0 j) = (argsAt W).attnW 0 j := by
  have e : (StableHlo.after hostOps1 W main_v19 : (⟨2, ![1, 64]⟩ : Shape).Idx → EReal)
      = shapeCast S1x64 (shapeCast S64x1 (extractStridedSlice S1x64x1 ![0, 0, 0] (W main_arg7) slices_S4x64x1_S1x64x1_0_0_0)
          shapeCasts_S1x64x1_S64x1) shapeCasts_S64x1_S1x64 := by
    after_results; rfl
  exact (congrFun e _).trans (col3_apply 0 _ _ _ _ (0 : Fin 4) rfl 0 j)

/-- The attention bias of head 0. -/
theorem hostOps1_attnB :
    (StableHlo.after hostOps1 W main_v22 : (⟨2, ![1, 1]⟩ : Shape).Idx → EReal) (ix2 0 0) = (argsAt W).attnB 0 := by
  have e : (StableHlo.after hostOps1 W main_v22 : (⟨2, ![1, 1]⟩ : Shape).Idx → EReal)
      = shapeCast S1x1 (shapeCast S1 (extractStridedSlice S1x1 ![0, 0] (W main_arg8) slices_S4x1_S1x1_0_0)
          shapeCasts_S1x1_S1) shapeCasts_S1_S1x1 := by
    after_results; rfl
  exact (congrFun e _).trans (row2_apply 0 _ _ _ _ (0 : Fin 4) rfl 0 0)

/-- The output projection's weights of head 0. -/
theorem hostOps1_outW (j : Fin 64) (cc : Fin 128) :
    (StableHlo.after hostOps1 W main_v24 : (⟨2, ![64, 128]⟩ : Shape).Idx → EReal) (ix2 j cc) = (argsAt W).outW 0 j cc := by
  have e : (StableHlo.after hostOps1 W main_v24 : (⟨2, ![64, 128]⟩ : Shape).Idx → EReal)
      = shapeCast S64x128 (extractStridedSlice S1x64x128 ![0, 0, 0] (W main_arg9) slices_S4x64x128_S1x64x128_0_0_0)
          shapeCasts_S1x64x128_S64x128 := by
    after_results; rfl
  exact (congrFun e _).trans (member3_apply 0 _ _ _ (0 : Fin 4) rfl j cc)

/-- The output projection's bias of head 0. -/
theorem hostOps1_outB (cc : Fin 128) :
    (StableHlo.after hostOps1 W main_v27 : (⟨2, ![1, 128]⟩ : Shape).Idx → EReal) (ix2 0 cc) = (argsAt W).outB 0 cc := by
  have e : (StableHlo.after hostOps1 W main_v27 : (⟨2, ![1, 128]⟩ : Shape).Idx → EReal)
      = shapeCast S1x128 (shapeCast S128 (extractStridedSlice S1x128 ![0, 0] (W main_arg10) slices_S4x128_S1x128_0_0)
          shapeCasts_S1x128_S128) shapeCasts_S128_S1x128 := by
    after_results; rfl
  exact (congrFun e _).trans (row2_apply 0 _ _ _ _ (0 : Fin 4) rfl 0 cc)

end Cert.KernelIdeal.Glue

end
-- ==== Proof.Glue2.lean ====
/-
  The host operations before head 1's kernel cut that head's parameters out of the stacked argument arrays:
  a slice of extent one along the head axis at position 1, then casts that drop or move the unit axis.
  Read at an index, each of the six arrays the kernel's windows are staged from is the stacked array's
  entry of head 1.
-/
import proofs.«100906_j73718818669321_2_alg».proof.Proof.Gen.KernelIdeal.Launch
import proofs.«100906_j73718818669321_2_alg».proof.Proof.GlueArgs
import proofs.«100906_j73718818669321_2_alg».proof.Proof.GlueLayout
import Idealize.ShloMosaic.Lib.StableHlo.Run

noncomputable section

namespace Cert.KernelIdeal.Glue

open Idealize.ShloMosaic Idealize.ShloMosaic.TcCoe Idealize.ShloMosaic.ValueIdx
open Cert.KernelIdeal Cert.KernelIdeal.Gen

variable (W : Valuation τ sig (Elt Ideal))

/-- The node transform's weights of head 1. -/
theorem hostOps2_nodeW (k : Fin 128) (j : Fin 64) :
    (StableHlo.after hostOps2 W main_v30 : (⟨2, ![128, 64]⟩ : Shape).Idx → EReal) (ix2 k j) = (argsAt W).nodeW 1 k j := by
  have e : (StableHlo.after hostOps2 W main_v30 : (⟨2, ![128, 64]⟩ : Shape).Idx → EReal)
      = shapeCast S128x64 (extractStridedSlice S1x128x64 ![1, 0, 0] (W main_arg3) slices_S4x128x64_S1x128x64_1_0_0)
          shapeCasts_S1x128x64_S128x64 := by
    after_results; rfl
  exact (congrFun e _).trans (member3_apply 1 _ _ _ (1 : Fin 4) rfl k j)

/-- The node transform's bias of head 1. -/
theorem hostOps2_nodeB (j : Fin 64) :
    (StableHlo.after hostOps2 W main_v33 : (⟨2, ![1, 64]⟩ : Shape).Idx → EReal) (ix2 0 j) = (argsAt W).nodeB 1 j := by
  have e : (StableHlo.after hostOps2 W main_v33 : (⟨2, ![1, 64]⟩ : Shape).Idx → EReal)
      = shapeCast S1x64 (shapeCast S64 (extractStridedSlice S1x64 ![1, 0] (W main_arg4) slices_S4x64_S1x64_1_0)
          shapeCasts_S1x64_S64) shapeCasts_S64_S1x64 := by
    after_results; rfl
  exact (congrFun e _).trans (row2_apply 1 _ _ _ _ (1 : Fin 4) rfl 0 j)

/-- The attention weights of head 1. -/
theorem hostOps2_attnW (j : Fin 64) :
    (StableHlo.after hostOps2 W main_v36 : (⟨2, ![1, 64]⟩ : Shape).Idx → EReal) (ix2 0 j) = (argsAt W).attnW 1 j := by
  have e : (StableHlo.after hostOps2 W main_v36 : (⟨2, ![1, 64]⟩ : Shape).Idx → EReal)
      = shapeCast S1x64 (shapeCast S64x1 (extractStridedSlice S1x64x1 ![1, 0, 0] (W main_arg7) slices_S4x64x1_S1x64x1_1_0_0)
          shapeCasts_S1x64x1_S64x1) shapeCasts_S64x1_S1x64 := by
    after_results; rfl
  exact (congrFun e _).trans (col3_apply 1 _ _ _ _ (1 : Fin 4) rfl 0 j)

/-- The attention bias of head 1. -/
theorem hostOps2_attnB :
    (StableHlo.after hostOps2 W main_v39 : (⟨2, ![1, 1]⟩ : Shape).Idx → EReal) (ix2 0 0) = (argsAt W).attnB 1 := by
  have e : (StableHlo.after hostOps2 W main_v39 : (⟨2, ![1, 1]⟩ : Shape).Idx → EReal)
      = shapeCast S1x1 (shapeCast S1 (extractStridedSlice S1x1 ![1, 0] (W main_arg8) slices_S4x1_S1x1_1_0)
          shapeCasts_S1x1_S1) shapeCasts_S1_S1x1 := by
    after_results; rfl
  exact (congrFun e _).trans (row2_apply 1 _ _ _ _ (1 : Fin 4) rfl 0 0)

/-- The output projection's weights of head 1. -/
theorem hostOps2_outW (j : Fin 64) (cc : Fin 128) :
    (StableHlo.after hostOps2 W main_v41 : (⟨2, ![64, 128]⟩ : Shape).Idx → EReal) (ix2 j cc) = (argsAt W).outW 1 j cc := by
  have e : (StableHlo.after hostOps2 W main_v41 : (⟨2, ![64, 128]⟩ : Shape).Idx → EReal)
      = shapeCast S64x128 (extractStridedSlice S1x64x128 ![1, 0, 0] (W main_arg9) slices_S4x64x128_S1x64x128_1_0_0)
          shapeCasts_S1x64x128_S64x128 := by
    after_results; rfl
  exact (congrFun e _).trans (member3_apply 1 _ _ _ (1 : Fin 4) rfl j cc)

/-- The output projection's bias of head 1. -/
theorem hostOps2_outB (cc : Fin 128) :
    (StableHlo.after hostOps2 W main_v44 : (⟨2, ![1, 128]⟩ : Shape).Idx → EReal) (ix2 0 cc) = (argsAt W).outB 1 cc := by
  have e : (StableHlo.after hostOps2 W main_v44 : (⟨2, ![1, 128]⟩ : Shape).Idx → EReal)
      = shapeCast S1x128 (shapeCast S128 (extractStridedSlice S1x128 ![1, 0] (W main_arg10) slices_S4x128_S1x128_1_0)
          shapeCasts_S1x128_S128) shapeCasts_S128_S1x128 := by
    after_results; rfl
  exact (congrFun e _).trans (row2_apply 1 _ _ _ _ (1 : Fin 4) rfl 0 cc)

end Cert.KernelIdeal.Glue

end
-- ==== Proof.Glue3.lean ====
/-
  The host operations before head 2's kernel cut that head's parameters out of the stacked argument arrays:
  a slice of extent one along the head axis at position 2, then casts that drop or move the unit axis.
  Read at an index, each of the six arrays the kernel's windows are staged from is the stacked array's
  entry of head 2.
-/
import proofs.«100906_j73718818669321_2_alg».proof.Proof.Gen.KernelIdeal.Launch
import proofs.«100906_j73718818669321_2_alg».proof.Proof.GlueArgs
import proofs.«100906_j73718818669321_2_alg».proof.Proof.GlueLayout
import Idealize.ShloMosaic.Lib.StableHlo.Run

noncomputable section

namespace Cert.KernelIdeal.Glue

open Idealize.ShloMosaic Idealize.ShloMosaic.TcCoe Idealize.ShloMosaic.ValueIdx
open Cert.KernelIdeal Cert.KernelIdeal.Gen

variable (W : Valuation τ sig (Elt Ideal))

/-- The node transform's weights of head 2. -/
theorem hostOps3_nodeW (k : Fin 128) (j : Fin 64) :
    (StableHlo.after hostOps3 W main_v47 : (⟨2, ![128, 64]⟩ : Shape).Idx → EReal) (ix2 k j) = (argsAt W).nodeW 2 k j := by
  have e : (StableHlo.after hostOps3 W main_v47 : (⟨2, ![128, 64]⟩ : Shape).Idx → EReal)
      = shapeCast S128x64 (extractStridedSlice S1x128x64 ![2, 0, 0] (W main_arg3) slices_S4x128x64_S1x128x64_2_0_0)
          shapeCasts_S1x128x64_S128x64 := by
    after_results; rfl
  exact (congrFun e _).trans (member3_apply 2 _ _ _ (2 : Fin 4) rfl k j)

/-- The node transform's bias of head 2. -/
theorem hostOps3_nodeB (j : Fin 64) :
    (StableHlo.after hostOps3 W main_v50 : (⟨2, ![1, 64]⟩ : Shape).Idx → EReal) (ix2 0 j) = (argsAt W).nodeB 2 j := by
  have e : (StableHlo.after hostOps3 W main_v50 : (⟨2, ![1, 64]⟩ : Shape).Idx → EReal)
      = shapeCast S1x64 (shapeCast S64 (extractStridedSlice S1x64 ![2, 0] (W main_arg4) slices_S4x64_S1x64_2_0)
          shapeCasts_S1x64_S64) shapeCasts_S64_S1x64 := by
    after_results; rfl
  exact (congrFun e _).trans (row2_apply 2 _ _ _ _ (2 : Fin 4) rfl 0 j)

/-- The attention weights of head 2. -/
theorem hostOps3_attnW (j : Fin 64) :
    (StableHlo.after hostOps3 W main_v53 : (⟨2, ![1, 64]⟩ : Shape).Idx → EReal) (ix2 0 j) = (argsAt W).attnW 2 j := by
  have e : (StableHlo.after hostOps3 W main_v53 : (⟨2, ![1, 64]⟩ : Shape).Idx → EReal)
      = shapeCast S1x64 (shapeCast S64x1 (extractStridedSlice S1x64x1 ![2, 0, 0] (W main_arg7) slices_S4x64x1_S1x64x1_2_0_0)
          shapeCasts_S1x64x1_S64x1) shapeCasts_S64x1_S1x64 := by
    after_results; rfl
  exact (congrFun e _).trans (col3_apply 2 _ _ _ _ (2 : Fin 4) rfl 0 j)

/-- The attention bias of head 2. -/
theorem hostOps3_attnB :
    (StableHlo.after hostOps3 W main_v56 : (⟨2, ![1, 1]⟩ : Shape).Idx → EReal) (ix2 0 0) = (argsAt W).attnB 2 := by
  have e : (StableHlo.after hostOps3 W main_v56 : (⟨2, ![1, 1]⟩ : Shape).Idx → EReal)
      = shapeCast S1x1 (shapeCast S1 (extractStridedSlice S1x1 ![2, 0] (W main_arg8) slices_S4x1_S1x1_2_0)
          shapeCasts_S1x1_S1) shapeCasts_S1_S1x1 := by
    after_results; rfl
  exact (congrFun e _).trans (row2_apply 2 _ _ _ _ (2 : Fin 4) rfl 0 0)

/-- The output projection's weights of head 2. -/
theorem hostOps3_outW (j : Fin 64) (cc : Fin 128) :
    (StableHlo.after hostOps3 W main_v58 : (⟨2, ![64, 128]⟩ : Shape).Idx → EReal) (ix2 j cc) = (argsAt W).outW 2 j cc := by
  have e : (StableHlo.after hostOps3 W main_v58 : (⟨2, ![64, 128]⟩ : Shape).Idx → EReal)
      = shapeCast S64x128 (extractStridedSlice S1x64x128 ![2, 0, 0] (W main_arg9) slices_S4x64x128_S1x64x128_2_0_0)
          shapeCasts_S1x64x128_S64x128 := by
    after_results; rfl
  exact (congrFun e _).trans (member3_apply 2 _ _ _ (2 : Fin 4) rfl j cc)

/-- The output projection's bias of head 2. -/
theorem hostOps3_outB (cc : Fin 128) :
    (StableHlo.after hostOps3 W main_v61 : (⟨2, ![1, 128]⟩ : Shape).Idx → EReal) (ix2 0 cc) = (argsAt W).outB 2 cc := by
  have e : (StableHlo.after hostOps3 W main_v61 : (⟨2, ![1, 128]⟩ : Shape).Idx → EReal)
      = shapeCast S1x128 (shapeCast S128 (extractStridedSlice S1x128 ![2, 0] (W main_arg10) slices_S4x128_S1x128_2_0)
          shapeCasts_S1x128_S128) shapeCasts_S128_S1x128 := by
    after_results; rfl
  exact (congrFun e _).trans (row2_apply 2 _ _ _ _ (2 : Fin 4) rfl 0 cc)

end Cert.KernelIdeal.Glue

end
-- ==== Proof.Glue4.lean ====
/-
  The host operations before head 3's kernel cut that head's parameters out of the stacked argument arrays:
  a slice of extent one along the head axis at position 3, then casts that drop or move the unit axis.
  Read at an index, each of the six arrays the kernel's windows are staged from is the stacked array's
  entry of head 3.
-/
import proofs.«100906_j73718818669321_2_alg».proof.Proof.Gen.KernelIdeal.Launch
import proofs.«100906_j73718818669321_2_alg».proof.Proof.GlueArgs
import proofs.«100906_j73718818669321_2_alg».proof.Proof.GlueLayout
import Idealize.ShloMosaic.Lib.StableHlo.Run

noncomputable section

namespace Cert.KernelIdeal.Glue

open Idealize.ShloMosaic Idealize.ShloMosaic.TcCoe Idealize.ShloMosaic.ValueIdx
open Cert.KernelIdeal Cert.KernelIdeal.Gen

variable (W : Valuation τ sig (Elt Ideal))

/-- The node transform's weights of head 3. -/
theorem hostOps4_nodeW (k : Fin 128) (j : Fin 64) :
    (StableHlo.after hostOps4 W main_v64 : (⟨2, ![128, 64]⟩ : Shape).Idx → EReal) (ix2 k j) = (argsAt W).nodeW 3 k j := by
  have e : (StableHlo.after hostOps4 W main_v64 : (⟨2, ![128, 64]⟩ : Shape).Idx → EReal)
      = shapeCast S128x64 (extractStridedSlice S1x128x64 ![3, 0, 0] (W main_arg3) slices_S4x128x64_S1x128x64_3_0_0)
          shapeCasts_S1x128x64_S128x64 := by
    after_results; rfl
  exact (congrFun e _).trans (member3_apply 3 _ _ _ (3 : Fin 4) rfl k j)

/-- The node transform's bias of head 3. -/
theorem hostOps4_nodeB (j : Fin 64) :
    (StableHlo.after hostOps4 W main_v67 : (⟨2, ![1, 64]⟩ : Shape).Idx → EReal) (ix2 0 j) = (argsAt W).nodeB 3 j := by
  have e : (StableHlo.after hostOps4 W main_v67 : (⟨2, ![1, 64]⟩ : Shape).Idx → EReal)
      = shapeCast S1x64 (shapeCast S64 (extractStridedSlice S1x64 ![3, 0] (W main_arg4) slices_S4x64_S1x64_3_0)
          shapeCasts_S1x64_S64) shapeCasts_S64_S1x64 := by
    after_results; rfl
  exact (congrFun e _).trans (row2_apply 3 _ _ _ _ (3 : Fin 4) rfl 0 j)

/-- The attention weights of head 3. -/
theorem hostOps4_attnW (j : Fin 64) :
    (StableHlo.after hostOps4 W main_v70 : (⟨2, ![1, 64]⟩ : Shape).Idx → EReal) (ix2 0 j) = (argsAt W).attnW 3 j := by
  have e : (StableHlo.after hostOps4 W main_v70 : (⟨2, ![1, 64]⟩ : Shape).Idx → EReal)
      = shapeCast S1x64 (shapeCast S64x1 (extractStridedSlice S1x64x1 ![3, 0, 0] (W main_arg7) slices_S4x64x1_S1x64x1_3_0_0)
          shapeCasts_S1x64x1_S64x1) shapeCasts_S64x1_S1x64 := by
    after_results; rfl
  exact (congrFun e _).trans (col3_apply 3 _ _ _ _ (3 : Fin 4) rfl 0 j)

/-- The attention bias of head 3. -/
theorem hostOps4_attnB :
    (StableHlo.after hostOps4 W main_v73 : (⟨2, ![1, 1]⟩ : Shape).Idx → EReal) (ix2 0 0) = (argsAt W).attnB 3 := by
  have e : (StableHlo.after hostOps4 W main_v73 : (⟨2, ![1, 1]⟩ : Shape).Idx → EReal)
      = shapeCast S1x1 (shapeCast S1 (extractStridedSlice S1x1 ![3, 0] (W main_arg8) slices_S4x1_S1x1_3_0)
          shapeCasts_S1x1_S1) shapeCasts_S1_S1x1 := by
    after_results; rfl
  exact (congrFun e _).trans (row2_apply 3 _ _ _ _ (3 : Fin 4) rfl 0 0)

/-- The output projection's weights of head 3. -/
theorem hostOps4_outW (j : Fin 64) (cc : Fin 128) :
    (StableHlo.after hostOps4 W main_v75 : (⟨2, ![64, 128]⟩ : Shape).Idx → EReal) (ix2 j cc) = (argsAt W).outW 3 j cc := by
  have e : (StableHlo.after hostOps4 W main_v75 : (⟨2, ![64, 128]⟩ : Shape).Idx → EReal)
      = shapeCast S64x128 (extractStridedSlice S1x64x128 ![3, 0, 0] (W main_arg9) slices_S4x64x128_S1x64x128_3_0_0)
          shapeCasts_S1x64x128_S64x128 := by
    after_results; rfl
  exact (congrFun e _).trans (member3_apply 3 _ _ _ (3 : Fin 4) rfl j cc)

/-- The output projection's bias of head 3. -/
theorem hostOps4_outB (cc : Fin 128) :
    (StableHlo.after hostOps4 W main_v78 : (⟨2, ![1, 128]⟩ : Shape).Idx → EReal) (ix2 0 cc) = (argsAt W).outB 3 cc := by
  have e : (StableHlo.after hostOps4 W main_v78 : (⟨2, ![1, 128]⟩ : Shape).Idx → EReal)
      = shapeCast S1x128 (shapeCast S128 (extractStridedSlice S1x128 ![3, 0] (W main_arg10) slices_S4x128_S1x128_3_0)
          shapeCasts_S1x128_S128) shapeCasts_S128_S1x128 := by
    after_results; rfl
  exact (congrFun e _).trans (row2_apply 3 _ _ _ _ (3 : Fin 4) rfl 0 cc)

end Cert.KernelIdeal.Glue

end
-- ==== Proof.KerHead.lean ====
/-
  Each head kernel's formula over the arrays it is handed, with the six parameter arrays identified as that
  head's slices of the stacked argument arrays: what is left to identify is the head's input rows and the
  aggregates, which the earlier kernels produced.
-/
import proofs.«100906_j73718818669321_2_alg».proof.Proof.Glue1
import proofs.«100906_j73718818669321_2_alg».proof.Proof.Glue2
import proofs.«100906_j73718818669321_2_alg».proof.Proof.Glue3
import proofs.«100906_j73718818669321_2_alg».proof.Proof.Glue4
import proofs.«100906_j73718818669321_2_alg».proof.Proof.KerStep

noncomputable section

namespace Cert.KernelIdeal.Ker

open Idealize.ShloMosaic Idealize.ShloMosaic.TcCoe Idealize.ShloMosaic.ValueIdx
open Cert.KernelIdeal Cert.KernelIdeal.Gen Cert.KernelIdeal.Glue

/-- Head 0: entered with the host stretch before it applied to `Win`, the kernel's formula over the arrays it is
    handed is `Spec.pre3` of head 0, once its input rows and the aggregates are identified. -/
theorem head1_pre (Win : Dev nD → Valuation τ sig (Elt Ideal)) (c : Dev nD) (x out : Fin 32768 → Fin 128 → EReal)
    (hx : ∀ (n : Fin 32768) (k : Fin 128), (StableHlo.after hostOps1 (Win c) main_arg0 : S32768x128.Idx → EReal) (ix2 n k) = x n k)
    (hagg : ∀ (n : Fin 32768) (d : Fin 256), (StableHlo.after hostOps1 (Win c) main_v11 : S32768x256.Idx → EReal) (ix2 n d) = agg3 (argsAt (Win c)) n d)
    (hout : ∀ (n : Fin 32768) (cc : Fin 128), out n cc = Cert.Spec.headPre3
        (fun k j => (StableHlo.after hostOps1 (Win c) main_v13 : S128x64.Idx → EReal) (ix2 k j))
        (fun j => (StableHlo.after hostOps1 (Win c) main_v16 : S1x64.Idx → EReal) (ix2 (0 : Fin 1) j))
        (fun j => (StableHlo.after hostOps1 (Win c) main_v19 : S1x64.Idx → EReal) (ix2 (0 : Fin 1) j))
        ((StableHlo.after hostOps1 (Win c) main_v22 : S1x1.Idx → EReal) (ix2 (0 : Fin 1) (0 : Fin 1)))
        (fun j cc => (StableHlo.after hostOps1 (Win c) main_v24 : S64x128.Idx → EReal) (ix2 j cc))
        (fun cc => (StableHlo.after hostOps1 (Win c) main_v27 : S1x128.Idx → EReal) (ix2 (0 : Fin 1) cc))
        (fun k => (StableHlo.after hostOps1 (Win c) main_arg0 : S32768x128.Idx → EReal) (ix2 n k))
        (fun j => (StableHlo.after hostOps1 (Win c) main_v11 : S32768x256.Idx → EReal) (ix2 n (Cert.Spec.col 0 j))) cc)
    (n : Fin 32768) (cc : Fin 128) : out n cc = Cert.Spec.pre3 (argsAt (Win c)) 0 x n cc :=
  pre3_of (argsAt (Win c)) 0 x out
    (fun k j => (StableHlo.after hostOps1 (Win c) main_v13 : S128x64.Idx → EReal) (ix2 k j))
    (fun j => (StableHlo.after hostOps1 (Win c) main_v16 : S1x64.Idx → EReal) (ix2 (0 : Fin 1) j))
    (fun j => (StableHlo.after hostOps1 (Win c) main_v19 : S1x64.Idx → EReal) (ix2 (0 : Fin 1) j))
    ((StableHlo.after hostOps1 (Win c) main_v22 : S1x1.Idx → EReal) (ix2 (0 : Fin 1) (0 : Fin 1)))
    (fun j cc => (StableHlo.after hostOps1 (Win c) main_v24 : S64x128.Idx → EReal) (ix2 j cc))
    (fun cc => (StableHlo.after hostOps1 (Win c) main_v27 : S1x128.Idx → EReal) (ix2 (0 : Fin 1) cc))
    (fun n k => (StableHlo.after hostOps1 (Win c) main_arg0 : S32768x128.Idx → EReal) (ix2 n k))
    (fun n d => (StableHlo.after hostOps1 (Win c) main_v11 : S32768x256.Idx → EReal) (ix2 n d))
    (hostOps1_nodeW (Win c)) (hostOps1_nodeB (Win c)) (hostOps1_attnW (Win c)) (hostOps1_attnB (Win c))
    (hostOps1_outW (Win c)) (hostOps1_outB (Win c)) hx hagg hout n cc

/-- Head 1: entered with the host stretch before it applied to `Win`, the kernel's formula over the arrays it is
    handed is `Spec.pre3` of head 1, once its input rows and the aggregates are identified. -/
theorem head2_pre (Win : Dev nD → Valuation τ sig (Elt Ideal)) (c : Dev nD) (x out : Fin 32768 → Fin 128 → EReal)
    (hx : ∀ (n : Fin 32768) (k : Fin 128), Cert.Spec.norm ((StableHlo.after hostOps2 (Win c) main_v28_0 : S32768x128.Idx → EReal) (ix2 n k))
          ((StableHlo.after hostOps2 (Win c) main_v28_1 : S1x128.Idx → EReal) (ix2 (0 : Fin 1) k)) ((StableHlo.after hostOps2 (Win c) main_v28_2 : S1x128.Idx → EReal) (ix2 (0 : Fin 1) k)) = x n k)
    (hagg : ∀ (n : Fin 32768) (d : Fin 256), (StableHlo.after hostOps2 (Win c) main_v11 : S32768x256.Idx → EReal) (ix2 n d) = agg3 (argsAt (Win c)) n d)
    (hout : ∀ (n : Fin 32768) (cc : Fin 128), out n cc = Cert.Spec.headPre3
        (fun k j => (StableHlo.after hostOps2 (Win c) main_v30 : S128x64.Idx → EReal) (ix2 k j))
        (fun j => (StableHlo.after hostOps2 (Win c) main_v33 : S1x64.Idx → EReal) (ix2 (0 : Fin 1) j))
        (fun j => (StableHlo.after hostOps2 (Win c) main_v36 : S1x64.Idx → EReal) (ix2 (0 : Fin 1) j))
        ((StableHlo.after hostOps2 (Win c) main_v39 : S1x1.Idx → EReal) (ix2 (0 : Fin 1) (0 : Fin 1)))
        (fun j cc => (StableHlo.after hostOps2 (Win c) main_v41 : S64x128.Idx → EReal) (ix2 j cc))
        (fun cc => (StableHlo.after hostOps2 (Win c) main_v44 : S1x128.Idx → EReal) (ix2 (0 : Fin 1) cc))
        (fun k => Cert.Spec.norm ((StableHlo.after hostOps2 (Win c) main_v28_0 : S32768x128.Idx → EReal) (ix2 n k))
          ((StableHlo.after hostOps2 (Win c) main_v28_1 : S1x128.Idx → EReal) (ix2 (0 : Fin 1) k)) ((StableHlo.after hostOps2 (Win c) main_v28_2 : S1x128.Idx → EReal) (ix2 (0 : Fin 1) k)))
        (fun j => (StableHlo.after hostOps2 (Win c) main_v11 : S32768x256.Idx → EReal) (ix2 n (Cert.Spec.col 1 j))) cc)
    (n : Fin 32768) (cc : Fin 128) : out n cc = Cert.Spec.pre3 (argsAt (Win c)) 1 x n cc :=
  pre3_of (argsAt (Win c)) 1 x out
    (fun k j => (StableHlo.after hostOps2 (Win c) main_v30 : S128x64.Idx → EReal) (ix2 k j))
    (fun j => (StableHlo.after hostOps2 (Win c) main_v33 : S1x64.Idx → EReal) (ix2 (0 : Fin 1) j))
    (fun j => (StableHlo.after hostOps2 (Win c) main_v36 : S1x64.Idx → EReal) (ix2 (0 : Fin 1) j))
    ((StableHlo.after hostOps2 (Win c) main_v39 : S1x1.Idx → EReal) (ix2 (0 : Fin 1) (0 : Fin 1)))
    (fun j cc => (StableHlo.after hostOps2 (Win c) main_v41 : S64x128.Idx → EReal) (ix2 j cc))
    (fun cc => (StableHlo.after hostOps2 (Win c) main_v44 : S1x128.Idx → EReal) (ix2 (0 : Fin 1) cc))
    (fun n k => Cert.Spec.norm ((StableHlo.after hostOps2 (Win c) main_v28_0 : S32768x128.Idx → EReal) (ix2 n k))
          ((StableHlo.after hostOps2 (Win c) main_v28_1 : S1x128.Idx → EReal) (ix2 (0 : Fin 1) k)) ((StableHlo.after hostOps2 (Win c) main_v28_2 : S1x128.Idx → EReal) (ix2 (0 : Fin 1) k)))
    (fun n d => (StableHlo.after hostOps2 (Win c) main_v11 : S32768x256.Idx → EReal) (ix2 n d))
    (hostOps2_nodeW (Win c)) (hostOps2_nodeB (Win c)) (hostOps2_attnW (Win c)) (hostOps2_attnB (Win c))
    (hostOps2_outW (Win c)) (hostOps2_outB (Win c)) hx hagg hout n cc

/-- Head 2: entered with the host stretch before it applied to `Win`, the kernel's formula over the arrays it is
    handed is `Spec.pre3` of head 2, once its input rows and the aggregates are identified. -/
theorem head3_pre (Win : Dev nD → Valuation τ sig (Elt Ideal)) (c : Dev nD) (x out : Fin 32768 → Fin 128 → EReal)
    (hx : ∀ (n : Fin 32768) (k : Fin 128), Cert.Spec.norm ((StableHlo.after hostOps3 (Win c) main_v45_0 : S32768x128.Idx → EReal) (ix2 n k))
          ((StableHlo.after hostOps3 (Win c) main_v45_1 : S1x128.Idx → EReal) (ix2 (0 : Fin 1) k)) ((StableHlo.after hostOps3 (Win c) main_v45_2 : S1x128.Idx → EReal) (ix2 (0 : Fin 1) k)) = x n k)
    (hagg : ∀ (n : Fin 32768) (d : Fin 256), (StableHlo.after hostOps3 (Win c) main_v11 : S32768x256.Idx → EReal) (ix2 n d) = agg3 (argsAt (Win c)) n d)
    (hout : ∀ (n : Fin 32768) (cc : Fin 128), out n cc = Cert.Spec.headPre3
        (fun k j => (StableHlo.after hostOps3 (Win c) main_v47 : S128x64.Idx → EReal) (ix2 k j))
        (fun j => (StableHlo.after hostOps3 (Win c) main_v50 : S1x64.Idx → EReal) (ix2 (0 : Fin 1) j))
        (fun j => (StableHlo.after hostOps3 (Win c) main_v53 : S1x64.Idx → EReal) (ix2 (0 : Fin 1) j))
        ((StableHlo.after hostOps3 (Win c) main_v56 : S1x1.Idx → EReal) (ix2 (0 : Fin 1) (0 : Fin 1)))
        (fun j cc => (StableHlo.after hostOps3 (Win c) main_v58 : S64x128.Idx → EReal) (ix2 j cc))
        (fun cc => (StableHlo.after hostOps3 (Win c) main_v61 : S1x128.Idx → EReal) (ix2 (0 : Fin 1) cc))
        (fun k => Cert.Spec.norm ((StableHlo.after hostOps3 (Win c) main_v45_0 : S32768x128.Idx → EReal) (ix2 n k))
          ((StableHlo.after hostOps3 (Win c) main_v45_1 : S1x128.Idx → EReal) (ix2 (0 : Fin 1) k)) ((StableHlo.after hostOps3 (Win c) main_v45_2 : S1x128.Idx → EReal) (ix2 (0 : Fin 1) k)))
        (fun j => (StableHlo.after hostOps3 (Win c) main_v11 : S32768x256.Idx → EReal) (ix2 n (Cert.Spec.col 2 j))) cc)
    (n : Fin 32768) (cc : Fin 128) : out n cc = Cert.Spec.pre3 (argsAt (Win c)) 2 x n cc :=
  pre3_of (argsAt (Win c)) 2 x out
    (fun k j => (StableHlo.after hostOps3 (Win c) main_v47 : S128x64.Idx → EReal) (ix2 k j))
    (fun j => (StableHlo.after hostOps3 (Win c) main_v50 : S1x64.Idx → EReal) (ix2 (0 : Fin 1) j))
    (fun j => (StableHlo.after hostOps3 (Win c) main_v53 : S1x64.Idx → EReal) (ix2 (0 : Fin 1) j))
    ((StableHlo.after hostOps3 (Win c) main_v56 : S1x1.Idx → EReal) (ix2 (0 : Fin 1) (0 : Fin 1)))
    (fun j cc => (StableHlo.after hostOps3 (Win c) main_v58 : S64x128.Idx → EReal) (ix2 j cc))
    (fun cc => (StableHlo.after hostOps3 (Win c) main_v61 : S1x128.Idx → EReal) (ix2 (0 : Fin 1) cc))
    (fun n k => Cert.Spec.norm ((StableHlo.after hostOps3 (Win c) main_v45_0 : S32768x128.Idx → EReal) (ix2 n k))
          ((StableHlo.after hostOps3 (Win c) main_v45_1 : S1x128.Idx → EReal) (ix2 (0 : Fin 1) k)) ((StableHlo.after hostOps3 (Win c) main_v45_2 : S1x128.Idx → EReal) (ix2 (0 : Fin 1) k)))
    (fun n d => (StableHlo.after hostOps3 (Win c) main_v11 : S32768x256.Idx → EReal) (ix2 n d))
    (hostOps3_nodeW (Win c)) (hostOps3_nodeB (Win c)) (hostOps3_attnW (Win c)) (hostOps3_attnB (Win c))
    (hostOps3_outW (Win c)) (hostOps3_outB (Win c)) hx hagg hout n cc

/-- Head 3: entered with the host stretch before it applied to `Win`, the kernel's formula over the arrays it is
    handed is `Spec.pre3` of head 3, once its input rows and the aggregates are identified. -/
theorem head4_pre (Win : Dev nD → Valuation τ sig (Elt Ideal)) (c : Dev nD) (x out : Fin 32768 → Fin 128 → EReal)
    (hx : ∀ (n : Fin 32768) (k : Fin 128), Cert.Spec.norm ((StableHlo.after hostOps4 (Win c) main_v62_0 : S32768x128.Idx → EReal) (ix2 n k))
          ((StableHlo.after hostOps4 (Win c) main_v62_1 : S1x128.Idx → EReal) (ix2 (0 : Fin 1) k)) ((StableHlo.after hostOps4 (Win c) main_v62_2 : S1x128.Idx → EReal) (ix2 (0 : Fin 1) k)) = x n k)
    (hagg : ∀ (n : Fin 32768) (d : Fin 256), (StableHlo.after hostOps4 (Win c) main_v11 : S32768x256.Idx → EReal) (ix2 n d) = agg3 (argsAt (Win c)) n d)
    (hout : ∀ (n : Fin 32768) (cc : Fin 128), out n cc = Cert.Spec.headPre3
        (fun k j => (StableHlo.after hostOps4 (Win c) main_v64 : S128x64.Idx → EReal) (ix2 k j))
        (fun j => (StableHlo.after hostOps4 (Win c) main_v67 : S1x64.Idx → EReal) (ix2 (0 : Fin 1) j))
        (fun j => (StableHlo.after hostOps4 (Win c) main_v70 : S1x64.Idx → EReal) (ix2 (0 : Fin 1) j))
        ((StableHlo.after hostOps4 (Win c) main_v73 : S1x1.Idx → EReal) (ix2 (0 : Fin 1) (0 : Fin 1)))
        (fun j cc => (StableHlo.after hostOps4 (Win c) main_v75 : S64x128.Idx → EReal) (ix2 j cc))
        (fun cc => (StableHlo.after hostOps4 (Win c) main_v78 : S1x128.Idx → EReal) (ix2 (0 : Fin 1) cc))
        (fun k => Cert.Spec.norm ((StableHlo.after hostOps4 (Win c) main_v62_0 : S32768x128.Idx → EReal) (ix2 n k))
          ((StableHlo.after hostOps4 (Win c) main_v62_1 : S1x128.Idx → EReal) (ix2 (0 : Fin 1) k)) ((StableHlo.after hostOps4 (Win c) main_v62_2 : S1x128.Idx → EReal) (ix2 (0 : Fin 1) k)))
        (fun j => (StableHlo.after hostOps4 (Win c) main_v11 : S32768x256.Idx → EReal) (ix2 n (Cert.Spec.col 3 j))) cc)
    (n : Fin 32768) (cc : Fin 128) : out n cc = Cert.Spec.pre3 (argsAt (Win c)) 3 x n cc :=
  pre3_of (argsAt (Win c)) 3 x out
    (fun k j => (StableHlo.after hostOps4 (Win c) main_v64 : S128x64.Idx → EReal) (ix2 k j))
    (fun j => (StableHlo.after hostOps4 (Win c) main_v67 : S1x64.Idx → EReal) (ix2 (0 : Fin 1) j))
    (fun j => (StableHlo.after hostOps4 (Win c) main_v70 : S1x64.Idx → EReal) (ix2 (0 : Fin 1) j))
    ((StableHlo.after hostOps4 (Win c) main_v73 : S1x1.Idx → EReal) (ix2 (0 : Fin 1) (0 : Fin 1)))
    (fun j cc => (StableHlo.after hostOps4 (Win c) main_v75 : S64x128.Idx → EReal) (ix2 j cc))
    (fun cc => (StableHlo.after hostOps4 (Win c) main_v78 : S1x128.Idx → EReal) (ix2 (0 : Fin 1) cc))
    (fun n k => Cert.Spec.norm ((StableHlo.after hostOps4 (Win c) main_v62_0 : S32768x128.Idx → EReal) (ix2 n k))
          ((StableHlo.after hostOps4 (Win c) main_v62_1 : S1x128.Idx → EReal) (ix2 (0 : Fin 1) k)) ((StableHlo.after hostOps4 (Win c) main_v62_2 : S1x128.Idx → EReal) (ix2 (0 : Fin 1) k)))
    (fun n d => (StableHlo.after hostOps4 (Win c) main_v11 : S32768x256.Idx → EReal) (ix2 n d))
    (hostOps4_nodeW (Win c)) (hostOps4_nodeB (Win c)) (hostOps4_attnW (Win c)) (hostOps4_attnB (Win c))
    (hostOps4_outW (Win c)) (hostOps4_outB (Win c)) hx hagg hout n cc

end Cert.KernelIdeal.Ker

end
-- ==== Proof.Glue5.lean ====
/-
  The host operations after the last head's kernel normalise its array column by column with the column
  minimum and maximum the kernel left beside it: `(x - mn) / (mx - mn + ε)`, then the maximum with zero.
-/
import proofs.«100906_j73718818669321_2_alg».proof.Proof.Gen.KernelIdeal.Launch
import proofs.«100906_j73718818669321_2_alg».proof.Proof.GlueArgs
import proofs.«100906_j73718818669321_2_alg».proof.Proof.GlueLayout
import Idealize.ShloMosaic.Lib.StableHlo.Run
import Idealize.ShloMosaic.PureOps.Ideal.Laws

noncomputable section

namespace Cert.KernelIdeal.Glue

open Idealize.ShloMosaic Idealize.ShloMosaic.TcCoe Idealize.ShloMosaic.ValueIdx
open Cert.KernelIdeal Cert.KernelIdeal.Gen

/-- An entry less its column's minimum, over the column's range plus `ε`. -/
def quot (v mn mx : EReal) : EReal := Ideal.div (v - mn) (mx - mn + Cert.Spec.eps)

/-- The normalised entry is the quotient clipped at zero. -/
theorem norm_eq_max_quot (v mn mx : EReal) : Cert.Spec.norm v mn mx = max (quot v mn mx) 0 := rfl

/-- The host's quotient read at an index: the minimum and the range are one row laid along every row. -/
theorem quotHost_apply (A : FVec Ideal S32768x128 .f32) (B C : FVec Ideal S1x128 .f32) (n : Fin 32768) (cc : Fin 128) :
    Host.divf (F := Ideal)
        (subf A (broadcastInDim S32768x128 ![0, 1] bcast_S1x128_S32768x128_0_1 B))
        (broadcastInDim S32768x128 ![0, 1] bcast_S1x128_S32768x128_0_1
          (addf (subf C B) (broadcastInDim S1x128 ![] bcast_S_S1x128 (constant (F := Ideal) S_ .f32 0x322BCC77#32))))
        (ix2 n cc)
      = quot (A (ix2 n cc)) (B (ix2 0 cc)) (C (ix2 0 cc)) := by
  have h1 : broadcastInDim S32768x128 ![0, 1] bcast_S1x128_S32768x128_0_1 B (ix2 n cc) = B (ix2 0 cc) :=
    bcastRows_apply (by decide) B _ n cc
  have h2 : broadcastInDim S32768x128 ![0, 1] bcast_S1x128_S32768x128_0_1
        (addf (subf C B) (broadcastInDim S1x128 ![] bcast_S_S1x128 (constant (F := Ideal) S_ .f32 0x322BCC77#32))) (ix2 n cc)
      = (addf (subf C B) (broadcastInDim S1x128 ![] bcast_S_S1x128 (constant (F := Ideal) S_ .f32 0x322BCC77#32))) (ix2 0 cc) :=
    bcastRows_apply (by decide) _ _ n cc
  have h3 : broadcastInDim S1x128 ![] bcast_S_S1x128 (constant (F := Ideal) S_ .f32 0x322BCC77#32) (ix2 0 cc) = Cert.Spec.eps :=
    bcastScalar_apply _ _ _
  show Ideal.div (A (ix2 n cc) - broadcastInDim S32768x128 ![0, 1] bcast_S1x128_S32768x128_0_1 B (ix2 n cc))
      (broadcastInDim S32768x128 ![0, 1] bcast_S1x128_S32768x128_0_1
        (addf (subf C B) (broadcastInDim S1x128 ![] bcast_S_S1x128 (constant (F := Ideal) S_ .f32 0x322BCC77#32))) (ix2 n cc)) = _
  rw [h1, h2]
  show Ideal.div _ (C (ix2 0 cc) - B (ix2 0 cc)
      + broadcastInDim S1x128 ![] bcast_S_S1x128 (constant (F := Ideal) S_ .f32 0x322BCC77#32) (ix2 0 cc)) = _
  rw [h3]
  rfl

/-- The host's clip read at an index: the maximum with a zero laid everywhere. -/
theorem clipHost_apply (X : FVec Ideal S32768x128 .f32) (i : S32768x128.Idx) :
    maximumf X (broadcastInDim S32768x128 ![] bcast_S_S32768x128 (constant (F := Ideal) S_ .f32 0x00000000#32)) i
      = max (X i) 0 := by
  have h : broadcastInDim S32768x128 ![] bcast_S_S32768x128 (constant (F := Ideal) S_ .f32 0x00000000#32) i = 0 :=
    (bcastScalar_apply _ _ _).trans Ideal.ofBits_zero_f32
  show max (X i) (broadcastInDim S32768x128 ![] bcast_S_S32768x128 (constant (F := Ideal) S_ .f32 0x00000000#32) i) = _
  rw [h]

variable (W : Valuation τ sig (Elt Ideal))

/-- The quotient before the clip, as the host stretch leaves it. -/
theorem hostOps5_quot (n : Fin 32768) (cc : Fin 128) :
    (StableHlo.after hostOps5 W main_v86 : (⟨2, ![32768, 128]⟩ : Shape).Idx → EReal) (ix2 n cc)
      = quot (W main_v79_0 (ix2 n cc)) (W main_v79_1 (ix2 0 cc)) (W main_v79_2 (ix2 0 cc)) := by
  have e : (StableHlo.after hostOps5 W main_v86 : (⟨2, ![32768, 128]⟩ : Shape).Idx → EReal)
      = Host.divf (F := Ideal)
          (subf (W main_v79_0) (broadcastInDim S32768x128 ![0, 1] bcast_S1x128_S32768x128_0_1 (W main_v79_1)))
          (broadcastInDim S32768x128 ![0, 1] bcast_S1x128_S32768x128_0_1
            (addf (subf (W main_v79_2) (W main_v79_1))
              (broadcastInDim S1x128 ![] bcast_S_S1x128 (constant (F := Ideal) S_ .f32 0x322BCC77#32)))) := by
    after_results
    try rfl
  exact (congrFun e _).trans (quotHost_apply (W main_v79_0) (W main_v79_1) (W main_v79_2) n cc)

/-- The clip at zero, over any contents of the quotient's buffer. -/
theorem hostOps5_1_clip (V : Valuation τ sig (Elt Ideal)) (i : (⟨2, ![32768, 128]⟩ : Shape).Idx) :
    (StableHlo.after hostOps5_1 V main_v87 : (⟨2, ![32768, 128]⟩ : Shape).Idx → EReal) i
      = @max EReal _ (V main_v86 i) 0 := by
  have e : (StableHlo.after hostOps5_1 V main_v87 : (⟨2, ![32768, 128]⟩ : Shape).Idx → EReal)
      = maximumf (V main_v86) (broadcastInDim S32768x128 ![] bcast_S_S32768x128 (constant (F := Ideal) S_ .f32 0x00000000#32)) := by
    after_results
    try rfl
  exact (congrFun e _).trans (clipHost_apply (V main_v86) i)

/-- The program's result: the last head's array normalised column by column and clipped at zero. -/
theorem hostOps5_norm (n : Fin 32768) (cc : Fin 128) :
    (StableHlo.after hostOps5_1 (StableHlo.after hostOps5 W) main_v87 : (⟨2, ![32768, 128]⟩ : Shape).Idx → EReal) (ix2 n cc)
      = Cert.Spec.norm (W main_v79_0 (ix2 n cc)) (W main_v79_1 (ix2 0 cc)) (W main_v79_2 (ix2 0 cc)) := by
  rw [norm_eq_max_quot, ← hostOps5_quot W n cc]
  exact hostOps5_1_clip (StableHlo.after hostOps5 W) (ix2 n cc)

end Cert.KernelIdeal.Glue

end
-- ==== Proof.KerValue.lean ====
/-
  The value the kernel program ends with. Its buffers pass through the host stretches and the five kernels in
  turn; following the chain, the aggregation kernel leaves the stacked aggregates, each head kernel leaves
  `Spec.pre3` of its head on the previous head's output normalised column by column (the first on the node
  features) with that array's column minimum and maximum beside it, and the closing host stretch normalises
  the last head's array: the result is `Spec.result3` of the argument arrays at launch.
-/
import proofs.«100906_j73718818669321_2_alg».proof.Proof.AsmVals
import proofs.«100906_j73718818669321_2_alg».proof.Proof.Reg1Value
import proofs.«100906_j73718818669321_2_alg».proof.Proof.Reg2Value
import proofs.«100906_j73718818669321_2_alg».proof.Proof.Reg3Value
import proofs.«100906_j73718818669321_2_alg».proof.Proof.Reg4Value
import proofs.«100906_j73718818669321_2_alg».proof.Proof.KerAgg
import proofs.«100906_j73718818669321_2_alg».proof.Proof.KerHead
import proofs.«100906_j73718818669321_2_alg».proof.Proof.Glue5

noncomputable section

namespace Cert.KernelIdeal.Ker

open Idealize.ShloMosaic Idealize.ShloMosaic.TcCoe Idealize.ShloMosaic.ValueIdx
open Cert.KernelIdeal Cert.KernelIdeal.Gen Cert.KernelIdeal.Glue Cert.KernelIdeal.Asm

/-- The inputs of the four heads: the node features, then each head's output normalised column by column. -/
def x0 (A : Cert.Spec.Args) : Fin 32768 → Fin 128 → EReal := A.nf
def x1 (A : Cert.Spec.Args) : Fin 32768 → Fin 128 → EReal := Cert.Spec.normAll (Cert.Spec.pre3 A 0 (x0 A))
def x2 (A : Cert.Spec.Args) : Fin 32768 → Fin 128 → EReal := Cert.Spec.normAll (Cert.Spec.pre3 A 1 (x1 A))
def x3 (A : Cert.Spec.Args) : Fin 32768 → Fin 128 → EReal := Cert.Spec.normAll (Cert.Spec.pre3 A 2 (x2 A))

variable (m : (ℓ : Loc nD τ sig) → Buf (Elt Ideal) ℓ) (c : Dev nD)

/-- The argument arrays at launch. -/
abbrev A0 : Cert.Spec.Args := argsAt (V0 m c)

/-! ## No item changes the argument arrays -/

theorem args_W2 : argsAt (W2 m c) = argsAt (V0 m c) :=
  argsAt_congr _ _ (W2_main_arg0 m c) (W2_main_arg1 m c) (W2_main_arg2 m c) (W2_main_arg3 m c) (W2_main_arg4 m c)
    (W2_main_arg5 m c) (W2_main_arg6 m c) (W2_main_arg7 m c) (W2_main_arg8 m c) (W2_main_arg9 m c) (W2_main_arg10 m c)
theorem args_W4 : argsAt (W4 m c) = argsAt (V0 m c) :=
  argsAt_congr _ _ (W4_main_arg0 m c) (W4_main_arg1 m c) (W4_main_arg2 m c) (W4_main_arg3 m c) (W4_main_arg4 m c)
    (W4_main_arg5 m c) (W4_main_arg6 m c) (W4_main_arg7 m c) (W4_main_arg8 m c) (W4_main_arg9 m c) (W4_main_arg10 m c)
theorem args_W6 : argsAt (W6 m c) = argsAt (V0 m c) :=
  argsAt_congr _ _ (W6_main_arg0 m c) (W6_main_arg1 m c) (W6_main_arg2 m c) (W6_main_arg3 m c) (W6_main_arg4 m c)
    (W6_main_arg5 m c) (W6_main_arg6 m c) (W6_main_arg7 m c) (W6_main_arg8 m c) (W6_main_arg9 m c) (W6_main_arg10 m c)
theorem args_W8 : argsAt (W8 m c) = argsAt (V0 m c) :=
  argsAt_congr _ _ (W8_main_arg0 m c) (W8_main_arg1 m c) (W8_main_arg2 m c) (W8_main_arg3 m c) (W8_main_arg4 m c)
    (W8_main_arg5 m c) (W8_main_arg6 m c) (W8_main_arg7 m c) (W8_main_arg8 m c) (W8_main_arg9 m c) (W8_main_arg10 m c)

/-! ## The aggregates -/

/-- The aggregation kernel leaves the stacked aggregates of the argument arrays. -/
theorem agg_W2 (n : Fin 32768) (d : Fin 256) :
    (W2 m c main_v11 : S32768x256.Idx → EReal) (ix2 n d) = agg3 (argsAt (V0 m c)) n d :=
  (congrFun (W2_arr m c 3) (ix2 n d)).trans (agg_value (V0 m) c n d)

/-! ## Head 0 -/

/-- What head 0's kernel leaves: its output array, and the column minimum and maximum beside it. -/
def out1 (n : Fin 32768) (cc : Fin 128) : EReal := ((Reg1.dat (atRefs (W3 m)) c).arrAt 8 cfg1.N : S32768x128.Idx → EReal) (ix2 n cc)
def mn1 (cc : Fin 128) : EReal := ((Reg1.dat (atRefs (W3 m)) c).arrAt 9 cfg1.N : S1x128.Idx → EReal) (ix2 (0 : Fin 1) cc)
def mx1 (cc : Fin 128) : EReal := ((Reg1.dat (atRefs (W3 m)) c).arrAt 10 cfg1.N : S1x128.Idx → EReal) (ix2 (0 : Fin 1) cc)

/-- Head 0's output is `Spec.pre3` of head 0 on its input. -/
theorem head1_arr (n : Fin 32768) (cc : Fin 128) :
    out1 m c n cc = Cert.Spec.pre3 (A0 m c) 0 (x0 (A0 m c)) n cc := by
  have key := head1_pre (W2 m) c (x0 (A0 m c)) (out1 m c)
    (fun n k => congrFun (W3_main_arg0 m c) (ix2 n k))
    (fun n d => (congrFun (W3_main_v11 m c) (ix2 n d)).trans ((agg_W2 m c n d).trans (by rw [args_W2])))
    (fun n cc => Reg1.value_pre (atRefs (W3 m)) c n cc) n cc
  rwa [args_W2] at key

/-- The column minimum beside it. -/
theorem head1_mn (cc : Fin 128) : mn1 m c cc = Cert.Spec.colMin (Cert.Spec.pre3 (A0 m c) 0 (x0 (A0 m c))) cc :=
  colMin_of _ (out1 m c) (mn1 m c) (head1_arr m c) (fun cc => Reg1.value_mn (atRefs (W3 m)) c cc) cc

/-- The column maximum beside it. -/
theorem head1_mx (cc : Fin 128) : mx1 m c cc = Cert.Spec.colMax (Cert.Spec.pre3 (A0 m c) 0 (x0 (A0 m c))) cc :=
  colMax_of _ (out1 m c) (mx1 m c) (head1_arr m c) (fun cc => Reg1.value_mx (atRefs (W3 m)) c cc) cc

/-! ## Head 1 -/

/-- What head 1's kernel leaves: its output array, and the column minimum and maximum beside it. -/
def out2 (n : Fin 32768) (cc : Fin 128) : EReal := ((Reg2.dat (atRefs (W5 m)) c).arrAt 10 cfg2.N : S32768x128.Idx → EReal) (ix2 n cc)
def mn2 (cc : Fin 128) : EReal := ((Reg2.dat (atRefs (W5 m)) c).arrAt 11 cfg2.N : S1x128.Idx → EReal) (ix2 (0 : Fin 1) cc)
def mx2 (cc : Fin 128) : EReal := ((Reg2.dat (atRefs (W5 m)) c).arrAt 12 cfg2.N : S1x128.Idx → EReal) (ix2 (0 : Fin 1) cc)

/-- Head 1's output is `Spec.pre3` of head 1 on its input. -/
theorem head2_arr (n : Fin 32768) (cc : Fin 128) :
    out2 m c n cc = Cert.Spec.pre3 (A0 m c) 1 (x1 (A0 m c)) n cc := by
  have key := head2_pre (W4 m) c (x1 (A0 m c)) (out2 m c)
    (fun n k => by
      have e0 : (StableHlo.after hostOps2 (W4 m c) main_v28_0 : S32768x128.Idx → EReal) (ix2 n k) = out1 m c n k :=
        (congrFun (W5_main_v28_0 m c) (ix2 n k)).trans (congrFun (W4_arr m c 8) (ix2 n k))
      have e1 : (StableHlo.after hostOps2 (W4 m c) main_v28_1 : S1x128.Idx → EReal) (ix2 (0 : Fin 1) k) = mn1 m c k :=
        (congrFun (W5_main_v28_1 m c) (ix2 (0 : Fin 1) k)).trans (congrFun (W4_arr m c 9) (ix2 (0 : Fin 1) k))
      have e2 : (StableHlo.after hostOps2 (W4 m c) main_v28_2 : S1x128.Idx → EReal) (ix2 (0 : Fin 1) k) = mx1 m c k :=
        (congrFun (W5_main_v28_2 m c) (ix2 (0 : Fin 1) k)).trans (congrFun (W4_arr m c 10) (ix2 (0 : Fin 1) k))
      exact (congr (congr (congrArg Cert.Spec.norm e0) e1) e2).trans
        (normAll_of (Cert.Spec.pre3 (A0 m c) 0 (x0 (A0 m c))) (out1 m c) (mn1 m c) (mx1 m c)
          (head1_arr m c) (head1_mn m c) (head1_mx m c) n k))
    (fun n d => (congrFun (W5_main_v11 m c) (ix2 n d)).trans ((agg_W2 m c n d).trans (by rw [args_W4])))
    (fun n cc => Reg2.value_pre (atRefs (W5 m)) c n cc) n cc
  rwa [args_W4] at key

/-- The column minimum beside it. -/
theorem head2_mn (cc : Fin 128) : mn2 m c cc = Cert.Spec.colMin (Cert.Spec.pre3 (A0 m c) 1 (x1 (A0 m c))) cc :=
  colMin_of _ (out2 m c) (mn2 m c) (head2_arr m c) (fun cc => Reg2.value_mn (atRefs (W5 m)) c cc) cc

/-- The column maximum beside it. -/
theorem head2_mx (cc : Fin 128) : mx2 m c cc = Cert.Spec.colMax (Cert.Spec.pre3 (A0 m c) 1 (x1 (A0 m c))) cc :=
  colMax_of _ (out2 m c) (mx2 m c) (head2_arr m c) (fun cc => Reg2.value_mx (atRefs (W5 m)) c cc) cc

/-! ## Head 2 -/

/-- What head 2's kernel leaves: its output array, and the column minimum and maximum beside it. -/
def out3 (n : Fin 32768) (cc : Fin 128) : EReal := ((Reg3.dat (atRefs (W7 m)) c).arrAt 10 cfg3.N : S32768x128.Idx → EReal) (ix2 n cc)
def mn3 (cc : Fin 128) : EReal := ((Reg3.dat (atRefs (W7 m)) c).arrAt 11 cfg3.N : S1x128.Idx → EReal) (ix2 (0 : Fin 1) cc)
def mx3 (cc : Fin 128) : EReal := ((Reg3.dat (atRefs (W7 m)) c).arrAt 12 cfg3.N : S1x128.Idx → EReal) (ix2 (0 : Fin 1) cc)

/-- Head 2's output is `Spec.pre3` of head 2 on its input. -/
theorem head3_arr (n : Fin 32768) (cc : Fin 128) :
    out3 m c n cc = Cert.Spec.pre3 (A0 m c) 2 (x2 (A0 m c)) n cc := by
  have key := head3_pre (W6 m) c (x2 (A0 m c)) (out3 m c)
    (fun n k => by
      have e0 : (StableHlo.after hostOps3 (W6 m c) main_v45_0 : S32768x128.Idx → EReal) (ix2 n k) = out2 m c n k :=
        (congrFun (W7_main_v45_0 m c) (ix2 n k)).trans (congrFun (W6_arr m c 10) (ix2 n k))
      have e1 : (StableHlo.after hostOps3 (W6 m c) main_v45_1 : S1x128.Idx → EReal) (ix2 (0 : Fin 1) k) = mn2 m c k :=
        (congrFun (W7_main_v45_1 m c) (ix2 (0 : Fin 1) k)).trans (congrFun (W6_arr m c 11) (ix2 (0 : Fin 1) k))
      have e2 : (StableHlo.after hostOps3 (W6 m c) main_v45_2 : S1x128.Idx → EReal) (ix2 (0 : Fin 1) k) = mx2 m c k :=
        (congrFun (W7_main_v45_2 m c) (ix2 (0 : Fin 1) k)).trans (congrFun (W6_arr m c 12) (ix2 (0 : Fin 1) k))
      exact (congr (congr (congrArg Cert.Spec.norm e0) e1) e2).trans
        (normAll_of (Cert.Spec.pre3 (A0 m c) 1 (x1 (A0 m c))) (out2 m c) (mn2 m c) (mx2 m c)
          (head2_arr m c) (head2_mn m c) (head2_mx m c) n k))
    (fun n d => (congrFun (W7_main_v11 m c) (ix2 n d)).trans ((agg_W2 m c n d).trans (by rw [args_W6])))
    (fun n cc => Reg3.value_pre (atRefs (W7 m)) c n cc) n cc
  rwa [args_W6] at key

/-- The column minimum beside it. -/
theorem head3_mn (cc : Fin 128) : mn3 m c cc = Cert.Spec.colMin (Cert.Spec.pre3 (A0 m c) 2 (x2 (A0 m c))) cc :=
  colMin_of _ (out3 m c) (mn3 m c) (head3_arr m c) (fun cc => Reg3.value_mn (atRefs (W7 m)) c cc) cc

/-- The column maximum beside it. -/
theorem head3_mx (cc : Fin 128) : mx3 m c cc = Cert.Spec.colMax (Cert.Spec.pre3 (A0 m c) 2 (x2 (A0 m c))) cc :=
  colMax_of _ (out3 m c) (mx3 m c) (head3_arr m c) (fun cc => Reg3.value_mx (atRefs (W7 m)) c cc) cc

/-! ## Head 3 -/

/-- What head 3's kernel leaves: its output array, and the column minimum and maximum beside it. -/
def out4 (n : Fin 32768) (cc : Fin 128) : EReal := ((Reg4.dat (atRefs (W9 m)) c).arrAt 10 cfg4.N : S32768x128.Idx → EReal) (ix2 n cc)
def mn4 (cc : Fin 128) : EReal := ((Reg4.dat (atRefs (W9 m)) c).arrAt 11 cfg4.N : S1x128.Idx → EReal) (ix2 (0 : Fin 1) cc)
def mx4 (cc : Fin 128) : EReal := ((Reg4.dat (atRefs (W9 m)) c).arrAt 12 cfg4.N : S1x128.Idx → EReal) (ix2 (0 : Fin 1) cc)

/-- Head 3's output is `Spec.pre3` of head 3 on its input. -/
theorem head4_arr (n : Fin 32768) (cc : Fin 128) :
    out4 m c n cc = Cert.Spec.pre3 (A0 m c) 3 (x3 (A0 m c)) n cc := by
  have key := head4_pre (W8 m) c (x3 (A0 m c)) (out4 m c)
    (fun n k => by
      have e0 : (StableHlo.after hostOps4 (W8 m c) main_v62_0 : S32768x128.Idx → EReal) (ix2 n k) = out3 m c n k :=
        (congrFun (W9_main_v62_0 m c) (ix2 n k)).trans (congrFun (W8_arr m c 10) (ix2 n k))
      have e1 : (StableHlo.after hostOps4 (W8 m c) main_v62_1 : S1x128.Idx → EReal) (ix2 (0 : Fin 1) k) = mn3 m c k :=
        (congrFun (W9_main_v62_1 m c) (ix2 (0 : Fin 1) k)).trans (congrFun (W8_arr m c 11) (ix2 (0 : Fin 1) k))
      have e2 : (StableHlo.after hostOps4 (W8 m c) main_v62_2 : S1x128.Idx → EReal) (ix2 (0 : Fin 1) k) = mx3 m c k :=
        (congrFun (W9_main_v62_2 m c) (ix2 (0 : Fin 1) k)).trans (congrFun (W8_arr m c 12) (ix2 (0 : Fin 1) k))
      exact (congr (congr (congrArg Cert.Spec.norm e0) e1) e2).trans
        (normAll_of (Cert.Spec.pre3 (A0 m c) 2 (x2 (A0 m c))) (out3 m c) (mn3 m c) (mx3 m c)
          (head3_arr m c) (head3_mn m c) (head3_mx m c) n k))
    (fun n d => (congrFun (W9_main_v11 m c) (ix2 n d)).trans ((agg_W2 m c n d).trans (by rw [args_W8])))
    (fun n cc => Reg4.value_pre (atRefs (W9 m)) c n cc) n cc
  rwa [args_W8] at key

/-- The column minimum beside it. -/
theorem head4_mn (cc : Fin 128) : mn4 m c cc = Cert.Spec.colMin (Cert.Spec.pre3 (A0 m c) 3 (x3 (A0 m c))) cc :=
  colMin_of _ (out4 m c) (mn4 m c) (head4_arr m c) (fun cc => Reg4.value_mn (atRefs (W9 m)) c cc) cc

/-- The column maximum beside it. -/
theorem head4_mx (cc : Fin 128) : mx4 m c cc = Cert.Spec.colMax (Cert.Spec.pre3 (A0 m c) 3 (x3 (A0 m c))) cc :=
  colMax_of _ (out4 m c) (mx4 m c) (head4_arr m c) (fun cc => Reg4.value_mx (atRefs (W9 m)) c cc) cc

/-! ## The result -/

/-- The kernel program's result is the three-pass specification of the argument arrays at launch. -/
theorem result (n : Fin 32768) (cc : Fin 128) :
    (W12 m c main_v87 : (⟨2, ![32768, 128]⟩ : Shape).Idx → EReal) (ix2 n cc) = Cert.Spec.result3 (argsAt (V0 m c)) n cc := by
  have e0 : (W10 m c main_v79_0 : S32768x128.Idx → EReal) (ix2 n cc) = out4 m c n cc := congrFun (W10_arr m c 10) (ix2 n cc)
  have e1 : (W10 m c main_v79_1 : S1x128.Idx → EReal) (ix2 (0 : Fin 1) cc) = mn4 m c cc := congrFun (W10_arr m c 11) (ix2 (0 : Fin 1) cc)
  have e2 : (W10 m c main_v79_2 : S1x128.Idx → EReal) (ix2 (0 : Fin 1) cc) = mx4 m c cc := congrFun (W10_arr m c 12) (ix2 (0 : Fin 1) cc)
  exact (hostOps5_norm (W10 m c) n cc).trans <| (congr (congr (congrArg Cert.Spec.norm e0) e1) e2).trans
    (normAll_of (Cert.Spec.pre3 (A0 m c) 3 (x3 (A0 m c))) (out4 m c) (mn4 m c) (mx4 m c)
      (head4_arr m c) (head4_mn m c) (head4_mx m c) n cc)

end Cert.KernelIdeal.Ker

end
-- ==== Proof.KerRun.lean ====
/-
  The idealised kernel program's run with its result: every weakly fair execution ends with the result array at the
  three-pass function of the argument arrays, and the arguments as launched.
-/
import proofs.«100906_j73718818669321_2_alg».proof.Proof.AsmChain
import proofs.«100906_j73718818669321_2_alg».proof.Proof.KerValue

noncomputable section

namespace Cert.KernelIdeal.Ker

open Cert.KernelIdeal Cert.KernelIdeal.Gen
open Idealize.ShloMosaic Idealize.ShloMosaic.TcCoe Idealize.SL.Sem

theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v87)
        = ((fun i => Cert.Spec.result3 (Cert.Spec.argsOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) (i 0) (i 1)) : (⟨2, ![32768, 128]⟩ : Shape).Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (Asm.mem_uc main_v87 (by decide))).trans
      (funext fun i => (congrArg _ (ValueIdx.eq_ix2 i)).trans (result m c (i 0) (i 1))),
    (h c _ (Asm.mem_uc main_arg0 (by decide))).trans (Asm.W12_main_arg0 m c),
    (h c _ (Asm.mem_uc main_arg1 (by decide))).trans (Asm.W12_main_arg1 m c),
    (h c _ (Asm.mem_uc main_arg2 (by decide))).trans (Asm.W12_main_arg2 m c),
    (h c _ (Asm.mem_uc main_arg3 (by decide))).trans (Asm.W12_main_arg3 m c),
    (h c _ (Asm.mem_uc main_arg4 (by decide))).trans (Asm.W12_main_arg4 m c),
    (h c _ (Asm.mem_uc main_arg5 (by decide))).trans (Asm.W12_main_arg5 m c),
    (h c _ (Asm.mem_uc main_arg6 (by decide))).trans (Asm.W12_main_arg6 m c),
    (h c _ (Asm.mem_uc main_arg7 (by decide))).trans (Asm.W12_main_arg7 m c),
    (h c _ (Asm.mem_uc main_arg8 (by decide))).trans (Asm.W12_main_arg8 m c),
    (h c _ (Asm.mem_uc main_arg9 (by decide))).trans (Asm.W12_main_arg9 m c),
    (h c _ (Asm.mem_uc main_arg10 (by decide))).trans (Asm.W12_main_arg10 m c)⟩) (Asm.run m ρ)

end Cert.KernelIdeal.Ker

end
-- ==== Proof.RefOps.lean ====
/-
  The one-pass program as lists of host operations: sixteen consecutive pieces, cut where a head begins (the degree
  prefix, then four heads of seventy-one operations each), inside a head after its output product and before its final
  clip at zero, and where a printed window of the program text ends. A head reads only the argument arrays, the
  degree column and the previous head's last array.
-/
import proofs.«100906_j73718818669321_2_alg».proof.Proof.Gen.ReferenceIdeal
import Idealize.ShloMosaic.Lib.StableHlo.Run

set_option Elab.async false

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- Operations 0 … 5. -/
abbrev opsC0 : List (HloOp τ sig (Elt F)) :=
  [ nullary main_cst (constant S_ .f32 0x00000000#32),
    binary main_arg1 main_cst main_v0 ((fun x v => Host.reduceAdd x v reducesTo_S32768x8192_S32768_d1 h_S_) : (⟨S32768x8192, .f32⟩ : BufTy).Contents (Elt F) → (⟨S_, .f32⟩ : BufTy).Contents (Elt F) → (⟨S32768, .f32⟩ : BufTy).Contents (Elt F)),
    unary main_v0 main_v1 (broadcastInDim S32768x1 ![0] bcast_S32768_S32768x1_0 : (⟨S32768, .f32⟩ : BufTy).Contents (Elt F) → (⟨S32768x1, .f32⟩ : BufTy).Contents (Elt F)),
    nullary main_cst_0 (constant S_ .f32 0x322BCC77#32),
    unary main_cst_0 main_v2 (broadcastInDim S32768x1 ![] bcast_S_S32768x1 : (⟨S_, .f32⟩ : BufTy).Contents (Elt F) → (⟨S32768x1, .f32⟩ : BufTy).Contents (Elt F)),
    binary main_v1 main_v2 main_v3 (addf : (⟨S32768x1, .f32⟩ : BufTy).Contents (Elt F) → (⟨S32768x1, .f32⟩ : BufTy).Contents (Elt F) → (⟨S32768x1, .f32⟩ : BufTy).Contents (Elt F)) ]

/-- Operations 6 … 59. -/
abbrev opsC1 : List (HloOp τ sig (Elt F)) :=
  [ unary main_arg3 main_v4 ((extractStridedSlice S1x128x64 ![0, 0, 0] · slices_S4x128x64_S1x128x64_0_0_0) : (⟨S4x128x64, .f32⟩ : BufTy).Contents (Elt F) → (⟨S1x128x64, .f32⟩ : BufTy).Contents (Elt F)),
    reshape main_v4 main_v5 rfl shapeCasts_S1x128x64_S128x64,
    binary main_arg0 main_v5 main_v6 ((fun l r => Host.dotGeneral dot_S32768x128_S128x64_S32768x64_1_0_0_1_n_n none l r) : (⟨S32768x128, .f32⟩ : BufTy).Contents (Elt F) → (⟨S128x64, .f32⟩ : BufTy).Contents (Elt F) → (⟨S32768x64, .f32⟩ : BufTy).Contents (Elt F)),
    unary main_arg4 main_v7 ((extractStridedSlice S1x64 ![0, 0] · slices_S4x64_S1x64_0_0) : (⟨S4x64, .f32⟩ : BufTy).Contents (Elt F) → (⟨S1x64, .f32⟩ : BufTy).Contents (Elt F)),
    reshape main_v7 main_v8 rfl shapeCasts_S1x64_S64,
    unary main_v8 main_v9 (broadcastInDim S1x64 ![1] bcast_S64_S1x64_1 : (⟨S64, .f32⟩ : BufTy).Contents (Elt F) → (⟨S1x64, .f32⟩ : BufTy).Contents (Elt F)),
    unary main_v9 main_v10 (broadcastInDim S32768x64 ![0, 1] bcast_S1x64_S32768x64_0_1 : (⟨S1x64, .f32⟩ : BufTy).Contents (Elt F) → (⟨S32768x64, .f32⟩ : BufTy).Contents (Elt F)),
    binary main_v6 main_v10 main_v11 (addf : (⟨S32768x64, .f32⟩ : BufTy).Contents (Elt F) → (⟨S32768x64, .f32⟩ : BufTy).Contents (Elt F) → (⟨S32768x64, .f32⟩ : BufTy).Contents (Elt F)),
    unary main_arg5 main_v12 ((extractStridedSlice S1x128x64 ![0, 0, 0] · slices_S4x128x64_S1x128x64_0_0_0) : (⟨S4x128x64, .f32⟩ : BufTy).Contents (Elt F) → (⟨S1x128x64, .f32⟩ : BufTy).Contents (Elt F)),
    reshape main_v12 main_v13 rfl shapeCasts_S1x128x64_S128x64,
    binary main_arg2 main_v13 main_v14 ((fun l r => Host.dotGeneral dot_S8192x128_S128x64_S8192x64_1_0_0_1_n_n none l r) : (⟨S8192x128, .f32⟩ : BufTy).Contents (Elt F) → (⟨S128x64, .f32⟩ : BufTy).Contents (Elt F) → (⟨S8192x64, .f32⟩ : BufTy).Contents (Elt F)),
    unary main_arg6 main_v15 ((extractStridedSlice S1x64 ![0, 0] · slices_S4x64_S1x64_0_0) : (⟨S4x64, .f32⟩ : BufTy).Contents (Elt F) → (⟨S1x64, .f32⟩ : BufTy).Contents (Elt F)),
    reshape main_v15 main_v16 rfl shapeCasts_S1x64_S64,
    unary main_v16 main_v17 (broadcastInDim S1x64 ![1] bcast_S64_S1x64_1 : (⟨S64, .f32⟩ : BufTy).Contents (Elt F) → (⟨S1x64, .f32⟩ : BufTy).Contents (Elt F)),
    unary main_v17 main_v18 (broadcastInDim S8192x64 ![0, 1] bcast_S1x64_S8192x64_0_1 : (⟨S1x64, .f32⟩ : BufTy).Contents (Elt F) → (⟨S8192x64, .f32⟩ : BufTy).Contents (Elt F)),
    binary main_v14 main_v18 main_v19 (addf : (⟨S8192x64, .f32⟩ : BufTy).Contents (Elt F) → (⟨S8192x64, .f32⟩ : BufTy).Contents (Elt F) → (⟨S8192x64, .f32⟩ : BufTy).Contents (Elt F)),
    binary main_arg1 main_v19 main_v20 ((fun l r => Host.dotGeneral dot_S32768x8192_S8192x64_S32768x64_1_0_0_1_n_n none l r) : (⟨S32768x8192, .f32⟩ : BufTy).Contents (Elt F) → (⟨S8192x64, .f32⟩ : BufTy).Contents (Elt F) → (⟨S32768x64, .f32⟩ : BufTy).Contents (Elt F)),
    unary main_v3 main_v21 (broadcastInDim S32768x64 ![0, 1] bcast_S32768x1_S32768x64_0_1 : (⟨S32768x1, .f32⟩ : BufTy).Contents (Elt F) → (⟨S32768x64, .f32⟩ : BufTy).Contents (Elt F)),
    binary main_v20 main_v21 main_v22 (Host.divf : (⟨S32768x64, .f32⟩ : BufTy).Contents (Elt F) → (⟨S32768x64, .f32⟩ : BufTy).Contents (Elt F) → (⟨S32768x64, .f32⟩ : BufTy).Contents (Elt F)),
    binary main_v11 main_v22 main_v23 (addf : (⟨S32768x64, .f32⟩ : BufTy).Contents (Elt F) → (⟨S32768x64, .f32⟩ : BufTy).Contents (Elt F) → (⟨S32768x64, .f32⟩ : BufTy).Contents (Elt F)),
    unary main_arg7 main_v24 ((extractStridedSlice S1x64x1 ![0, 0, 0] · slices_S4x64x1_S1x64x1_0_0_0) : (⟨S4x64x1, .f32⟩ : BufTy).Contents (Elt F) → (⟨S1x64x1, .f32⟩ : BufTy).Contents (Elt F)),
    reshape main_v24 main_v25 rfl shapeCasts_S1x64x1_S64x1,
    binary main_v23 main_v25 main_v26 ((fun l r => Host.dotGeneral dot_S32768x64_S64x1_S32768x1_1_0_0_1_n_n none l r) : (⟨S32768x64, .f32⟩ : BufTy).Contents (Elt F) → (⟨S64x1, .f32⟩ : BufTy).Contents (Elt F) → (⟨S32768x1, .f32⟩ : BufTy).Contents (Elt F)),
    unary main_arg8 main_v27 ((extractStridedSlice S1x1 ![0, 0] · slices_S4x1_S1x1_0_0) : (⟨S4x1, .f32⟩ : BufTy).Contents (Elt F) → (⟨S1x1, .f32⟩ : BufTy).Contents (Elt F)),
    reshape main_v27 main_v28 rfl shapeCasts_S1x1_S1,
    unary main_v28 main_v29 (broadcastInDim S1x1 ![1] bcast_S1_S1x1_1 : (⟨S1, .f32⟩ : BufTy).Contents (Elt F) → (⟨S1x1, .f32⟩ : BufTy).Contents (Elt F)),
    unary main_v29 main_v30 (broadcastInDim S32768x1 ![0, 1] bcast_S1x1_S32768x1_0_1 : (⟨S1x1, .f32⟩ : BufTy).Contents (Elt F) → (⟨S32768x1, .f32⟩ : BufTy).Contents (Elt F)),
    binary main_v26 main_v30 main_v31 (addf : (⟨S32768x1, .f32⟩ : BufTy).Contents (Elt F) → (⟨S32768x1, .f32⟩ : BufTy).Contents (Elt F) → (⟨S32768x1, .f32⟩ : BufTy).Contents (Elt F)),
    nullary main_cst_1 (constant S_ .f32 0x00000000#32),
    unary main_cst_1 main_v32 (broadcastInDim S32768x1 ![] bcast_S_S32768x1 : (⟨S_, .f32⟩ : BufTy).Contents (Elt F) → (⟨S32768x1, .f32⟩ : BufTy).Contents (Elt F)),
    binary main_v31 main_v32 main_v33 (cmpf .oge : (⟨S32768x1, .f32⟩ : BufTy).Contents (Elt F) → (⟨S32768x1, .f32⟩ : BufTy).Contents (Elt F) → (⟨S32768x1, .i1⟩ : BufTy).Contents (Elt F)),
    nullary main_cst_2 (constant S_ .f32 0x3E4CCCCD#32),
    unary main_cst_2 main_v34 (broadcastInDim S32768x1 ![] bcast_S_S32768x1 : (⟨S_, .f32⟩ : BufTy).Contents (Elt F) → (⟨S32768x1, .f32⟩ : BufTy).Contents (Elt F)),
    binary main_v34 main_v31 main_v35 (mulf : (⟨S32768x1, .f32⟩ : BufTy).Contents (Elt F) → (⟨S32768x1, .f32⟩ : BufTy).Contents (Elt F) → (⟨S32768x1, .f32⟩ : BufTy).Contents (Elt F)),
    TRef.ternary (TRef.of (T := ⟨S32768x1, .i1⟩) main_v33) (TRef.of (T := ⟨S32768x1, .f32⟩) main_v31) (TRef.of (T := ⟨S32768x1, .f32⟩) main_v35) (TRef.of (T := ⟨S32768x1, .f32⟩) main_v36) select,
    unary main_v36 main_v37 (Host.negf : (⟨S32768x1, .f32⟩ : BufTy).Contents (Elt F) → (⟨S32768x1, .f32⟩ : BufTy).Contents (Elt F)),
    unary main_v37 main_v38 (Host.exp : (⟨S32768x1, .f32⟩ : BufTy).Contents (Elt F) → (⟨S32768x1, .f32⟩ : BufTy).Contents (Elt F)),
    nullary main_cst_3 (constant S_ .f32 0x3F800000#32),
    unary main_cst_3 main_v39 (broadcastInDim S32768x1 ![] bcast_S_S32768x1 : (⟨S_, .f32⟩ : BufTy).Contents (Elt F) → (⟨S32768x1, .f32⟩ : BufTy).Contents (Elt F)),
    binary main_v39 main_v38 main_v40 (addf : (⟨S32768x1, .f32⟩ : BufTy).Contents (Elt F) → (⟨S32768x1, .f32⟩ : BufTy).Contents (Elt F) → (⟨S32768x1, .f32⟩ : BufTy).Contents (Elt F)),
    nullary main_cst_4 (constant S_ .f32 0x3F800000#32),
    unary main_cst_4 main_v41 (broadcastInDim S32768x1 ![] bcast_S_S32768x1 : (⟨S_, .f32⟩ : BufTy).Contents (Elt F) → (⟨S32768x1, .f32⟩ : BufTy).Contents (Elt F)),
    binary main_v41 main_v40 main_v42 (Host.divf : (⟨S32768x1, .f32⟩ : BufTy).Contents (Elt F) → (⟨S32768x1, .f32⟩ : BufTy).Contents (Elt F) → (⟨S32768x1, .f32⟩ : BufTy).Contents (Elt F)),
    unary main_v42 main_v43 (broadcastInDim S32768x64 ![0, 1] bcast_S32768x1_S32768x64_0_1 : (⟨S32768x1, .f32⟩ : BufTy).Contents (Elt F) → (⟨S32768x64, .f32⟩ : BufTy).Contents (Elt F)),
    binary main_v43 main_v22 main_v44 (mulf : (⟨S32768x64, .f32⟩ : BufTy).Contents (Elt F) → (⟨S32768x64, .f32⟩ : BufTy).Contents (Elt F) → (⟨S32768x64, .f32⟩ : BufTy).Contents (Elt F)),
    binary main_v44 main_v11 main_v45 (addf : (⟨S32768x64, .f32⟩ : BufTy).Contents (Elt F) → (⟨S32768x64, .f32⟩ : BufTy).Contents (Elt F) → (⟨S32768x64, .f32⟩ : BufTy).Contents (Elt F)),
    unary main_arg9 main_v46 ((extractStridedSlice S1x64x128 ![0, 0, 0] · slices_S4x64x128_S1x64x128_0_0_0) : (⟨S4x64x128, .f32⟩ : BufTy).Contents (Elt F) → (⟨S1x64x128, .f32⟩ : BufTy).Contents (Elt F)),
    reshape main_v46 main_v47 rfl shapeCasts_S1x64x128_S64x128,
    binary main_v45 main_v47 main_v48 ((fun l r => Host.dotGeneral dot_S32768x64_S64x128_S32768x128_1_0_0_1_n_n none l r) : (⟨S32768x64, .f32⟩ : BufTy).Contents (Elt F) → (⟨S64x128, .f32⟩ : BufTy).Contents (Elt F) → (⟨S32768x128, .f32⟩ : BufTy).Contents (Elt F)),
    unary main_arg10 main_v49 ((extractStridedSlice S1x128 ![0, 0] · slices_S4x128_S1x128_0_0) : (⟨S4x128, .f32⟩ : BufTy).Contents (Elt F) → (⟨S1x128, .f32⟩ : BufTy).Contents (Elt F)),
    reshape main_v49 main_v50 rfl shapeCasts_S1x128_S128,
    unary main_v50 main_v51 (broadcastInDim S1x128 ![1] bcast_S128_S1x128_1 : (⟨S128, .f32⟩ : BufTy).Contents (Elt F) → (⟨S1x128, .f32⟩ : BufTy).Contents (Elt F)),
    unary main_v51 main_v52 (broadcastInDim S32768x128 ![0, 1] bcast_S1x128_S32768x128_0_1 : (⟨S1x128, .f32⟩ : BufTy).Contents (Elt F) → (⟨S32768x128, .f32⟩ : BufTy).Contents (Elt F)),
    binary main_v48 main_v52 main_v53 (addf : (⟨S32768x128, .f32⟩ : BufTy).Contents (Elt F) → (⟨S32768x128, .f32⟩ : BufTy).Contents (Elt F) → (⟨S32768x128, .f32⟩ : BufTy).Contents (Elt F)) ]

/-- Operations 60 … 73. -/
abbrev opsC2 : List (HloOp τ sig (Elt F)) :=
  [ nullary main_cst_5 (constant S_ .f32 0x7F800000#32),
    binary main_v53 main_cst_5 main_v54 ((fun x v => Host.reduce FloatOps.minimumf x v reducesTo_S32768x128_S128_d0 h_S_) : (⟨S32768x128, .f32⟩ : BufTy).Contents (Elt F) → (⟨S_, .f32⟩ : BufTy).Contents (Elt F) → (⟨S128, .f32⟩ : BufTy).Contents (Elt F)),
    nullary main_cst_6 (constant S_ .f32 0xFF800000#32),
    binary main_v53 main_cst_6 main_v55 ((fun x v => Host.reduce FloatOps.maximumf x v reducesTo_S32768x128_S128_d0 h_S_) : (⟨S32768x128, .f32⟩ : BufTy).Contents (Elt F) → (⟨S_, .f32⟩ : BufTy).Contents (Elt F) → (⟨S128, .f32⟩ : BufTy).Contents (Elt F)),
    unary main_v54 main_v56 (broadcastInDim S1x128 ![1] bcast_S128_S1x128_1 : (⟨S128, .f32⟩ : BufTy).Contents (Elt F) → (⟨S1x128, .f32⟩ : BufTy).Contents (Elt F)),
    unary main_v56 main_v57 (broadcastInDim S32768x128 ![0, 1] bcast_S1x128_S32768x128_0_1 : (⟨S1x128, .f32⟩ : BufTy).Contents (Elt F) → (⟨S32768x128, .f32⟩ : BufTy).Contents (Elt F)),
    binary main_v53 main_v57 main_v58 (subf : (⟨S32768x128, .f32⟩ : BufTy).Contents (Elt F) → (⟨S32768x128, .f32⟩ : BufTy).Contents (Elt F) → (⟨S32768x128, .f32⟩ : BufTy).Contents (Elt F)),
    binary main_v55 main_v54 main_v59 (subf : (⟨S128, .f32⟩ : BufTy).Contents (Elt F) → (⟨S128, .f32⟩ : BufTy).Contents (Elt F) → (⟨S128, .f32⟩ : BufTy).Contents (Elt F)),
    nullary main_cst_7 (constant S_ .f32 0x322BCC77#32),
    unary main_cst_7 main_v60 (broadcastInDim S128 ![] bcast_S_S128 : (⟨S_, .f32⟩ : BufTy).Contents (Elt F) → (⟨S128, .f32⟩ : BufTy).Contents (Elt F)),
    binary main_v59 main_v60 main_v61 (addf : (⟨S128, .f32⟩ : BufTy).Contents (Elt F) → (⟨S128, .f32⟩ : BufTy).Contents (Elt F) → (⟨S128, .f32⟩ : BufTy).Contents (Elt F)),
    unary main_v61 main_v62 (broadcastInDim S1x128 ![1] bcast_S128_S1x128_1 : (⟨S128, .f32⟩ : BufTy).Contents (Elt F) → (⟨S1x128, .f32⟩ : BufTy).Contents (Elt F)),
    unary main_v62 main_v63 (broadcastInDim S32768x128 ![0, 1] bcast_S1x128_S32768x128_0_1 : (⟨S1x128, .f32⟩ : BufTy).Contents (Elt F) → (⟨S32768x128, .f32⟩ : BufTy).Contents (Elt F)),
    binary main_v58 main_v63 main_v64 (Host.divf : (⟨S32768x128, .f32⟩ : BufTy).Contents (Elt F) → (⟨S32768x128, .f32⟩ : BufTy).Contents (Elt F) → (⟨S32768x128, .f32⟩ : BufTy).Contents (Elt F)) ]

/-- Operations 74 … 76. -/
abbrev opsC3 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S32768x128, .f32⟩) main_call1_v0) (broadcastInDim S32768x128 ![] bcast_S_S32768x128),
    TRef.binary (TRef.of (T := ⟨S32768x128, .f32⟩) main_v64) (TRef.of (T := ⟨S32768x128, .f32⟩) main_call1_v0) (TRef.of (T := ⟨S32768x128, .f32⟩) main_v65) maximumf ]

/-- Operations 77 … 121. -/
abbrev opsC4 : List (HloOp τ sig (Elt F)) :=
  [ unary main_arg3 main_v66 ((extractStridedSlice S1x128x64 ![1, 0, 0] · slices_S4x128x64_S1x128x64_1_0_0) : (⟨S4x128x64, .f32⟩ : BufTy).Contents (Elt F) → (⟨S1x128x64, .f32⟩ : BufTy).Contents (Elt F)),
    reshape main_v66 main_v67 rfl shapeCasts_S1x128x64_S128x64,
    binary main_v65 main_v67 main_v68 ((fun l r => Host.dotGeneral dot_S32768x128_S128x64_S32768x64_1_0_0_1_n_n none l r) : (⟨S32768x128, .f32⟩ : BufTy).Contents (Elt F) → (⟨S128x64, .f32⟩ : BufTy).Contents (Elt F) → (⟨S32768x64, .f32⟩ : BufTy).Contents (Elt F)),
    unary main_arg4 main_v69 ((extractStridedSlice S1x64 ![1, 0] · slices_S4x64_S1x64_1_0) : (⟨S4x64, .f32⟩ : BufTy).Contents (Elt F) → (⟨S1x64, .f32⟩ : BufTy).Contents (Elt F)),
    reshape main_v69 main_v70 rfl shapeCasts_S1x64_S64,
    unary main_v70 main_v71 (broadcastInDim S1x64 ![1] bcast_S64_S1x64_1 : (⟨S64, .f32⟩ : BufTy).Contents (Elt F) → (⟨S1x64, .f32⟩ : BufTy).Contents (Elt F)),
    unary main_v71 main_v72 (broadcastInDim S32768x64 ![0, 1] bcast_S1x64_S32768x64_0_1 : (⟨S1x64, .f32⟩ : BufTy).Contents (Elt F) → (⟨S32768x64, .f32⟩ : BufTy).Contents (Elt F)),
    binary main_v68 main_v72 main_v73 (addf : (⟨S32768x64, .f32⟩ : BufTy).Contents (Elt F) → (⟨S32768x64, .f32⟩ : BufTy).Contents (Elt F) → (⟨S32768x64, .f32⟩ : BufTy).Contents (Elt F)),
    unary main_arg5 main_v74 ((extractStridedSlice S1x128x64 ![1, 0, 0] · slices_S4x128x64_S1x128x64_1_0_0) : (⟨S4x128x64, .f32⟩ : BufTy).Contents (Elt F) → (⟨S1x128x64, .f32⟩ : BufTy).Contents (Elt F)),
    reshape main_v74 main_v75 rfl shapeCasts_S1x128x64_S128x64,
    binary main_arg2 main_v75 main_v76 ((fun l r => Host.dotGeneral dot_S8192x128_S128x64_S8192x64_1_0_0_1_n_n none l r) : (⟨S8192x128, .f32⟩ : BufTy).Contents (Elt F) → (⟨S128x64, .f32⟩ : BufTy).Contents (Elt F) → (⟨S8192x64, .f32⟩ : BufTy).Contents (Elt F)),
    unary main_arg6 main_v77 ((extractStridedSlice S1x64 ![1, 0] · slices_S4x64_S1x64_1_0) : (⟨S4x64, .f32⟩ : BufTy).Contents (Elt F) → (⟨S1x64, .f32⟩ : BufTy).Contents (Elt F)),
    reshape main_v77 main_v78 rfl shapeCasts_S1x64_S64,
    unary main_v78 main_v79 (broadcastInDim S1x64 ![1] bcast_S64_S1x64_1 : (⟨S64, .f32⟩ : BufTy).Contents (Elt F) → (⟨S1x64, .f32⟩ : BufTy).Contents (Elt F)),
    unary main_v79 main_v80 (broadcastInDim S8192x64 ![0, 1] bcast_S1x64_S8192x64_0_1 : (⟨S1x64, .f32⟩ : BufTy).Contents (Elt F) → (⟨S8192x64, .f32⟩ : BufTy).Contents (Elt F)),
    binary main_v76 main_v80 main_v81 (addf : (⟨S8192x64, .f32⟩ : BufTy).Contents (Elt F) → (⟨S8192x64, .f32⟩ : BufTy).Contents (Elt F) → (⟨S8192x64, .f32⟩ : BufTy).Contents (Elt F)),
    binary main_arg1 main_v81 main_v82 ((fun l r => Host.dotGeneral dot_S32768x8192_S8192x64_S32768x64_1_0_0_1_n_n none l r) : (⟨S32768x8192, .f32⟩ : BufTy).Contents (Elt F) → (⟨S8192x64, .f32⟩ : BufTy).Contents (Elt F) → (⟨S32768x64, .f32⟩ : BufTy).Contents (Elt F)),
    unary main_v3 main_v83 (broadcastInDim S32768x64 ![0, 1] bcast_S32768x1_S32768x64_0_1 : (⟨S32768x1, .f32⟩ : BufTy).Contents (Elt F) → (⟨S32768x64, .f32⟩ : BufTy).Contents (Elt F)),
    binary main_v82 main_v83 main_v84 (Host.divf : (⟨S32768x64, .f32⟩ : BufTy).Contents (Elt F) → (⟨S32768x64, .f32⟩ : BufTy).Contents (Elt F) → (⟨S32768x64, .f32⟩ : BufTy).Contents (Elt F)),
    binary main_v73 main_v84 main_v85 (addf : (⟨S32768x64, .f32⟩ : BufTy).Contents (Elt F) → (⟨S32768x64, .f32⟩ : BufTy).Contents (Elt F) → (⟨S32768x64, .f32⟩ : BufTy).Contents (Elt F)),
    unary main_arg7 main_v86 ((extractStridedSlice S1x64x1 ![1, 0, 0] · slices_S4x64x1_S1x64x1_1_0_0) : (⟨S4x64x1, .f32⟩ : BufTy).Contents (Elt F) → (⟨S1x64x1, .f32⟩ : BufTy).Contents (Elt F)),
    reshape main_v86 main_v87 rfl shapeCasts_S1x64x1_S64x1,
    binary main_v85 main_v87 main_v88 ((fun l r => Host.dotGeneral dot_S32768x64_S64x1_S32768x1_1_0_0_1_n_n none l r) : (⟨S32768x64, .f32⟩ : BufTy).Contents (Elt F) → (⟨S64x1, .f32⟩ : BufTy).Contents (Elt F) → (⟨S32768x1, .f32⟩ : BufTy).Contents (Elt F)),
    unary main_arg8 main_v89 ((extractStridedSlice S1x1 ![1, 0] · slices_S4x1_S1x1_1_0) : (⟨S4x1, .f32⟩ : BufTy).Contents (Elt F) → (⟨S1x1, .f32⟩ : BufTy).Contents (Elt F)),
    reshape main_v89 main_v90 rfl shapeCasts_S1x1_S1,
    unary main_v90 main_v91 (broadcastInDim S1x1 ![1] bcast_S1_S1x1_1 : (⟨S1, .f32⟩ : BufTy).Contents (Elt F) → (⟨S1x1, .f32⟩ : BufTy).Contents (Elt F)),
    unary main_v91 main_v92 (broadcastInDim S32768x1 ![0, 1] bcast_S1x1_S32768x1_0_1 : (⟨S1x1, .f32⟩ : BufTy).Contents (Elt F) → (⟨S32768x1, .f32⟩ : BufTy).Contents (Elt F)),
    binary main_v88 main_v92 main_v93 (addf : (⟨S32768x1, .f32⟩ : BufTy).Contents (Elt F) → (⟨S32768x1, .f32⟩ : BufTy).Contents (Elt F) → (⟨S32768x1, .f32⟩ : BufTy).Contents (Elt F)),
    nullary main_cst_8 (constant S_ .f32 0x00000000#32),
    unary main_cst_8 main_v94 (broadcastInDim S32768x1 ![] bcast_S_S32768x1 : (⟨S_, .f32⟩ : BufTy).Contents (Elt F) → (⟨S32768x1, .f32⟩ : BufTy).Contents (Elt F)),
    binary main_v93 main_v94 main_v95 (cmpf .oge : (⟨S32768x1, .f32⟩ : BufTy).Contents (Elt F) → (⟨S32768x1, .f32⟩ : BufTy).Contents (Elt F) → (⟨S32768x1, .i1⟩ : BufTy).Contents (Elt F)),
    nullary main_cst_9 (constant S_ .f32 0x3E4CCCCD#32),
    unary main_cst_9 main_v96 (broadcastInDim S32768x1 ![] bcast_S_S32768x1 : (⟨S_, .f32⟩ : BufTy).Contents (Elt F) → (⟨S32768x1, .f32⟩ : BufTy).Contents (Elt F)),
    binary main_v96 main_v93 main_v97 (mulf : (⟨S32768x1, .f32⟩ : BufTy).Contents (Elt F) → (⟨S32768x1, .f32⟩ : BufTy).Contents (Elt F) → (⟨S32768x1, .f32⟩ : BufTy).Contents (Elt F)),
    TRef.ternary (TRef.of (T := ⟨S32768x1, .i1⟩) main_v95) (TRef.of (T := ⟨S32768x1, .f32⟩) main_v93) (TRef.of (T := ⟨S32768x1, .f32⟩) main_v97) (TRef.of (T := ⟨S32768x1, .f32⟩) main_v98) select,
    unary main_v98 main_v99 (Host.negf : (⟨S32768x1, .f32⟩ : BufTy).Contents (Elt F) → (⟨S32768x1, .f32⟩ : BufTy).Contents (Elt F)),
    unary main_v99 main_v100 (Host.exp : (⟨S32768x1, .f32⟩ : BufTy).Contents (Elt F) → (⟨S32768x1, .f32⟩ : BufTy).Contents (Elt F)),
    nullary main_cst_10 (constant S_ .f32 0x3F800000#32),
    unary main_cst_10 main_v101 (broadcastInDim S32768x1 ![] bcast_S_S32768x1 : (⟨S_, .f32⟩ : BufTy).Contents (Elt F) → (⟨S32768x1, .f32⟩ : BufTy).Contents (Elt F)),
    binary main_v101 main_v100 main_v102 (addf : (⟨S32768x1, .f32⟩ : BufTy).Contents (Elt F) → (⟨S32768x1, .f32⟩ : BufTy).Contents (Elt F) → (⟨S32768x1, .f32⟩ : BufTy).Contents (Elt F)),
    nullary main_cst_11 (constant S_ .f32 0x3F800000#32),
    unary main_cst_11 main_v103 (broadcastInDim S32768x1 ![] bcast_S_S32768x1 : (⟨S_, .f32⟩ : BufTy).Contents (Elt F) → (⟨S32768x1, .f32⟩ : BufTy).Contents (Elt F)),
    binary main_v103 main_v102 main_v104 (Host.divf : (⟨S32768x1, .f32⟩ : BufTy).Contents (Elt F) → (⟨S32768x1, .f32⟩ : BufTy).Contents (Elt F) → (⟨S32768x1, .f32⟩ : BufTy).Contents (Elt F)),
    unary main_v104 main_v105 (broadcastInDim S32768x64 ![0, 1] bcast_S32768x1_S32768x64_0_1 : (⟨S32768x1, .f32⟩ : BufTy).Contents (Elt F) → (⟨S32768x64, .f32⟩ : BufTy).Contents (Elt F)),
    binary main_v105 main_v84 main_v106 (mulf : (⟨S32768x64, .f32⟩ : BufTy).Contents (Elt F) → (⟨S32768x64, .f32⟩ : BufTy).Contents (Elt F) → (⟨S32768x64, .f32⟩ : BufTy).Contents (Elt F)) ]

/-- Operations 122 … 130. -/
abbrev opsC5 : List (HloOp τ sig (Elt F)) :=
  [ binary main_v106 main_v73 main_v107 (addf : (⟨S32768x64, .f32⟩ : BufTy).Contents (Elt F) → (⟨S32768x64, .f32⟩ : BufTy).Contents (Elt F) → (⟨S32768x64, .f32⟩ : BufTy).Contents (Elt F)),
    unary main_arg9 main_v108 ((extractStridedSlice S1x64x128 ![1, 0, 0] · slices_S4x64x128_S1x64x128_1_0_0) : (⟨S4x64x128, .f32⟩ : BufTy).Contents (Elt F) → (⟨S1x64x128, .f32⟩ : BufTy).Contents (Elt F)),
    reshape main_v108 main_v109 rfl shapeCasts_S1x64x128_S64x128,
    binary main_v107 main_v109 main_v110 ((fun l r => Host.dotGeneral dot_S32768x64_S64x128_S32768x128_1_0_0_1_n_n none l r) : (⟨S32768x64, .f32⟩ : BufTy).Contents (Elt F) → (⟨S64x128, .f32⟩ : BufTy).Contents (Elt F) → (⟨S32768x128, .f32⟩ : BufTy).Contents (Elt F)),
    unary main_arg10 main_v111 ((extractStridedSlice S1x128 ![1, 0] · slices_S4x128_S1x128_1_0) : (⟨S4x128, .f32⟩ : BufTy).Contents (Elt F) → (⟨S1x128, .f32⟩ : BufTy).Contents (Elt F)),
    reshape main_v111 main_v112 rfl shapeCasts_S1x128_S128,
    unary main_v112 main_v113 (broadcastInDim S1x128 ![1] bcast_S128_S1x128_1 : (⟨S128, .f32⟩ : BufTy).Contents (Elt F) → (⟨S1x128, .f32⟩ : BufTy).Contents (Elt F)),
    unary main_v113 main_v114 (broadcastInDim S32768x128 ![0, 1] bcast_S1x128_S32768x128_0_1 : (⟨S1x128, .f32⟩ : BufTy).Contents (Elt F) → (⟨S32768x128, .f32⟩ : BufTy).Contents (Elt F)),
    binary main_v110 main_v114 main_v115 (addf : (⟨S32768x128, .f32⟩ : BufTy).Contents (Elt F) → (⟨S32768x128, .f32⟩ : BufTy).Contents (Elt F) → (⟨S32768x128, .f32⟩ : BufTy).Contents (Elt F)) ]

/-- Operations 131 … 144. -/
abbrev opsC6 : List (HloOp τ sig (Elt F)) :=
  [ nullary main_cst_12 (constant S_ .f32 0x7F800000#32),
    binary main_v115 main_cst_12 main_v116 ((fun x v => Host.reduce FloatOps.minimumf x v reducesTo_S32768x128_S128_d0 h_S_) : (⟨S32768x128, .f32⟩ : BufTy).Contents (Elt F) → (⟨S_, .f32⟩ : BufTy).Contents (Elt F) → (⟨S128, .f32⟩ : BufTy).Contents (Elt F)),
    nullary main_cst_13 (constant S_ .f32 0xFF800000#32),
    binary main_v115 main_cst_13 main_v117 ((fun x v => Host.reduce FloatOps.maximumf x v reducesTo_S32768x128_S128_d0 h_S_) : (⟨S32768x128, .f32⟩ : BufTy).Contents (Elt F) → (⟨S_, .f32⟩ : BufTy).Contents (Elt F) → (⟨S128, .f32⟩ : BufTy).Contents (Elt F)),
    unary main_v116 main_v118 (broadcastInDim S1x128 ![1] bcast_S128_S1x128_1 : (⟨S128, .f32⟩ : BufTy).Contents (Elt F) → (⟨S1x128, .f32⟩ : BufTy).Contents (Elt F)),
    unary main_v118 main_v119 (broadcastInDim S32768x128 ![0, 1] bcast_S1x128_S32768x128_0_1 : (⟨S1x128, .f32⟩ : BufTy).Contents (Elt F) → (⟨S32768x128, .f32⟩ : BufTy).Contents (Elt F)),
    binary main_v115 main_v119 main_v120 (subf : (⟨S32768x128, .f32⟩ : BufTy).Contents (Elt F) → (⟨S32768x128, .f32⟩ : BufTy).Contents (Elt F) → (⟨S32768x128, .f32⟩ : BufTy).Contents (Elt F)),
    binary main_v117 main_v116 main_v121 (subf : (⟨S128, .f32⟩ : BufTy).Contents (Elt F) → (⟨S128, .f32⟩ : BufTy).Contents (Elt F) → (⟨S128, .f32⟩ : BufTy).Contents (Elt F)),
    nullary main_cst_14 (constant S_ .f32 0x322BCC77#32),
    unary main_cst_14 main_v122 (broadcastInDim S128 ![] bcast_S_S128 : (⟨S_, .f32⟩ : BufTy).Contents (Elt F) → (⟨S128, .f32⟩ : BufTy).Contents (Elt F)),
    binary main_v121 main_v122 main_v123 (addf : (⟨S128, .f32⟩ : BufTy).Contents (Elt F) → (⟨S128, .f32⟩ : BufTy).Contents (Elt F) → (⟨S128, .f32⟩ : BufTy).Contents (Elt F)),
    unary main_v123 main_v124 (broadcastInDim S1x128 ![1] bcast_S128_S1x128_1 : (⟨S128, .f32⟩ : BufTy).Contents (Elt F) → (⟨S1x128, .f32⟩ : BufTy).Contents (Elt F)),
    unary main_v124 main_v125 (broadcastInDim S32768x128 ![0, 1] bcast_S1x128_S32768x128_0_1 : (⟨S1x128, .f32⟩ : BufTy).Contents (Elt F) → (⟨S32768x128, .f32⟩ : BufTy).Contents (Elt F)),
    binary main_v120 main_v125 main_v126 (Host.divf : (⟨S32768x128, .f32⟩ : BufTy).Contents (Elt F) → (⟨S32768x128, .f32⟩ : BufTy).Contents (Elt F) → (⟨S32768x128, .f32⟩ : BufTy).Contents (Elt F)) ]

/-- Operations 145 … 147. -/
abbrev opsC7 : List (HloOp τ sig (Elt F)) :=
  [ TRef.nullary (TRef.of (T := ⟨S_, .f32⟩) main_call3_cst) (constant S_ .f32 0x00000000#32),
    TRef.unary (TRef.of (T := ⟨S_, .f32⟩) main_call3_cst) (TRef.of (T := ⟨S32768x128, .f32⟩) main_call3_v0) (broadcastInDim S32768x128 ![] bcast_S_S32768x128),
    TRef.binary (TRef.of (T := ⟨S32768x128, .f32⟩) main_v126) (TRef.of (T := ⟨S32768x128, .f32⟩) main_call3_v0) (TRef.of (T := ⟨S32768x128, .f32⟩) main_v127) maximumf ]

/-- Operations 148 … 183. -/
abbrev opsC8 : List (HloOp τ sig (Elt F)) :=
  [ unary main_arg3 main_v128 ((extractStridedSlice S1x128x64 ![2, 0, 0] · slices_S4x128x64_S1x128x64_2_0_0) : (⟨S4x128x64, .f32⟩ : BufTy).Contents (Elt F) → (⟨S1x128x64, .f32⟩ : BufTy).Contents (Elt F)),
    reshape main_v128 main_v129 rfl shapeCasts_S1x128x64_S128x64,
    binary main_v127 main_v129 main_v130 ((fun l r => Host.dotGeneral dot_S32768x128_S128x64_S32768x64_1_0_0_1_n_n none l r) : (⟨S32768x128, .f32⟩ : BufTy).Contents (Elt F) → (⟨S128x64, .f32⟩ : BufTy).Contents (Elt F) → (⟨S32768x64, .f32⟩ : BufTy).Contents (Elt F)),
    unary main_arg4 main_v131 ((extractStridedSlice S1x64 ![2, 0] · slices_S4x64_S1x64_2_0) : (⟨S4x64, .f32⟩ : BufTy).Contents (Elt F) → (⟨S1x64, .f32⟩ : BufTy).Contents (Elt F)),
    reshape main_v131 main_v132 rfl shapeCasts_S1x64_S64,
    unary main_v132 main_v133 (broadcastInDim S1x64 ![1] bcast_S64_S1x64_1 : (⟨S64, .f32⟩ : BufTy).Contents (Elt F) → (⟨S1x64, .f32⟩ : BufTy).Contents (Elt F)),
    unary main_v133 main_v134 (broadcastInDim S32768x64 ![0, 1] bcast_S1x64_S32768x64_0_1 : (⟨S1x64, .f32⟩ : BufTy).Contents (Elt F) → (⟨S32768x64, .f32⟩ : BufTy).Contents (Elt F)),
    binary main_v130 main_v134 main_v135 (addf : (⟨S32768x64, .f32⟩ : BufTy).Contents (Elt F) → (⟨S32768x64, .f32⟩ : BufTy).Contents (Elt F) → (⟨S32768x64, .f32⟩ : BufTy).Contents (Elt F)),
    unary main_arg5 main_v136 ((extractStridedSlice S1x128x64 ![2, 0, 0] · slices_S4x128x64_S1x128x64_2_0_0) : (⟨S4x128x64, .f32⟩ : BufTy).Contents (Elt F) → (⟨S1x128x64, .f32⟩ : BufTy).Contents (Elt F)),
    reshape main_v136 main_v137 rfl shapeCasts_S1x128x64_S128x64,
    binary main_arg2 main_v137 main_v138 ((fun l r => Host.dotGeneral dot_S8192x128_S128x64_S8192x64_1_0_0_1_n_n none l r) : (⟨S8192x128, .f32⟩ : BufTy).Contents (Elt F) → (⟨S128x64, .f32⟩ : BufTy).Contents (Elt F) → (⟨S8192x64, .f32⟩ : BufTy).Contents (Elt F)),
    unary main_arg6 main_v139 ((extractStridedSlice S1x64 ![2, 0] · slices_S4x64_S1x64_2_0) : (⟨S4x64, .f32⟩ : BufTy).Contents (Elt F) → (⟨S1x64, .f32⟩ : BufTy).Contents (Elt F)),
    reshape main_v139 main_v140 rfl shapeCasts_S1x64_S64,
    unary main_v140 main_v141 (broadcastInDim S1x64 ![1] bcast_S64_S1x64_1 : (⟨S64, .f32⟩ : BufTy).Contents (Elt F) → (⟨S1x64, .f32⟩ : BufTy).Contents (Elt F)),
    unary main_v141 main_v142 (broadcastInDim S8192x64 ![0, 1] bcast_S1x64_S8192x64_0_1 : (⟨S1x64, .f32⟩ : BufTy).Contents (Elt F) → (⟨S8192x64, .f32⟩ : BufTy).Contents (Elt F)),
    binary main_v138 main_v142 main_v143 (addf : (⟨S8192x64, .f32⟩ : BufTy).Contents (Elt F) → (⟨S8192x64, .f32⟩ : BufTy).Contents (Elt F) → (⟨S8192x64, .f32⟩ : BufTy).Contents (Elt F)),
    binary main_arg1 main_v143 main_v144 ((fun l r => Host.dotGeneral dot_S32768x8192_S8192x64_S32768x64_1_0_0_1_n_n none l r) : (⟨S32768x8192, .f32⟩ : BufTy).Contents (Elt F) → (⟨S8192x64, .f32⟩ : BufTy).Contents (Elt F) → (⟨S32768x64, .f32⟩ : BufTy).Contents (Elt F)),
    unary main_v3 main_v145 (broadcastInDim S32768x64 ![0, 1] bcast_S32768x1_S32768x64_0_1 : (⟨S32768x1, .f32⟩ : BufTy).Contents (Elt F) → (⟨S32768x64, .f32⟩ : BufTy).Contents (Elt F)),
    binary main_v144 main_v145 main_v146 (Host.divf : (⟨S32768x64, .f32⟩ : BufTy).Contents (Elt F) → (⟨S32768x64, .f32⟩ : BufTy).Contents (Elt F) → (⟨S32768x64, .f32⟩ : BufTy).Contents (Elt F)),
    binary main_v135 main_v146 main_v147 (addf : (⟨S32768x64, .f32⟩ : BufTy).Contents (Elt F) → (⟨S32768x64, .f32⟩ : BufTy).Contents (Elt F) → (⟨S32768x64, .f32⟩ : BufTy).Contents (Elt F)),
    unary main_arg7 main_v148 ((extractStridedSlice S1x64x1 ![2, 0, 0] · slices_S4x64x1_S1x64x1_2_0_0) : (⟨S4x64x1, .f32⟩ : BufTy).Contents (Elt F) → (⟨S1x64x1, .f32⟩ : BufTy).Contents (Elt F)),
    reshape main_v148 main_v149 rfl shapeCasts_S1x64x1_S64x1,
    binary main_v147 main_v149 main_v150 ((fun l r => Host.dotGeneral dot_S32768x64_S64x1_S32768x1_1_0_0_1_n_n none l r) : (⟨S32768x64, .f32⟩ : BufTy).Contents (Elt F) → (⟨S64x1, .f32⟩ : BufTy).Contents (Elt F) → (⟨S32768x1, .f32⟩ : BufTy).Contents (Elt F)),
    unary main_arg8 main_v151 ((extractStridedSlice S1x1 ![2, 0] · slices_S4x1_S1x1_2_0) : (⟨S4x1, .f32⟩ : BufTy).Contents (Elt F) → (⟨S1x1, .f32⟩ : BufTy).Contents (Elt F)),
    reshape main_v151 main_v152 rfl shapeCasts_S1x1_S1,
    unary main_v152 main_v153 (broadcastInDim S1x1 ![1] bcast_S1_S1x1_1 : (⟨S1, .f32⟩ : BufTy).Contents (Elt F) → (⟨S1x1, .f32⟩ : BufTy).Contents (Elt F)),
    unary main_v153 main_v154 (broadcastInDim S32768x1 ![0, 1] bcast_S1x1_S32768x1_0_1 : (⟨S1x1, .f32⟩ : BufTy).Contents (Elt F) → (⟨S32768x1, .f32⟩ : BufTy).Contents (Elt F)),
    binary main_v150 main_v154 main_v155 (addf : (⟨S32768x1, .f32⟩ : BufTy).Contents (Elt F) → (⟨S32768x1, .f32⟩ : BufTy).Contents (Elt F) → (⟨S32768x1, .f32⟩ : BufTy).Contents (Elt F)),
    nullary main_cst_15 (constant S_ .f32 0x00000000#32),
    unary main_cst_15 main_v156 (broadcastInDim S32768x1 ![] bcast_S_S32768x1 : (⟨S_, .f32⟩ : BufTy).Contents (Elt F) → (⟨S32768x1, .f32⟩ : BufTy).Contents (Elt F)),
    binary main_v155 main_v156 main_v157 (cmpf .oge : (⟨S32768x1, .f32⟩ : BufTy).Contents (Elt F) → (⟨S32768x1, .f32⟩ : BufTy).Contents (Elt F) → (⟨S32768x1, .i1⟩ : BufTy).Contents (Elt F)),
    nullary main_cst_16 (constant S_ .f32 0x3E4CCCCD#32),
    unary main_cst_16 main_v158 (broadcastInDim S32768x1 ![] bcast_S_S32768x1 : (⟨S_, .f32⟩ : BufTy).Contents (Elt F) → (⟨S32768x1, .f32⟩ : BufTy).Contents (Elt F)),
    binary main_v158 main_v155 main_v159 (mulf : (⟨S32768x1, .f32⟩ : BufTy).Contents (Elt F) → (⟨S32768x1, .f32⟩ : BufTy).Contents (Elt F) → (⟨S32768x1, .f32⟩ : BufTy).Contents (Elt F)),
    TRef.ternary (TRef.of (T := ⟨S32768x1, .i1⟩) main_v157) (TRef.of (T := ⟨S32768x1, .f32⟩) main_v155) (TRef.of (T := ⟨S32768x1, .f32⟩) main_v159) (TRef.of (T := ⟨S32768x1, .f32⟩) main_v160) select,
    unary main_v160 main_v161 (Host.negf : (⟨S32768x1, .f32⟩ : BufTy).Contents (Elt F) → (⟨S32768x1, .f32⟩ : BufTy).Contents (Elt F)) ]

/-- Operations 184 … 201. -/
abbrev opsC9 : List (HloOp τ sig (Elt F)) :=
  [ unary main_v161 main_v162 (Host.exp : (⟨S32768x1, .f32⟩ : BufTy).Contents (Elt F) → (⟨S32768x1, .f32⟩ : BufTy).Contents (Elt F)),
    nullary main_cst_17 (constant S_ .f32 0x3F800000#32),
    unary main_cst_17 main_v163 (broadcastInDim S32768x1 ![] bcast_S_S32768x1 : (⟨S_, .f32⟩ : BufTy).Contents (Elt F) → (⟨S32768x1, .f32⟩ : BufTy).Contents (Elt F)),
    binary main_v163 main_v162 main_v164 (addf : (⟨S32768x1, .f32⟩ : BufTy).Contents (Elt F) → (⟨S32768x1, .f32⟩ : BufTy).Contents (Elt F) → (⟨S32768x1, .f32⟩ : BufTy).Contents (Elt F)),
    nullary main_cst_18 (constant S_ .f32 0x3F800000#32),
    unary main_cst_18 main_v165 (broadcastInDim S32768x1 ![] bcast_S_S32768x1 : (⟨S_, .f32⟩ : BufTy).Contents (Elt F) → (⟨S32768x1, .f32⟩ : BufTy).Contents (Elt F)),
    binary main_v165 main_v164 main_v166 (Host.divf : (⟨S32768x1, .f32⟩ : BufTy).Contents (Elt F) → (⟨S32768x1, .f32⟩ : BufTy).Contents (Elt F) → (⟨S32768x1, .f32⟩ : BufTy).Contents (Elt F)),
    unary main_v166 main_v167 (broadcastInDim S32768x64 ![0, 1] bcast_S32768x1_S32768x64_0_1 : (⟨S32768x1, .f32⟩ : BufTy).Contents (Elt F) → (⟨S32768x64, .f32⟩ : BufTy).Contents (Elt F)),
    binary main_v167 main_v146 main_v168 (mulf : (⟨S32768x64, .f32⟩ : BufTy).Contents (Elt F) → (⟨S32768x64, .f32⟩ : BufTy).Contents (Elt F) → (⟨S32768x64, .f32⟩ : BufTy).Contents (Elt F)),
    binary main_v168 main_v135 main_v169 (addf : (⟨S32768x64, .f32⟩ : BufTy).Contents (Elt F) → (⟨S32768x64, .f32⟩ : BufTy).Contents (Elt F) → (⟨S32768x64, .f32⟩ : BufTy).Contents (Elt F)),
    unary main_arg9 main_v170 ((extractStridedSlice S1x64x128 ![2, 0, 0] · slices_S4x64x128_S1x64x128_2_0_0) : (⟨S4x64x128, .f32⟩ : BufTy).Contents (Elt F) → (⟨S1x64x128, .f32⟩ : BufTy).Contents (Elt F)),
    reshape main_v170 main_v171 rfl shapeCasts_S1x64x128_S64x128,
    binary main_v169 main_v171 main_v172 ((fun l r => Host.dotGeneral dot_S32768x64_S64x128_S32768x128_1_0_0_1_n_n none l r) : (⟨S32768x64, .f32⟩ : BufTy).Contents (Elt F) → (⟨S64x128, .f32⟩ : BufTy).Contents (Elt F) → (⟨S32768x128, .f32⟩ : BufTy).Contents (Elt F)),
    unary main_arg10 main_v173 ((extractStridedSlice S1x128 ![2, 0] · slices_S4x128_S1x128_2_0) : (⟨S4x128, .f32⟩ : BufTy).Contents (Elt F) → (⟨S1x128, .f32⟩ : BufTy).Contents (Elt F)),
    reshape main_v173 main_v174 rfl shapeCasts_S1x128_S128,
    unary main_v174 main_v175 (broadcastInDim S1x128 ![1] bcast_S128_S1x128_1 : (⟨S128, .f32⟩ : BufTy).Contents (Elt F) → (⟨S1x128, .f32⟩ : BufTy).Contents (Elt F)),
    unary main_v175 main_v176 (broadcastInDim S32768x128 ![0, 1] bcast_S1x128_S32768x128_0_1 : (⟨S1x128, .f32⟩ : BufTy).Contents (Elt F) → (⟨S32768x128, .f32⟩ : BufTy).Contents (Elt F)),
    binary main_v172 main_v176 main_v177 (addf : (⟨S32768x128, .f32⟩ : BufTy).Contents (Elt F) → (⟨S32768x128, .f32⟩ : BufTy).Contents (Elt F) → (⟨S32768x128, .f32⟩ : BufTy).Contents (Elt F)) ]

/-- Operations 202 … 215. -/
abbrev opsC10 : List (HloOp τ sig (Elt F)) :=
  [ nullary main_cst_19 (constant S_ .f32 0x7F800000#32),
    binary main_v177 main_cst_19 main_v178 ((fun x v => Host.reduce FloatOps.minimumf x v reducesTo_S32768x128_S128_d0 h_S_) : (⟨S32768x128, .f32⟩ : BufTy).Contents (Elt F) → (⟨S_, .f32⟩ : BufTy).Contents (Elt F) → (⟨S128, .f32⟩ : BufTy).Contents (Elt F)),
    nullary main_cst_20 (constant S_ .f32 0xFF800000#32),
    binary main_v177 main_cst_20 main_v179 ((fun x v => Host.reduce FloatOps.maximumf x v reducesTo_S32768x128_S128_d0 h_S_) : (⟨S32768x128, .f32⟩ : BufTy).Contents (Elt F) → (⟨S_, .f32⟩ : BufTy).Contents (Elt F) → (⟨S128, .f32⟩ : BufTy).Contents (Elt F)),
    unary main_v178 main_v180 (broadcastInDim S1x128 ![1] bcast_S128_S1x128_1 : (⟨S128, .f32⟩ : BufTy).Contents (Elt F) → (⟨S1x128, .f32⟩ : BufTy).Contents (Elt F)),
    unary main_v180 main_v181 (broadcastInDim S32768x128 ![0, 1] bcast_S1x128_S32768x128_0_1 : (⟨S1x128, .f32⟩ : BufTy).Contents (Elt F) → (⟨S32768x128, .f32⟩ : BufTy).Contents (Elt F)),
    binary main_v177 main_v181 main_v182 (subf : (⟨S32768x128, .f32⟩ : BufTy).Contents (Elt F) → (⟨S32768x128, .f32⟩ : BufTy).Contents (Elt F) → (⟨S32768x128, .f32⟩ : BufTy).Contents (Elt F)),
    binary main_v179 main_v178 main_v183 (subf : (⟨S128, .f32⟩ : BufTy).Contents (Elt F) → (⟨S128, .f32⟩ : BufTy).Contents (Elt F) → (⟨S128, .f32⟩ : BufTy).Contents (Elt F)),
    nullary main_cst_21 (constant S_ .f32 0x322BCC77#32),
    unary main_cst_21 main_v184 (broadcastInDim S128 ![] bcast_S_S128 : (⟨S_, .f32⟩ : BufTy).Contents (Elt F) → (⟨S128, .f32⟩ : BufTy).Contents (Elt F)),
    binary main_v183 main_v184 main_v185 (addf : (⟨S128, .f32⟩ : BufTy).Contents (Elt F) → (⟨S128, .f32⟩ : BufTy).Contents (Elt F) → (⟨S128, .f32⟩ : BufTy).Contents (Elt F)),
    unary main_v185 main_v186 (broadcastInDim S1x128 ![1] bcast_S128_S1x128_1 : (⟨S128, .f32⟩ : BufTy).Contents (Elt F) → (⟨S1x128, .f32⟩ : BufTy).Contents (Elt F)),
    unary main_v186 main_v187 (broadcastInDim S32768x128 ![0, 1] bcast_S1x128_S32768x128_0_1 : (⟨S1x128, .f32⟩ : BufTy).Contents (Elt F) → (⟨S32768x128, .f32⟩ : BufTy).Contents (Elt F)),
    binary main_v182 main_v187 main_v188 (Host.divf : (⟨S32768x128, .f32⟩ : BufTy).Contents (Elt F) → (⟨S32768x128, .f32⟩ : BufTy).Contents (Elt F) → (⟨S32768x128, .f32⟩ : BufTy).Contents (Elt F)) ]

/-- Operations 216 … 218. -/
abbrev opsC11 : List (HloOp τ sig (Elt F)) :=
  [ TRef.nullary (TRef.of (T := ⟨S_, .f32⟩) main_call5_cst) (constant S_ .f32 0x00000000#32),
    TRef.unary (TRef.of (T := ⟨S_, .f32⟩) main_call5_cst) (TRef.of (T := ⟨S32768x128, .f32⟩) main_call5_v0) (broadcastInDim S32768x128 ![] bcast_S_S32768x128),
    TRef.binary (TRef.of (T := ⟨S32768x128, .f32⟩) main_v188) (TRef.of (T := ⟨S32768x128, .f32⟩) main_call5_v0) (TRef.of (T := ⟨S32768x128, .f32⟩) main_v189) maximumf ]

/-- Operations 219 … 245. -/
abbrev opsC12 : List (HloOp τ sig (Elt F)) :=
  [ unary main_arg3 main_v190 ((extractStridedSlice S1x128x64 ![3, 0, 0] · slices_S4x128x64_S1x128x64_3_0_0) : (⟨S4x128x64, .f32⟩ : BufTy).Contents (Elt F) → (⟨S1x128x64, .f32⟩ : BufTy).Contents (Elt F)),
    reshape main_v190 main_v191 rfl shapeCasts_S1x128x64_S128x64,
    binary main_v189 main_v191 main_v192 ((fun l r => Host.dotGeneral dot_S32768x128_S128x64_S32768x64_1_0_0_1_n_n none l r) : (⟨S32768x128, .f32⟩ : BufTy).Contents (Elt F) → (⟨S128x64, .f32⟩ : BufTy).Contents (Elt F) → (⟨S32768x64, .f32⟩ : BufTy).Contents (Elt F)),
    unary main_arg4 main_v193 ((extractStridedSlice S1x64 ![3, 0] · slices_S4x64_S1x64_3_0) : (⟨S4x64, .f32⟩ : BufTy).Contents (Elt F) → (⟨S1x64, .f32⟩ : BufTy).Contents (Elt F)),
    reshape main_v193 main_v194 rfl shapeCasts_S1x64_S64,
    unary main_v194 main_v195 (broadcastInDim S1x64 ![1] bcast_S64_S1x64_1 : (⟨S64, .f32⟩ : BufTy).Contents (Elt F) → (⟨S1x64, .f32⟩ : BufTy).Contents (Elt F)),
    unary main_v195 main_v196 (broadcastInDim S32768x64 ![0, 1] bcast_S1x64_S32768x64_0_1 : (⟨S1x64, .f32⟩ : BufTy).Contents (Elt F) → (⟨S32768x64, .f32⟩ : BufTy).Contents (Elt F)),
    binary main_v192 main_v196 main_v197 (addf : (⟨S32768x64, .f32⟩ : BufTy).Contents (Elt F) → (⟨S32768x64, .f32⟩ : BufTy).Contents (Elt F) → (⟨S32768x64, .f32⟩ : BufTy).Contents (Elt F)),
    unary main_arg5 main_v198 ((extractStridedSlice S1x128x64 ![3, 0, 0] · slices_S4x128x64_S1x128x64_3_0_0) : (⟨S4x128x64, .f32⟩ : BufTy).Contents (Elt F) → (⟨S1x128x64, .f32⟩ : BufTy).Contents (Elt F)),
    reshape main_v198 main_v199 rfl shapeCasts_S1x128x64_S128x64,
    binary main_arg2 main_v199 main_v200 ((fun l r => Host.dotGeneral dot_S8192x128_S128x64_S8192x64_1_0_0_1_n_n none l r) : (⟨S8192x128, .f32⟩ : BufTy).Contents (Elt F) → (⟨S128x64, .f32⟩ : BufTy).Contents (Elt F) → (⟨S8192x64, .f32⟩ : BufTy).Contents (Elt F)),
    unary main_arg6 main_v201 ((extractStridedSlice S1x64 ![3, 0] · slices_S4x64_S1x64_3_0) : (⟨S4x64, .f32⟩ : BufTy).Contents (Elt F) → (⟨S1x64, .f32⟩ : BufTy).Contents (Elt F)),
    reshape main_v201 main_v202 rfl shapeCasts_S1x64_S64,
    unary main_v202 main_v203 (broadcastInDim S1x64 ![1] bcast_S64_S1x64_1 : (⟨S64, .f32⟩ : BufTy).Contents (Elt F) → (⟨S1x64, .f32⟩ : BufTy).Contents (Elt F)),
    unary main_v203 main_v204 (broadcastInDim S8192x64 ![0, 1] bcast_S1x64_S8192x64_0_1 : (⟨S1x64, .f32⟩ : BufTy).Contents (Elt F) → (⟨S8192x64, .f32⟩ : BufTy).Contents (Elt F)),
    binary main_v200 main_v204 main_v205 (addf : (⟨S8192x64, .f32⟩ : BufTy).Contents (Elt F) → (⟨S8192x64, .f32⟩ : BufTy).Contents (Elt F) → (⟨S8192x64, .f32⟩ : BufTy).Contents (Elt F)),
    binary main_arg1 main_v205 main_v206 ((fun l r => Host.dotGeneral dot_S32768x8192_S8192x64_S32768x64_1_0_0_1_n_n none l r) : (⟨S32768x8192, .f32⟩ : BufTy).Contents (Elt F) → (⟨S8192x64, .f32⟩ : BufTy).Contents (Elt F) → (⟨S32768x64, .f32⟩ : BufTy).Contents (Elt F)),
    unary main_v3 main_v207 (broadcastInDim S32768x64 ![0, 1] bcast_S32768x1_S32768x64_0_1 : (⟨S32768x1, .f32⟩ : BufTy).Contents (Elt F) → (⟨S32768x64, .f32⟩ : BufTy).Contents (Elt F)),
    binary main_v206 main_v207 main_v208 (Host.divf : (⟨S32768x64, .f32⟩ : BufTy).Contents (Elt F) → (⟨S32768x64, .f32⟩ : BufTy).Contents (Elt F) → (⟨S32768x64, .f32⟩ : BufTy).Contents (Elt F)),
    binary main_v197 main_v208 main_v209 (addf : (⟨S32768x64, .f32⟩ : BufTy).Contents (Elt F) → (⟨S32768x64, .f32⟩ : BufTy).Contents (Elt F) → (⟨S32768x64, .f32⟩ : BufTy).Contents (Elt F)),
    unary main_arg7 main_v210 ((extractStridedSlice S1x64x1 ![3, 0, 0] · slices_S4x64x1_S1x64x1_3_0_0) : (⟨S4x64x1, .f32⟩ : BufTy).Contents (Elt F) → (⟨S1x64x1, .f32⟩ : BufTy).Contents (Elt F)),
    reshape main_v210 main_v211 rfl shapeCasts_S1x64x1_S64x1,
    binary main_v209 main_v211 main_v212 ((fun l r => Host.dotGeneral dot_S32768x64_S64x1_S32768x1_1_0_0_1_n_n none l r) : (⟨S32768x64, .f32⟩ : BufTy).Contents (Elt F) → (⟨S64x1, .f32⟩ : BufTy).Contents (Elt F) → (⟨S32768x1, .f32⟩ : BufTy).Contents (Elt F)),
    unary main_arg8 main_v213 ((extractStridedSlice S1x1 ![3, 0] · slices_S4x1_S1x1_3_0) : (⟨S4x1, .f32⟩ : BufTy).Contents (Elt F) → (⟨S1x1, .f32⟩ : BufTy).Contents (Elt F)),
    reshape main_v213 main_v214 rfl shapeCasts_S1x1_S1,
    unary main_v214 main_v215 (broadcastInDim S1x1 ![1] bcast_S1_S1x1_1 : (⟨S1, .f32⟩ : BufTy).Contents (Elt F) → (⟨S1x1, .f32⟩ : BufTy).Contents (Elt F)),
    unary main_v215 main_v216 (broadcastInDim S32768x1 ![0, 1] bcast_S1x1_S32768x1_0_1 : (⟨S1x1, .f32⟩ : BufTy).Contents (Elt F) → (⟨S32768x1, .f32⟩ : BufTy).Contents (Elt F)) ]

/-- Operations 246 … 272. -/
abbrev opsC13 : List (HloOp τ sig (Elt F)) :=
  [ binary main_v212 main_v216 main_v217 (addf : (⟨S32768x1, .f32⟩ : BufTy).Contents (Elt F) → (⟨S32768x1, .f32⟩ : BufTy).Contents (Elt F) → (⟨S32768x1, .f32⟩ : BufTy).Contents (Elt F)),
    nullary main_cst_22 (constant S_ .f32 0x00000000#32),
    unary main_cst_22 main_v218 (broadcastInDim S32768x1 ![] bcast_S_S32768x1 : (⟨S_, .f32⟩ : BufTy).Contents (Elt F) → (⟨S32768x1, .f32⟩ : BufTy).Contents (Elt F)),
    binary main_v217 main_v218 main_v219 (cmpf .oge : (⟨S32768x1, .f32⟩ : BufTy).Contents (Elt F) → (⟨S32768x1, .f32⟩ : BufTy).Contents (Elt F) → (⟨S32768x1, .i1⟩ : BufTy).Contents (Elt F)),
    nullary main_cst_23 (constant S_ .f32 0x3E4CCCCD#32),
    unary main_cst_23 main_v220 (broadcastInDim S32768x1 ![] bcast_S_S32768x1 : (⟨S_, .f32⟩ : BufTy).Contents (Elt F) → (⟨S32768x1, .f32⟩ : BufTy).Contents (Elt F)),
    binary main_v220 main_v217 main_v221 (mulf : (⟨S32768x1, .f32⟩ : BufTy).Contents (Elt F) → (⟨S32768x1, .f32⟩ : BufTy).Contents (Elt F) → (⟨S32768x1, .f32⟩ : BufTy).Contents (Elt F)),
    TRef.ternary (TRef.of (T := ⟨S32768x1, .i1⟩) main_v219) (TRef.of (T := ⟨S32768x1, .f32⟩) main_v217) (TRef.of (T := ⟨S32768x1, .f32⟩) main_v221) (TRef.of (T := ⟨S32768x1, .f32⟩) main_v222) select,
    unary main_v222 main_v223 (Host.negf : (⟨S32768x1, .f32⟩ : BufTy).Contents (Elt F) → (⟨S32768x1, .f32⟩ : BufTy).Contents (Elt F)),
    unary main_v223 main_v224 (Host.exp : (⟨S32768x1, .f32⟩ : BufTy).Contents (Elt F) → (⟨S32768x1, .f32⟩ : BufTy).Contents (Elt F)),
    nullary main_cst_24 (constant S_ .f32 0x3F800000#32),
    unary main_cst_24 main_v225 (broadcastInDim S32768x1 ![] bcast_S_S32768x1 : (⟨S_, .f32⟩ : BufTy).Contents (Elt F) → (⟨S32768x1, .f32⟩ : BufTy).Contents (Elt F)),
    binary main_v225 main_v224 main_v226 (addf : (⟨S32768x1, .f32⟩ : BufTy).Contents (Elt F) → (⟨S32768x1, .f32⟩ : BufTy).Contents (Elt F) → (⟨S32768x1, .f32⟩ : BufTy).Contents (Elt F)),
    nullary main_cst_25 (constant S_ .f32 0x3F800000#32),
    unary main_cst_25 main_v227 (broadcastInDim S32768x1 ![] bcast_S_S32768x1 : (⟨S_, .f32⟩ : BufTy).Contents (Elt F) → (⟨S32768x1, .f32⟩ : BufTy).Contents (Elt F)),
    binary main_v227 main_v226 main_v228 (Host.divf : (⟨S32768x1, .f32⟩ : BufTy).Contents (Elt F) → (⟨S32768x1, .f32⟩ : BufTy).Contents (Elt F) → (⟨S32768x1, .f32⟩ : BufTy).Contents (Elt F)),
    unary main_v228 main_v229 (broadcastInDim S32768x64 ![0, 1] bcast_S32768x1_S32768x64_0_1 : (⟨S32768x1, .f32⟩ : BufTy).Contents (Elt F) → (⟨S32768x64, .f32⟩ : BufTy).Contents (Elt F)),
    binary main_v229 main_v208 main_v230 (mulf : (⟨S32768x64, .f32⟩ : BufTy).Contents (Elt F) → (⟨S32768x64, .f32⟩ : BufTy).Contents (Elt F) → (⟨S32768x64, .f32⟩ : BufTy).Contents (Elt F)),
    binary main_v230 main_v197 main_v231 (addf : (⟨S32768x64, .f32⟩ : BufTy).Contents (Elt F) → (⟨S32768x64, .f32⟩ : BufTy).Contents (Elt F) → (⟨S32768x64, .f32⟩ : BufTy).Contents (Elt F)),
    unary main_arg9 main_v232 ((extractStridedSlice S1x64x128 ![3, 0, 0] · slices_S4x64x128_S1x64x128_3_0_0) : (⟨S4x64x128, .f32⟩ : BufTy).Contents (Elt F) → (⟨S1x64x128, .f32⟩ : BufTy).Contents (Elt F)),
    reshape main_v232 main_v233 rfl shapeCasts_S1x64x128_S64x128,
    binary main_v231 main_v233 main_v234 ((fun l r => Host.dotGeneral dot_S32768x64_S64x128_S32768x128_1_0_0_1_n_n none l r) : (⟨S32768x64, .f32⟩ : BufTy).Contents (Elt F) → (⟨S64x128, .f32⟩ : BufTy).Contents (Elt F) → (⟨S32768x128, .f32⟩ : BufTy).Contents (Elt F)),
    unary main_arg10 main_v235 ((extractStridedSlice S1x128 ![3, 0] · slices_S4x128_S1x128_3_0) : (⟨S4x128, .f32⟩ : BufTy).Contents (Elt F) → (⟨S1x128, .f32⟩ : BufTy).Contents (Elt F)),
    reshape main_v235 main_v236 rfl shapeCasts_S1x128_S128,
    unary main_v236 main_v237 (broadcastInDim S1x128 ![1] bcast_S128_S1x128_1 : (⟨S128, .f32⟩ : BufTy).Contents (Elt F) → (⟨S1x128, .f32⟩ : BufTy).Contents (Elt F)),
    unary main_v237 main_v238 (broadcastInDim S32768x128 ![0, 1] bcast_S1x128_S32768x128_0_1 : (⟨S1x128, .f32⟩ : BufTy).Contents (Elt F) → (⟨S32768x128, .f32⟩ : BufTy).Contents (Elt F)),
    binary main_v234 main_v238 main_v239 (addf : (⟨S32768x128, .f32⟩ : BufTy).Contents (Elt F) → (⟨S32768x128, .f32⟩ : BufTy).Contents (Elt F) → (⟨S32768x128, .f32⟩ : BufTy).Contents (Elt F)) ]

/-- Operations 273 … 286. -/
abbrev opsC14 : List (HloOp τ sig (Elt F)) :=
  [ nullary main_cst_26 (constant S_ .f32 0x7F800000#32),
    binary main_v239 main_cst_26 main_v240 ((fun x v => Host.reduce FloatOps.minimumf x v reducesTo_S32768x128_S128_d0 h_S_) : (⟨S32768x128, .f32⟩ : BufTy).Contents (Elt F) → (⟨S_, .f32⟩ : BufTy).Contents (Elt F) → (⟨S128, .f32⟩ : BufTy).Contents (Elt F)),
    nullary main_cst_27 (constant S_ .f32 0xFF800000#32),
    binary main_v239 main_cst_27 main_v241 ((fun x v => Host.reduce FloatOps.maximumf x v reducesTo_S32768x128_S128_d0 h_S_) : (⟨S32768x128, .f32⟩ : BufTy).Contents (Elt F) → (⟨S_, .f32⟩ : BufTy).Contents (Elt F) → (⟨S128, .f32⟩ : BufTy).Contents (Elt F)),
    unary main_v240 main_v242 (broadcastInDim S1x128 ![1] bcast_S128_S1x128_1 : (⟨S128, .f32⟩ : BufTy).Contents (Elt F) → (⟨S1x128, .f32⟩ : BufTy).Contents (Elt F)),
    unary main_v242 main_v243 (broadcastInDim S32768x128 ![0, 1] bcast_S1x128_S32768x128_0_1 : (⟨S1x128, .f32⟩ : BufTy).Contents (Elt F) → (⟨S32768x128, .f32⟩ : BufTy).Contents (Elt F)),
    binary main_v239 main_v243 main_v244 (subf : (⟨S32768x128, .f32⟩ : BufTy).Contents (Elt F) → (⟨S32768x128, .f32⟩ : BufTy).Contents (Elt F) → (⟨S32768x128, .f32⟩ : BufTy).Contents (Elt F)),
    binary main_v241 main_v240 main_v245 (subf : (⟨S128, .f32⟩ : BufTy).Contents (Elt F) → (⟨S128, .f32⟩ : BufTy).Contents (Elt F) → (⟨S128, .f32⟩ : BufTy).Contents (Elt F)),
    nullary main_cst_28 (constant S_ .f32 0x322BCC77#32),
    unary main_cst_28 main_v246 (broadcastInDim S128 ![] bcast_S_S128 : (⟨S_, .f32⟩ : BufTy).Contents (Elt F) → (⟨S128, .f32⟩ : BufTy).Contents (Elt F)),
    binary main_v245 main_v246 main_v247 (addf : (⟨S128, .f32⟩ : BufTy).Contents (Elt F) → (⟨S128, .f32⟩ : BufTy).Contents (Elt F) → (⟨S128, .f32⟩ : BufTy).Contents (Elt F)),
    unary main_v247 main_v248 (broadcastInDim S1x128 ![1] bcast_S128_S1x128_1 : (⟨S128, .f32⟩ : BufTy).Contents (Elt F) → (⟨S1x128, .f32⟩ : BufTy).Contents (Elt F)),
    unary main_v248 main_v249 (broadcastInDim S32768x128 ![0, 1] bcast_S1x128_S32768x128_0_1 : (⟨S1x128, .f32⟩ : BufTy).Contents (Elt F) → (⟨S32768x128, .f32⟩ : BufTy).Contents (Elt F)),
    binary main_v244 main_v249 main_v250 (Host.divf : (⟨S32768x128, .f32⟩ : BufTy).Contents (Elt F) → (⟨S32768x128, .f32⟩ : BufTy).Contents (Elt F) → (⟨S32768x128, .f32⟩ : BufTy).Contents (Elt F)) ]

/-- Operations 287 … 289. -/
abbrev opsC15 : List (HloOp τ sig (Elt F)) :=
  [ TRef.nullary (TRef.of (T := ⟨S_, .f32⟩) main_call7_cst) (constant S_ .f32 0x00000000#32),
    TRef.unary (TRef.of (T := ⟨S_, .f32⟩) main_call7_cst) (TRef.of (T := ⟨S32768x128, .f32⟩) main_call7_v0) (broadcastInDim S32768x128 ![] bcast_S_S32768x128),
    TRef.binary (TRef.of (T := ⟨S32768x128, .f32⟩) main_v250) (TRef.of (T := ⟨S32768x128, .f32⟩) main_call7_v0) (TRef.of (T := ⟨S32768x128, .f32⟩) main_v251) maximumf ]

/-- The five printed windows. -/
abbrev opsP0 : List (HloOp τ sig (Elt F)) := opsC0 ++ opsC1
abbrev opsP1 : List (HloOp τ sig (Elt F)) := opsC2 ++ (opsC3 ++ opsC4)
abbrev opsP2 : List (HloOp τ sig (Elt F)) := opsC5 ++ (opsC6 ++ (opsC7 ++ opsC8))
abbrev opsP3 : List (HloOp τ sig (Elt F)) := opsC9 ++ (opsC10 ++ (opsC11 ++ opsC12))
abbrev opsP4 : List (HloOp τ sig (Elt F)) := opsC13 ++ (opsC14 ++ opsC15)

/-- The whole program's operations, in order. -/
abbrev ops : List (HloOp τ sig (Elt F)) := opsP0 ++ (opsP1 ++ (opsP2 ++ (opsP3 ++ opsP4)))

/-- The fold over a concatenation is the fold over the second list from the fold over the first. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih _

/-- The fold over the whole program, piece by piece. -/
theorem after_ops (V : Valuation τ sig (Elt F)) :
    after ops V = after opsC15 (after opsC14 (after opsC13 (after opsC12 (after opsC11 (after opsC10 (after opsC9 (after opsC8 (after opsC7 (after opsC6 (after opsC5 (after opsC4 (after opsC3 (after opsC2 (after opsC1 (after opsC0 V))))))))))))))) := by
  show after ((opsC0 ++ opsC1) ++ ((opsC2 ++ (opsC3 ++ opsC4)) ++ ((opsC5 ++ (opsC6 ++ (opsC7 ++ opsC8))) ++ ((opsC9 ++ (opsC10 ++ (opsC11 ++ opsC12))) ++ ((opsC13 ++ (opsC14 ++ opsC15))))))) V = _
  simp only [after_append]

end Cert.RefSide

end
-- ==== Proof.RefRun.lean ====
/-
  The one-pass program's run: its text is the operation list run in order (window by window), so every weakly fair
  execution terminates with each buffer at the fold of the operations' results over the launch contents.
-/
import proofs.«100906_j73718818669321_2_alg».proof.Proof.RefOps

set_option Elab.async false

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem part0_eq (c : Dev nD) : main_part0 (F := F) c = seq opsP0 := rfl

set_option maxRecDepth 8192 in
set_option maxHeartbeats 4000000 in
theorem part1_eq (c : Dev nD) : main_part1 (F := F) c = seq opsP1 := rfl

set_option maxRecDepth 8192 in
set_option maxHeartbeats 4000000 in
theorem part2_eq (c : Dev nD) : main_part2 (F := F) c = seq opsP2 := rfl

set_option maxRecDepth 8192 in
set_option maxHeartbeats 4000000 in
theorem part3_eq (c : Dev nD) : main_part3 (F := F) c = seq opsP3 := rfl

set_option maxRecDepth 8192 in
set_option maxHeartbeats 4000000 in
theorem part4_eq (c : Dev nD) : main_part4 (F := F) c = seq opsP4 := rfl

theorem main_eq (c : Dev nD) : main (F := F) c = seq ops := by
  show _ = seq (opsP0 ++ (opsP1 ++ (opsP2 ++ (opsP3 ++ opsP4))))
  rw [seq_append opsP0, seq_append opsP1, seq_append opsP2, seq_append opsP3, ← part0_eq c, ← part1_eq c, ← part2_eq c, ← part3_eq c, ← part4_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem c0_sub : (opsC0 : List (HloOp τ sig (Elt F))).Forall fun op => op.bufs ⊆ tcRefs τ sig :=
  ⟨nullary_bufs_sub .., binary_bufs_sub .., unary_bufs_sub .., nullary_bufs_sub .., unary_bufs_sub .., binary_bufs_sub ..⟩
theorem c0_fresh : ∀ op ∈ (opsC0 : List (HloOp τ sig (Elt F))), op.fresh = ∅ := by
  intro _ h; (repeat (cases h with | head => rfl | tail _ h => ?_)); exact nomatch h

set_option maxRecDepth 8192 in
theorem c1_sub : (opsC1 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., binary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., unary_bufs_sub .., nullary_bufs_sub .., unary_bufs_sub .., binary_bufs_sub .., nullary_bufs_sub .., unary_bufs_sub .., binary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub ..⟩
theorem c1_fresh : ∀ op ∈ (opsC1 : List (HloOp τ sig (Elt F))), op.fresh = ∅ := by
  intro _ h; (repeat (cases h with | head => rfl | tail _ h => ?_)); exact nomatch h

set_option maxRecDepth 8192 in
theorem c2_sub : (opsC2 : List (HloOp τ sig (Elt F))).Forall fun op => op.bufs ⊆ tcRefs τ sig :=
  ⟨nullary_bufs_sub .., binary_bufs_sub .., nullary_bufs_sub .., binary_bufs_sub .., unary_bufs_sub .., unary_bufs_sub .., binary_bufs_sub .., binary_bufs_sub .., nullary_bufs_sub .., unary_bufs_sub .., binary_bufs_sub .., unary_bufs_sub .., unary_bufs_sub .., binary_bufs_sub ..⟩
theorem c2_fresh : ∀ op ∈ (opsC2 : List (HloOp τ sig (Elt F))), op.fresh = ∅ := by
  intro _ h; (repeat (cases h with | head => rfl | tail _ h => ?_)); exact nomatch h

set_option maxRecDepth 8192 in
theorem c3_sub : (opsC3 : List (HloOp τ sig (Elt F))).Forall fun op => op.bufs ⊆ tcRefs τ sig :=
  ⟨nullary_bufs_sub .., unary_bufs_sub .., binary_bufs_sub ..⟩
theorem c3_fresh : ∀ op ∈ (opsC3 : List (HloOp τ sig (Elt F))), op.fresh = ∅ := by
  intro _ h; (repeat (cases h with | head => rfl | tail _ h => ?_)); exact nomatch h

set_option maxRecDepth 8192 in
theorem c4_sub : (opsC4 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., binary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., unary_bufs_sub .., nullary_bufs_sub .., unary_bufs_sub .., binary_bufs_sub .., nullary_bufs_sub .., unary_bufs_sub .., binary_bufs_sub .., unary_bufs_sub .., binary_bufs_sub ..⟩
theorem c4_fresh : ∀ op ∈ (opsC4 : List (HloOp τ sig (Elt F))), op.fresh = ∅ := by
  intro _ h; (repeat (cases h with | head => rfl | tail _ h => ?_)); exact nomatch h

set_option maxRecDepth 8192 in
theorem c5_sub : (opsC5 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub ..⟩
theorem c5_fresh : ∀ op ∈ (opsC5 : List (HloOp τ sig (Elt F))), op.fresh = ∅ := by
  intro _ h; (repeat (cases h with | head => rfl | tail _ h => ?_)); exact nomatch h

set_option maxRecDepth 8192 in
theorem c6_sub : (opsC6 : List (HloOp τ sig (Elt F))).Forall fun op => op.bufs ⊆ tcRefs τ sig :=
  ⟨nullary_bufs_sub .., binary_bufs_sub .., nullary_bufs_sub .., binary_bufs_sub .., unary_bufs_sub .., unary_bufs_sub .., binary_bufs_sub .., binary_bufs_sub .., nullary_bufs_sub .., unary_bufs_sub .., binary_bufs_sub .., unary_bufs_sub .., unary_bufs_sub .., binary_bufs_sub ..⟩
theorem c6_fresh : ∀ op ∈ (opsC6 : List (HloOp τ sig (Elt F))), op.fresh = ∅ := by
  intro _ h; (repeat (cases h with | head => rfl | tail _ h => ?_)); exact nomatch h

set_option maxRecDepth 8192 in
theorem c7_sub : (opsC7 : List (HloOp τ sig (Elt F))).Forall fun op => op.bufs ⊆ tcRefs τ sig :=
  ⟨nullary_bufs_sub .., unary_bufs_sub .., binary_bufs_sub ..⟩
theorem c7_fresh : ∀ op ∈ (opsC7 : List (HloOp τ sig (Elt F))), op.fresh = ∅ := by
  intro _ h; (repeat (cases h with | head => rfl | tail _ h => ?_)); exact nomatch h

set_option maxRecDepth 8192 in
theorem c8_sub : (opsC8 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., binary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub ..⟩
theorem c8_fresh : ∀ op ∈ (opsC8 : List (HloOp τ sig (Elt F))), op.fresh = ∅ := by
  intro _ h; (repeat (cases h with | head => rfl | tail _ h => ?_)); exact nomatch h

set_option maxRecDepth 8192 in
theorem c9_sub : (opsC9 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub ..⟩
theorem c9_fresh : ∀ op ∈ (opsC9 : List (HloOp τ sig (Elt F))), op.fresh = ∅ := by
  intro _ h; (repeat (cases h with | head => rfl | tail _ h => ?_)); exact nomatch h

set_option maxRecDepth 8192 in
theorem c10_sub : (opsC10 : List (HloOp τ sig (Elt F))).Forall fun op => op.bufs ⊆ tcRefs τ sig :=
  ⟨nullary_bufs_sub .., binary_bufs_sub .., nullary_bufs_sub .., binary_bufs_sub .., unary_bufs_sub .., unary_bufs_sub .., binary_bufs_sub .., binary_bufs_sub .., nullary_bufs_sub .., unary_bufs_sub .., binary_bufs_sub .., unary_bufs_sub .., unary_bufs_sub .., binary_bufs_sub ..⟩
theorem c10_fresh : ∀ op ∈ (opsC10 : List (HloOp τ sig (Elt F))), op.fresh = ∅ := by
  intro _ h; (repeat (cases h with | head => rfl | tail _ h => ?_)); exact nomatch h

set_option maxRecDepth 8192 in
theorem c11_sub : (opsC11 : List (HloOp τ sig (Elt F))).Forall fun op => op.bufs ⊆ tcRefs τ sig :=
  ⟨nullary_bufs_sub .., unary_bufs_sub .., binary_bufs_sub ..⟩
theorem c11_fresh : ∀ op ∈ (opsC11 : List (HloOp τ sig (Elt F))), op.fresh = ∅ := by
  intro _ h; (repeat (cases h with | head => rfl | tail _ h => ?_)); exact nomatch h

set_option maxRecDepth 8192 in
theorem c12_sub : (opsC12 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., binary_bufs_sub .., unary_bufs_sub .., binary_bufs_sub .., binary_bufs_sub .., unary_bufs_sub .., reshape_bufs_sub .., binary_bufs_sub .., unary_bufs_sub .., reshape_bufs_sub .., unary_bufs_sub .., unary_bufs_sub ..⟩
theorem c12_fresh : ∀ op ∈ (opsC12 : List (HloOp τ sig (Elt F))), op.fresh = ∅ := by
  intro _ h; (repeat (cases h with | head => rfl | tail _ h => ?_)); exact nomatch h

set_option maxRecDepth 8192 in
theorem c13_sub : (opsC13 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., unary_bufs_sub .., nullary_bufs_sub .., unary_bufs_sub .., binary_bufs_sub .., nullary_bufs_sub .., unary_bufs_sub .., binary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub ..⟩
theorem c13_fresh : ∀ op ∈ (opsC13 : List (HloOp τ sig (Elt F))), op.fresh = ∅ := by
  intro _ h; (repeat (cases h with | head => rfl | tail _ h => ?_)); exact nomatch h

set_option maxRecDepth 8192 in
theorem c14_sub : (opsC14 : List (HloOp τ sig (Elt F))).Forall fun op => op.bufs ⊆ tcRefs τ sig :=
  ⟨nullary_bufs_sub .., binary_bufs_sub .., nullary_bufs_sub .., binary_bufs_sub .., unary_bufs_sub .., unary_bufs_sub .., binary_bufs_sub .., binary_bufs_sub .., nullary_bufs_sub .., unary_bufs_sub .., binary_bufs_sub .., unary_bufs_sub .., unary_bufs_sub .., binary_bufs_sub ..⟩
theorem c14_fresh : ∀ op ∈ (opsC14 : List (HloOp τ sig (Elt F))), op.fresh = ∅ := by
  intro _ h; (repeat (cases h with | head => rfl | tail _ h => ?_)); exact nomatch h

set_option maxRecDepth 8192 in
theorem c15_sub : (opsC15 : List (HloOp τ sig (Elt F))).Forall fun op => op.bufs ⊆ tcRefs τ sig :=
  ⟨nullary_bufs_sub .., unary_bufs_sub .., binary_bufs_sub ..⟩
theorem c15_fresh : ∀ op ∈ (opsC15 : List (HloOp τ sig (Elt F))), op.fresh = ∅ := by
  intro _ h; (repeat (cases h with | head => rfl | tail _ h => ?_)); exact nomatch h

/-- Membership in the whole list is membership in one of the sixteen pieces. -/
theorem mem_ops {op : HloOp τ sig (Elt F)} (h : op ∈ (ops : List (HloOp τ sig (Elt F)))) :
    op ∈ (opsC0 : List (HloOp τ sig (Elt F)))
    ∨ op ∈ (opsC1 : List (HloOp τ sig (Elt F)))
    ∨ op ∈ (opsC2 : List (HloOp τ sig (Elt F)))
    ∨ op ∈ (opsC3 : List (HloOp τ sig (Elt F)))
    ∨ op ∈ (opsC4 : List (HloOp τ sig (Elt F)))
    ∨ op ∈ (opsC5 : List (HloOp τ sig (Elt F)))
    ∨ op ∈ (opsC6 : List (HloOp τ sig (Elt F)))
    ∨ op ∈ (opsC7 : List (HloOp τ sig (Elt F)))
    ∨ op ∈ (opsC8 : List (HloOp τ sig (Elt F)))
    ∨ op ∈ (opsC9 : List (HloOp τ sig (Elt F)))
    ∨ op ∈ (opsC10 : List (HloOp τ sig (Elt F)))
    ∨ op ∈ (opsC11 : List (HloOp τ sig (Elt F)))
    ∨ op ∈ (opsC12 : List (HloOp τ sig (Elt F)))
    ∨ op ∈ (opsC13 : List (HloOp τ sig (Elt F)))
    ∨ op ∈ (opsC14 : List (HloOp τ sig (Elt F)))
    ∨ op ∈ (opsC15 : List (HloOp τ sig (Elt F))) := by
  have h' : op ∈ ((opsC0 ++ opsC1) ++ ((opsC2 ++ (opsC3 ++ opsC4)) ++ ((opsC5 ++ (opsC6 ++ (opsC7 ++ opsC8))) ++ ((opsC9 ++ (opsC10 ++ (opsC11 ++ opsC12))) ++ ((opsC13 ++ (opsC14 ++ opsC15)))))) : List (HloOp τ sig (Elt F))) := h
  simp only [List.mem_append] at h'
  tauto

theorem ops_sub : (ops : List (HloOp τ sig (Elt F))).Forall fun op => op.bufs ⊆ tcRefs τ sig :=
  List.forall_iff_forall_mem.2 fun op hop => by
    rcases mem_ops hop with h | h | h | h | h | h | h | h | h | h | h | h | h | h | h | h
    · exact List.forall_iff_forall_mem.1 c0_sub op h
    · exact List.forall_iff_forall_mem.1 c1_sub op h
    · exact List.forall_iff_forall_mem.1 c2_sub op h
    · exact List.forall_iff_forall_mem.1 c3_sub op h
    · exact List.forall_iff_forall_mem.1 c4_sub op h
    · exact List.forall_iff_forall_mem.1 c5_sub op h
    · exact List.forall_iff_forall_mem.1 c6_sub op h
    · exact List.forall_iff_forall_mem.1 c7_sub op h
    · exact List.forall_iff_forall_mem.1 c8_sub op h
    · exact List.forall_iff_forall_mem.1 c9_sub op h
    · exact List.forall_iff_forall_mem.1 c10_sub op h
    · exact List.forall_iff_forall_mem.1 c11_sub op h
    · exact List.forall_iff_forall_mem.1 c12_sub op h
    · exact List.forall_iff_forall_mem.1 c13_sub op h
    · exact List.forall_iff_forall_mem.1 c14_sub op h
    · exact List.forall_iff_forall_mem.1 c15_sub op h

theorem ops_fresh : ∀ op ∈ (ops : List (HloOp τ sig (Elt F))), op.fresh = ∅ := fun op hop => by
  rcases mem_ops hop with h | h | h | h | h | h | h | h | h | h | h | h | h | h | h | h
  · exact c0_fresh op h
  · exact c1_fresh op h
  · exact c2_fresh op h
  · exact c3_fresh op h
  · exact c4_fresh op h
  · exact c5_fresh op h
  · exact c6_fresh op h
  · exact c7_fresh op h
  · exact c8_fresh op h
  · exact c9_fresh op h
  · exact c10_fresh op h
  · exact c11_fresh op h
  · exact c12_fresh op h
  · exact c13_fresh op h
  · exact c14_fresh op h
  · exact c15_fresh op h

/-- Every weakly fair execution terminates, each buffer at the operations' fold over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

end Cert.RefSide

end
-- ==== Proof.RefReadDot.lean ====
/-
  The host operations of the one-pass program read at an index: a matrix product as a sum over the contracted
  coordinate (one lemma per shape).
-/
import proofs.«100906_j73718818669321_2_alg».proof.Proof.Gen.ReferenceIdeal
import Idealize.ShloMosaic.Lib.Pipeline.Value
import Idealize.ShloMosaic.Lib.ValueIdx
import Idealize.ShloMosaic.PureOps.Ideal.Laws

noncomputable section

namespace Cert.RefSide

open Cert.ReferenceIdeal Cert.ReferenceIdeal.Gen Idealize.ShloMosaic Idealize.ShloMosaic.TcCoe Idealize.SL.Sem Idealize.ShloMosaic.ValueIdx

theorem dot32768x128x64_lhs0 (i : S32768x64.Idx) (q : dot_S32768x128_S128x64_S32768x64_1_0_0_1_n_n.contr.Idx) : (dot_S32768x128_S128x64_S32768x64_1_0_0_1_n_n.lhsIdx i q 0).val = (i 0).val := by
  unfold DotDims.lhsIdx
  rw [dif_neg (show ¬(0 : Fin S32768x128.rank) ∈ dot_S32768x128_S128x64_S32768x64_1_0_0_1_n_n.lhsBatch by decide), dif_pos (show (0 : Fin S32768x128.rank) ∈ dot_S32768x128_S128x64_S32768x64_1_0_0_1_n_n.lhsNonContracting by decide)]
  rfl
theorem dot32768x128x64_lhs1 (i : S32768x64.Idx) (q : dot_S32768x128_S128x64_S32768x64_1_0_0_1_n_n.contr.Idx) : (dot_S32768x128_S128x64_S32768x64_1_0_0_1_n_n.lhsIdx i q 1).val = (q ⟨0, by decide⟩).val :=
  dot_S32768x128_S128x64_S32768x64_1_0_0_1_n_n.lhsIdx_val_of_single rfl i q
theorem dot32768x128x64_rhs0 (i : S32768x64.Idx) (q : dot_S32768x128_S128x64_S32768x64_1_0_0_1_n_n.contr.Idx) : (dot_S32768x128_S128x64_S32768x64_1_0_0_1_n_n.rhsIdx i q 0).val = (q ⟨0, by decide⟩).val :=
  dot_S32768x128_S128x64_S32768x64_1_0_0_1_n_n.rhsIdx_val_of_single rfl i q
theorem dot32768x128x64_rhs1 (i : S32768x64.Idx) (q : dot_S32768x128_S128x64_S32768x64_1_0_0_1_n_n.contr.Idx) : (dot_S32768x128_S128x64_S32768x64_1_0_0_1_n_n.rhsIdx i q 1).val = (i 1).val := by
  unfold DotDims.rhsIdx
  rw [dif_neg (show ¬(1 : Fin S128x64.rank) ∈ dot_S32768x128_S128x64_S32768x64_1_0_0_1_n_n.rhsBatch by decide), dif_pos (show (1 : Fin S128x64.rank) ∈ dot_S32768x128_S128x64_S32768x64_1_0_0_1_n_n.rhsNonContracting by decide)]
  rfl
/-- A product of a [32768, 128] by a [128, 64] array, read at (m, n): the sum over the contracted coordinate. -/
theorem dot32768x128x64_apply (l : FVec Ideal S32768x128 .f32) (r : FVec Ideal S128x64 .f32) (m : Fin 32768) (n : Fin 64) :
    Host.dotGeneral (F := Ideal) dot_S32768x128_S128x64_S32768x64_1_0_0_1_n_n none l r (ix2 m n) = ∑ k : Fin 128, l (ix2 m k) * r (ix2 k n) := by
  simp only [Host.dotGeneral]
  rw [Ideal.dotGeneral_apply, ← Equiv.sum_comp (ValueIdx.contrEquiv1 dot_S32768x128_S128x64_S32768x64_1_0_0_1_n_n 128 rfl rfl).symm]
  refine Finset.sum_congr rfl fun k _ => ?_
  have hk := ValueIdx.contrEquiv1_symm_val dot_S32768x128_S128x64_S32768x64_1_0_0_1_n_n 128 rfl rfl k
  have el : dot_S32768x128_S128x64_S32768x64_1_0_0_1_n_n.lhsIdx (ix2 m n) ((ValueIdx.contrEquiv1 dot_S32768x128_S128x64_S32768x64_1_0_0_1_n_n 128 rfl rfl).symm k) = ix2 m k := funext fun a => Fin.ext (by
    match a with
    | ⟨0, _⟩ => exact dot32768x128x64_lhs0 _ _
    | ⟨1, _⟩ => exact (dot32768x128x64_lhs1 _ _).trans hk)
  have er : dot_S32768x128_S128x64_S32768x64_1_0_0_1_n_n.rhsIdx (ix2 m n) ((ValueIdx.contrEquiv1 dot_S32768x128_S128x64_S32768x64_1_0_0_1_n_n 128 rfl rfl).symm k) = ix2 k n := funext fun a => Fin.ext (by
    match a with
    | ⟨0, _⟩ => exact (dot32768x128x64_rhs0 _ _).trans hk
    | ⟨1, _⟩ => exact dot32768x128x64_rhs1 _ _)
  rw [el, er]

theorem dot8192x128x64_lhs0 (i : S8192x64.Idx) (q : dot_S8192x128_S128x64_S8192x64_1_0_0_1_n_n.contr.Idx) : (dot_S8192x128_S128x64_S8192x64_1_0_0_1_n_n.lhsIdx i q 0).val = (i 0).val := by
  unfold DotDims.lhsIdx
  rw [dif_neg (show ¬(0 : Fin S8192x128.rank) ∈ dot_S8192x128_S128x64_S8192x64_1_0_0_1_n_n.lhsBatch by decide), dif_pos (show (0 : Fin S8192x128.rank) ∈ dot_S8192x128_S128x64_S8192x64_1_0_0_1_n_n.lhsNonContracting by decide)]
  rfl
theorem dot8192x128x64_lhs1 (i : S8192x64.Idx) (q : dot_S8192x128_S128x64_S8192x64_1_0_0_1_n_n.contr.Idx) : (dot_S8192x128_S128x64_S8192x64_1_0_0_1_n_n.lhsIdx i q 1).val = (q ⟨0, by decide⟩).val :=
  dot_S8192x128_S128x64_S8192x64_1_0_0_1_n_n.lhsIdx_val_of_single rfl i q
theorem dot8192x128x64_rhs0 (i : S8192x64.Idx) (q : dot_S8192x128_S128x64_S8192x64_1_0_0_1_n_n.contr.Idx) : (dot_S8192x128_S128x64_S8192x64_1_0_0_1_n_n.rhsIdx i q 0).val = (q ⟨0, by decide⟩).val :=
  dot_S8192x128_S128x64_S8192x64_1_0_0_1_n_n.rhsIdx_val_of_single rfl i q
theorem dot8192x128x64_rhs1 (i : S8192x64.Idx) (q : dot_S8192x128_S128x64_S8192x64_1_0_0_1_n_n.contr.Idx) : (dot_S8192x128_S128x64_S8192x64_1_0_0_1_n_n.rhsIdx i q 1).val = (i 1).val := by
  unfold DotDims.rhsIdx
  rw [dif_neg (show ¬(1 : Fin S128x64.rank) ∈ dot_S8192x128_S128x64_S8192x64_1_0_0_1_n_n.rhsBatch by decide), dif_pos (show (1 : Fin S128x64.rank) ∈ dot_S8192x128_S128x64_S8192x64_1_0_0_1_n_n.rhsNonContracting by decide)]
  rfl
/-- A product of a [8192, 128] by a [128, 64] array, read at (m, n): the sum over the contracted coordinate. -/
theorem dot8192x128x64_apply (l : FVec Ideal S8192x128 .f32) (r : FVec Ideal S128x64 .f32) (m : Fin 8192) (n : Fin 64) :
    Host.dotGeneral (F := Ideal) dot_S8192x128_S128x64_S8192x64_1_0_0_1_n_n none l r (ix2 m n) = ∑ k : Fin 128, l (ix2 m k) * r (ix2 k n) := by
  simp only [Host.dotGeneral]
  rw [Ideal.dotGeneral_apply, ← Equiv.sum_comp (ValueIdx.contrEquiv1 dot_S8192x128_S128x64_S8192x64_1_0_0_1_n_n 128 rfl rfl).symm]
  refine Finset.sum_congr rfl fun k _ => ?_
  have hk := ValueIdx.contrEquiv1_symm_val dot_S8192x128_S128x64_S8192x64_1_0_0_1_n_n 128 rfl rfl k
  have el : dot_S8192x128_S128x64_S8192x64_1_0_0_1_n_n.lhsIdx (ix2 m n) ((ValueIdx.contrEquiv1 dot_S8192x128_S128x64_S8192x64_1_0_0_1_n_n 128 rfl rfl).symm k) = ix2 m k := funext fun a => Fin.ext (by
    match a with
    | ⟨0, _⟩ => exact dot8192x128x64_lhs0 _ _
    | ⟨1, _⟩ => exact (dot8192x128x64_lhs1 _ _).trans hk)
  have er : dot_S8192x128_S128x64_S8192x64_1_0_0_1_n_n.rhsIdx (ix2 m n) ((ValueIdx.contrEquiv1 dot_S8192x128_S128x64_S8192x64_1_0_0_1_n_n 128 rfl rfl).symm k) = ix2 k n := funext fun a => Fin.ext (by
    match a with
    | ⟨0, _⟩ => exact (dot8192x128x64_rhs0 _ _).trans hk
    | ⟨1, _⟩ => exact dot8192x128x64_rhs1 _ _)
  rw [el, er]

theorem dot32768x8192x64_lhs0 (i : S32768x64.Idx) (q : dot_S32768x8192_S8192x64_S32768x64_1_0_0_1_n_n.contr.Idx) : (dot_S32768x8192_S8192x64_S32768x64_1_0_0_1_n_n.lhsIdx i q 0).val = (i 0).val := by
  unfold DotDims.lhsIdx
  rw [dif_neg (show ¬(0 : Fin S32768x8192.rank) ∈ dot_S32768x8192_S8192x64_S32768x64_1_0_0_1_n_n.lhsBatch by decide), dif_pos (show (0 : Fin S32768x8192.rank) ∈ dot_S32768x8192_S8192x64_S32768x64_1_0_0_1_n_n.lhsNonContracting by decide)]
  rfl
theorem dot32768x8192x64_lhs1 (i : S32768x64.Idx) (q : dot_S32768x8192_S8192x64_S32768x64_1_0_0_1_n_n.contr.Idx) : (dot_S32768x8192_S8192x64_S32768x64_1_0_0_1_n_n.lhsIdx i q 1).val = (q ⟨0, by decide⟩).val :=
  dot_S32768x8192_S8192x64_S32768x64_1_0_0_1_n_n.lhsIdx_val_of_single rfl i q
theorem dot32768x8192x64_rhs0 (i : S32768x64.Idx) (q : dot_S32768x8192_S8192x64_S32768x64_1_0_0_1_n_n.contr.Idx) : (dot_S32768x8192_S8192x64_S32768x64_1_0_0_1_n_n.rhsIdx i q 0).val = (q ⟨0, by decide⟩).val :=
  dot_S32768x8192_S8192x64_S32768x64_1_0_0_1_n_n.rhsIdx_val_of_single rfl i q
theorem dot32768x8192x64_rhs1 (i : S32768x64.Idx) (q : dot_S32768x8192_S8192x64_S32768x64_1_0_0_1_n_n.contr.Idx) : (dot_S32768x8192_S8192x64_S32768x64_1_0_0_1_n_n.rhsIdx i q 1).val = (i 1).val := by
  unfold DotDims.rhsIdx
  rw [dif_neg (show ¬(1 : Fin S8192x64.rank) ∈ dot_S32768x8192_S8192x64_S32768x64_1_0_0_1_n_n.rhsBatch by decide), dif_pos (show (1 : Fin S8192x64.rank) ∈ dot_S32768x8192_S8192x64_S32768x64_1_0_0_1_n_n.rhsNonContracting by decide)]
  rfl
/-- A product of a [32768, 8192] by a [8192, 64] array, read at (m, n): the sum over the contracted coordinate. -/
theorem dot32768x8192x64_apply (l : FVec Ideal S32768x8192 .f32) (r : FVec Ideal S8192x64 .f32) (m : Fin 32768) (n : Fin 64) :
    Host.dotGeneral (F := Ideal) dot_S32768x8192_S8192x64_S32768x64_1_0_0_1_n_n none l r (ix2 m n) = ∑ k : Fin 8192, l (ix2 m k) * r (ix2 k n) := by
  simp only [Host.dotGeneral]
  rw [Ideal.dotGeneral_apply, ← Equiv.sum_comp (ValueIdx.contrEquiv1 dot_S32768x8192_S8192x64_S32768x64_1_0_0_1_n_n 8192 rfl rfl).symm]
  refine Finset.sum_congr rfl fun k _ => ?_
  have hk := ValueIdx.contrEquiv1_symm_val dot_S32768x8192_S8192x64_S32768x64_1_0_0_1_n_n 8192 rfl rfl k
  have el : dot_S32768x8192_S8192x64_S32768x64_1_0_0_1_n_n.lhsIdx (ix2 m n) ((ValueIdx.contrEquiv1 dot_S32768x8192_S8192x64_S32768x64_1_0_0_1_n_n 8192 rfl rfl).symm k) = ix2 m k := funext fun a => Fin.ext (by
    match a with
    | ⟨0, _⟩ => exact dot32768x8192x64_lhs0 _ _
    | ⟨1, _⟩ => exact (dot32768x8192x64_lhs1 _ _).trans hk)
  have er : dot_S32768x8192_S8192x64_S32768x64_1_0_0_1_n_n.rhsIdx (ix2 m n) ((ValueIdx.contrEquiv1 dot_S32768x8192_S8192x64_S32768x64_1_0_0_1_n_n 8192 rfl rfl).symm k) = ix2 k n := funext fun a => Fin.ext (by
    match a with
    | ⟨0, _⟩ => exact (dot32768x8192x64_rhs0 _ _).trans hk
    | ⟨1, _⟩ => exact dot32768x8192x64_rhs1 _ _)
  rw [el, er]

theorem dot32768x64x1_lhs0 (i : S32768x1.Idx) (q : dot_S32768x64_S64x1_S32768x1_1_0_0_1_n_n.contr.Idx) : (dot_S32768x64_S64x1_S32768x1_1_0_0_1_n_n.lhsIdx i q 0).val = (i 0).val := by
  unfold DotDims.lhsIdx
  rw [dif_neg (show ¬(0 : Fin S32768x64.rank) ∈ dot_S32768x64_S64x1_S32768x1_1_0_0_1_n_n.lhsBatch by decide), dif_pos (show (0 : Fin S32768x64.rank) ∈ dot_S32768x64_S64x1_S32768x1_1_0_0_1_n_n.lhsNonContracting by decide)]
  rfl
theorem dot32768x64x1_lhs1 (i : S32768x1.Idx) (q : dot_S32768x64_S64x1_S32768x1_1_0_0_1_n_n.contr.Idx) : (dot_S32768x64_S64x1_S32768x1_1_0_0_1_n_n.lhsIdx i q 1).val = (q ⟨0, by decide⟩).val :=
  dot_S32768x64_S64x1_S32768x1_1_0_0_1_n_n.lhsIdx_val_of_single rfl i q
theorem dot32768x64x1_rhs0 (i : S32768x1.Idx) (q : dot_S32768x64_S64x1_S32768x1_1_0_0_1_n_n.contr.Idx) : (dot_S32768x64_S64x1_S32768x1_1_0_0_1_n_n.rhsIdx i q 0).val = (q ⟨0, by decide⟩).val :=
  dot_S32768x64_S64x1_S32768x1_1_0_0_1_n_n.rhsIdx_val_of_single rfl i q
theorem dot32768x64x1_rhs1 (i : S32768x1.Idx) (q : dot_S32768x64_S64x1_S32768x1_1_0_0_1_n_n.contr.Idx) : (dot_S32768x64_S64x1_S32768x1_1_0_0_1_n_n.rhsIdx i q 1).val = (i 1).val := by
  unfold DotDims.rhsIdx
  rw [dif_neg (show ¬(1 : Fin S64x1.rank) ∈ dot_S32768x64_S64x1_S32768x1_1_0_0_1_n_n.rhsBatch by decide), dif_pos (show (1 : Fin S64x1.rank) ∈ dot_S32768x64_S64x1_S32768x1_1_0_0_1_n_n.rhsNonContracting by decide)]
  rfl
/-- A product of a [32768, 64] by a [64, 1] array, read at (m, n): the sum over the contracted coordinate. -/
theorem dot32768x64x1_apply (l : FVec Ideal S32768x64 .f32) (r : FVec Ideal S64x1 .f32) (m : Fin 32768) (n : Fin 1) :
    Host.dotGeneral (F := Ideal) dot_S32768x64_S64x1_S32768x1_1_0_0_1_n_n none l r (ix2 m n) = ∑ k : Fin 64, l (ix2 m k) * r (ix2 k n) := by
  simp only [Host.dotGeneral]
  rw [Ideal.dotGeneral_apply, ← Equiv.sum_comp (ValueIdx.contrEquiv1 dot_S32768x64_S64x1_S32768x1_1_0_0_1_n_n 64 rfl rfl).symm]
  refine Finset.sum_congr rfl fun k _ => ?_
  have hk := ValueIdx.contrEquiv1_symm_val dot_S32768x64_S64x1_S32768x1_1_0_0_1_n_n 64 rfl rfl k
  have el : dot_S32768x64_S64x1_S32768x1_1_0_0_1_n_n.lhsIdx (ix2 m n) ((ValueIdx.contrEquiv1 dot_S32768x64_S64x1_S32768x1_1_0_0_1_n_n 64 rfl rfl).symm k) = ix2 m k := funext fun a => Fin.ext (by
    match a with
    | ⟨0, _⟩ => exact dot32768x64x1_lhs0 _ _
    | ⟨1, _⟩ => exact (dot32768x64x1_lhs1 _ _).trans hk)
  have er : dot_S32768x64_S64x1_S32768x1_1_0_0_1_n_n.rhsIdx (ix2 m n) ((ValueIdx.contrEquiv1 dot_S32768x64_S64x1_S32768x1_1_0_0_1_n_n 64 rfl rfl).symm k) = ix2 k n := funext fun a => Fin.ext (by
    match a with
    | ⟨0, _⟩ => exact (dot32768x64x1_rhs0 _ _).trans hk
    | ⟨1, _⟩ => exact dot32768x64x1_rhs1 _ _)
  rw [el, er]

theorem dot32768x64x128_lhs0 (i : S32768x128.Idx) (q : dot_S32768x64_S64x128_S32768x128_1_0_0_1_n_n.contr.Idx) : (dot_S32768x64_S64x128_S32768x128_1_0_0_1_n_n.lhsIdx i q 0).val = (i 0).val := by
  unfold DotDims.lhsIdx
  rw [dif_neg (show ¬(0 : Fin S32768x64.rank) ∈ dot_S32768x64_S64x128_S32768x128_1_0_0_1_n_n.lhsBatch by decide), dif_pos (show (0 : Fin S32768x64.rank) ∈ dot_S32768x64_S64x128_S32768x128_1_0_0_1_n_n.lhsNonContracting by decide)]
  rfl
theorem dot32768x64x128_lhs1 (i : S32768x128.Idx) (q : dot_S32768x64_S64x128_S32768x128_1_0_0_1_n_n.contr.Idx) : (dot_S32768x64_S64x128_S32768x128_1_0_0_1_n_n.lhsIdx i q 1).val = (q ⟨0, by decide⟩).val :=
  dot_S32768x64_S64x128_S32768x128_1_0_0_1_n_n.lhsIdx_val_of_single rfl i q
theorem dot32768x64x128_rhs0 (i : S32768x128.Idx) (q : dot_S32768x64_S64x128_S32768x128_1_0_0_1_n_n.contr.Idx) : (dot_S32768x64_S64x128_S32768x128_1_0_0_1_n_n.rhsIdx i q 0).val = (q ⟨0, by decide⟩).val :=
  dot_S32768x64_S64x128_S32768x128_1_0_0_1_n_n.rhsIdx_val_of_single rfl i q
theorem dot32768x64x128_rhs1 (i : S32768x128.Idx) (q : dot_S32768x64_S64x128_S32768x128_1_0_0_1_n_n.contr.Idx) : (dot_S32768x64_S64x128_S32768x128_1_0_0_1_n_n.rhsIdx i q 1).val = (i 1).val := by
  unfold DotDims.rhsIdx
  rw [dif_neg (show ¬(1 : Fin S64x128.rank) ∈ dot_S32768x64_S64x128_S32768x128_1_0_0_1_n_n.rhsBatch by decide), dif_pos (show (1 : Fin S64x128.rank) ∈ dot_S32768x64_S64x128_S32768x128_1_0_0_1_n_n.rhsNonContracting by decide)]
  rfl
/-- A product of a [32768, 64] by a [64, 128] array, read at (m, n): the sum over the contracted coordinate. -/
theorem dot32768x64x128_apply (l : FVec Ideal S32768x64 .f32) (r : FVec Ideal S64x128 .f32) (m : Fin 32768) (n : Fin 128) :
    Host.dotGeneral (F := Ideal) dot_S32768x64_S64x128_S32768x128_1_0_0_1_n_n none l r (ix2 m n) = ∑ k : Fin 64, l (ix2 m k) * r (ix2 k n) := by
  simp only [Host.dotGeneral]
  rw [Ideal.dotGeneral_apply, ← Equiv.sum_comp (ValueIdx.contrEquiv1 dot_S32768x64_S64x128_S32768x128_1_0_0_1_n_n 64 rfl rfl).symm]
  refine Finset.sum_congr rfl fun k _ => ?_
  have hk := ValueIdx.contrEquiv1_symm_val dot_S32768x64_S64x128_S32768x128_1_0_0_1_n_n 64 rfl rfl k
  have el : dot_S32768x64_S64x128_S32768x128_1_0_0_1_n_n.lhsIdx (ix2 m n) ((ValueIdx.contrEquiv1 dot_S32768x64_S64x128_S32768x128_1_0_0_1_n_n 64 rfl rfl).symm k) = ix2 m k := funext fun a => Fin.ext (by
    match a with
    | ⟨0, _⟩ => exact dot32768x64x128_lhs0 _ _
    | ⟨1, _⟩ => exact (dot32768x64x128_lhs1 _ _).trans hk)
  have er : dot_S32768x64_S64x128_S32768x128_1_0_0_1_n_n.rhsIdx (ix2 m n) ((ValueIdx.contrEquiv1 dot_S32768x64_S64x128_S32768x128_1_0_0_1_n_n 64 rfl rfl).symm k) = ix2 k n := funext fun a => Fin.ext (by
    match a with
    | ⟨0, _⟩ => exact (dot32768x64x128_rhs0 _ _).trans hk
    | ⟨1, _⟩ => exact dot32768x64x128_rhs1 _ _)
  rw [el, er]

end Cert.RefSide

end
-- ==== Proof.RefReadLayout.lean ====
/-
  The layout operations of the one-pass program read at an index: a head's slab of a stacked weight array, a head's
  bias row broadcast down the rows, a column broadcast across a row, a constant broadcast, a row broadcast down the rows.
-/
import proofs.«100906_j73718818669321_2_alg».proof.Proof.Gen.ReferenceIdeal
import Idealize.ShloMosaic.Lib.Pipeline.Value
import Idealize.ShloMosaic.Lib.ValueIdx
import Idealize.ShloMosaic.PureOps.Ideal.Laws

noncomputable section

namespace Cert.RefSide

open Cert.ReferenceIdeal Cert.ReferenceIdeal.Gen Idealize.ShloMosaic Idealize.ShloMosaic.TcCoe Idealize.SL.Sem Idealize.ShloMosaic.ValueIdx

/-- Head `h`'s [128, 64] slab of a stacked [4, 128, 64] array, read at (a, b). -/
theorem weight128x64_apply (h : Nat) (hh : h < 4) (x : FVec Ideal S4x128x64 .f32) (hs : S4x128x64.Slices ![h, 0, 0] S1x128x64) (a : Fin 128) (b : Fin 64) :
    shapeCast S128x64 (extractStridedSlice S1x128x64 ![h, 0, 0] x hs) shapeCasts_S1x128x64_S128x64 (ix2 a b) = x (ix3 (⟨h, hh⟩ : Fin 4) a b) := by
  refine (shapeCast_apply _ shapeCasts_S1x128x64_S128x64 (ix2 a b) (ix3 (0 : Fin 1) a b) ?_).trans ?_
  · rewrite [Shape.rowMajor_val_three, Shape.rowMajor_val_two]
    show (0 * 128 + a.val) * 64 + b.val = a.val * 64 + b.val
    omega
  · exact extractStridedSlice_apply ![h, 0, 0] x hs (ix3 (0 : Fin 1) a b) (ix3 (⟨h, hh⟩ : Fin 4) a b) (fun c => match c with
      | ⟨0, _⟩ => by show h = h + 0; omega
      | ⟨1, _⟩ => by show a.val = 0 + a.val; omega
      | ⟨2, _⟩ => by show b.val = 0 + b.val; omega)

/-- Head `h`'s [64, 1] slab of a stacked [4, 64, 1] array, read at (a, b). -/
theorem weight64x1_apply (h : Nat) (hh : h < 4) (x : FVec Ideal S4x64x1 .f32) (hs : S4x64x1.Slices ![h, 0, 0] S1x64x1) (a : Fin 64) (b : Fin 1) :
    shapeCast S64x1 (extractStridedSlice S1x64x1 ![h, 0, 0] x hs) shapeCasts_S1x64x1_S64x1 (ix2 a b) = x (ix3 (⟨h, hh⟩ : Fin 4) a b) := by
  refine (shapeCast_apply _ shapeCasts_S1x64x1_S64x1 (ix2 a b) (ix3 (0 : Fin 1) a b) ?_).trans ?_
  · rewrite [Shape.rowMajor_val_three, Shape.rowMajor_val_two]
    show (0 * 64 + a.val) * 1 + b.val = a.val * 1 + b.val
    omega
  · exact extractStridedSlice_apply ![h, 0, 0] x hs (ix3 (0 : Fin 1) a b) (ix3 (⟨h, hh⟩ : Fin 4) a b) (fun c => match c with
      | ⟨0, _⟩ => by show h = h + 0; omega
      | ⟨1, _⟩ => by show a.val = 0 + a.val; omega
      | ⟨2, _⟩ => by show b.val = 0 + b.val; omega)

/-- Head `h`'s [64, 128] slab of a stacked [4, 64, 128] array, read at (a, b). -/
theorem weight64x128_apply (h : Nat) (hh : h < 4) (x : FVec Ideal S4x64x128 .f32) (hs : S4x64x128.Slices ![h, 0, 0] S1x64x128) (a : Fin 64) (b : Fin 128) :
    shapeCast S64x128 (extractStridedSlice S1x64x128 ![h, 0, 0] x hs) shapeCasts_S1x64x128_S64x128 (ix2 a b) = x (ix3 (⟨h, hh⟩ : Fin 4) a b) := by
  refine (shapeCast_apply _ shapeCasts_S1x64x128_S64x128 (ix2 a b) (ix3 (0 : Fin 1) a b) ?_).trans ?_
  · rewrite [Shape.rowMajor_val_three, Shape.rowMajor_val_two]
    show (0 * 64 + a.val) * 128 + b.val = a.val * 128 + b.val
    omega
  · exact extractStridedSlice_apply ![h, 0, 0] x hs (ix3 (0 : Fin 1) a b) (ix3 (⟨h, hh⟩ : Fin 4) a b) (fun c => match c with
      | ⟨0, _⟩ => by show h = h + 0; omega
      | ⟨1, _⟩ => by show a.val = 0 + a.val; omega
      | ⟨2, _⟩ => by show b.val = 0 + b.val; omega)

/-- Head `h`'s row of a stacked [4, 64] array broadcast down 32768 rows, read at (m, b). -/
theorem bias32768x64_apply (h : Nat) (hh : h < 4) (x : FVec Ideal S4x64 .f32) (hs : S4x64.Slices ![h, 0] S1x64) (m : Fin 32768) (b : Fin 64) :
    broadcastInDim S32768x64 ![0, 1] bcast_S1x64_S32768x64_0_1 (broadcastInDim S1x64 ![1] bcast_S64_S1x64_1
      (shapeCast S64 (extractStridedSlice S1x64 ![h, 0] x hs) shapeCasts_S1x64_S64)) (ix2 m b) = x (ix2 (⟨h, hh⟩ : Fin 4) b) := by
  refine (broadcastInDim_apply _ bcast_S1x64_S32768x64_0_1 _ (ix2 m b) (ix2 (0 : Fin 1) b) (fun a => match a with
    | ⟨0, _⟩ => by show 0 = if (1 : Nat) = 1 then 0 else m.val; rw [if_pos rfl]
    | ⟨1, _⟩ => by show b.val = if (64 : Nat) = 1 then 0 else b.val; rw [if_neg (by decide)])).trans ?_
  refine (broadcastInDim_apply _ bcast_S64_S1x64_1 _ (ix2 (0 : Fin 1) b) (ix1 b) (fun a => match a with
    | ⟨0, _⟩ => by show b.val = if (64 : Nat) = 1 then 0 else b.val; rw [if_neg (by decide)])).trans ?_
  refine (shapeCast_apply _ shapeCasts_S1x64_S64 (ix1 b) (ix2 (0 : Fin 1) b) ?_).trans ?_
  · rewrite [Shape.rowMajor_val_two, Shape.rowMajor_val_one]
    show 0 * 64 + b.val = b.val
    omega
  · exact extractStridedSlice_apply ![h, 0] x hs (ix2 (0 : Fin 1) b) (ix2 (⟨h, hh⟩ : Fin 4) b) (fun c => match c with
      | ⟨0, _⟩ => by show h = h + 0; omega
      | ⟨1, _⟩ => by show b.val = 0 + b.val; omega)

/-- Head `h`'s row of a stacked [4, 64] array broadcast down 8192 rows, read at (m, b). -/
theorem bias8192x64_apply (h : Nat) (hh : h < 4) (x : FVec Ideal S4x64 .f32) (hs : S4x64.Slices ![h, 0] S1x64) (m : Fin 8192) (b : Fin 64) :
    broadcastInDim S8192x64 ![0, 1] bcast_S1x64_S8192x64_0_1 (broadcastInDim S1x64 ![1] bcast_S64_S1x64_1
      (shapeCast S64 (extractStridedSlice S1x64 ![h, 0] x hs) shapeCasts_S1x64_S64)) (ix2 m b) = x (ix2 (⟨h, hh⟩ : Fin 4) b) := by
  refine (broadcastInDim_apply _ bcast_S1x64_S8192x64_0_1 _ (ix2 m b) (ix2 (0 : Fin 1) b) (fun a => match a with
    | ⟨0, _⟩ => by show 0 = if (1 : Nat) = 1 then 0 else m.val; rw [if_pos rfl]
    | ⟨1, _⟩ => by show b.val = if (64 : Nat) = 1 then 0 else b.val; rw [if_neg (by decide)])).trans ?_
  refine (broadcastInDim_apply _ bcast_S64_S1x64_1 _ (ix2 (0 : Fin 1) b) (ix1 b) (fun a => match a with
    | ⟨0, _⟩ => by show b.val = if (64 : Nat) = 1 then 0 else b.val; rw [if_neg (by decide)])).trans ?_
  refine (shapeCast_apply _ shapeCasts_S1x64_S64 (ix1 b) (ix2 (0 : Fin 1) b) ?_).trans ?_
  · rewrite [Shape.rowMajor_val_two, Shape.rowMajor_val_one]
    show 0 * 64 + b.val = b.val
    omega
  · exact extractStridedSlice_apply ![h, 0] x hs (ix2 (0 : Fin 1) b) (ix2 (⟨h, hh⟩ : Fin 4) b) (fun c => match c with
      | ⟨0, _⟩ => by show h = h + 0; omega
      | ⟨1, _⟩ => by show b.val = 0 + b.val; omega)

/-- Head `h`'s row of a stacked [4, 1] array broadcast down 32768 rows, read at (m, b). -/
theorem bias32768x1_apply (h : Nat) (hh : h < 4) (x : FVec Ideal S4x1 .f32) (hs : S4x1.Slices ![h, 0] S1x1) (m : Fin 32768) (b : Fin 1) :
    broadcastInDim S32768x1 ![0, 1] bcast_S1x1_S32768x1_0_1 (broadcastInDim S1x1 ![1] bcast_S1_S1x1_1
      (shapeCast S1 (extractStridedSlice S1x1 ![h, 0] x hs) shapeCasts_S1x1_S1)) (ix2 m b) = x (ix2 (⟨h, hh⟩ : Fin 4) b) := by
  refine (broadcastInDim_apply _ bcast_S1x1_S32768x1_0_1 _ (ix2 m b) (ix2 (0 : Fin 1) b) (fun a => match a with
    | ⟨0, _⟩ => by show 0 = if (1 : Nat) = 1 then 0 else m.val; rw [if_pos rfl]
    | ⟨1, _⟩ => by have := b.isLt; show b.val = if (1 : Nat) = 1 then 0 else b.val; rw [if_pos rfl]; omega)).trans ?_
  refine (broadcastInDim_apply _ bcast_S1_S1x1_1 _ (ix2 (0 : Fin 1) b) (ix1 b) (fun a => match a with
    | ⟨0, _⟩ => by have := b.isLt; show b.val = if (1 : Nat) = 1 then 0 else b.val; rw [if_pos rfl]; omega)).trans ?_
  refine (shapeCast_apply _ shapeCasts_S1x1_S1 (ix1 b) (ix2 (0 : Fin 1) b) ?_).trans ?_
  · rewrite [Shape.rowMajor_val_two, Shape.rowMajor_val_one]
    show 0 * 1 + b.val = b.val
    omega
  · exact extractStridedSlice_apply ![h, 0] x hs (ix2 (0 : Fin 1) b) (ix2 (⟨h, hh⟩ : Fin 4) b) (fun c => match c with
      | ⟨0, _⟩ => by show h = h + 0; omega
      | ⟨1, _⟩ => by show b.val = 0 + b.val; omega)

/-- Head `h`'s row of a stacked [4, 128] array broadcast down 32768 rows, read at (m, b). -/
theorem bias32768x128_apply (h : Nat) (hh : h < 4) (x : FVec Ideal S4x128 .f32) (hs : S4x128.Slices ![h, 0] S1x128) (m : Fin 32768) (b : Fin 128) :
    broadcastInDim S32768x128 ![0, 1] bcast_S1x128_S32768x128_0_1 (broadcastInDim S1x128 ![1] bcast_S128_S1x128_1
      (shapeCast S128 (extractStridedSlice S1x128 ![h, 0] x hs) shapeCasts_S1x128_S128)) (ix2 m b) = x (ix2 (⟨h, hh⟩ : Fin 4) b) := by
  refine (broadcastInDim_apply _ bcast_S1x128_S32768x128_0_1 _ (ix2 m b) (ix2 (0 : Fin 1) b) (fun a => match a with
    | ⟨0, _⟩ => by show 0 = if (1 : Nat) = 1 then 0 else m.val; rw [if_pos rfl]
    | ⟨1, _⟩ => by show b.val = if (128 : Nat) = 1 then 0 else b.val; rw [if_neg (by decide)])).trans ?_
  refine (broadcastInDim_apply _ bcast_S128_S1x128_1 _ (ix2 (0 : Fin 1) b) (ix1 b) (fun a => match a with
    | ⟨0, _⟩ => by show b.val = if (128 : Nat) = 1 then 0 else b.val; rw [if_neg (by decide)])).trans ?_
  refine (shapeCast_apply _ shapeCasts_S1x128_S128 (ix1 b) (ix2 (0 : Fin 1) b) ?_).trans ?_
  · rewrite [Shape.rowMajor_val_two, Shape.rowMajor_val_one]
    show 0 * 128 + b.val = b.val
    omega
  · exact extractStridedSlice_apply ![h, 0] x hs (ix2 (0 : Fin 1) b) (ix2 (⟨h, hh⟩ : Fin 4) b) (fun c => match c with
      | ⟨0, _⟩ => by show h = h + 0; omega
      | ⟨1, _⟩ => by show b.val = 0 + b.val; omega)

/-- A constant broadcast to S32768x1, read anywhere. -/
theorem splatS32768x1_apply (w : BitVec 32) (i : S32768x1.Idx) :
    broadcastInDim S32768x1 ![] bcast_S_S32768x1 (constant (F := Ideal) S_ .f32 w) i = Ideal.ofBits .f32 w :=
  broadcastInDim_apply _ bcast_S_S32768x1 (constant (F := Ideal) S_ .f32 w) i ix0 (fun a => a.elim0)

/-- A constant broadcast to S128, read anywhere. -/
theorem splatS128_apply (w : BitVec 32) (i : S128.Idx) :
    broadcastInDim S128 ![] bcast_S_S128 (constant (F := Ideal) S_ .f32 w) i = Ideal.ofBits .f32 w :=
  broadcastInDim_apply _ bcast_S_S128 (constant (F := Ideal) S_ .f32 w) i ix0 (fun a => a.elim0)

/-- A constant broadcast to S32768x128, read anywhere. -/
theorem splatS32768x128_apply (w : BitVec 32) (i : S32768x128.Idx) :
    broadcastInDim S32768x128 ![] bcast_S_S32768x128 (constant (F := Ideal) S_ .f32 w) i = Ideal.ofBits .f32 w :=
  broadcastInDim_apply _ bcast_S_S32768x128 (constant (F := Ideal) S_ .f32 w) i ix0 (fun a => a.elim0)

/-- A column [32768, 1] broadcast across 64 columns, read at (n, j). -/
theorem colBcast_apply (g : FVec Ideal S32768x1 .f32) (n : Fin 32768) (j : Fin 64) :
    broadcastInDim S32768x64 ![0, 1] bcast_S32768x1_S32768x64_0_1 g (ix2 n j) = g (ix2 n (0 : Fin 1)) :=
  broadcastInDim_apply _ bcast_S32768x1_S32768x64_0_1 g (ix2 n j) (ix2 n (0 : Fin 1)) (fun a => match a with
    | ⟨0, _⟩ => by show n.val = if (32768 : Nat) = 1 then 0 else n.val; rw [if_neg (by decide)]
    | ⟨1, _⟩ => by show 0 = if (1 : Nat) = 1 then 0 else j.val; rw [if_pos rfl])

/-- A vector of 128 entries as a row broadcast down 32768 rows, read at (n, c). -/
theorem rowBcast_apply (v : FVec Ideal S128 .f32) (n : Fin 32768) (c : Fin 128) :
    broadcastInDim S32768x128 ![0, 1] bcast_S1x128_S32768x128_0_1 (broadcastInDim S1x128 ![1] bcast_S128_S1x128_1 v) (ix2 n c) = v (ix1 c) := by
  refine (broadcastInDim_apply _ bcast_S1x128_S32768x128_0_1 _ (ix2 n c) (ix2 (0 : Fin 1) c) (fun a => match a with
    | ⟨0, _⟩ => by show 0 = if (1 : Nat) = 1 then 0 else n.val; rw [if_pos rfl]
    | ⟨1, _⟩ => by show c.val = if (128 : Nat) = 1 then 0 else c.val; rw [if_neg (by decide)])).trans ?_
  exact broadcastInDim_apply _ bcast_S128_S1x128_1 v (ix2 (0 : Fin 1) c) (ix1 c) (fun a => match a with
    | ⟨0, _⟩ => by show c.val = if (128 : Nat) = 1 then 0 else c.val; rw [if_neg (by decide)])

/-- A vector of 32768 entries as a column, read at (n, 0). -/
theorem degBcast_apply (v : FVec Ideal S32768 .f32) (n : Fin 32768) :
    broadcastInDim S32768x1 ![0] bcast_S32768_S32768x1_0 v (ix2 n (0 : Fin 1)) = v (ix1 n) :=
  broadcastInDim_apply _ bcast_S32768_S32768x1_0 v (ix2 n (0 : Fin 1)) (ix1 n) (fun a => match a with
    | ⟨0, _⟩ => by show n.val = if (32768 : Nat) = 1 then 0 else n.val; rw [if_neg (by decide)])

end Cert.RefSide

end
-- ==== Proof.RefReadReduce.lean ====
/-
  The reductions of the one-pass program read at an index: a row sum of the incidence array, and a column minimum and
  maximum over all rows as an infimum and a supremum in the extended reals. Also the three literals 1, +∞, −∞.
-/
import proofs.«100906_j73718818669321_2_alg».proof.Proof.Gen.ReferenceIdeal
import Idealize.ShloMosaic.Lib.Pipeline.Value
import Idealize.ShloMosaic.Lib.ValueIdx
import Idealize.ShloMosaic.PureOps.Ideal.Laws

noncomputable section

namespace Cert.RefSide

open Cert.ReferenceIdeal Cert.ReferenceIdeal.Gen Idealize.ShloMosaic Idealize.ShloMosaic.TcCoe Idealize.SL.Sem Idealize.ShloMosaic.ValueIdx

theorem ofBits_one_f32 : Ideal.ofBits .f32 0x3F800000#32 = 1 := by
  simp [Ideal.ofBits, Ideal.ieee]
  rw [← EReal.coe_mul, ← EReal.coe_one]
  exact congrArg _ (by norm_num)
theorem ofBits_posInf_f32 : Ideal.ofBits .f32 0x7F800000#32 = ⊤ := by simp [Ideal.ofBits, Ideal.ieee]
theorem ofBits_negInf_f32 : Ideal.ofBits .f32 0xFF800000#32 = ⊥ := by simp [Ideal.ofBits, Ideal.ieee]

/-- A row sum of a [32768, 8192] array from the zero literal. -/
theorem rowSum_apply (x1 : FVec Ideal S32768x8192 .f32) (n : Fin 32768) :
    Host.reduceAdd (F := Ideal) x1 (constant (F := Ideal) S_ .f32 0x00000000#32) reducesTo_S32768x8192_S32768_d1 h_S_ (ix1 n)
      = ∑ e : Fin 8192, x1 (ix2 n e) := by
  have e : Host.reduceAdd (F := Ideal) x1 (constant (F := Ideal) S_ .f32 0x00000000#32) reducesTo_S32768x8192_S32768_d1 h_S_ (ix1 n)
      = Ideal.ofBits .f32 0x00000000#32 + ∑ e : Fin 8192, x1 (ix2 n e) := by
    simp only [Host.reduceAdd, Ideal.hostReduceAdd_def]
    rw [Ideal.hostReduceAdd_single reducesTo_S32768x8192_S32768_d1 (by decide)]
    refine congrArg (_ + ·) (Finset.sum_congr rfl fun k _ => ?_)
    exact congrArg x1 (funext fun a => Fin.ext (by match a with | ⟨0, _⟩ => rfl | ⟨1, _⟩ => rfl))
  rw [e, Ideal.ofBits_zero_f32, zero_add]

/-- A fold of `min` from +∞ over a finite type is the infimum. -/
theorem fold_min_top {ι : Type} [Fintype ι] (f : ι → EReal) : (Finset.univ : Finset ι).fold min ⊤ f = ⨅ k, f k := by
  apply le_antisymm
  · exact le_iInf fun k => (Finset.fold_min_le _).2 (Or.inr ⟨k, Finset.mem_univ _, le_rfl⟩)
  · exact (Finset.le_fold_min _).2 ⟨le_top, fun k _ => iInf_le _ k⟩

/-- A fold of `max` from −∞ over a finite type is the supremum. -/
theorem fold_max_bot {ι : Type} [Fintype ι] (f : ι → EReal) : (Finset.univ : Finset ι).fold max ⊥ f = ⨆ k, f k := by
  apply le_antisymm
  · exact (Finset.fold_max_le _).2 ⟨bot_le, fun k _ => le_iSup _ k⟩
  · exact iSup_le fun k => (Finset.le_fold_max _).2 (Or.inr ⟨k, Finset.mem_univ _, le_rfl⟩)

/-- The reduced index `c` with row `k` put back is (k, c). -/
theorem lift_rows (h : S32768x128.Reduces [0] S128) (c : Fin 128) (k : Fin (S32768x128.size 0)) :
    h.lift (ix1 c) k = ix2 (⟨k.val, k.isLt⟩ : Fin 32768) c := by
  funext a; apply Fin.ext
  fin_cases a <;> rfl

/-- The column minimum over all 32768 rows, from +∞. -/
theorem colMin_apply (x : FVec Ideal S32768x128 .f32) (c : Fin 128) :
    Host.reduce FloatOps.minimumf x (constant (F := Ideal) S_ .f32 0x7F800000#32) reducesTo_S32768x128_S128_d0 h_S_ (ix1 c)
      = ⨅ n : Fin 32768, x (ix2 n c) := by
  have h : S32768x128.Reduces [0] S128 := by decide
  rw [Host.reduce_eq_fold_single FloatOps.minimumf x _ reducesTo_S32768x128_S128_d0 h h_S_]
  have hf : (x ∘ h.lift (ix1 c)) = fun k : Fin (S32768x128.size 0) => x (ix2 (⟨k.val, k.isLt⟩ : Fin 32768) c) :=
    funext fun k => congrArg x (lift_rows h c k)
  rw [hf]
  show (Finset.univ : Finset (Fin 32768)).fold min (Ideal.ofBits .f32 0x7F800000#32) (fun k => x (ix2 k c)) = _
  rw [ofBits_posInf_f32]
  exact fold_min_top _

/-- The column maximum over all 32768 rows, from −∞. -/
theorem colMax_apply (x : FVec Ideal S32768x128 .f32) (c : Fin 128) :
    Host.reduce FloatOps.maximumf x (constant (F := Ideal) S_ .f32 0xFF800000#32) reducesTo_S32768x128_S128_d0 h_S_ (ix1 c)
      = ⨆ n : Fin 32768, x (ix2 n c) := by
  have h : S32768x128.Reduces [0] S128 := by decide
  rw [Host.reduce_eq_fold_single FloatOps.maximumf x _ reducesTo_S32768x128_S128_d0 h h_S_]
  have hf : (x ∘ h.lift (ix1 c)) = fun k : Fin (S32768x128.size 0) => x (ix2 (⟨k.val, k.isLt⟩ : Fin 32768) c) :=
    funext fun k => congrArg x (lift_rows h c k)
  rw [hf]
  show (Finset.univ : Finset (Fin 32768)).fold max (Ideal.ofBits .f32 0xFF800000#32) (fun k => x (ix2 k c)) = _
  rw [ofBits_negInf_f32]
  exact fold_max_bot _

end Cert.RefSide

end
-- ==== Proof.RefHead.lean ====
/-
  One head of the one-pass program as the host operations compute it, stage by stage, each stage read at an index:
  node transform, edge transform, aggregate (a product with the incidence array divided by the degree column), score,
  gate (the logistic function of the leaky score, spelt 1 / (1 + exp (−·))), gated residual, output product, and the
  column-wise min-max normalisation clipped at zero. Read at (n, c) a head's output is `Spec.normAll (Spec.pre1 …)`.
-/
import proofs.«100906_j73718818669321_2_alg».proof.Proof.SpecArgs
import proofs.«100906_j73718818669321_2_alg».proof.Proof.RefReadDot
import proofs.«100906_j73718818669321_2_alg».proof.Proof.RefReadLayout
import proofs.«100906_j73718818669321_2_alg».proof.Proof.RefReadReduce

noncomputable section

namespace Cert.RefSide

open Cert.ReferenceIdeal Cert.ReferenceIdeal.Gen Idealize.ShloMosaic Idealize.ShloMosaic.TcCoe Idealize.SL.Sem Idealize.ShloMosaic.ValueIdx

theorem hdivf_apply {s : Shape} (a b : FVec Ideal s .f32) (i : s.Idx) : Host.divf a b i = Ideal.div (a i) (b i) := rfl
theorem hexp_apply {s : Shape} (a : FVec Ideal s .f32) (i : s.Idx) : Host.exp a i = Ideal.exp (a i) := rfl
theorem hnegf_apply {s : Shape} (a : FVec Ideal s .f32) (i : s.Idx) : Host.negf a i = -(a i) := rfl

/-! ## The stages as the operations spell them -/

/-- The degree column: the incidence array's row sums plus ε. -/
def degOps (x1 : FVec Ideal S32768x8192 .f32) : FVec Ideal S32768x1 .f32 :=
  addf (broadcastInDim S32768x1 ![0] bcast_S32768_S32768x1_0 (Host.reduceAdd x1 (constant S_ .f32 0x00000000#32) reducesTo_S32768x8192_S32768_d1 h_S_))
    (broadcastInDim S32768x1 ![] bcast_S_S32768x1 (constant S_ .f32 0x322BCC77#32))

section Head
variable (h : Nat)
  (s3 : S4x128x64.Slices ![h, 0, 0] S1x128x64) (s4 : S4x64.Slices ![h, 0] S1x64)
  (s5 : S4x128x64.Slices ![h, 0, 0] S1x128x64) (s6 : S4x64.Slices ![h, 0] S1x64)
  (s7 : S4x64x1.Slices ![h, 0, 0] S1x64x1) (s8 : S4x1.Slices ![h, 0] S1x1)
  (s9 : S4x64x128.Slices ![h, 0, 0] S1x64x128) (s10 : S4x128.Slices ![h, 0] S1x128)

/-- The node transform `x · nodeW[h] + nodeB[h]`. -/
def tnOps (x : FVec Ideal S32768x128 .f32) (x3 : FVec Ideal S4x128x64 .f32) (x4 : FVec Ideal S4x64 .f32) : FVec Ideal S32768x64 .f32 :=
  addf (Host.dotGeneral dot_S32768x128_S128x64_S32768x64_1_0_0_1_n_n none x (shapeCast S128x64 (extractStridedSlice S1x128x64 ![h, 0, 0] x3 s3) shapeCasts_S1x128x64_S128x64)) (broadcastInDim S32768x64 ![0, 1] bcast_S1x64_S32768x64_0_1 (broadcastInDim S1x64 ![1] bcast_S64_S1x64_1 (shapeCast S64 (extractStridedSlice S1x64 ![h, 0] x4 s4) shapeCasts_S1x64_S64)))

/-- The edge transform `ef · edgeW[h] + edgeB[h]`. -/
def teOps (x2 : FVec Ideal S8192x128 .f32) (x5 : FVec Ideal S4x128x64 .f32) (x6 : FVec Ideal S4x64 .f32) : FVec Ideal S8192x64 .f32 :=
  addf (Host.dotGeneral dot_S8192x128_S128x64_S8192x64_1_0_0_1_n_n none x2 (shapeCast S128x64 (extractStridedSlice S1x128x64 ![h, 0, 0] x5 s5) shapeCasts_S1x128x64_S128x64)) (broadcastInDim S8192x64 ![0, 1] bcast_S1x64_S8192x64_0_1 (broadcastInDim S1x64 ![1] bcast_S64_S1x64_1 (shapeCast S64 (extractStridedSlice S1x64 ![h, 0] x6 s6) shapeCasts_S1x64_S64)))

/-- The aggregate `(inc · te) / deg`. -/
def aggOps (x1 : FVec Ideal S32768x8192 .f32) (te : FVec Ideal S8192x64 .f32) (deg : FVec Ideal S32768x1 .f32) : FVec Ideal S32768x64 .f32 :=
  Host.divf (Host.dotGeneral dot_S32768x8192_S8192x64_S32768x64_1_0_0_1_n_n none x1 te) (broadcastInDim S32768x64 ![0, 1] bcast_S32768x1_S32768x64_0_1 deg)

/-- The score `(tn + agg) · attnW[h] + attnB[h]`. -/
def scoreOps (tn agg : FVec Ideal S32768x64 .f32) (x7 : FVec Ideal S4x64x1 .f32) (x8 : FVec Ideal S4x1 .f32) : FVec Ideal S32768x1 .f32 :=
  addf (Host.dotGeneral dot_S32768x64_S64x1_S32768x1_1_0_0_1_n_n none (addf tn agg) (shapeCast S64x1 (extractStridedSlice S1x64x1 ![h, 0, 0] x7 s7) shapeCasts_S1x64x1_S64x1)) (broadcastInDim S32768x1 ![0, 1] bcast_S1x1_S32768x1_0_1 (broadcastInDim S1x1 ![1] bcast_S1_S1x1_1 (shapeCast S1 (extractStridedSlice S1x1 ![h, 0] x8 s8) shapeCasts_S1x1_S1)))

/-- The gate `1 / (1 + exp (−where(s ≥ 0, s, 0.2 · s)))`. -/
def gateOps (s : FVec Ideal S32768x1 .f32) : FVec Ideal S32768x1 .f32 :=
  Host.divf (broadcastInDim S32768x1 ![] bcast_S_S32768x1 (constant S_ .f32 0x3F800000#32)) (addf (broadcastInDim S32768x1 ![] bcast_S_S32768x1 (constant S_ .f32 0x3F800000#32))
    (Host.exp (Host.negf (select (cmpf .oge s (broadcastInDim S32768x1 ![] bcast_S_S32768x1 (constant S_ .f32 0x00000000#32))) s (mulf (broadcastInDim S32768x1 ![] bcast_S_S32768x1 (constant S_ .f32 0x3E4CCCCD#32)) s)))))

/-- The gated residual `gate · agg + tn`. -/
def updOps (gate : FVec Ideal S32768x1 .f32) (agg tn : FVec Ideal S32768x64 .f32) : FVec Ideal S32768x64 .f32 :=
  addf (mulf (broadcastInDim S32768x64 ![0, 1] bcast_S32768x1_S32768x64_0_1 gate) agg) tn

/-- The output product `upd · outW[h] + outB[h]`. -/
def preOps (upd : FVec Ideal S32768x64 .f32) (x9 : FVec Ideal S4x64x128 .f32) (x10 : FVec Ideal S4x128 .f32) : FVec Ideal S32768x128 .f32 :=
  addf (Host.dotGeneral dot_S32768x64_S64x128_S32768x128_1_0_0_1_n_n none upd (shapeCast S64x128 (extractStridedSlice S1x64x128 ![h, 0, 0] x9 s9) shapeCasts_S1x64x128_S64x128)) (broadcastInDim S32768x128 ![0, 1] bcast_S1x128_S32768x128_0_1 (broadcastInDim S1x128 ![1] bcast_S128_S1x128_1 (shapeCast S128 (extractStridedSlice S1x128 ![h, 0] x10 s10) shapeCasts_S1x128_S128)))

/-- The column-wise min-max normalisation `(pre − min) / (max − min + ε)`. -/
def normDivOps (pre : FVec Ideal S32768x128 .f32) : FVec Ideal S32768x128 .f32 :=
  Host.divf (subf pre (broadcastInDim S32768x128 ![0, 1] bcast_S1x128_S32768x128_0_1 (broadcastInDim S1x128 ![1] bcast_S128_S1x128_1 (Host.reduce FloatOps.minimumf pre (constant S_ .f32 0x7F800000#32) reducesTo_S32768x128_S128_d0 h_S_))))
    (broadcastInDim S32768x128 ![0, 1] bcast_S1x128_S32768x128_0_1 (broadcastInDim S1x128 ![1] bcast_S128_S1x128_1 (addf (subf (Host.reduce FloatOps.maximumf pre (constant S_ .f32 0xFF800000#32) reducesTo_S32768x128_S128_d0 h_S_) (Host.reduce FloatOps.minimumf pre (constant S_ .f32 0x7F800000#32) reducesTo_S32768x128_S128_d0 h_S_)) (broadcastInDim S128 ![] bcast_S_S128 (constant S_ .f32 0x322BCC77#32)))))

/-- The clip at zero. -/
def reluOps (y : FVec Ideal S32768x128 .f32) : FVec Ideal S32768x128 .f32 :=
  maximumf y (broadcastInDim S32768x128 ![] bcast_S_S32768x128 (constant S_ .f32 0x00000000#32))

/-- The column-wise min-max normalisation, clipped at zero. -/
def normOps (pre : FVec Ideal S32768x128 .f32) : FVec Ideal S32768x128 .f32 := reluOps (normDivOps pre)

/-- One whole head: from its input array, the argument arrays and the degree column to its output array. -/
def headOut (x : FVec Ideal S32768x128 .f32) (x1 : FVec Ideal S32768x8192 .f32) (x2 : FVec Ideal S8192x128 .f32) (x3 : FVec Ideal S4x128x64 .f32) (x4 : FVec Ideal S4x64 .f32)
    (x5 : FVec Ideal S4x128x64 .f32) (x6 : FVec Ideal S4x64 .f32) (x7 : FVec Ideal S4x64x1 .f32) (x8 : FVec Ideal S4x1 .f32) (x9 : FVec Ideal S4x64x128 .f32) (x10 : FVec Ideal S4x128 .f32)
    (deg : FVec Ideal S32768x1 .f32) : FVec Ideal S32768x128 .f32 :=
  normOps (preOps h s9 s10
    (updOps (gateOps (scoreOps h s7 s8 (tnOps h s3 s4 x x3 x4) (aggOps x1 (teOps h s5 s6 x2 x5 x6) deg) x7 x8))
      (aggOps x1 (teOps h s5 s6 x2 x5 x6) deg) (tnOps h s3 s4 x x3 x4)) x9 x10)

end Head

/-! ## The stages read at an index -/

theorem degOps_apply (x1 : FVec Ideal S32768x8192 .f32) (n : Fin 32768) :
    degOps x1 (ix2 n (0 : Fin 1)) = (∑ e : Fin 8192, x1 (ix2 n e)) + Spec.eps := by
  unfold degOps
  rw [addf_apply, degBcast_apply, rowSum_apply, splatS32768x1_apply]
  rfl

section HeadApply
variable (h : Nat) (hh : h < 4)
  (s3 : S4x128x64.Slices ![h, 0, 0] S1x128x64) (s4 : S4x64.Slices ![h, 0] S1x64)
  (s5 : S4x128x64.Slices ![h, 0, 0] S1x128x64) (s6 : S4x64.Slices ![h, 0] S1x64)
  (s7 : S4x64x1.Slices ![h, 0, 0] S1x64x1) (s8 : S4x1.Slices ![h, 0] S1x1)
  (s9 : S4x64x128.Slices ![h, 0, 0] S1x64x128) (s10 : S4x128.Slices ![h, 0] S1x128)

theorem tnOps_apply (x : FVec Ideal S32768x128 .f32) (x3 : FVec Ideal S4x128x64 .f32) (x4 : FVec Ideal S4x64 .f32) (n : Fin 32768) (j : Fin 64) :
    tnOps h s3 s4 x x3 x4 (ix2 n j) = (∑ k : Fin 128, x (ix2 n k) * x3 (ix3 (⟨h, hh⟩ : Fin 4) k j)) + x4 (ix2 (⟨h, hh⟩ : Fin 4) j) := by
  unfold tnOps
  rw [addf_apply, dot32768x128x64_apply, bias32768x64_apply h hh]
  simp only [weight128x64_apply h hh]

theorem teOps_apply (x2 : FVec Ideal S8192x128 .f32) (x5 : FVec Ideal S4x128x64 .f32) (x6 : FVec Ideal S4x64 .f32) (e : Fin 8192) (j : Fin 64) :
    teOps h s5 s6 x2 x5 x6 (ix2 e j) = (∑ k : Fin 128, x2 (ix2 e k) * x5 (ix3 (⟨h, hh⟩ : Fin 4) k j)) + x6 (ix2 (⟨h, hh⟩ : Fin 4) j) := by
  unfold teOps
  rw [addf_apply, dot8192x128x64_apply, bias8192x64_apply h hh]
  simp only [weight128x64_apply h hh]

theorem aggOps_apply (x1 : FVec Ideal S32768x8192 .f32) (te : FVec Ideal S8192x64 .f32) (deg : FVec Ideal S32768x1 .f32) (n : Fin 32768) (j : Fin 64) :
    aggOps x1 te deg (ix2 n j) = Ideal.div (∑ e : Fin 8192, x1 (ix2 n e) * te (ix2 e j)) (deg (ix2 n (0 : Fin 1))) := by
  unfold aggOps
  rw [hdivf_apply, dot32768x8192x64_apply, colBcast_apply]

theorem scoreOps_apply (tn agg : FVec Ideal S32768x64 .f32) (x7 : FVec Ideal S4x64x1 .f32) (x8 : FVec Ideal S4x1 .f32) (n : Fin 32768) :
    scoreOps h s7 s8 tn agg x7 x8 (ix2 n (0 : Fin 1))
      = (∑ j : Fin 64, (tn (ix2 n j) + agg (ix2 n j)) * x7 (ix3 (⟨h, hh⟩ : Fin 4) j (0 : Fin 1))) + x8 (ix2 (⟨h, hh⟩ : Fin 4) (0 : Fin 1)) := by
  unfold scoreOps
  rw [addf_apply, dot32768x64x1_apply, bias32768x1_apply h hh]
  simp only [weight64x1_apply h hh, addf_apply]

/-- The select on `s ≥ 0` is the leaky rectifier. -/
theorem leaky_select (s : EReal) : Scalar.select (Ideal.cmp .oge s 0) s (Spec.slope * s) = Spec.leaky s := by
  unfold Scalar.select Ideal.cmp Spec.leaky
  by_cases h0 : (0 : EReal) ≤ s <;> simp [h0]

theorem gateOps_apply (s : FVec Ideal S32768x1 .f32) (i : S32768x1.Idx) : gateOps s i = Ideal.logistic (Spec.leaky (s i)) := by
  unfold gateOps
  rw [hdivf_apply, addf_apply, hexp_apply, hnegf_apply, select_apply, cmpf_apply, mulf_apply]
  rw [splatS32768x1_apply 0x3F800000#32, splatS32768x1_apply 0x00000000#32, splatS32768x1_apply 0x3E4CCCCD#32, ofBits_one_f32,
    Ideal.ofBits_zero_f32, Ideal.cmpf_def]
  show Ideal.div 1 (1 + Ideal.exp (-(Scalar.select (Ideal.cmp .oge (s i) 0) (s i) (Spec.slope * s i)))) = _
  rw [leaky_select]
  rfl

theorem updOps_apply (gate : FVec Ideal S32768x1 .f32) (agg tn : FVec Ideal S32768x64 .f32) (n : Fin 32768) (j : Fin 64) :
    updOps gate agg tn (ix2 n j) = gate (ix2 n (0 : Fin 1)) * agg (ix2 n j) + tn (ix2 n j) := by
  unfold updOps
  rw [addf_apply, mulf_apply, colBcast_apply]

theorem preOps_apply (upd : FVec Ideal S32768x64 .f32) (x9 : FVec Ideal S4x64x128 .f32) (x10 : FVec Ideal S4x128 .f32) (n : Fin 32768) (c : Fin 128) :
    preOps h s9 s10 upd x9 x10 (ix2 n c) = (∑ j : Fin 64, upd (ix2 n j) * x9 (ix3 (⟨h, hh⟩ : Fin 4) j c)) + x10 (ix2 (⟨h, hh⟩ : Fin 4) c) := by
  unfold preOps
  rw [addf_apply, dot32768x64x128_apply, bias32768x128_apply h hh]
  simp only [weight64x128_apply h hh]

theorem normOps_apply (pre : FVec Ideal S32768x128 .f32) (n : Fin 32768) (c : Fin 128) :
    normOps pre (ix2 n c) = Spec.normAll (fun n c => pre (ix2 n c)) n c := by
  unfold normOps reluOps normDivOps
  rw [maximumf_apply, hdivf_apply, subf_apply, rowBcast_apply, rowBcast_apply, addf_apply, subf_apply, colMin_apply, colMax_apply,
    splatS128_apply, splatS32768x128_apply, Ideal.ofBits_zero_f32]
  rfl

/-- A head's output at (n, c), from its input array `x`, the argument arrays and a degree column that is the row sums
    of the incidence array plus ε. -/
theorem headOut_apply (x0 x : FVec Ideal S32768x128 .f32) (x1 : FVec Ideal S32768x8192 .f32) (x2 : FVec Ideal S8192x128 .f32) (x3 : FVec Ideal S4x128x64 .f32) (x4 : FVec Ideal S4x64 .f32)
    (x5 : FVec Ideal S4x128x64 .f32) (x6 : FVec Ideal S4x64 .f32) (x7 : FVec Ideal S4x64x1 .f32) (x8 : FVec Ideal S4x1 .f32) (x9 : FVec Ideal S4x64x128 .f32) (x10 : FVec Ideal S4x128 .f32)
    (deg : FVec Ideal S32768x1 .f32) (hdeg : ∀ n : Fin 32768, deg (ix2 n (0 : Fin 1)) = (∑ e : Fin 8192, x1 (ix2 n e)) + Spec.eps)
    (n : Fin 32768) (c : Fin 128) :
    headOut h s3 s4 s5 s6 s7 s8 s9 s10 x x1 x2 x3 x4 x5 x6 x7 x8 x9 x10 deg (ix2 n c)
      = Spec.normAll (Spec.pre1 (Spec.argsOf x0 x1 x2 x3 x4 x5 x6 x7 x8 x9 x10) (⟨h, hh⟩ : Fin 4) (fun n k => x (ix2 n k))) n c := by
  unfold headOut
  rw [normOps_apply]
  refine congrArg (fun p => Spec.normAll p n c) (funext fun n => funext fun c => ?_)
  rw [preOps_apply h hh]
  simp only [updOps_apply, gateOps_apply, scoreOps_apply h hh, tnOps_apply h hh, aggOps_apply, teOps_apply h hh, hdeg]
  rfl

end HeadApply

end Cert.RefSide

end
-- ==== Proof.RefSegDeg.lean ====
/-
  The degree prefix of the one-pass program, folded from an arbitrary valuation: the degree column is the incidence
  array's row sums plus ε; the argument arrays are left as they were.
-/
import proofs.«100906_j73718818669321_2_alg».proof.Proof.RefOps
import proofs.«100906_j73718818669321_2_alg».proof.Proof.RefHead

set_option Elab.async false

noncomputable section

namespace Cert.RefSide

open Cert.ReferenceIdeal Cert.ReferenceIdeal.Gen Idealize.ShloMosaic Idealize.ShloMosaic.TcCoe Idealize.SL.Sem Idealize.ShloMosaic.ValueIdx Idealize.ShloMosaic.StableHlo

theorem deg_out (V : Valuation τ sig (Elt Ideal)) :
    after (opsC0 (F := Ideal)) V (Proc.devRef .tc main_v3) = degOps (V (Proc.devRef .tc main_arg1)) := by
  after_results_simp <;> rfl

theorem deg_keep_arg0 (V : Valuation τ sig (Elt Ideal)) :
    after (opsC0 (F := Ideal)) V (Proc.devRef .tc main_arg0) = V (Proc.devRef .tc main_arg0) := by
  after_results_simp

theorem deg_keep_arg1 (V : Valuation τ sig (Elt Ideal)) :
    after (opsC0 (F := Ideal)) V (Proc.devRef .tc main_arg1) = V (Proc.devRef .tc main_arg1) := by
  after_results_simp

theorem deg_keep_arg2 (V : Valuation τ sig (Elt Ideal)) :
    after (opsC0 (F := Ideal)) V (Proc.devRef .tc main_arg2) = V (Proc.devRef .tc main_arg2) := by
  after_results_simp

theorem deg_keep_arg3 (V : Valuation τ sig (Elt Ideal)) :
    after (opsC0 (F := Ideal)) V (Proc.devRef .tc main_arg3) = V (Proc.devRef .tc main_arg3) := by
  after_results_simp

theorem deg_keep_arg4 (V : Valuation τ sig (Elt Ideal)) :
    after (opsC0 (F := Ideal)) V (Proc.devRef .tc main_arg4) = V (Proc.devRef .tc main_arg4) := by
  after_results_simp

theorem deg_keep_arg5 (V : Valuation τ sig (Elt Ideal)) :
    after (opsC0 (F := Ideal)) V (Proc.devRef .tc main_arg5) = V (Proc.devRef .tc main_arg5) := by
  after_results_simp

theorem deg_keep_arg6 (V : Valuation τ sig (Elt Ideal)) :
    after (opsC0 (F := Ideal)) V (Proc.devRef .tc main_arg6) = V (Proc.devRef .tc main_arg6) := by
  after_results_simp

theorem deg_keep_arg7 (V : Valuation τ sig (Elt Ideal)) :
    after (opsC0 (F := Ideal)) V (Proc.devRef .tc main_arg7) = V (Proc.devRef .tc main_arg7) := by
  after_results_simp

theorem deg_keep_arg8 (V : Valuation τ sig (Elt Ideal)) :
    after (opsC0 (F := Ideal)) V (Proc.devRef .tc main_arg8) = V (Proc.devRef .tc main_arg8) := by
  after_results_simp

theorem deg_keep_arg9 (V : Valuation τ sig (Elt Ideal)) :
    after (opsC0 (F := Ideal)) V (Proc.devRef .tc main_arg9) = V (Proc.devRef .tc main_arg9) := by
  after_results_simp

theorem deg_keep_arg10 (V : Valuation τ sig (Elt Ideal)) :
    after (opsC0 (F := Ideal)) V (Proc.devRef .tc main_arg10) = V (Proc.devRef .tc main_arg10) := by
  after_results_simp

end Cert.RefSide

end
-- ==== Proof.RefSeg0.lean ====
/-
  Head 0's seventy-one operations, folded from an arbitrary valuation in three steps — up to the output product, the
  column normalisation, the clip at zero —: the last array is the head's output as a function of what the valuation
  holds at the head's input array, the argument arrays and the degree column.
-/
import proofs.«100906_j73718818669321_2_alg».proof.Proof.RefOps
import proofs.«100906_j73718818669321_2_alg».proof.Proof.RefHead

set_option Elab.async false

noncomputable section

namespace Cert.RefSide

open Cert.ReferenceIdeal Cert.ReferenceIdeal.Gen Idealize.ShloMosaic Idealize.ShloMosaic.TcCoe Idealize.SL.Sem Idealize.ShloMosaic.ValueIdx Idealize.ShloMosaic.StableHlo

theorem head0_pre (V : Valuation τ sig (Elt Ideal)) :
    after (opsC1 (F := Ideal)) V (Proc.devRef .tc main_v53)
      = preOps 0 slices_S4x64x128_S1x64x128_0_0_0 slices_S4x128_S1x128_0_0 (updOps (gateOps (scoreOps 0 slices_S4x64x1_S1x64x1_0_0_0 slices_S4x1_S1x1_0_0 (tnOps 0 slices_S4x128x64_S1x128x64_0_0_0 slices_S4x64_S1x64_0_0 (V (Proc.devRef .tc main_arg0)) (V (Proc.devRef .tc main_arg3)) (V (Proc.devRef .tc main_arg4))) (aggOps (V (Proc.devRef .tc main_arg1)) (teOps 0 slices_S4x128x64_S1x128x64_0_0_0 slices_S4x64_S1x64_0_0 (V (Proc.devRef .tc main_arg2)) (V (Proc.devRef .tc main_arg5)) (V (Proc.devRef .tc main_arg6))) (V (Proc.devRef .tc main_v3))) (V (Proc.devRef .tc main_arg7)) (V (Proc.devRef .tc main_arg8)))) (aggOps (V (Proc.devRef .tc main_arg1)) (teOps 0 slices_S4x128x64_S1x128x64_0_0_0 slices_S4x64_S1x64_0_0 (V (Proc.devRef .tc main_arg2)) (V (Proc.devRef .tc main_arg5)) (V (Proc.devRef .tc main_arg6))) (V (Proc.devRef .tc main_v3))) (tnOps 0 slices_S4x128x64_S1x128x64_0_0_0 slices_S4x64_S1x64_0_0 (V (Proc.devRef .tc main_arg0)) (V (Proc.devRef .tc main_arg3)) (V (Proc.devRef .tc main_arg4)))) (V (Proc.devRef .tc main_arg9)) (V (Proc.devRef .tc main_arg10)) := by
  after_results_simp <;> rfl

theorem head0_normDiv (V : Valuation τ sig (Elt Ideal)) :
    after (opsC2 (F := Ideal)) V (Proc.devRef .tc main_v64) = normDivOps (V (Proc.devRef .tc main_v53)) := by
  after_results_simp <;> rfl

theorem head0_relu (V : Valuation τ sig (Elt Ideal)) :
    after (opsC3 (F := Ideal)) V (Proc.devRef .tc main_v65) = reluOps (V (Proc.devRef .tc main_v64)) := by
  after_results_simp <;> rfl

theorem head0_out (V : Valuation τ sig (Elt Ideal)) :
    after (opsC3 (F := Ideal)) (after (opsC2 (F := Ideal)) (after (opsC1 (F := Ideal)) V)) (Proc.devRef .tc main_v65)
      = headOut 0 slices_S4x128x64_S1x128x64_0_0_0 slices_S4x64_S1x64_0_0 slices_S4x128x64_S1x128x64_0_0_0 slices_S4x64_S1x64_0_0 slices_S4x64x1_S1x64x1_0_0_0 slices_S4x1_S1x1_0_0 slices_S4x64x128_S1x64x128_0_0_0 slices_S4x128_S1x128_0_0
          (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_v3)) := by
  rw [head0_relu, head0_normDiv, head0_pre]
  rfl

end Cert.RefSide

end
-- ==== Proof.RefSeg1.lean ====
/-
  Head 1's seventy-one operations, folded from an arbitrary valuation in three steps — up to the output product, the
  column normalisation, the clip at zero —: the last array is the head's output as a function of what the valuation
  holds at the head's input array, the argument arrays and the degree column.
-/
import proofs.«100906_j73718818669321_2_alg».proof.Proof.RefOps
import proofs.«100906_j73718818669321_2_alg».proof.Proof.RefHead

set_option Elab.async false

noncomputable section

namespace Cert.RefSide

open Cert.ReferenceIdeal Cert.ReferenceIdeal.Gen Idealize.ShloMosaic Idealize.ShloMosaic.TcCoe Idealize.SL.Sem Idealize.ShloMosaic.ValueIdx Idealize.ShloMosaic.StableHlo

theorem head1_pre (V : Valuation τ sig (Elt Ideal)) :
    after (opsC5 (F := Ideal)) (after (opsC4 (F := Ideal)) V) (Proc.devRef .tc main_v115)
      = preOps 1 slices_S4x64x128_S1x64x128_1_0_0 slices_S4x128_S1x128_1_0 (updOps (gateOps (scoreOps 1 slices_S4x64x1_S1x64x1_1_0_0 slices_S4x1_S1x1_1_0 (tnOps 1 slices_S4x128x64_S1x128x64_1_0_0 slices_S4x64_S1x64_1_0 (V (Proc.devRef .tc main_v65)) (V (Proc.devRef .tc main_arg3)) (V (Proc.devRef .tc main_arg4))) (aggOps (V (Proc.devRef .tc main_arg1)) (teOps 1 slices_S4x128x64_S1x128x64_1_0_0 slices_S4x64_S1x64_1_0 (V (Proc.devRef .tc main_arg2)) (V (Proc.devRef .tc main_arg5)) (V (Proc.devRef .tc main_arg6))) (V (Proc.devRef .tc main_v3))) (V (Proc.devRef .tc main_arg7)) (V (Proc.devRef .tc main_arg8)))) (aggOps (V (Proc.devRef .tc main_arg1)) (teOps 1 slices_S4x128x64_S1x128x64_1_0_0 slices_S4x64_S1x64_1_0 (V (Proc.devRef .tc main_arg2)) (V (Proc.devRef .tc main_arg5)) (V (Proc.devRef .tc main_arg6))) (V (Proc.devRef .tc main_v3))) (tnOps 1 slices_S4x128x64_S1x128x64_1_0_0 slices_S4x64_S1x64_1_0 (V (Proc.devRef .tc main_v65)) (V (Proc.devRef .tc main_arg3)) (V (Proc.devRef .tc main_arg4)))) (V (Proc.devRef .tc main_arg9)) (V (Proc.devRef .tc main_arg10)) := by
  after_results_simp <;> rfl

theorem head1_normDiv (V : Valuation τ sig (Elt Ideal)) :
    after (opsC6 (F := Ideal)) V (Proc.devRef .tc main_v126) = normDivOps (V (Proc.devRef .tc main_v115)) := by
  after_results_simp <;> rfl

theorem head1_relu (V : Valuation τ sig (Elt Ideal)) :
    after (opsC7 (F := Ideal)) V (Proc.devRef .tc main_v127) = reluOps (V (Proc.devRef .tc main_v126)) := by
  after_results_simp <;> rfl

theorem head1_out (V : Valuation τ sig (Elt Ideal)) :
    after (opsC7 (F := Ideal)) (after (opsC6 (F := Ideal)) (after (opsC5 (F := Ideal)) (after (opsC4 (F := Ideal)) V))) (Proc.devRef .tc main_v127)
      = headOut 1 slices_S4x128x64_S1x128x64_1_0_0 slices_S4x64_S1x64_1_0 slices_S4x128x64_S1x128x64_1_0_0 slices_S4x64_S1x64_1_0 slices_S4x64x1_S1x64x1_1_0_0 slices_S4x1_S1x1_1_0 slices_S4x64x128_S1x64x128_1_0_0 slices_S4x128_S1x128_1_0
          (V (Proc.devRef .tc main_v65)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_v3)) := by
  rw [head1_relu, head1_normDiv, head1_pre]
  rfl

end Cert.RefSide

end
-- ==== Proof.RefSeg2.lean ====
/-
  Head 2's seventy-one operations, folded from an arbitrary valuation in three steps — up to the output product, the
  column normalisation, the clip at zero —: the last array is the head's output as a function of what the valuation
  holds at the head's input array, the argument arrays and the degree column.
-/
import proofs.«100906_j73718818669321_2_alg».proof.Proof.RefOps
import proofs.«100906_j73718818669321_2_alg».proof.Proof.RefHead

set_option Elab.async false

noncomputable section

namespace Cert.RefSide

open Cert.ReferenceIdeal Cert.ReferenceIdeal.Gen Idealize.ShloMosaic Idealize.ShloMosaic.TcCoe Idealize.SL.Sem Idealize.ShloMosaic.ValueIdx Idealize.ShloMosaic.StableHlo

theorem head2_pre (V : Valuation τ sig (Elt Ideal)) :
    after (opsC9 (F := Ideal)) (after (opsC8 (F := Ideal)) V) (Proc.devRef .tc main_v177)
      = preOps 2 slices_S4x64x128_S1x64x128_2_0_0 slices_S4x128_S1x128_2_0 (updOps (gateOps (scoreOps 2 slices_S4x64x1_S1x64x1_2_0_0 slices_S4x1_S1x1_2_0 (tnOps 2 slices_S4x128x64_S1x128x64_2_0_0 slices_S4x64_S1x64_2_0 (V (Proc.devRef .tc main_v127)) (V (Proc.devRef .tc main_arg3)) (V (Proc.devRef .tc main_arg4))) (aggOps (V (Proc.devRef .tc main_arg1)) (teOps 2 slices_S4x128x64_S1x128x64_2_0_0 slices_S4x64_S1x64_2_0 (V (Proc.devRef .tc main_arg2)) (V (Proc.devRef .tc main_arg5)) (V (Proc.devRef .tc main_arg6))) (V (Proc.devRef .tc main_v3))) (V (Proc.devRef .tc main_arg7)) (V (Proc.devRef .tc main_arg8)))) (aggOps (V (Proc.devRef .tc main_arg1)) (teOps 2 slices_S4x128x64_S1x128x64_2_0_0 slices_S4x64_S1x64_2_0 (V (Proc.devRef .tc main_arg2)) (V (Proc.devRef .tc main_arg5)) (V (Proc.devRef .tc main_arg6))) (V (Proc.devRef .tc main_v3))) (tnOps 2 slices_S4x128x64_S1x128x64_2_0_0 slices_S4x64_S1x64_2_0 (V (Proc.devRef .tc main_v127)) (V (Proc.devRef .tc main_arg3)) (V (Proc.devRef .tc main_arg4)))) (V (Proc.devRef .tc main_arg9)) (V (Proc.devRef .tc main_arg10)) := by
  after_results_simp <;> rfl

theorem head2_normDiv (V : Valuation τ sig (Elt Ideal)) :
    after (opsC10 (F := Ideal)) V (Proc.devRef .tc main_v188) = normDivOps (V (Proc.devRef .tc main_v177)) := by
  after_results_simp <;> rfl

theorem head2_relu (V : Valuation τ sig (Elt Ideal)) :
    after (opsC11 (F := Ideal)) V (Proc.devRef .tc main_v189) = reluOps (V (Proc.devRef .tc main_v188)) := by
  after_results_simp <;> rfl

theorem head2_out (V : Valuation τ sig (Elt Ideal)) :
    after (opsC11 (F := Ideal)) (after (opsC10 (F := Ideal)) (after (opsC9 (F := Ideal)) (after (opsC8 (F := Ideal)) V))) (Proc.devRef .tc main_v189)
      = headOut 2 slices_S4x128x64_S1x128x64_2_0_0 slices_S4x64_S1x64_2_0 slices_S4x128x64_S1x128x64_2_0_0 slices_S4x64_S1x64_2_0 slices_S4x64x1_S1x64x1_2_0_0 slices_S4x1_S1x1_2_0 slices_S4x64x128_S1x64x128_2_0_0 slices_S4x128_S1x128_2_0
          (V (Proc.devRef .tc main_v127)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_v3)) := by
  rw [head2_relu, head2_normDiv, head2_pre]
  rfl

end Cert.RefSide

end
-- ==== Proof.RefSeg3.lean ====
/-
  Head 3's seventy-one operations, folded from an arbitrary valuation in three steps — up to the output product, the
  column normalisation, the clip at zero —: the last array is the head's output as a function of what the valuation
  holds at the head's input array, the argument arrays and the degree column.
-/
import proofs.«100906_j73718818669321_2_alg».proof.Proof.RefOps
import proofs.«100906_j73718818669321_2_alg».proof.Proof.RefHead

set_option Elab.async false

noncomputable section

namespace Cert.RefSide

open Cert.ReferenceIdeal Cert.ReferenceIdeal.Gen Idealize.ShloMosaic Idealize.ShloMosaic.TcCoe Idealize.SL.Sem Idealize.ShloMosaic.ValueIdx Idealize.ShloMosaic.StableHlo

theorem head3_pre (V : Valuation τ sig (Elt Ideal)) :
    after (opsC13 (F := Ideal)) (after (opsC12 (F := Ideal)) V) (Proc.devRef .tc main_v239)
      = preOps 3 slices_S4x64x128_S1x64x128_3_0_0 slices_S4x128_S1x128_3_0 (updOps (gateOps (scoreOps 3 slices_S4x64x1_S1x64x1_3_0_0 slices_S4x1_S1x1_3_0 (tnOps 3 slices_S4x128x64_S1x128x64_3_0_0 slices_S4x64_S1x64_3_0 (V (Proc.devRef .tc main_v189)) (V (Proc.devRef .tc main_arg3)) (V (Proc.devRef .tc main_arg4))) (aggOps (V (Proc.devRef .tc main_arg1)) (teOps 3 slices_S4x128x64_S1x128x64_3_0_0 slices_S4x64_S1x64_3_0 (V (Proc.devRef .tc main_arg2)) (V (Proc.devRef .tc main_arg5)) (V (Proc.devRef .tc main_arg6))) (V (Proc.devRef .tc main_v3))) (V (Proc.devRef .tc main_arg7)) (V (Proc.devRef .tc main_arg8)))) (aggOps (V (Proc.devRef .tc main_arg1)) (teOps 3 slices_S4x128x64_S1x128x64_3_0_0 slices_S4x64_S1x64_3_0 (V (Proc.devRef .tc main_arg2)) (V (Proc.devRef .tc main_arg5)) (V (Proc.devRef .tc main_arg6))) (V (Proc.devRef .tc main_v3))) (tnOps 3 slices_S4x128x64_S1x128x64_3_0_0 slices_S4x64_S1x64_3_0 (V (Proc.devRef .tc main_v189)) (V (Proc.devRef .tc main_arg3)) (V (Proc.devRef .tc main_arg4)))) (V (Proc.devRef .tc main_arg9)) (V (Proc.devRef .tc main_arg10)) := by
  after_results_simp <;> rfl

theorem head3_normDiv (V : Valuation τ sig (Elt Ideal)) :
    after (opsC14 (F := Ideal)) V (Proc.devRef .tc main_v250) = normDivOps (V (Proc.devRef .tc main_v239)) := by
  after_results_simp <;> rfl

theorem head3_relu (V : Valuation τ sig (Elt Ideal)) :
    after (opsC15 (F := Ideal)) V (Proc.devRef .tc main_v251) = reluOps (V (Proc.devRef .tc main_v250)) := by
  after_results_simp <;> rfl

theorem head3_out (V : Valuation τ sig (Elt Ideal)) :
    after (opsC15 (F := Ideal)) (after (opsC14 (F := Ideal)) (after (opsC13 (F := Ideal)) (after (opsC12 (F := Ideal)) V))) (Proc.devRef .tc main_v251)
      = headOut 3 slices_S4x128x64_S1x128x64_3_0_0 slices_S4x64_S1x64_3_0 slices_S4x128x64_S1x128x64_3_0_0 slices_S4x64_S1x64_3_0 slices_S4x64x1_S1x64x1_3_0_0 slices_S4x1_S1x1_3_0 slices_S4x64x128_S1x64x128_3_0_0 slices_S4x128_S1x128_3_0
          (V (Proc.devRef .tc main_v189)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_v3)) := by
  rw [head3_relu, head3_normDiv, head3_pre]
  rfl

end Cert.RefSide

end
-- ==== Proof.RefKeep0.lean ====
/-
  Head 0's seventy-one operations leave the argument arrays and the degree column as they were.
-/
import proofs.«100906_j73718818669321_2_alg».proof.Proof.RefOps

set_option Elab.async false

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

theorem head0_keep_arg0 (V : Valuation τ sig (Elt F)) :
    after opsC3 (after opsC2 (after opsC1 V)) (Proc.devRef .tc main_arg0) = V (Proc.devRef .tc main_arg0) := by
  after_results_simp

theorem head0_keep_arg1 (V : Valuation τ sig (Elt F)) :
    after opsC3 (after opsC2 (after opsC1 V)) (Proc.devRef .tc main_arg1) = V (Proc.devRef .tc main_arg1) := by
  after_results_simp

theorem head0_keep_arg2 (V : Valuation τ sig (Elt F)) :
    after opsC3 (after opsC2 (after opsC1 V)) (Proc.devRef .tc main_arg2) = V (Proc.devRef .tc main_arg2) := by
  after_results_simp

theorem head0_keep_arg3 (V : Valuation τ sig (Elt F)) :
    after opsC3 (after opsC2 (after opsC1 V)) (Proc.devRef .tc main_arg3) = V (Proc.devRef .tc main_arg3) := by
  after_results_simp

theorem head0_keep_arg4 (V : Valuation τ sig (Elt F)) :
    after opsC3 (after opsC2 (after opsC1 V)) (Proc.devRef .tc main_arg4) = V (Proc.devRef .tc main_arg4) := by
  after_results_simp

theorem head0_keep_arg5 (V : Valuation τ sig (Elt F)) :
    after opsC3 (after opsC2 (after opsC1 V)) (Proc.devRef .tc main_arg5) = V (Proc.devRef .tc main_arg5) := by
  after_results_simp

theorem head0_keep_arg6 (V : Valuation τ sig (Elt F)) :
    after opsC3 (after opsC2 (after opsC1 V)) (Proc.devRef .tc main_arg6) = V (Proc.devRef .tc main_arg6) := by
  after_results_simp

theorem head0_keep_arg7 (V : Valuation τ sig (Elt F)) :
    after opsC3 (after opsC2 (after opsC1 V)) (Proc.devRef .tc main_arg7) = V (Proc.devRef .tc main_arg7) := by
  after_results_simp

theorem head0_keep_arg8 (V : Valuation τ sig (Elt F)) :
    after opsC3 (after opsC2 (after opsC1 V)) (Proc.devRef .tc main_arg8) = V (Proc.devRef .tc main_arg8) := by
  after_results_simp

theorem head0_keep_arg9 (V : Valuation τ sig (Elt F)) :
    after opsC3 (after opsC2 (after opsC1 V)) (Proc.devRef .tc main_arg9) = V (Proc.devRef .tc main_arg9) := by
  after_results_simp

theorem head0_keep_arg10 (V : Valuation τ sig (Elt F)) :
    after opsC3 (after opsC2 (after opsC1 V)) (Proc.devRef .tc main_arg10) = V (Proc.devRef .tc main_arg10) := by
  after_results_simp

theorem head0_keep_v3 (V : Valuation τ sig (Elt F)) :
    after opsC3 (after opsC2 (after opsC1 V)) (Proc.devRef .tc main_v3) = V (Proc.devRef .tc main_v3) := by
  after_results_simp

end Cert.RefSide

end
-- ==== Proof.RefKeep1.lean ====
/-
  Head 1's seventy-one operations leave the argument arrays and the degree column as they were.
-/
import proofs.«100906_j73718818669321_2_alg».proof.Proof.RefOps

set_option Elab.async false

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

theorem head1_keep_arg0 (V : Valuation τ sig (Elt F)) :
    after opsC7 (after opsC6 (after opsC5 (after opsC4 V))) (Proc.devRef .tc main_arg0) = V (Proc.devRef .tc main_arg0) := by
  after_results_simp

theorem head1_keep_arg1 (V : Valuation τ sig (Elt F)) :
    after opsC7 (after opsC6 (after opsC5 (after opsC4 V))) (Proc.devRef .tc main_arg1) = V (Proc.devRef .tc main_arg1) := by
  after_results_simp

theorem head1_keep_arg2 (V : Valuation τ sig (Elt F)) :
    after opsC7 (after opsC6 (after opsC5 (after opsC4 V))) (Proc.devRef .tc main_arg2) = V (Proc.devRef .tc main_arg2) := by
  after_results_simp

theorem head1_keep_arg3 (V : Valuation τ sig (Elt F)) :
    after opsC7 (after opsC6 (after opsC5 (after opsC4 V))) (Proc.devRef .tc main_arg3) = V (Proc.devRef .tc main_arg3) := by
  after_results_simp

theorem head1_keep_arg4 (V : Valuation τ sig (Elt F)) :
    after opsC7 (after opsC6 (after opsC5 (after opsC4 V))) (Proc.devRef .tc main_arg4) = V (Proc.devRef .tc main_arg4) := by
  after_results_simp

theorem head1_keep_arg5 (V : Valuation τ sig (Elt F)) :
    after opsC7 (after opsC6 (after opsC5 (after opsC4 V))) (Proc.devRef .tc main_arg5) = V (Proc.devRef .tc main_arg5) := by
  after_results_simp

theorem head1_keep_arg6 (V : Valuation τ sig (Elt F)) :
    after opsC7 (after opsC6 (after opsC5 (after opsC4 V))) (Proc.devRef .tc main_arg6) = V (Proc.devRef .tc main_arg6) := by
  after_results_simp

theorem head1_keep_arg7 (V : Valuation τ sig (Elt F)) :
    after opsC7 (after opsC6 (after opsC5 (after opsC4 V))) (Proc.devRef .tc main_arg7) = V (Proc.devRef .tc main_arg7) := by
  after_results_simp

theorem head1_keep_arg8 (V : Valuation τ sig (Elt F)) :
    after opsC7 (after opsC6 (after opsC5 (after opsC4 V))) (Proc.devRef .tc main_arg8) = V (Proc.devRef .tc main_arg8) := by
  after_results_simp

theorem head1_keep_arg9 (V : Valuation τ sig (Elt F)) :
    after opsC7 (after opsC6 (after opsC5 (after opsC4 V))) (Proc.devRef .tc main_arg9) = V (Proc.devRef .tc main_arg9) := by
  after_results_simp

theorem head1_keep_arg10 (V : Valuation τ sig (Elt F)) :
    after opsC7 (after opsC6 (after opsC5 (after opsC4 V))) (Proc.devRef .tc main_arg10) = V (Proc.devRef .tc main_arg10) := by
  after_results_simp

theorem head1_keep_v3 (V : Valuation τ sig (Elt F)) :
    after opsC7 (after opsC6 (after opsC5 (after opsC4 V))) (Proc.devRef .tc main_v3) = V (Proc.devRef .tc main_v3) := by
  after_results_simp

end Cert.RefSide

end
-- ==== Proof.RefKeep2.lean ====
/-
  Head 2's seventy-one operations leave the argument arrays and the degree column as they were.
-/
import proofs.«100906_j73718818669321_2_alg».proof.Proof.RefOps

set_option Elab.async false

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

theorem head2_keep_arg0 (V : Valuation τ sig (Elt F)) :
    after opsC11 (after opsC10 (after opsC9 (after opsC8 V))) (Proc.devRef .tc main_arg0) = V (Proc.devRef .tc main_arg0) := by
  after_results_simp

theorem head2_keep_arg1 (V : Valuation τ sig (Elt F)) :
    after opsC11 (after opsC10 (after opsC9 (after opsC8 V))) (Proc.devRef .tc main_arg1) = V (Proc.devRef .tc main_arg1) := by
  after_results_simp

theorem head2_keep_arg2 (V : Valuation τ sig (Elt F)) :
    after opsC11 (after opsC10 (after opsC9 (after opsC8 V))) (Proc.devRef .tc main_arg2) = V (Proc.devRef .tc main_arg2) := by
  after_results_simp

theorem head2_keep_arg3 (V : Valuation τ sig (Elt F)) :
    after opsC11 (after opsC10 (after opsC9 (after opsC8 V))) (Proc.devRef .tc main_arg3) = V (Proc.devRef .tc main_arg3) := by
  after_results_simp

theorem head2_keep_arg4 (V : Valuation τ sig (Elt F)) :
    after opsC11 (after opsC10 (after opsC9 (after opsC8 V))) (Proc.devRef .tc main_arg4) = V (Proc.devRef .tc main_arg4) := by
  after_results_simp

theorem head2_keep_arg5 (V : Valuation τ sig (Elt F)) :
    after opsC11 (after opsC10 (after opsC9 (after opsC8 V))) (Proc.devRef .tc main_arg5) = V (Proc.devRef .tc main_arg5) := by
  after_results_simp

theorem head2_keep_arg6 (V : Valuation τ sig (Elt F)) :
    after opsC11 (after opsC10 (after opsC9 (after opsC8 V))) (Proc.devRef .tc main_arg6) = V (Proc.devRef .tc main_arg6) := by
  after_results_simp

theorem head2_keep_arg7 (V : Valuation τ sig (Elt F)) :
    after opsC11 (after opsC10 (after opsC9 (after opsC8 V))) (Proc.devRef .tc main_arg7) = V (Proc.devRef .tc main_arg7) := by
  after_results_simp

theorem head2_keep_arg8 (V : Valuation τ sig (Elt F)) :
    after opsC11 (after opsC10 (after opsC9 (after opsC8 V))) (Proc.devRef .tc main_arg8) = V (Proc.devRef .tc main_arg8) := by
  after_results_simp

theorem head2_keep_arg9 (V : Valuation τ sig (Elt F)) :
    after opsC11 (after opsC10 (after opsC9 (after opsC8 V))) (Proc.devRef .tc main_arg9) = V (Proc.devRef .tc main_arg9) := by
  after_results_simp

theorem head2_keep_arg10 (V : Valuation τ sig (Elt F)) :
    after opsC11 (after opsC10 (after opsC9 (after opsC8 V))) (Proc.devRef .tc main_arg10) = V (Proc.devRef .tc main_arg10) := by
  after_results_simp

theorem head2_keep_v3 (V : Valuation τ sig (Elt F)) :
    after opsC11 (after opsC10 (after opsC9 (after opsC8 V))) (Proc.devRef .tc main_v3) = V (Proc.devRef .tc main_v3) := by
  after_results_simp

end Cert.RefSide

end
-- ==== Proof.RefKeep3.lean ====
/-
  Head 3's seventy-one operations leave the argument arrays and the degree column as they were.
-/
import proofs.«100906_j73718818669321_2_alg».proof.Proof.RefOps

set_option Elab.async false

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

theorem head3_keep_arg0 (V : Valuation τ sig (Elt F)) :
    after opsC15 (after opsC14 (after opsC13 (after opsC12 V))) (Proc.devRef .tc main_arg0) = V (Proc.devRef .tc main_arg0) := by
  after_results_simp

theorem head3_keep_arg1 (V : Valuation τ sig (Elt F)) :
    after opsC15 (after opsC14 (after opsC13 (after opsC12 V))) (Proc.devRef .tc main_arg1) = V (Proc.devRef .tc main_arg1) := by
  after_results_simp

theorem head3_keep_arg2 (V : Valuation τ sig (Elt F)) :
    after opsC15 (after opsC14 (after opsC13 (after opsC12 V))) (Proc.devRef .tc main_arg2) = V (Proc.devRef .tc main_arg2) := by
  after_results_simp

theorem head3_keep_arg3 (V : Valuation τ sig (Elt F)) :
    after opsC15 (after opsC14 (after opsC13 (after opsC12 V))) (Proc.devRef .tc main_arg3) = V (Proc.devRef .tc main_arg3) := by
  after_results_simp

theorem head3_keep_arg4 (V : Valuation τ sig (Elt F)) :
    after opsC15 (after opsC14 (after opsC13 (after opsC12 V))) (Proc.devRef .tc main_arg4) = V (Proc.devRef .tc main_arg4) := by
  after_results_simp

theorem head3_keep_arg5 (V : Valuation τ sig (Elt F)) :
    after opsC15 (after opsC14 (after opsC13 (after opsC12 V))) (Proc.devRef .tc main_arg5) = V (Proc.devRef .tc main_arg5) := by
  after_results_simp

theorem head3_keep_arg6 (V : Valuation τ sig (Elt F)) :
    after opsC15 (after opsC14 (after opsC13 (after opsC12 V))) (Proc.devRef .tc main_arg6) = V (Proc.devRef .tc main_arg6) := by
  after_results_simp

theorem head3_keep_arg7 (V : Valuation τ sig (Elt F)) :
    after opsC15 (after opsC14 (after opsC13 (after opsC12 V))) (Proc.devRef .tc main_arg7) = V (Proc.devRef .tc main_arg7) := by
  after_results_simp

theorem head3_keep_arg8 (V : Valuation τ sig (Elt F)) :
    after opsC15 (after opsC14 (after opsC13 (after opsC12 V))) (Proc.devRef .tc main_arg8) = V (Proc.devRef .tc main_arg8) := by
  after_results_simp

theorem head3_keep_arg9 (V : Valuation τ sig (Elt F)) :
    after opsC15 (after opsC14 (after opsC13 (after opsC12 V))) (Proc.devRef .tc main_arg9) = V (Proc.devRef .tc main_arg9) := by
  after_results_simp

theorem head3_keep_arg10 (V : Valuation τ sig (Elt F)) :
    after opsC15 (after opsC14 (after opsC13 (after opsC12 V))) (Proc.devRef .tc main_arg10) = V (Proc.devRef .tc main_arg10) := by
  after_results_simp

theorem head3_keep_v3 (V : Valuation τ sig (Elt F)) :
    after opsC15 (after opsC14 (after opsC13 (after opsC12 V))) (Proc.devRef .tc main_v3) = V (Proc.devRef .tc main_v3) := by
  after_results_simp

end Cert.RefSide

end
-- ==== Proof.RefSide.lean ====
/-
  The one-pass program's run: every weakly fair execution terminates with its result array equal, entry by entry, to
  `Spec.result1` of the argument arrays, and with the arguments unchanged. The operation list is folded segment by
  segment — the degree prefix, then the four heads, each reading the previous head's output —, and each head's output
  read at (n, c) is the column-normalised `Spec.pre1` of its input.
-/
import proofs.«100906_j73718818669321_2_alg».proof.Proof.RefRun
import proofs.«100906_j73718818669321_2_alg».proof.Proof.RefSegDeg
import proofs.«100906_j73718818669321_2_alg».proof.Proof.RefSeg0
import proofs.«100906_j73718818669321_2_alg».proof.Proof.RefSeg1
import proofs.«100906_j73718818669321_2_alg».proof.Proof.RefSeg2
import proofs.«100906_j73718818669321_2_alg».proof.Proof.RefSeg3
import proofs.«100906_j73718818669321_2_alg».proof.Proof.RefKeep0
import proofs.«100906_j73718818669321_2_alg».proof.Proof.RefKeep1
import proofs.«100906_j73718818669321_2_alg».proof.Proof.RefKeep2
import proofs.«100906_j73718818669321_2_alg».proof.Proof.RefKeep3

noncomputable section

namespace Cert.RefSide

open Cert.ReferenceIdeal Cert.ReferenceIdeal.Gen Idealize.ShloMosaic Idealize.ShloMosaic.TcCoe Idealize.SL.Sem Idealize.ShloMosaic.ValueIdx Idealize.ShloMosaic.StableHlo

/-! ## The fold over the whole list -/

theorem ops_keep_arg0 (V : Valuation τ sig (Elt Ideal)) :
    after (ops (F := Ideal)) V (Proc.devRef .tc main_arg0) = V (Proc.devRef .tc main_arg0) := by
  rw [after_ops, head3_keep_arg0, head2_keep_arg0, head1_keep_arg0,
    head0_keep_arg0, deg_keep_arg0]

theorem ops_keep_arg1 (V : Valuation τ sig (Elt Ideal)) :
    after (ops (F := Ideal)) V (Proc.devRef .tc main_arg1) = V (Proc.devRef .tc main_arg1) := by
  rw [after_ops, head3_keep_arg1, head2_keep_arg1, head1_keep_arg1,
    head0_keep_arg1, deg_keep_arg1]

theorem ops_keep_arg2 (V : Valuation τ sig (Elt Ideal)) :
    after (ops (F := Ideal)) V (Proc.devRef .tc main_arg2) = V (Proc.devRef .tc main_arg2) := by
  rw [after_ops, head3_keep_arg2, head2_keep_arg2, head1_keep_arg2,
    head0_keep_arg2, deg_keep_arg2]

theorem ops_keep_arg3 (V : Valuation τ sig (Elt Ideal)) :
    after (ops (F := Ideal)) V (Proc.devRef .tc main_arg3) = V (Proc.devRef .tc main_arg3) := by
  rw [after_ops, head3_keep_arg3, head2_keep_arg3, head1_keep_arg3,
    head0_keep_arg3, deg_keep_arg3]

theorem ops_keep_arg4 (V : Valuation τ sig (Elt Ideal)) :
    after (ops (F := Ideal)) V (Proc.devRef .tc main_arg4) = V (Proc.devRef .tc main_arg4) := by
  rw [after_ops, head3_keep_arg4, head2_keep_arg4, head1_keep_arg4,
    head0_keep_arg4, deg_keep_arg4]

theorem ops_keep_arg5 (V : Valuation τ sig (Elt Ideal)) :
    after (ops (F := Ideal)) V (Proc.devRef .tc main_arg5) = V (Proc.devRef .tc main_arg5) := by
  rw [after_ops, head3_keep_arg5, head2_keep_arg5, head1_keep_arg5,
    head0_keep_arg5, deg_keep_arg5]

theorem ops_keep_arg6 (V : Valuation τ sig (Elt Ideal)) :
    after (ops (F := Ideal)) V (Proc.devRef .tc main_arg6) = V (Proc.devRef .tc main_arg6) := by
  rw [after_ops, head3_keep_arg6, head2_keep_arg6, head1_keep_arg6,
    head0_keep_arg6, deg_keep_arg6]

theorem ops_keep_arg7 (V : Valuation τ sig (Elt Ideal)) :
    after (ops (F := Ideal)) V (Proc.devRef .tc main_arg7) = V (Proc.devRef .tc main_arg7) := by
  rw [after_ops, head3_keep_arg7, head2_keep_arg7, head1_keep_arg7,
    head0_keep_arg7, deg_keep_arg7]

theorem ops_keep_arg8 (V : Valuation τ sig (Elt Ideal)) :
    after (ops (F := Ideal)) V (Proc.devRef .tc main_arg8) = V (Proc.devRef .tc main_arg8) := by
  rw [after_ops, head3_keep_arg8, head2_keep_arg8, head1_keep_arg8,
    head0_keep_arg8, deg_keep_arg8]

theorem ops_keep_arg9 (V : Valuation τ sig (Elt Ideal)) :
    after (ops (F := Ideal)) V (Proc.devRef .tc main_arg9) = V (Proc.devRef .tc main_arg9) := by
  rw [after_ops, head3_keep_arg9, head2_keep_arg9, head1_keep_arg9,
    head0_keep_arg9, deg_keep_arg9]

theorem ops_keep_arg10 (V : Valuation τ sig (Elt Ideal)) :
    after (ops (F := Ideal)) V (Proc.devRef .tc main_arg10) = V (Proc.devRef .tc main_arg10) := by
  rw [after_ops, head3_keep_arg10, head2_keep_arg10, head1_keep_arg10,
    head0_keep_arg10, deg_keep_arg10]

/-- The last array after the whole list: four heads chained, from the argument arrays the valuation holds. -/
theorem ops_out (V : Valuation τ sig (Elt Ideal)) :
    after (ops (F := Ideal)) V (Proc.devRef .tc main_v251)
      = (headOut 3 slices_S4x128x64_S1x128x64_3_0_0 slices_S4x64_S1x64_3_0 slices_S4x128x64_S1x128x64_3_0_0 slices_S4x64_S1x64_3_0 slices_S4x64x1_S1x64x1_3_0_0 slices_S4x1_S1x1_3_0 slices_S4x64x128_S1x64x128_3_0_0 slices_S4x128_S1x128_3_0 (headOut 2 slices_S4x128x64_S1x128x64_2_0_0 slices_S4x64_S1x64_2_0 slices_S4x128x64_S1x128x64_2_0_0 slices_S4x64_S1x64_2_0 slices_S4x64x1_S1x64x1_2_0_0 slices_S4x1_S1x1_2_0 slices_S4x64x128_S1x64x128_2_0_0 slices_S4x128_S1x128_2_0 (headOut 1 slices_S4x128x64_S1x128x64_1_0_0 slices_S4x64_S1x64_1_0 slices_S4x128x64_S1x128x64_1_0_0 slices_S4x64_S1x64_1_0 slices_S4x64x1_S1x64x1_1_0_0 slices_S4x1_S1x1_1_0 slices_S4x64x128_S1x64x128_1_0_0 slices_S4x128_S1x128_1_0 (headOut 0 slices_S4x128x64_S1x128x64_0_0_0 slices_S4x64_S1x64_0_0 slices_S4x128x64_S1x128x64_0_0_0 slices_S4x64_S1x64_0_0 slices_S4x64x1_S1x64x1_0_0_0 slices_S4x1_S1x1_0_0 slices_S4x64x128_S1x64x128_0_0_0 slices_S4x128_S1x128_0_0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (degOps (V (Proc.devRef .tc main_arg1)))) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (degOps (V (Proc.devRef .tc main_arg1)))) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (degOps (V (Proc.devRef .tc main_arg1)))) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (degOps (V (Proc.devRef .tc main_arg1)))) := by
  rw [after_ops, head3_out,
    head2_out, head2_keep_arg1, head2_keep_arg2, head2_keep_arg3, head2_keep_arg4, head2_keep_arg5, head2_keep_arg6, head2_keep_arg7, head2_keep_arg8, head2_keep_arg9, head2_keep_arg10, head2_keep_v3,
    head1_out, head1_keep_arg1, head1_keep_arg2, head1_keep_arg3, head1_keep_arg4, head1_keep_arg5, head1_keep_arg6, head1_keep_arg7, head1_keep_arg8, head1_keep_arg9, head1_keep_arg10, head1_keep_v3,
    head0_out, head0_keep_arg1, head0_keep_arg2, head0_keep_arg3, head0_keep_arg4, head0_keep_arg5, head0_keep_arg6, head0_keep_arg7, head0_keep_arg8, head0_keep_arg9, head0_keep_arg10, head0_keep_v3,
    deg_out, deg_keep_arg0, deg_keep_arg1, deg_keep_arg2, deg_keep_arg3, deg_keep_arg4, deg_keep_arg5, deg_keep_arg6, deg_keep_arg7, deg_keep_arg8, deg_keep_arg9, deg_keep_arg10]

/-! ## The chained heads are `Spec.result1` -/

theorem chain_eq (a0 : FVec Ideal S32768x128 .f32) (a1 : FVec Ideal S32768x8192 .f32) (a2 : FVec Ideal S8192x128 .f32) (a3 : FVec Ideal S4x128x64 .f32) (a4 : FVec Ideal S4x64 .f32) (a5 : FVec Ideal S4x128x64 .f32) (a6 : FVec Ideal S4x64 .f32) (a7 : FVec Ideal S4x64x1 .f32) (a8 : FVec Ideal S4x1 .f32) (a9 : FVec Ideal S4x64x128 .f32) (a10 : FVec Ideal S4x128 .f32) :
    ((headOut 3 slices_S4x128x64_S1x128x64_3_0_0 slices_S4x64_S1x64_3_0 slices_S4x128x64_S1x128x64_3_0_0 slices_S4x64_S1x64_3_0 slices_S4x64x1_S1x64x1_3_0_0 slices_S4x1_S1x1_3_0 slices_S4x64x128_S1x64x128_3_0_0 slices_S4x128_S1x128_3_0 (headOut 2 slices_S4x128x64_S1x128x64_2_0_0 slices_S4x64_S1x64_2_0 slices_S4x128x64_S1x128x64_2_0_0 slices_S4x64_S1x64_2_0 slices_S4x64x1_S1x64x1_2_0_0 slices_S4x1_S1x1_2_0 slices_S4x64x128_S1x64x128_2_0_0 slices_S4x128_S1x128_2_0 (headOut 1 slices_S4x128x64_S1x128x64_1_0_0 slices_S4x64_S1x64_1_0 slices_S4x128x64_S1x128x64_1_0_0 slices_S4x64_S1x64_1_0 slices_S4x64x1_S1x64x1_1_0_0 slices_S4x1_S1x1_1_0 slices_S4x64x128_S1x64x128_1_0_0 slices_S4x128_S1x128_1_0 (headOut 0 slices_S4x128x64_S1x128x64_0_0_0 slices_S4x64_S1x64_0_0 slices_S4x128x64_S1x128x64_0_0_0 slices_S4x64_S1x64_0_0 slices_S4x64x1_S1x64x1_0_0_0 slices_S4x1_S1x1_0_0 slices_S4x64x128_S1x64x128_0_0_0 slices_S4x128_S1x128_0_0 a0 a1 a2 a3 a4 a5 a6 a7 a8 a9 a10 (degOps a1)) a1 a2 a3 a4 a5 a6 a7 a8 a9 a10 (degOps a1)) a1 a2 a3 a4 a5 a6 a7 a8 a9 a10 (degOps a1)) a1 a2 a3 a4 a5 a6 a7 a8 a9 a10 (degOps a1)) : S32768x128.Idx → EReal)
      = fun i => Spec.result1 (Spec.argsOf a0 a1 a2 a3 a4 a5 a6 a7 a8 a9 a10) (i 0) (i 1) := by
  have hdeg := degOps_apply a1
  have e0 : (fun (n : Fin 32768) (k : Fin 128) => (headOut 0 slices_S4x128x64_S1x128x64_0_0_0 slices_S4x64_S1x64_0_0 slices_S4x128x64_S1x128x64_0_0_0 slices_S4x64_S1x64_0_0 slices_S4x64x1_S1x64x1_0_0_0 slices_S4x1_S1x1_0_0 slices_S4x64x128_S1x64x128_0_0_0 slices_S4x128_S1x128_0_0 a0 a1 a2 a3 a4 a5 a6 a7 a8 a9 a10 (degOps a1)) (ix2 n k)) = _ :=
    funext fun n => funext fun k => headOut_apply 0 (by decide) slices_S4x128x64_S1x128x64_0_0_0 slices_S4x64_S1x64_0_0 slices_S4x128x64_S1x128x64_0_0_0 slices_S4x64_S1x64_0_0 slices_S4x64x1_S1x64x1_0_0_0 slices_S4x1_S1x1_0_0 slices_S4x64x128_S1x64x128_0_0_0 slices_S4x128_S1x128_0_0 a0 a0 a1 a2 a3 a4 a5 a6 a7 a8 a9 a10 (degOps a1) hdeg n k
  have e1 : (fun (n : Fin 32768) (k : Fin 128) => (headOut 1 slices_S4x128x64_S1x128x64_1_0_0 slices_S4x64_S1x64_1_0 slices_S4x128x64_S1x128x64_1_0_0 slices_S4x64_S1x64_1_0 slices_S4x64x1_S1x64x1_1_0_0 slices_S4x1_S1x1_1_0 slices_S4x64x128_S1x64x128_1_0_0 slices_S4x128_S1x128_1_0 (headOut 0 slices_S4x128x64_S1x128x64_0_0_0 slices_S4x64_S1x64_0_0 slices_S4x128x64_S1x128x64_0_0_0 slices_S4x64_S1x64_0_0 slices_S4x64x1_S1x64x1_0_0_0 slices_S4x1_S1x1_0_0 slices_S4x64x128_S1x64x128_0_0_0 slices_S4x128_S1x128_0_0 a0 a1 a2 a3 a4 a5 a6 a7 a8 a9 a10 (degOps a1)) a1 a2 a3 a4 a5 a6 a7 a8 a9 a10 (degOps a1)) (ix2 n k)) = _ :=
    funext fun n => funext fun k => headOut_apply 1 (by decide) slices_S4x128x64_S1x128x64_1_0_0 slices_S4x64_S1x64_1_0 slices_S4x128x64_S1x128x64_1_0_0 slices_S4x64_S1x64_1_0 slices_S4x64x1_S1x64x1_1_0_0 slices_S4x1_S1x1_1_0 slices_S4x64x128_S1x64x128_1_0_0 slices_S4x128_S1x128_1_0 a0 (headOut 0 slices_S4x128x64_S1x128x64_0_0_0 slices_S4x64_S1x64_0_0 slices_S4x128x64_S1x128x64_0_0_0 slices_S4x64_S1x64_0_0 slices_S4x64x1_S1x64x1_0_0_0 slices_S4x1_S1x1_0_0 slices_S4x64x128_S1x64x128_0_0_0 slices_S4x128_S1x128_0_0 a0 a1 a2 a3 a4 a5 a6 a7 a8 a9 a10 (degOps a1)) a1 a2 a3 a4 a5 a6 a7 a8 a9 a10 (degOps a1) hdeg n k
  rw [e0] at e1
  have e2 : (fun (n : Fin 32768) (k : Fin 128) => (headOut 2 slices_S4x128x64_S1x128x64_2_0_0 slices_S4x64_S1x64_2_0 slices_S4x128x64_S1x128x64_2_0_0 slices_S4x64_S1x64_2_0 slices_S4x64x1_S1x64x1_2_0_0 slices_S4x1_S1x1_2_0 slices_S4x64x128_S1x64x128_2_0_0 slices_S4x128_S1x128_2_0 (headOut 1 slices_S4x128x64_S1x128x64_1_0_0 slices_S4x64_S1x64_1_0 slices_S4x128x64_S1x128x64_1_0_0 slices_S4x64_S1x64_1_0 slices_S4x64x1_S1x64x1_1_0_0 slices_S4x1_S1x1_1_0 slices_S4x64x128_S1x64x128_1_0_0 slices_S4x128_S1x128_1_0 (headOut 0 slices_S4x128x64_S1x128x64_0_0_0 slices_S4x64_S1x64_0_0 slices_S4x128x64_S1x128x64_0_0_0 slices_S4x64_S1x64_0_0 slices_S4x64x1_S1x64x1_0_0_0 slices_S4x1_S1x1_0_0 slices_S4x64x128_S1x64x128_0_0_0 slices_S4x128_S1x128_0_0 a0 a1 a2 a3 a4 a5 a6 a7 a8 a9 a10 (degOps a1)) a1 a2 a3 a4 a5 a6 a7 a8 a9 a10 (degOps a1)) a1 a2 a3 a4 a5 a6 a7 a8 a9 a10 (degOps a1)) (ix2 n k)) = _ :=
    funext fun n => funext fun k => headOut_apply 2 (by decide) slices_S4x128x64_S1x128x64_2_0_0 slices_S4x64_S1x64_2_0 slices_S4x128x64_S1x128x64_2_0_0 slices_S4x64_S1x64_2_0 slices_S4x64x1_S1x64x1_2_0_0 slices_S4x1_S1x1_2_0 slices_S4x64x128_S1x64x128_2_0_0 slices_S4x128_S1x128_2_0 a0 (headOut 1 slices_S4x128x64_S1x128x64_1_0_0 slices_S4x64_S1x64_1_0 slices_S4x128x64_S1x128x64_1_0_0 slices_S4x64_S1x64_1_0 slices_S4x64x1_S1x64x1_1_0_0 slices_S4x1_S1x1_1_0 slices_S4x64x128_S1x64x128_1_0_0 slices_S4x128_S1x128_1_0 (headOut 0 slices_S4x128x64_S1x128x64_0_0_0 slices_S4x64_S1x64_0_0 slices_S4x128x64_S1x128x64_0_0_0 slices_S4x64_S1x64_0_0 slices_S4x64x1_S1x64x1_0_0_0 slices_S4x1_S1x1_0_0 slices_S4x64x128_S1x64x128_0_0_0 slices_S4x128_S1x128_0_0 a0 a1 a2 a3 a4 a5 a6 a7 a8 a9 a10 (degOps a1)) a1 a2 a3 a4 a5 a6 a7 a8 a9 a10 (degOps a1)) a1 a2 a3 a4 a5 a6 a7 a8 a9 a10 (degOps a1) hdeg n k
  rw [e1] at e2
  have e3 : (fun (n : Fin 32768) (k : Fin 128) => (headOut 3 slices_S4x128x64_S1x128x64_3_0_0 slices_S4x64_S1x64_3_0 slices_S4x128x64_S1x128x64_3_0_0 slices_S4x64_S1x64_3_0 slices_S4x64x1_S1x64x1_3_0_0 slices_S4x1_S1x1_3_0 slices_S4x64x128_S1x64x128_3_0_0 slices_S4x128_S1x128_3_0 (headOut 2 slices_S4x128x64_S1x128x64_2_0_0 slices_S4x64_S1x64_2_0 slices_S4x128x64_S1x128x64_2_0_0 slices_S4x64_S1x64_2_0 slices_S4x64x1_S1x64x1_2_0_0 slices_S4x1_S1x1_2_0 slices_S4x64x128_S1x64x128_2_0_0 slices_S4x128_S1x128_2_0 (headOut 1 slices_S4x128x64_S1x128x64_1_0_0 slices_S4x64_S1x64_1_0 slices_S4x128x64_S1x128x64_1_0_0 slices_S4x64_S1x64_1_0 slices_S4x64x1_S1x64x1_1_0_0 slices_S4x1_S1x1_1_0 slices_S4x64x128_S1x64x128_1_0_0 slices_S4x128_S1x128_1_0 (headOut 0 slices_S4x128x64_S1x128x64_0_0_0 slices_S4x64_S1x64_0_0 slices_S4x128x64_S1x128x64_0_0_0 slices_S4x64_S1x64_0_0 slices_S4x64x1_S1x64x1_0_0_0 slices_S4x1_S1x1_0_0 slices_S4x64x128_S1x64x128_0_0_0 slices_S4x128_S1x128_0_0 a0 a1 a2 a3 a4 a5 a6 a7 a8 a9 a10 (degOps a1)) a1 a2 a3 a4 a5 a6 a7 a8 a9 a10 (degOps a1)) a1 a2 a3 a4 a5 a6 a7 a8 a9 a10 (degOps a1)) a1 a2 a3 a4 a5 a6 a7 a8 a9 a10 (degOps a1)) (ix2 n k)) = _ :=
    funext fun n => funext fun k => headOut_apply 3 (by decide) slices_S4x128x64_S1x128x64_3_0_0 slices_S4x64_S1x64_3_0 slices_S4x128x64_S1x128x64_3_0_0 slices_S4x64_S1x64_3_0 slices_S4x64x1_S1x64x1_3_0_0 slices_S4x1_S1x1_3_0 slices_S4x64x128_S1x64x128_3_0_0 slices_S4x128_S1x128_3_0 a0 (headOut 2 slices_S4x128x64_S1x128x64_2_0_0 slices_S4x64_S1x64_2_0 slices_S4x128x64_S1x128x64_2_0_0 slices_S4x64_S1x64_2_0 slices_S4x64x1_S1x64x1_2_0_0 slices_S4x1_S1x1_2_0 slices_S4x64x128_S1x64x128_2_0_0 slices_S4x128_S1x128_2_0 (headOut 1 slices_S4x128x64_S1x128x64_1_0_0 slices_S4x64_S1x64_1_0 slices_S4x128x64_S1x128x64_1_0_0 slices_S4x64_S1x64_1_0 slices_S4x64x1_S1x64x1_1_0_0 slices_S4x1_S1x1_1_0 slices_S4x64x128_S1x64x128_1_0_0 slices_S4x128_S1x128_1_0 (headOut 0 slices_S4x128x64_S1x128x64_0_0_0 slices_S4x64_S1x64_0_0 slices_S4x128x64_S1x128x64_0_0_0 slices_S4x64_S1x64_0_0 slices_S4x64x1_S1x64x1_0_0_0 slices_S4x1_S1x1_0_0 slices_S4x64x128_S1x64x128_0_0_0 slices_S4x128_S1x128_0_0 a0 a1 a2 a3 a4 a5 a6 a7 a8 a9 a10 (degOps a1)) a1 a2 a3 a4 a5 a6 a7 a8 a9 a10 (degOps a1)) a1 a2 a3 a4 a5 a6 a7 a8 a9 a10 (degOps a1)) a1 a2 a3 a4 a5 a6 a7 a8 a9 a10 (degOps a1) hdeg n k
  rw [e2] at e3
  funext i
  obtain ⟨n, c, rfl⟩ : ∃ (n : Fin 32768) (c : Fin 128), i = ix2 n c := ⟨i 0, i 1, eq_ix2 i⟩
  exact congrFun (congrFun e3 n) c

/-! ## The run -/

/-- Every weakly fair execution of the one-pass program terminates with its result `Spec.result1` of the argument arrays
    and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v251)
        = (fun i => Spec.result1 (Spec.argsOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run (defs (F := Ideal)) _ _).mono (fun _ h c => ⟨(h c main_v251).trans ((ops_out _).trans (chain_eq _ _ _ _ _ _ _ _ _ _ _)),
      (h c main_arg0).trans (ops_keep_arg0 _),
      (h c main_arg1).trans (ops_keep_arg1 _),
      (h c main_arg2).trans (ops_keep_arg2 _),
      (h c main_arg3).trans (ops_keep_arg3 _),
      (h c main_arg4).trans (ops_keep_arg4 _),
      (h c main_arg5).trans (ops_keep_arg5 _),
      (h c main_arg6).trans (ops_keep_arg6 _),
      (h c main_arg7).trans (ops_keep_arg7 _),
      (h c main_arg8).trans (ops_keep_arg8 _),
      (h c main_arg9).trans (ops_keep_arg9 _),
      (h c main_arg10).trans (ops_keep_arg10 _)⟩)
    (run_after m ρ)

/-- The frame alone: termination with the arguments unchanged. -/
theorem frame_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run (defs (F := Ideal)) _ _).mono (fun _ h c => (h c).2) (run m ρ)

end Cert.RefSide

end
-- ==== Proof.LibExtendedSums.lean ====
/-
  Sums, three-pass products and min-max normalisation on the extended reals, where an entry may be infinite.

  On the extended reals a finite sum that has an infinite term is infinite, and the difference `x - x` is `0` for a
  real `x` but `⊥` for an infinite one. Hence a product computed in three passes over an operand split as
  `x = x + (x - x)`,
      `∑ u k * w k  +  ∑ u k * (w k - w k)  +  ∑ (u k - u k) * w k`,
  is the plain product `∑ u k * w k` whenever that product is real, and is infinite whenever that product is
  infinite (`hilo_sum`). A column of extended reals with an infinite entry has an infinite minimum or maximum, so
  its min-max normalisation `(v n - mn) / (mx - mn + e)` divides by an infinity and is `0` at every index
  (`normalize_eq_zero`); two columns that agree wherever they differ from being both infinite therefore have the
  same normalisation (`normalize_congr`), and a normalised column is always real (`normalize_isReal`).
-/
import Idealize.ShloMosaic.PureOps.Ideal

noncomputable section

namespace Cert.Lib.ExtSums

open Idealize.ShloMosaic

/-- An extended real that is a real number. -/
def IsReal (x : EReal) : Prop := ∃ r : ℝ, x = (r : EReal)

/-- An extended real that is one of the two infinities. -/
def IsInf (x : EReal) : Prop := x = ⊤ ∨ x = ⊥

theorem isReal_or_isInf (x : EReal) : IsReal x ∨ IsInf x := by
  induction x using EReal.rec with
  | bot => exact Or.inr (Or.inr rfl)
  | coe r => exact Or.inl ⟨r, rfl⟩
  | top => exact Or.inr (Or.inl rfl)

theorem not_isInf_of_isReal {x : EReal} (h : IsReal x) : ¬ IsInf x := by
  obtain ⟨r, rfl⟩ := h
  rintro (h | h)
  · exact EReal.coe_ne_top r h
  · exact EReal.coe_ne_bot r h

theorem isReal_zero : IsReal 0 := ⟨0, by simp⟩

theorem isReal_coe (r : ℝ) : IsReal (r : EReal) := ⟨r, rfl⟩

theorem isReal_add {x y : EReal} (hx : IsReal x) (hy : IsReal y) : IsReal (x + y) := by
  obtain ⟨r, rfl⟩ := hx; obtain ⟨q, rfl⟩ := hy; exact ⟨r + q, by rw [EReal.coe_add]⟩

theorem isReal_sub {x y : EReal} (hx : IsReal x) (hy : IsReal y) : IsReal (x - y) := by
  obtain ⟨r, rfl⟩ := hx; obtain ⟨q, rfl⟩ := hy; exact ⟨r - q, by rw [EReal.coe_sub]⟩

theorem isReal_mul {x y : EReal} (hx : IsReal x) (hy : IsReal y) : IsReal (x * y) := by
  obtain ⟨r, rfl⟩ := hx; obtain ⟨q, rfl⟩ := hy; exact ⟨r * q, by rw [EReal.coe_mul]⟩

theorem isReal_max {x y : EReal} (hx : IsReal x) (hy : IsReal y) : IsReal (max x y) := by
  rcases max_choice x y with h | h <;> rw [h] <;> assumption

/-- A finite sum of real numbers is a real number. -/
theorem isReal_sum {K : Type*} (s : Finset K) (f : K → EReal) (h : ∀ k ∈ s, IsReal (f k)) :
    IsReal (∑ k ∈ s, f k) := by
  classical
  revert h
  refine Finset.induction_on s ?_ ?_
  · intro _; exact ⟨0, by simp⟩
  · intro a s ha ih h
    rw [Finset.sum_insert ha]
    exact isReal_add (h a (Finset.mem_insert_self a s)) (ih fun k hk => h k (Finset.mem_insert_of_mem hk))

/-- The difference of a real number with itself is zero. -/
theorem real_sub_self (r : ℝ) : (r : EReal) - (r : EReal) = 0 := by
  rw [← EReal.coe_sub, sub_self, EReal.coe_zero]

/-- The difference of an infinity with itself is `⊥` (the extended reals' convention). -/
theorem inf_sub_self {x : EReal} (h : IsInf x) : x - x = ⊥ := by
  rcases h with rfl | rfl <;> simp [sub_eq_add_neg]

theorem isInf_add_left {x : EReal} (y : EReal) (h : IsInf x) : IsInf (x + y) := by
  rcases h with rfl | rfl
  · induction y using EReal.rec with
    | bot => exact Or.inr (by simp)
    | coe r => exact Or.inl (by simp)
    | top => exact Or.inl (by simp)
  · exact Or.inr (by simp)

theorem isInf_add_right (x : EReal) {y : EReal} (h : IsInf y) : IsInf (x + y) := by
  rw [add_comm]; exact isInf_add_left x h

/-- An infinity times a nonzero real number is an infinity. -/
theorem isInf_mul_real {x : EReal} (h : IsInf x) {q : ℝ} (hq : q ≠ 0) : IsInf (x * (q : EReal)) := by
  rcases lt_or_gt_of_ne hq with hneg | hpos
  · rcases h with rfl | rfl
    · exact Or.inr (EReal.top_mul_coe_of_neg hneg)
    · exact Or.inl (EReal.bot_mul_coe_of_neg hneg)
  · rcases h with rfl | rfl
    · exact Or.inl (EReal.top_mul_coe_of_pos hpos)
    · exact Or.inr (EReal.bot_mul_coe_of_pos hpos)

/-- A finite sum with an infinite term is infinite. -/
theorem isInf_sum {K : Type*} (s : Finset K) (f : K → EReal) (k0 : K) (hk : k0 ∈ s) (h : IsInf (f k0)) :
    IsInf (∑ k ∈ s, f k) := by
  classical
  rw [← Finset.add_sum_erase s f hk]
  exact isInf_add_left _ h

/-- The second pass of a split product vanishes: a real operand's low part `w - w` is zero. -/
theorem sum_mul_low_eq_zero {K : Type*} (s : Finset K) (u w : K → EReal) (hw : ∀ k ∈ s, IsReal (w k)) :
    ∑ k ∈ s, u k * (w k - w k) = 0 :=
  Finset.sum_eq_zero fun k hk => by
    obtain ⟨r, hr⟩ := hw k hk
    rw [hr, real_sub_self, mul_zero]

/-- The third pass vanishes too when the other operand is real as well. -/
theorem sum_low_mul_eq_zero {K : Type*} (s : Finset K) (u w : K → EReal) (hu : ∀ k ∈ s, IsReal (u k)) :
    ∑ k ∈ s, (u k - u k) * w k = 0 :=
  Finset.sum_eq_zero fun k hk => by
    obtain ⟨r, hr⟩ := hu k hk
    rw [hr, real_sub_self, zero_mul]

/-- The three-pass product of real operands is the plain product. -/
theorem hilo_sum_of_real {K : Type*} (s : Finset K) (u w : K → EReal) (hu : ∀ k ∈ s, IsReal (u k))
    (hw : ∀ k ∈ s, IsReal (w k)) :
    ∑ k ∈ s, u k * w k + ∑ k ∈ s, u k * (w k - w k) + ∑ k ∈ s, (u k - u k) * w k = ∑ k ∈ s, u k * w k := by
  rw [sum_mul_low_eq_zero s u w hw, sum_low_mul_eq_zero s u w hu, add_zero, add_zero]

/-- The three-pass product against a real operand `w`: it is the plain product, or both are infinite. -/
theorem hilo_sum {K : Type*} (s : Finset K) (u w : K → EReal) (hw : ∀ k ∈ s, IsReal (w k)) :
    ∑ k ∈ s, u k * w k + ∑ k ∈ s, u k * (w k - w k) + ∑ k ∈ s, (u k - u k) * w k = ∑ k ∈ s, u k * w k
    ∨ (IsInf (∑ k ∈ s, u k * w k + ∑ k ∈ s, u k * (w k - w k) + ∑ k ∈ s, (u k - u k) * w k)
        ∧ IsInf (∑ k ∈ s, u k * w k)) := by
  rw [sum_mul_low_eq_zero s u w hw, add_zero]
  by_cases hall : ∀ k ∈ s, IsReal (u k * w k)
  · left
    have h3 : ∑ k ∈ s, (u k - u k) * w k = 0 := Finset.sum_eq_zero fun k hk => by
      rcases isReal_or_isInf (u k) with ⟨r, hr⟩ | hinf
      · rw [hr, real_sub_self, zero_mul]
      · obtain ⟨q, hq⟩ := hw k hk
        by_cases hq0 : q = 0
        · rw [hq, hq0, EReal.coe_zero, mul_zero]
        · exact absurd (hq ▸ isInf_mul_real hinf hq0) (not_isInf_of_isReal (hall k hk))
    rw [h3, add_zero]
  · right
    obtain ⟨k0, hk0s, hk0⟩ : ∃ k0, k0 ∈ s ∧ ¬ IsReal (u k0 * w k0) := by
      by_contra hne
      exact hall fun k hk => by_contra fun hn => hne ⟨k, hk, hn⟩
    obtain ⟨q, hq⟩ := hw k0 hk0s
    have hu : IsInf (u k0) := (isReal_or_isInf (u k0)).resolve_left fun hr => hk0 (isReal_mul hr ⟨q, hq⟩)
    have hq0 : q ≠ 0 := by
      rintro rfl
      exact hk0 (by rw [hq, EReal.coe_zero, mul_zero]; exact isReal_zero)
    have hA : IsInf (∑ k ∈ s, u k * w k) :=
      isInf_sum s _ k0 hk0s ((isReal_or_isInf _).resolve_left hk0)
    have hCk : IsInf ((u k0 - u k0) * w k0) := by
      rw [inf_sub_self hu, hq]; exact isInf_mul_real (Or.inr rfl) hq0
    exact ⟨isInf_add_right _ (isInf_sum s (fun k => (u k - u k) * w k) k0 hk0s hCk), hA⟩

/-! ## Min-max normalisation -/

theorem div_top (x : EReal) : Ideal.div x ⊤ = 0 := by
  rw [Ideal.div, if_neg (by simp), EReal.inv_top, mul_zero]

theorem div_bot (x : EReal) : Ideal.div x ⊥ = 0 := by
  rw [Ideal.div, if_neg (by simp), EReal.inv_bot, mul_zero]

/-- Any quotient by an infinity is zero. -/
theorem div_isInf (x : EReal) {y : EReal} (h : IsInf y) : Ideal.div x y = 0 := by
  rcases h with rfl | rfl
  · exact div_top x
  · exact div_bot x

/-- With an infinite maximum or an infinite minimum the normaliser's denominator is infinite. -/
theorem isInf_denominator {mn mx : EReal} (e : ℝ) (h : mx = ⊤ ∨ mn = ⊥) : IsInf (mx - mn + (e : EReal)) := by
  rcases h with rfl | rfl
  · induction mn using EReal.rec with
    | bot => exact Or.inl (by simp [sub_eq_add_neg])
    | coe r => exact Or.inl (by simp [sub_eq_add_neg])
    | top => exact Or.inr (by simp [sub_eq_add_neg])
  · induction mx using EReal.rec with
    | bot => exact Or.inr (by simp [sub_eq_add_neg])
    | coe r => exact Or.inl (by simp [sub_eq_add_neg])
    | top => exact Or.inl (by simp [sub_eq_add_neg])

/-- A column with an infinite entry normalises to zero: `mn` below and `mx` above every entry. -/
theorem normalize_eq_zero {ι : Type*} (v : ι → EReal) (mn mx : EReal) (e : ℝ) (hmn : ∀ n, mn ≤ v n)
    (hmx : ∀ n, v n ≤ mx) (n0 : ι) (h0 : IsInf (v n0)) (n : ι) :
    max (Ideal.div (v n - mn) (mx - mn + (e : EReal))) 0 = 0 := by
  have h : mx = ⊤ ∨ mn = ⊥ := by
    rcases h0 with h | h
    · exact Or.inl (top_le_iff.mp (h ▸ hmx n0))
    · exact Or.inr (le_bot_iff.mp (h ▸ hmn n0))
  rw [div_isInf _ (isInf_denominator e h), max_self]

/-- Two columns that at each index are equal or both infinite have the same normalisation, for any way `lo`,
    `hi` of taking a column's lower and upper bound (its minimum and maximum). -/
theorem normalize_congr {ι : Type*} (lo hi : (ι → EReal) → EReal) (hlo : ∀ v n, lo v ≤ v n) (hhi : ∀ v n, v n ≤ hi v)
    (e : ℝ) (a b : ι → EReal) (h : ∀ n, a n = b n ∨ (IsInf (a n) ∧ IsInf (b n))) (n : ι) :
    max (Ideal.div (a n - lo a) (hi a - lo a + (e : EReal))) 0
      = max (Ideal.div (b n - lo b) (hi b - lo b + (e : EReal))) 0 := by
  by_cases hex : ∃ n0, IsInf (a n0) ∧ IsInf (b n0)
  · obtain ⟨n0, ha, hb⟩ := hex
    rw [normalize_eq_zero a (lo a) (hi a) e (hlo a) (hhi a) n0 ha n,
      normalize_eq_zero b (lo b) (hi b) e (hlo b) (hhi b) n0 hb n]
  · have hab : a = b := funext fun k => (h k).resolve_right fun hk => hex ⟨k, hk⟩
    rw [hab]

/-- A normalised entry is a real number, whatever the column holds: `mn` and `mx` are bounds that the column
    attains, `e` is positive. -/
theorem normalize_isReal {ι : Type*} (v : ι → EReal) (mn mx : EReal) (e : ℝ) (he : 0 < e) (hmn : ∀ n, mn ≤ v n)
    (hmx : ∀ n, v n ≤ mx) (hmn' : ∃ n, mn = v n) (hmx' : ∃ n, mx = v n) (n : ι) :
    IsReal (max (Ideal.div (v n - mn) (mx - mn + (e : EReal))) 0) := by
  by_cases hinf : ∃ n0, IsInf (v n0)
  · obtain ⟨n0, h0⟩ := hinf
    rw [normalize_eq_zero v mn mx e hmn hmx n0 h0 n]; exact isReal_zero
  · have hreal : ∀ k, IsReal (v k) := fun k => (isReal_or_isInf (v k)).resolve_right fun hk => hinf ⟨k, hk⟩
    obtain ⟨n1, h1⟩ := hmn'
    obtain ⟨n2, h2⟩ := hmx'
    obtain ⟨a, ha⟩ : IsReal mn := h1 ▸ hreal n1
    obtain ⟨b, hb⟩ : IsReal mx := h2 ▸ hreal n2
    obtain ⟨x, hx⟩ := hreal n
    have hab : a ≤ b := by
      have := (hmn n1).trans (hmx n1); rw [ha, hb] at this; exact_mod_cast this
    refine isReal_max ?_ isReal_zero
    rw [hx, ha, hb, ← EReal.coe_sub, ← EReal.coe_sub, ← EReal.coe_add,
      Ideal.div_coe (by linarith : b - a + e ≠ 0), ← EReal.coe_mul]
    exact isReal_coe _

end Cert.Lib.ExtSums

end
-- ==== Proof.BridgeAgg.lean ====
/-
  The aggregates of the two programs agree for real arguments.

  Column `64 * h + j` of the stacked edge transform is head `h`'s column `j`; for real arguments every entry of an
  edge transform is real, so the stacked transform's low part `t - t` vanishes and the two-pass aggregate
  `(inc · t + inc · (t - t)) / deg` is the one-pass aggregate `(inc · t) / deg`.
-/
import proofs.«100906_j73718818669321_2_alg».proof.Proof.Spec
import proofs.«100906_j73718818669321_2_alg».proof.Proof.LibExtendedSums

noncomputable section

namespace Cert.Spec

open Idealize.ShloMosaic Cert.Lib.ExtSums

/-- Column `64 * h + j` of the stacked edge transform is head `h`'s column `j`. -/
theorem teAll_col (A : Args) (h : Fin 4) (j : Fin 64) (e : Fin 8192) : teAll A e (col h j) = te A h e j := by
  have hh := h.isLt
  have hj := j.isLt
  have h1 : (⟨(col h j).val / 64, by have := (col h j).isLt; omega⟩ : Fin 4) = h :=
    Fin.ext (by show (64 * h.val + j.val) / 64 = h.val; omega)
  have h2 : (⟨(col h j).val % 64, Nat.mod_lt _ (by decide)⟩ : Fin 64) = j :=
    Fin.ext (by show (64 * h.val + j.val) % 64 = j.val; omega)
  unfold teAll te
  rw [h1, h2]

/-- For real arguments every entry of an edge transform is real. -/
theorem te_isReal (A : Args) (hA : A.Real) (h : Fin 4) (e : Fin 8192) (j : Fin 64) : IsReal (te A h e j) := by
  obtain ⟨_, _, hef, _, _, hew, heb, _⟩ := hA
  unfold te dot1
  exact isReal_add (isReal_sum _ _ fun k _ => isReal_mul (hef e k) (hew h k j)) (heb h j)

/-- The aggregate formed from the stacked transform and its low part, read at head `h`'s columns, is that head's
    one-pass aggregate. -/
theorem aggAll_col (A : Args) (hA : A.Real) (h : Fin 4) (n : Fin 32768) (j : Fin 64) :
    aggAll A.inc (teAll A) (fun e d => teAll A e d - teAll A e d) n (col h j) = aggOne A.inc (te A h) n j := by
  have hlo : ∑ e, A.inc n e * (te A h e j - te A h e j) = 0 :=
    sum_mul_low_eq_zero Finset.univ (A.inc n) (fun e => te A h e j) fun e _ => te_isReal A hA h e j
  simp only [aggAll, aggOne, teAll_col, hlo, add_zero]

end Cert.Spec

end
-- ==== Proof.BridgeHead.lean ====
/-
  One head, on one node's row: the three-pass row and the one-pass row are equal, or both are infinite.

  The row `x` that enters a head is real, and so are the weights, so the first three-pass product is the plain
  product and the node transform, the score, the gate and the gated residual `upd` are the same on both sides. The
  aggregate, and with it `upd`, may be infinite; the second product has `upd` as its left operand and a real right
  operand, so it is the plain product or both are infinite, and adding the bias keeps either alternative.
-/
import proofs.«100906_j73718818669321_2_alg».proof.Proof.Spec
import proofs.«100906_j73718818669321_2_alg».proof.Proof.LibExtendedSums
import proofs.«100906_j73718818669321_2_alg».proof.Proof.BridgeAgg

noncomputable section

namespace Cert.Spec

open Idealize.ShloMosaic Cert.Lib.ExtSums

/-- The three-pass product of real operands is the one-pass product. -/
theorem dot3_eq_dot1_of_real {K : Type} [Fintype K] (u w : K → EReal) (hu : ∀ k, IsReal (u k))
    (hw : ∀ k, IsReal (w k)) : dot3 u w = dot1 u w :=
  hilo_sum_of_real Finset.univ u w (fun k _ => hu k) (fun k _ => hw k)

/-- The three-pass product against a real right operand is the one-pass product, or both are infinite. -/
theorem dot3_eq_dot1_or_isInf {K : Type} [Fintype K] (u w : K → EReal) (hw : ∀ k, IsReal (w k)) :
    dot3 u w = dot1 u w ∨ (IsInf (dot3 u w) ∧ IsInf (dot1 u w)) :=
  hilo_sum Finset.univ u w (fun k _ => hw k)

/-- One head on a real row, with any aggregate: the two rows before normalisation are equal or both infinite. -/
theorem headPre3_eq_or_isInf (W : Fin 128 → Fin 64 → EReal) (b : Fin 64 → EReal) (a : Fin 64 → EReal) (a0 : EReal)
    (O : Fin 64 → Fin 128 → EReal) (o : Fin 128 → EReal) (hW : ∀ k j, IsReal (W k j)) (hO : ∀ j c, IsReal (O j c))
    (x : Fin 128 → EReal) (hx : ∀ k, IsReal (x k)) (agg : Fin 64 → EReal) (c : Fin 128) :
    headPre3 W b a a0 O o x agg c = headPre1 W b a a0 O o x agg c
      ∨ (IsInf (headPre3 W b a a0 O o x agg c) ∧ IsInf (headPre1 W b a a0 O o x agg c)) := by
  have htn : (fun j => dot3 x (fun k => W k j) + b j) = (fun j => dot1 x (fun k => W k j) + b j) :=
    funext fun j => by rw [dot3_eq_dot1_of_real x _ hx (fun k => hW k j)]
  unfold headPre3 headPre1
  rw [htn]
  rcases dot3_eq_dot1_or_isInf (upd a a0 (fun j => dot1 x (fun k => W k j) + b j) agg) (fun j => O j c)
    (fun j => hO j c) with h | ⟨h3, h1⟩
  · left; rw [h]
  · right; exact ⟨isInf_add_left _ h3, isInf_add_left _ h1⟩

/-- Head `h` of the two programs on the same real input array: entry by entry equal, or both infinite. -/
theorem pre3_eq_or_isInf (A : Args) (hA : A.Real) (h : Fin 4) (x : Fin 32768 → Fin 128 → EReal)
    (hx : ∀ n k, IsReal (x n k)) (n : Fin 32768) (c : Fin 128) :
    pre3 A h x n c = pre1 A h x n c ∨ (IsInf (pre3 A h x n c) ∧ IsInf (pre1 A h x n c)) := by
  have hagg : (fun j => aggAll A.inc (teAll A) (fun e d => teAll A e d - teAll A e d) n (col h j))
      = aggOne A.inc (te A h) n := funext fun j => aggAll_col A hA h n j
  unfold pre3 pre1
  rw [hagg]
  obtain ⟨_, _, _, hnw, _, _, _, _, _, how, _⟩ := hA
  exact headPre3_eq_or_isInf _ _ _ _ _ _ (hnw h) (how h) (x n) (hx n) _ c

end Cert.Spec

end
-- ==== Proof.BridgeConst.lean ====
/-
  The constant of the min-max normalisation: the f32 word `0x322BCC77` (the literal `1e-8`) denotes the positive
  real `11258999 · 2⁻⁵⁰` (sign 0, exponent field 100, fraction field 2870391: `(2²³ + 2870391) · 2^(100-127-23)`).
-/
import proofs.«100906_j73718818669321_2_alg».proof.Proof.Spec

noncomputable section

namespace Cert.Spec

open Idealize.ShloMosaic

/-- The real number the word of `eps` denotes. -/
def epsR : ℝ := 11258999 * (2 : ℝ) ^ (-50 : ℤ)

theorem eps_eq : eps = (epsR : EReal) := by
  simp [eps, epsR, Ideal.ofBits, Ideal.ieee, -EReal.coe_mul]

theorem epsR_pos : 0 < epsR := by
  unfold epsR; positivity

end Cert.Spec

end
-- ==== Proof.BridgeNorm.lean ====
/-
  Min-max normalisation of a whole array, column by column.

  A column indexed by the nonempty finite type `Fin 32768` attains its infimum and its supremum, and the
  normalisation constant is a positive real, so every entry of a normalised array is real, whatever the array
  holds. Two arrays that entry by entry are equal or both infinite have the same normalisation.
-/
import proofs.«100906_j73718818669321_2_alg».proof.Proof.Spec
import proofs.«100906_j73718818669321_2_alg».proof.Proof.LibExtendedSums
import proofs.«100906_j73718818669321_2_alg».proof.Proof.BridgeConst

noncomputable section

namespace Cert.Spec

open Idealize.ShloMosaic Cert.Lib.ExtSums

/-- Every entry of a normalised array is real. -/
theorem normAll_isReal (pre : Fin 32768 → Fin 128 → EReal) (n : Fin 32768) (c : Fin 128) :
    IsReal (normAll pre n c) := by
  obtain ⟨i, hi⟩ := exists_eq_ciInf_of_finite (f := fun n => pre n c)
  obtain ⟨k, hk⟩ := exists_eq_ciSup_of_finite (f := fun n => pre n c)
  unfold normAll norm
  rw [eps_eq]
  exact normalize_isReal (fun n => pre n c) (colMin pre c) (colMax pre c) epsR epsR_pos
    (fun n => iInf_le (fun n => pre n c) n) (fun n => le_iSup (fun n => pre n c) n) ⟨i, hi.symm⟩ ⟨k, hk.symm⟩ n

/-- Arrays that entry by entry are equal or both infinite have the same normalisation. -/
theorem normAll_congr (p q : Fin 32768 → Fin 128 → EReal)
    (h : ∀ n c, p n c = q n c ∨ (IsInf (p n c) ∧ IsInf (q n c))) : normAll p = normAll q := by
  funext n c
  unfold normAll norm colMin colMax
  rw [eps_eq]
  exact normalize_congr (fun v => ⨅ n, v n) (fun v => ⨆ n, v n) (fun v n => iInf_le v n) (fun v n => le_iSup v n)
    epsR (fun n => p n c) (fun n => q n c) (fun n => h n c) n

end Cert.Spec

end
-- ==== Proof.Bridge.lean ====
/-
  The three-pass program and the one-pass program have the same result for real arguments.

  Each head receives a real array: the node features at first, a normalised array afterwards. On a real input the
  two programs' arrays before normalisation are entry by entry equal or both infinite, so their normalisations are
  the same array; the four heads are chained one after the other.
-/
import proofs.«100906_j73718818669321_2_alg».proof.Proof.Spec
import proofs.«100906_j73718818669321_2_alg».proof.Proof.LibExtendedSums
import proofs.«100906_j73718818669321_2_alg».proof.Proof.BridgeHead
import proofs.«100906_j73718818669321_2_alg».proof.Proof.BridgeNorm

noncomputable section

namespace Cert.Spec

open Idealize.ShloMosaic Cert.Lib.ExtSums

/-- One head and the normalisation after it, on the same real input. -/
theorem normAll_pre3_eq (A : Args) (hA : A.Real) (h : Fin 4) (x : Fin 32768 → Fin 128 → EReal)
    (hx : ∀ n k, IsReal (x n k)) : normAll (pre3 A h x) = normAll (pre1 A h x) :=
  normAll_congr _ _ fun n c => pre3_eq_or_isInf A hA h x hx n c

theorem result3_eq_result1 (A : Args) (hA : A.Real) : result3 A = result1 A := by
  unfold result3 result1
  rw [normAll_pre3_eq A hA 0 A.nf hA.1,
    normAll_pre3_eq A hA 1 _ (fun n k => normAll_isReal _ n k),
    normAll_pre3_eq A hA 2 _ (fun n k => normAll_isReal _ n k),
    normAll_pre3_eq A hA 3 _ (fun n k => normAll_isReal _ n k)]

end Cert.Spec

end
-- ==== Proof.BridgeFinite.lean ====
/-
  `all(|x| < +∞)` read back at an element.

  The f32 word `0x7F800000` denotes `⊤`; an extended real whose absolute value `max x (-x)` is below `⊤` is a real
  number; and an array whose comparison `|x| < +∞`, reduced by `and` over every axis, comes out 1 has a real number
  at every index.
-/
import Idealize.ShloMosaic.PureOps.Ideal
import Idealize.ShloMosaic.Lib.ReduceAll
import Idealize.ShloMosaic.Lib.ValueIdx

noncomputable section

namespace Cert.Spec

open Idealize.ShloMosaic

/-- The word of `+∞`. -/
theorem ofBits_posInf : Ideal.ofBits .f32 0x7F800000#32 = ⊤ := by
  simp [Ideal.ofBits, Ideal.ieee]

/-- An extended real of absolute value below `⊤` is a real number. -/
theorem exists_real_of_abs_lt_top (x : EReal) (h : max x (-x) < ⊤) : ∃ r : ℝ, x = r := by
  induction x using EReal.rec with
  | bot => simp at h
  | coe r => exact ⟨r, rfl⟩
  | top => simp at h

/-- The shape of a scalar. -/
abbrev S0 : Shape := ⟨0, ![]⟩

instance : Subsingleton S0.Idx := ⟨fun a b => funext fun d => d.elim0⟩

/-- An array whose `all(|x| < +∞)` is 1 holds a real number at every index. -/
theorem exists_real_of_all_finite {S : Shape} {axes : List (Fin S.rank)} (X : S.Idx → EReal)
    (hb : S0.BroadcastsInDim S (![] : Fin 0 → Fin S.rank)) (hr : S.ReducesTo axes S0) (hu : 0 < S0.numel)
    (h : Host.reduce IntOp.andi
        (cmpf (F := Ideal) (φ := .f32) .olt (Host.absf (F := Ideal) (φ := .f32) X)
          (broadcastInDim S ![] hb (constant (F := Ideal) S0 .f32 0x7F800000#32)))
        (constantI S0 1 1#1) hr hu ValueIdx.ix0 = 1#1)
    (i : S.Idx) : ∃ r : ℝ, X i = r := by
  have e := Host.reduce_andi_all _ _ hr hu _ h i
  have e' : Ideal.cmp .olt (max (X i) (-(X i))) (Ideal.ofBits .f32 0x7F800000#32) = 1#1 := e
  rw [ofBits_posInf] at e'
  apply exists_real_of_abs_lt_top
  by_contra hlt
  simp [Ideal.cmp, hlt] at e'

end Cert.Spec

end
-- ==== Proof.PreReal.lean ====
/-
  The precondition, read back: every entry of every argument array is a real number.

  The printed predicate is the conjunction, over the eleven argument arrays, of `all(|x| < +∞)`; where it is 1 each
  conjunct is 1, and each conjunct gives a real number at every index of its array.
-/
import proofs.«100906_j73718818669321_2_alg».proof.Defs
import proofs.«100906_j73718818669321_2_alg».proof.Proof.SpecArgs
import proofs.«100906_j73718818669321_2_alg».proof.Proof.BridgeFinite

noncomputable section

namespace Cert.Spec

open Idealize.ShloMosaic Idealize.SL.Sem Idealize.ShloMosaic.ValueIdx

variable [Cert.Pre_finite_inputs.Facts]

/-- Arrays on which the printed predicate is 1 are real throughout. -/
theorem argsOf_real_of_fn
    (a0 : FVec Ideal Cert.Pre_finite_inputs.S32768x128 .f32)
    (a1 : FVec Ideal Cert.Pre_finite_inputs.S32768x8192 .f32)
    (a2 : FVec Ideal Cert.Pre_finite_inputs.S8192x128 .f32)
    (a3 : FVec Ideal Cert.Pre_finite_inputs.S4x128x64 .f32)
    (a4 : FVec Ideal Cert.Pre_finite_inputs.S4x64 .f32)
    (a5 : FVec Ideal Cert.Pre_finite_inputs.S4x128x64 .f32)
    (a6 : FVec Ideal Cert.Pre_finite_inputs.S4x64 .f32)
    (a7 : FVec Ideal Cert.Pre_finite_inputs.S4x64x1 .f32)
    (a8 : FVec Ideal Cert.Pre_finite_inputs.S4x1 .f32)
    (a9 : FVec Ideal Cert.Pre_finite_inputs.S4x64x128 .f32)
    (a10 : FVec Ideal Cert.Pre_finite_inputs.S4x128 .f32)
    (h : Cert.Pre_finite_inputs.fn (F := Ideal) a0 a1 a2 a3 a4 a5 a6 a7 a8 a9 a10 = fun _ => 1#1) :
    (argsOf a0 a1 a2 a3 a4 a5 a6 a7 a8 a9 a10).Real := by
  have h0 := congrFun h ValueIdx.ix0
  dsimp only [Cert.Pre_finite_inputs.fn, Cert.Pre_finite_inputs.fn_part1, Cert.Pre_finite_inputs.fn_part2,
    Cert.Pre_finite_inputs.fn_part3] at h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  unfold Args.Real
  exact ⟨fun n k => exists_real_of_all_finite a0 _ _ _ e0 (ix2 n k),
    fun n e => exists_real_of_all_finite a1 _ _ _ e1 (ix2 n e),
    fun e k => exists_real_of_all_finite a2 _ _ _ e2 (ix2 e k),
    fun h k j => exists_real_of_all_finite a3 _ _ _ e3 (ix3 h k j),
    fun h j => exists_real_of_all_finite a4 _ _ _ e4 (ix2 h j),
    fun h k j => exists_real_of_all_finite a5 _ _ _ e5 (ix3 h k j),
    fun h j => exists_real_of_all_finite a6 _ _ _ e6 (ix2 h j),
    fun h j => exists_real_of_all_finite a7 _ _ _ e7 (ix3 h j 0),
    fun h => exists_real_of_all_finite a8 _ _ _ e8 (ix2 h 0),
    fun h j c => exists_real_of_all_finite a9 _ _ _ e9 (ix3 h j c),
    fun h c => exists_real_of_all_finite a10 _ _ _ e10 (ix2 h c)⟩

/-- Under the precondition the argument arrays of the idealized kernel, on every device, are real throughout. -/
theorem args_real_of_pre
    (m : (ℓ : Loc Cert.KernelIdeal.nD Cert.KernelIdeal.τ Cert.KernelIdeal.sig) → Buf (Elt Ideal) ℓ)
    (h : Cert.Pre_KernelIdeal m) (c : Dev Cert.KernelIdeal.nD) :
    (argsOf
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))).Real :=
  argsOf_real_of_fn _ _ _ _ _ _ _ _ _ _ _ (h c)

end Cert.Spec

end
-- ==== Proof.lean ====
/-
  Four attention heads over a hypergraph, applied one after the other: each head maps the node array to a gated
  residual of the node transform and the degree-normalised aggregate of the edge transform, projects it, and
  normalises every column to [0, 1] by its minimum and maximum before clipping at zero. The kernel program computes
  all four aggregates in one aggregation kernel and each head in a kernel of its own that normalises the previous
  head's output on load, splits every matrix operand into a high and a low bf16 part and sums three passes, and
  keeps a running column minimum and maximum over its four grid points.

  On the extended reals a change of format is the identity, so the low part of x is x - x: zero for a real x, and
  ⊥ for an infinite one. Every input is real by the precondition, so every head's input, a normalised array, is real,
  and the node transform, score and gate agree on both sides; the second product's left operand may be infinite
  (where a node's degree plus ε is zero), and then the two programs' arrays before normalisation are both infinite
  at that entry, so both columns normalise to zeros. Hence the results agree at every index.

  The frames: each program runs as its host stretches and kernel regions in order, each region between the
  contents of the unscoped buffers before and after it; no item writes an argument array.
-/
import proofs.«100906_j73718818669321_2_alg».proof.Defs
import proofs.«100906_j73718818669321_2_alg».proof.Proof.Gen.Kernel
import proofs.«100906_j73718818669321_2_alg».proof.Proof.Gen.KernelIdeal
import proofs.«100906_j73718818669321_2_alg».proof.Proof.Gen.ReferenceIdeal
import proofs.«100906_j73718818669321_2_alg».proof.Proof.Gen.Pre_finite_inputs
import proofs.«100906_j73718818669321_2_alg».proof.Proof.Preserves
import proofs.«100906_j73718818669321_2_alg».proof.Proof.BitsAsmChain
import proofs.«100906_j73718818669321_2_alg».proof.Proof.KerRun
import proofs.«100906_j73718818669321_2_alg».proof.Proof.RefSide
import proofs.«100906_j73718818669321_2_alg».proof.Proof.Bridge
import proofs.«100906_j73718818669321_2_alg».proof.Proof.PreReal

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Asm.frame (F := Bits) m ρ,
  fun m ρ _ => Cert.KernelIdeal.Asm.frame (F := Ideal) m ρ,
  fun m ρ _ => (θ_run Cert.ReferenceIdeal.defs _ _).mono (fun _ h c => (h c).2) (Cert.RefSide.run m ρ),
  Cert.Proof.preserves,
  fun m ρ m' ρ' hpre hagree => ⟨_, Cert.KernelIdeal.Ker.run_value m ρ,
    (θ_run Cert.ReferenceIdeal.defs _ _).mono (fun _ h c => ⟨(h c).1.trans (by
      rw [(hagree c).1, (hagree c).2.1, (hagree c).2.2.1, (hagree c).2.2.2.1, (hagree c).2.2.2.2.1, (hagree c).2.2.2.2.2.1,
        (hagree c).2.2.2.2.2.2.1, (hagree c).2.2.2.2.2.2.2.1, (hagree c).2.2.2.2.2.2.2.2.1, (hagree c).2.2.2.2.2.2.2.2.2.1,
        (hagree c).2.2.2.2.2.2.2.2.2.2,
        Cert.Spec.result3_eq_result1 _ (Cert.Spec.args_real_of_pre m hpre c)]
      rfl), (h c).2⟩)
      (Cert.RefSide.run m' ρ')⟩⟩

end Cert.Proof

end
